-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S6144x128 : Shape := ⟨2, ![6144, 128]⟩
abbrev S4096x128 : Shape := ⟨2, ![4096, 128]⟩
abbrev S2048x6144 : Shape := ⟨2, ![2048, 6144]⟩
abbrev S6144x4096 : Shape := ⟨2, ![6144, 4096]⟩
abbrev S2048x2048 : Shape := ⟨2, ![2048, 2048]⟩
abbrev S6144x6144 : Shape := ⟨2, ![6144, 6144]⟩
abbrev S4096x4096 : Shape := ⟨2, ![4096, 4096]⟩
abbrev S2x128x128 : Shape := ⟨3, ![2, 128, 128]⟩
abbrev S128x2 : Shape := ⟨2, ![128, 2]⟩
abbrev S2 : Shape := ⟨1, ![2]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S6144x128 : S_.BroadcastsInDim S6144x128 (![] : Fin 0 → Fin S6144x128.rank)
  reducesTo_S6144x128_S_d0_1 : S6144x128.ReducesTo [0, 1] S_
  bcast_S_S4096x128 : S_.BroadcastsInDim S4096x128 (![] : Fin 0 → Fin S4096x128.rank)
  reducesTo_S4096x128_S_d0_1 : S4096x128.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S6144x4096 : S_.BroadcastsInDim S6144x4096 (![] : Fin 0 → Fin S6144x4096.rank)
  reducesTo_S6144x4096_S_d0_1 : S6144x4096.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144x6144 : S_.BroadcastsInDim S6144x6144 (![] : Fin 0 → Fin S6144x6144.rank)
  reducesTo_S6144x6144_S_d0_1 : S6144x6144.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg21 : FVec F S2 .f32) (main_arg22 : FVec F S128x2 .f32) (main_arg23 : FVec F S2 .f32) (main_v98 : IVec S_ 1) (main_v101 : IVec S128x2 1) (main_c_39 : IVec S_ 1) : IVec S_ 1 :=
  let main_v102 : IVec S_ 1 := (fun x v => Host.reduce IntOp.andi x v reducesTo_S128x2_S_d0_1 h_S_) main_v101 main_c_39
  let main_v103 : IVec S_ 1 := andi main_v98 main_v102
  let main_v104 : FVec F S2 .f32 := Host.absf main_arg21
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  let main_v109 : FVec F S128x2 .f32 := Host.absf main_arg22
  let main_cst_42 : FVec F S_ .f32 := constant S_ .f32 0x7F800000#32
  let main_v110 : FVec F S128x2 .f32 := broadcastInDim S128x2 ![] bcast_S_S128x2 main_cst_42
  let main_v111 : IVec S128x2 1 := cmpf .olt main_v109 main_v110
  let main_c_43 : IVec S_ 1 := constantI S_ 1 1#1
  let main_v112 : IVec S_ 1 := (fun x v => Host.reduce IntOp.andi x v reducesTo_S128x2_S_d0_1 h_S_) main_v111 main_c_43
  let main_v113 : IVec S_ 1 := andi main_v108 main_v112
  let main_v114 : FVec F S2 .f32 := Host.absf main_arg23
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg18 : FVec F S128x2 .f32) (main_arg19 : FVec F S2 .f32) (main_arg20 : FVec F S128x2 .f32) (main_arg21 : FVec F S2 .f32) (main_arg22 : FVec F S128x2 .f32) (main_arg23 : FVec F S2 .f32) (main_v83 : IVec S_ 1) (main_v84 : FVec F S2x128x128 .f32) (main_cst_32 : FVec F S_ .f32) : IVec S_ 1 :=
  let main_v85 : FVec F S2x128x128 .f32 := broadcastInDim S2x128x128 ![] bcast_S_S2x128x128 main_cst_32
  let main_v86 : IVec S2x128x128 1 := cmpf .olt main_v84 main_v85
  let main_c_33 : IVec S_ 1 := constantI S_ 1 1#1
  let main_v87 : IVec S_ 1 := (fun x v => Host.reduce IntOp.andi x v reducesTo_S2x128x128_S_d0_1_2 h_S_) main_v86 main_c_33
  let main_v88 : IVec S_ 1 := andi main_v83 main_v87
  let main_v89 : FVec F S128x2 .f32 := Host.absf main_arg18
  let main_cst_34 : FVec F S_ .f32 := constant S_ .f32 0x7F800000#32
  let main_v90 : FVec F S128x2 .f32 := broadcastInDim S128x2 ![] bcast_S_S128x2 main_cst_34
  let main_v91 : IVec S128x2 1 := cmpf .olt main_v89 main_v90
  let main_c_35 : IVec S_ 1 := constantI S_ 1 1#1
  let main_v92 : IVec S_ 1 := (fun x v => Host.reduce IntOp.andi x v reducesTo_S128x2_S_d0_1 h_S_) main_v91 main_c_35
  let main_v93 : IVec S_ 1 := andi main_v88 main_v92
  let main_v94 : FVec F S2 .f32 := Host.absf main_arg19
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  let main_v99 : FVec F S128x2 .f32 := Host.absf main_arg20
  let main_cst_38 : FVec F S_ .f32 := constant S_ .f32 0x7F800000#32
  let main_v100 : FVec F S128x2 .f32 := broadcastInDim S128x2 ![] bcast_S_S128x2 main_cst_38
  let main_v101 : IVec S128x2 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S2x128x128 .f32) (main_arg15 : FVec F S2x128x128 .f32) (main_arg16 : FVec F S2x128x128 .f32) (main_arg17 : FVec F S2x128x128 .f32) (main_arg18 : FVec F S128x2 .f32) (main_arg19 : FVec F S2 .f32) (main_arg20 : FVec F S128x2 .f32) (main_arg21 : FVec F S2 .f32) (main_arg22 : FVec F S128x2 .f32) (main_arg23 : FVec F S2 .f32) (main_v63 : IVec S_ 1) (main_v67 : IVec S_ 1) : IVec S_ 1 :=
  let main_v68 : IVec S_ 1 := andi main_v63 main_v67
  let main_v69 : FVec F S2x128x128 .f32 := Host.absf main_arg14
  let main_cst_26 : FVec F S_ .f32 := constant S_ .f32 0x7F800000#32
  let main_v70 : FVec F S2x128x128 .f32 := broadcastInDim S2x128x128 ![] bcast_S_S2x128x128 main_cst_26
  let main_v71 : IVec S2x128x128 1 := cmpf .olt main_v69 main_v70
  let main_c_27 : IVec S_ 1 := constantI S_ 1 1#1
  let main_v72 : IVec S_ 1 := (fun x v => Host.reduce IntOp.andi x v reducesTo_S2x128x128_S_d0_1_2 h_S_) main_v71 main_c_27
  let main_v73 : IVec S_ 1 := andi main_v68 main_v72
  let main_v74 : FVec F S2x128x128 .f32 := Host.absf main_arg15
  let main_cst_28 : FVec F S_ .f32 := constant S_ .f32 0x7F800000#32
  let main_v75 : FVec F S2x128x128 .f32 := broadcastInDim S2x128x128 ![] bcast_S_S2x128x128 main_cst_28
  let main_v76 : IVec S2x128x128 1 := cmpf .olt main_v74 main_v75
  let main_c_29 : IVec S_ 1 := constantI S_ 1 1#1
  let main_v77 : IVec S_ 1 := (fun x v => Host.reduce IntOp.andi x v reducesTo_S2x128x128_S_d0_1_2 h_S_) main_v76 main_c_29
  let main_v78 : IVec S_ 1 := andi main_v73 main_v77
  let main_v79 : FVec F S2x128x128 .f32 := Host.absf main_arg16
  let main_cst_30 : FVec F S_ .f32 := constant S_ .f32 0x7F800000#32
  let main_v80 : FVec F S2x128x128 .f32 := broadcastInDim S2x128x128 ![] bcast_S_S2x128x128 main_cst_30
  let main_v81 : IVec S2x128x128 1 := cmpf .olt main_v79 main_v80
  let main_c_31 : IVec S_ 1 := constantI S_ 1 1#1
  let main_v82 : IVec S_ 1 := (fun x v => Host.reduce IntOp.andi x v reducesTo_S2x128x128_S_d0_1_2 h_S_) main_v81 main_c_31
  let main_v83 : IVec S_ 1 := andi main_v78 main_v82
  let main_v84 : FVec F S2x128x128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S2x128x128 .f32) (main_arg12 : FVec F S2x128x128 .f32) (main_arg13 : FVec F S2x128x128 .f32) (main_arg14 : FVec F S2x128x128 .f32) (main_arg15 : FVec F S2x128x128 .f32) (main_arg16 : FVec F S2x128x128 .f32) (main_arg17 : FVec F S2x128x128 .f32) (main_arg18 : FVec F S128x2 .f32) (main_arg19 : FVec F S2 .f32) (main_arg20 : FVec F S128x2 .f32) (main_arg21 : FVec F S2 .f32) (main_arg22 : FVec F S128x2 .f32) (main_arg23 : FVec F S2 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S2x128x128 .f32 := Host.absf main_arg11
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S2x128x128 .f32 := Host.absf main_arg12
  let main_cst_22 : FVec F S_ .f32 := constant S_ .f32 0x7F800000#32
  let main_v60 : FVec F S2x128x128 .f32 := broadcastInDim S2x128x128 ![] bcast_S_S2x128x128 main_cst_22
  let main_v61 : IVec S2x128x128 1 := cmpf .olt main_v59 main_v60
  let main_c_23 : IVec S_ 1 := constantI S_ 1 1#1
  let main_v62 : IVec S_ 1 := (fun x v => Host.reduce IntOp.andi x v reducesTo_S2x128x128_S_d0_1_2 h_S_) main_v61 main_c_23
  let main_v63 : IVec S_ 1 := andi main_v58 main_v62
  let main_v64 : FVec F S2x128x128 .f32 := Host.absf main_arg13
  let main_cst_24 : FVec F S_ .f32 := constant S_ .f32 0x7F800000#32
  let main_v65 : FVec F S2x128x128 .f32 := broadcastInDim S2x128x128 ![] bcast_S_S2x128x128 main_cst_24
  let main_v66 : IVec S2x128x128 1 := cmpf .olt main_v64 main_v65
  let main_c_25 : IVec S_ 1 := constantI S_ 1 1#1
  let main_v67 : IVec S_ 1 := (fun x v => Host.reduce IntOp.andi x v reducesTo_S2x128x128_S_d0_1_2 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S2048x2048 .f32) (main_arg8 : FVec F S6144x6144 .f32) (main_arg9 : FVec F S6144x6144 .f32) (main_arg10 : FVec F S4096x4096 .f32) (main_arg11 : FVec F S2x128x128 .f32) (main_arg12 : FVec F S2x128x128 .f32) (main_arg13 : FVec F S2x128x128 .f32) (main_arg14 : FVec F S2x128x128 .f32) (main_arg15 : FVec F S2x128x128 .f32) (main_arg16 : FVec F S2x128x128 .f32) (main_arg17 : FVec F S2x128x128 .f32) (main_arg18 : FVec F S128x2 .f32) (main_arg19 : FVec F S2 .f32) (main_arg20 : FVec F S128x2 .f32) (main_arg21 : FVec F S2 .f32) (main_arg22 : FVec F S128x2 .f32) (main_arg23 : FVec F S2 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S6144x6144 .f32 := Host.absf main_arg8
  let main_cst_14 : FVec F S_ .f32 := constant S_ .f32 0x7F800000#32
  let main_v40 : FVec F S6144x6144 .f32 := broadcastInDim S6144x6144 ![] bcast_S_S6144x6144 main_cst_14
  let main_v41 : IVec S6144x6144 1 := cmpf .olt main_v39 main_v40
  let main_c_15 : IVec S_ 1 := constantI S_ 1 1#1
  let main_v42 : IVec S_ 1 := (fun x v => Host.reduce IntOp.andi x v reducesTo_S6144x6144_S_d0_1 h_S_) main_v41 main_c_15
  let main_v43 : IVec S_ 1 := andi main_v38 main_v42
  let main_v44 : FVec F S6144x6144 .f32 := Host.absf main_arg9
  let main_cst_16 : FVec F S_ .f32 := constant S_ .f32 0x7F800000#32
  let main_v45 : FVec F S6144x6144 .f32 := broadcastInDim S6144x6144 ![] bcast_S_S6144x6144 main_cst_16
  let main_v46 : IVec S6144x6144 1 := cmpf .olt main_v44 main_v45
  let main_c_17 : IVec S_ 1 := constantI S_ 1 1#1
  let main_v47 : IVec S_ 1 := (fun x v => Host.reduce IntOp.andi x v reducesTo_S6144x6144_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S2048x6144 .f32) (main_arg5 : FVec F S6144x4096 .f32) (main_arg6 : FVec F S6144x4096 .f32) (main_arg7 : FVec F S2048x2048 .f32) (main_arg8 : FVec F S6144x6144 .f32) (main_arg9 : FVec F S6144x6144 .f32) (main_arg10 : FVec F S4096x4096 .f32) (main_arg11 : FVec F S2x128x128 .f32) (main_arg12 : FVec F S2x128x128 .f32) (main_arg13 : FVec F S2x128x128 .f32) (main_arg14 : FVec F S2x128x128 .f32) (main_arg15 : FVec F S2x128x128 .f32) (main_arg16 : FVec F S2x128x128 .f32) (main_arg17 : FVec F S2x128x128 .f32) (main_arg18 : FVec F S128x2 .f32) (main_arg19 : FVec F S2 .f32) (main_arg20 : FVec F S128x2 .f32) (main_arg21 : FVec F S2 .f32) (main_arg22 : FVec F S128x2 .f32) (main_arg23 : FVec F S2 .f32) (main_v13 : IVec S_ 1) (main_v16 : IVec S2048x6144 1) : IVec S_ 1 :=
  let main_c_5 : IVec S_ 1 := constantI S_ 1 1#1
  let main_v17 : IVec S_ 1 := (fun x v => Host.reduce IntOp.andi x v reducesTo_S2048x6144_S_d0_1 h_S_) main_v16 main_c_5
  let main_v18 : IVec S_ 1 := andi main_v13 main_v17
  let main_v19 : FVec F S2048x6144 .f32 := Host.absf main_arg4
  let main_cst_6 : FVec F S_ .f32 := constant S_ .f32 0x7F800000#32
  let main_v20 : FVec F S2048x6144 .f32 := broadcastInDim S2048x6144 ![] bcast_S_S2048x6144 main_cst_6
  let main_v21 : IVec S2048x6144 1 := cmpf .olt main_v19 main_v20
  let main_c_7 : IVec S_ 1 := constantI S_ 1 1#1
  let main_v22 : IVec S_ 1 := (fun x v => Host.reduce IntOp.andi x v reducesTo_S2048x6144_S_d0_1 h_S_) main_v21 main_c_7
  let main_v23 : IVec S_ 1 := andi main_v18 main_v22
  let main_v24 : FVec F S6144x4096 .f32 := Host.absf main_arg5
  let main_cst_8 : FVec F S_ .f32 := constant S_ .f32 0x7F800000#32
  let main_v25 : FVec F S6144x4096 .f32 := broadcastInDim S6144x4096 ![] bcast_S_S6144x4096 main_cst_8
  let main_v26 : IVec S6144x4096 1 := cmpf .olt main_v24 main_v25
  let main_c_9 : IVec S_ 1 := constantI S_ 1 1#1
  let main_v27 : IVec S_ 1 := (fun x v => Host.reduce IntOp.andi x v reducesTo_S6144x4096_S_d0_1 h_S_) main_v26 main_c_9
  let main_v28 : IVec S_ 1 := andi main_v23 main_v27
  let main_v29 : FVec F S6144x4096 .f32 := Host.absf main_arg6
  let main_cst_10 : FVec F S_ .f32 := constant S_ .f32 0x7F800000#32
  let main_v30 : FVec F S6144x4096 .f32 := broadcastInDim S6144x4096 ![] bcast_S_S6144x4096 main_cst_10
  let main_v31 : IVec S6144x4096 1 := cmpf .olt main_v29 main_v30
  let main_c_11 : IVec S_ 1 := constantI S_ 1 1#1
  let main_v32 : IVec S_ 1 := (fun x v => Host.reduce IntOp.andi x v reducesTo_S6144x4096_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S2048x128 .f32) (main_arg1 : FVec F S6144x128 .f32) (main_arg2 : FVec F S4096x128 .f32) (main_arg3 : FVec F S2048x6144 .f32) (main_arg4 : FVec F S2048x6144 .f32) (main_arg5 : FVec F S6144x4096 .f32) (main_arg6 : FVec F S6144x4096 .f32) (main_arg7 : FVec F S2048x2048 .f32) (main_arg8 : FVec F S6144x6144 .f32) (main_arg9 : FVec F S6144x6144 .f32) (main_arg10 : FVec F S4096x4096 .f32) (main_arg11 : FVec F S2x128x128 .f32) (main_arg12 : FVec F S2x128x128 .f32) (main_arg13 : FVec F S2x128x128 .f32) (main_arg14 : FVec F S2x128x128 .f32) (main_arg15 : FVec F S2x128x128 .f32) (main_arg16 : FVec F S2x128x128 .f32) (main_arg17 : FVec F S2x128x128 .f32) (main_arg18 : FVec F S128x2 .f32) (main_arg19 : FVec F S2 .f32) (main_arg20 : FVec F S128x2 .f32) (main_arg21 : FVec F S2 .f32) (main_arg22 : FVec F S128x2 .f32) (main_arg23 : FVec F S2 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S6144x128 .f32 := Host.absf main_arg1
  let main_cst_0 : FVec F S_ .f32 := constant S_ .f32 0x7F800000#32
  let main_v5 : FVec F S6144x128 .f32 := broadcastInDim S6144x128 ![] bcast_S_S6144x128 main_cst_0
  let main_v6 : IVec S6144x128 1 := cmpf .olt main_v4 main_v5
  let main_c_1 : IVec S_ 1 := constantI S_ 1 1#1
  let main_v7 : IVec S_ 1 := (fun x v => Host.reduce IntOp.andi x v reducesTo_S6144x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S2048x6144 .f32 := Host.absf main_arg3
  let main_cst_4 : FVec F S_ .f32 := constant S_ .f32 0x7F800000#32
  let main_v15 : FVec F S2048x6144 .f32 := broadcastInDim S2048x6144 ![] bcast_S_S2048x6144 main_cst_4
  let main_v16 : IVec S2048x6144 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S2048x128 : Shape := ⟨2, ![2048, 128]⟩
abbrev S6144x128 : Shape := ⟨2, ![6144, 128]⟩
abbrev S4096x128 : Shape := ⟨2, ![4096, 128]⟩
abbrev S2048x6144 : Shape := ⟨2, ![2048, 6144]⟩
abbrev S6144x4096 : Shape := ⟨2, ![6144, 4096]⟩
abbrev S2048x2048 : Shape := ⟨2, ![2048, 2048]⟩
abbrev S6144x6144 : Shape := ⟨2, ![6144, 6144]⟩
abbrev S4096x4096 : Shape := ⟨2, ![4096, 4096]⟩
abbrev S2x128x128 : Shape := ⟨3, ![2, 128, 128]⟩
abbrev S128x2 : Shape := ⟨2, ![128, 2]⟩
abbrev S2 : Shape := ⟨1, ![2]⟩
abbrev S1x128x128 : Shape := ⟨3, ![1, 128, 128]⟩
abbrev S128x128 : Shape := ⟨2, ![128, 128]⟩
abbrev S1024x2048 : Shape := ⟨2, ![1024, 2048]⟩
abbrev S1024x128 : Shape := ⟨2, ![1024, 128]⟩
abbrev S2048x1024 : Shape := ⟨2, ![2048, 1024]⟩
abbrev S1024x1024 : Shape := ⟨2, ![1024, 1024]⟩
abbrev S2048x2 : Shape := ⟨2, ![2048, 2]⟩
abbrev S1x2 : Shape := ⟨2, ![1, 2]⟩
abbrev S6144x2 : Shape := ⟨2, ![6144, 2]⟩
abbrev S4096x2 : Shape := ⟨2, ![4096, 2]⟩
abbrev S_ : Shape := ⟨0, ![]⟩

abbrev nBuf : Space → Nat
  | .hbm => 195
  | .vmem => 104
  | .smem => 0
  | _ => 0

abbrev hbmTy0_0 (i : Nat) : BufTy := match i % 128 with
  | 0 => ⟨S2048x128, .f32⟩
  | 1 => ⟨S6144x128, .f32⟩
  | 2 => ⟨S4096x128, .f32⟩
  | 3 => ⟨S2048x6144, .f32⟩
  | 4 => ⟨S2048x6144, .f32⟩
  | 5 => ⟨S6144x4096, .f32⟩
  | 6 => ⟨S6144x4096, .f32⟩
  | 7 => ⟨S2048x2048, .f32⟩
  | 8 => ⟨S6144x6144, .f32⟩
  | 9 => ⟨S6144x6144, .f32⟩
  | 10 => ⟨S4096x4096, .f32⟩
  | 11 => ⟨S2x128x128, .f32⟩
  | 12 => ⟨S2x128x128, .f32⟩
  | 13 => ⟨S2x128x128, .f32⟩
  | 14 => ⟨S2x128x128, .f32⟩
  | 15 => ⟨S2x128x128, .f32⟩
  | 16 => ⟨S2x128x128, .f32⟩
  | 17 => ⟨S2x128x128, .f32⟩
  | 18 => ⟨S128x2, .f32⟩
  | 19 => ⟨S2, .f32⟩
  | 20 => ⟨S128x2, .f32⟩
  | 21 => ⟨S2, .f32⟩
  | 22 => ⟨S128x2, .f32⟩
  | 23 => ⟨S2, .f32⟩
  | 24 => ⟨S1x128x128, .f32⟩
  | 25 => ⟨S128x128, .f32⟩
  | 26 => ⟨S1x128x128, .f32⟩
  | 27 => ⟨S128x128, .f32⟩
  | 28 => ⟨S1x128x128, .f32⟩
  | 29 => ⟨S128x128, .f32⟩
  | 30 => ⟨S1x128x128, .f32⟩
  | 31 => ⟨S128x128, .f32⟩
  | 32 => ⟨S1x128x128, .f32⟩
  | 33 => ⟨S128x128, .f32⟩
  | 34 => ⟨S1x128x128, .f32⟩
  | 35 => ⟨S128x128, .f32⟩
  | 36 => ⟨S1x128x128, .f32⟩
  | 37 => ⟨S128x128, .f32⟩
  | 38 => ⟨S2048x128, .f32⟩
  | 39 => ⟨S2048x128, .bf16⟩
  | 40 => ⟨S6144x128, .f32⟩
  | 41 => ⟨S6144x128, .bf16⟩
  | 42 => ⟨S2048x128, .f32⟩
  | 43 => ⟨S2048x128, .bf16⟩
  | 44 => ⟨S6144x128, .f32⟩
  | 45 => ⟨S6144x128, .bf16⟩
  | 46 => ⟨S4096x128, .f32⟩
  | 47 => ⟨S4096x128, .bf16⟩
  | 48 => ⟨S6144x128, .f32⟩
  | 49 => ⟨S6144x128, .bf16⟩
  | 50 => ⟨S4096x128, .f32⟩
  | 51 => ⟨S4096x128, .bf16⟩
  | 52 => ⟨S2048x128, .f32⟩
  | 53 => ⟨S2048x128, .f32⟩
  | 54 => ⟨S6144x128, .f32⟩
  | 55 => ⟨S6144x128, .f32⟩
  | 56 => ⟨S6144x128, .f32⟩
  | 57 => ⟨S4096x128, .f32⟩
  | 58 => ⟨S4096x128, .f32⟩
  | 59 => ⟨S1x128x128, .f32⟩
  | 60 => ⟨S128x128, .f32⟩
  | 61 => ⟨S1x128x128, .f32⟩
  | 62 => ⟨S128x128, .f32⟩
  | 63 => ⟨S1x128x128, .f32⟩
  | 64 => ⟨S128x128, .f32⟩
  | 65 => ⟨S1x128x128, .f32⟩
  | 66 => ⟨S128x128, .f32⟩
  | 67 => ⟨S1x128x128, .f32⟩
  | 68 => ⟨S128x128, .f32⟩
  | 69 => ⟨S1x128x128, .f32⟩
  | 70 => ⟨S128x128, .f32⟩
  | 71 => ⟨S1x128x128, .f32⟩
  | 72 => ⟨S128x128, .f32⟩
  | 73 => ⟨S2048x128, .f32⟩
  | 74 => ⟨S2048x128, .bf16⟩
  | 75 => ⟨S6144x128, .f32⟩
  | 76 => ⟨S6144x128, .bf16⟩
  | 77 => ⟨S2048x128, .f32⟩
  | 78 => ⟨S2048x128, .bf16⟩
  | 79 => ⟨S6144x128, .f32⟩
  | 80 => ⟨S6144x128, .bf16⟩
  | 81 => ⟨S4096x128, .f32⟩
  | 82 => ⟨S4096x128, .bf16⟩
  | 83 => ⟨S6144x128, .f32⟩
  | 84 => ⟨S6144x128, .bf16⟩
  | 85 => ⟨S4096x128, .f32⟩
  | 86 => ⟨S4096x128, .bf16⟩
  | 87 => ⟨S2048x128, .f32⟩
  | 88 => ⟨S2048x128, .f32⟩
  | 89 => ⟨S6144x128, .f32⟩
  | 90 => ⟨S6144x128, .f32⟩
  | 91 => ⟨S6144x128, .f32⟩
  | 92 => ⟨S4096x128, .f32⟩
  | 93 => ⟨S4096x128, .f32⟩
  | 94 => ⟨S2048x2, .f32⟩
  | 95 => ⟨S1x2, .f32⟩
  | 96 => ⟨S2048x2, .f32⟩
  | 97 => ⟨S2048x2, .f32⟩
  | 98 => ⟨S6144x2, .f32⟩
  | 99 => ⟨S1x2, .f32⟩
  | 100 => ⟨S6144x2, .f32⟩
  | 101 => ⟨S6144x2, .f32⟩
  | 102 => ⟨S4096x2, .f32⟩
  | 103 => ⟨S1x2, .f32⟩
  | 104 => ⟨S4096x2, .f32⟩
  | 105 => ⟨S4096x2, .f32⟩
  | 106 => ⟨S2048x2, .i1⟩
  | 107 => ⟨S2048x2, .i1⟩
  | 108 => ⟨S2048x2, .i32⟩
  | 109 => ⟨S2048x2, .f32⟩
  | 110 => ⟨S_, .f32⟩
  | 111 => ⟨S2, .f32⟩
  | 112 => ⟨S2048x2, .i1⟩
  | 113 => ⟨S_, .f32⟩
  | 114 => ⟨S2048x2, .f32⟩
  | 115 => ⟨S2048x2, .f32⟩
  | 116 => ⟨S_, .f32⟩
  | 117 => ⟨S2, .f32⟩
  | 118 => ⟨S2, .f32⟩
  | 119 => ⟨S2, .i1⟩
  | 120 => ⟨S_, .f32⟩
  | 121 => ⟨S2, .f32⟩
  | 122 => ⟨S2, .f32⟩
  | 123 => ⟨S_, .f32⟩
  | 124 => ⟨S2, .f32⟩
  | 125 => ⟨S2, .i1⟩
  | 126 => ⟨S_, .f32⟩
  | 127 => ⟨S2, .f32⟩
  | _ => ⟨S2048x128, .f32⟩

abbrev hbmTy0_1 (i : Nat) : BufTy := match i % 128 with
  | 0 => ⟨S2, .f32⟩
  | 1 => ⟨S_, .f32⟩
  | 2 => ⟨S2, .f32⟩
  | 3 => ⟨S2, .i1⟩
  | 4 => ⟨S_, .f32⟩
  | 5 => ⟨S2, .f32⟩
  | 6 => ⟨S2, .f32⟩
  | 7 => ⟨S6144x2, .i1⟩
  | 8 => ⟨S6144x2, .i1⟩
  | 9 => ⟨S6144x2, .i32⟩
  | 10 => ⟨S6144x2, .f32⟩
  | 11 => ⟨S_, .f32⟩
  | 12 => ⟨S2, .f32⟩
  | 13 => ⟨S6144x2, .i1⟩
  | 14 => ⟨S_, .f32⟩
  | 15 => ⟨S6144x2, .f32⟩
  | 16 => ⟨S6144x2, .f32⟩
  | 17 => ⟨S_, .f32⟩
  | 18 => ⟨S2, .f32⟩
  | 19 => ⟨S2, .f32⟩
  | 20 => ⟨S2, .i1⟩
  | 21 => ⟨S_, .f32⟩
  | 22 => ⟨S2, .f32⟩
  | 23 => ⟨S2, .f32⟩
  | 24 => ⟨S_, .f32⟩
  | 25 => ⟨S2, .f32⟩
  | 26 => ⟨S2, .i1⟩
  | 27 => ⟨S_, .f32⟩
  | 28 => ⟨S2, .f32⟩
  | 29 => ⟨S2, .f32⟩
  | 30 => ⟨S_, .f32⟩
  | 31 => ⟨S2, .f32⟩
  | 32 => ⟨S2, .i1⟩
  | 33 => ⟨S_, .f32⟩
  | 34 => ⟨S2, .f32⟩
  | 35 => ⟨S2, .f32⟩
  | 36 => ⟨S4096x2, .i1⟩
  | 37 => ⟨S4096x2, .i1⟩
  | 38 => ⟨S4096x2, .i32⟩
  | 39 => ⟨S4096x2, .f32⟩
  | 40 => ⟨S_, .f32⟩
  | 41 => ⟨S2, .f32⟩
  | 42 => ⟨S4096x2, .i1⟩
  | 43 => ⟨S_, .f32⟩
  | 44 => ⟨S4096x2, .f32⟩
  | 45 => ⟨S4096x2, .f32⟩
  | 46 => ⟨S_, .f32⟩
  | 47 => ⟨S2, .f32⟩
  | 48 => ⟨S2, .f32⟩
  | 49 => ⟨S2, .i1⟩
  | 50 => ⟨S_, .f32⟩
  | 51 => ⟨S2, .f32⟩
  | 52 => ⟨S2, .f32⟩
  | 53 => ⟨S_, .f32⟩
  | 54 => ⟨S2, .f32⟩
  | 55 => ⟨S2, .i1⟩
  | 56 => ⟨S_, .f32⟩
  | 57 => ⟨S2, .f32⟩
  | 58 => ⟨S2, .f32⟩
  | 59 => ⟨S_, .f32⟩
  | 60 => ⟨S2, .f32⟩
  | 61 => ⟨S2, .i1⟩
  | 62 => ⟨S_, .f32⟩
  | 63 => ⟨S2, .f32⟩
  | 64 => ⟨S2, .f32⟩
  | 65 => ⟨S2, .f32⟩
  | 66 => ⟨S2, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x2048, .f32⟩
  | .local _ .vmem, ⟨7, _⟩ => ⟨S1024x2048, .f32⟩
  | .local _ .vmem, ⟨8, _⟩ => ⟨S6144x128, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S2048x1024, .f32⟩
  | .local _ .vmem, ⟨15, _⟩ => ⟨S2048x1024, .f32⟩
  | .local _ .vmem, ⟨16, _⟩ => ⟨S2048x128, .bf16⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S6144x128, .bf16⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x2048, .f32⟩
  | .local _ .vmem, ⟨31, _⟩ => ⟨S1024x2048, .f32⟩
  | .local _ .vmem, ⟨32, _⟩ => ⟨S4096x128, .bf16⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S2048x1024, .f32⟩
  | .local _ .vmem, ⟨39, _⟩ => ⟨S2048x1024, .f32⟩
  | .local _ .vmem, ⟨40, _⟩ => ⟨S6144x128, .bf16⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x2048, .f32⟩
  | .local _ .vmem, ⟨45, _⟩ => ⟨S1024x2048, .f32⟩
  | .local _ .vmem, ⟨46, _⟩ => ⟨S4096x128, .bf16⟩
  | .local _ .vmem, ⟨47, _⟩ => ⟨S1024x128, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S1024x128, .f32⟩
  | .local _ .vmem, ⟨52, _⟩ => ⟨S1024x2048, .f32⟩
  | .local _ .vmem, ⟨53, _⟩ => ⟨S1024x2048, .f32⟩
  | .local _ .vmem, ⟨54, _⟩ => ⟨S2048x128, .bf16⟩
  | .local _ .vmem, ⟨55, _⟩ => ⟨S1024x128, .f32⟩
  | .local _ .vmem, ⟨56, _⟩ => ⟨S1024x128, .f32⟩
  | .local _ .vmem, ⟨57, _⟩ => ⟨S1024x128, .f32⟩
  | .local _ .vmem, ⟨58, _⟩ => ⟨S1024x2048, .f32⟩
  | .local _ .vmem, ⟨59, _⟩ => ⟨S1024x2048, .f32⟩
  | .local _ .vmem, ⟨60, _⟩ => ⟨S6144x128, .bf16⟩
  | .local _ .vmem, ⟨61, _⟩ => ⟨S1024x128, .f32⟩
  | .local _ .vmem, ⟨62, _⟩ => ⟨S1024x128, .f32⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S2048x1024, .f32⟩
  | .local _ .vmem, ⟨67, _⟩ => ⟨S2048x1024, .f32⟩
  | .local _ .vmem, ⟨68, _⟩ => ⟨S2048x128, .bf16⟩
  | .local _ .vmem, ⟨69, _⟩ => ⟨S1024x128, .f32⟩
  | .local _ .vmem, ⟨70, _⟩ => ⟨S1024x128, .f32⟩
  | .local _ .vmem, ⟨71, _⟩ => ⟨S1024x128, .f32⟩
  | .local _ .vmem, ⟨72, _⟩ => ⟨S1024x1024, .f32⟩
  | .local _ .vmem, ⟨73, _⟩ => ⟨S1024x1024, .f32⟩
  | .local _ .vmem, ⟨74, _⟩ => ⟨S1024x1024, .f32⟩
  | .local _ .vmem, ⟨75, _⟩ => ⟨S1024x1024, .f32⟩
  | .local _ .vmem, ⟨76, _⟩ => ⟨S6144x128, .bf16⟩
  | .local _ .vmem, ⟨77, _⟩ => ⟨S1024x128, .f32⟩
  | .local _ .vmem, ⟨78, _⟩ => ⟨S1024x128, .f32⟩
  | .local _ .vmem, ⟨79, _⟩ => ⟨S1024x128, .f32⟩
  | .local _ .vmem, ⟨80, _⟩ => ⟨S1024x128, .f32⟩
  | .local _ .vmem, ⟨81, _⟩ => ⟨S1024x128, .f32⟩
  | .local _ .vmem, ⟨82, _⟩ => ⟨S1024x2048, .f32⟩
  | .local _ .vmem, ⟨83, _⟩ => ⟨S1024x2048, .f32⟩
  | .local _ .vmem, ⟨84, _⟩ => ⟨S4096x128, .bf16⟩
  | .local _ .vmem, ⟨85, _⟩ => ⟨S1024x128, .f32⟩
  | .local _ .vmem, ⟨86, _⟩ => ⟨S1024x128, .f32⟩
  | .local _ .vmem, ⟨87, _⟩ => ⟨S1024x128, .f32⟩
  | .local _ .vmem, ⟨88, _⟩ => ⟨S1024x128, .f32⟩
  | .local _ .vmem, ⟨89, _⟩ => ⟨S1024x128, .f32⟩
  | .local _ .vmem, ⟨90, _⟩ => ⟨S2048x1024, .f32⟩
  | .local _ .vmem, ⟨91, _⟩ => ⟨S2048x1024, .f32⟩
  | .local _ .vmem, ⟨92, _⟩ => ⟨S6144x128, .bf16⟩
  | .local _ .vmem, ⟨93, _⟩ => ⟨S1024x128, .f32⟩
  | .local _ .vmem, ⟨94, _⟩ => ⟨S1024x128, .f32⟩
  | .local _ .vmem, ⟨95, _⟩ => ⟨S1024x128, .f32⟩
  | .local _ .vmem, ⟨96, _⟩ => ⟨S1024x2048, .f32⟩
  | .local _ .vmem, ⟨97, _⟩ => ⟨S1024x2048, .f32⟩
  | .local _ .vmem, ⟨98, _⟩ => ⟨S4096x128, .bf16⟩
  | .local _ .vmem, ⟨99, _⟩ => ⟨S1024x128, .f32⟩
  | .local _ .vmem, ⟨100, _⟩ => ⟨S1024x128, .f32⟩
  | .local _ .vmem, ⟨101, _⟩ => ⟨S1024x128, .f32⟩
  | .local _ .vmem, ⟨102, _⟩ => ⟨S1024x128, .f32⟩
  | .local _ .vmem, ⟨103, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_cst : Ref sig .tc := ⟨.hbm, 110, rfl⟩
abbrev main_call0_v4 : Ref sig .tc := ⟨.hbm, 111, rfl⟩
abbrev main_call0_call0_v0 : Ref sig .tc := ⟨.hbm, 112, rfl⟩
abbrev main_call0_call0_cst : Ref sig .tc := ⟨.hbm, 113, rfl⟩
abbrev main_call0_call0_call0_v0 : Ref sig .tc := ⟨.hbm, 114, rfl⟩
abbrev main_call0_call0_v1 : Ref sig .tc := ⟨.hbm, 115, rfl⟩
abbrev main_call0_call0_cst_0 : Ref sig .tc := ⟨.hbm, 116, rfl⟩
abbrev main_call0_v5 : Ref sig .tc := ⟨.hbm, 117, rfl⟩
abbrev main_v82 : Ref sig .tc := ⟨.hbm, 118, rfl⟩
abbrev main_call1_v0 : Ref sig .tc := ⟨.hbm, 119, rfl⟩
abbrev main_call1_cst : Ref sig .tc := ⟨.hbm, 120, rfl⟩
abbrev main_call1_call0_v0 : Ref sig .tc := ⟨.hbm, 121, rfl⟩
abbrev main_call1_v1 : Ref sig .tc := ⟨.hbm, 122, rfl⟩
abbrev main_call1_cst_0 : Ref sig .tc := ⟨.hbm, 123, rfl⟩
abbrev main_call1_v2 : Ref sig .tc := ⟨.hbm, 124, rfl⟩
abbrev main_call1_v3 : Ref sig .tc := ⟨.hbm, 125, rfl⟩
abbrev main_call1_cst_1 : Ref sig .tc := ⟨.hbm, 126, rfl⟩
abbrev main_call1_call1_v0 : Ref sig .tc := ⟨.hbm, 127, rfl⟩
abbrev main_call1_v4 : Ref sig .tc := ⟨.hbm, 128, rfl⟩
abbrev main_call1_cst_2 : Ref sig .tc := ⟨.hbm, 129, rfl⟩
abbrev main_call1_v5 : Ref sig .tc := ⟨.hbm, 130, rfl⟩
abbrev main_call1_v6 : Ref sig .tc := ⟨.hbm, 131, rfl⟩
abbrev main_call1_cst_3 : Ref sig .tc := ⟨.hbm, 132, rfl⟩
abbrev main_call1_call2_v0 : Ref sig .tc := ⟨.hbm, 133, rfl⟩
abbrev main_v83 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_cst : Ref sig .tc := ⟨.hbm, 139, rfl⟩
abbrev main_call2_v4 : Ref sig .tc := ⟨.hbm, 140, rfl⟩
abbrev main_call2_call0_v0 : Ref sig .tc := ⟨.hbm, 141, rfl⟩
abbrev main_call2_call0_cst : Ref sig .tc := ⟨.hbm, 142, rfl⟩
abbrev main_call2_call0_call0_v0 : Ref sig .tc := ⟨.hbm, 143, rfl⟩
abbrev main_call2_call0_v1 : Ref sig .tc := ⟨.hbm, 144, rfl⟩
abbrev main_call2_call0_cst_0 : Ref sig .tc := ⟨.hbm, 145, rfl⟩
abbrev main_call2_v5 : Ref sig .tc := ⟨.hbm, 146, rfl⟩
abbrev main_v84 : Ref sig .tc := ⟨.hbm, 147, rfl⟩
abbrev main_call3_v0 : Ref sig .tc := ⟨.hbm, 148, rfl⟩
abbrev main_call3_cst : Ref sig .tc := ⟨.hbm, 149, rfl⟩
abbrev main_call3_call0_v0 : Ref sig .tc := ⟨.hbm, 150, rfl⟩
abbrev main_call3_v1 : Ref sig .tc := ⟨.hbm, 151, rfl⟩
abbrev main_call3_cst_0 : Ref sig .tc := ⟨.hbm, 152, rfl⟩
abbrev main_call3_v2 : Ref sig .tc := ⟨.hbm, 153, rfl⟩
abbrev main_call3_v3 : Ref sig .tc := ⟨.hbm, 154, rfl⟩
abbrev main_call3_cst_1 : Ref sig .tc := ⟨.hbm, 155, rfl⟩
abbrev main_call3_call1_v0 : Ref sig .tc := ⟨.hbm, 156, rfl⟩
abbrev main_call3_v4 : Ref sig .tc := ⟨.hbm, 157, rfl⟩
abbrev main_call3_cst_2 : Ref sig .tc := ⟨.hbm, 158, rfl⟩
abbrev main_call3_v5 : Ref sig .tc := ⟨.hbm, 159, rfl⟩
abbrev main_call3_v6 : Ref sig .tc := ⟨.hbm, 160, rfl⟩
abbrev main_call3_cst_3 : Ref sig .tc := ⟨.hbm, 161, rfl⟩
abbrev main_call3_call2_v0 : Ref sig .tc := ⟨.hbm, 162, rfl⟩
abbrev main_v85 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_cst : Ref sig .tc := ⟨.hbm, 168, rfl⟩
abbrev main_call4_v4 : Ref sig .tc := ⟨.hbm, 169, rfl⟩
abbrev main_call4_call0_v0 : Ref sig .tc := ⟨.hbm, 170, rfl⟩
abbrev main_call4_call0_cst : Ref sig .tc := ⟨.hbm, 171, rfl⟩
abbrev main_call4_call0_call0_v0 : Ref sig .tc := ⟨.hbm, 172, rfl⟩
abbrev main_call4_call0_v1 : Ref sig .tc := ⟨.hbm, 173, rfl⟩
abbrev main_call4_call0_cst_0 : Ref sig .tc := ⟨.hbm, 174, rfl⟩
abbrev main_call4_v5 : Ref sig .tc := ⟨.hbm, 175, rfl⟩
abbrev main_v86 : Ref sig .tc := ⟨.hbm, 176, rfl⟩
abbrev main_call5_v0 : Ref sig .tc := ⟨.hbm, 177, rfl⟩
abbrev main_call5_cst : Ref sig .tc := ⟨.hbm, 178, rfl⟩
abbrev main_call5_call0_v0 : Ref sig .tc := ⟨.hbm, 179, rfl⟩
abbrev main_call5_v1 : Ref sig .tc := ⟨.hbm, 180, rfl⟩
abbrev main_call5_cst_0 : Ref sig .tc := ⟨.hbm, 181, rfl⟩
abbrev main_call5_v2 : Ref sig .tc := ⟨.hbm, 182, rfl⟩
abbrev main_call5_v3 : Ref sig .tc := ⟨.hbm, 183, rfl⟩
abbrev main_call5_cst_1 : Ref sig .tc := ⟨.hbm, 184, rfl⟩
abbrev main_call5_call1_v0 : Ref sig .tc := ⟨.hbm, 185, rfl⟩
abbrev main_call5_v4 : Ref sig .tc := ⟨.hbm, 186, rfl⟩
abbrev main_call5_cst_2 : Ref sig .tc := ⟨.hbm, 187, rfl⟩
abbrev main_call5_v5 : Ref sig .tc := ⟨.hbm, 188, rfl⟩
abbrev main_call5_v6 : Ref sig .tc := ⟨.hbm, 189, rfl⟩
abbrev main_call5_cst_3 : Ref sig .tc := ⟨.hbm, 190, rfl⟩
abbrev main_call5_call2_v0 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg3_1 : Ref sig .tc := ⟨.vmem, 50, rfl⟩
abbrev cc6_scratch0 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc7_scratch0 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg2_1 : Ref sig .tc := ⟨.vmem, 62, rfl⟩
abbrev cc8_stg3_0 : Ref sig .tc := ⟨.vmem, 63, rfl⟩
abbrev cc8_stg3_1 : Ref sig .tc := ⟨.vmem, 64, rfl⟩
abbrev cc8_scratch0 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg2_1 : Ref sig .tc := ⟨.vmem, 70, rfl⟩
abbrev cc9_scratch0 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg1_1 : Ref sig .tc := ⟨.vmem, 75, rfl⟩
abbrev cc10_stg2_0 : Ref sig .tc := ⟨.vmem, 76, rfl⟩
abbrev cc10_stg3_0 : Ref sig .tc := ⟨.vmem, 77, rfl⟩
abbrev cc10_stg3_1 : Ref sig .tc := ⟨.vmem, 78, rfl⟩
abbrev cc10_stg4_0 : Ref sig .tc := ⟨.vmem, 79, rfl⟩
abbrev cc10_stg4_1 : Ref sig .tc := ⟨.vmem, 80, rfl⟩
abbrev cc10_scratch0 : Ref sig .tc := ⟨.vmem, 81, rfl⟩
abbrev cc11_stg0_0 : Ref sig .tc := ⟨.vmem, 82, rfl⟩
abbrev cc11_stg0_1 : Ref sig .tc := ⟨.vmem, 83, rfl⟩
abbrev cc11_stg1_0 : Ref sig .tc := ⟨.vmem, 84, rfl⟩
abbrev cc11_stg2_0 : Ref sig .tc := ⟨.vmem, 85, rfl⟩
abbrev cc11_stg2_1 : Ref sig .tc := ⟨.vmem, 86, rfl⟩
abbrev cc11_stg3_0 : Ref sig .tc := ⟨.vmem, 87, rfl⟩
abbrev cc11_stg3_1 : Ref sig .tc := ⟨.vmem, 88, rfl⟩
abbrev cc11_scratch0 : Ref sig .tc := ⟨.vmem, 89, rfl⟩
abbrev cc12_stg0_0 : Ref sig .tc := ⟨.vmem, 90, rfl⟩
abbrev cc12_stg0_1 : Ref sig .tc := ⟨.vmem, 91, rfl⟩
abbrev cc12_stg1_0 : Ref sig .tc := ⟨.vmem, 92, rfl⟩
abbrev cc12_stg2_0 : Ref sig .tc := ⟨.vmem, 93, rfl⟩
abbrev cc12_stg2_1 : Ref sig .tc := ⟨.vmem, 94, rfl⟩
abbrev cc12_scratch0 : Ref sig .tc := ⟨.vmem, 95, rfl⟩
abbrev cc13_stg0_0 : Ref sig .tc := ⟨.vmem, 96, rfl⟩
abbrev cc13_stg0_1 : Ref sig .tc := ⟨.vmem, 97, rfl⟩
abbrev cc13_stg1_0 : Ref sig .tc := ⟨.vmem, 98, rfl⟩
abbrev cc13_stg2_0 : Ref sig .tc := ⟨.vmem, 99, rfl⟩
abbrev cc13_stg2_1 : Ref sig .tc := ⟨.vmem, 100, rfl⟩
abbrev cc13_stg3_0 : Ref sig .tc := ⟨.vmem, 101, rfl⟩
abbrev cc13_stg3_1 : Ref sig .tc := ⟨.vmem, 102, rfl⟩
abbrev cc13_scratch0 : Ref sig .tc := ⟨.vmem, 103, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem2_1 : DmaSem sig := 54
abbrev cc8_sem3_0 : DmaSem sig := 55
abbrev cc8_sem3_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem3_0 : DmaSem sig := 67
abbrev cc10_sem3_1 : DmaSem sig := 68
abbrev cc10_sem4_0 : DmaSem sig := 69
abbrev cc10_sem4_1 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem2_1 : DmaSem sig := 75
abbrev cc11_sem3_0 : DmaSem sig := 76
abbrev cc11_sem3_1 : DmaSem sig := 77
abbrev cc12_sem0_0 : DmaSem sig := 78
abbrev cc12_sem0_1 : DmaSem sig := 79
abbrev cc12_sem1_0 : DmaSem sig := 80
abbrev cc12_sem2_0 : DmaSem sig := 81
abbrev cc12_sem2_1 : DmaSem sig := 82
abbrev cc13_sem0_0 : DmaSem sig := 83
abbrev cc13_sem0_1 : DmaSem sig := 84
abbrev cc13_sem1_0 : DmaSem sig := 85
abbrev cc13_sem2_0 : DmaSem sig := 86
abbrev cc13_sem2_1 : DmaSem sig := 87
abbrev cc13_sem3_0 : DmaSem sig := 88
abbrev cc13_sem3_1 : DmaSem sig := 89

abbrev nD : Nat := 1
abbrev τ : Topo := Topo.v7x

variable {F : FTy → Type} [FloatOps F]

abbrev grid0 : Pipeline.Grid := ⟨2, ![2, 1], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c0_i32_7 : BitVec 32 := 0#32
  let v16 : BitVec 1 := Scalar.cmpi .eq arg1 c0_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 3], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S6144x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![6, 1], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c0_i32_7 : BitVec 32 := 0#32
  let v16 : BitVec 1 := Scalar.cmpi .eq arg1 c0_i32_7
  let v17 : BitVec 32 := Scalar.extui v16
  let c0_i32_8 : BitVec 32 := 0#32
  let v18 : BitVec 1 := Scalar.cmpi .ne v17 c0_i32_8
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2048x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![6, 6], ![false, false]⟩

def k3_mult1 (i : grid3.Coords) : BitVec 32 :=
  let arg1 : BitVec 32 := BitVec.ofNat 32 (i 1).val
  let c1024_i32 : BitVec 32 := 1024#32
  let v7 : BitVec 32 := Scalar.muli arg1 c1024_i32
  v7
def k3_off1 (i : grid3.Coords) : Fin 2 → Nat :=
  let arg1 : BitVec 32 := BitVec.ofNat 32 (i 1).val
  let c1024_i32 : BitVec 32 := 1024#32
  let v7 : BitVec 32 := Scalar.muli arg1 c1024_i32
  let v8 : BitVec 32 := v7
  let v9 : Index := Scalar.indexCast v8
  let c0_4 : Index := 0#32
  ![v9.toNat, 0]
def k3_cond2 (i : grid3.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_9 : BitVec 32 := 0#32
  let v20 : BitVec 1 := Scalar.cmpi .ne v19 c0_i32_9
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S6144x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![6, 2], ![false, false]⟩

def k4_mult1 (i : grid4.Coords) : BitVec 32 :=
  let arg1 : BitVec 32 := BitVec.ofNat 32 (i 1).val
  let c2048_i32 : BitVec 32 := 2048#32
  let v5 : BitVec 32 := Scalar.muli arg1 c2048_i32
  v5
def k4_off1 (i : grid4.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k4_cond2 (i : grid4.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S4096x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![4, 3], ![false, false]⟩

def k5_mult1 (i : grid5.Coords) : BitVec 32 :=
  let arg1 : BitVec 32 := BitVec.ofNat 32 (i 1).val
  let c2048_i32 : BitVec 32 := 2048#32
  let v5 : BitVec 32 := Scalar.muli arg1 c2048_i32
  v5
def k5_off1 (i : grid5.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k5_cond2 (i : grid5.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S6144x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 2], ![false, false]⟩

def k6_mult1 (i : grid6.Coords) : BitVec 32 :=
  let arg1 : BitVec 32 := BitVec.ofNat 32 (i 1).val
  let c2048_i32 : BitVec 32 := 2048#32
  let v5 : BitVec 32 := Scalar.muli arg1 c2048_i32
  v5
def k6_off1 (i : grid6.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k6_cond2 (i : grid6.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S4096x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![2, 1], ![false, false]⟩

def k7_mult1 (i : grid7.Coords) : BitVec 32 :=
  let arg1 : BitVec 32 := BitVec.ofNat 32 (i 1).val
  let c2048_i32 : BitVec 32 := 2048#32
  let v5 : BitVec 32 := Scalar.muli arg1 c2048_i32
  v5
def k7_off1 (i : grid7.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k7_cond2 (i : grid7.Coords) : BitVec 1 :=
  let arg1 : BitVec 32 := BitVec.ofNat 32 (i 1).val
  let c0_i32_7 : BitVec 32 := 0#32
  let v16 : BitVec 1 := Scalar.cmpi .eq arg1 c0_i32_7
  let v17 : BitVec 32 := Scalar.extui v16
  let c0_i32_8 : BitVec 32 := 0#32
  let v18 : BitVec 1 := Scalar.cmpi .ne v17 c0_i32_8
  v18

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S2048x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![2, 3], ![false, false]⟩

def k8_mult1 (i : grid8.Coords) : BitVec 32 :=
  let arg1 : BitVec 32 := BitVec.ofNat 32 (i 1).val
  let c2048_i32 : BitVec 32 := 2048#32
  let v5 : BitVec 32 := Scalar.muli arg1 c2048_i32
  v5
def k8_off1 (i : grid8.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k8_cond2 (i : grid8.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_7 : BitVec 32 := 0#32
  let v18 : BitVec 1 := Scalar.cmpi .ne v17 c0_i32_7
  v18

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S6144x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S1024x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨2, ![6, 1], ![false, false]⟩

def k9_mult1 (i : grid9.Coords) : BitVec 32 :=
  let arg1 : BitVec 32 := BitVec.ofNat 32 (i 1).val
  let c2048_i32 : BitVec 32 := 2048#32
  let v5 : BitVec 32 := Scalar.muli arg1 c2048_i32
  v5
def k9_off1 (i : grid9.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k9_cond2 (i : grid9.Coords) : BitVec 1 :=
  let arg1 : BitVec 32 := BitVec.ofNat 32 (i 1).val
  let c0_i32_7 : BitVec 32 := 0#32
  let v16 : BitVec 1 := Scalar.cmpi .eq arg1 c0_i32_7
  let v17 : BitVec 32 := Scalar.extui v16
  let c0_i32_8 : BitVec 32 := 0#32
  let v18 : BitVec 1 := Scalar.cmpi .ne v17 c0_i32_8
  v18

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S2048x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S2048x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 2 → Memref sig .tc .vmem S1024x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev grid10 : Pipeline.Grid := ⟨2, ![6, 6], ![false, false]⟩

def k10_mult1 (i : grid10.Coords) : BitVec 32 :=
  let arg1 : BitVec 32 := BitVec.ofNat 32 (i 1).val
  let c1024_i32 : BitVec 32 := 1024#32
  let v7 : BitVec 32 := Scalar.muli arg1 c1024_i32
  v7
def k10_off1 (i : grid10.Coords) : Fin 2 → Nat :=
  let arg1 : BitVec 32 := BitVec.ofNat 32 (i 1).val
  let c1024_i32 : BitVec 32 := 1024#32
  let v7 : BitVec 32 := Scalar.muli arg1 c1024_i32
  let v8 : BitVec 32 := v7
  let v9 : Index := Scalar.indexCast v8
  let c0_4 : Index := 0#32
  ![v9.toNat, 0]
def k10_cond2 (i : grid10.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_9 : BitVec 32 := 0#32
  let v20 : BitVec 1 := Scalar.cmpi .ne v19 c0_i32_9
  v20

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1024x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1024x1024 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 1 → Memref sig .tc .vmem S6144x128 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S1024x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev stage10_4 : Fin 2 → Memref sig .tc .vmem S1024x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, false]

abbrev grid11 : Pipeline.Grid := ⟨2, ![6, 2], ![false, false]⟩

def k11_mult1 (i : grid11.Coords) : BitVec 32 :=
  let arg1 : BitVec 32 := BitVec.ofNat 32 (i 1).val
  let c2048_i32 : BitVec 32 := 2048#32
  let v5 : BitVec 32 := Scalar.muli arg1 c2048_i32
  v5
def k11_off1 (i : grid11.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k11_cond2 (i : grid11.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x2048 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S4096x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, false]

abbrev stage11_2 : Fin 2 → Memref sig .tc .vmem S1024x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 2 → Memref sig .tc .vmem S1024x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev grid12 : Pipeline.Grid := ⟨2, ![4, 3], ![false, false]⟩

def k12_mult1 (i : grid12.Coords) : BitVec 32 :=
  let arg1 : BitVec 32 := BitVec.ofNat 32 (i 1).val
  let c2048_i32 : BitVec 32 := 2048#32
  let v5 : BitVec 32 := Scalar.muli arg1 c2048_i32
  v5
def k12_off1 (i : grid12.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k12_cond2 (i : grid12.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_7 : BitVec 32 := 0#32
  let v18 : BitVec 1 := Scalar.cmpi .ne v17 c0_i32_7
  v18

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S2048x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 1 → Memref sig .tc .vmem S6144x128 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, false]

abbrev stage12_2 : Fin 2 → Memref sig .tc .vmem S1024x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev grid13 : Pipeline.Grid := ⟨2, ![4, 2], ![false, false]⟩

def k13_mult1 (i : grid13.Coords) : BitVec 32 :=
  let arg1 : BitVec 32 := BitVec.ofNat 32 (i 1).val
  let c2048_i32 : BitVec 32 := 2048#32
  let v5 : BitVec 32 := Scalar.muli arg1 c2048_i32
  v5
def k13_off1 (i : grid13.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k13_cond2 (i : grid13.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S1024x2048 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 1 → Memref sig .tc .vmem S4096x128 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, false]

abbrev stage13_2 : Fin 2 → Memref sig .tc .vmem S1024x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, false]

abbrev stage13_3 : Fin 2 → Memref sig .tc .vmem S1024x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

class Facts₀ : Prop where
  slices_S2x128x128_S1x128x128_0_0_0 : S2x128x128.Slices ![0, 0, 0] S1x128x128
  shapeCasts_S1x128x128_S128x128 : S1x128x128.ShapeCasts S128x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  slices_S2x128x128_S1x128x128_1_0_0 : S2x128x128.Slices ![1, 0, 0] S1x128x128
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  bcast_S1x2_S6144x2_0_1 : S1x2.BroadcastsInDim S6144x2 (![0, 1] : Fin 2 → Fin S6144x2.rank)
  bcast_S1x2_S4096x2_0_1 : S1x2.BroadcastsInDim S4096x2 (![0, 1] : Fin 2 → Fin S4096x2.rank)
  natLt_1_32 : 1 < 32
  reducesTo_S2048x2_S2_d0 : S2048x2.ReducesTo [0] S2
  h_S_ : 0 < S_.numel
  bcast_S_S2048x2 : S_.BroadcastsInDim S2048x2 (![] : Fin 0 → Fin S2048x2.rank)
  bcast_S_S2 : S_.BroadcastsInDim S2 (![] : Fin 0 → Fin S2.rank)
  reducesTo_S6144x2_S2_d0 : S6144x2.ReducesTo [0] S2
  bcast_S_S6144x2 : S_.BroadcastsInDim S6144x2 (![] : Fin 0 → Fin S6144x2.rank)
  reducesTo_S4096x2_S2_d0 : S4096x2.ReducesTo [0] S2
  bcast_S_S4096x2 : S_.BroadcastsInDim S4096x2 (![] : Fin 0 → Fin S4096x2.rank)
  dot_S2048x128_S128x128_S2048x128_1_0_0_1_n_n_wf : DotDims.WF S2048x128 S128x128 S2048x128 [1] [0] [0] [1] [] []
  dot_S6144x128_S128x128_S6144x128_1_0_0_1_n_n_wf : DotDims.WF S6144x128 S128x128 S6144x128 [1] [0] [0] [1] [] []
  dot_S4096x128_S128x128_S4096x128_1_0_0_1_n_n_wf : DotDims.WF S4096x128 S128x128 S4096x128 [1] [0] [0] [1] [] []
  dot_S1024x2048_S2048x128_S1024x128_1_0_0_1_n_n_wf : DotDims.WF S1024x2048 S2048x128 S1024x128 [1] [0] [0] [1] [] []
  dot_S2048x1024_S2048x128_S1024x128_0_0_1_1_n_n_wf : DotDims.WF S2048x1024 S2048x128 S1024x128 [0] [0] [1] [1] [] []
  dot_S1024x1024_S1024x128_S1024x128_1_0_0_1_n_n_wf : DotDims.WF S1024x1024 S1024x128 S1024x128 [1] [0] [0] [1] [] []
  dot_S2048x128_S128x2_S2048x2_1_0_0_1_n_n_wf : DotDims.WF S2048x128 S128x2 S2048x2 [1] [0] [0] [1] [] []
  dot_S6144x128_S128x2_S6144x2_1_0_0_1_n_n_wf : DotDims.WF S6144x128 S128x2 S6144x2 [1] [0] [0] [1] [] []
  dot_S4096x128_S128x2_S4096x2_1_0_0_1_n_n_wf : DotDims.WF S4096x128 S128x2 S4096x2 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .f32 = 32 ∨ (Rect.block (s := S2048x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S6144x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x6144.size a
  hwx1_0 : ∀ i : grid1.Coords, EltTy.bits .f32 = 32 ∨ (Rect.block (s := S2048x6144) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6144x128.size a ≤ S6144x128.size a
  hwx1_1 : ∀ i : grid1.Coords, EltTy.bits .bf16 = 32 ∨ (Rect.block (s := S6144x128) S6144x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S2048x128.size a
  hwx1_2 : ∀ i : grid1.Coords, EltTy.bits .f32 = 32 ∨ (Rect.block (s := S2048x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S2048x128.size a
  hwx1_3 : ∀ i : grid1.Coords, EltTy.bits .f32 = 32 ∨ (Rect.block (s := S2048x128) S1024x128.size (cc1_transform_3 i) (hinb1_3 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x128.size a ≤ S2048x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S2048x6144.size a
  hwx2_0 : ∀ i : grid2.Coords, EltTy.bits .f32 = 32 ∨ (Rect.block (s := S2048x6144) S2048x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S2048x128.size a
  hwx2_1 : ∀ i : grid2.Coords, EltTy.bits .bf16 = 32 ∨ (Rect.block (s := S2048x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S6144x128.size a
  hwx2_2 : ∀ i : grid2.Coords, EltTy.bits .f32 = 32 ∨ (Rect.block (s := S6144x128) S1024x128.size (cc2_transform_2 i) (hinb2_2 i)).WholeWords (EltTy.packing .f32)
  hrank3 : 0 < grid3.rank
  k3_mult1_dvd : ∀ i : grid3.Coords, 1024 ∣ (k3_mult1 i).toNat
  k3_off1_inb : ∀ i : grid3.Coords, ∀ a, (k3_off1 i) a + S1024x128.size a ≤ S6144x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S6144x6144.size a
  hwx3_0 : ∀ i : grid3.Coords, EltTy.bits .f32 = 32 ∨ (Rect.block (s := S6144x6144) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S6144x6144.size a
  hwx3_1 : ∀ i : grid3.Coords, EltTy.bits .f32 = 32 ∨ (Rect.block (s := S6144x6144) S1024x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S6144x128.size a ≤ S6144x128.size a
  hwx3_2 : ∀ i : grid3.Coords, EltTy.bits .bf16 = 32 ∨ (Rect.block (s := S6144x128) S6144x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S6144x128.size a
  hwx3_3 : ∀ i : grid3.Coords, EltTy.bits .f32 = 32 ∨ (Rect.block (s := S6144x128) S1024x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S6144x128.size a
  hwx3_4 : ∀ i : grid3.Coords, EltTy.bits .f32 = 32 ∨ (Rect.block (s := S6144x128) S1024x128.size (cc3_transform_4 i) (hinb3_4 i)).WholeWords (EltTy.packing .f32)
  hrank4 : 0 < grid4.rank
  k4_mult1_dvd : ∀ i : grid4.Coords, 2048 ∣ (k4_mult1 i).toNat
  k4_off1_inb : ∀ i : grid4.Coords, ∀ a, (k4_off1 i) a + S2048x128.size a ≤ S4096x128.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S6144x4096.size a
  hwx4_0 : ∀ i : grid4.Coords, EltTy.bits .f32 = 32 ∨ (Rect.block (s := S6144x4096) S1024x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S4096x128.size a
  hwx4_1 : ∀ i : grid4.Coords, EltTy.bits .bf16 = 32 ∨ (Rect.block (s := S4096x128) S4096x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S6144x128.size a
  hwx4_2 : ∀ i : grid4.Coords, EltTy.bits .f32 = 32 ∨ (Rect.block (s := S6144x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S6144x128.size a
  hwx4_3 : ∀ i : grid4.Coords, EltTy.bits .f32 = 32 ∨ (Rect.block (s := S6144x128) S1024x128.size (cc4_transform_3 i) (hinb4_3 i)).WholeWords (EltTy.packing .f32)
  hrank5 : 0 < grid5.rank
  k5_mult1_dvd : ∀ i : grid5.Coords, 2048 ∣ (k5_mult1 i).toNat
  k5_off1_inb : ∀ i : grid5.Coords, ∀ a, (k5_off1 i) a + S2048x128.size a ≤ S6144x128.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S6144x4096.size a
  hwx5_0 : ∀ i : grid5.Coords, EltTy.bits .f32 = 32 ∨ (Rect.block (s := S6144x4096) S2048x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S6144x128.size a ≤ S6144x128.size a
  hwx5_1 : ∀ i : grid5.Coords, EltTy.bits .bf16 = 32 ∨ (Rect.block (s := S6144x128) S6144x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S4096x128.size a
  hwx5_2 : ∀ i : grid5.Coords, EltTy.bits .f32 = 32 ∨ (Rect.block (s := S4096x128) S1024x128.size (cc5_transform_2 i) (hinb5_2 i)).WholeWords (EltTy.packing .f32)
  hrank6 : 0 < grid6.rank
  k6_mult1_dvd : ∀ i : grid6.Coords, 2048 ∣ (k6_mult1 i).toNat
  k6_off1_inb : ∀ i : grid6.Coords, ∀ a, (k6_off1 i) a + S2048x128.size a ≤ S4096x128.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x2048.size a ≤ S4096x4096.size a
  hwx6_0 : ∀ i : grid6.Coords, EltTy.bits .f32 = 32 ∨ (Rect.block (s := S4096x4096) S1024x2048.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S4096x128.size a
  hwx6_1 : ∀ i : grid6.Coords, EltTy.bits .bf16 = 32 ∨ (Rect.block (s := S4096x128) S4096x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S4096x128.size a
  hwx6_2 : ∀ i : grid6.Coords, EltTy.bits .f32 = 32 ∨ (Rect.block (s := S4096x128) S1024x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x128.size a ≤ S4096x128.size a
  hwx6_3 : ∀ i : grid6.Coords, EltTy.bits .f32 = 32 ∨ (Rect.block (s := S4096x128) S1024x128.size (cc6_transform_3 i) (hinb6_3 i)).WholeWords (EltTy.packing .f32)
  hrank7 : 0 < grid7.rank
  k7_mult1_dvd : ∀ i : grid7.Coords, 2048 ∣ (k7_mult1 i).toNat
  k7_off1_inb : ∀ i : grid7.Coords, ∀ a, (k7_off1 i) a + S2048x128.size a ≤ S2048x128.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S2048x2048.size a
  hwx7_0 : ∀ i : grid7.Coords, EltTy.bits .f32 = 32 ∨ (Rect.block (s := S2048x2048) S1024x2048.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x128.size a ≤ S2048x128.size a
  hwx7_1 : ∀ i : grid7.Coords, EltTy.bits .bf16 = 32 ∨ (Rect.block (s := S2048x128) S2048x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S2048x128.size a
  hwx7_2 : ∀ i : grid7.Coords, EltTy.bits .f32 = 32 ∨ (Rect.block (s := S2048x128) S1024x128.size (cc7_transform_2 i) (hinb7_2 i)).WholeWords (EltTy.packing .f32)
  hrank8 : 0 < grid8.rank
  k8_mult1_dvd : ∀ i : grid8.Coords, 2048 ∣ (k8_mult1 i).toNat
  k8_off1_inb : ∀ i : grid8.Coords, ∀ a, (k8_off1 i) a + S2048x128.size a ≤ S6144x128.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x2048.size a ≤ S2048x6144.size a
  hwx8_0 : ∀ i : grid8.Coords, EltTy.bits .f32 = 32 ∨ (Rect.block (s := S2048x6144) S1024x2048.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S6144x128.size a ≤ S6144x128.size a
  hwx8_1 : ∀ i : grid8.Coords, EltTy.bits .bf16 = 32 ∨ (Rect.block (s := S6144x128) S6144x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S2048x128.size a
  hwx8_2 : ∀ i : grid8.Coords, EltTy.bits .f32 = 32 ∨ (Rect.block (s := S2048x128) S1024x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x128.size a ≤ S2048x128.size a
  hwx8_3 : ∀ i : grid8.Coords, EltTy.bits .f32 = 32 ∨ (Rect.block (s := S2048x128) S1024x128.size (cc8_transform_3 i) (hinb8_3 i)).WholeWords (EltTy.packing .f32)
  hrank9 : 0 < grid9.rank
  k9_mult1_dvd : ∀ i : grid9.Coords, 2048 ∣ (k9_mult1 i).toNat
  k9_off1_inb : ∀ i : grid9.Coords, ∀ a, (k9_off1 i) a + S2048x128.size a ≤ S2048x128.size a
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x1024.size a ≤ S2048x6144.size a
  hwx9_0 : ∀ i : grid9.Coords, EltTy.bits .f32 = 32 ∨ (Rect.block (s := S2048x6144) S2048x1024.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2048x128.size a ≤ S2048x128.size a
  hwx9_1 : ∀ i : grid9.Coords, EltTy.bits .bf16 = 32 ∨ (Rect.block (s := S2048x128) S2048x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x128.size a ≤ S6144x128.size a
  hwx9_2 : ∀ i : grid9.Coords, EltTy.bits .f32 = 32 ∨ (Rect.block (s := S6144x128) S1024x128.size (cc9_transform_2 i) (hinb9_2 i)).WholeWords (EltTy.packing .f32)
  hrank10 : 0 < grid10.rank
  k10_mult1_dvd : ∀ i : grid10.Coords, 1024 ∣ (k10_mult1 i).toNat
  k10_off1_inb : ∀ i : grid10.Coords, ∀ a, (k10_off1 i) a + S1024x128.size a ≤ S6144x128.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x1024.size a ≤ S6144x6144.size a
  hwx10_0 : ∀ i : grid10.Coords, EltTy.bits .f32 = 32 ∨ (Rect.block (s := S6144x6144) S1024x1024.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x1024.size a ≤ S6144x6144.size a
  hwx10_1 : ∀ i : grid10.Coords, EltTy.bits .f32 = 32 ∨ (Rect.block (s := S6144x6144) S1024x1024.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S6144x128.size a ≤ S6144x128.size a
  hwx10_2 : ∀ i : grid10.Coords, EltTy.bits .bf16 = 32 ∨ (Rect.block (s := S6144x128) S6144x128.size (cc10_transform_2 i) (hinb10_2 i)).WholeWords (EltTy.packing .bf16)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1024x128.size a ≤ S6144x128.size a
  hwx10_3 : ∀ i : grid10.Coords, EltTy.bits .f32 = 32 ∨ (Rect.block (s := S6144x128) S1024x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1024x128.size a ≤ S6144x128.size a
  hwx10_4 : ∀ i : grid10.Coords, EltTy.bits .f32 = 32 ∨ (Rect.block (s := S6144x128) S1024x128.size (cc10_transform_4 i) (hinb10_4 i)).WholeWords (EltTy.packing .f32)
  hrank11 : 0 < grid11.rank
  k11_mult1_dvd : ∀ i : grid11.Coords, 2048 ∣ (k11_mult1 i).toNat
  k11_off1_inb : ∀ i : grid11.Coords, ∀ a, (k11_off1 i) a + S2048x128.size a ≤ S4096x128.size a
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x2048.size a ≤ S6144x4096.size a
  hwx11_0 : ∀ i : grid11.Coords, EltTy.bits .f32 = 32 ∨ (Rect.block (s := S6144x4096) S1024x2048.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S4096x128.size a ≤ S4096x128.size a
  hwx11_1 : ∀ i : grid11.Coords, EltTy.bits .bf16 = 32 ∨ (Rect.block (s := S4096x128) S4096x128.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x128.size a ≤ S6144x128.size a
  hwx11_2 : ∀ i : grid11.Coords, EltTy.bits .f32 = 32 ∨ (Rect.block (s := S6144x128) S1024x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x128.size a ≤ S6144x128.size a
  hwx11_3 : ∀ i : grid11.Coords, EltTy.bits .f32 = 32 ∨ (Rect.block (s := S6144x128) S1024x128.size (cc11_transform_3 i) (hinb11_3 i)).WholeWords (EltTy.packing .f32)
  hrank12 : 0 < grid12.rank
  k12_mult1_dvd : ∀ i : grid12.Coords, 2048 ∣ (k12_mult1 i).toNat
  k12_off1_inb : ∀ i : grid12.Coords, ∀ a, (k12_off1 i) a + S2048x128.size a ≤ S6144x128.size a
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2048x1024.size a ≤ S6144x4096.size a
  hwx12_0 : ∀ i : grid12.Coords, EltTy.bits .f32 = 32 ∨ (Rect.block (s := S6144x4096) S2048x1024.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S6144x128.size a ≤ S6144x128.size a
  hwx12_1 : ∀ i : grid12.Coords, EltTy.bits .bf16 = 32 ∨ (Rect.block (s := S6144x128) S6144x128.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x128.size a ≤ S4096x128.size a
  hwx12_2 : ∀ i : grid12.Coords, EltTy.bits .f32 = 32 ∨ (Rect.block (s := S4096x128) S1024x128.size (cc12_transform_2 i) (hinb12_2 i)).WholeWords (EltTy.packing .f32)
  hrank13 : 0 < grid13.rank
  k13_mult1_dvd : ∀ i : grid13.Coords, 2048 ∣ (k13_mult1 i).toNat
  k13_off1_inb : ∀ i : grid13.Coords, ∀ a, (k13_off1 i) a + S2048x128.size a ≤ S4096x128.size a
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x2048.size a ≤ S4096x4096.size a
  hwx13_0 : ∀ i : grid13.Coords, EltTy.bits .f32 = 32 ∨ (Rect.block (s := S4096x4096) S1024x2048.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S4096x128.size a ≤ S4096x128.size a
  hwx13_1 : ∀ i : grid13.Coords, EltTy.bits .bf16 = 32 ∨ (Rect.block (s := S4096x128) S4096x128.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x128.size a ≤ S4096x128.size a
  hwx13_2 : ∀ i : grid13.Coords, EltTy.bits .f32 = 32 ∨ (Rect.block (s := S4096x128) S1024x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1024x128.size a ≤ S4096x128.size a
  hwx13_3 : ∀ i : grid13.Coords, EltTy.bits .f32 = 32 ∨ (Rect.block (s := S4096x128) S1024x128.size (cc13_transform_3 i) (hinb13_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf
def dot_S6144x128_S128x2_S6144x2_1_0_0_1_n_n : DotDims S6144x128 S128x2 S6144x2 where
  lhsContracting := [1]
  rhsContracting := [0]
  lhsNonContracting := [0]
  rhsNonContracting := [1]
  lhsBatch := []
  rhsBatch := []
  wf := dot_S6144x128_S128x2_S6144x2_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg7) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S6144x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg3) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2048x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg9) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S6144x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1024x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_arg6) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S4096x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v32) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg5) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S6144x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v33) S1024x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_arg10) S1024x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S4096x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v33) S1024x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v34) S1024x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_arg7) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S2048x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S1024x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_arg4) S1024x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v52) S6144x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v63) S1024x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v64) S1024x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_arg3) S2048x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v54) S2048x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v65) S1024x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_arg9) S1024x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg8) S1024x1024.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v56) S6144x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v65) S1024x128.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v66) S1024x128.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun _ => false | 4 => fun i => !(k10_cond2 i == 1#1) | ⟨_ + 5, h⟩ => absurd h (Nat.not_lt.2 (Nat.le_add_left _ _))

abbrev win11_0 : Pipeline.Window sig grid11 :=
  Pipeline.Window.ofSpec (Memref.whole main_arg6) S1024x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v58) S4096x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v66) S1024x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v67) S1024x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

abbrev win12_0 : Pipeline.Window sig grid12 :=
  Pipeline.Window.ofSpec (Memref.whole main_arg5) S2048x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v60) S6144x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v68) S1024x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_arg10) S1024x2048.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v62) S4096x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v68) S1024x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v69) S1024x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

class Facts : Prop extends Facts₀ where
  halias1_3 : Pipeline.Aliased win1 2 3
  halias3_4 : Pipeline.Aliased win3 3 4
  halias4_3 : Pipeline.Aliased win4 2 3
  halias6_3 : Pipeline.Aliased win6 2 3
  halias8_3 : Pipeline.Aliased win8 2 3
  halias10_4 : Pipeline.Aliased win10 3 4
  halias11_3 : Pipeline.Aliased win11 2 3
  halias13_3 : Pipeline.Aliased win13 2 3

variable [Facts]
-- ==== ReferenceIdeal.lean ====
abbrev S2048x128 : Shape := ⟨2, ![2048, 128]⟩
abbrev S6144x128 : Shape := ⟨2, ![6144, 128]⟩
abbrev S4096x128 : Shape := ⟨2, ![4096, 128]⟩
abbrev S2048x6144 : Shape := ⟨2, ![2048, 6144]⟩
abbrev S6144x4096 : Shape := ⟨2, ![6144, 4096]⟩
abbrev S2048x2048 : Shape := ⟨2, ![2048, 2048]⟩
abbrev S6144x6144 : Shape := ⟨2, ![6144, 6144]⟩
abbrev S4096x4096 : Shape := ⟨2, ![4096, 4096]⟩
abbrev S2x128x128 : Shape := ⟨3, ![2, 128, 128]⟩
abbrev S128x2 : Shape := ⟨2, ![128, 2]⟩
abbrev S2 : Shape := ⟨1, ![2]⟩
abbrev S1x128x128 : Shape := ⟨3, ![1, 128, 128]⟩
abbrev S128x128 : Shape := ⟨2, ![128, 128]⟩
abbrev S_ : Shape := ⟨0, ![]⟩
abbrev S6144x2048 : Shape := ⟨2, ![6144, 2048]⟩
abbrev S4096x6144 : Shape := ⟨2, ![4096, 6144]⟩
abbrev S2048x2 : Shape := ⟨2, ![2048, 2]⟩
abbrev S1x2 : Shape := ⟨2, ![1, 2]⟩
abbrev S6144x2 : Shape := ⟨2, ![6144, 2]⟩
abbrev S4096x2 : Shape := ⟨2, ![4096, 2]⟩

abbrev nBuf : Space → Nat
  | .hbm => 243
  | .vmem => 0
  | .smem => 0
  | _ => 0

abbrev hbmTy0_0 (i : Nat) : BufTy := match i % 128 with
  | 0 => ⟨S2048x128, .f32⟩
  | 1 => ⟨S6144x128, .f32⟩
  | 2 => ⟨S4096x128, .f32⟩
  | 3 => ⟨S2048x6144, .f32⟩
  | 4 => ⟨S2048x6144, .f32⟩
  | 5 => ⟨S6144x4096, .f32⟩
  | 6 => ⟨S6144x4096, .f32⟩
  | 7 => ⟨S2048x2048, .f32⟩
  | 8 => ⟨S6144x6144, .f32⟩
  | 9 => ⟨S6144x6144, .f32⟩
  | 10 => ⟨S4096x4096, .f32⟩
  | 11 => ⟨S2x128x128, .f32⟩
  | 12 => ⟨S2x128x128, .f32⟩
  | 13 => ⟨S2x128x128, .f32⟩
  | 14 => ⟨S2x128x128, .f32⟩
  | 15 => ⟨S2x128x128, .f32⟩
  | 16 => ⟨S2x128x128, .f32⟩
  | 17 => ⟨S2x128x128, .f32⟩
  | 18 => ⟨S128x2, .f32⟩
  | 19 => ⟨S2, .f32⟩
  | 20 => ⟨S128x2, .f32⟩
  | 21 => ⟨S2, .f32⟩
  | 22 => ⟨S128x2, .f32⟩
  | 23 => ⟨S2, .f32⟩
  | 24 => ⟨S1x128x128, .f32⟩
  | 25 => ⟨S128x128, .f32⟩
  | 26 => ⟨S1x128x128, .f32⟩
  | 27 => ⟨S128x128, .f32⟩
  | 28 => ⟨S1x128x128, .f32⟩
  | 29 => ⟨S128x128, .f32⟩
  | 30 => ⟨S1x128x128, .f32⟩
  | 31 => ⟨S128x128, .f32⟩
  | 32 => ⟨S1x128x128, .f32⟩
  | 33 => ⟨S128x128, .f32⟩
  | 34 => ⟨S1x128x128, .f32⟩
  | 35 => ⟨S128x128, .f32⟩
  | 36 => ⟨S1x128x128, .f32⟩
  | 37 => ⟨S128x128, .f32⟩
  | 38 => ⟨S2048x128, .f32⟩
  | 39 => ⟨S2048x128, .f32⟩
  | 40 => ⟨S6144x128, .f32⟩
  | 41 => ⟨S2048x128, .f32⟩
  | 42 => ⟨S2048x128, .f32⟩
  | 43 => ⟨S2048x128, .f32⟩
  | 44 => ⟨S2048x128, .f32⟩
  | 45 => ⟨S_, .f32⟩
  | 46 => ⟨S2048x128, .f32⟩
  | 47 => ⟨S2048x128, .f32⟩
  | 48 => ⟨S_, .f32⟩
  | 49 => ⟨S2048x128, .f32⟩
  | 50 => ⟨S2048x128, .f32⟩
  | 51 => ⟨S6144x2048, .f32⟩
  | 52 => ⟨S2048x128, .f32⟩
  | 53 => ⟨S6144x128, .f32⟩
  | 54 => ⟨S6144x6144, .f32⟩
  | 55 => ⟨S6144x128, .f32⟩
  | 56 => ⟨S6144x128, .f32⟩
  | 57 => ⟨S4096x128, .f32⟩
  | 58 => ⟨S6144x128, .f32⟩
  | 59 => ⟨S6144x128, .f32⟩
  | 60 => ⟨S6144x128, .f32⟩
  | 61 => ⟨S6144x128, .f32⟩
  | 62 => ⟨S6144x128, .f32⟩
  | 63 => ⟨S_, .f32⟩
  | 64 => ⟨S6144x128, .f32⟩
  | 65 => ⟨S6144x128, .f32⟩
  | 66 => ⟨S_, .f32⟩
  | 67 => ⟨S6144x128, .f32⟩
  | 68 => ⟨S6144x128, .f32⟩
  | 69 => ⟨S4096x6144, .f32⟩
  | 70 => ⟨S6144x128, .f32⟩
  | 71 => ⟨S4096x128, .f32⟩
  | 72 => ⟨S4096x128, .f32⟩
  | 73 => ⟨S4096x128, .f32⟩
  | 74 => ⟨S4096x128, .f32⟩
  | 75 => ⟨S4096x128, .f32⟩
  | 76 => ⟨S4096x128, .f32⟩
  | 77 => ⟨S_, .f32⟩
  | 78 => ⟨S4096x128, .f32⟩
  | 79 => ⟨S4096x128, .f32⟩
  | 80 => ⟨S_, .f32⟩
  | 81 => ⟨S4096x128, .f32⟩
  | 82 => ⟨S4096x128, .f32⟩
  | 83 => ⟨S1x128x128, .f32⟩
  | 84 => ⟨S128x128, .f32⟩
  | 85 => ⟨S1x128x128, .f32⟩
  | 86 => ⟨S128x128, .f32⟩
  | 87 => ⟨S1x128x128, .f32⟩
  | 88 => ⟨S128x128, .f32⟩
  | 89 => ⟨S1x128x128, .f32⟩
  | 90 => ⟨S128x128, .f32⟩
  | 91 => ⟨S1x128x128, .f32⟩
  | 92 => ⟨S128x128, .f32⟩
  | 93 => ⟨S1x128x128, .f32⟩
  | 94 => ⟨S128x128, .f32⟩
  | 95 => ⟨S1x128x128, .f32⟩
  | 96 => ⟨S128x128, .f32⟩
  | 97 => ⟨S2048x128, .f32⟩
  | 98 => ⟨S2048x128, .f32⟩
  | 99 => ⟨S6144x128, .f32⟩
  | 100 => ⟨S2048x128, .f32⟩
  | 101 => ⟨S2048x128, .f32⟩
  | 102 => ⟨S2048x128, .f32⟩
  | 103 => ⟨S2048x128, .f32⟩
  | 104 => ⟨S_, .f32⟩
  | 105 => ⟨S2048x128, .f32⟩
  | 106 => ⟨S2048x128, .f32⟩
  | 107 => ⟨S_, .f32⟩
  | 108 => ⟨S2048x128, .f32⟩
  | 109 => ⟨S2048x128, .f32⟩
  | 110 => ⟨S6144x2048, .f32⟩
  | 111 => ⟨S2048x128, .f32⟩
  | 112 => ⟨S6144x128, .f32⟩
  | 113 => ⟨S6144x6144, .f32⟩
  | 114 => ⟨S6144x128, .f32⟩
  | 115 => ⟨S6144x128, .f32⟩
  | 116 => ⟨S4096x128, .f32⟩
  | 117 => ⟨S6144x128, .f32⟩
  | 118 => ⟨S6144x128, .f32⟩
  | 119 => ⟨S6144x128, .f32⟩
  | 120 => ⟨S6144x128, .f32⟩
  | 121 => ⟨S6144x128, .f32⟩
  | 122 => ⟨S_, .f32⟩
  | 123 => ⟨S6144x128, .f32⟩
  | 124 => ⟨S6144x128, .f32⟩
  | 125 => ⟨S_, .f32⟩
  | 126 => ⟨S6144x128, .f32⟩
  | 127 => ⟨S6144x128, .f32⟩
  | _ => ⟨S2048x128, .f32⟩

abbrev hbmTy0_1 (i : Nat) : BufTy := match i % 128 with
  | 0 => ⟨S4096x6144, .f32⟩
  | 1 => ⟨S6144x128, .f32⟩
  | 2 => ⟨S4096x128, .f32⟩
  | 3 => ⟨S4096x128, .f32⟩
  | 4 => ⟨S4096x128, .f32⟩
  | 5 => ⟨S4096x128, .f32⟩
  | 6 => ⟨S4096x128, .f32⟩
  | 7 => ⟨S4096x128, .f32⟩
  | 8 => ⟨S_, .f32⟩
  | 9 => ⟨S4096x128, .f32⟩
  | 10 => ⟨S4096x128, .f32⟩
  | 11 => ⟨S_, .f32⟩
  | 12 => ⟨S4096x128, .f32⟩
  | 13 => ⟨S4096x128, .f32⟩
  | 14 => ⟨S2048x2, .f32⟩
  | 15 => ⟨S1x2, .f32⟩
  | 16 => ⟨S2048x2, .f32⟩
  | 17 => ⟨S2048x2, .f32⟩
  | 18 => ⟨S6144x2, .f32⟩
  | 19 => ⟨S1x2, .f32⟩
  | 20 => ⟨S6144x2, .f32⟩
  | 21 => ⟨S6144x2, .f32⟩
  | 22 => ⟨S4096x2, .f32⟩
  | 23 => ⟨S1x2, .f32⟩
  | 24 => ⟨S4096x2, .f32⟩
  | 25 => ⟨S4096x2, .f32⟩
  | 26 => ⟨S2048x2, .i1⟩
  | 27 => ⟨S2048x2, .i1⟩
  | 28 => ⟨S2048x2, .i32⟩
  | 29 => ⟨S2048x2, .f32⟩
  | 30 => ⟨S_, .f32⟩
  | 31 => ⟨S2, .f32⟩
  | 32 => ⟨S2048x2, .i1⟩
  | 33 => ⟨S_, .f32⟩
  | 34 => ⟨S2048x2, .f32⟩
  | 35 => ⟨S2048x2, .f32⟩
  | 36 => ⟨S_, .f32⟩
  | 37 => ⟨S2, .f32⟩
  | 38 => ⟨S2, .f32⟩
  | 39 => ⟨S2, .i1⟩
  | 40 => ⟨S_, .f32⟩
  | 41 => ⟨S2, .f32⟩
  | 42 => ⟨S2, .f32⟩
  | 43 => ⟨S_, .f32⟩
  | 44 => ⟨S2, .f32⟩
  | 45 => ⟨S2, .i1⟩
  | 46 => ⟨S_, .f32⟩
  | 47 => ⟨S2, .f32⟩
  | 48 => ⟨S2, .f32⟩
  | 49 => ⟨S_, .f32⟩
  | 50 => ⟨S2, .f32⟩
  | 51 => ⟨S2, .i1⟩
  | 52 => ⟨S_, .f32⟩
  | 53 => ⟨S2, .f32⟩
  | 54 => ⟨S2, .f32⟩
  | 55 => ⟨S6144x2, .i1⟩
  | 56 => ⟨S6144x2, .i1⟩
  | 57 => ⟨S6144x2, .i32⟩
  | 58 => ⟨S6144x2, .f32⟩
  | 59 => ⟨S_, .f32⟩
  | 60 => ⟨S2, .f32⟩
  | 61 => ⟨S6144x2, .i1⟩
  | 62 => ⟨S_, .f32⟩
  | 63 => ⟨S6144x2, .f32⟩
  | 64 => ⟨S6144x2, .f32⟩
  | 65 => ⟨S_, .f32⟩
  | 66 => ⟨S2, .f32⟩
  | 67 => ⟨S2, .f32⟩
  | 68 => ⟨S2, .i1⟩
  | 69 => ⟨S_, .f32⟩
  | 70 => ⟨S2, .f32⟩
  | 71 => ⟨S2, .f32⟩
  | 72 => ⟨S_, .f32⟩
  | 73 => ⟨S2, .f32⟩
  | 74 => ⟨S2, .i1⟩
  | 75 => ⟨S_, .f32⟩
  | 76 => ⟨S2, .f32⟩
  | 77 => ⟨S2, .f32⟩
  | 78 => ⟨S_, .f32⟩
  | 79 => ⟨S2, .f32⟩
  | 80 => ⟨S2, .i1⟩
  | 81 => ⟨S_, .f32⟩
  | 82 => ⟨S2, .f32⟩
  | 83 => ⟨S2, .f32⟩
  | 84 => ⟨S4096x2, .i1⟩
  | 85 => ⟨S4096x2, .i1⟩
  | 86 => ⟨S4096x2, .i32⟩
  | 87 => ⟨S4096x2, .f32⟩
  | 88 => ⟨S_, .f32⟩
  | 89 => ⟨S2, .f32⟩
  | 90 => ⟨S4096x2, .i1⟩
  | 91 => ⟨S_, .f32⟩
  | 92 => ⟨S4096x2, .f32⟩
  | 93 => ⟨S4096x2, .f32⟩
  | 94 => ⟨S_, .f32⟩
  | 95 => ⟨S2, .f32⟩
  | 96 => ⟨S2, .f32⟩
  | 97 => ⟨S2, .i1⟩
  | 98 => ⟨S_, .f32⟩
  | 99 => ⟨S2, .f32⟩
  | 100 => ⟨S2, .f32⟩
  | 101 => ⟨S_, .f32⟩
  | 102 => ⟨S2, .f32⟩
  | 103 => ⟨S2, .i1⟩
  | 104 => ⟨S_, .f32⟩
  | 105 => ⟨S2, .f32⟩
  | 106 => ⟨S2, .f32⟩
  | 107 => ⟨S_, .f32⟩
  | 108 => ⟨S2, .f32⟩
  | 109 => ⟨S2, .i1⟩
  | 110 => ⟨S_, .f32⟩
  | 111 => ⟨S2, .f32⟩
  | 112 => ⟨S2, .f32⟩
  | 113 => ⟨S2, .f32⟩
  | 114 => ⟨S2, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_1 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_3 : Ref sig .tc := ⟨.hbm, 77, rfl⟩
abbrev main_v49 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_5 : Ref sig .tc := ⟨.hbm, 104, rfl⟩
abbrev main_v74 : Ref sig .tc := ⟨.hbm, 105, rfl⟩
abbrev main_v75 : Ref sig .tc := ⟨.hbm, 106, rfl⟩
abbrev main_cst_6 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_7 : Ref sig .tc := ⟨.hbm, 122, rfl⟩
abbrev main_v90 : Ref sig .tc := ⟨.hbm, 123, rfl⟩
abbrev main_v91 : Ref sig .tc := ⟨.hbm, 124, rfl⟩
abbrev main_cst_8 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_9 : Ref sig .tc := ⟨.hbm, 136, rfl⟩
abbrev main_v102 : Ref sig .tc := ⟨.hbm, 137, rfl⟩
abbrev main_v103 : Ref sig .tc := ⟨.hbm, 138, rfl⟩
abbrev main_cst_10 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call0_v0 : Ref sig .tc := ⟨.hbm, 154, rfl⟩
abbrev main_call0_v1 : Ref sig .tc := ⟨.hbm, 155, rfl⟩
abbrev main_call0_v2 : Ref sig .tc := ⟨.hbm, 156, rfl⟩
abbrev main_call0_v3 : Ref sig .tc := ⟨.hbm, 157, rfl⟩
abbrev main_call0_cst : Ref sig .tc := ⟨.hbm, 158, rfl⟩
abbrev main_call0_v4 : Ref sig .tc := ⟨.hbm, 159, rfl⟩
abbrev main_call0_call0_v0 : Ref sig .tc := ⟨.hbm, 160, rfl⟩
abbrev main_call0_call0_cst : Ref sig .tc := ⟨.hbm, 161, rfl⟩
abbrev main_call0_call0_call0_v0 : Ref sig .tc := ⟨.hbm, 162, rfl⟩
abbrev main_call0_call0_v1 : Ref sig .tc := ⟨.hbm, 163, rfl⟩
abbrev main_call0_call0_cst_0 : Ref sig .tc := ⟨.hbm, 164, rfl⟩
abbrev main_call0_v5 : Ref sig .tc := ⟨.hbm, 165, rfl⟩
abbrev main_v118 : Ref sig .tc := ⟨.hbm, 166, rfl⟩
abbrev main_call1_v0 : Ref sig .tc := ⟨.hbm, 167, rfl⟩
abbrev main_call1_cst : Ref sig .tc := ⟨.hbm, 168, rfl⟩
abbrev main_call1_call0_v0 : Ref sig .tc := ⟨.hbm, 169, rfl⟩
abbrev main_call1_v1 : Ref sig .tc := ⟨.hbm, 170, rfl⟩
abbrev main_call1_cst_0 : Ref sig .tc := ⟨.hbm, 171, rfl⟩
abbrev main_call1_v2 : Ref sig .tc := ⟨.hbm, 172, rfl⟩
abbrev main_call1_v3 : Ref sig .tc := ⟨.hbm, 173, rfl⟩
abbrev main_call1_cst_1 : Ref sig .tc := ⟨.hbm, 174, rfl⟩
abbrev main_call1_call1_v0 : Ref sig .tc := ⟨.hbm, 175, rfl⟩
abbrev main_call1_v4 : Ref sig .tc := ⟨.hbm, 176, rfl⟩
abbrev main_call1_cst_2 : Ref sig .tc := ⟨.hbm, 177, rfl⟩
abbrev main_call1_v5 : Ref sig .tc := ⟨.hbm, 178, rfl⟩
abbrev main_call1_v6 : Ref sig .tc := ⟨.hbm, 179, rfl⟩
abbrev main_call1_cst_3 : Ref sig .tc := ⟨.hbm, 180, rfl⟩
abbrev main_call1_call2_v0 : Ref sig .tc := ⟨.hbm, 181, rfl⟩
abbrev main_v119 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_call2_v3 : Ref sig .tc := ⟨.hbm, 186, rfl⟩
abbrev main_call2_cst : Ref sig .tc := ⟨.hbm, 187, rfl⟩
abbrev main_call2_v4 : Ref sig .tc := ⟨.hbm, 188, rfl⟩
abbrev main_call2_call0_v0 : Ref sig .tc := ⟨.hbm, 189, rfl⟩
abbrev main_call2_call0_cst : Ref sig .tc := ⟨.hbm, 190, rfl⟩
abbrev main_call2_call0_call0_v0 : Ref sig .tc := ⟨.hbm, 191, rfl⟩
abbrev main_call2_call0_v1 : Ref sig .tc := ⟨.hbm, 192, rfl⟩
abbrev main_call2_call0_cst_0 : Ref sig .tc := ⟨.hbm, 193, rfl⟩
abbrev main_call2_v5 : Ref sig .tc := ⟨.hbm, 194, rfl⟩
abbrev main_v120 : Ref sig .tc := ⟨.hbm, 195, rfl⟩
abbrev main_call3_v0 : Ref sig .tc := ⟨.hbm, 196, rfl⟩
abbrev main_call3_cst : Ref sig .tc := ⟨.hbm, 197, rfl⟩
abbrev main_call3_call0_v0 : Ref sig .tc := ⟨.hbm, 198, rfl⟩
abbrev main_call3_v1 : Ref sig .tc := ⟨.hbm, 199, rfl⟩
abbrev main_call3_cst_0 : Ref sig .tc := ⟨.hbm, 200, rfl⟩
abbrev main_call3_v2 : Ref sig .tc := ⟨.hbm, 201, rfl⟩
abbrev main_call3_v3 : Ref sig .tc := ⟨.hbm, 202, rfl⟩
abbrev main_call3_cst_1 : Ref sig .tc := ⟨.hbm, 203, rfl⟩
abbrev main_call3_call1_v0 : Ref sig .tc := ⟨.hbm, 204, rfl⟩
abbrev main_call3_v4 : Ref sig .tc := ⟨.hbm, 205, rfl⟩
abbrev main_call3_cst_2 : Ref sig .tc := ⟨.hbm, 206, rfl⟩
abbrev main_call3_v5 : Ref sig .tc := ⟨.hbm, 207, rfl⟩
abbrev main_call3_v6 : Ref sig .tc := ⟨.hbm, 208, rfl⟩
abbrev main_call3_cst_3 : Ref sig .tc := ⟨.hbm, 209, rfl⟩
abbrev main_call3_call2_v0 : Ref sig .tc := ⟨.hbm, 210, rfl⟩
abbrev main_v121 : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_cst : Ref sig .tc := ⟨.hbm, 216, rfl⟩
abbrev main_call4_v4 : Ref sig .tc := ⟨.hbm, 217, rfl⟩
abbrev main_call4_call0_v0 : Ref sig .tc := ⟨.hbm, 218, rfl⟩
abbrev main_call4_call0_cst : Ref sig .tc := ⟨.hbm, 219, rfl⟩
abbrev main_call4_call0_call0_v0 : Ref sig .tc := ⟨.hbm, 220, rfl⟩
abbrev main_call4_call0_v1 : Ref sig .tc := ⟨.hbm, 221, rfl⟩
abbrev main_call4_call0_cst_0 : Ref sig .tc := ⟨.hbm, 222, rfl⟩
abbrev main_call4_v5 : Ref sig .tc := ⟨.hbm, 223, rfl⟩
abbrev main_v122 : Ref sig .tc := ⟨.hbm, 224, rfl⟩
abbrev main_call5_v0 : Ref sig .tc := ⟨.hbm, 225, rfl⟩
abbrev main_call5_cst : Ref sig .tc := ⟨.hbm, 226, rfl⟩
abbrev main_call5_call0_v0 : Ref sig .tc := ⟨.hbm, 227, rfl⟩
abbrev main_call5_v1 : Ref sig .tc := ⟨.hbm, 228, rfl⟩
abbrev main_call5_cst_0 : Ref sig .tc := ⟨.hbm, 229, rfl⟩
abbrev main_call5_v2 : Ref sig .tc := ⟨.hbm, 230, rfl⟩
abbrev main_call5_v3 : Ref sig .tc := ⟨.hbm, 231, rfl⟩
abbrev main_call5_cst_1 : Ref sig .tc := ⟨.hbm, 232, rfl⟩
abbrev main_call5_call1_v0 : Ref sig .tc := ⟨.hbm, 233, rfl⟩
abbrev main_call5_v4 : Ref sig .tc := ⟨.hbm, 234, rfl⟩
abbrev main_call5_cst_2 : Ref sig .tc := ⟨.hbm, 235, rfl⟩
abbrev main_call5_v5 : Ref sig .tc := ⟨.hbm, 236, rfl⟩
abbrev main_call5_v6 : Ref sig .tc := ⟨.hbm, 237, rfl⟩
abbrev main_call5_cst_3 : Ref sig .tc := ⟨.hbm, 238, rfl⟩
abbrev main_call5_call2_v0 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  bcast_S_S2048x128 : S_.BroadcastsInDim S2048x128 (![] : Fin 0 → Fin S2048x128.rank)
  transposes_S2048x6144_S6144x2048_1_0 : S2048x6144.Transposes [1, 0] S6144x2048
  bcast_S_S6144x128 : S_.BroadcastsInDim S6144x128 (![] : Fin 0 → Fin S6144x128.rank)
  transposes_S6144x4096_S4096x6144_1_0 : S6144x4096.Transposes [1, 0] S4096x6144
  bcast_S_S4096x128 : S_.BroadcastsInDim S4096x128 (![] : Fin 0 → Fin S4096x128.rank)
  slices_S2x128x128_S1x128x128_1_0_0 : S2x128x128.Slices ![1, 0, 0] S1x128x128
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  bcast_S1x2_S6144x2_0_1 : S1x2.BroadcastsInDim S6144x2 (![0, 1] : Fin 2 → Fin S6144x2.rank)
  bcast_S1x2_S4096x2_0_1 : S1x2.BroadcastsInDim S4096x2 (![0, 1] : Fin 2 → Fin S4096x2.rank)
  natLt_1_32 : 1 < 32
  reducesTo_S2048x2_S2_d0 : S2048x2.ReducesTo [0] S2
  h_S_ : 0 < S_.numel
  bcast_S_S2048x2 : S_.BroadcastsInDim S2048x2 (![] : Fin 0 → Fin S2048x2.rank)
  bcast_S_S2 : S_.BroadcastsInDim S2 (![] : Fin 0 → Fin S2.rank)
  reducesTo_S6144x2_S2_d0 : S6144x2.ReducesTo [0] S2
  bcast_S_S6144x2 : S_.BroadcastsInDim S6144x2 (![] : Fin 0 → Fin S6144x2.rank)
  reducesTo_S4096x2_S2_d0 : S4096x2.ReducesTo [0] S2
  bcast_S_S4096x2 : S_.BroadcastsInDim S4096x2 (![] : Fin 0 → Fin S4096x2.rank)
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  dot_S6144x128_S128x128_S6144x128_1_0_0_1_n_n_wf : DotDims.WF S6144x128 S128x128 S6144x128 [1] [0] [0] [1] [] []
  dot_S2048x6144_S6144x128_S2048x128_1_0_0_1_n_n_wf : DotDims.WF S2048x6144 S6144x128 S2048x128 [1] [0] [0] [1] [] []
  dot_S6144x2048_S2048x128_S6144x128_1_0_0_1_n_n_wf : DotDims.WF S6144x2048 S2048x128 S6144x128 [1] [0] [0] [1] [] []
  dot_S6144x6144_S6144x128_S6144x128_1_0_0_1_n_n_wf : DotDims.WF S6144x6144 S6144x128 S6144x128 [1] [0] [0] [1] [] []
  dot_S4096x128_S128x128_S4096x128_1_0_0_1_n_n_wf : DotDims.WF S4096x128 S128x128 S4096x128 [1] [0] [0] [1] [] []
  dot_S6144x4096_S4096x128_S6144x128_1_0_0_1_n_n_wf : DotDims.WF S6144x4096 S4096x128 S6144x128 [1] [0] [0] [1] [] []
  dot_S4096x6144_S6144x128_S4096x128_1_0_0_1_n_n_wf : DotDims.WF S4096x6144 S6144x128 S4096x128 [1] [0] [0] [1] [] []
  dot_S4096x4096_S4096x128_S4096x128_1_0_0_1_n_n_wf : DotDims.WF S4096x4096 S4096x128 S4096x128 [1] [0] [0] [1] [] []
  dot_S2048x128_S128x2_S2048x2_1_0_0_1_n_n_wf : DotDims.WF S2048x128 S128x2 S2048x2 [1] [0] [0] [1] [] []
  dot_S6144x128_S128x2_S6144x2_1_0_0_1_n_n_wf : DotDims.WF S6144x128 S128x2 S6144x2 [1] [0] [0] [1] [] []
  dot_S4096x128_S128x2_S4096x2_1_0_0_1_n_n_wf : DotDims.WF S4096x128 S128x2 S4096x2 [1] [0] [0] [1] [] []

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf
def dot_S2048x6144_S6144x128_S2048x128_1_0_0_1_n_n : DotDims S2048x6144 S6144x128 S2048x128 where
  lhsContracting := [1]
  rhsContracting := [0]
  lhsNonContracting := [0]
  rhsNonContracting := [1]
  lhsBatch := []
  rhsBatch := []
  wf := dot_S2048x6144_S6144x128_S2048x128_1_0_0_1_n_n_wf
def dot_S6144x2048_S2048x128_S6144x128_1_0_0_1_n_n : DotDims S6144x2048 S2048x128 S6144x128 where
  lhsContracting := [1]
  rhsContracting := [0]
  lhsNonContracting := [0]
  rhsNonContracting := [1]
  lhsBatch := []
  rhsBatch := []
  wf := dot_S6144x2048_S2048x128_S6144x128_1_0_0_1_n_n_wf
def dot_S6144x6144_S6144x128_S6144x128_1_0_0_1_n_n : DotDims S6144x6144 S6144x128 S6144x128 where
  lhsContracting := [1]
  rhsContracting := [0]
  lhsNonContracting := [0]
  rhsNonContracting := [1]
  lhsBatch := []
  rhsBatch := []
  wf := dot_S6144x6144_S6144x128_S6144x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S6144x4096_S4096x128_S6144x128_1_0_0_1_n_n : DotDims S6144x4096 S4096x128 S6144x128 where
  lhsContracting := [1]
  rhsContracting := [0]
  lhsNonContracting := [0]
  rhsNonContracting := [1]
  lhsBatch := []
  rhsBatch := []
  wf := dot_S6144x4096_S4096x128_S6144x128_1_0_0_1_n_n_wf
def dot_S4096x6144_S6144x128_S4096x128_1_0_0_1_n_n : DotDims S4096x6144 S6144x128 S4096x128 where
  lhsContracting := [1]
  rhsContracting := [0]
  lhsNonContracting := [0]
  rhsNonContracting := [1]
  lhsBatch := []
  rhsBatch := []
  wf := dot_S4096x6144_S6144x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf
def dot_S6144x128_S128x2_S6144x2_1_0_0_1_n_n : DotDims S6144x128 S128x2 S6144x2 where
  lhsContracting := [1]
  rhsContracting := [0]
  lhsNonContracting := [0]
  rhsNonContracting := [1]
  lhsBatch := []
  rhsBatch := []
  wf := dot_S6144x128_S128x2_S6144x2_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

class Facts : Prop extends Facts₀ where

variable [Facts]
-- ==== Proof.Kernel.Region0.lean ====
/-
  Region 0 of @main: the nodes' up-adjacency product of the first layer, `au0 · h00` over f32[2048, 2048] · bf16[2048, 128],
  in row tiles of 1024 and ONE tile of the contraction axis (the grid is 2 × 1). Because the contraction axis has a single
  tile, every grid point is both its first and its last: the body zeroes its accumulator, adds the tile's product to it,
  and stores the accumulator into the output block, at every point. The accumulator is therefore not carried from one
  point to the next, and the region's invariant holds it at arbitrary contents.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid0.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid0.Coords) : Prop := k0_cond2 i = 1#1

theorem isFirst_all : ∀ t : Fin cfg0.N, isFirst (grid0.coords t) :=
  (by decide +kernel : ∀ t : Fin grid0.N, isFirst (grid0.coords t))
theorem isLast_all : ∀ t : Fin cfg0.N, isLast (grid0.coords t) :=
  (by decide +kernel : ∀ t : Fin grid0.N, isLast (grid0.coords t))

/-! ## The staging memrefs at a point, and the accumulator -/

abbrev mA (t : Fin cfg0.N) : Memref sig .tc .vmem S1024x2048 .f32 := win0_0.stage (cfg0.slots t 0)
abbrev hA (t : Fin cfg0.N) : (mA t).IsWhole := hstage0_0 ((cfg0.slots t 0).cast nbuf0_0)
abbrev mB (t : Fin cfg0.N) : Memref sig .tc .vmem S2048x128 .bf16 := win0_1.stage (cfg0.slots t 1)
abbrev hB (t : Fin cfg0.N) : (mB t).IsWhole := hstage0_1 ((cfg0.slots t 1).cast nbuf0_1)
abbrev mO (t : Fin cfg0.N) : Memref sig .tc .vmem S1024x128 .f32 := win0_2.stage (cfg0.slots t 2)
abbrev hO (t : Fin cfg0.N) : (mO t).IsWhole := hstage0_2 ((cfg0.slots t 2).cast nbuf0_2)
/-- The accumulator: a scoped buffer of the kernel's own, passed beside the windows. -/
abbrev mAcc : Memref sig .tc .vmem S1024x128 .f32 := Memref.whole cc0_scratch0
/-- A view through which the output block's contents are stated. -/
abbrev vO : View sig .tc .vmem S1024x128 .f32 := (Memref.whole cc0_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid0.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid0.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid0.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc0_scratch0), ((c.tc : Thread nD τ).loc cc0_scratch0) ↦{fullShare} f)
    ∗ Pipeline.scopedRestBut (Ix := Unit) (Name := ℕ) (U := UR sig nD τ) (Lvl := ℕ) (Val := Elt F) spec0 c [cc0_scratch0])

/-- The proof data: the arrays as the region finds them; after the body at point `t` each input's buffer at its block
    and the output's at what the body stored; the invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out c (grid0.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t
    = out c (grid0.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid0.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.Kernel.Region1.lean ====
/-
  Region 1 of @main: the nodes' second term and their update, `sigmoid (p0 + inc1n · h10)` over f32[2048, 6144] · bf16[6144, 128],
  in row tiles of 1024 and THREE tiles of 2048 along the contraction axis (the grid is 2 × 3, the contraction coordinate
  innermost). At the first tile of a row the body copies the partial sum `p0`'s block into its accumulator; at every tile it
  adds the tile's product to the accumulator; at the last tile it stores the logistic function of the accumulator into the
  output block. The accumulator is CARRIED from one grid point to the next within a row, so the region's invariant names
  its contents after each point; the output block is stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid1.Coords) : Prop :=
  (Scalar.cmpi .ne (Scalar.extui (Scalar.cmpi .eq (BitVec.ofNat 32 (i 1).val) 0#32)) 0#32) = 1#1
/-- The contraction coordinate is the last one: the output block is stored. -/
abbrev isLast (i : grid1.Coords) : Prop := k1_cond2 i = 1#1

theorem isFirst_iff : ∀ t : Fin cfg1.N, isFirst (grid1.coords t) ↔ t.val % 3 = 0 :=
  (by decide +kernel : ∀ t : Fin grid1.N, isFirst (grid1.coords t) ↔ t.val % 3 = 0)
theorem isLast_iff : ∀ t : Fin cfg1.N, isLast (grid1.coords t) ↔ t.val % 3 = 2 :=
  (by decide +kernel : ∀ t : Fin grid1.N, isLast (grid1.coords t) ↔ t.val % 3 = 2)

/-- The output window is idle, and not written back, away from the last tile of a row; live at it. -/
theorem idle_out : ∀ t : Fin cfg1.N, ¬ t.val % 3 = 2 → cfg1.idle 3 (grid1.coords t) = true := by decide +kernel
theorem noFlush_out : ∀ t : Fin cfg1.N, ¬ t.val % 3 = 2 → (cfg1.win 3).flush t = false := by decide +kernel
theorem live_out : ∀ t : Fin cfg1.N, t.val % 3 = 2 → cfg1.idle 3 (grid1.coords t) = false := by decide +kernel
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel

/-! ## The staging memrefs at a point, and the accumulator -/

abbrev mA (t : Fin cfg1.N) : Memref sig .tc .vmem S1024x2048 .f32 := win1_0.stage (cfg1.slots t 0)
abbrev hA (t : Fin cfg1.N) : (mA t).IsWhole := hstage1_0 ((cfg1.slots t 0).cast nbuf1_0)
abbrev mB (t : Fin cfg1.N) : Memref sig .tc .vmem S6144x128 .bf16 := win1_1.stage (cfg1.slots t 1)
abbrev hB (t : Fin cfg1.N) : (mB t).IsWhole := hstage1_1 ((cfg1.slots t 1).cast nbuf1_1)
abbrev mP (t : Fin cfg1.N) : Memref sig .tc .vmem S1024x128 .f32 := win1_2.stage (cfg1.slots t 2)
abbrev hP (t : Fin cfg1.N) : (mP t).IsWhole := hstage1_2 ((cfg1.slots t 2).cast nbuf1_2)
abbrev mO (t : Fin cfg1.N) : Memref sig .tc .vmem S1024x128 .f32 := win1_3.stage (cfg1.slots t 3)
abbrev hO (t : Fin cfg1.N) : (mO t).IsWhole := hstage1_3 ((cfg1.slots t 3).cast nbuf1_3)
/-- The accumulator: a scoped buffer of the kernel's own, passed beside the windows. -/
abbrev mAcc : Memref sig .tc .vmem S1024x128 .f32 := Memref.whole cc1_scratch0
/-- Views through which the output block's and the accumulator's contents are stated. -/
abbrev vO : View sig .tc .vmem S1024x128 .f32 := (Memref.whole cc1_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid1.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S6144x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc1__mm_acc_kernel i arg2 harg2 arg3 harg3 arg4 harg4 arg5 harg5 arg6 harg6) K } := by
  refine ⟨?_, fun xi E K => ?run⟩
  case run =>
    simp only [cc1__mm_acc_kernel_eq_skeleton]; unfold cc1__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE tile of a row: the accumulator comes in at `xs`, what the tile before left. -/
noncomputable def runM (c : Dev nD) (i : grid1.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : ¬ isLast i) (x0 : Vec F S1024x2048 .f32) (x1 : Vec F S6144x128 .bf16) (x2 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare xs
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc1__mm_acc_kernel i arg2 harg2 arg3 harg3 arg4 harg4 arg5 harg5 arg6 harg6) K } := by
  refine ⟨?_, fun xi E K => ?run⟩
  case run =>
    simp only [cc1__mm_acc_kernel_eq_skeleton]; unfold cc1__mm_acc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid1.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S6144x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc1__mm_acc_kernel i arg2 harg2 arg3 harg3 arg4 harg4 arg5 harg5 arg6 harg6) K } := by
  refine ⟨?_, ?_, fun E K => ?run⟩
  case run =>
    simp only [cc1__mm_acc_kernel_eq_skeleton]; unfold cc1__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverM (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) (y : S1024x128.Idx) :
    ∃ pc ∈ (runM c i arg2 harg2 arg3 harg3 arg4 harg4 arg5 harg5 arg6 harg6 hf hl x0 x1 x2 xs).1, y ∈ pc.1.set :=
  View.cover_of_tiledL (runM c i arg2 harg2 arg3 harg3 arg4 harg4 arg5 harg5 arg6 harg6 hf hl x0 x1 x2 xs).1 S1024x128.size (by sl_kernel_rfl) y
theorem coverL (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a middle tile, -/
def accM (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 hf hl x0 x1 x2 xs).1)
/-- after a last tile; -/
def accL (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after the body at position `n`: at the first tile of a row what the first case leaves;
    at a later tile what the middle or the last case leaves over what the tile before left. -/
def accAt (c : Dev nD) : (n : ℕ) → n < cfg1.N → Vec F S1024x128 .f32
  | 0, hn =>
    let t : Fin cfg1.N := ⟨0, hn⟩
    accF c (grid1.coords t) (mA t) (hA t) (mB t) (hB t) (mP t) (hP t) (mO t) (hO t) mAcc (Memref.isWhole_whole _) ((isFirst_iff t).mpr (Nat.zero_mod _)) (fun h => by have h2 : (0 : ℕ) % 3 = 2 := (isLast_iff t).mp h; omega) (iblk V c 0 t) (iblk V c 1 t) (iblk V c 2 t)
  | n + 1, hn =>
    let t : Fin cfg1.N := ⟨n + 1, hn⟩
    if h0 : (n + 1) % 3 = 0 then
      accF c (grid1.coords t) (mA t) (hA t) (mB t) (hB t) (mP t) (hP t) (mO t) (hO t) mAcc (Memref.isWhole_whole _) ((isFirst_iff t).mpr h0) (fun h => by have h2 : (n + 1) % 3 = 2 := (isLast_iff t).mp h; omega) (iblk V c 0 t) (iblk V c 1 t) (iblk V c 2 t)
    else if h2 : (n + 1) % 3 = 2 then
      accL c (grid1.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t) (accAt c n (Nat.lt_of_succ_lt hn))
    else
      accM c (grid1.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (accAt c n (Nat.lt_of_succ_lt hn))

theorem accAt_F (c : Dev nD) (t : Fin cfg1.N) (h0 : t.val % 3 = 0) :
    accAt V c t.val t.isLt = accF c (grid1.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_M (c : Dev nD) (t : Fin cfg1.N) (h0 : ¬ t.val % 3 = 0) (h2 : ¬ t.val % 3 = 2) :
    accAt V c t.val t.isLt = accM c (grid1.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg1.N) (h0 : ¬ t.val % 3 = 0) (h2 : t.val % 3 = 2) :
    accAt V c t.val t.isLt = accL c (grid1.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the logistic function of the
    finished accumulator, as the last case stores it; elsewhere the window is idle and this is not consulted. -/
def outAt (c : Dev nD) (t : Fin cfg1.N) : Vec F S1024x128 .f32 :=
  if h2 : t.val % 3 = 2 then
    outL c (grid1.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec1 c [cc1_scratch0]

/-- The invariant before position `n`: before the first point the accumulator at anything; afterwards at what the point
    before left in it. -/
def PhiS (c : Dev nD) : (n : ℕ) → n ≤ cfg1.N → sProp 𝕄
  | 0, _ => iprop((∃ f : Buf (Elt F) ((c.tc : Thread nD τ).loc cc1_scratch0), ((c.tc : Thread nD τ).loc cc1_scratch0) ↦{fullShare} f) ∗ others c)
  | n + 1, hn => iprop(owns (c : Thread nD τ) mAcc fullShare (accAt V c n hn) ∗ others c)

theorem PhiS_zero (c : Dev nD) (n : ℕ) (h : n ≤ cfg1.N) (hz : n = 0) :
    PhiS V c n h = iprop((∃ f : Buf (Elt F) ((c.tc : Thread nD τ).loc cc1_scratch0), ((c.tc : Thread nD τ).loc cc1_scratch0) ↦{fullShare} f) ∗ others c) := by
  subst hz; rfl
theorem PhiS_succ (c : Dev nD) (n : ℕ) (hn : n < cfg1.N) :
    PhiS V c (n + 1) hn = iprop(owns (c : Thread nD τ) mAcc fullShare (accAt V c n hn) ∗ others c) := rfl
theorem PhiS_pos (c : Dev nD) (n : ℕ) (h : n ≤ cfg1.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg1.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]
theorem Phi_castSucc (c : Dev nD) (t : Fin cfg1.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 3 = 0
  · -- the first tile of a row
    have h2 : ¬ t.val % 3 = 2 := by omega
    rw [Dat.leavesExact_idle (dat V c) 3 t (idle_out t h2) (noFlush_out t h2)]
    rw [accAt_F V c t h0]
    unfold accF
    iintro ⟨HP, Ho, ⟨%d0, H0⟩, ⟨%d1, H1⟩, ⟨%d2, H2⟩, ⟨%d3, H3⟩⟩
    ihave HP' := (PhiS_some V c t.val (Nat.le_of_lt t.isLt)) $$ HP
    icases HP' with ⟨HS, Hrest⟩
    iapply ((runF c (grid1.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h2 : t.val % 3 = 2
    · -- the last tile of a row
      rw [show (dat V c).leavesExact 3 t = owns (c : Thread nD τ) (mO t) fullShare ((dat V c).after 3 t) from by
          unfold Dat.leavesExact; rw [live_out t h2], after_3]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩⟩
      iapply ((runL c (grid1.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO c _ _ _ _ _ _ _ _ _ _ _ _ _ _ _ _ _)
    · -- a middle tile of a row
      rw [Dat.leavesExact_idle (dat V c) 3 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩⟩
      iapply ((runM c (grid1.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Region1

end
-- ==== Proof.Kernel.Region2.lean ====
/-
  Region 2 of @main: the edges' first term of the first layer, `inc1ᵀ · h01`, the incidence matrix f32[2048, 6144] read
  TRANSPOSED — blocks of 2048 × 1024 contracted along their first axis against bf16[2048, 128] — in row tiles of 1024 of the
  result and ONE tile of the contraction axis (the grid is 6 × 1). Every grid point is both the first and the last tile of its
  row: the body zeroes its accumulator, adds the block's product and stores the accumulator into the output block at every
  point; the accumulator is not carried between points and the invariant holds it at arbitrary contents.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid2.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid2.Coords) : Prop := k2_cond2 i = 1#1

theorem isFirst_all : ∀ t : Fin cfg2.N, isFirst (grid2.coords t) :=
  (by decide +kernel : ∀ t : Fin grid2.N, isFirst (grid2.coords t))
theorem isLast_all : ∀ t : Fin cfg2.N, isLast (grid2.coords t) :=
  (by decide +kernel : ∀ t : Fin grid2.N, isLast (grid2.coords t))

/-! ## The staging memrefs at a point, and the accumulator -/

abbrev mA (t : Fin cfg2.N) : Memref sig .tc .vmem S2048x1024 .f32 := win2_0.stage (cfg2.slots t 0)
abbrev hA (t : Fin cfg2.N) : (mA t).IsWhole := hstage2_0 ((cfg2.slots t 0).cast nbuf2_0)
abbrev mB (t : Fin cfg2.N) : Memref sig .tc .vmem S2048x128 .bf16 := win2_1.stage (cfg2.slots t 1)
abbrev hB (t : Fin cfg2.N) : (mB t).IsWhole := hstage2_1 ((cfg2.slots t 1).cast nbuf2_1)
abbrev mO (t : Fin cfg2.N) : Memref sig .tc .vmem S1024x128 .f32 := win2_2.stage (cfg2.slots t 2)
abbrev hO (t : Fin cfg2.N) : (mO t).IsWhole := hstage2_2 ((cfg2.slots t 2).cast nbuf2_2)
/-- The accumulator: a scoped buffer of the kernel's own, passed beside the windows. -/
abbrev mAcc : Memref sig .tc .vmem S1024x128 .f32 := Memref.whole cc2_scratch0
/-- A view through which the output block's contents are stated. -/
abbrev vO : View sig .tc .vmem S1024x128 .f32 := (Memref.whole cc2_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid2.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc2__mm_kernel_ta i arg2 harg2 arg3 harg3 arg4 harg4 arg5 harg5) K } := by
  refine ⟨?_, ?_, fun E K => ?run⟩
  case run =>
    simp only [cc2__mm_kernel_ta_eq_skeleton]; unfold cc2__mm_kernel_ta_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid2.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid2.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc2_scratch0), ((c.tc : Thread nD τ).loc cc2_scratch0) ↦{fullShare} f)
    ∗ Pipeline.scopedRestBut (Ix := Unit) (Name := ℕ) (U := UR sig nD τ) (Lvl := ℕ) (Val := Elt F) spec2 c [cc2_scratch0])

/-- The proof data: the arrays as the region finds them; after the body at point `t` each input's buffer at its block
    and the output's at what the body stored; the invariant; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out c (grid2.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t
    = out c (grid2.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel

/-! ## The body obligation -/

def bodyPre (c : Dev nD) (t : Fin cfg2.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid2.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Region2

end
-- ==== Proof.Kernel.Region3.lean ====
/-
  Region 3 of @main: the edges' second term of the first layer, `p1 + (ad1 + au1) · h11` over two f32[6144, 6144] operands
  summed entry by entry and bf16[6144, 128], in row tiles of 1024 and SIX tiles of 1024 along the contraction axis (the grid is
  6 × 6, the contraction coordinate innermost). At the first tile of a row the body copies the partial sum `p1`'s block into
  its accumulator; at every tile it adds the two operand blocks, multiplies the sum by the panel's slice and adds the product
  to the accumulator; at the last tile it stores the accumulator into the output block. The accumulator is CARRIED from one
  grid point to the next within a row, so the region's invariant names its contents after each point; the output block is
  stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid3.Coords) : Prop :=
  (Scalar.cmpi .ne (Scalar.extui (Scalar.cmpi .eq (BitVec.ofNat 32 (i 1).val) 0#32)) 0#32) = 1#1
/-- The contraction coordinate is the last one: the output block is stored. -/
abbrev isLast (i : grid3.Coords) : Prop := k3_cond2 i = 1#1

theorem isFirst_iff : ∀ t : Fin cfg3.N, isFirst (grid3.coords t) ↔ t.val % 6 = 0 :=
  (by decide +kernel : ∀ t : Fin grid3.N, isFirst (grid3.coords t) ↔ t.val % 6 = 0)
theorem isLast_iff : ∀ t : Fin cfg3.N, isLast (grid3.coords t) ↔ t.val % 6 = 5 :=
  (by decide +kernel : ∀ t : Fin grid3.N, isLast (grid3.coords t) ↔ t.val % 6 = 5)

/-- The output window is idle, and not written back, away from the last tile of a row; live at it. -/
theorem idle_out : ∀ t : Fin cfg3.N, ¬ t.val % 6 = 5 → cfg3.idle 4 (grid3.coords t) = true := by decide +kernel
theorem noFlush_out : ∀ t : Fin cfg3.N, ¬ t.val % 6 = 5 → (cfg3.win 4).flush t = false := by decide +kernel
theorem live_out : ∀ t : Fin cfg3.N, t.val % 6 = 5 → cfg3.idle 4 (grid3.coords t) = false := by decide +kernel
theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel

/-! ## The staging memrefs at a point, and the accumulator -/

abbrev mA1 (t : Fin cfg3.N) : Memref sig .tc .vmem S1024x1024 .f32 := win3_0.stage (cfg3.slots t 0)
abbrev hA1 (t : Fin cfg3.N) : (mA1 t).IsWhole := hstage3_0 ((cfg3.slots t 0).cast nbuf3_0)
abbrev mA2 (t : Fin cfg3.N) : Memref sig .tc .vmem S1024x1024 .f32 := win3_1.stage (cfg3.slots t 1)
abbrev hA2 (t : Fin cfg3.N) : (mA2 t).IsWhole := hstage3_1 ((cfg3.slots t 1).cast nbuf3_1)
abbrev mB (t : Fin cfg3.N) : Memref sig .tc .vmem S6144x128 .bf16 := win3_2.stage (cfg3.slots t 2)
abbrev hB (t : Fin cfg3.N) : (mB t).IsWhole := hstage3_2 ((cfg3.slots t 2).cast nbuf3_2)
abbrev mP (t : Fin cfg3.N) : Memref sig .tc .vmem S1024x128 .f32 := win3_3.stage (cfg3.slots t 3)
abbrev hP (t : Fin cfg3.N) : (mP t).IsWhole := hstage3_3 ((cfg3.slots t 3).cast nbuf3_3)
abbrev mO (t : Fin cfg3.N) : Memref sig .tc .vmem S1024x128 .f32 := win3_4.stage (cfg3.slots t 4)
abbrev hO (t : Fin cfg3.N) : (mO t).IsWhole := hstage3_4 ((cfg3.slots t 4).cast nbuf3_4)
/-- The accumulator: a scoped buffer of the kernel's own, passed beside the windows. -/
abbrev mAcc : Memref sig .tc .vmem S1024x128 .f32 := Memref.whole cc3_scratch0
/-- Views through which the output block's and the accumulator's contents are stated. -/
abbrev vO : View sig .tc .vmem S1024x128 .f32 := (Memref.whole cc3_stg4_0 : Memref sig .tc .vmem S1024x128 .f32).view
abbrev vAcc : View sig .tc .vmem S1024x128 .f32 := mAcc.view

/-! ## The body, run in each of its three cases -/

set_option maxHeartbeats 1000000 in
/-- FIRST tile of a row: from the four input blocks and the output buffer at given contents and the accumulator at
    anything, the body returns with inputs and output buffer untouched and the accumulator at the pieces found. -/
noncomputable def runF (c : Dev nD) (i : grid3.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : isFirst i) (hl : ¬ isLast i) (x0 : Vec F S1024x1024 .f32) (x1 : Vec F S1024x1024 .f32) (x2 : Vec F S6144x128 .bf16) (x3 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc3__mm_acc_kernel_sum2 i arg2 harg2 arg3 harg3 arg4 harg4 arg5 harg5 arg6 harg6 arg7 harg7) K } := by
  refine ⟨?_, fun xi E K => ?run⟩
  case run =>
    simp only [cc3__mm_acc_kernel_sum2_eq_skeleton]; unfold cc3__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- MIDDLE tile of a row: the accumulator comes in at `xs`, what the tile before left. -/
noncomputable def runM (c : Dev nD) (i : grid3.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : ¬ isLast i) (x0 : Vec F S1024x1024 .f32) (x1 : Vec F S1024x1024 .f32) (x2 : Vec F S6144x128 .bf16) (x3 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc3__mm_acc_kernel_sum2 i arg2 harg2 arg3 harg3 arg4 harg4 arg5 harg5 arg6 harg6 arg7 harg7) K } := by
  refine ⟨?_, fun xi E K => ?run⟩
  case run =>
    simp only [cc3__mm_acc_kernel_sum2_eq_skeleton]; unfold cc3__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- LAST tile of a row: the accumulator comes in at `xs`; the output buffer, at anything, leaves at the pieces found. -/
noncomputable def runL (c : Dev nD) (i : grid3.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : isLast i) (x0 : Vec F S1024x1024 .f32) (x1 : Vec F S1024x1024 .f32) (x2 : Vec F S6144x128 .bf16) (x3 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ (∃ d, owns (c : Thread nD τ) arg6 fullShare d)
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LAcc)) -∗ K ⟨⟩))
          ⊢ wp frame (wpE (defs₀ (F := F)) Variants.none c none) E (cc3__mm_acc_kernel_sum2 i arg2 harg2 arg3 harg3 arg4 harg4 arg5 harg5 arg6 harg6 arg7 harg7) K } := by
  refine ⟨?_, ?_, fun E K => ?run⟩
  case run =>
    simp only [cc3__mm_acc_kernel_sum2_eq_skeleton]; unfold cc3__mm_acc_kernel_sum2_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

/-! ## The pieces cover their buffers; what each case leaves -/

theorem coverF (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) (y : S1024x128.Idx) :
    ∃ pc ∈ (runF c i arg2 harg2 arg3 harg3 arg4 harg4 arg5 harg5 arg6 harg6 arg7 harg7 hf hl x0 x1 x2 x3).1, y ∈ pc.1.set :=
  View.cover_of_tiledL (runF c i arg2 harg2 arg3 harg3 arg4 harg4 arg5 harg5 arg6 harg6 arg7 harg7 hf hl x0 x1 x2 x3).1 S1024x128.size (by sl_kernel_rfl) y
theorem coverM (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runM c i arg2 harg2 arg3 harg3 arg4 harg4 arg5 harg5 arg6 harg6 arg7 harg7 hf hl x0 x1 x2 x3 xs).1, y ∈ pc.1.set :=
  View.cover_of_tiledL (runM c i arg2 harg2 arg3 harg3 arg4 harg4 arg5 harg5 arg6 harg6 arg7 harg7 hf hl x0 x1 x2 x3 xs).1 S1024x128.size (by sl_kernel_rfl) y
theorem coverL (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).2.1, y ∈ pc.1.set :=
  View.cover_of_tiledL (runL c i arg2 harg2 arg3 harg3 arg4 harg4 arg5 harg5 arg6 harg6 arg7 harg7 hf hl x0 x1 x2 x3 xs).2.1 S1024x128.size (by sl_kernel_rfl) y
theorem coverO (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).1, y ∈ pc.1.set :=
  View.cover_of_tiledL (runL c i arg2 harg2 arg3 harg3 arg4 harg4 arg5 harg5 arg6 harg6 arg7 harg7 hf hl x0 x1 x2 x3 xs).1 S1024x128.size (by sl_kernel_rfl) y

/-- The accumulator after a first tile, -/
def accF (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) : Vec F S1024x128 .f32 :=
  vAcc.read (Elt F) (vAcc.writes (Elt F) vAcc.junk (runF c i arg2 harg2 arg3 harg3 arg4 harg4 arg5 harg5 arg6 harg6 arg7 harg7 hf hl x0 x1 x2 x3).1)
/-- after a middle tile, -/
def accM (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 arg7 harg7 hf hl x0 x1 x2 x3 xs).1)
/-- after a last tile; -/
def accL (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 arg7 harg7 hf hl x0 x1 x2 x3 xs).2.1)
/-- and the output block after a last tile. -/
def outL (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 arg7 harg7 hf hl x0 x1 x2 x3 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the accumulator holds after the body at position `n`: at the first tile of a row what the first case leaves;
    at a later tile what the middle or the last case leaves over what the tile before left. -/
def accAt (c : Dev nD) : (n : ℕ) → n < cfg3.N → Vec F S1024x128 .f32
  | 0, hn =>
    let t : Fin cfg3.N := ⟨0, hn⟩
    accF c (grid3.coords t) (mA1 t) (hA1 t) (mA2 t) (hA2 t) (mB t) (hB t) (mP t) (hP t) (mO t) (hO t) mAcc (Memref.isWhole_whole _) ((isFirst_iff t).mpr (Nat.zero_mod _)) (fun h => by have h2 : (0 : ℕ) % 6 = 5 := (isLast_iff t).mp h; omega) (iblk V c 0 t) (iblk V c 1 t) (iblk V c 2 t) (iblk V c 3 t)
  | n + 1, hn =>
    let t : Fin cfg3.N := ⟨n + 1, hn⟩
    if h0 : (n + 1) % 6 = 0 then
      accF c (grid3.coords t) (mA1 t) (hA1 t) (mA2 t) (hA2 t) (mB t) (hB t) (mP t) (hP t) (mO t) (hO t) mAcc (Memref.isWhole_whole _) ((isFirst_iff t).mpr h0) (fun h => by have h2 : (n + 1) % 6 = 5 := (isLast_iff t).mp h; omega) (iblk V c 0 t) (iblk V c 1 t) (iblk V c 2 t) (iblk V c 3 t)
    else if h2 : (n + 1) % 6 = 5 then
      accL c (grid3.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t) (accAt c n (Nat.lt_of_succ_lt hn))
    else
      accM c (grid3.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t) (accAt c n (Nat.lt_of_succ_lt hn))

theorem accAt_F (c : Dev nD) (t : Fin cfg3.N) (h0 : t.val % 6 = 0) :
    accAt V c t.val t.isLt = accF c (grid3.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t) := by
  obtain ⟨n, hn⟩ := t
  cases n with
  | zero => rfl
  | succ n => exact dif_pos h0

theorem accAt_M (c : Dev nD) (t : Fin cfg3.N) (h0 : ¬ t.val % 6 = 0) (h2 : ¬ t.val % 6 = 5) :
    accAt V c t.val t.isLt = accM c (grid3.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg3.N) (h0 : ¬ t.val % 6 = 0) (h2 : t.val % 6 = 5) :
    accAt V c t.val t.isLt = accL c (grid3.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg3.N) : Vec F S1024x128 .f32 :=
  if h2 : t.val % 6 = 5 then
    outL c (grid3.coords t) (mA1 t) (hA1 t) (mA2 t) (hA2 t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t) (iblk V c 3 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec3 c [cc3_scratch0]

/-- The invariant before position `n`: before the first point the accumulator at anything; afterwards at what the point
    before left in it. -/
def PhiS (c : Dev nD) : (n : ℕ) → n ≤ cfg3.N → sProp 𝕄
  | 0, _ => iprop((∃ f : Buf (Elt F) ((c.tc : Thread nD τ).loc cc3_scratch0), ((c.tc : Thread nD τ).loc cc3_scratch0) ↦{fullShare} f) ∗ others c)
  | n + 1, hn => iprop(owns (c : Thread nD τ) mAcc fullShare (accAt V c n hn) ∗ others c)

theorem PhiS_zero (c : Dev nD) (n : ℕ) (h : n ≤ cfg3.N) (hz : n = 0) :
    PhiS V c n h = iprop((∃ f : Buf (Elt F) ((c.tc : Thread nD τ).loc cc3_scratch0), ((c.tc : Thread nD τ).loc cc3_scratch0) ↦{fullShare} f) ∗ others c) := by
  subst hz; rfl
theorem PhiS_succ (c : Dev nD) (n : ℕ) (hn : n < cfg3.N) :
    PhiS V c (n + 1) hn = iprop(owns (c : Thread nD τ) mAcc fullShare (accAt V c n hn) ∗ others c) := rfl
theorem PhiS_pos (c : Dev nD) (n : ℕ) (h : n ≤ cfg3.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg3.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = outAt V c t := by dsimp only [dat]
theorem Phi_castSucc (c : Dev nD) (t : Fin cfg3.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg3.N) : sProp 𝕄 :=
  iprop((dat V c).Φ t.castSucc ∗ (dat V c).owesAt () t.castSucc
    ∗ (∃ d, owns (c : Thread nD τ) (mA1 t) fullShare ((dat V c).before 0 t d))
    ∗ (∃ d, owns (c : Thread nD τ) (mA2 t) fullShare ((dat V c).before 1 t d))
    ∗ (∃ d, owns (c : Thread nD τ) (mB t) fullShare ((dat V c).before 2 t d))
    ∗ (∃ d, owns (c : Thread nD τ) (mP t) fullShare ((dat V c).before 3 t d))
    ∗ (∃ d, owns (c : Thread nD τ) (mO t) fullShare ((dat V c).before 4 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA1 t) fullShare ((dat V c).after 0 t) from by
      unfold Dat.leavesExact; rw [live_0 t], after_0]
  rw [show (dat V c).leavesExact 1 t = owns (c : Thread nD τ) (mA2 t) fullShare ((dat V c).after 1 t) from by
      unfold Dat.leavesExact; rw [live_1 t], after_1]
  rw [show (dat V c).leavesExact 2 t = owns (c : Thread nD τ) (mB t) fullShare ((dat V c).after 2 t) from by
      unfold Dat.leavesExact; rw [live_2 t], after_2]
  rw [show (dat V c).leavesExact 3 t = owns (c : Thread nD τ) (mP t) fullShare ((dat V c).after 3 t) from by
      unfold Dat.leavesExact; rw [live_3 t], after_3]
  rw [Phi_castSucc]
  by_cases h0 : t.val % 6 = 0
  · -- the first tile of a row
    have h2 : ¬ t.val % 6 = 5 := by omega
    rw [Dat.leavesExact_idle (dat V c) 4 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩, ⟨%d4, H4⟩⟩
    ihave HP' := hsome $$ HP
    icases HP' with ⟨HS, Hrest⟩
    iapply ((runF c (grid3.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h2 : t.val % 6 = 5
    · -- the last tile of a row
      rw [show (dat V c).leavesExact 4 t = owns (c : Thread nD τ) (mO t) fullShare ((dat V c).after 4 t) from by
          unfold Dat.leavesExact; rw [live_out t h2], after_4]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩, ⟨%d4, H4⟩⟩
      iapply ((runL c (grid3.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO c _ _ _ _ _ _ _ _ _ _ _ _ _ _ _ _ _ _ _ _)
    · -- a middle tile of a row
      rw [Dat.leavesExact_idle (dat V c) 4 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩, ⟨%d4, H4⟩⟩
      iapply ((runM c (grid3.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.Region3

end
-- ==== Proof.Kernel.Region4.lean ====
/-
  Region 4 of @main: the edges' third term and their update in the first layer, `sigmoid (p1 + inc2n · h21)` over
  f32[6144, 4096] · bf16[4096, 128], in row tiles of 1024 and TWO tiles of 2048 along the contraction axis (the grid is 6 × 2, the
  contraction coordinate innermost). At the first tile of a row the body copies the partial sum's block into its accumulator and
  adds the tile's product; at the second tile, the last, it adds the tile's product and stores the logistic function of the
  accumulator into the output block. The accumulator is CARRIED from the first tile to the second, so the invariant names
  its contents after each point; the output block is stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid4.Coords) : Prop :=
  (Scalar.cmpi .ne (Scalar.extui (Scalar.cmpi .eq (BitVec.ofNat 32 (i 1).val) 0#32)) 0#32) = 1#1
/-- The contraction coordinate is the last one: the output block is stored. -/
abbrev isLast (i : grid4.Coords) : Prop := k4_cond2 i = 1#1

theorem isFirst_iff : ∀ t : Fin cfg4.N, isFirst (grid4.coords t) ↔ t.val % 2 = 0 :=
  (by decide +kernel : ∀ t : Fin grid4.N, isFirst (grid4.coords t) ↔ t.val % 2 = 0)
theorem isLast_iff : ∀ t : Fin cfg4.N, isLast (grid4.coords t) ↔ t.val % 2 = 1 :=
  (by decide +kernel : ∀ t : Fin grid4.N, isLast (grid4.coords t) ↔ t.val % 2 = 1)

/-- The output window is idle, and not written back, away from the last tile of a row; live at it. -/
theorem idle_out : ∀ t : Fin cfg4.N, ¬ t.val % 2 = 1 → cfg4.idle 3 (grid4.coords t) = true := by decide +kernel
theorem noFlush_out : ∀ t : Fin cfg4.N, ¬ t.val % 2 = 1 → (cfg4.win 3).flush t = false := by decide +kernel
theorem live_out : ∀ t : Fin cfg4.N, t.val % 2 = 1 → cfg4.idle 3 (grid4.coords t) = false := by decide +kernel
theorem live_0 : ∀ t : Fin cfg4.N, cfg4.idle 0 (grid4.coords t) = false := by decide +kernel
theorem live_1 : ∀ t : Fin cfg4.N, cfg4.idle 1 (grid4.coords t) = false := by decide +kernel
theorem live_2 : ∀ t : Fin cfg4.N, cfg4.idle 2 (grid4.coords t) = false := by decide +kernel

/-! ## The staging memrefs at a point, and the accumulator -/

abbrev mA (t : Fin cfg4.N) : Memref sig .tc .vmem S1024x2048 .f32 := win4_0.stage (cfg4.slots t 0)
abbrev hA (t : Fin cfg4.N) : (mA t).IsWhole := hstage4_0 ((cfg4.slots t 0).cast nbuf4_0)
abbrev mB (t : Fin cfg4.N) : Memref sig .tc .vmem S4096x128 .bf16 := win4_1.stage (cfg4.slots t 1)
abbrev hB (t : Fin cfg4.N) : (mB t).IsWhole := hstage4_1 ((cfg4.slots t 1).cast nbuf4_1)
abbrev mP (t : Fin cfg4.N) : Memref sig .tc .vmem S1024x128 .f32 := win4_2.stage (cfg4.slots t 2)
abbrev hP (t : Fin cfg4.N) : (mP t).IsWhole := hstage4_2 ((cfg4.slots t 2).cast nbuf4_2)
abbrev mO (t : Fin cfg4.N) : Memref sig .tc .vmem S1024x128 .f32 := win4_3.stage (cfg4.slots t 3)
abbrev hO (t : Fin cfg4.N) : (mO t).IsWhole := hstage4_3 ((cfg4.slots t 3).cast nbuf4_3)
/-- The accumulator: a scoped buffer of the kernel's own, passed beside the windows. -/
abbrev mAcc : Memref sig .tc .vmem S1024x128 .f32 := Memref.whole cc4_scratch0
/-- Views through which the output block's and the accumulator's contents are stated. -/
abbrev vO : View sig .tc .vmem S1024x128 .f32 := (Memref.whole cc4_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid4.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc4__mm_acc_kernel i arg2 harg2 arg3 harg3 arg4 harg4 arg5 harg5 arg6 harg6) K } := by
  refine ⟨?_, fun xi E K => ?run⟩
  case run =>
    simp only [cc4__mm_acc_kernel_eq_skeleton]; unfold cc4__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid4.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc4__mm_acc_kernel i arg2 harg2 arg3 harg3 arg4 harg4 arg5 harg5 arg6 harg6) K } := by
  refine ⟨?_, ?_, fun E K => ?run⟩
  case run =>
    simp only [cc4__mm_acc_kernel_eq_skeleton]; unfold cc4__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds after the body at position `n`: at the first tile of a row what the first case leaves; at
    the second (and last) tile what the last case leaves over what the first tile left. -/
def accAt (c : Dev nD) : (n : ℕ) → n < cfg4.N → Vec F S1024x128 .f32
  | 0, hn =>
    let t : Fin cfg4.N := ⟨0, hn⟩
    accF c (grid4.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg4.N := ⟨n + 1, hn⟩
    if h0 : (n + 1) % 2 = 0 then
      accF c (grid4.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid4.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg4.N) (h0 : t.val % 2 = 0) :
    accAt V c t.val t.isLt = accF c (grid4.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg4.N) (h0 : ¬ t.val % 2 = 0) (h2 : t.val % 2 = 1) :
    accAt V c t.val t.isLt = accL c (grid4.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg4.N) : Vec F S1024x128 .f32 :=
  if h2 : t.val % 2 = 1 then
    outL c (grid4.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec4 c [cc4_scratch0]

/-- The invariant before position `n`: before the first point the accumulator at anything; afterwards at what the point
    before left in it. -/
def PhiS (c : Dev nD) : (n : ℕ) → n ≤ cfg4.N → sProp 𝕄
  | 0, _ => iprop((∃ f : Buf (Elt F) ((c.tc : Thread nD τ).loc cc4_scratch0), ((c.tc : Thread nD τ).loc cc4_scratch0) ↦{fullShare} f) ∗ others c)
  | n + 1, hn => iprop(owns (c : Thread nD τ) mAcc fullShare (accAt V c n hn) ∗ others c)

theorem PhiS_zero (c : Dev nD) (n : ℕ) (h : n ≤ cfg4.N) (hz : n = 0) :
    PhiS V c n h = iprop((∃ f : Buf (Elt F) ((c.tc : Thread nD τ).loc cc4_scratch0), ((c.tc : Thread nD τ).loc cc4_scratch0) ↦{fullShare} f) ∗ others c) := by
  subst hz; rfl
theorem PhiS_succ (c : Dev nD) (n : ℕ) (hn : n < cfg4.N) :
    PhiS V c (n + 1) hn = iprop(owns (c : Thread nD τ) mAcc fullShare (accAt V c n hn) ∗ others c) := rfl
theorem PhiS_pos (c : Dev nD) (n : ℕ) (h : n ≤ cfg4.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg4.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = outAt V c t := by dsimp only [dat]
theorem Phi_castSucc (c : Dev nD) (t : Fin cfg4.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg4.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg4.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg4.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg4.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid4.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid4.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W4, bigSep_W4]
  exact sound_body V c t

end Cert.Kernel.Region4

end
-- ==== Proof.Kernel.Region5.lean ====
/-
  Region 5 of @main: the faces' first term of the first layer, `inc2ᵀ · h12`, the incidence matrix f32[6144, 4096] read
  TRANSPOSED — blocks of 2048 × 1024 contracted along their first axis against slices of bf16[6144, 128] — in row tiles of 1024
  of the result and THREE tiles of 2048 along the contraction axis (the grid is 4 × 3, the contraction coordinate innermost).
  At the first tile of a row the body zeroes its accumulator; at every tile it adds the block's product to it; at the last
  tile it stores the accumulator into the output block. The accumulator is CARRIED from one grid point to the next within a
  row, so the region's invariant names its contents after each point; the output block is stored, and written back, at the
  last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator is zeroed. -/
abbrev isFirst (i : grid5.Coords) : Prop :=
  (Scalar.cmpi .ne (Scalar.extui (Scalar.cmpi .eq (BitVec.ofNat 32 (i 1).val) 0#32)) 0#32) = 1#1
/-- The contraction coordinate is the last one: the output block is stored. -/
abbrev isLast (i : grid5.Coords) : Prop := k5_cond2 i = 1#1

theorem isFirst_iff : ∀ t : Fin cfg5.N, isFirst (grid5.coords t) ↔ t.val % 3 = 0 :=
  (by decide +kernel : ∀ t : Fin grid5.N, isFirst (grid5.coords t) ↔ t.val % 3 = 0)
theorem isLast_iff : ∀ t : Fin cfg5.N, isLast (grid5.coords t) ↔ t.val % 3 = 2 :=
  (by decide +kernel : ∀ t : Fin grid5.N, isLast (grid5.coords t) ↔ t.val % 3 = 2)

/-- The output window is idle, and not written back, away from the last tile of a row; live at it. -/
theorem idle_out : ∀ t : Fin cfg5.N, ¬ t.val % 3 = 2 → cfg5.idle 2 (grid5.coords t) = true := by decide +kernel
theorem noFlush_out : ∀ t : Fin cfg5.N, ¬ t.val % 3 = 2 → (cfg5.win 2).flush t = false := by decide +kernel
theorem live_out : ∀ t : Fin cfg5.N, t.val % 3 = 2 → cfg5.idle 2 (grid5.coords t) = false := by decide +kernel
theorem live_0 : ∀ t : Fin cfg5.N, cfg5.idle 0 (grid5.coords t) = false := by decide +kernel
theorem live_1 : ∀ t : Fin cfg5.N, cfg5.idle 1 (grid5.coords t) = false := by decide +kernel

/-! ## The staging memrefs at a point, and the accumulator -/

abbrev mA (t : Fin cfg5.N) : Memref sig .tc .vmem S2048x1024 .f32 := win5_0.stage (cfg5.slots t 0)
abbrev hA (t : Fin cfg5.N) : (mA t).IsWhole := hstage5_0 ((cfg5.slots t 0).cast nbuf5_0)
abbrev mB (t : Fin cfg5.N) : Memref sig .tc .vmem S6144x128 .bf16 := win5_1.stage (cfg5.slots t 1)
abbrev hB (t : Fin cfg5.N) : (mB t).IsWhole := hstage5_1 ((cfg5.slots t 1).cast nbuf5_1)
abbrev mO (t : Fin cfg5.N) : Memref sig .tc .vmem S1024x128 .f32 := win5_2.stage (cfg5.slots t 2)
abbrev hO (t : Fin cfg5.N) : (mO t).IsWhole := hstage5_2 ((cfg5.slots t 2).cast nbuf5_2)
/-- The accumulator: a scoped buffer of the kernel's own, passed beside the windows. -/
abbrev mAcc : Memref sig .tc .vmem S1024x128 .f32 := Memref.whole cc5_scratch0
/-- Views through which the output block's and the accumulator's contents are stated. -/
abbrev vO : View sig .tc .vmem S1024x128 .f32 := (Memref.whole cc5_stg2_0 : Memref sig .tc .vmem S1024x128 .f32).view
abbrev vAcc : View sig .tc .vmem S1024x128 .f32 := mAcc.view

/-! ## The body, run in each of its three cases -/

set_option maxHeartbeats 1000000 in
/-- FIRST tile of a row: from the two input blocks and the output buffer at given contents and the accumulator at anything,
    the body returns with inputs and output buffer untouched and the accumulator at the pieces found. -/
noncomputable def runF (c : Dev nD) (i : grid5.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : ¬ isLast i) (x0 : Vec F S2048x1024 .f32) (x1 : Vec F S6144x128 .bf16) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc5__mm_kernel_ta i arg2 harg2 arg3 harg3 arg4 harg4 arg5 harg5) K } := by
  refine ⟨?_, fun xi E K => ?run⟩
  case run =>
    simp only [cc5__mm_kernel_ta_eq_skeleton]; unfold cc5__mm_kernel_ta_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1
    obtain rfl := harg4.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- MIDDLE tile of a row: the accumulator comes in at `xs`, what the tile before left. -/
noncomputable def runM (c : Dev nD) (i : grid5.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : ¬ isLast i) (x0 : Vec F S2048x1024 .f32) (x1 : Vec F S6144x128 .bf16) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc5__mm_kernel_ta i arg2 harg2 arg3 harg3 arg4 harg4 arg5 harg5) K } := by
  refine ⟨?_, fun xi E K => ?run⟩
  case run =>
    simp only [cc5__mm_kernel_ta_eq_skeleton]; unfold cc5__mm_kernel_ta_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1
    obtain rfl := harg4.eq_unread hf3; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- LAST tile of a row: the accumulator comes in at `xs`; the output buffer, at anything, leaves at the pieces found. -/
noncomputable def runL (c : Dev nD) (i : grid5.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : isLast i) (x0 : Vec F S2048x1024 .f32) (x1 : Vec F S6144x128 .bf16) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc5__mm_kernel_ta i arg2 harg2 arg3 harg3 arg4 harg4 arg5 harg5) K } := by
  refine ⟨?_, ?_, fun E K => ?run⟩
  case run =>
    simp only [cc5__mm_kernel_ta_eq_skeleton]; unfold cc5__mm_kernel_ta_skel
    unfold owns
    iintro ⟨⟨%f0, %hf0, H0⟩, ⟨%f1, %hf1, H1⟩, ⟨%d3, %f3, -, H3⟩, ⟨%fs, %hfs, HS⟩, Hk⟩
    obtain rfl := harg2.eq_unread hf0; obtain rfl := harg3.eq_unread hf1
    obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; iexact H3
    iexists _; iexact HS

/-! ## The pieces cover their buffers; what each case leaves -/

theorem coverF (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) (y : S1024x128.Idx) :
    ∃ pc ∈ (runF c i arg2 harg2 arg3 harg3 arg4 harg4 arg5 harg5 hf hl x0 x1).1, y ∈ pc.1.set :=
  View.cover_of_tiledL (runF c i arg2 harg2 arg3 harg3 arg4 harg4 arg5 harg5 hf hl x0 x1).1 S1024x128.size (by sl_kernel_rfl) y
theorem coverM (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) (y : S1024x128.Idx) :
    ∃ pc ∈ (runM c i arg2 harg2 arg3 harg3 arg4 harg4 arg5 harg5 hf hl x0 x1 xs).1, y ∈ pc.1.set :=
  View.cover_of_tiledL (runM c i arg2 harg2 arg3 harg3 arg4 harg4 arg5 harg5 hf hl x0 x1 xs).1 S1024x128.size (by sl_kernel_rfl) y
theorem coverL (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).2.1, y ∈ pc.1.set :=
  View.cover_of_tiledL (runL c i arg2 harg2 arg3 harg3 arg4 harg4 arg5 harg5 hf hl x0 x1 xs).2.1 S1024x128.size (by sl_kernel_rfl) y
theorem coverO (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).1, y ∈ pc.1.set :=
  View.cover_of_tiledL (runL c i arg2 harg2 arg3 harg3 arg4 harg4 arg5 harg5 hf hl x0 x1 xs).1 S1024x128.size (by sl_kernel_rfl) y

/-- The accumulator after a first tile, -/
def accF (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) : Vec F S1024x128 .f32 :=
  vAcc.read (Elt F) (vAcc.writes (Elt F) vAcc.junk (runF c i arg2 harg2 arg3 harg3 arg4 harg4 arg5 harg5 hf hl x0 x1).1)
/-- after a middle tile, -/
def accM (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) : Vec F S1024x128 .f32 :=
  vAcc.read (Elt F) (vAcc.writes (Elt F) vAcc.junk (runM c i arg2 harg2 arg3 harg3 arg4 harg4 arg5 harg5 hf hl x0 x1 xs).1)
/-- after a last tile; -/
def accL (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vAcc.read (Elt F) (vAcc.writes (Elt F) vAcc.junk (runL c i arg2 harg2 arg3 harg3 arg4 harg4 arg5 harg5 hf hl x0 x1 xs).2.1)
/-- and the output block after a last tile. -/
def outL (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vO.read (Elt F) (vO.writes (Elt F) vO.junk (runL c i arg2 harg2 arg3 harg3 arg4 harg4 arg5 harg5 hf hl x0 x1 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds after the body at position `n`: at the first tile of a row what the first case leaves;
    at a later tile what the middle or the last case leaves over what the tile before left. -/
def accAt (c : Dev nD) : (n : ℕ) → n < cfg5.N → Vec F S1024x128 .f32
  | 0, hn =>
    let t : Fin cfg5.N := ⟨0, hn⟩
    accF c (grid5.coords t) (mA t) (hA t) (mB t) (hB t) (mO t) (hO t) mAcc (Memref.isWhole_whole _) ((isFirst_iff t).mpr (Nat.zero_mod _)) (fun h => by have h2 : (0 : ℕ) % 3 = 2 := (isLast_iff t).mp h; omega) (iblk V c 0 t) (iblk V c 1 t)
  | n + 1, hn =>
    let t : Fin cfg5.N := ⟨n + 1, hn⟩
    if h0 : (n + 1) % 3 = 0 then
      accF c (grid5.coords t) (mA t) (hA t) (mB t) (hB t) (mO t) (hO t) mAcc (Memref.isWhole_whole _) ((isFirst_iff t).mpr h0) (fun h => by have h2 : (n + 1) % 3 = 2 := (isLast_iff t).mp h; omega) (iblk V c 0 t) (iblk V c 1 t)
    else if h2 : (n + 1) % 3 = 2 then
      accL c (grid5.coords t) (mA t) (hA t) (mB t) (hB t) (mO t) (hO t) mAcc (Memref.isWhole_whole _) (fun h => h0 ((isFirst_iff t).mp h)) ((isLast_iff t).mpr h2) (iblk V c 0 t) (iblk V c 1 t) (accAt c n (Nat.lt_of_succ_lt hn))
    else
      accM c (grid5.coords t) (mA t) (hA t) (mB t) (hB t) (mO t) (hO t) mAcc (Memref.isWhole_whole _) (fun h => h0 ((isFirst_iff t).mp h)) (fun h => h2 ((isLast_iff t).mp h)) (iblk V c 0 t) (iblk V c 1 t) (accAt c n (Nat.lt_of_succ_lt hn))

theorem accAt_F (c : Dev nD) (t : Fin cfg5.N) (h0 : t.val % 3 = 0) :
    accAt V c t.val t.isLt = accF c (grid5.coords t) (mA t) (hA t) (mB t) (hB t) (mO t) (hO t) mAcc (Memref.isWhole_whole _) ((isFirst_iff t).mpr h0) (fun h => by have h2 := (isLast_iff t).mp h; omega) (iblk V c 0 t) (iblk V c 1 t) := by
  obtain ⟨n, hn⟩ := t
  cases n with
  | zero => rfl
  | succ n => exact dif_pos h0

theorem accAt_M (c : Dev nD) (t : Fin cfg5.N) (h0 : ¬ t.val % 3 = 0) (h2 : ¬ t.val % 3 = 2) :
    accAt V c t.val t.isLt = accM c (grid5.coords t) (mA t) (hA t) (mB t) (hB t) (mO t) (hO t) mAcc (Memref.isWhole_whole _) (fun h => h0 ((isFirst_iff t).mp h)) (fun h => h2 ((isLast_iff t).mp h)) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg5.N) (h0 : ¬ t.val % 3 = 0) (h2 : t.val % 3 = 2) :
    accAt V c t.val t.isLt = accL c (grid5.coords t) (mA t) (hA t) (mB t) (hB t) (mO t) (hO t) mAcc (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg5.N) : Vec F S1024x128 .f32 :=
  if h2 : t.val % 3 = 2 then
    outL c (grid5.coords t) (mA t) (hA t) (mB t) (hB t) (mO t) (hO t) mAcc (Memref.isWhole_whole _) (fun h => by have h0 := (isFirst_iff t).mp h; omega) ((isLast_iff t).mpr h2) (iblk V c 0 t) (iblk V c 1 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec5 c [cc5_scratch0]

/-- The invariant before position `n`: before the first point the accumulator at anything; afterwards at what the point
    before left in it. -/
def PhiS (c : Dev nD) : (n : ℕ) → n ≤ cfg5.N → sProp 𝕄
  | 0, _ => iprop((∃ f : Buf (Elt F) ((c.tc : Thread nD τ).loc cc5_scratch0), ((c.tc : Thread nD τ).loc cc5_scratch0) ↦{fullShare} f) ∗ others c)
  | n + 1, hn => iprop(owns (c : Thread nD τ) mAcc fullShare (accAt V c n hn) ∗ others c)

theorem PhiS_zero (c : Dev nD) (n : ℕ) (h : n ≤ cfg5.N) (hz : n = 0) :
    PhiS V c n h = iprop((∃ f : Buf (Elt F) ((c.tc : Thread nD τ).loc cc5_scratch0), ((c.tc : Thread nD τ).loc cc5_scratch0) ↦{fullShare} f) ∗ others c) := by
  subst hz; rfl
theorem PhiS_succ (c : Dev nD) (n : ℕ) (hn : n < cfg5.N) :
    PhiS V c (n + 1) hn = iprop(owns (c : Thread nD τ) mAcc fullShare (accAt V c n hn) ∗ others c) := rfl
theorem PhiS_pos (c : Dev nD) (n : ℕ) (h : n ≤ cfg5.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg5.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg5.W) : (dat V c).A w = V c (Pipeline.arrRef spec5 w) := by dsimp only [dat]
theorem after_0 (c : Dev nD) (t : Fin cfg5.N) : (dat V c).after 0 t = iblk V c 0 t := by dsimp only [dat]
theorem after_1 (c : Dev nD) (t : Fin cfg5.N) : (dat V c).after 1 t = iblk V c 1 t := by dsimp only [dat]
theorem after_2 (c : Dev nD) (t : Fin cfg5.N) : (dat V c).after 2 t = outAt V c t := by dsimp only [dat]
theorem Phi_castSucc (c : Dev nD) (t : Fin cfg5.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg5.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg5.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg5.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [Phi_castSucc]
  by_cases h0 : t.val % 3 = 0
  · -- the first tile of a row
    have h2 : ¬ t.val % 3 = 2 := by omega
    rw [Dat.leavesExact_idle (dat V c) 2 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d3, H3⟩⟩
    ihave HP' := hsome $$ HP
    icases HP' with ⟨HS, Hrest⟩
    iapply ((runF c (grid5.coords t) (mA t) (hA t) (mB t) (hB t) (mO t) (hO t) mAcc (Memref.isWhole_whole _) ((isFirst_iff t).mpr h0) (fun h => by have h2 := (isLast_iff t).mp h; omega) (iblk V c 0 t) (iblk V c 1 t)).2 _ Set.univ _)
    isplitl [H0]; · iexact H0
    isplitl [H1]; · iexact H1
    isplitl [H3]; · iexact H3
    isplitl [HS]; · iexact HS
    iintro ⟨H0, H1, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _)
      iexact Hrest
    isplitl [Ho]; · iexact Ho
    isplitl [H0]; · iexact H0
    isplitl [H1]; · iexact H1
    iexists _; iexact H3
  · have hz : t.val ≠ 0 := fun h => h0 (by rw [h])
    rw [PhiS_pos V c _ _ hz]
    by_cases h2 : t.val % 3 = 2
    · -- the last tile of a row
      rw [show (dat V c).leavesExact 2 t = owns (c : Thread nD τ) (mO t) fullShare ((dat V c).after 2 t) from by
          unfold Dat.leavesExact; rw [live_out t h2], after_2]
      rw [show outAt V c t = _ from dif_pos h2]
      rw [accAt_L V c t h0 h2]
      unfold accL outL
      iintro ⟨⟨HS, Hrest⟩, Ho, ⟨%d0, H0⟩, ⟨%d1, H1⟩, ⟨%d3, H3⟩⟩
      iapply ((runL c (grid5.coords t) (mA t) (hA t) (mB t) (hB t) (mO t) (hO t) mAcc (Memref.isWhole_whole _) (fun h => h0 ((isFirst_iff t).mp h)) ((isLast_iff t).mpr h2) (iblk V c 0 t) (iblk V c 1 t)
        (accAt V c (t.val - 1) (Nat.lt_of_le_of_lt (Nat.sub_le _ _) t.isLt))).2.2 Set.univ _)
      isplitl [H0]; · iexact H0
      isplitl [H1]; · iexact H1
      isplitl [H3]; · iexists _; iexact H3
      isplitl [HS]; · iexact HS
      iintro ⟨H0, H1, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _)
        iexact Hrest
      isplitl [Ho]; · iexact Ho
      isplitl [H0]; · iexact H0
      isplitl [H1]; · iexact H1
      unfold owns; iexists _; isplitr
      swap; · iexact H3
      ipureintro; exact View.read_writes_of_cover _ _ _ _ _ (coverO c _ _ _ _ _ _ _ _ _ _ _ _ _ _)
    · -- a middle tile of a row
      rw [Dat.leavesExact_idle (dat V c) 2 t (idle_out t h2) (noFlush_out t h2)]
      rw [accAt_M V c t h0 h2]
      unfold accM
      iintro ⟨⟨HS, Hrest⟩, Ho, ⟨%d0, H0⟩, ⟨%d1, H1⟩, ⟨%d3, H3⟩⟩
      iapply ((runM c (grid5.coords t) (mA t) (hA t) (mB t) (hB t) (mO t) (hO t) mAcc (Memref.isWhole_whole _) (fun h => h0 ((isFirst_iff t).mp h)) (fun h => h2 ((isLast_iff t).mp h)) (iblk V c 0 t) (iblk V c 1 t)
        (accAt V c (t.val - 1) (Nat.lt_of_le_of_lt (Nat.sub_le _ _) t.isLt))).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _)
        iexact Hrest
      isplitl [Ho]; · iexact Ho
      isplitl [H0]; · iexact H0
      isplitl [H1]; · iexact H1
      iexists _; iexact H3

/-- The library's body obligation, at every point. -/
theorem body_obligation (c : Dev nD) : BodyObligation (dat (F := F) V c) (defs₀ (F := F)) Variants.none () Set.univ := fun t => by
  rw [bigSep_W5, bigSep_W5]
  exact sound_body V c t

end Cert.Kernel.Region5

end
-- ==== Proof.Kernel.Region6.lean ====
/-
  Region 6 of @main: the faces' second term and their update in the first layer, `sigmoid (p2 + ad2 · h22)` over
  f32[4096, 4096] · bf16[4096, 128], in row tiles of 1024 and TWO tiles of 2048 along the contraction axis (the grid is 4 × 2, the
  contraction coordinate innermost). At the first tile of a row the body copies the partial sum's block into its accumulator and
  adds the tile's product; at the second tile, the last, it adds the tile's product and stores the logistic function of the
  accumulator into the output block. The accumulator is CARRIED from the first tile to the second, so the invariant names
  its contents after each point; the output block is stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid6.Coords) : Prop :=
  (Scalar.cmpi .ne (Scalar.extui (Scalar.cmpi .eq (BitVec.ofNat 32 (i 1).val) 0#32)) 0#32) = 1#1
/-- The contraction coordinate is the last one: the output block is stored. -/
abbrev isLast (i : grid6.Coords) : Prop := k6_cond2 i = 1#1

theorem isFirst_iff : ∀ t : Fin cfg6.N, isFirst (grid6.coords t) ↔ t.val % 2 = 0 :=
  (by decide +kernel : ∀ t : Fin grid6.N, isFirst (grid6.coords t) ↔ t.val % 2 = 0)
theorem isLast_iff : ∀ t : Fin cfg6.N, isLast (grid6.coords t) ↔ t.val % 2 = 1 :=
  (by decide +kernel : ∀ t : Fin grid6.N, isLast (grid6.coords t) ↔ t.val % 2 = 1)

/-- The output window is idle, and not written back, away from the last tile of a row; live at it. -/
theorem idle_out : ∀ t : Fin cfg6.N, ¬ t.val % 2 = 1 → cfg6.idle 3 (grid6.coords t) = true := by decide +kernel
theorem noFlush_out : ∀ t : Fin cfg6.N, ¬ t.val % 2 = 1 → (cfg6.win 3).flush t = false := by decide +kernel
theorem live_out : ∀ t : Fin cfg6.N, t.val % 2 = 1 → cfg6.idle 3 (grid6.coords t) = false := by decide +kernel
theorem live_0 : ∀ t : Fin cfg6.N, cfg6.idle 0 (grid6.coords t) = false := by decide +kernel
theorem live_1 : ∀ t : Fin cfg6.N, cfg6.idle 1 (grid6.coords t) = false := by decide +kernel
theorem live_2 : ∀ t : Fin cfg6.N, cfg6.idle 2 (grid6.coords t) = false := by decide +kernel

/-! ## The staging memrefs at a point, and the accumulator -/

abbrev mA (t : Fin cfg6.N) : Memref sig .tc .vmem S1024x2048 .f32 := win6_0.stage (cfg6.slots t 0)
abbrev hA (t : Fin cfg6.N) : (mA t).IsWhole := hstage6_0 ((cfg6.slots t 0).cast nbuf6_0)
abbrev mB (t : Fin cfg6.N) : Memref sig .tc .vmem S4096x128 .bf16 := win6_1.stage (cfg6.slots t 1)
abbrev hB (t : Fin cfg6.N) : (mB t).IsWhole := hstage6_1 ((cfg6.slots t 1).cast nbuf6_1)
abbrev mP (t : Fin cfg6.N) : Memref sig .tc .vmem S1024x128 .f32 := win6_2.stage (cfg6.slots t 2)
abbrev hP (t : Fin cfg6.N) : (mP t).IsWhole := hstage6_2 ((cfg6.slots t 2).cast nbuf6_2)
abbrev mO (t : Fin cfg6.N) : Memref sig .tc .vmem S1024x128 .f32 := win6_3.stage (cfg6.slots t 3)
abbrev hO (t : Fin cfg6.N) : (mO t).IsWhole := hstage6_3 ((cfg6.slots t 3).cast nbuf6_3)
/-- The accumulator: a scoped buffer of the kernel's own, passed beside the windows. -/
abbrev mAcc : Memref sig .tc .vmem S1024x128 .f32 := Memref.whole cc6_scratch0
/-- Views through which the output block's and the accumulator's contents are stated. -/
abbrev vO : View sig .tc .vmem S1024x128 .f32 := (Memref.whole cc6_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid6.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc6__mm_acc_kernel i arg2 harg2 arg3 harg3 arg4 harg4 arg5 harg5 arg6 harg6) K } := by
  refine ⟨?_, fun xi E K => ?run⟩
  case run =>
    simp only [cc6__mm_acc_kernel_eq_skeleton]; unfold cc6__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid6.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc6__mm_acc_kernel i arg2 harg2 arg3 harg3 arg4 harg4 arg5 harg5 arg6 harg6) K } := by
  refine ⟨?_, ?_, fun E K => ?run⟩
  case run =>
    simp only [cc6__mm_acc_kernel_eq_skeleton]; unfold cc6__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the accumulator holds after the body at position `n`: at the first tile of a row what the first case leaves; at
    the second (and last) tile what the last case leaves over what the first tile left. -/
def accAt (c : Dev nD) : (n : ℕ) → n < cfg6.N → Vec F S1024x128 .f32
  | 0, hn =>
    let t : Fin cfg6.N := ⟨0, hn⟩
    accF c (grid6.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg6.N := ⟨n + 1, hn⟩
    if h0 : (n + 1) % 2 = 0 then
      accF c (grid6.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid6.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg6.N) (h0 : t.val % 2 = 0) :
    accAt V c t.val t.isLt = accF c (grid6.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg6.N) (h0 : ¬ t.val % 2 = 0) (h2 : t.val % 2 = 1) :
    accAt V c t.val t.isLt = accL c (grid6.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg6.N) : Vec F S1024x128 .f32 :=
  if h2 : t.val % 2 = 1 then
    outL c (grid6.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec6 c [cc6_scratch0]

/-- The invariant before position `n`: before the first point the accumulator at anything; afterwards at what the point
    before left in it. -/
def PhiS (c : Dev nD) : (n : ℕ) → n ≤ cfg6.N → sProp 𝕄
  | 0, _ => iprop((∃ f : Buf (Elt F) ((c.tc : Thread nD τ).loc cc6_scratch0), ((c.tc : Thread nD τ).loc cc6_scratch0) ↦{fullShare} f) ∗ others c)
  | n + 1, hn => iprop(owns (c : Thread nD τ) mAcc fullShare (accAt V c n hn) ∗ others c)

theorem PhiS_zero (c : Dev nD) (n : ℕ) (h : n ≤ cfg6.N) (hz : n = 0) :
    PhiS V c n h = iprop((∃ f : Buf (Elt F) ((c.tc : Thread nD τ).loc cc6_scratch0), ((c.tc : Thread nD τ).loc cc6_scratch0) ↦{fullShare} f) ∗ others c) := by
  subst hz; rfl
theorem PhiS_succ (c : Dev nD) (n : ℕ) (hn : n < cfg6.N) :
    PhiS V c (n + 1) hn = iprop(owns (c : Thread nD τ) mAcc fullShare (accAt V c n hn) ∗ others c) := rfl
theorem PhiS_pos (c : Dev nD) (n : ℕ) (h : n ≤ cfg6.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg6.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg6.W) : (dat V c).A w = V c (Pipeline.arrRef spec6 w) := by dsimp only [dat]
theorem after_0 (c : Dev nD) (t : Fin cfg6.N) : (dat V c).after 0 t = iblk V c 0 t := by dsimp only [dat]
theorem after_1 (c : Dev nD) (t : Fin cfg6.N) : (dat V c).after 1 t = iblk V c 1 t := by dsimp only [dat]
theorem after_2 (c : Dev nD) (t : Fin cfg6.N) : (dat V c).after 2 t = iblk V c 2 t := by dsimp only [dat]
theorem after_3 (c : Dev nD) (t : Fin cfg6.N) : (dat V c).after 3 t = outAt V c t := by dsimp only [dat]
theorem Phi_castSucc (c : Dev nD) (t : Fin cfg6.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg6.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg6.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg6.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg6.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid6.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid6.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W6, bigSep_W6]
  exact sound_body V c t

end Cert.Kernel.Region6

end
-- ==== Proof.Kernel.Region7.lean ====
/-
  Region 7 of @main: the nodes' up-adjacency product of the SECOND layer, `au0 · h00'` over f32[2048, 2048] · bf16[2048, 128]
  (the projection now taken of the first layer's node features), in row tiles of 1024 and ONE tile of the contraction axis
  (the grid is 2 × 1). Every grid point is both first and last tile of its row: the accumulator is zeroed, added to and stored
  into the output block at every point; it is not carried between points and the invariant holds it at arbitrary contents.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid7.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid7.Coords) : Prop := k7_cond2 i = 1#1

theorem isFirst_all : ∀ t : Fin cfg7.N, isFirst (grid7.coords t) :=
  (by decide +kernel : ∀ t : Fin grid7.N, isFirst (grid7.coords t))
theorem isLast_all : ∀ t : Fin cfg7.N, isLast (grid7.coords t) :=
  (by decide +kernel : ∀ t : Fin grid7.N, isLast (grid7.coords t))

/-! ## The staging memrefs at a point, and the accumulator -/

abbrev mA (t : Fin cfg7.N) : Memref sig .tc .vmem S1024x2048 .f32 := win7_0.stage (cfg7.slots t 0)
abbrev hA (t : Fin cfg7.N) : (mA t).IsWhole := hstage7_0 ((cfg7.slots t 0).cast nbuf7_0)
abbrev mB (t : Fin cfg7.N) : Memref sig .tc .vmem S2048x128 .bf16 := win7_1.stage (cfg7.slots t 1)
abbrev hB (t : Fin cfg7.N) : (mB t).IsWhole := hstage7_1 ((cfg7.slots t 1).cast nbuf7_1)
abbrev mO (t : Fin cfg7.N) : Memref sig .tc .vmem S1024x128 .f32 := win7_2.stage (cfg7.slots t 2)
abbrev hO (t : Fin cfg7.N) : (mO t).IsWhole := hstage7_2 ((cfg7.slots t 2).cast nbuf7_2)
/-- The accumulator: a scoped buffer of the kernel's own, passed beside the windows. -/
abbrev mAcc : Memref sig .tc .vmem S1024x128 .f32 := Memref.whole cc7_scratch0
/-- A view through which the output block's contents are stated. -/
abbrev vO : View sig .tc .vmem S1024x128 .f32 := (Memref.whole cc7_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid7.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc7__mm_kernel i arg2 harg2 arg3 harg3 arg4 harg4 arg5 harg5) K } := by
  refine ⟨?_, ?_, fun E K => ?run⟩
  case run =>
    simp only [cc7__mm_kernel_eq_skeleton]; unfold cc7__mm_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid7.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid7.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc7_scratch0), ((c.tc : Thread nD τ).loc cc7_scratch0) ↦{fullShare} f)
    ∗ Pipeline.scopedRestBut (Ix := Unit) (Name := ℕ) (U := UR sig nD τ) (Lvl := ℕ) (Val := Elt F) spec7 c [cc7_scratch0])

/-- The proof data: the arrays as the region finds them; after the body at point `t` each input's buffer at its block
    and the output's at what the body stored; the invariant; nothing owed; full shares. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => out c (grid7.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg7.W) : (dat V c).A w = V c (Pipeline.arrRef spec7 w) := by dsimp only [dat]
theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t
    = out c (grid7.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg7.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg7.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg7.N, cfg7.idle 0 (grid7.coords t) = false := by decide +kernel
theorem live_1 : ∀ t : Fin cfg7.N, cfg7.idle 1 (grid7.coords t) = false := by decide +kernel
theorem live_2 : ∀ t : Fin cfg7.N, cfg7.idle 2 (grid7.coords t) = false := by decide +kernel

/-! ## The body obligation -/

def bodyPre (c : Dev nD) (t : Fin cfg7.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg7.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid7.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W7, bigSep_W7]
  exact sound_body V c t

end Cert.Kernel.Region7

end
-- ==== Proof.Kernel.Region8.lean ====
/-
  Region 8 of @main: the nodes' second term and their update in the SECOND layer, `sigmoid (p0' + inc1n · h10')` over
  f32[2048, 6144] · bf16[6144, 128], in row tiles of 1024 and THREE tiles of 2048 along the contraction axis (the grid is 2 × 3,
  the contraction coordinate innermost). At the first tile of a row the body copies the partial sum's block into its
  accumulator; at every tile it adds the tile's product; at the last tile it stores the logistic function of the accumulator
  into the output block. The accumulator is CARRIED from one grid point to the next within a row, so the invariant names its
  contents after each point; the output block is stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid8.Coords) : Prop :=
  (Scalar.cmpi .ne (Scalar.extui (Scalar.cmpi .eq (BitVec.ofNat 32 (i 1).val) 0#32)) 0#32) = 1#1
/-- The contraction coordinate is the last one: the output block is stored. -/
abbrev isLast (i : grid8.Coords) : Prop := k8_cond2 i = 1#1

theorem isFirst_iff : ∀ t : Fin cfg8.N, isFirst (grid8.coords t) ↔ t.val % 3 = 0 :=
  (by decide +kernel : ∀ t : Fin grid8.N, isFirst (grid8.coords t) ↔ t.val % 3 = 0)
theorem isLast_iff : ∀ t : Fin cfg8.N, isLast (grid8.coords t) ↔ t.val % 3 = 2 :=
  (by decide +kernel : ∀ t : Fin grid8.N, isLast (grid8.coords t) ↔ t.val % 3 = 2)

/-- The output window is idle, and not written back, away from the last tile of a row; live at it. -/
theorem idle_out : ∀ t : Fin cfg8.N, ¬ t.val % 3 = 2 → cfg8.idle 3 (grid8.coords t) = true := by decide +kernel
theorem noFlush_out : ∀ t : Fin cfg8.N, ¬ t.val % 3 = 2 → (cfg8.win 3).flush t = false := by decide +kernel
theorem live_out : ∀ t : Fin cfg8.N, t.val % 3 = 2 → cfg8.idle 3 (grid8.coords t) = false := by decide +kernel
theorem live_0 : ∀ t : Fin cfg8.N, cfg8.idle 0 (grid8.coords t) = false := by decide +kernel
theorem live_1 : ∀ t : Fin cfg8.N, cfg8.idle 1 (grid8.coords t) = false := by decide +kernel
theorem live_2 : ∀ t : Fin cfg8.N, cfg8.idle 2 (grid8.coords t) = false := by decide +kernel

/-! ## The staging memrefs at a point, and the accumulator -/

abbrev mA (t : Fin cfg8.N) : Memref sig .tc .vmem S1024x2048 .f32 := win8_0.stage (cfg8.slots t 0)
abbrev hA (t : Fin cfg8.N) : (mA t).IsWhole := hstage8_0 ((cfg8.slots t 0).cast nbuf8_0)
abbrev mB (t : Fin cfg8.N) : Memref sig .tc .vmem S6144x128 .bf16 := win8_1.stage (cfg8.slots t 1)
abbrev hB (t : Fin cfg8.N) : (mB t).IsWhole := hstage8_1 ((cfg8.slots t 1).cast nbuf8_1)
abbrev mP (t : Fin cfg8.N) : Memref sig .tc .vmem S1024x128 .f32 := win8_2.stage (cfg8.slots t 2)
abbrev hP (t : Fin cfg8.N) : (mP t).IsWhole := hstage8_2 ((cfg8.slots t 2).cast nbuf8_2)
abbrev mO (t : Fin cfg8.N) : Memref sig .tc .vmem S1024x128 .f32 := win8_3.stage (cfg8.slots t 3)
abbrev hO (t : Fin cfg8.N) : (mO t).IsWhole := hstage8_3 ((cfg8.slots t 3).cast nbuf8_3)
/-- The accumulator: a scoped buffer of the kernel's own, passed beside the windows. -/
abbrev mAcc : Memref sig .tc .vmem S1024x128 .f32 := Memref.whole cc8_scratch0
/-- Views through which the output block's and the accumulator's contents are stated. -/
abbrev vO : View sig .tc .vmem S1024x128 .f32 := (Memref.whole cc8_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid8.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S6144x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc8__mm_acc_kernel i arg2 harg2 arg3 harg3 arg4 harg4 arg5 harg5 arg6 harg6) K } := by
  refine ⟨?_, fun xi E K => ?run⟩
  case run =>
    simp only [cc8__mm_acc_kernel_eq_skeleton]; unfold cc8__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE tile of a row: the accumulator comes in at `xs`, what the tile before left. -/
noncomputable def runM (c : Dev nD) (i : grid8.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : ¬ isLast i) (x0 : Vec F S1024x2048 .f32) (x1 : Vec F S6144x128 .bf16) (x2 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare xs
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc8__mm_acc_kernel i arg2 harg2 arg3 harg3 arg4 harg4 arg5 harg5 arg6 harg6) K } := by
  refine ⟨?_, fun xi E K => ?run⟩
  case run =>
    simp only [cc8__mm_acc_kernel_eq_skeleton]; unfold cc8__mm_acc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid8.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S6144x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc8__mm_acc_kernel i arg2 harg2 arg3 harg3 arg4 harg4 arg5 harg5 arg6 harg6) K } := by
  refine ⟨?_, ?_, fun E K => ?run⟩
  case run =>
    simp only [cc8__mm_acc_kernel_eq_skeleton]; unfold cc8__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverM (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) (y : S1024x128.Idx) :
    ∃ pc ∈ (runM c i arg2 harg2 arg3 harg3 arg4 harg4 arg5 harg5 arg6 harg6 hf hl x0 x1 x2 xs).1, y ∈ pc.1.set :=
  View.cover_of_tiledL (runM c i arg2 harg2 arg3 harg3 arg4 harg4 arg5 harg5 arg6 harg6 hf hl x0 x1 x2 xs).1 S1024x128.size (by sl_kernel_rfl) y
theorem coverL (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a middle tile, -/
def accM (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 hf hl x0 x1 x2 xs).1)
/-- after a last tile; -/
def accL (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- What the accumulator holds after the body at position `n`: at the first tile of a row what the first case leaves;
    at a later tile what the middle or the last case leaves over what the tile before left. -/
def accAt (c : Dev nD) : (n : ℕ) → n < cfg8.N → Vec F S1024x128 .f32
  | 0, hn =>
    let t : Fin cfg8.N := ⟨0, hn⟩
    accF c (grid8.coords t) (mA t) (hA t) (mB t) (hB t) (mP t) (hP t) (mO t) (hO t) mAcc (Memref.isWhole_whole _) ((isFirst_iff t).mpr (Nat.zero_mod _)) (fun h => by have h2 : (0 : ℕ) % 3 = 2 := (isLast_iff t).mp h; omega) (iblk V c 0 t) (iblk V c 1 t) (iblk V c 2 t)
  | n + 1, hn =>
    let t : Fin cfg8.N := ⟨n + 1, hn⟩
    if h0 : (n + 1) % 3 = 0 then
      accF c (grid8.coords t) (mA t) (hA t) (mB t) (hB t) (mP t) (hP t) (mO t) (hO t) mAcc (Memref.isWhole_whole _) ((isFirst_iff t).mpr h0) (fun h => by have h2 : (n + 1) % 3 = 2 := (isLast_iff t).mp h; omega) (iblk V c 0 t) (iblk V c 1 t) (iblk V c 2 t)
    else if h2 : (n + 1) % 3 = 2 then
      accL c (grid8.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t) (accAt c n (Nat.lt_of_succ_lt hn))
    else
      accM c (grid8.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (accAt c n (Nat.lt_of_succ_lt hn))

theorem accAt_F (c : Dev nD) (t : Fin cfg8.N) (h0 : t.val % 3 = 0) :
    accAt V c t.val t.isLt = accF c (grid8.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_M (c : Dev nD) (t : Fin cfg8.N) (h0 : ¬ t.val % 3 = 0) (h2 : ¬ t.val % 3 = 2) :
    accAt V c t.val t.isLt = accM c (grid8.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg8.N) (h0 : ¬ t.val % 3 = 0) (h2 : t.val % 3 = 2) :
    accAt V c t.val t.isLt = accL c (grid8.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the logistic function of the
    finished accumulator, as the last case stores it; elsewhere the window is idle and this is not consulted. -/
def outAt (c : Dev nD) (t : Fin cfg8.N) : Vec F S1024x128 .f32 :=
  if h2 : t.val % 3 = 2 then
    outL c (grid8.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec8 c [cc8_scratch0]

/-- The invariant before position `n`: before the first point the accumulator at anything; afterwards at what the point
    before left in it. -/
def PhiS (c : Dev nD) : (n : ℕ) → n ≤ cfg8.N → sProp 𝕄
  | 0, _ => iprop((∃ f : Buf (Elt F) ((c.tc : Thread nD τ).loc cc8_scratch0), ((c.tc : Thread nD τ).loc cc8_scratch0) ↦{fullShare} f) ∗ others c)
  | n + 1, hn => iprop(owns (c : Thread nD τ) mAcc fullShare (accAt V c n hn) ∗ others c)

theorem PhiS_zero (c : Dev nD) (n : ℕ) (h : n ≤ cfg8.N) (hz : n = 0) :
    PhiS V c n h = iprop((∃ f : Buf (Elt F) ((c.tc : Thread nD τ).loc cc8_scratch0), ((c.tc : Thread nD τ).loc cc8_scratch0) ↦{fullShare} f) ∗ others c) := by
  subst hz; rfl
theorem PhiS_succ (c : Dev nD) (n : ℕ) (hn : n < cfg8.N) :
    PhiS V c (n + 1) hn = iprop(owns (c : Thread nD τ) mAcc fullShare (accAt V c n hn) ∗ others c) := rfl
theorem PhiS_pos (c : Dev nD) (n : ℕ) (h : n ≤ cfg8.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg8.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg8 c where
  A w := V c (Pipeline.arrRef spec8 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg8.W) : (dat V c).A w = V c (Pipeline.arrRef spec8 w) := by dsimp only [dat]
theorem after_0 (c : Dev nD) (t : Fin cfg8.N) : (dat V c).after 0 t = iblk V c 0 t := by dsimp only [dat]
theorem after_1 (c : Dev nD) (t : Fin cfg8.N) : (dat V c).after 1 t = iblk V c 1 t := by dsimp only [dat]
theorem after_2 (c : Dev nD) (t : Fin cfg8.N) : (dat V c).after 2 t = iblk V c 2 t := by dsimp only [dat]
theorem after_3 (c : Dev nD) (t : Fin cfg8.N) : (dat V c).after 3 t = outAt V c t := by dsimp only [dat]
theorem Phi_castSucc (c : Dev nD) (t : Fin cfg8.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg8.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg8.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg8.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg8.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg8.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 3 = 0
  · -- the first tile of a row
    have h2 : ¬ t.val % 3 = 2 := by omega
    rw [Dat.leavesExact_idle (dat V c) 3 t (idle_out t h2) (noFlush_out t h2)]
    rw [accAt_F V c t h0]
    unfold accF
    iintro ⟨HP, Ho, ⟨%d0, H0⟩, ⟨%d1, H1⟩, ⟨%d2, H2⟩, ⟨%d3, H3⟩⟩
    ihave HP' := (PhiS_some V c t.val (Nat.le_of_lt t.isLt)) $$ HP
    icases HP' with ⟨HS, Hrest⟩
    iapply ((runF c (grid8.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h2 : t.val % 3 = 2
    · -- the last tile of a row
      rw [show (dat V c).leavesExact 3 t = owns (c : Thread nD τ) (mO t) fullShare ((dat V c).after 3 t) from by
          unfold Dat.leavesExact; rw [live_out t h2], after_3]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩⟩
      iapply ((runL c (grid8.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO c _ _ _ _ _ _ _ _ _ _ _ _ _ _ _ _ _)
    · -- a middle tile of a row
      rw [Dat.leavesExact_idle (dat V c) 3 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩⟩
      iapply ((runM c (grid8.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W8, bigSep_W8]
  exact sound_body V c t

end Cert.Kernel.Region8

end
-- ==== Proof.Kernel.Region9.lean ====
/-
  Region 9 of @main: the edges' first term of the SECOND layer, `inc1ᵀ · h01'`, the incidence matrix f32[2048, 6144] read
  TRANSPOSED — blocks of 2048 × 1024 contracted along their first axis against bf16[2048, 128] — in row tiles of 1024 and ONE
  tile of the contraction axis (the grid is 6 × 1). Every grid point is both first and last tile of its row; the accumulator is
  not carried between points and the invariant holds it at arbitrary contents.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid9.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid9.Coords) : Prop := k9_cond2 i = 1#1

theorem isFirst_all : ∀ t : Fin cfg9.N, isFirst (grid9.coords t) :=
  (by decide +kernel : ∀ t : Fin grid9.N, isFirst (grid9.coords t))
theorem isLast_all : ∀ t : Fin cfg9.N, isLast (grid9.coords t) :=
  (by decide +kernel : ∀ t : Fin grid9.N, isLast (grid9.coords t))

/-! ## The staging memrefs at a point, and the accumulator -/

abbrev mA (t : Fin cfg9.N) : Memref sig .tc .vmem S2048x1024 .f32 := win9_0.stage (cfg9.slots t 0)
abbrev hA (t : Fin cfg9.N) : (mA t).IsWhole := hstage9_0 ((cfg9.slots t 0).cast nbuf9_0)
abbrev mB (t : Fin cfg9.N) : Memref sig .tc .vmem S2048x128 .bf16 := win9_1.stage (cfg9.slots t 1)
abbrev hB (t : Fin cfg9.N) : (mB t).IsWhole := hstage9_1 ((cfg9.slots t 1).cast nbuf9_1)
abbrev mO (t : Fin cfg9.N) : Memref sig .tc .vmem S1024x128 .f32 := win9_2.stage (cfg9.slots t 2)
abbrev hO (t : Fin cfg9.N) : (mO t).IsWhole := hstage9_2 ((cfg9.slots t 2).cast nbuf9_2)
/-- The accumulator: a scoped buffer of the kernel's own, passed beside the windows. -/
abbrev mAcc : Memref sig .tc .vmem S1024x128 .f32 := Memref.whole cc9_scratch0
/-- A view through which the output block's contents are stated. -/
abbrev vO : View sig .tc .vmem S1024x128 .f32 := (Memref.whole cc9_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid9.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc9__mm_kernel_ta i arg2 harg2 arg3 harg3 arg4 harg4 arg5 harg5) K } := by
  refine ⟨?_, ?_, fun E K => ?run⟩
  case run =>
    simp only [cc9__mm_kernel_ta_eq_skeleton]; unfold cc9__mm_kernel_ta_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid9.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid9.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc9_scratch0), ((c.tc : Thread nD τ).loc cc9_scratch0) ↦{fullShare} f)
    ∗ Pipeline.scopedRestBut (Ix := Unit) (Name := ℕ) (U := UR sig nD τ) (Lvl := ℕ) (Val := Elt F) spec9 c [cc9_scratch0])

/-- The proof data: the arrays as the region finds them; after the body at point `t` each input's buffer at its block
    and the output's at what the body stored; the invariant; nothing owed; full shares. -/
def dat (c : Dev nD) : Dat τ (Elt F) Unit ℕ (UR sig nD τ) ℕ cfg9 c where
  A w := V c (Pipeline.arrRef spec9 w)
  after w t := match w with
    | ⟨0, _⟩ => iblk V c 0 t
    | ⟨1, _⟩ => iblk V c 1 t
    | ⟨2, _⟩ => out c (grid9.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg9.W) : (dat V c).A w = V c (Pipeline.arrRef spec9 w) := by dsimp only [dat]
theorem after_0 (c : Dev nD) (t : Fin cfg9.N) : (dat V c).after 0 t = iblk V c 0 t := by dsimp only [dat]
theorem after_1 (c : Dev nD) (t : Fin cfg9.N) : (dat V c).after 1 t = iblk V c 1 t := by dsimp only [dat]
theorem after_2 (c : Dev nD) (t : Fin cfg9.N) : (dat V c).after 2 t
    = out c (grid9.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg9.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg9.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg9.N, cfg9.idle 0 (grid9.coords t) = false := by decide +kernel
theorem live_1 : ∀ t : Fin cfg9.N, cfg9.idle 1 (grid9.coords t) = false := by decide +kernel
theorem live_2 : ∀ t : Fin cfg9.N, cfg9.idle 2 (grid9.coords t) = false := by decide +kernel

/-! ## The body obligation -/

def bodyPre (c : Dev nD) (t : Fin cfg9.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg9.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid9.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W9, bigSep_W9]
  exact sound_body V c t

end Cert.Kernel.Region9

end
-- ==== Proof.Kernel.Region10.lean ====
/-
  Region 10 of @main: the edges' second term of the SECOND layer, `p1' + (ad1 + au1) · h11'` over two f32[6144, 6144]
  operands summed entry by entry and bf16[6144, 128], in row tiles of 1024 and SIX tiles of 1024 along the contraction axis (the
  grid is 6 × 6, the contraction coordinate innermost). At the first tile of a row the body copies the partial sum's block into
  its accumulator; at every tile it adds the two operand blocks, multiplies the sum by the panel's slice and adds the product
  to the accumulator; at the last tile it stores the accumulator into the output block. The accumulator is CARRIED from one
  grid point to the next within a row, so the invariant names its contents after each point; the output block is stored, and
  written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid10.Coords) : Prop :=
  (Scalar.cmpi .ne (Scalar.extui (Scalar.cmpi .eq (BitVec.ofNat 32 (i 1).val) 0#32)) 0#32) = 1#1
/-- The contraction coordinate is the last one: the output block is stored. -/
abbrev isLast (i : grid10.Coords) : Prop := k10_cond2 i = 1#1

theorem isFirst_iff : ∀ t : Fin cfg10.N, isFirst (grid10.coords t) ↔ t.val % 6 = 0 :=
  (by decide +kernel : ∀ t : Fin grid10.N, isFirst (grid10.coords t) ↔ t.val % 6 = 0)
theorem isLast_iff : ∀ t : Fin cfg10.N, isLast (grid10.coords t) ↔ t.val % 6 = 5 :=
  (by decide +kernel : ∀ t : Fin grid10.N, isLast (grid10.coords t) ↔ t.val % 6 = 5)

/-- The output window is idle, and not written back, away from the last tile of a row; live at it. -/
theorem idle_out : ∀ t : Fin cfg10.N, ¬ t.val % 6 = 5 → cfg10.idle 4 (grid10.coords t) = true := by decide +kernel
theorem noFlush_out : ∀ t : Fin cfg10.N, ¬ t.val % 6 = 5 → (cfg10.win 4).flush t = false := by decide +kernel
theorem live_out : ∀ t : Fin cfg10.N, t.val % 6 = 5 → cfg10.idle 4 (grid10.coords t) = false := by decide +kernel
theorem live_0 : ∀ t : Fin cfg10.N, cfg10.idle 0 (grid10.coords t) = false := by decide +kernel
theorem live_1 : ∀ t : Fin cfg10.N, cfg10.idle 1 (grid10.coords t) = false := by decide +kernel
theorem live_2 : ∀ t : Fin cfg10.N, cfg10.idle 2 (grid10.coords t) = false := by decide +kernel
theorem live_3 : ∀ t : Fin cfg10.N, cfg10.idle 3 (grid10.coords t) = false := by decide +kernel

/-! ## The staging memrefs at a point, and the accumulator -/

abbrev mA1 (t : Fin cfg10.N) : Memref sig .tc .vmem S1024x1024 .f32 := win10_0.stage (cfg10.slots t 0)
abbrev hA1 (t : Fin cfg10.N) : (mA1 t).IsWhole := hstage10_0 ((cfg10.slots t 0).cast nbuf10_0)
abbrev mA2 (t : Fin cfg10.N) : Memref sig .tc .vmem S1024x1024 .f32 := win10_1.stage (cfg10.slots t 1)
abbrev hA2 (t : Fin cfg10.N) : (mA2 t).IsWhole := hstage10_1 ((cfg10.slots t 1).cast nbuf10_1)
abbrev mB (t : Fin cfg10.N) : Memref sig .tc .vmem S6144x128 .bf16 := win10_2.stage (cfg10.slots t 2)
abbrev hB (t : Fin cfg10.N) : (mB t).IsWhole := hstage10_2 ((cfg10.slots t 2).cast nbuf10_2)
abbrev mP (t : Fin cfg10.N) : Memref sig .tc .vmem S1024x128 .f32 := win10_3.stage (cfg10.slots t 3)
abbrev hP (t : Fin cfg10.N) : (mP t).IsWhole := hstage10_3 ((cfg10.slots t 3).cast nbuf10_3)
abbrev mO (t : Fin cfg10.N) : Memref sig .tc .vmem S1024x128 .f32 := win10_4.stage (cfg10.slots t 4)
abbrev hO (t : Fin cfg10.N) : (mO t).IsWhole := hstage10_4 ((cfg10.slots t 4).cast nbuf10_4)
/-- The accumulator: a scoped buffer of the kernel's own, passed beside the windows. -/
abbrev mAcc : Memref sig .tc .vmem S1024x128 .f32 := Memref.whole cc10_scratch0
/-- Views through which the output block's and the accumulator's contents are stated. -/
abbrev vO : View sig .tc .vmem S1024x128 .f32 := (Memref.whole cc10_stg4_0 : Memref sig .tc .vmem S1024x128 .f32).view
abbrev vAcc : View sig .tc .vmem S1024x128 .f32 := mAcc.view

/-! ## The body, run in each of its three cases -/

set_option maxHeartbeats 1000000 in
/-- FIRST tile of a row: from the four input blocks and the output buffer at given contents and the accumulator at
    anything, the body returns with inputs and output buffer untouched and the accumulator at the pieces found. -/
noncomputable def runF (c : Dev nD) (i : grid10.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : isFirst i) (hl : ¬ isLast i) (x0 : Vec F S1024x1024 .f32) (x1 : Vec F S1024x1024 .f32) (x2 : Vec F S6144x128 .bf16) (x3 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc10__mm_acc_kernel_sum2 i arg2 harg2 arg3 harg3 arg4 harg4 arg5 harg5 arg6 harg6 arg7 harg7) K } := by
  refine ⟨?_, fun xi E K => ?run⟩
  case run =>
    simp only [cc10__mm_acc_kernel_sum2_eq_skeleton]; unfold cc10__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- MIDDLE tile of a row: the accumulator comes in at `xs`, what the tile before left. -/
noncomputable def runM (c : Dev nD) (i : grid10.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : ¬ isLast i) (x0 : Vec F S1024x1024 .f32) (x1 : Vec F S1024x1024 .f32) (x2 : Vec F S6144x128 .bf16) (x3 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc10__mm_acc_kernel_sum2 i arg2 harg2 arg3 harg3 arg4 harg4 arg5 harg5 arg6 harg6 arg7 harg7) K } := by
  refine ⟨?_, fun xi E K => ?run⟩
  case run =>
    simp only [cc10__mm_acc_kernel_sum2_eq_skeleton]; unfold cc10__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- LAST tile of a row: the accumulator comes in at `xs`; the output buffer, at anything, leaves at the pieces found. -/
noncomputable def runL (c : Dev nD) (i : grid10.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : isLast i) (x0 : Vec F S1024x1024 .f32) (x1 : Vec F S1024x1024 .f32) (x2 : Vec F S6144x128 .bf16) (x3 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ (∃ d, owns (c : Thread nD τ) arg6 fullShare d)
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LAcc)) -∗ K ⟨⟩))
          ⊢ wp frame (wpE (defs₀ (F := F)) Variants.none c none) E (cc10__mm_acc_kernel_sum2 i arg2 harg2 arg3 harg3 arg4 harg4 arg5 harg5 arg6 harg6 arg7 harg7) K } := by
  refine ⟨?_, ?_, fun E K => ?run⟩
  case run =>
    simp only [cc10__mm_acc_kernel_sum2_eq_skeleton]; unfold cc10__mm_acc_kernel_sum2_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

/-! ## The pieces cover their buffers; what each case leaves -/

theorem coverF (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) (y : S1024x128.Idx) :
    ∃ pc ∈ (runF c i arg2 harg2 arg3 harg3 arg4 harg4 arg5 harg5 arg6 harg6 arg7 harg7 hf hl x0 x1 x2 x3).1, y ∈ pc.1.set :=
  View.cover_of_tiledL (runF c i arg2 harg2 arg3 harg3 arg4 harg4 arg5 harg5 arg6 harg6 arg7 harg7 hf hl x0 x1 x2 x3).1 S1024x128.size (by sl_kernel_rfl) y
theorem coverM (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runM c i arg2 harg2 arg3 harg3 arg4 harg4 arg5 harg5 arg6 harg6 arg7 harg7 hf hl x0 x1 x2 x3 xs).1, y ∈ pc.1.set :=
  View.cover_of_tiledL (runM c i arg2 harg2 arg3 harg3 arg4 harg4 arg5 harg5 arg6 harg6 arg7 harg7 hf hl x0 x1 x2 x3 xs).1 S1024x128.size (by sl_kernel_rfl) y
theorem coverL (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).2.1, y ∈ pc.1.set :=
  View.cover_of_tiledL (runL c i arg2 harg2 arg3 harg3 arg4 harg4 arg5 harg5 arg6 harg6 arg7 harg7 hf hl x0 x1 x2 x3 xs).2.1 S1024x128.size (by sl_kernel_rfl) y
theorem coverO (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).1, y ∈ pc.1.set :=
  View.cover_of_tiledL (runL c i arg2 harg2 arg3 harg3 arg4 harg4 arg5 harg5 arg6 harg6 arg7 harg7 hf hl x0 x1 x2 x3 xs).1 S1024x128.size (by sl_kernel_rfl) y

/-- The accumulator after a first tile, -/
def accF (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) : Vec F S1024x128 .f32 :=
  vAcc.read (Elt F) (vAcc.writes (Elt F) vAcc.junk (runF c i arg2 harg2 arg3 harg3 arg4 harg4 arg5 harg5 arg6 harg6 arg7 harg7 hf hl x0 x1 x2 x3).1)
/-- after a middle tile, -/
def accM (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 arg7 harg7 hf hl x0 x1 x2 x3 xs).1)
/-- after a last tile; -/
def accL (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 arg7 harg7 hf hl x0 x1 x2 x3 xs).2.1)
/-- and the output block after a last tile. -/
def outL (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 arg7 harg7 hf hl x0 x1 x2 x3 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What the accumulator holds after the body at position `n`: at the first tile of a row what the first case leaves;
    at a later tile what the middle or the last case leaves over what the tile before left. -/
def accAt (c : Dev nD) : (n : ℕ) → n < cfg10.N → Vec F S1024x128 .f32
  | 0, hn =>
    let t : Fin cfg10.N := ⟨0, hn⟩
    accF c (grid10.coords t) (mA1 t) (hA1 t) (mA2 t) (hA2 t) (mB t) (hB t) (mP t) (hP t) (mO t) (hO t) mAcc (Memref.isWhole_whole _) ((isFirst_iff t).mpr (Nat.zero_mod _)) (fun h => by have h2 : (0 : ℕ) % 6 = 5 := (isLast_iff t).mp h; omega) (iblk V c 0 t) (iblk V c 1 t) (iblk V c 2 t) (iblk V c 3 t)
  | n + 1, hn =>
    let t : Fin cfg10.N := ⟨n + 1, hn⟩
    if h0 : (n + 1) % 6 = 0 then
      accF c (grid10.coords t) (mA1 t) (hA1 t) (mA2 t) (hA2 t) (mB t) (hB t) (mP t) (hP t) (mO t) (hO t) mAcc (Memref.isWhole_whole _) ((isFirst_iff t).mpr h0) (fun h => by have h2 : (n + 1) % 6 = 5 := (isLast_iff t).mp h; omega) (iblk V c 0 t) (iblk V c 1 t) (iblk V c 2 t) (iblk V c 3 t)
    else if h2 : (n + 1) % 6 = 5 then
      accL c (grid10.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t) (accAt c n (Nat.lt_of_succ_lt hn))
    else
      accM c (grid10.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t) (accAt c n (Nat.lt_of_succ_lt hn))

theorem accAt_F (c : Dev nD) (t : Fin cfg10.N) (h0 : t.val % 6 = 0) :
    accAt V c t.val t.isLt = accF c (grid10.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t) := by
  obtain ⟨n, hn⟩ := t
  cases n with
  | zero => rfl
  | succ n => exact dif_pos h0

theorem accAt_M (c : Dev nD) (t : Fin cfg10.N) (h0 : ¬ t.val % 6 = 0) (h2 : ¬ t.val % 6 = 5) :
    accAt V c t.val t.isLt = accM c (grid10.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg10.N) (h0 : ¬ t.val % 6 = 0) (h2 : t.val % 6 = 5) :
    accAt V c t.val t.isLt = accL c (grid10.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg10.N) : Vec F S1024x128 .f32 :=
  if h2 : t.val % 6 = 5 then
    outL c (grid10.coords t) (mA1 t) (hA1 t) (mA2 t) (hA2 t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t) (iblk V c 3 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec10 c [cc10_scratch0]

/-- The invariant before position `n`: before the first point the accumulator at anything; afterwards at what the point
    before left in it. -/
def PhiS (c : Dev nD) : (n : ℕ) → n ≤ cfg10.N → sProp 𝕄
  | 0, _ => iprop((∃ f : Buf (Elt F) ((c.tc : Thread nD τ).loc cc10_scratch0), ((c.tc : Thread nD τ).loc cc10_scratch0) ↦{fullShare} f) ∗ others c)
  | n + 1, hn => iprop(owns (c : Thread nD τ) mAcc fullShare (accAt V c n hn) ∗ others c)

theorem PhiS_zero (c : Dev nD) (n : ℕ) (h : n ≤ cfg10.N) (hz : n = 0) :
    PhiS V c n h = iprop((∃ f : Buf (Elt F) ((c.tc : Thread nD τ).loc cc10_scratch0), ((c.tc : Thread nD τ).loc cc10_scratch0) ↦{fullShare} f) ∗ others c) := by
  subst hz; rfl
theorem PhiS_succ (c : Dev nD) (n : ℕ) (hn : n < cfg10.N) :
    PhiS V c (n + 1) hn = iprop(owns (c : Thread nD τ) mAcc fullShare (accAt V c n hn) ∗ others c) := rfl
theorem PhiS_pos (c : Dev nD) (n : ℕ) (h : n ≤ cfg10.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg10.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg10 c where
  A w := V c (Pipeline.arrRef spec10 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg10.W) : (dat V c).A w = V c (Pipeline.arrRef spec10 w) := by dsimp only [dat]
theorem after_0 (c : Dev nD) (t : Fin cfg10.N) : (dat V c).after 0 t = iblk V c 0 t := by dsimp only [dat]
theorem after_1 (c : Dev nD) (t : Fin cfg10.N) : (dat V c).after 1 t = iblk V c 1 t := by dsimp only [dat]
theorem after_2 (c : Dev nD) (t : Fin cfg10.N) : (dat V c).after 2 t = iblk V c 2 t := by dsimp only [dat]
theorem after_3 (c : Dev nD) (t : Fin cfg10.N) : (dat V c).after 3 t = iblk V c 3 t := by dsimp only [dat]
theorem after_4 (c : Dev nD) (t : Fin cfg10.N) : (dat V c).after 4 t = outAt V c t := by dsimp only [dat]
theorem Phi_castSucc (c : Dev nD) (t : Fin cfg10.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg10.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg10.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg10.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg10.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg10.N) : sProp 𝕄 :=
  iprop((dat V c).Φ t.castSucc ∗ (dat V c).owesAt () t.castSucc
    ∗ (∃ d, owns (c : Thread nD τ) (mA1 t) fullShare ((dat V c).before 0 t d))
    ∗ (∃ d, owns (c : Thread nD τ) (mA2 t) fullShare ((dat V c).before 1 t d))
    ∗ (∃ d, owns (c : Thread nD τ) (mB t) fullShare ((dat V c).before 2 t d))
    ∗ (∃ d, owns (c : Thread nD τ) (mP t) fullShare ((dat V c).before 3 t d))
    ∗ (∃ d, owns (c : Thread nD τ) (mO t) fullShare ((dat V c).before 4 t d)))

def bodyPost (c : Dev nD) (t : Fin cfg10.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA1 t) fullShare ((dat V c).after 0 t) from by
      unfold Dat.leavesExact; rw [live_0 t], after_0]
  rw [show (dat V c).leavesExact 1 t = owns (c : Thread nD τ) (mA2 t) fullShare ((dat V c).after 1 t) from by
      unfold Dat.leavesExact; rw [live_1 t], after_1]
  rw [show (dat V c).leavesExact 2 t = owns (c : Thread nD τ) (mB t) fullShare ((dat V c).after 2 t) from by
      unfold Dat.leavesExact; rw [live_2 t], after_2]
  rw [show (dat V c).leavesExact 3 t = owns (c : Thread nD τ) (mP t) fullShare ((dat V c).after 3 t) from by
      unfold Dat.leavesExact; rw [live_3 t], after_3]
  rw [Phi_castSucc]
  by_cases h0 : t.val % 6 = 0
  · -- the first tile of a row
    have h2 : ¬ t.val % 6 = 5 := by omega
    rw [Dat.leavesExact_idle (dat V c) 4 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩, ⟨%d4, H4⟩⟩
    ihave HP' := hsome $$ HP
    icases HP' with ⟨HS, Hrest⟩
    iapply ((runF c (grid10.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h2 : t.val % 6 = 5
    · -- the last tile of a row
      rw [show (dat V c).leavesExact 4 t = owns (c : Thread nD τ) (mO t) fullShare ((dat V c).after 4 t) from by
          unfold Dat.leavesExact; rw [live_out t h2], after_4]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩, ⟨%d4, H4⟩⟩
      iapply ((runL c (grid10.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO c _ _ _ _ _ _ _ _ _ _ _ _ _ _ _ _ _ _ _ _)
    · -- a middle tile of a row
      rw [Dat.leavesExact_idle (dat V c) 4 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩, ⟨%d4, H4⟩⟩
      iapply ((runM c (grid10.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W10, bigSep_W10]
  exact sound_body V c t

end Cert.Kernel.Region10

end
-- ==== Proof.Kernel.Region11.lean ====
/-
  Region 11 of @main: the edges' third term and their update in the SECOND layer, `sigmoid (p1' + inc2n · h21')` over
  f32[6144, 4096] · bf16[4096, 128], in row tiles of 1024 and TWO tiles of 2048 along the contraction axis (the grid is 6 × 2, the
  contraction coordinate innermost). First tile: the partial sum's block is copied into the accumulator and the tile's product
  added; second (last) tile: the product is added and the logistic function of the accumulator stored into the output block.
  The accumulator is CARRIED from the first tile to the second, so the invariant names its contents after each point; the
  output block is stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid11.Coords) : Prop :=
  (Scalar.cmpi .ne (Scalar.extui (Scalar.cmpi .eq (BitVec.ofNat 32 (i 1).val) 0#32)) 0#32) = 1#1
/-- The contraction coordinate is the last one: the output block is stored. -/
abbrev isLast (i : grid11.Coords) : Prop := k11_cond2 i = 1#1

theorem isFirst_iff : ∀ t : Fin cfg11.N, isFirst (grid11.coords t) ↔ t.val % 2 = 0 :=
  (by decide +kernel : ∀ t : Fin grid11.N, isFirst (grid11.coords t) ↔ t.val % 2 = 0)
theorem isLast_iff : ∀ t : Fin cfg11.N, isLast (grid11.coords t) ↔ t.val % 2 = 1 :=
  (by decide +kernel : ∀ t : Fin grid11.N, isLast (grid11.coords t) ↔ t.val % 2 = 1)

/-- The output window is idle, and not written back, away from the last tile of a row; live at it. -/
theorem idle_out : ∀ t : Fin cfg11.N, ¬ t.val % 2 = 1 → cfg11.idle 3 (grid11.coords t) = true := by decide +kernel
theorem noFlush_out : ∀ t : Fin cfg11.N, ¬ t.val % 2 = 1 → (cfg11.win 3).flush t = false := by decide +kernel
theorem live_out : ∀ t : Fin cfg11.N, t.val % 2 = 1 → cfg11.idle 3 (grid11.coords t) = false := by decide +kernel
theorem live_0 : ∀ t : Fin cfg11.N, cfg11.idle 0 (grid11.coords t) = false := by decide +kernel
theorem live_1 : ∀ t : Fin cfg11.N, cfg11.idle 1 (grid11.coords t) = false := by decide +kernel
theorem live_2 : ∀ t : Fin cfg11.N, cfg11.idle 2 (grid11.coords t) = false := by decide +kernel

/-! ## The staging memrefs at a point, and the accumulator -/

abbrev mA (t : Fin cfg11.N) : Memref sig .tc .vmem S1024x2048 .f32 := win11_0.stage (cfg11.slots t 0)
abbrev hA (t : Fin cfg11.N) : (mA t).IsWhole := hstage11_0 ((cfg11.slots t 0).cast nbuf11_0)
abbrev mB (t : Fin cfg11.N) : Memref sig .tc .vmem S4096x128 .bf16 := win11_1.stage (cfg11.slots t 1)
abbrev hB (t : Fin cfg11.N) : (mB t).IsWhole := hstage11_1 ((cfg11.slots t 1).cast nbuf11_1)
abbrev mP (t : Fin cfg11.N) : Memref sig .tc .vmem S1024x128 .f32 := win11_2.stage (cfg11.slots t 2)
abbrev hP (t : Fin cfg11.N) : (mP t).IsWhole := hstage11_2 ((cfg11.slots t 2).cast nbuf11_2)
abbrev mO (t : Fin cfg11.N) : Memref sig .tc .vmem S1024x128 .f32 := win11_3.stage (cfg11.slots t 3)
abbrev hO (t : Fin cfg11.N) : (mO t).IsWhole := hstage11_3 ((cfg11.slots t 3).cast nbuf11_3)
/-- The accumulator: a scoped buffer of the kernel's own, passed beside the windows. -/
abbrev mAcc : Memref sig .tc .vmem S1024x128 .f32 := Memref.whole cc11_scratch0
/-- Views through which the output block's and the accumulator's contents are stated. -/
abbrev vO : View sig .tc .vmem S1024x128 .f32 := (Memref.whole cc11_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid11.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc11__mm_acc_kernel i arg2 harg2 arg3 harg3 arg4 harg4 arg5 harg5 arg6 harg6) K } := by
  refine ⟨?_, fun xi E K => ?run⟩
  case run =>
    simp only [cc11__mm_acc_kernel_eq_skeleton]; unfold cc11__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid11.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc11__mm_acc_kernel i arg2 harg2 arg3 harg3 arg4 harg4 arg5 harg5 arg6 harg6) K } := by
  refine ⟨?_, ?_, fun E K => ?run⟩
  case run =>
    simp only [cc11__mm_acc_kernel_eq_skeleton]; unfold cc11__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- What the accumulator holds after the body at position `n`: at the first tile of a row what the first case leaves; at
    the second (and last) tile what the last case leaves over what the first tile left. -/
def accAt (c : Dev nD) : (n : ℕ) → n < cfg11.N → Vec F S1024x128 .f32
  | 0, hn =>
    let t : Fin cfg11.N := ⟨0, hn⟩
    accF c (grid11.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg11.N := ⟨n + 1, hn⟩
    if h0 : (n + 1) % 2 = 0 then
      accF c (grid11.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid11.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg11.N) (h0 : t.val % 2 = 0) :
    accAt V c t.val t.isLt = accF c (grid11.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg11.N) (h0 : ¬ t.val % 2 = 0) (h2 : t.val % 2 = 1) :
    accAt V c t.val t.isLt = accL c (grid11.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg11.N) : Vec F S1024x128 .f32 :=
  if h2 : t.val % 2 = 1 then
    outL c (grid11.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec11 c [cc11_scratch0]

/-- The invariant before position `n`: before the first point the accumulator at anything; afterwards at what the point
    before left in it. -/
def PhiS (c : Dev nD) : (n : ℕ) → n ≤ cfg11.N → sProp 𝕄
  | 0, _ => iprop((∃ f : Buf (Elt F) ((c.tc : Thread nD τ).loc cc11_scratch0), ((c.tc : Thread nD τ).loc cc11_scratch0) ↦{fullShare} f) ∗ others c)
  | n + 1, hn => iprop(owns (c : Thread nD τ) mAcc fullShare (accAt V c n hn) ∗ others c)

theorem PhiS_zero (c : Dev nD) (n : ℕ) (h : n ≤ cfg11.N) (hz : n = 0) :
    PhiS V c n h = iprop((∃ f : Buf (Elt F) ((c.tc : Thread nD τ).loc cc11_scratch0), ((c.tc : Thread nD τ).loc cc11_scratch0) ↦{fullShare} f) ∗ others c) := by
  subst hz; rfl
theorem PhiS_succ (c : Dev nD) (n : ℕ) (hn : n < cfg11.N) :
    PhiS V c (n + 1) hn = iprop(owns (c : Thread nD τ) mAcc fullShare (accAt V c n hn) ∗ others c) := rfl
theorem PhiS_pos (c : Dev nD) (n : ℕ) (h : n ≤ cfg11.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg11.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg11 c where
  A w := V c (Pipeline.arrRef spec11 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg11.W) : (dat V c).A w = V c (Pipeline.arrRef spec11 w) := by dsimp only [dat]
theorem after_0 (c : Dev nD) (t : Fin cfg11.N) : (dat V c).after 0 t = iblk V c 0 t := by dsimp only [dat]
theorem after_1 (c : Dev nD) (t : Fin cfg11.N) : (dat V c).after 1 t = iblk V c 1 t := by dsimp only [dat]
theorem after_2 (c : Dev nD) (t : Fin cfg11.N) : (dat V c).after 2 t = iblk V c 2 t := by dsimp only [dat]
theorem after_3 (c : Dev nD) (t : Fin cfg11.N) : (dat V c).after 3 t = outAt V c t := by dsimp only [dat]
theorem Phi_castSucc (c : Dev nD) (t : Fin cfg11.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg11.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg11.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg11.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg11.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg11.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid11.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid11.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W11, bigSep_W11]
  exact sound_body V c t

end Cert.Kernel.Region11

end
-- ==== Proof.Kernel.Region12.lean ====
/-
  Region 12 of @main: the faces' first term of the SECOND layer, `inc2ᵀ · h12'`, the incidence matrix f32[6144, 4096] read
  TRANSPOSED — blocks of 2048 × 1024 contracted along their first axis against slices of bf16[6144, 128] — in row tiles of 1024
  and THREE tiles of 2048 along the contraction axis (the grid is 4 × 3, the contraction coordinate innermost). At the first
  tile of a row the body zeroes its accumulator; at every tile it adds the block's product; at the last tile it stores the
  accumulator into the output block. The accumulator is CARRIED from one grid point to the next within a row, so the invariant
  names its contents after each point; the output block is stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator is zeroed. -/
abbrev isFirst (i : grid12.Coords) : Prop :=
  (Scalar.cmpi .ne (Scalar.extui (Scalar.cmpi .eq (BitVec.ofNat 32 (i 1).val) 0#32)) 0#32) = 1#1
/-- The contraction coordinate is the last one: the output block is stored. -/
abbrev isLast (i : grid12.Coords) : Prop := k12_cond2 i = 1#1

theorem isFirst_iff : ∀ t : Fin cfg12.N, isFirst (grid12.coords t) ↔ t.val % 3 = 0 :=
  (by decide +kernel : ∀ t : Fin grid12.N, isFirst (grid12.coords t) ↔ t.val % 3 = 0)
theorem isLast_iff : ∀ t : Fin cfg12.N, isLast (grid12.coords t) ↔ t.val % 3 = 2 :=
  (by decide +kernel : ∀ t : Fin grid12.N, isLast (grid12.coords t) ↔ t.val % 3 = 2)

/-- The output window is idle, and not written back, away from the last tile of a row; live at it. -/
theorem idle_out : ∀ t : Fin cfg12.N, ¬ t.val % 3 = 2 → cfg12.idle 2 (grid12.coords t) = true := by decide +kernel
theorem noFlush_out : ∀ t : Fin cfg12.N, ¬ t.val % 3 = 2 → (cfg12.win 2).flush t = false := by decide +kernel
theorem live_out : ∀ t : Fin cfg12.N, t.val % 3 = 2 → cfg12.idle 2 (grid12.coords t) = false := by decide +kernel
theorem live_0 : ∀ t : Fin cfg12.N, cfg12.idle 0 (grid12.coords t) = false := by decide +kernel
theorem live_1 : ∀ t : Fin cfg12.N, cfg12.idle 1 (grid12.coords t) = false := by decide +kernel

/-! ## The staging memrefs at a point, and the accumulator -/

abbrev mA (t : Fin cfg12.N) : Memref sig .tc .vmem S2048x1024 .f32 := win12_0.stage (cfg12.slots t 0)
abbrev hA (t : Fin cfg12.N) : (mA t).IsWhole := hstage12_0 ((cfg12.slots t 0).cast nbuf12_0)
abbrev mB (t : Fin cfg12.N) : Memref sig .tc .vmem S6144x128 .bf16 := win12_1.stage (cfg12.slots t 1)
abbrev hB (t : Fin cfg12.N) : (mB t).IsWhole := hstage12_1 ((cfg12.slots t 1).cast nbuf12_1)
abbrev mO (t : Fin cfg12.N) : Memref sig .tc .vmem S1024x128 .f32 := win12_2.stage (cfg12.slots t 2)
abbrev hO (t : Fin cfg12.N) : (mO t).IsWhole := hstage12_2 ((cfg12.slots t 2).cast nbuf12_2)
/-- The accumulator: a scoped buffer of the kernel's own, passed beside the windows. -/
abbrev mAcc : Memref sig .tc .vmem S1024x128 .f32 := Memref.whole cc12_scratch0
/-- Views through which the output block's and the accumulator's contents are stated. -/
abbrev vO : View sig .tc .vmem S1024x128 .f32 := (Memref.whole cc12_stg2_0 : Memref sig .tc .vmem S1024x128 .f32).view
abbrev vAcc : View sig .tc .vmem S1024x128 .f32 := mAcc.view

/-! ## The body, run in each of its three cases -/

set_option maxHeartbeats 1000000 in
/-- FIRST tile of a row: from the two input blocks and the output buffer at given contents and the accumulator at anything,
    the body returns with inputs and output buffer untouched and the accumulator at the pieces found. -/
noncomputable def runF (c : Dev nD) (i : grid12.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : ¬ isLast i) (x0 : Vec F S2048x1024 .f32) (x1 : Vec F S6144x128 .bf16) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc12__mm_kernel_ta i arg2 harg2 arg3 harg3 arg4 harg4 arg5 harg5) K } := by
  refine ⟨?_, fun xi E K => ?run⟩
  case run =>
    simp only [cc12__mm_kernel_ta_eq_skeleton]; unfold cc12__mm_kernel_ta_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1
    obtain rfl := harg4.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- MIDDLE tile of a row: the accumulator comes in at `xs`, what the tile before left. -/
noncomputable def runM (c : Dev nD) (i : grid12.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : ¬ isLast i) (x0 : Vec F S2048x1024 .f32) (x1 : Vec F S6144x128 .bf16) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc12__mm_kernel_ta i arg2 harg2 arg3 harg3 arg4 harg4 arg5 harg5) K } := by
  refine ⟨?_, fun xi E K => ?run⟩
  case run =>
    simp only [cc12__mm_kernel_ta_eq_skeleton]; unfold cc12__mm_kernel_ta_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1
    obtain rfl := harg4.eq_unread hf3; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- LAST tile of a row: the accumulator comes in at `xs`; the output buffer, at anything, leaves at the pieces found. -/
noncomputable def runL (c : Dev nD) (i : grid12.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : isLast i) (x0 : Vec F S2048x1024 .f32) (x1 : Vec F S6144x128 .bf16) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc12__mm_kernel_ta i arg2 harg2 arg3 harg3 arg4 harg4 arg5 harg5) K } := by
  refine ⟨?_, ?_, fun E K => ?run⟩
  case run =>
    simp only [cc12__mm_kernel_ta_eq_skeleton]; unfold cc12__mm_kernel_ta_skel
    unfold owns
    iintro ⟨⟨%f0, %hf0, H0⟩, ⟨%f1, %hf1, H1⟩, ⟨%d3, %f3, -, H3⟩, ⟨%fs, %hfs, HS⟩, Hk⟩
    obtain rfl := harg2.eq_unread hf0; obtain rfl := harg3.eq_unread hf1
    obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; iexact H3
    iexists _; iexact HS

/-! ## The pieces cover their buffers; what each case leaves -/

theorem coverF (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) (y : S1024x128.Idx) :
    ∃ pc ∈ (runF c i arg2 harg2 arg3 harg3 arg4 harg4 arg5 harg5 hf hl x0 x1).1, y ∈ pc.1.set :=
  View.cover_of_tiledL (runF c i arg2 harg2 arg3 harg3 arg4 harg4 arg5 harg5 hf hl x0 x1).1 S1024x128.size (by sl_kernel_rfl) y
theorem coverM (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) (y : S1024x128.Idx) :
    ∃ pc ∈ (runM c i arg2 harg2 arg3 harg3 arg4 harg4 arg5 harg5 hf hl x0 x1 xs).1, y ∈ pc.1.set :=
  View.cover_of_tiledL (runM c i arg2 harg2 arg3 harg3 arg4 harg4 arg5 harg5 hf hl x0 x1 xs).1 S1024x128.size (by sl_kernel_rfl) y
theorem coverL (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).2.1, y ∈ pc.1.set :=
  View.cover_of_tiledL (runL c i arg2 harg2 arg3 harg3 arg4 harg4 arg5 harg5 hf hl x0 x1 xs).2.1 S1024x128.size (by sl_kernel_rfl) y
theorem coverO (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).1, y ∈ pc.1.set :=
  View.cover_of_tiledL (runL c i arg2 harg2 arg3 harg3 arg4 harg4 arg5 harg5 hf hl x0 x1 xs).1 S1024x128.size (by sl_kernel_rfl) y

/-- The accumulator after a first tile, -/
def accF (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) : Vec F S1024x128 .f32 :=
  vAcc.read (Elt F) (vAcc.writes (Elt F) vAcc.junk (runF c i arg2 harg2 arg3 harg3 arg4 harg4 arg5 harg5 hf hl x0 x1).1)
/-- after a middle tile, -/
def accM (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) : Vec F S1024x128 .f32 :=
  vAcc.read (Elt F) (vAcc.writes (Elt F) vAcc.junk (runM c i arg2 harg2 arg3 harg3 arg4 harg4 arg5 harg5 hf hl x0 x1 xs).1)
/-- after a last tile; -/
def accL (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vAcc.read (Elt F) (vAcc.writes (Elt F) vAcc.junk (runL c i arg2 harg2 arg3 harg3 arg4 harg4 arg5 harg5 hf hl x0 x1 xs).2.1)
/-- and the output block after a last tile. -/
def outL (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vO.read (Elt F) (vO.writes (Elt F) vO.junk (runL c i arg2 harg2 arg3 harg3 arg4 harg4 arg5 harg5 hf hl x0 x1 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- What the accumulator holds after the body at position `n`: at the first tile of a row what the first case leaves;
    at a later tile what the middle or the last case leaves over what the tile before left. -/
def accAt (c : Dev nD) : (n : ℕ) → n < cfg12.N → Vec F S1024x128 .f32
  | 0, hn =>
    let t : Fin cfg12.N := ⟨0, hn⟩
    accF c (grid12.coords t) (mA t) (hA t) (mB t) (hB t) (mO t) (hO t) mAcc (Memref.isWhole_whole _) ((isFirst_iff t).mpr (Nat.zero_mod _)) (fun h => by have h2 : (0 : ℕ) % 3 = 2 := (isLast_iff t).mp h; omega) (iblk V c 0 t) (iblk V c 1 t)
  | n + 1, hn =>
    let t : Fin cfg12.N := ⟨n + 1, hn⟩
    if h0 : (n + 1) % 3 = 0 then
      accF c (grid12.coords t) (mA t) (hA t) (mB t) (hB t) (mO t) (hO t) mAcc (Memref.isWhole_whole _) ((isFirst_iff t).mpr h0) (fun h => by have h2 : (n + 1) % 3 = 2 := (isLast_iff t).mp h; omega) (iblk V c 0 t) (iblk V c 1 t)
    else if h2 : (n + 1) % 3 = 2 then
      accL c (grid12.coords t) (mA t) (hA t) (mB t) (hB t) (mO t) (hO t) mAcc (Memref.isWhole_whole _) (fun h => h0 ((isFirst_iff t).mp h)) ((isLast_iff t).mpr h2) (iblk V c 0 t) (iblk V c 1 t) (accAt c n (Nat.lt_of_succ_lt hn))
    else
      accM c (grid12.coords t) (mA t) (hA t) (mB t) (hB t) (mO t) (hO t) mAcc (Memref.isWhole_whole _) (fun h => h0 ((isFirst_iff t).mp h)) (fun h => h2 ((isLast_iff t).mp h)) (iblk V c 0 t) (iblk V c 1 t) (accAt c n (Nat.lt_of_succ_lt hn))

theorem accAt_F (c : Dev nD) (t : Fin cfg12.N) (h0 : t.val % 3 = 0) :
    accAt V c t.val t.isLt = accF c (grid12.coords t) (mA t) (hA t) (mB t) (hB t) (mO t) (hO t) mAcc (Memref.isWhole_whole _) ((isFirst_iff t).mpr h0) (fun h => by have h2 := (isLast_iff t).mp h; omega) (iblk V c 0 t) (iblk V c 1 t) := by
  obtain ⟨n, hn⟩ := t
  cases n with
  | zero => rfl
  | succ n => exact dif_pos h0

theorem accAt_M (c : Dev nD) (t : Fin cfg12.N) (h0 : ¬ t.val % 3 = 0) (h2 : ¬ t.val % 3 = 2) :
    accAt V c t.val t.isLt = accM c (grid12.coords t) (mA t) (hA t) (mB t) (hB t) (mO t) (hO t) mAcc (Memref.isWhole_whole _) (fun h => h0 ((isFirst_iff t).mp h)) (fun h => h2 ((isLast_iff t).mp h)) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg12.N) (h0 : ¬ t.val % 3 = 0) (h2 : t.val % 3 = 2) :
    accAt V c t.val t.isLt = accL c (grid12.coords t) (mA t) (hA t) (mB t) (hB t) (mO t) (hO t) mAcc (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg12.N) : Vec F S1024x128 .f32 :=
  if h2 : t.val % 3 = 2 then
    outL c (grid12.coords t) (mA t) (hA t) (mB t) (hB t) (mO t) (hO t) mAcc (Memref.isWhole_whole _) (fun h => by have h0 := (isFirst_iff t).mp h; omega) ((isLast_iff t).mpr h2) (iblk V c 0 t) (iblk V c 1 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec12 c [cc12_scratch0]

/-- The invariant before position `n`: before the first point the accumulator at anything; afterwards at what the point
    before left in it. -/
def PhiS (c : Dev nD) : (n : ℕ) → n ≤ cfg12.N → sProp 𝕄
  | 0, _ => iprop((∃ f : Buf (Elt F) ((c.tc : Thread nD τ).loc cc12_scratch0), ((c.tc : Thread nD τ).loc cc12_scratch0) ↦{fullShare} f) ∗ others c)
  | n + 1, hn => iprop(owns (c : Thread nD τ) mAcc fullShare (accAt V c n hn) ∗ others c)

theorem PhiS_zero (c : Dev nD) (n : ℕ) (h : n ≤ cfg12.N) (hz : n = 0) :
    PhiS V c n h = iprop((∃ f : Buf (Elt F) ((c.tc : Thread nD τ).loc cc12_scratch0), ((c.tc : Thread nD τ).loc cc12_scratch0) ↦{fullShare} f) ∗ others c) := by
  subst hz; rfl
theorem PhiS_succ (c : Dev nD) (n : ℕ) (hn : n < cfg12.N) :
    PhiS V c (n + 1) hn = iprop(owns (c : Thread nD τ) mAcc fullShare (accAt V c n hn) ∗ others c) := rfl
theorem PhiS_pos (c : Dev nD) (n : ℕ) (h : n ≤ cfg12.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg12.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg12 c where
  A w := V c (Pipeline.arrRef spec12 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg12.W) : (dat V c).A w = V c (Pipeline.arrRef spec12 w) := by dsimp only [dat]
theorem after_0 (c : Dev nD) (t : Fin cfg12.N) : (dat V c).after 0 t = iblk V c 0 t := by dsimp only [dat]
theorem after_1 (c : Dev nD) (t : Fin cfg12.N) : (dat V c).after 1 t = iblk V c 1 t := by dsimp only [dat]
theorem after_2 (c : Dev nD) (t : Fin cfg12.N) : (dat V c).after 2 t = outAt V c t := by dsimp only [dat]
theorem Phi_castSucc (c : Dev nD) (t : Fin cfg12.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg12.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg12.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg12.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg12.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg12.N) :
    bodyPre V c t ⊢ wp frame (wpE (defs₀ (F := F)) Variants.none c none) Set.univ (bodyAt12 t) (fun _ => bodyPost V c t) := by
  unfold bodyPre bodyPost bodyAt12
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [Phi_castSucc]
  by_cases h0 : t.val % 3 = 0
  · -- the first tile of a row
    have h2 : ¬ t.val % 3 = 2 := by omega
    rw [Dat.leavesExact_idle (dat V c) 2 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d3, H3⟩⟩
    ihave HP' := hsome $$ HP
    icases HP' with ⟨HS, Hrest⟩
    iapply ((runF c (grid12.coords t) (mA t) (hA t) (mB t) (hB t) (mO t) (hO t) mAcc (Memref.isWhole_whole _) ((isFirst_iff t).mpr h0) (fun h => by have h2 := (isLast_iff t).mp h; omega) (iblk V c 0 t) (iblk V c 1 t)).2 _ Set.univ _)
    isplitl [H0]; · iexact H0
    isplitl [H1]; · iexact H1
    isplitl [H3]; · iexact H3
    isplitl [HS]; · iexact HS
    iintro ⟨H0, H1, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _)
      iexact Hrest
    isplitl [Ho]; · iexact Ho
    isplitl [H0]; · iexact H0
    isplitl [H1]; · iexact H1
    iexists _; iexact H3
  · have hz : t.val ≠ 0 := fun h => h0 (by rw [h])
    rw [PhiS_pos V c _ _ hz]
    by_cases h2 : t.val % 3 = 2
    · -- the last tile of a row
      rw [show (dat V c).leavesExact 2 t = owns (c : Thread nD τ) (mO t) fullShare ((dat V c).after 2 t) from by
          unfold Dat.leavesExact; rw [live_out t h2], after_2]
      rw [show outAt V c t = _ from dif_pos h2]
      rw [accAt_L V c t h0 h2]
      unfold accL outL
      iintro ⟨⟨HS, Hrest⟩, Ho, ⟨%d0, H0⟩, ⟨%d1, H1⟩, ⟨%d3, H3⟩⟩
      iapply ((runL c (grid12.coords t) (mA t) (hA t) (mB t) (hB t) (mO t) (hO t) mAcc (Memref.isWhole_whole _) (fun h => h0 ((isFirst_iff t).mp h)) ((isLast_iff t).mpr h2) (iblk V c 0 t) (iblk V c 1 t)
        (accAt V c (t.val - 1) (Nat.lt_of_le_of_lt (Nat.sub_le _ _) t.isLt))).2.2 Set.univ _)
      isplitl [H0]; · iexact H0
      isplitl [H1]; · iexact H1
      isplitl [H3]; · iexists _; iexact H3
      isplitl [HS]; · iexact HS
      iintro ⟨H0, H1, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _)
        iexact Hrest
      isplitl [Ho]; · iexact Ho
      isplitl [H0]; · iexact H0
      isplitl [H1]; · iexact H1
      unfold owns; iexists _; isplitr
      swap; · iexact H3
      ipureintro; exact View.read_writes_of_cover _ _ _ _ _ (coverO c _ _ _ _ _ _ _ _ _ _ _ _ _ _)
    · -- a middle tile of a row
      rw [Dat.leavesExact_idle (dat V c) 2 t (idle_out t h2) (noFlush_out t h2)]
      rw [accAt_M V c t h0 h2]
      unfold accM
      iintro ⟨⟨HS, Hrest⟩, Ho, ⟨%d0, H0⟩, ⟨%d1, H1⟩, ⟨%d3, H3⟩⟩
      iapply ((runM c (grid12.coords t) (mA t) (hA t) (mB t) (hB t) (mO t) (hO t) mAcc (Memref.isWhole_whole _) (fun h => h0 ((isFirst_iff t).mp h)) (fun h => h2 ((isLast_iff t).mp h)) (iblk V c 0 t) (iblk V c 1 t)
        (accAt V c (t.val - 1) (Nat.lt_of_le_of_lt (Nat.sub_le _ _) t.isLt))).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _)
        iexact Hrest
      isplitl [Ho]; · iexact Ho
      isplitl [H0]; · iexact H0
      isplitl [H1]; · iexact H1
      iexists _; iexact H3

/-- The library's body obligation, at every point. -/
theorem body_obligation (c : Dev nD) : BodyObligation (dat (F := F) V c) (defs₀ (F := F)) Variants.none () Set.univ := fun t => by
  rw [bigSep_W12, bigSep_W12]
  exact sound_body V c t

end Cert.Kernel.Region12

end
-- ==== Proof.Kernel.Region13.lean ====
/-
  Region 13 of @main: the faces' second term and their update in the SECOND layer, `sigmoid (p2' + ad2 · h22')` over
  f32[4096, 4096] · bf16[4096, 128], in row tiles of 1024 and TWO tiles of 2048 along the contraction axis (the grid is 4 × 2, the
  contraction coordinate innermost). First tile: the partial sum's block is copied into the accumulator and the tile's product
  added; second (last) tile: the product is added and the logistic function of the accumulator stored into the output block.
  The accumulator is CARRIED from the first tile to the second, so the invariant names its contents after each point; the
  output block is stored, and written back, at the last tile of a row only.
-/
import proofs.«108146_j77455440216408_2_alg».proof.Proof.Gen.Kernel.Launch
import proofs.«108146_j77455440216408_2_alg».proof.Proof.Gen.Kernel.Skeleton
import proofs.«108146_j77455440216408_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Region13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid13.Coords) : Prop :=
  (Scalar.cmpi .ne (Scalar.extui (Scalar.cmpi .eq (BitVec.ofNat 32 (i 1).val) 0#32)) 0#32) = 1#1
/-- The contraction coordinate is the last one: the output block is stored. -/
abbrev isLast (i : grid13.Coords) : Prop := k13_cond2 i = 1#1

theorem isFirst_iff : ∀ t : Fin cfg13.N, isFirst (grid13.coords t) ↔ t.val % 2 = 0 :=
  (by decide +kernel : ∀ t : Fin grid13.N, isFirst (grid13.coords t) ↔ t.val % 2 = 0)
theorem isLast_iff : ∀ t : Fin cfg13.N, isLast (grid13.coords t) ↔ t.val % 2 = 1 :=
  (by decide +kernel : ∀ t : Fin grid13.N, isLast (grid13.coords t) ↔ t.val % 2 = 1)

/-- The output window is idle, and not written back, away from the last tile of a row; live at it. -/
theorem idle_out : ∀ t : Fin cfg13.N, ¬ t.val % 2 = 1 → cfg13.idle 3 (grid13.coords t) = true := by decide +kernel
theorem noFlush_out : ∀ t : Fin cfg13.N, ¬ t.val % 2 = 1 → (cfg13.win 3).flush t = false := by decide +kernel
theorem live_out : ∀ t : Fin cfg13.N, t.val % 2 = 1 → cfg13.idle 3 (grid13.coords t) = false := by decide +kernel
theorem live_0 : ∀ t : Fin cfg13.N, cfg13.idle 0 (grid13.coords t) = false := by decide +kernel
theorem live_1 : ∀ t : Fin cfg13.N, cfg13.idle 1 (grid13.coords t) = false := by decide +kernel
theorem live_2 : ∀ t : Fin cfg13.N, cfg13.idle 2 (grid13.coords t) = false := by decide +kernel

/-! ## The staging memrefs at a point, and the accumulator -/

abbrev mA (t : Fin cfg13.N) : Memref sig .tc .vmem S1024x2048 .f32 := win13_0.stage (cfg13.slots t 0)
abbrev hA (t : Fin cfg13.N) : (mA t).IsWhole := hstage13_0 ((cfg13.slots t 0).cast nbuf13_0)
abbrev mB (t : Fin cfg13.N) : Memref sig .tc .vmem S4096x128 .bf16 := win13_1.stage (cfg13.slots t 1)
abbrev hB (t : Fin cfg13.N) : (mB t).IsWhole := hstage13_1 ((cfg13.slots t 1).cast nbuf13_1)
abbrev mP (t : Fin cfg13.N) : Memref sig .tc .vmem S1024x128 .f32 := win13_2.stage (cfg13.slots t 2)
abbrev hP (t : Fin cfg13.N) : (mP t).IsWhole := hstage13_2 ((cfg13.slots t 2).cast nbuf13_2)
abbrev mO (t : Fin cfg13.N) : Memref sig .tc .vmem S1024x128 .f32 := win13_3.stage (cfg13.slots t 3)
abbrev hO (t : Fin cfg13.N) : (mO t).IsWhole := hstage13_3 ((cfg13.slots t 3).cast nbuf13_3)
/-- The accumulator: a scoped buffer of the kernel's own, passed beside the windows. -/
abbrev mAcc : Memref sig .tc .vmem S1024x128 .f32 := Memref.whole cc13_scratch0
/-- Views through which the output block's and the accumulator's contents are stated. -/
abbrev vO : View sig .tc .vmem S1024x128 .f32 := (Memref.whole cc13_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid13.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc13__mm_acc_kernel i arg2 harg2 arg3 harg3 arg4 harg4 arg5 harg5 arg6 harg6) K } := by
  refine ⟨?_, fun xi E K => ?run⟩
  case run =>
    simp only [cc13__mm_acc_kernel_eq_skeleton]; unfold cc13__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid13.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc13__mm_acc_kernel i arg2 harg2 arg3 harg3 arg4 harg4 arg5 harg5 arg6 harg6) K } := by
  refine ⟨?_, ?_, fun E K => ?run⟩
  case run =>
    simp only [cc13__mm_acc_kernel_eq_skeleton]; unfold cc13__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- What the accumulator holds after the body at position `n`: at the first tile of a row what the first case leaves; at
    the second (and last) tile what the last case leaves over what the first tile left. -/
def accAt (c : Dev nD) : (n : ℕ) → n < cfg13.N → Vec F S1024x128 .f32
  | 0, hn =>
    let t : Fin cfg13.N := ⟨0, hn⟩
    accF c (grid13.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg13.N := ⟨n + 1, hn⟩
    if h0 : (n + 1) % 2 = 0 then
      accF c (grid13.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid13.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg13.N) (h0 : t.val % 2 = 0) :
    accAt V c t.val t.isLt = accF c (grid13.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg13.N) (h0 : ¬ t.val % 2 = 0) (h2 : t.val % 2 = 1) :
    accAt V c t.val t.isLt = accL c (grid13.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg13.N) : Vec F S1024x128 .f32 :=
  if h2 : t.val % 2 = 1 then
    outL c (grid13.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec13 c [cc13_scratch0]

/-- The invariant before position `n`: before the first point the accumulator at anything; afterwards at what the point
    before left in it. -/
def PhiS (c : Dev nD) : (n : ℕ) → n ≤ cfg13.N → sProp 𝕄
  | 0, _ => iprop((∃ f : Buf (Elt F) ((c.tc : Thread nD τ).loc cc13_scratch0), ((c.tc : Thread nD τ).loc cc13_scratch0) ↦{fullShare} f) ∗ others c)
  | n + 1, hn => iprop(owns (c : Thread nD τ) mAcc fullShare (accAt V c n hn) ∗ others c)

theorem PhiS_zero (c : Dev nD) (n : ℕ) (h : n ≤ cfg13.N) (hz : n = 0) :
    PhiS V c n h = iprop((∃ f : Buf (Elt F) ((c.tc : Thread nD τ).loc cc13_scratch0), ((c.tc : Thread nD τ).loc cc13_scratch0) ↦{fullShare} f) ∗ others c) := by
  subst hz; rfl
theorem PhiS_succ (c : Dev nD) (n : ℕ) (hn : n < cfg13.N) :
    PhiS V c (n + 1) hn = iprop(owns (c : Thread nD τ) mAcc fullShare (accAt V c n hn) ∗ others c) := rfl
theorem PhiS_pos (c : Dev nD) (n : ℕ) (h : n ≤ cfg13.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg13.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg13 c where
  A w := V c (Pipeline.arrRef spec13 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg13.W) : (dat V c).A w = V c (Pipeline.arrRef spec13 w) := by dsimp only [dat]
theorem after_0 (c : Dev nD) (t : Fin cfg13.N) : (dat V c).after 0 t = iblk V c 0 t := by dsimp only [dat]
theorem after_1 (c : Dev nD) (t : Fin cfg13.N) : (dat V c).after 1 t = iblk V c 1 t := by dsimp only [dat]
theorem after_2 (c : Dev nD) (t : Fin cfg13.N) : (dat V c).after 2 t = iblk V c 2 t := by dsimp only [dat]
theorem after_3 (c : Dev nD) (t : Fin cfg13.N) : (dat V c).after 3 t = outAt V c t := by dsimp only [dat]
theorem Phi_castSucc (c : Dev nD) (t : Fin cfg13.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg13.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg13.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg13.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg13.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg13.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg13.N) :
    bodyPre V c t ⊢ wp frame (wpE (defs₀ (F := F)) Variants.none c none) Set.univ (bodyAt13 t) (fun _ => bodyPost V c t) := by
  unfold bodyPre bodyPost bodyAt13
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid13.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid13.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W13, bigSep_W13]
  exact sound_body V c t

end Cert.Kernel.Region13

end
-- ==== Proof.Kernel.Between.lean ====
/-
  @main's buffer contents between its items, for the run of the fourteen regions among the host stretches.

  Core `c`'s unscoped buffers after item J are a valuation `W J`: the launch contents, then each host stretch applied
  (`StableHlo.after`), then, after a region, the one array it writes — its result — replaced by what the region's
  write-backs leave, as the region's proof data computes it from the valuation the region was entered from (`out K`).
  Every region's proof data is taken at its entry valuation; the family of all fourteen is a literal match on the region.
  The generated conditional frame is stated over valuations `V J m outs` with the regions' results as unknowns `outs`;
  `outs` below reads them off `out K`, and `V_eq J` shows the two chains are one.
-/
import proofs.«108146_j77455440216408_2_alg».proof.Proof.Gen.Kernel.Regions
import proofs.«108146_j77455440216408_2_alg».proof.Proof.Kernel.Region0
import proofs.«108146_j77455440216408_2_alg».proof.Proof.Kernel.Region1
import proofs.«108146_j77455440216408_2_alg».proof.Proof.Kernel.Region2
import proofs.«108146_j77455440216408_2_alg».proof.Proof.Kernel.Region3
import proofs.«108146_j77455440216408_2_alg».proof.Proof.Kernel.Region4
import proofs.«108146_j77455440216408_2_alg».proof.Proof.Kernel.Region5
import proofs.«108146_j77455440216408_2_alg».proof.Proof.Kernel.Region6
import proofs.«108146_j77455440216408_2_alg».proof.Proof.Kernel.Region7
import proofs.«108146_j77455440216408_2_alg».proof.Proof.Kernel.Region8
import proofs.«108146_j77455440216408_2_alg».proof.Proof.Kernel.Region9
import proofs.«108146_j77455440216408_2_alg».proof.Proof.Kernel.Region10
import proofs.«108146_j77455440216408_2_alg».proof.Proof.Kernel.Region11
import proofs.«108146_j77455440216408_2_alg».proof.Proof.Kernel.Region12
import proofs.«108146_j77455440216408_2_alg».proof.Proof.Kernel.Region13

set_option maxRecDepth 16384

noncomputable section

namespace Cert.Kernel.Between

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-! ## The first layer -/

def W1 (c : Dev nD) : Valuation τ sig (Elt F) := StableHlo.after hostOps0 (fun b => m (c, b))
def out0 (c : Dev nD) : Buf (Elt F) ((c : Thread nD τ).loc main_v28) := (Region0.dat (rd (W1 m)) c).arrAt 2 cfg0.N
def W2 (c : Dev nD) : Valuation τ sig (Elt F) := Function.update (W1 m c) main_v28 (out0 m c)
def W3 (c : Dev nD) : Valuation τ sig (Elt F) := StableHlo.after hostOps1 (W2 m c)
def out1 (c : Dev nD) : Buf (Elt F) ((c : Thread nD τ).loc main_v29) := (Region1.dat (rd (W3 m)) c).arrAt 3 cfg1.N
def W4 (c : Dev nD) : Valuation τ sig (Elt F) := Function.update (W3 m c) main_v29 (out1 m c)
def out2 (c : Dev nD) : Buf (Elt F) ((c : Thread nD τ).loc main_v30) := (Region2.dat (rd (W4 m)) c).arrAt 2 cfg2.N
def W5 (c : Dev nD) : Valuation τ sig (Elt F) := Function.update (W4 m c) main_v30 (out2 m c)
def W6 (c : Dev nD) : Valuation τ sig (Elt F) := StableHlo.after hostOps3 (W5 m c)
def out3 (c : Dev nD) : Buf (Elt F) ((c : Thread nD τ).loc main_v31) := (Region3.dat (rd (W6 m)) c).arrAt 4 cfg3.N
def W7 (c : Dev nD) : Valuation τ sig (Elt F) := Function.update (W6 m c) main_v31 (out3 m c)
def W8 (c : Dev nD) : Valuation τ sig (Elt F) := StableHlo.after hostOps4 (W7 m c)
def out4 (c : Dev nD) : Buf (Elt F) ((c : Thread nD τ).loc main_v32) := (Region4.dat (rd (W8 m)) c).arrAt 3 cfg4.N
def W9 (c : Dev nD) : Valuation τ sig (Elt F) := Function.update (W8 m c) main_v32 (out4 m c)
def out5 (c : Dev nD) : Buf (Elt F) ((c : Thread nD τ).loc main_v33) := (Region5.dat (rd (W9 m)) c).arrAt 2 cfg5.N
def W10 (c : Dev nD) : Valuation τ sig (Elt F) := Function.update (W9 m c) main_v33 (out5 m c)
def W11 (c : Dev nD) : Valuation τ sig (Elt F) := StableHlo.after hostOps6 (W10 m c)
def out6 (c : Dev nD) : Buf (Elt F) ((c : Thread nD τ).loc main_v34) := (Region6.dat (rd (W11 m)) c).arrAt 3 cfg6.N
def W12 (c : Dev nD) : Valuation τ sig (Elt F) := Function.update (W11 m c) main_v34 (out6 m c)

/-! ## The second layer -/

def W13 (c : Dev nD) : Valuation τ sig (Elt F) := StableHlo.after hostOps7 (W12 m c)
def out7 (c : Dev nD) : Buf (Elt F) ((c : Thread nD τ).loc main_v63) := (Region7.dat (rd (W13 m)) c).arrAt 2 cfg7.N
def W14 (c : Dev nD) : Valuation τ sig (Elt F) := Function.update (W13 m c) main_v63 (out7 m c)
def W15 (c : Dev nD) : Valuation τ sig (Elt F) := StableHlo.after hostOps8 (W14 m c)
def out8 (c : Dev nD) : Buf (Elt F) ((c : Thread nD τ).loc main_v64) := (Region8.dat (rd (W15 m)) c).arrAt 3 cfg8.N
def W16 (c : Dev nD) : Valuation τ sig (Elt F) := Function.update (W15 m c) main_v64 (out8 m c)
def out9 (c : Dev nD) : Buf (Elt F) ((c : Thread nD τ).loc main_v65) := (Region9.dat (rd (W16 m)) c).arrAt 2 cfg9.N
def W17 (c : Dev nD) : Valuation τ sig (Elt F) := Function.update (W16 m c) main_v65 (out9 m c)
def W18 (c : Dev nD) : Valuation τ sig (Elt F) := StableHlo.after hostOps10 (W17 m c)
def out10 (c : Dev nD) : Buf (Elt F) ((c : Thread nD τ).loc main_v66) := (Region10.dat (rd (W18 m)) c).arrAt 4 cfg10.N
def W19 (c : Dev nD) : Valuation τ sig (Elt F) := Function.update (W18 m c) main_v66 (out10 m c)
def W20 (c : Dev nD) : Valuation τ sig (Elt F) := StableHlo.after hostOps11 (W19 m c)
def out11 (c : Dev nD) : Buf (Elt F) ((c : Thread nD τ).loc main_v67) := (Region11.dat (rd (W20 m)) c).arrAt 3 cfg11.N
def W21 (c : Dev nD) : Valuation τ sig (Elt F) := Function.update (W20 m c) main_v67 (out11 m c)
def out12 (c : Dev nD) : Buf (Elt F) ((c : Thread nD τ).loc main_v68) := (Region12.dat (rd (W21 m)) c).arrAt 2 cfg12.N
def W22 (c : Dev nD) : Valuation τ sig (Elt F) := Function.update (W21 m c) main_v68 (out12 m c)
def W23 (c : Dev nD) : Valuation τ sig (Elt F) := StableHlo.after hostOps13 (W22 m c)
def out13 (c : Dev nD) : Buf (Elt F) ((c : Thread nD τ).loc main_v69) := (Region13.dat (rd (W23 m)) c).arrAt 3 cfg13.N
def W24 (c : Dev nD) : Valuation τ sig (Elt F) := Function.update (W23 m c) main_v69 (out13 m c)

/-! ## The regions' results as the generated frame's unknowns -/

/-- What each region leaves in its result array, as the conditional frame takes it: `out K` at region K's result, the
    launch contents at any other reference (never read there). -/
def outs : Outs (F := F) := fun _ r c =>
  if h : r = main_v28 then h ▸ out0 m c
  else if h : r = main_v29 then h ▸ out1 m c
  else if h : r = main_v30 then h ▸ out2 m c
  else if h : r = main_v31 then h ▸ out3 m c
  else if h : r = main_v32 then h ▸ out4 m c
  else if h : r = main_v33 then h ▸ out5 m c
  else if h : r = main_v34 then h ▸ out6 m c
  else if h : r = main_v63 then h ▸ out7 m c
  else if h : r = main_v64 then h ▸ out8 m c
  else if h : r = main_v65 then h ▸ out9 m c
  else if h : r = main_v66 then h ▸ out10 m c
  else if h : r = main_v67 then h ▸ out11 m c
  else if h : r = main_v68 then h ▸ out12 m c
  else if h : r = main_v69 then h ▸ out13 m c
  else m ((c : Thread nD τ).loc r)

theorem outs_v28 (J : ℕ) (c : Dev nD) : outs m J main_v28 c = out0 m c := by
  unfold outs; rw [dif_pos rfl]
theorem outs_v29 (J : ℕ) (c : Dev nD) : outs m J main_v29 c = out1 m c := by
  unfold outs; rw [dif_neg (by decide), dif_pos rfl]
theorem outs_v30 (J : ℕ) (c : Dev nD) : outs m J main_v30 c = out2 m c := by
  unfold outs; rw [dif_neg (by decide), dif_neg (by decide), dif_pos rfl]
theorem outs_v31 (J : ℕ) (c : Dev nD) : outs m J main_v31 c = out3 m c := by
  unfold outs; rw [dif_neg (by decide), dif_neg (by decide), dif_neg (by decide), dif_pos rfl]
theorem outs_v32 (J : ℕ) (c : Dev nD) : outs m J main_v32 c = out4 m c := by
  unfold outs; rw [dif_neg (by decide), dif_neg (by decide), dif_neg (by decide), dif_neg (by decide), dif_pos rfl]
theorem outs_v33 (J : ℕ) (c : Dev nD) : outs m J main_v33 c = out5 m c := by
  unfold outs; rw [dif_neg (by decide), dif_neg (by decide), dif_neg (by decide), dif_neg (by decide), dif_neg (by decide), dif_pos rfl]
theorem outs_v34 (J : ℕ) (c : Dev nD) : outs m J main_v34 c = out6 m c := by
  unfold outs; rw [dif_neg (by decide), dif_neg (by decide), dif_neg (by decide), dif_neg (by decide), dif_neg (by decide), dif_neg (by decide), dif_pos rfl]
theorem outs_v63 (J : ℕ) (c : Dev nD) : outs m J main_v63 c = out7 m c := by
  unfold outs; rw [dif_neg (by decide), dif_neg (by decide), dif_neg (by decide), dif_neg (by decide), dif_neg (by decide), dif_neg (by decide), dif_neg (by decide), dif_pos rfl]
theorem outs_v64 (J : ℕ) (c : Dev nD) : outs m J main_v64 c = out8 m c := by
  unfold outs; rw [dif_neg (by decide), dif_neg (by decide), dif_neg (by decide), dif_neg (by decide), dif_neg (by decide), dif_neg (by decide), dif_neg (by decide), dif_neg (by decide), dif_pos rfl]
theorem outs_v65 (J : ℕ) (c : Dev nD) : outs m J main_v65 c = out9 m c := by
  unfold outs; rw [dif_neg (by decide), dif_neg (by decide), dif_neg (by decide), dif_neg (by decide), dif_neg (by decide), dif_neg (by decide), dif_neg (by decide), dif_neg (by decide), dif_neg (by decide), dif_pos rfl]
theorem outs_v66 (J : ℕ) (c : Dev nD) : outs m J main_v66 c = out10 m c := by
  unfold outs; rw [dif_neg (by decide), dif_neg (by decide), dif_neg (by decide), dif_neg (by decide), dif_neg (by decide), dif_neg (by decide), dif_neg (by decide), dif_neg (by decide), dif_neg (by decide), dif_neg (by decide), dif_pos rfl]
theorem outs_v67 (J : ℕ) (c : Dev nD) : outs m J main_v67 c = out11 m c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_v68 (J : ℕ) (c : Dev nD) : outs m J main_v68 c = out12 m c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_v69 (J : ℕ) (c : Dev nD) : outs m J main_v69 c = out13 m c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]

/-! ## The generated chain of valuations is this one -/

theorem V1_eq : V1 m = W1 m := by funext c; unfold W1; rfl
theorem V2_eq : V2 m (outs m) = W2 m := by
  funext c; show Function.update (V1 m c) main_v28 (outs m 2 main_v28 c) = _; rw [outs_v28]; unfold W2; first | rfl | (rw [V1_eq])
theorem V3_eq : V3 m (outs m) = W3 m := by
  funext c; show StableHlo.after hostOps1 (V2 m (outs m) c) = _; rw [V2_eq]; unfold W3; first | rfl | (rw [V1_eq])
theorem V4_eq : V4 m (outs m) = W4 m := by
  funext c; show Function.update (V3 m (outs m) c) main_v29 (outs m 4 main_v29 c) = _; rw [outs_v29, V3_eq]; unfold W4; first | rfl | (rw [V1_eq])
theorem V5_eq : V5 m (outs m) = W5 m := by
  funext c; show Function.update (V4 m (outs m) c) main_v30 (outs m 5 main_v30 c) = _; rw [outs_v30, V4_eq]; unfold W5; first | rfl | (rw [V1_eq])
theorem V6_eq : V6 m (outs m) = W6 m := by
  funext c; show StableHlo.after hostOps3 (V5 m (outs m) c) = _; rw [V5_eq]; unfold W6; first | rfl | (rw [V1_eq])
theorem V7_eq : V7 m (outs m) = W7 m := by
  funext c; show Function.update (V6 m (outs m) c) main_v31 (outs m 7 main_v31 c) = _; rw [outs_v31, V6_eq]; unfold W7; first | rfl | (rw [V1_eq])
theorem V8_eq : V8 m (outs m) = W8 m := by
  funext c; show StableHlo.after hostOps4 (V7 m (outs m) c) = _; rw [V7_eq]; unfold W8; first | rfl | (rw [V1_eq])
theorem V9_eq : V9 m (outs m) = W9 m := by
  funext c; show Function.update (V8 m (outs m) c) main_v32 (outs m 9 main_v32 c) = _; rw [outs_v32, V8_eq]; unfold W9; first | rfl | (rw [V1_eq])
theorem V10_eq : V10 m (outs m) = W10 m := by
  funext c; show Function.update (V9 m (outs m) c) main_v33 (outs m 10 main_v33 c) = _; rw [outs_v33, V9_eq]; unfold W10; first | rfl | (rw [V1_eq])
theorem V11_eq : V11 m (outs m) = W11 m := by
  funext c; show StableHlo.after hostOps6 (V10 m (outs m) c) = _; rw [V10_eq]; unfold W11; first | rfl | (rw [V1_eq])
theorem V12_eq : V12 m (outs m) = W12 m := by
  funext c; show Function.update (V11 m (outs m) c) main_v34 (outs m 12 main_v34 c) = _; rw [outs_v34, V11_eq]; unfold W12; first | rfl | (rw [V1_eq])
theorem V13_eq : V13 m (outs m) = W13 m := by
  funext c; show StableHlo.after hostOps7 (V12 m (outs m) c) = _; rw [V12_eq]; unfold W13; first | rfl | (rw [V1_eq])
theorem V14_eq : V14 m (outs m) = W14 m := by
  funext c; show Function.update (V13 m (outs m) c) main_v63 (outs m 14 main_v63 c) = _; rw [outs_v63, V13_eq]; unfold W14; first | rfl | (rw [V1_eq])
theorem V15_eq : V15 m (outs m) = W15 m := by
  funext c; show StableHlo.after hostOps8 (V14 m (outs m) c) = _; rw [V14_eq]; unfold W15; first | rfl | (rw [V1_eq])
theorem V16_eq : V16 m (outs m) = W16 m := by
  funext c; show Function.update (V15 m (outs m) c) main_v64 (outs m 16 main_v64 c) = _; rw [outs_v64, V15_eq]; unfold W16; first | rfl | (rw [V1_eq])
theorem V17_eq : V17 m (outs m) = W17 m := by
  funext c; show Function.update (V16 m (outs m) c) main_v65 (outs m 17 main_v65 c) = _; rw [outs_v65, V16_eq]; unfold W17; first | rfl | (rw [V1_eq])
theorem V18_eq : V18 m (outs m) = W18 m := by
  funext c; show StableHlo.after hostOps10 (V17 m (outs m) c) = _; rw [V17_eq]; unfold W18; first | rfl | (rw [V1_eq])
theorem V19_eq : V19 m (outs m) = W19 m := by
  funext c; show Function.update (V18 m (outs m) c) main_v66 (outs m 19 main_v66 c) = _; rw [outs_v66, V18_eq]; unfold W19; first | rfl | (rw [V1_eq])
theorem V20_eq : V20 m (outs m) = W20 m := by
  funext c; show StableHlo.after hostOps11 (V19 m (outs m) c) = _; rw [V19_eq]; unfold W20; first | rfl | (rw [V1_eq])
theorem V21_eq : V21 m (outs m) = W21 m := by
  funext c; show Function.update (V20 m (outs m) c) main_v67 (outs m 21 main_v67 c) = _; rw [outs_v67, V20_eq]; unfold W21; first | rfl | (rw [V1_eq])
theorem V22_eq : V22 m (outs m) = W22 m := by
  funext c; show Function.update (V21 m (outs m) c) main_v68 (outs m 22 main_v68 c) = _; rw [outs_v68, V21_eq]; unfold W22; first | rfl | (rw [V1_eq])
theorem V23_eq : V23 m (outs m) = W23 m := by
  funext c; show StableHlo.after hostOps13 (V22 m (outs m) c) = _; rw [V22_eq]; unfold W23; first | rfl | (rw [V1_eq])
theorem V24_eq : V24 m (outs m) = W24 m := by
  funext c; show Function.update (V23 m (outs m) c) main_v69 (outs m 24 main_v69 c) = _; rw [outs_v69, V23_eq]; unfold W24; first | rfl | (rw [V1_eq])

/-! ## The valuation after a region: at its result, and away from it -/

theorem W2_at (c : Dev nD) : W2 m c main_v28 = out0 m c := by
  unfold W2; exact Function.update_self (Proc.devRef .tc main_v28) (out0 m c) (W1 m c)
theorem W2_of_ne (c : Dev nD) (b : Ref sig .tc) (hb : b ≠ main_v28) : W2 m c b = W1 m c b := by
  unfold W2; exact Function.update_of_ne (StableHlo.devRef_ne_of_ne hb) _ _
theorem W4_at (c : Dev nD) : W4 m c main_v29 = out1 m c := by
  unfold W4; exact Function.update_self (Proc.devRef .tc main_v29) (out1 m c) (W3 m c)
theorem W4_of_ne (c : Dev nD) (b : Ref sig .tc) (hb : b ≠ main_v29) : W4 m c b = W3 m c b := by
  unfold W4; exact Function.update_of_ne (StableHlo.devRef_ne_of_ne hb) _ _
theorem W5_at (c : Dev nD) : W5 m c main_v30 = out2 m c := by
  unfold W5; exact Function.update_self (Proc.devRef .tc main_v30) (out2 m c) (W4 m c)
theorem W5_of_ne (c : Dev nD) (b : Ref sig .tc) (hb : b ≠ main_v30) : W5 m c b = W4 m c b := by
  unfold W5; exact Function.update_of_ne (StableHlo.devRef_ne_of_ne hb) _ _
theorem W7_at (c : Dev nD) : W7 m c main_v31 = out3 m c := by
  unfold W7; exact Function.update_self (Proc.devRef .tc main_v31) (out3 m c) (W6 m c)
theorem W7_of_ne (c : Dev nD) (b : Ref sig .tc) (hb : b ≠ main_v31) : W7 m c b = W6 m c b := by
  unfold W7; exact Function.update_of_ne (StableHlo.devRef_ne_of_ne hb) _ _
theorem W9_at (c : Dev nD) : W9 m c main_v32 = out4 m c := by
  unfold W9; exact Function.update_self (Proc.devRef .tc main_v32) (out4 m c) (W8 m c)
theorem W9_of_ne (c : Dev nD) (b : Ref sig .tc) (hb : b ≠ main_v32) : W9 m c b = W8 m c b := by
  unfold W9; exact Function.update_of_ne (StableHlo.devRef_ne_of_ne hb) _ _
theorem W10_at (c : Dev nD) : W10 m c main_v33 = out5 m c := by
  unfold W10; exact Function.update_self (Proc.devRef .tc main_v33) (out5 m c) (W9 m c)
theorem W10_of_ne (c : Dev nD) (b : Ref sig .tc) (hb : b ≠ main_v33) : W10 m c b = W9 m c b := by
  unfold W10; exact Function.update_of_ne (StableHlo.devRef_ne_of_ne hb) _ _
theorem W12_at (c : Dev nD) : W12 m c main_v34 = out6 m c := by
  unfold W12; exact Function.update_self (Proc.devRef .tc main_v34) (out6 m c) (W11 m c)
theorem W12_of_ne (c : Dev nD) (b : Ref sig .tc) (hb : b ≠ main_v34) : W12 m c b = W11 m c b := by
  unfold W12; exact Function.update_of_ne (StableHlo.devRef_ne_of_ne hb) _ _
theorem W14_at (c : Dev nD) : W14 m c main_v63 = out7 m c := by
  unfold W14; exact Function.update_self (Proc.devRef .tc main_v63) (out7 m c) (W13 m c)
theorem W14_of_ne (c : Dev nD) (b : Ref sig .tc) (hb : b ≠ main_v63) : W14 m c b = W13 m c b := by
  unfold W14; exact Function.update_of_ne (StableHlo.devRef_ne_of_ne hb) _ _
theorem W16_at (c : Dev nD) : W16 m c main_v64 = out8 m c := by
  unfold W16; exact Function.update_self (Proc.devRef .tc main_v64) (out8 m c) (W15 m c)
theorem W16_of_ne (c : Dev nD) (b : Ref sig .tc) (hb : b ≠ main_v64) : W16 m c b = W15 m c b := by
  unfold W16; exact Function.update_of_ne (StableHlo.devRef_ne_of_ne hb) _ _
theorem W17_at (c : Dev nD) : W17 m c main_v65 = out9 m c := by
  unfold W17; exact Function.update_self (Proc.devRef .tc main_v65) (out9 m c) (W16 m c)
theorem W17_of_ne (c : Dev nD) (b : Ref sig .tc) (hb : b ≠ main_v65) : W17 m c b = W16 m c b := by
  unfold W17; exact Function.update_of_ne (StableHlo.devRef_ne_of_ne hb) _ _
theorem W19_at (c : Dev nD) : W19 m c main_v66 = out10 m c := by
  unfold W19; exact Function.update_self (Proc.devRef .tc main_v66) (out10 m c) (W18 m c)
theorem W19_of_ne (c : Dev nD) (b : Ref sig .tc) (hb : b ≠ main_v66) : W19 m c b = W18 m c b := by
  unfold W19; exact Function.update_of_ne (StableHlo.devRef_ne_of_ne hb) _ _
theorem W21_at (c : Dev nD) : W21 m c main_v67 = out11 m c := by
  unfold W21; exact Function.update_self (Proc.devRef .tc main_v67) (out11 m c) (W20 m c)
theorem W21_of_ne (c : Dev nD) (b : Ref sig .tc) (hb : b ≠ main_v67) : W21 m c b = W20 m c b := by
  unfold W21; exact Function.update_of_ne (StableHlo.devRef_ne_of_ne hb) _ _
theorem W22_at (c : Dev nD) : W22 m c main_v68 = out12 m c := by
  unfold W22; exact Function.update_self (Proc.devRef .tc main_v68) (out12 m c) (W21 m c)
theorem W22_of_ne (c : Dev nD) (b : Ref sig .tc) (hb : b ≠ main_v68) : W22 m c b = W21 m c b := by
  unfold W22; exact Function.update_of_ne (StableHlo.devRef_ne_of_ne hb) _ _
theorem W24_at (c : Dev nD) : W24 m c main_v69 = out13 m c := by
  unfold W24; exact Function.update_self (Proc.devRef .tc main_v69) (out13 m c) (W23 m c)
theorem W24_of_ne (c : Dev nD) (b : Ref sig .tc) (hb : b ≠ main_v69) : W24 m c b = W23 m c b := by
  unfold W24; exact Function.update_of_ne (StableHlo.devRef_ne_of_ne hb) _ _

/-! ## The proof data family -/

/-- Every pipeline's proof data, each at its region's entry valuation: a literal match on the region. -/
def pdats : (p : Fin 14) → (c : Dev nD) → Dat τ (Elt F) Unit ℕ (UR sig nD τ) ℕ (cfgs p) c
  | ⟨0, _⟩ => fun c => Region0.dat (rd (W1 m)) c
  | ⟨1, _⟩ => fun c => Region1.dat (rd (W3 m)) c
  | ⟨2, _⟩ => fun c => Region2.dat (rd (W4 m)) c
  | ⟨3, _⟩ => fun c => Region3.dat (rd (W6 m)) c
  | ⟨4, _⟩ => fun c => Region4.dat (rd (W8 m)) c
  | ⟨5, _⟩ => fun c => Region5.dat (rd (W9 m)) c
  | ⟨6, _⟩ => fun c => Region6.dat (rd (W11 m)) c
  | ⟨7, _⟩ => fun c => Region7.dat (rd (W13 m)) c
  | ⟨8, _⟩ => fun c => Region8.dat (rd (W15 m)) c
  | ⟨9, _⟩ => fun c => Region9.dat (rd (W16 m)) c
  | ⟨10, _⟩ => fun c => Region10.dat (rd (W18 m)) c
  | ⟨11, _⟩ => fun c => Region11.dat (rd (W20 m)) c
  | ⟨12, _⟩ => fun c => Region12.dat (rd (W21 m)) c
  | ⟨13, _⟩ => fun c => Region13.dat (rd (W23 m)) c

/-- No core owes another anything: no level is assigned. -/
abbrev L : GSem nD τ sig → Finset Unit := fun _ => ∅
abbrev lv : GSem nD τ sig → Unit → ℕ := fun _ _ => 0

/-- What rides beside the buffers through every item: the core's generator register at some state and its dues, at
    nothing. -/
abbrev Rest (c : Dev nD) : sProp 𝕄 := iprop((∃ r, prngReg c r) ∗ ∃ W, owes (c : Thread nD τ) (0 : CellTallies nD τ sig Unit) W)

end Cert.Kernel.Between

end
-- ==== Proof.Kernel.Records.lean ====
/-
  The fourteen regions as segments of @main's run.

  A region's record is built ONCE, for any region `p`, from what differs between regions: the launch's layout facts, the
  body obligation of the region's proof data, how the region's invariant is made from the scoped buffers the launch hands
  over and gives them back, and what the valuation after the region holds — the region's arrays at what the write-backs
  leave, every other buffer as before (`regOf`). Around that: the region's arrays are split out of the thread state's
  unscoped buffers on entry and put back on exit; the generator register and the core's dues bypass the region; no kernel
  here has a semaphore of its own. The fourteen instances follow, each with its region's facts.
-/
import proofs.«108146_j77455440216408_2_alg».proof.Proof.Kernel.Between

set_option maxRecDepth 16384

noncomputable section

namespace Cert.Kernel.Between

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-! ## A region's record, for any region -/

-- `iapply` of a library lemma stated over the pinned configuration unifies only when unification may unfold plain
-- definitions in a metavariable's type
set_option backward.isDefEq.respectTransparency.types false in
/-- Region `p` over the thread state "every unscoped buffer at a valuation, the generator register at some state, nothing
    owed": entered from `Win`, left at `Wout`. -/
def regOf (p : Fin 14) (hl : Pipeline.LaunchFacts (nD := nD) (τ := τ) cfgs p)
    (Win Wout : Dev nD → Valuation τ sig (Elt F))
    (hA : ∀ c w, (pdats m p c).A w = rd Win c (Pipeline.arrRef (Pipeline.pin (pcfgs (F := F)) adm p).spec w))
    (hq : ∀ c w, (pdats m p c).q w = fullShare)
    (howed : ∀ c t, (pdats m p c).owed t = 0)
    (hrec : ∀ c t, (pdats m p c).recorded t = Set.univ)
    (hbody : ∀ c, Pipeline.BodyObligationLoose (pdats m p c) (defs₀ (F := F)) Variants.none () Set.univ)
    (hin : ∀ c, (Pipeline.scopedRest (Ix := Unit) (Name := ℕ) (U := UR sig nD τ) (Lvl := ℕ) (Val := Elt F) (Pipeline.pin (pcfgs (F := F)) adm p).spec c : sProp 𝕄) ⊢ (pdats m p c).Φ 0)
    (hout : ∀ c, (pdats m p c).Φ (Fin.last (Pipeline.pin (pcfgs (F := F)) adm p).N)
      ⊢ (Pipeline.scopedRest (Ix := Unit) (Name := ℕ) (U := UR sig nD τ) (Lvl := ℕ) (Val := Elt F) (Pipeline.pin (pcfgs (F := F)) adm p).spec c : sProp 𝕄))
    (hF : ∀ c w, (pdats m p c).arrAt w (Pipeline.pin (pcfgs (F := F)) adm p).N = rd Wout c (Pipeline.arrRef (Pipeline.pin (pcfgs (F := F)) adm p).spec w))
    (hrest : ∀ c b, b ∉ Finset.univ.image (Pipeline.arrRef (Pipeline.pin (pcfgs (F := F)) adm p).spec) → rd Wout c b = rd Win c b) :
    Pipeline.RegionSeg (pcfgs (F := F)) adm (pdats m) () defs₀ Variants.none L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ Rest c)
  post c := iprop(StableHlo.held (c : Thread nD τ) (Pipeline.ucRefs τ sig) (Wout c) ∗ Rest c)
  X _ := BI.emp
  Y _ := BI.emp
  Z c := iprop(Pipeline.unscopedRest (Ix := Unit) (Name := ℕ) (U := UR sig nD τ) (Lvl := ℕ) (Pipeline.pin (pcfgs (F := F)) adm p).spec c (rd Win c) ∗ ∃ r, prngReg c r)
  hentry c := by
    rw [Pipeline.ownSems0_none]
    have hsplit := Pipeline.arrays_of_unscopedBufs (p := p) (pcfgs (F := F)) adm (pdats m) hl.win hl.arr_whole c
      ((pdats m p c).share_full (hq c)) (rd Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c 0]; trivial)
      rw [howed c 0]; iexact HO
    isplitr; · iempintro
    isplitl [Hrest]; · iexact Hrest
    iexact Hp
  hin c := by
    have h := hin c
    iintro ⟨-, -, Hr⟩
    iapply h; iexact Hr
  hout c := by
    rw [Pipeline.ownSems0_none]
    have h := hout c
    iintro HP
    isplitr; · iempintro
    isplitr; · iempintro
    iapply h; iexact HP
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (rd Win c) (rd Wout c) ((pdats m p c).arrAt · (Pipeline.pin (pcfgs (F := F)) adm p).N) (hF c) (hrest c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; rw [howed c (Fin.last _)]; iexact HO

/-! ## Region 0: its windows' arrays are `main_arg7`, `main_v15`, `main_v28`, the last one its result -/

set_option maxHeartbeats 1000000 in
def reg0 : Pipeline.RegionSeg (pcfgs (F := F)) adm (pdats m) () defs₀ Variants.none L lv 0 :=
  regOf m 0 launch0 (W1 m) (W2 m) (fun _ _ => rfl) (fun _ _ => rfl) (fun _ _ => rfl) (fun _ _ => rfl)
    (fun c => (Region0.body_obligation (rd (W1 m)) c).loose)
    (fun c => by
      show (Pipeline.scopedRest (Ix := Unit) (Name := ℕ) (U := UR sig nD τ) (Lvl := ℕ) (Val := Elt F) spec0 c : sProp 𝕄) ⊢ Region0.Phi c
      unfold Region0.Phi; rw [Pipeline.scopedRest_split_of_list (Ix := Unit) (Name := ℕ) (U := UR sig nD τ) (Lvl := ℕ) (Val := Elt F) spec0 c [cc0_scratch0] (by decide) (by decide)]
      exact .rfl)
    (fun c => by
      show Region0.Phi c ⊢ (Pipeline.scopedRest (Ix := Unit) (Name := ℕ) (U := UR sig nD τ) (Lvl := ℕ) (Val := Elt F) spec0 c : sProp 𝕄)
      unfold Region0.Phi; rw [Pipeline.scopedRest_split_of_list (Ix := Unit) (Name := ℕ) (U := UR sig nD τ) (Lvl := ℕ) (Val := Elt F) spec0 c [cc0_scratch0] (by decide) (by decide)]
      exact .rfl)
    (fun c w => by
      fin_cases w
      · exact ((pdats m 0 c).arrAt_in 0 rfl _).trans (W2_of_ne m c main_arg7 (by decide)).symm
      · exact ((pdats m 0 c).arrAt_in 1 rfl _).trans (W2_of_ne m c main_v15 (by decide)).symm
      · exact (W2_at m c).symm)
    (fun c b hb => W2_of_ne m c b fun h => hb (h ▸ Finset.mem_image.mpr ⟨2, Finset.mem_univ _, rfl⟩))

/-! ## Region 1: its windows' arrays are `main_arg4`, `main_v17`, `main_v28`, `main_v29`, the last one its result -/

set_option maxHeartbeats 1000000 in
def reg1 : Pipeline.RegionSeg (pcfgs (F := F)) adm (pdats m) () defs₀ Variants.none L lv 1 :=
  regOf m 1 launch1 (W3 m) (W4 m) (fun _ _ => rfl) (fun _ _ => rfl) (fun _ _ => rfl) (fun _ _ => rfl)
    (fun c => (Region1.body_obligation (rd (W3 m)) c).loose)
    (fun c => by
      show (Pipeline.scopedRest (Ix := Unit) (Name := ℕ) (U := UR sig nD τ) (Lvl := ℕ) (Val := Elt F) spec1 c : sProp 𝕄) ⊢ Region1.PhiS (rd (W3 m)) c 0 (Nat.zero_le _)
      rw [Region1.PhiS_zero _ c 0 _ rfl]; rw [Pipeline.scopedRest_split_of_list (Ix := Unit) (Name := ℕ) (U := UR sig nD τ) (Lvl := ℕ) (Val := Elt F) spec1 c [cc1_scratch0] (by decide) (by decide)]
      exact .rfl)
    (fun c => by
      show Region1.PhiS (rd (W3 m)) c (Fin.last cfg1.N).val (Nat.le_of_lt_succ (Fin.last cfg1.N).isLt) ⊢ (Pipeline.scopedRest (Ix := Unit) (Name := ℕ) (U := UR sig nD τ) (Lvl := ℕ) (Val := Elt F) spec1 c : sProp 𝕄)
      rw [Pipeline.scopedRest_split_of_list (Ix := Unit) (Name := ℕ) (U := UR sig nD τ) (Lvl := ℕ) (Val := Elt F) spec1 c [cc1_scratch0] (by decide) (by decide)]
      refine (Region1.PhiS_some (rd (W3 m)) c _ _).trans (sep_mono ?_ .rfl)
      show iprop(∃ d, owns (c : Thread nD τ) Region1.mAcc fullShare d)
        ⊢ iprop(∃ f : Buf (Elt F) ((c.tc : Thread nD τ).loc cc1_scratch0), ((c.tc : Thread nD τ).loc cc1_scratch0) ↦{fullShare} f)
      simp only [owns_whole]; exact .rfl)
    (fun c w => by
      fin_cases w
      · exact ((pdats m 1 c).arrAt_in 0 rfl _).trans (W4_of_ne m c main_arg4 (by decide)).symm
      · exact ((pdats m 1 c).arrAt_in 1 rfl _).trans (W4_of_ne m c main_v17 (by decide)).symm
      · exact ((pdats m 1 c).arrAt_in 2 rfl _).trans (W4_of_ne m c main_v28 (by decide)).symm
      · exact (W4_at m c).symm)
    (fun c b hb => W4_of_ne m c b fun h => hb (h ▸ Finset.mem_image.mpr ⟨3, Finset.mem_univ _, rfl⟩))

/-! ## Region 2: its windows' arrays are `main_arg3`, `main_v19`, `main_v30`, the last one its result -/

set_option maxHeartbeats 1000000 in
def reg2 : Pipeline.RegionSeg (pcfgs (F := F)) adm (pdats m) () defs₀ Variants.none L lv 2 :=
  regOf m 2 launch2 (W4 m) (W5 m) (fun _ _ => rfl) (fun _ _ => rfl) (fun _ _ => rfl) (fun _ _ => rfl)
    (fun c => (Region2.body_obligation (rd (W4 m)) c).loose)
    (fun c => by
      show (Pipeline.scopedRest (Ix := Unit) (Name := ℕ) (U := UR sig nD τ) (Lvl := ℕ) (Val := Elt F) spec2 c : sProp 𝕄) ⊢ Region2.Phi c
      unfold Region2.Phi; rw [Pipeline.scopedRest_split_of_list (Ix := Unit) (Name := ℕ) (U := UR sig nD τ) (Lvl := ℕ) (Val := Elt F) spec2 c [cc2_scratch0] (by decide) (by decide)]
      exact .rfl)
    (fun c => by
      show Region2.Phi c ⊢ (Pipeline.scopedRest (Ix := Unit) (Name := ℕ) (U := UR sig nD τ) (Lvl := ℕ) (Val := Elt F) spec2 c : sProp 𝕄)
      unfold Region2.Phi; rw [Pipeline.scopedRest_split_of_list (Ix := Unit) (Name := ℕ) (U := UR sig nD τ) (Lvl := ℕ) (Val := Elt F) spec2 c [cc2_scratch0] (by decide) (by decide)]
      exact .rfl)
    (fun c w => by
      fin_cases w
      · exact ((pdats m 2 c).arrAt_in 0 rfl _).trans (W5_of_ne m c main_arg3 (by decide)).symm
      · exact ((pdats m 2 c).arrAt_in 1 rfl _).trans (W5_of_ne m c main_v19 (by decide)).symm
      · exact (W5_at m c).symm)
    (fun c b hb => W5_of_ne m c b fun h => hb (h ▸ Finset.mem_image.mpr ⟨2, Finset.mem_univ _, rfl⟩))

/-! ## Region 3: its windows' arrays are `main_arg9`, `main_arg8`, `main_v21`, `main_v30`, `main_v31`, the last one its result -/

set_option maxHeartbeats 1000000 in
def reg3 : Pipeline.RegionSeg (pcfgs (F := F)) adm (pdats m) () defs₀ Variants.none L lv 3 :=
  regOf m 3 launch3 (W6 m) (W7 m) (fun _ _ => rfl) (fun _ _ => rfl) (fun _ _ => rfl) (fun _ _ => rfl)
    (fun c => (Region3.body_obligation (rd (W6 m)) c).loose)
    (fun c => by
      show (Pipeline.scopedRest (Ix := Unit) (Name := ℕ) (U := UR sig nD τ) (Lvl := ℕ) (Val := Elt F) spec3 c : sProp 𝕄) ⊢ Region3.PhiS (rd (W6 m)) c 0 (Nat.zero_le _)
      rw [Region3.PhiS_zero _ c 0 _ rfl]; rw [Pipeline.scopedRest_split_of_list (Ix := Unit) (Name := ℕ) (U := UR sig nD τ) (Lvl := ℕ) (Val := Elt F) spec3 c [cc3_scratch0] (by decide) (by decide)]
      exact .rfl)
    (fun c => by
      show Region3.PhiS (rd (W6 m)) c (Fin.last cfg3.N).val (Nat.le_of_lt_succ (Fin.last cfg3.N).isLt) ⊢ (Pipeline.scopedRest (Ix := Unit) (Name := ℕ) (U := UR sig nD τ) (Lvl := ℕ) (Val := Elt F) spec3 c : sProp 𝕄)
      rw [Pipeline.scopedRest_split_of_list (Ix := Unit) (Name := ℕ) (U := UR sig nD τ) (Lvl := ℕ) (Val := Elt F) spec3 c [cc3_scratch0] (by decide) (by decide)]
      refine (Region3.PhiS_some (rd (W6 m)) c _ _).trans (sep_mono ?_ .rfl)
      show iprop(∃ d, owns (c : Thread nD τ) Region3.mAcc fullShare d)
        ⊢ iprop(∃ f : Buf (Elt F) ((c.tc : Thread nD τ).loc cc3_scratch0), ((c.tc : Thread nD τ).loc cc3_scratch0) ↦{fullShare} f)
      simp only [owns_whole]; exact .rfl)
    (fun c w => by
      fin_cases w
      · exact ((pdats m 3 c).arrAt_in 0 rfl _).trans (W7_of_ne m c main_arg9 (by decide)).symm
      · exact ((pdats m 3 c).arrAt_in 1 rfl _).trans (W7_of_ne m c main_arg8 (by decide)).symm
      · exact ((pdats m 3 c).arrAt_in 2 rfl _).trans (W7_of_ne m c main_v21 (by decide)).symm
      · exact ((pdats m 3 c).arrAt_in 3 rfl _).trans (W7_of_ne m c main_v30 (by decide)).symm
      · exact (W7_at m c).symm)
    (fun c b hb => W7_of_ne m c b fun h => hb (h ▸ Finset.mem_image.mpr ⟨4, Finset.mem_univ _, rfl⟩))

/-! ## Region 4: its windows' arrays are `main_arg6`, `main_v23`, `main_v31`, `main_v32`, the last one its result -/

set_option maxHeartbeats 1000000 in
def reg4 : Pipeline.RegionSeg (pcfgs (F := F)) adm (pdats m) () defs₀ Variants.none L lv 4 :=
  regOf m 4 launch4 (W8 m) (W9 m) (fun _ _ => rfl) (fun _ _ => rfl) (fun _ _ => rfl) (fun _ _ => rfl)
    (fun c => (Region4.body_obligation (rd (W8 m)) c).loose)
    (fun c => by
      show (Pipeline.scopedRest (Ix := Unit) (Name := ℕ) (U := UR sig nD τ) (Lvl := ℕ) (Val := Elt F) spec4 c : sProp 𝕄) ⊢ Region4.PhiS (rd (W8 m)) c 0 (Nat.zero_le _)
      rw [Region4.PhiS_zero _ c 0 _ rfl]; rw [Pipeline.scopedRest_split_of_list (Ix := Unit) (Name := ℕ) (U := UR sig nD τ) (Lvl := ℕ) (Val := Elt F) spec4 c [cc4_scratch0] (by decide) (by decide)]
      exact .rfl)
    (fun c => by
      show Region4.PhiS (rd (W8 m)) c (Fin.last cfg4.N).val (Nat.le_of_lt_succ (Fin.last cfg4.N).isLt) ⊢ (Pipeline.scopedRest (Ix := Unit) (Name := ℕ) (U := UR sig nD τ) (Lvl := ℕ) (Val := Elt F) spec4 c : sProp 𝕄)
      rw [Pipeline.scopedRest_split_of_list (Ix := Unit) (Name := ℕ) (U := UR sig nD τ) (Lvl := ℕ) (Val := Elt F) spec4 c [cc4_scratch0] (by decide) (by decide)]
      refine (Region4.PhiS_some (rd (W8 m)) c _ _).trans (sep_mono ?_ .rfl)
      show iprop(∃ d, owns (c : Thread nD τ) Region4.mAcc fullShare d)
        ⊢ iprop(∃ f : Buf (Elt F) ((c.tc : Thread nD τ).loc cc4_scratch0), ((c.tc : Thread nD τ).loc cc4_scratch0) ↦{fullShare} f)
      simp only [owns_whole]; exact .rfl)
    (fun c w => by
      fin_cases w
      · exact ((pdats m 4 c).arrAt_in 0 rfl _).trans (W9_of_ne m c main_arg6 (by decide)).symm
      · exact ((pdats m 4 c).arrAt_in 1 rfl _).trans (W9_of_ne m c main_v23 (by decide)).symm
      · exact ((pdats m 4 c).arrAt_in 2 rfl _).trans (W9_of_ne m c main_v31 (by decide)).symm
      · exact (W9_at m c).symm)
    (fun c b hb => W9_of_ne m c b fun h => hb (h ▸ Finset.mem_image.mpr ⟨3, Finset.mem_univ _, rfl⟩))

/-! ## Region 5: its windows' arrays are `main_arg5`, `main_v25`, `main_v33`, the last one its result -/

set_option maxHeartbeats 1000000 in
def reg5 : Pipeline.RegionSeg (pcfgs (F := F)) adm (pdats m) () defs₀ Variants.none L lv 5 :=
  regOf m 5 launch5 (W9 m) (W10 m) (fun _ _ => rfl) (fun _ _ => rfl) (fun _ _ => rfl) (fun _ _ => rfl)
    (fun c => (Region5.body_obligation (rd (W9 m)) c).loose)
    (fun c => by
      show (Pipeline.scopedRest (Ix := Unit) (Name := ℕ) (U := UR sig nD τ) (Lvl := ℕ) (Val := Elt F) spec5 c : sProp 𝕄) ⊢ Region5.PhiS (rd (W9 m)) c 0 (Nat.zero_le _)
      rw [Region5.PhiS_zero _ c 0 _ rfl]; rw [Pipeline.scopedRest_split_of_list (Ix := Unit) (Name := ℕ) (U := UR sig nD τ) (Lvl := ℕ) (Val := Elt F) spec5 c [cc5_scratch0] (by decide) (by decide)]
      exact .rfl)
    (fun c => by
      show Region5.PhiS (rd (W9 m)) c (Fin.last cfg5.N).val (Nat.le_of_lt_succ (Fin.last cfg5.N).isLt) ⊢ (Pipeline.scopedRest (Ix := Unit) (Name := ℕ) (U := UR sig nD τ) (Lvl := ℕ) (Val := Elt F) spec5 c : sProp 𝕄)
      rw [Pipeline.scopedRest_split_of_list (Ix := Unit) (Name := ℕ) (U := UR sig nD τ) (Lvl := ℕ) (Val := Elt F) spec5 c [cc5_scratch0] (by decide) (by decide)]
      refine (Region5.PhiS_some (rd (W9 m)) c _ _).trans (sep_mono ?_ .rfl)
      show iprop(∃ d, owns (c : Thread nD τ) Region5.mAcc fullShare d)
        ⊢ iprop(∃ f : Buf (Elt F) ((c.tc : Thread nD τ).loc cc5_scratch0), ((c.tc : Thread nD τ).loc cc5_scratch0) ↦{fullShare} f)
      simp only [owns_whole]; exact .rfl)
    (fun c w => by
      fin_cases w
      · exact ((pdats m 5 c).arrAt_in 0 rfl _).trans (W10_of_ne m c main_arg5 (by decide)).symm
      · exact ((pdats m 5 c).arrAt_in 1 rfl _).trans (W10_of_ne m c main_v25 (by decide)).symm
      · exact (W10_at m c).symm)
    (fun c b hb => W10_of_ne m c b fun h => hb (h ▸ Finset.mem_image.mpr ⟨2, Finset.mem_univ _, rfl⟩))

/-! ## Region 6: its windows' arrays are `main_arg10`, `main_v27`, `main_v33`, `main_v34`, the last one its result -/

set_option maxHeartbeats 1000000 in
def reg6 : Pipeline.RegionSeg (pcfgs (F := F)) adm (pdats m) () defs₀ Variants.none L lv 6 :=
  regOf m 6 launch6 (W11 m) (W12 m) (fun _ _ => rfl) (fun _ _ => rfl) (fun _ _ => rfl) (fun _ _ => rfl)
    (fun c => (Region6.body_obligation (rd (W11 m)) c).loose)
    (fun c => by
      show (Pipeline.scopedRest (Ix := Unit) (Name := ℕ) (U := UR sig nD τ) (Lvl := ℕ) (Val := Elt F) spec6 c : sProp 𝕄) ⊢ Region6.PhiS (rd (W11 m)) c 0 (Nat.zero_le _)
      rw [Region6.PhiS_zero _ c 0 _ rfl]; rw [Pipeline.scopedRest_split_of_list (Ix := Unit) (Name := ℕ) (U := UR sig nD τ) (Lvl := ℕ) (Val := Elt F) spec6 c [cc6_scratch0] (by decide) (by decide)]
      exact .rfl)
    (fun c => by
      show Region6.PhiS (rd (W11 m)) c (Fin.last cfg6.N).val (Nat.le_of_lt_succ (Fin.last cfg6.N).isLt) ⊢ (Pipeline.scopedRest (Ix := Unit) (Name := ℕ) (U := UR sig nD τ) (Lvl := ℕ) (Val := Elt F) spec6 c : sProp 𝕄)
      rw [Pipeline.scopedRest_split_of_list (Ix := Unit) (Name := ℕ) (U := UR sig nD τ) (Lvl := ℕ) (Val := Elt F) spec6 c [cc6_scratch0] (by decide) (by decide)]
      refine (Region6.PhiS_some (rd (W11 m)) c _ _).trans (sep_mono ?_ .rfl)
      show iprop(∃ d, owns (c : Thread nD τ) Region6.mAcc fullShare d)
        ⊢ iprop(∃ f : Buf (Elt F) ((c.tc : Thread nD τ).loc cc6_scratch0), ((c.tc : Thread nD τ).loc cc6_scratch0) ↦{fullShare} f)
      simp only [owns_whole]; exact .rfl)
    (fun c w => by
      fin_cases w
      · exact ((pdats m 6 c).arrAt_in 0 rfl _).trans (W12_of_ne m c main_arg10 (by decide)).symm
      · exact ((pdats m 6 c).arrAt_in 1 rfl _).trans (W12_of_ne m c main_v27 (by decide)).symm
      · exact ((pdats m 6 c).arrAt_in 2 rfl _).trans (W12_of_ne m c main_v33 (by decide)).symm
      · exact (W12_at m c).symm)
    (fun c b hb => W12_of_ne m c b fun h => hb (h ▸ Finset.mem_image.mpr ⟨3, Finset.mem_univ _, rfl⟩))

/-! ## Region 7: its windows' arrays are `main_arg7`, `main_v50`, `main_v63`, the last one its result -/

set_option maxHeartbeats 1000000 in
def reg7 : Pipeline.RegionSeg (pcfgs (F := F)) adm (pdats m) () defs₀ Variants.none L lv 7 :=
  regOf m 7 launch7 (W13 m) (W14 m) (fun _ _ => rfl) (fun _ _ => rfl) (fun _ _ => rfl) (fun _ _ => rfl)
    (fun c => (Region7.body_obligation (rd (W13 m)) c).loose)
    (fun c => by
      show (Pipeline.scopedRest (Ix := Unit) (Name := ℕ) (U := UR sig nD τ) (Lvl := ℕ) (Val := Elt F) spec7 c : sProp 𝕄) ⊢ Region7.Phi c
      unfold Region7.Phi; rw [Pipeline.scopedRest_split_of_list (Ix := Unit) (Name := ℕ) (U := UR sig nD τ) (Lvl := ℕ) (Val := Elt F) spec7 c [cc7_scratch0] (by decide) (by decide)]
      exact .rfl)
    (fun c => by
      show Region7.Phi c ⊢ (Pipeline.scopedRest (Ix := Unit) (Name := ℕ) (U := UR sig nD τ) (Lvl := ℕ) (Val := Elt F) spec7 c : sProp 𝕄)
      unfold Region7.Phi; rw [Pipeline.scopedRest_split_of_list (Ix := Unit) (Name := ℕ) (U := UR sig nD τ) (Lvl := ℕ) (Val := Elt F) spec7 c [cc7_scratch0] (by decide) (by decide)]
      exact .rfl)
    (fun c w => by
      fin_cases w
      · exact ((pdats m 7 c).arrAt_in 0 rfl _).trans (W14_of_ne m c main_arg7 (by decide)).symm
      · exact ((pdats m 7 c).arrAt_in 1 rfl _).trans (W14_of_ne m c main_v50 (by decide)).symm
      · exact (W14_at m c).symm)
    (fun c b hb => W14_of_ne m c b fun h => hb (h ▸ Finset.mem_image.mpr ⟨2, Finset.mem_univ _, rfl⟩))

/-! ## Region 8: its windows' arrays are `main_arg4`, `main_v52`, `main_v63`, `main_v64`, the last one its result -/

set_option maxHeartbeats 1000000 in
def reg8 : Pipeline.RegionSeg (pcfgs (F := F)) adm (pdats m) () defs₀ Variants.none L lv 8 :=
  regOf m 8 launch8 (W15 m) (W16 m) (fun _ _ => rfl) (fun _ _ => rfl) (fun _ _ => rfl) (fun _ _ => rfl)
    (fun c => (Region8.body_obligation (rd (W15 m)) c).loose)
    (fun c => by
      show (Pipeline.scopedRest (Ix := Unit) (Name := ℕ) (U := UR sig nD τ) (Lvl := ℕ) (Val := Elt F) spec8 c : sProp 𝕄) ⊢ Region8.PhiS (rd (W15 m)) c 0 (Nat.zero_le _)
      rw [Region8.PhiS_zero _ c 0 _ rfl]; rw [Pipeline.scopedRest_split_of_list (Ix := Unit) (Name := ℕ) (U := UR sig nD τ) (Lvl := ℕ) (Val := Elt F) spec8 c [cc8_scratch0] (by decide) (by decide)]
      exact .rfl)
    (fun c => by
      show Region8.PhiS (rd (W15 m)) c (Fin.last cfg8.N).val (Nat.le_of_lt_succ (Fin.last cfg8.N).isLt) ⊢ (Pipeline.scopedRest (Ix := Unit) (Name := ℕ) (U := UR sig nD τ) (Lvl := ℕ) (Val := Elt F) spec8 c : sProp 𝕄)
      rw [Pipeline.scopedRest_split_of_list (Ix := Unit) (Name := ℕ) (U := UR sig nD τ) (Lvl := ℕ) (Val := Elt F) spec8 c [cc8_scratch0] (by decide) (by decide)]
      refine (Region8.PhiS_some (rd (W15 m)) c _ _).trans (sep_mono ?_ .rfl)
      show iprop(∃ d, owns (c : Thread nD τ) Region8.mAcc fullShare d)
        ⊢ iprop(∃ f : Buf (Elt F) ((c.tc : Thread nD τ).loc cc8_scratch0), ((c.tc : Thread nD τ).loc cc8_scratch0) ↦{fullShare} f)
      simp only [owns_whole]; exact .rfl)
    (fun c w => by
      fin_cases w
      · exact ((pdats m 8 c).arrAt_in 0 rfl _).trans (W16_of_ne m c main_arg4 (by decide)).symm
      · exact ((pdats m 8 c).arrAt_in 1 rfl _).trans (W16_of_ne m c main_v52 (by decide)).symm
      · exact ((pdats m 8 c).arrAt_in 2 rfl _).trans (W16_of_ne m c main_v63 (by decide)).symm
      · exact (W16_at m c).symm)
    (fun c b hb => W16_of_ne m c b fun h => hb (h ▸ Finset.mem_image.mpr ⟨3, Finset.mem_univ _, rfl⟩))

/-! ## Region 9: its windows' arrays are `main_arg3`, `main_v54`, `main_v65`, the last one its result -/

set_option maxHeartbeats 1000000 in
def reg9 : Pipeline.RegionSeg (pcfgs (F := F)) adm (pdats m) () defs₀ Variants.none L lv 9 :=
  regOf m 9 launch9 (W16 m) (W17 m) (fun _ _ => rfl) (fun _ _ => rfl) (fun _ _ => rfl) (fun _ _ => rfl)
    (fun c => (Region9.body_obligation (rd (W16 m)) c).loose)
    (fun c => by
      show (Pipeline.scopedRest (Ix := Unit) (Name := ℕ) (U := UR sig nD τ) (Lvl := ℕ) (Val := Elt F) spec9 c : sProp 𝕄) ⊢ Region9.Phi c
      unfold Region9.Phi; rw [Pipeline.scopedRest_split_of_list (Ix := Unit) (Name := ℕ) (U := UR sig nD τ) (Lvl := ℕ) (Val := Elt F) spec9 c [cc9_scratch0] (by decide) (by decide)]
      exact .rfl)
    (fun c => by
      show Region9.Phi c ⊢ (Pipeline.scopedRest (Ix := Unit) (Name := ℕ) (U := UR sig nD τ) (Lvl := ℕ) (Val := Elt F) spec9 c : sProp 𝕄)
      unfold Region9.Phi; rw [Pipeline.scopedRest_split_of_list (Ix := Unit) (Name := ℕ) (U := UR sig nD τ) (Lvl := ℕ) (Val := Elt F) spec9 c [cc9_scratch0] (by decide) (by decide)]
      exact .rfl)
    (fun c w => by
      fin_cases w
      · exact ((pdats m 9 c).arrAt_in 0 rfl _).trans (W17_of_ne m c main_arg3 (by decide)).symm
      · exact ((pdats m 9 c).arrAt_in 1 rfl _).trans (W17_of_ne m c main_v54 (by decide)).symm
      · exact (W17_at m c).symm)
    (fun c b hb => W17_of_ne m c b fun h => hb (h ▸ Finset.mem_image.mpr ⟨2, Finset.mem_univ _, rfl⟩))

/-! ## Region 10: its windows' arrays are `main_arg9`, `main_arg8`, `main_v56`, `main_v65`, `main_v66`, the last one its result -/

set_option maxHeartbeats 1000000 in
def reg10 : Pipeline.RegionSeg (pcfgs (F := F)) adm (pdats m) () defs₀ Variants.none L lv 10 :=
  regOf m 10 launch10 (W18 m) (W19 m) (fun _ _ => rfl) (fun _ _ => rfl) (fun _ _ => rfl) (fun _ _ => rfl)
    (fun c => (Region10.body_obligation (rd (W18 m)) c).loose)
    (fun c => by
      show (Pipeline.scopedRest (Ix := Unit) (Name := ℕ) (U := UR sig nD τ) (Lvl := ℕ) (Val := Elt F) spec10 c : sProp 𝕄) ⊢ Region10.PhiS (rd (W18 m)) c 0 (Nat.zero_le _)
      rw [Region10.PhiS_zero _ c 0 _ rfl]; rw [Pipeline.scopedRest_split_of_list (Ix := Unit) (Name := ℕ) (U := UR sig nD τ) (Lvl := ℕ) (Val := Elt F) spec10 c [cc10_scratch0] (by decide) (by decide)]
      exact .rfl)
    (fun c => by
      show Region10.PhiS (rd (W18 m)) c (Fin.last cfg10.N).val (Nat.le_of_lt_succ (Fin.last cfg10.N).isLt) ⊢ (Pipeline.scopedRest (Ix := Unit) (Name := ℕ) (U := UR sig nD τ) (Lvl := ℕ) (Val := Elt F) spec10 c : sProp 𝕄)
      rw [Pipeline.scopedRest_split_of_list (Ix := Unit) (Name := ℕ) (U := UR sig nD τ) (Lvl := ℕ) (Val := Elt F) spec10 c [cc10_scratch0] (by decide) (by decide)]
      refine (Region10.PhiS_some (rd (W18 m)) c _ _).trans (sep_mono ?_ .rfl)
      show iprop(∃ d, owns (c : Thread nD τ) Region10.mAcc fullShare d)
        ⊢ iprop(∃ f : Buf (Elt F) ((c.tc : Thread nD τ).loc cc10_scratch0), ((c.tc : Thread nD τ).loc cc10_scratch0) ↦{fullShare} f)
      simp only [owns_whole]; exact .rfl)
    (fun c w => by
      fin_cases w
      · exact ((pdats m 10 c).arrAt_in 0 rfl _).trans (W19_of_ne m c main_arg9 (by decide)).symm
      · exact ((pdats m 10 c).arrAt_in 1 rfl _).trans (W19_of_ne m c main_arg8 (by decide)).symm
      · exact ((pdats m 10 c).arrAt_in 2 rfl _).trans (W19_of_ne m c main_v56 (by decide)).symm
      · exact ((pdats m 10 c).arrAt_in 3 rfl _).trans (W19_of_ne m c main_v65 (by decide)).symm
      · exact (W19_at m c).symm)
    (fun c b hb => W19_of_ne m c b fun h => hb (h ▸ Finset.mem_image.mpr ⟨4, Finset.mem_univ _, rfl⟩))

/-! ## Region 11: its windows' arrays are `main_arg6`, `main_v58`, `main_v66`, `main_v67`, the last one its result -/

set_option maxHeartbeats 1000000 in
def reg11 : Pipeline.RegionSeg (pcfgs (F := F)) adm (pdats m) () defs₀ Variants.none L lv 11 :=
  regOf m 11 launch11 (W20 m) (W21 m) (fun _ _ => rfl) (fun _ _ => rfl) (fun _ _ => rfl) (fun _ _ => rfl)
    (fun c => (Region11.body_obligation (rd (W20 m)) c).loose)
    (fun c => by
      show (Pipeline.scopedRest (Ix := Unit) (Name := ℕ) (U := UR sig nD τ) (Lvl := ℕ) (Val := Elt F) spec11 c : sProp 𝕄) ⊢ Region11.PhiS (rd (W20 m)) c 0 (Nat.zero_le _)
      rw [Region11.PhiS_zero _ c 0 _ rfl]; rw [Pipeline.scopedRest_split_of_list (Ix := Unit) (Name := ℕ) (U := UR sig nD τ) (Lvl := ℕ) (Val := Elt F) spec11 c [cc11_scratch0] (by decide) (by decide)]
      exact .rfl)
    (fun c => by
      show Region11.PhiS (rd (W20 m)) c (Fin.last cfg11.N).val (Nat.le_of_lt_succ (Fin.last cfg11.N).isLt) ⊢ (Pipeline.scopedRest (Ix := Unit) (Name := ℕ) (U := UR sig nD τ) (Lvl := ℕ) (Val := Elt F) spec11 c : sProp 𝕄)
      rw [Pipeline.scopedRest_split_of_list (Ix := Unit) (Name := ℕ) (U := UR sig nD τ) (Lvl := ℕ) (Val := Elt F) spec11 c [cc11_scratch0] (by decide) (by decide)]
      refine (Region11.PhiS_some (rd (W20 m)) c _ _).trans (sep_mono ?_ .rfl)
      show iprop(∃ d, owns (c : Thread nD τ) Region11.mAcc fullShare d)
        ⊢ iprop(∃ f : Buf (Elt F) ((c.tc : Thread nD τ).loc cc11_scratch0), ((c.tc : Thread nD τ).loc cc11_scratch0) ↦{fullShare} f)
      simp only [owns_whole]; exact .rfl)
    (fun c w => by
      fin_cases w
      · exact ((pdats m 11 c).arrAt_in 0 rfl _).trans (W21_of_ne m c main_arg6 (by decide)).symm
      · exact ((pdats m 11 c).arrAt_in 1 rfl _).trans (W21_of_ne m c main_v58 (by decide)).symm
      · exact ((pdats m 11 c).arrAt_in 2 rfl _).trans (W21_of_ne m c main_v66 (by decide)).symm
      · exact (W21_at m c).symm)
    (fun c b hb => W21_of_ne m c b fun h => hb (h ▸ Finset.mem_image.mpr ⟨3, Finset.mem_univ _, rfl⟩))

/-! ## Region 12: its windows' arrays are `main_arg5`, `main_v60`, `main_v68`, the last one its result -/

set_option maxHeartbeats 1000000 in
def reg12 : Pipeline.RegionSeg (pcfgs (F := F)) adm (pdats m) () defs₀ Variants.none L lv 12 :=
  regOf m 12 launch12 (W21 m) (W22 m) (fun _ _ => rfl) (fun _ _ => rfl) (fun _ _ => rfl) (fun _ _ => rfl)
    (fun c => (Region12.body_obligation (rd (W21 m)) c).loose)
    (fun c => by
      show (Pipeline.scopedRest (Ix := Unit) (Name := ℕ) (U := UR sig nD τ) (Lvl := ℕ) (Val := Elt F) spec12 c : sProp 𝕄) ⊢ Region12.PhiS (rd (W21 m)) c 0 (Nat.zero_le _)
      rw [Region12.PhiS_zero _ c 0 _ rfl]; rw [Pipeline.scopedRest_split_of_list (Ix := Unit) (Name := ℕ) (U := UR sig nD τ) (Lvl := ℕ) (Val := Elt F) spec12 c [cc12_scratch0] (by decide) (by decide)]
      exact .rfl)
    (fun c => by
      show Region12.PhiS (rd (W21 m)) c (Fin.last cfg12.N).val (Nat.le_of_lt_succ (Fin.last cfg12.N).isLt) ⊢ (Pipeline.scopedRest (Ix := Unit) (Name := ℕ) (U := UR sig nD τ) (Lvl := ℕ) (Val := Elt F) spec12 c : sProp 𝕄)
      rw [Pipeline.scopedRest_split_of_list (Ix := Unit) (Name := ℕ) (U := UR sig nD τ) (Lvl := ℕ) (Val := Elt F) spec12 c [cc12_scratch0] (by decide) (by decide)]
      refine (Region12.PhiS_some (rd (W21 m)) c _ _).trans (sep_mono ?_ .rfl)
      show iprop(∃ d, owns (c : Thread nD τ) Region12.mAcc fullShare d)
        ⊢ iprop(∃ f : Buf (Elt F) ((c.tc : Thread nD τ).loc cc12_scratch0), ((c.tc : Thread nD τ).loc cc12_scratch0) ↦{fullShare} f)
      simp only [owns_whole]; exact .rfl)
    (fun c w => by
      fin_cases w
      · exact ((pdats m 12 c).arrAt_in 0 rfl _).trans (W22_of_ne m c main_arg5 (by decide)).symm
      · exact ((pdats m 12 c).arrAt_in 1 rfl _).trans (W22_of_ne m c main_v60 (by decide)).symm
      · exact (W22_at m c).symm)
    (fun c b hb => W22_of_ne m c b fun h => hb (h ▸ Finset.mem_image.mpr ⟨2, Finset.mem_univ _, rfl⟩))

/-! ## Region 13: its windows' arrays are `main_arg10`, `main_v62`, `main_v68`, `main_v69`, the last one its result -/

set_option maxHeartbeats 1000000 in
def reg13 : Pipeline.RegionSeg (pcfgs (F := F)) adm (pdats m) () defs₀ Variants.none L lv 13 :=
  regOf m 13 launch13 (W23 m) (W24 m) (fun _ _ => rfl) (fun _ _ => rfl) (fun _ _ => rfl) (fun _ _ => rfl)
    (fun c => (Region13.body_obligation (rd (W23 m)) c).loose)
    (fun c => by
      show (Pipeline.scopedRest (Ix := Unit) (Name := ℕ) (U := UR sig nD τ) (Lvl := ℕ) (Val := Elt F) spec13 c : sProp 𝕄) ⊢ Region13.PhiS (rd (W23 m)) c 0 (Nat.zero_le _)
      rw [Region13.PhiS_zero _ c 0 _ rfl]; rw [Pipeline.scopedRest_split_of_list (Ix := Unit) (Name := ℕ) (U := UR sig nD τ) (Lvl := ℕ) (Val := Elt F) spec13 c [cc13_scratch0] (by decide) (by decide)]
      exact .rfl)
    (fun c => by
      show Region13.PhiS (rd (W23 m)) c (Fin.last cfg13.N).val (Nat.le_of_lt_succ (Fin.last cfg13.N).isLt) ⊢ (Pipeline.scopedRest (Ix := Unit) (Name := ℕ) (U := UR sig nD τ) (Lvl := ℕ) (Val := Elt F) spec13 c : sProp 𝕄)
      rw [Pipeline.scopedRest_split_of_list (Ix := Unit) (Name := ℕ) (U := UR sig nD τ) (Lvl := ℕ) (Val := Elt F) spec13 c [cc13_scratch0] (by decide) (by decide)]
      refine (Region13.PhiS_some (rd (W23 m)) c _ _).trans (sep_mono ?_ .rfl)
      show iprop(∃ d, owns (c : Thread nD τ) Region13.mAcc fullShare d)
        ⊢ iprop(∃ f : Buf (Elt F) ((c.tc : Thread nD τ).loc cc13_scratch0), ((c.tc : Thread nD τ).loc cc13_scratch0) ↦{fullShare} f)
      simp only [owns_whole]; exact .rfl)
    (fun c w => by
      fin_cases w
      · exact ((pdats m 13 c).arrAt_in 0 rfl _).trans (W24_of_ne m c main_arg10 (by decide)).symm
      · exact ((pdats m 13 c).arrAt_in 1 rfl _).trans (W24_of_ne m c main_v62 (by decide)).symm
      · exact ((pdats m 13 c).arrAt_in 2 rfl _).trans (W24_of_ne m c main_v68 (by decide)).symm
      · exact (W24_at m c).symm)
    (fun c b hb => W24_of_ne m c b fun h => hb (h ▸ Finset.mem_image.mpr ⟨3, Finset.mem_univ _, rfl⟩))

end Cert.Kernel.Between

end
-- ==== Proof.Kernel.Chain.lean ====
/-
  Each region is entered from the thread state the item before it leaves and leaves the one the next item is entered from:
  the generated chain of valuations, with the regions' results at `outs`, is the chain the records are stated over.
-/
import proofs.«108146_j77455440216408_2_alg».proof.Proof.Kernel.Records

set_option maxRecDepth 16384

noncomputable section

namespace Cert.Kernel.Between

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

theorem hpre0 (c : Dev nD) : (iprop(StableHlo.held (c : Thread nD τ) (Pipeline.ucRefs τ sig) (V1 m c) ∗ Rest c) : sProp 𝕄) ⊢ (reg0 m).pre c := by rw [V1_eq]; exact .rfl
theorem hpost0 (c : Dev nD) : (reg0 m).post c ⊢ (iprop(StableHlo.held (c : Thread nD τ) (Pipeline.ucRefs τ sig) (V2 m (outs m) c) ∗ Rest c) : sProp 𝕄) := by rw [V2_eq]; exact .rfl
theorem hpre1 (c : Dev nD) : (iprop(StableHlo.held (c : Thread nD τ) (Pipeline.ucRefs τ sig) (V3 m (outs m) c) ∗ Rest c) : sProp 𝕄) ⊢ (reg1 m).pre c := by rw [V3_eq]; exact .rfl
theorem hpost1 (c : Dev nD) : (reg1 m).post c ⊢ (iprop(StableHlo.held (c : Thread nD τ) (Pipeline.ucRefs τ sig) (V4 m (outs m) c) ∗ Rest c) : sProp 𝕄) := by rw [V4_eq]; exact .rfl
theorem hpre2 (c : Dev nD) : (iprop(StableHlo.held (c : Thread nD τ) (Pipeline.ucRefs τ sig) (V4 m (outs m) c) ∗ Rest c) : sProp 𝕄) ⊢ (reg2 m).pre c := by rw [V4_eq]; exact .rfl
theorem hpost2 (c : Dev nD) : (reg2 m).post c ⊢ (iprop(StableHlo.held (c : Thread nD τ) (Pipeline.ucRefs τ sig) (V5 m (outs m) c) ∗ Rest c) : sProp 𝕄) := by rw [V5_eq]; exact .rfl
theorem hpre3 (c : Dev nD) : (iprop(StableHlo.held (c : Thread nD τ) (Pipeline.ucRefs τ sig) (V6 m (outs m) c) ∗ Rest c) : sProp 𝕄) ⊢ (reg3 m).pre c := by rw [V6_eq]; exact .rfl
theorem hpost3 (c : Dev nD) : (reg3 m).post c ⊢ (iprop(StableHlo.held (c : Thread nD τ) (Pipeline.ucRefs τ sig) (V7 m (outs m) c) ∗ Rest c) : sProp 𝕄) := by rw [V7_eq]; exact .rfl
theorem hpre4 (c : Dev nD) : (iprop(StableHlo.held (c : Thread nD τ) (Pipeline.ucRefs τ sig) (V8 m (outs m) c) ∗ Rest c) : sProp 𝕄) ⊢ (reg4 m).pre c := by rw [V8_eq]; exact .rfl
theorem hpost4 (c : Dev nD) : (reg4 m).post c ⊢ (iprop(StableHlo.held (c : Thread nD τ) (Pipeline.ucRefs τ sig) (V9 m (outs m) c) ∗ Rest c) : sProp 𝕄) := by rw [V9_eq]; exact .rfl
theorem hpre5 (c : Dev nD) : (iprop(StableHlo.held (c : Thread nD τ) (Pipeline.ucRefs τ sig) (V9 m (outs m) c) ∗ Rest c) : sProp 𝕄) ⊢ (reg5 m).pre c := by rw [V9_eq]; exact .rfl
theorem hpost5 (c : Dev nD) : (reg5 m).post c ⊢ (iprop(StableHlo.held (c : Thread nD τ) (Pipeline.ucRefs τ sig) (V10 m (outs m) c) ∗ Rest c) : sProp 𝕄) := by rw [V10_eq]; exact .rfl
theorem hpre6 (c : Dev nD) : (iprop(StableHlo.held (c : Thread nD τ) (Pipeline.ucRefs τ sig) (V11 m (outs m) c) ∗ Rest c) : sProp 𝕄) ⊢ (reg6 m).pre c := by rw [V11_eq]; exact .rfl
theorem hpost6 (c : Dev nD) : (reg6 m).post c ⊢ (iprop(StableHlo.held (c : Thread nD τ) (Pipeline.ucRefs τ sig) (V12 m (outs m) c) ∗ Rest c) : sProp 𝕄) := by rw [V12_eq]; exact .rfl
theorem hpre7 (c : Dev nD) : (iprop(StableHlo.held (c : Thread nD τ) (Pipeline.ucRefs τ sig) (V13 m (outs m) c) ∗ Rest c) : sProp 𝕄) ⊢ (reg7 m).pre c := by rw [V13_eq]; exact .rfl
theorem hpost7 (c : Dev nD) : (reg7 m).post c ⊢ (iprop(StableHlo.held (c : Thread nD τ) (Pipeline.ucRefs τ sig) (V14 m (outs m) c) ∗ Rest c) : sProp 𝕄) := by rw [V14_eq]; exact .rfl
theorem hpre8 (c : Dev nD) : (iprop(StableHlo.held (c : Thread nD τ) (Pipeline.ucRefs τ sig) (V15 m (outs m) c) ∗ Rest c) : sProp 𝕄) ⊢ (reg8 m).pre c := by rw [V15_eq]; exact .rfl
theorem hpost8 (c : Dev nD) : (reg8 m).post c ⊢ (iprop(StableHlo.held (c : Thread nD τ) (Pipeline.ucRefs τ sig) (V16 m (outs m) c) ∗ Rest c) : sProp 𝕄) := by rw [V16_eq]; exact .rfl
theorem hpre9 (c : Dev nD) : (iprop(StableHlo.held (c : Thread nD τ) (Pipeline.ucRefs τ sig) (V16 m (outs m) c) ∗ Rest c) : sProp 𝕄) ⊢ (reg9 m).pre c := by rw [V16_eq]; exact .rfl
theorem hpost9 (c : Dev nD) : (reg9 m).post c ⊢ (iprop(StableHlo.held (c : Thread nD τ) (Pipeline.ucRefs τ sig) (V17 m (outs m) c) ∗ Rest c) : sProp 𝕄) := by rw [V17_eq]; exact .rfl
theorem hpre10 (c : Dev nD) : (iprop(StableHlo.held (c : Thread nD τ) (Pipeline.ucRefs τ sig) (V18 m (outs m) c) ∗ Rest c) : sProp 𝕄) ⊢ (reg10 m).pre c := by rw [V18_eq]; exact .rfl
theorem hpost10 (c : Dev nD) : (reg10 m).post c ⊢ (iprop(StableHlo.held (c : Thread nD τ) (Pipeline.ucRefs τ sig) (V19 m (outs m) c) ∗ Rest c) : sProp 𝕄) := by rw [V19_eq]; exact .rfl
theorem hpre11 (c : Dev nD) : (iprop(StableHlo.held (c : Thread nD τ) (Pipeline.ucRefs τ sig) (V20 m (outs m) c) ∗ Rest c) : sProp 𝕄) ⊢ (reg11 m).pre c := by rw [V20_eq]; exact .rfl
theorem hpost11 (c : Dev nD) : (reg11 m).post c ⊢ (iprop(StableHlo.held (c : Thread nD τ) (Pipeline.ucRefs τ sig) (V21 m (outs m) c) ∗ Rest c) : sProp 𝕄) := by rw [V21_eq]; exact .rfl
theorem hpre12 (c : Dev nD) : (iprop(StableHlo.held (c : Thread nD τ) (Pipeline.ucRefs τ sig) (V21 m (outs m) c) ∗ Rest c) : sProp 𝕄) ⊢ (reg12 m).pre c := by rw [V21_eq]; exact .rfl
theorem hpost12 (c : Dev nD) : (reg12 m).post c ⊢ (iprop(StableHlo.held (c : Thread nD τ) (Pipeline.ucRefs τ sig) (V22 m (outs m) c) ∗ Rest c) : sProp 𝕄) := by rw [V22_eq]; exact .rfl
theorem hpre13 (c : Dev nD) : (iprop(StableHlo.held (c : Thread nD τ) (Pipeline.ucRefs τ sig) (V23 m (outs m) c) ∗ Rest c) : sProp 𝕄) ⊢ (reg13 m).pre c := by rw [V23_eq]; exact .rfl
theorem hpost13 (c : Dev nD) : (reg13 m).post c ⊢ (iprop(StableHlo.held (c : Thread nD τ) (Pipeline.ucRefs τ sig) (V24 m (outs m) c) ∗ Rest c) : sProp 𝕄) := by rw [V24_eq]; exact .rfl

end Cert.Kernel.Between

end
-- ==== Proof.Kernel.Frame.lean ====
/-
  The frame of the kernel's program as printed: from any memory with zero counters every weakly fair execution of @main terminates,
  nothing faulting, and every argument array ends holding its launch contents. It is the conditional frame over the host
  stretches given the fourteen regions' records: the regions' results at what their proof data compute (`outs`), the
  thread state between items "every unscoped buffer at the item's valuation, the generator register at some state, nothing
  owed", each region entered from the valuation before it and left at the one after it.
-/
import proofs.«108146_j77455440216408_2_alg».proof.Proof.Kernel.Chain

set_option maxRecDepth 16384

noncomputable section

namespace Cert.Kernel.Between

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L lv fun c => ?_
      iintro ⟨⟨-, HO, -, Hp, -⟩, -⟩
      imodintro
      isplitl [Hp]; · iexists _; iexact Hp
      iexists ∅; iexact HO)
    (hE14 := fun c => by iintro ⟨-, HO⟩; iexact HO)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)
    (R5 := reg5 m) (hpre5 := hpre5 m) (hpost5 := hpost5 m)
    (R6 := reg6 m) (hpre6 := hpre6 m) (hpost6 := hpost6 m)
    (R7 := reg7 m) (hpre7 := hpre7 m) (hpost7 := hpost7 m)
    (R8 := reg8 m) (hpre8 := hpre8 m) (hpost8 := hpost8 m)
    (R9 := reg9 m) (hpre9 := hpre9 m) (hpost9 := hpost9 m)
    (R10 := reg10 m) (hpre10 := hpre10 m) (hpost10 := hpost10 m)
    (R11 := reg11 m) (hpre11 := hpre11 m) (hpost11 := hpost11 m)
    (R12 := reg12 m) (hpre12 := hpre12 m) (hpost12 := hpost12 m)
    (R13 := reg13 m) (hpre13 := hpre13 m) (hpost13 := hpost13 m)

end Cert.Kernel.Between

end
-- ==== Proof.KernelIdeal.Region0.lean ====
/-
  Region 0 of @main: the nodes' up-adjacency product of the first layer, `au0 · h00` over f32[2048, 2048] · bf16[2048, 128],
  in row tiles of 1024 and ONE tile of the contraction axis (the grid is 2 × 1). Because the contraction axis has a single
  tile, every grid point is both its first and its last: the body zeroes its accumulator, adds the tile's product to it,
  and stores the accumulator into the output block, at every point. The accumulator is therefore not carried from one
  point to the next, and the region's invariant holds it at arbitrary contents.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid0.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid0.Coords) : Prop := k0_cond2 i = 1#1

theorem isFirst_all : ∀ t : Fin cfg0.N, isFirst (grid0.coords t) :=
  (by decide +kernel : ∀ t : Fin grid0.N, isFirst (grid0.coords t))
theorem isLast_all : ∀ t : Fin cfg0.N, isLast (grid0.coords t) :=
  (by decide +kernel : ∀ t : Fin grid0.N, isLast (grid0.coords t))

/-! ## The staging memrefs at a point, and the accumulator -/

abbrev mA (t : Fin cfg0.N) : Memref sig .tc .vmem S1024x2048 .f32 := win0_0.stage (cfg0.slots t 0)
abbrev hA (t : Fin cfg0.N) : (mA t).IsWhole := hstage0_0 ((cfg0.slots t 0).cast nbuf0_0)
abbrev mB (t : Fin cfg0.N) : Memref sig .tc .vmem S2048x128 .bf16 := win0_1.stage (cfg0.slots t 1)
abbrev hB (t : Fin cfg0.N) : (mB t).IsWhole := hstage0_1 ((cfg0.slots t 1).cast nbuf0_1)
abbrev mO (t : Fin cfg0.N) : Memref sig .tc .vmem S1024x128 .f32 := win0_2.stage (cfg0.slots t 2)
abbrev hO (t : Fin cfg0.N) : (mO t).IsWhole := hstage0_2 ((cfg0.slots t 2).cast nbuf0_2)
/-- The accumulator: a scoped buffer of the kernel's own, passed beside the windows. -/
abbrev mAcc : Memref sig .tc .vmem S1024x128 .f32 := Memref.whole cc0_scratch0
/-- A view through which the output block's contents are stated. -/
abbrev vO : View sig .tc .vmem S1024x128 .f32 := (Memref.whole cc0_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid0.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid0.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid0.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc0_scratch0), ((c.tc : Thread nD τ).loc cc0_scratch0) ↦{fullShare} f)
    ∗ Pipeline.scopedRestBut (Ix := Unit) (Name := ℕ) (U := UR sig nD τ) (Lvl := ℕ) (Val := Elt F) spec0 c [cc0_scratch0])

/-- The proof data: the arrays as the region finds them; after the body at point `t` each input's buffer at its block
    and the output's at what the body stored; the invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out c (grid0.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t
    = out c (grid0.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid0.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.KernelIdeal.Region1.lean ====
/-
  Region 1 of @main: the nodes' second term and their update, `sigmoid (p0 + inc1n · h10)` over f32[2048, 6144] · bf16[6144, 128],
  in row tiles of 1024 and THREE tiles of 2048 along the contraction axis (the grid is 2 × 3, the contraction coordinate
  innermost). At the first tile of a row the body copies the partial sum `p0`'s block into its accumulator; at every tile it
  adds the tile's product to the accumulator; at the last tile it stores the logistic function of the accumulator into the
  output block. The accumulator is CARRIED from one grid point to the next within a row, so the region's invariant names
  its contents after each point; the output block is stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid1.Coords) : Prop :=
  (Scalar.cmpi .ne (Scalar.extui (Scalar.cmpi .eq (BitVec.ofNat 32 (i 1).val) 0#32)) 0#32) = 1#1
/-- The contraction coordinate is the last one: the output block is stored. -/
abbrev isLast (i : grid1.Coords) : Prop := k1_cond2 i = 1#1

theorem isFirst_iff : ∀ t : Fin cfg1.N, isFirst (grid1.coords t) ↔ t.val % 3 = 0 :=
  (by decide +kernel : ∀ t : Fin grid1.N, isFirst (grid1.coords t) ↔ t.val % 3 = 0)
theorem isLast_iff : ∀ t : Fin cfg1.N, isLast (grid1.coords t) ↔ t.val % 3 = 2 :=
  (by decide +kernel : ∀ t : Fin grid1.N, isLast (grid1.coords t) ↔ t.val % 3 = 2)

/-- The output window is idle, and not written back, away from the last tile of a row; live at it. -/
theorem idle_out : ∀ t : Fin cfg1.N, ¬ t.val % 3 = 2 → cfg1.idle 3 (grid1.coords t) = true := by decide +kernel
theorem noFlush_out : ∀ t : Fin cfg1.N, ¬ t.val % 3 = 2 → (cfg1.win 3).flush t = false := by decide +kernel
theorem live_out : ∀ t : Fin cfg1.N, t.val % 3 = 2 → cfg1.idle 3 (grid1.coords t) = false := by decide +kernel
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel

/-! ## The staging memrefs at a point, and the accumulator -/

abbrev mA (t : Fin cfg1.N) : Memref sig .tc .vmem S1024x2048 .f32 := win1_0.stage (cfg1.slots t 0)
abbrev hA (t : Fin cfg1.N) : (mA t).IsWhole := hstage1_0 ((cfg1.slots t 0).cast nbuf1_0)
abbrev mB (t : Fin cfg1.N) : Memref sig .tc .vmem S6144x128 .bf16 := win1_1.stage (cfg1.slots t 1)
abbrev hB (t : Fin cfg1.N) : (mB t).IsWhole := hstage1_1 ((cfg1.slots t 1).cast nbuf1_1)
abbrev mP (t : Fin cfg1.N) : Memref sig .tc .vmem S1024x128 .f32 := win1_2.stage (cfg1.slots t 2)
abbrev hP (t : Fin cfg1.N) : (mP t).IsWhole := hstage1_2 ((cfg1.slots t 2).cast nbuf1_2)
abbrev mO (t : Fin cfg1.N) : Memref sig .tc .vmem S1024x128 .f32 := win1_3.stage (cfg1.slots t 3)
abbrev hO (t : Fin cfg1.N) : (mO t).IsWhole := hstage1_3 ((cfg1.slots t 3).cast nbuf1_3)
/-- The accumulator: a scoped buffer of the kernel's own, passed beside the windows. -/
abbrev mAcc : Memref sig .tc .vmem S1024x128 .f32 := Memref.whole cc1_scratch0
/-- Views through which the output block's and the accumulator's contents are stated. -/
abbrev vO : View sig .tc .vmem S1024x128 .f32 := (Memref.whole cc1_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid1.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S6144x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc1__mm_acc_kernel i arg2 harg2 arg3 harg3 arg4 harg4 arg5 harg5 arg6 harg6) K } := by
  refine ⟨?_, fun xi E K => ?run⟩
  case run =>
    simp only [cc1__mm_acc_kernel_eq_skeleton]; unfold cc1__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE tile of a row: the accumulator comes in at `xs`, what the tile before left. -/
noncomputable def runM (c : Dev nD) (i : grid1.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : ¬ isLast i) (x0 : Vec F S1024x2048 .f32) (x1 : Vec F S6144x128 .bf16) (x2 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare xs
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc1__mm_acc_kernel i arg2 harg2 arg3 harg3 arg4 harg4 arg5 harg5 arg6 harg6) K } := by
  refine ⟨?_, fun xi E K => ?run⟩
  case run =>
    simp only [cc1__mm_acc_kernel_eq_skeleton]; unfold cc1__mm_acc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid1.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S6144x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc1__mm_acc_kernel i arg2 harg2 arg3 harg3 arg4 harg4 arg5 harg5 arg6 harg6) K } := by
  refine ⟨?_, ?_, fun E K => ?run⟩
  case run =>
    simp only [cc1__mm_acc_kernel_eq_skeleton]; unfold cc1__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverM (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) (y : S1024x128.Idx) :
    ∃ pc ∈ (runM c i arg2 harg2 arg3 harg3 arg4 harg4 arg5 harg5 arg6 harg6 hf hl x0 x1 x2 xs).1, y ∈ pc.1.set :=
  View.cover_of_tiledL (runM c i arg2 harg2 arg3 harg3 arg4 harg4 arg5 harg5 arg6 harg6 hf hl x0 x1 x2 xs).1 S1024x128.size (by sl_kernel_rfl) y
theorem coverL (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a middle tile, -/
def accM (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 hf hl x0 x1 x2 xs).1)
/-- after a last tile; -/
def accL (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after the body at position `n`: at the first tile of a row what the first case leaves;
    at a later tile what the middle or the last case leaves over what the tile before left. -/
def accAt (c : Dev nD) : (n : ℕ) → n < cfg1.N → Vec F S1024x128 .f32
  | 0, hn =>
    let t : Fin cfg1.N := ⟨0, hn⟩
    accF c (grid1.coords t) (mA t) (hA t) (mB t) (hB t) (mP t) (hP t) (mO t) (hO t) mAcc (Memref.isWhole_whole _) ((isFirst_iff t).mpr (Nat.zero_mod _)) (fun h => by have h2 : (0 : ℕ) % 3 = 2 := (isLast_iff t).mp h; omega) (iblk V c 0 t) (iblk V c 1 t) (iblk V c 2 t)
  | n + 1, hn =>
    let t : Fin cfg1.N := ⟨n + 1, hn⟩
    if h0 : (n + 1) % 3 = 0 then
      accF c (grid1.coords t) (mA t) (hA t) (mB t) (hB t) (mP t) (hP t) (mO t) (hO t) mAcc (Memref.isWhole_whole _) ((isFirst_iff t).mpr h0) (fun h => by have h2 : (n + 1) % 3 = 2 := (isLast_iff t).mp h; omega) (iblk V c 0 t) (iblk V c 1 t) (iblk V c 2 t)
    else if h2 : (n + 1) % 3 = 2 then
      accL c (grid1.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t) (accAt c n (Nat.lt_of_succ_lt hn))
    else
      accM c (grid1.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (accAt c n (Nat.lt_of_succ_lt hn))

theorem accAt_F (c : Dev nD) (t : Fin cfg1.N) (h0 : t.val % 3 = 0) :
    accAt V c t.val t.isLt = accF c (grid1.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_M (c : Dev nD) (t : Fin cfg1.N) (h0 : ¬ t.val % 3 = 0) (h2 : ¬ t.val % 3 = 2) :
    accAt V c t.val t.isLt = accM c (grid1.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg1.N) (h0 : ¬ t.val % 3 = 0) (h2 : t.val % 3 = 2) :
    accAt V c t.val t.isLt = accL c (grid1.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the logistic function of the
    finished accumulator, as the last case stores it; elsewhere the window is idle and this is not consulted. -/
def outAt (c : Dev nD) (t : Fin cfg1.N) : Vec F S1024x128 .f32 :=
  if h2 : t.val % 3 = 2 then
    outL c (grid1.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec1 c [cc1_scratch0]

/-- The invariant before position `n`: before the first point the accumulator at anything; afterwards at what the point
    before left in it. -/
def PhiS (c : Dev nD) : (n : ℕ) → n ≤ cfg1.N → sProp 𝕄
  | 0, _ => iprop((∃ f : Buf (Elt F) ((c.tc : Thread nD τ).loc cc1_scratch0), ((c.tc : Thread nD τ).loc cc1_scratch0) ↦{fullShare} f) ∗ others c)
  | n + 1, hn => iprop(owns (c : Thread nD τ) mAcc fullShare (accAt V c n hn) ∗ others c)

theorem PhiS_zero (c : Dev nD) (n : ℕ) (h : n ≤ cfg1.N) (hz : n = 0) :
    PhiS V c n h = iprop((∃ f : Buf (Elt F) ((c.tc : Thread nD τ).loc cc1_scratch0), ((c.tc : Thread nD τ).loc cc1_scratch0) ↦{fullShare} f) ∗ others c) := by
  subst hz; rfl
theorem PhiS_succ (c : Dev nD) (n : ℕ) (hn : n < cfg1.N) :
    PhiS V c (n + 1) hn = iprop(owns (c : Thread nD τ) mAcc fullShare (accAt V c n hn) ∗ others c) := rfl
theorem PhiS_pos (c : Dev nD) (n : ℕ) (h : n ≤ cfg1.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg1.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]
theorem Phi_castSucc (c : Dev nD) (t : Fin cfg1.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 3 = 0
  · -- the first tile of a row
    have h2 : ¬ t.val % 3 = 2 := by omega
    rw [Dat.leavesExact_idle (dat V c) 3 t (idle_out t h2) (noFlush_out t h2)]
    rw [accAt_F V c t h0]
    unfold accF
    iintro ⟨HP, Ho, ⟨%d0, H0⟩, ⟨%d1, H1⟩, ⟨%d2, H2⟩, ⟨%d3, H3⟩⟩
    ihave HP' := (PhiS_some V c t.val (Nat.le_of_lt t.isLt)) $$ HP
    icases HP' with ⟨HS, Hrest⟩
    iapply ((runF c (grid1.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h2 : t.val % 3 = 2
    · -- the last tile of a row
      rw [show (dat V c).leavesExact 3 t = owns (c : Thread nD τ) (mO t) fullShare ((dat V c).after 3 t) from by
          unfold Dat.leavesExact; rw [live_out t h2], after_3]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩⟩
      iapply ((runL c (grid1.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO c _ _ _ _ _ _ _ _ _ _ _ _ _ _ _ _ _)
    · -- a middle tile of a row
      rw [Dat.leavesExact_idle (dat V c) 3 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩⟩
      iapply ((runM c (grid1.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.KernelIdeal.Region2.lean ====
/-
  Region 2 of @main: the edges' first term of the first layer, `inc1ᵀ · h01`, the incidence matrix f32[2048, 6144] read
  TRANSPOSED — blocks of 2048 × 1024 contracted along their first axis against bf16[2048, 128] — in row tiles of 1024 of the
  result and ONE tile of the contraction axis (the grid is 6 × 1). Every grid point is both the first and the last tile of its
  row: the body zeroes its accumulator, adds the block's product and stores the accumulator into the output block at every
  point; the accumulator is not carried between points and the invariant holds it at arbitrary contents.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid2.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid2.Coords) : Prop := k2_cond2 i = 1#1

theorem isFirst_all : ∀ t : Fin cfg2.N, isFirst (grid2.coords t) :=
  (by decide +kernel : ∀ t : Fin grid2.N, isFirst (grid2.coords t))
theorem isLast_all : ∀ t : Fin cfg2.N, isLast (grid2.coords t) :=
  (by decide +kernel : ∀ t : Fin grid2.N, isLast (grid2.coords t))

/-! ## The staging memrefs at a point, and the accumulator -/

abbrev mA (t : Fin cfg2.N) : Memref sig .tc .vmem S2048x1024 .f32 := win2_0.stage (cfg2.slots t 0)
abbrev hA (t : Fin cfg2.N) : (mA t).IsWhole := hstage2_0 ((cfg2.slots t 0).cast nbuf2_0)
abbrev mB (t : Fin cfg2.N) : Memref sig .tc .vmem S2048x128 .bf16 := win2_1.stage (cfg2.slots t 1)
abbrev hB (t : Fin cfg2.N) : (mB t).IsWhole := hstage2_1 ((cfg2.slots t 1).cast nbuf2_1)
abbrev mO (t : Fin cfg2.N) : Memref sig .tc .vmem S1024x128 .f32 := win2_2.stage (cfg2.slots t 2)
abbrev hO (t : Fin cfg2.N) : (mO t).IsWhole := hstage2_2 ((cfg2.slots t 2).cast nbuf2_2)
/-- The accumulator: a scoped buffer of the kernel's own, passed beside the windows. -/
abbrev mAcc : Memref sig .tc .vmem S1024x128 .f32 := Memref.whole cc2_scratch0
/-- A view through which the output block's contents are stated. -/
abbrev vO : View sig .tc .vmem S1024x128 .f32 := (Memref.whole cc2_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid2.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc2__mm_kernel_ta i arg2 harg2 arg3 harg3 arg4 harg4 arg5 harg5) K } := by
  refine ⟨?_, ?_, fun E K => ?run⟩
  case run =>
    simp only [cc2__mm_kernel_ta_eq_skeleton]; unfold cc2__mm_kernel_ta_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid2.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid2.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc2_scratch0), ((c.tc : Thread nD τ).loc cc2_scratch0) ↦{fullShare} f)
    ∗ Pipeline.scopedRestBut (Ix := Unit) (Name := ℕ) (U := UR sig nD τ) (Lvl := ℕ) (Val := Elt F) spec2 c [cc2_scratch0])

/-- The proof data: the arrays as the region finds them; after the body at point `t` each input's buffer at its block
    and the output's at what the body stored; the invariant; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out c (grid2.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t
    = out c (grid2.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel

/-! ## The body obligation -/

def bodyPre (c : Dev nD) (t : Fin cfg2.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid2.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Region2

end
-- ==== Proof.KernelIdeal.Region3.lean ====
/-
  Region 3 of @main: the edges' second term of the first layer, `p1 + (ad1 + au1) · h11` over two f32[6144, 6144] operands
  summed entry by entry and bf16[6144, 128], in row tiles of 1024 and SIX tiles of 1024 along the contraction axis (the grid is
  6 × 6, the contraction coordinate innermost). At the first tile of a row the body copies the partial sum `p1`'s block into
  its accumulator; at every tile it adds the two operand blocks, multiplies the sum by the panel's slice and adds the product
  to the accumulator; at the last tile it stores the accumulator into the output block. The accumulator is CARRIED from one
  grid point to the next within a row, so the region's invariant names its contents after each point; the output block is
  stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid3.Coords) : Prop :=
  (Scalar.cmpi .ne (Scalar.extui (Scalar.cmpi .eq (BitVec.ofNat 32 (i 1).val) 0#32)) 0#32) = 1#1
/-- The contraction coordinate is the last one: the output block is stored. -/
abbrev isLast (i : grid3.Coords) : Prop := k3_cond2 i = 1#1

theorem isFirst_iff : ∀ t : Fin cfg3.N, isFirst (grid3.coords t) ↔ t.val % 6 = 0 :=
  (by decide +kernel : ∀ t : Fin grid3.N, isFirst (grid3.coords t) ↔ t.val % 6 = 0)
theorem isLast_iff : ∀ t : Fin cfg3.N, isLast (grid3.coords t) ↔ t.val % 6 = 5 :=
  (by decide +kernel : ∀ t : Fin grid3.N, isLast (grid3.coords t) ↔ t.val % 6 = 5)

/-- The output window is idle, and not written back, away from the last tile of a row; live at it. -/
theorem idle_out : ∀ t : Fin cfg3.N, ¬ t.val % 6 = 5 → cfg3.idle 4 (grid3.coords t) = true := by decide +kernel
theorem noFlush_out : ∀ t : Fin cfg3.N, ¬ t.val % 6 = 5 → (cfg3.win 4).flush t = false := by decide +kernel
theorem live_out : ∀ t : Fin cfg3.N, t.val % 6 = 5 → cfg3.idle 4 (grid3.coords t) = false := by decide +kernel
theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel

/-! ## The staging memrefs at a point, and the accumulator -/

abbrev mA1 (t : Fin cfg3.N) : Memref sig .tc .vmem S1024x1024 .f32 := win3_0.stage (cfg3.slots t 0)
abbrev hA1 (t : Fin cfg3.N) : (mA1 t).IsWhole := hstage3_0 ((cfg3.slots t 0).cast nbuf3_0)
abbrev mA2 (t : Fin cfg3.N) : Memref sig .tc .vmem S1024x1024 .f32 := win3_1.stage (cfg3.slots t 1)
abbrev hA2 (t : Fin cfg3.N) : (mA2 t).IsWhole := hstage3_1 ((cfg3.slots t 1).cast nbuf3_1)
abbrev mB (t : Fin cfg3.N) : Memref sig .tc .vmem S6144x128 .bf16 := win3_2.stage (cfg3.slots t 2)
abbrev hB (t : Fin cfg3.N) : (mB t).IsWhole := hstage3_2 ((cfg3.slots t 2).cast nbuf3_2)
abbrev mP (t : Fin cfg3.N) : Memref sig .tc .vmem S1024x128 .f32 := win3_3.stage (cfg3.slots t 3)
abbrev hP (t : Fin cfg3.N) : (mP t).IsWhole := hstage3_3 ((cfg3.slots t 3).cast nbuf3_3)
abbrev mO (t : Fin cfg3.N) : Memref sig .tc .vmem S1024x128 .f32 := win3_4.stage (cfg3.slots t 4)
abbrev hO (t : Fin cfg3.N) : (mO t).IsWhole := hstage3_4 ((cfg3.slots t 4).cast nbuf3_4)
/-- The accumulator: a scoped buffer of the kernel's own, passed beside the windows. -/
abbrev mAcc : Memref sig .tc .vmem S1024x128 .f32 := Memref.whole cc3_scratch0
/-- Views through which the output block's and the accumulator's contents are stated. -/
abbrev vO : View sig .tc .vmem S1024x128 .f32 := (Memref.whole cc3_stg4_0 : Memref sig .tc .vmem S1024x128 .f32).view
abbrev vAcc : View sig .tc .vmem S1024x128 .f32 := mAcc.view

/-! ## The body, run in each of its three cases -/

set_option maxHeartbeats 1000000 in
/-- FIRST tile of a row: from the four input blocks and the output buffer at given contents and the accumulator at
    anything, the body returns with inputs and output buffer untouched and the accumulator at the pieces found. -/
noncomputable def runF (c : Dev nD) (i : grid3.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : isFirst i) (hl : ¬ isLast i) (x0 : Vec F S1024x1024 .f32) (x1 : Vec F S1024x1024 .f32) (x2 : Vec F S6144x128 .bf16) (x3 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc3__mm_acc_kernel_sum2 i arg2 harg2 arg3 harg3 arg4 harg4 arg5 harg5 arg6 harg6 arg7 harg7) K } := by
  refine ⟨?_, fun xi E K => ?run⟩
  case run =>
    simp only [cc3__mm_acc_kernel_sum2_eq_skeleton]; unfold cc3__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- MIDDLE tile of a row: the accumulator comes in at `xs`, what the tile before left. -/
noncomputable def runM (c : Dev nD) (i : grid3.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : ¬ isLast i) (x0 : Vec F S1024x1024 .f32) (x1 : Vec F S1024x1024 .f32) (x2 : Vec F S6144x128 .bf16) (x3 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc3__mm_acc_kernel_sum2 i arg2 harg2 arg3 harg3 arg4 harg4 arg5 harg5 arg6 harg6 arg7 harg7) K } := by
  refine ⟨?_, fun xi E K => ?run⟩
  case run =>
    simp only [cc3__mm_acc_kernel_sum2_eq_skeleton]; unfold cc3__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- LAST tile of a row: the accumulator comes in at `xs`; the output buffer, at anything, leaves at the pieces found. -/
noncomputable def runL (c : Dev nD) (i : grid3.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : isLast i) (x0 : Vec F S1024x1024 .f32) (x1 : Vec F S1024x1024 .f32) (x2 : Vec F S6144x128 .bf16) (x3 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ (∃ d, owns (c : Thread nD τ) arg6 fullShare d)
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LAcc)) -∗ K ⟨⟩))
          ⊢ wp frame (wpE (defs₀ (F := F)) Variants.none c none) E (cc3__mm_acc_kernel_sum2 i arg2 harg2 arg3 harg3 arg4 harg4 arg5 harg5 arg6 harg6 arg7 harg7) K } := by
  refine ⟨?_, ?_, fun E K => ?run⟩
  case run =>
    simp only [cc3__mm_acc_kernel_sum2_eq_skeleton]; unfold cc3__mm_acc_kernel_sum2_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

/-! ## The pieces cover their buffers; what each case leaves -/

theorem coverF (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) (y : S1024x128.Idx) :
    ∃ pc ∈ (runF c i arg2 harg2 arg3 harg3 arg4 harg4 arg5 harg5 arg6 harg6 arg7 harg7 hf hl x0 x1 x2 x3).1, y ∈ pc.1.set :=
  View.cover_of_tiledL (runF c i arg2 harg2 arg3 harg3 arg4 harg4 arg5 harg5 arg6 harg6 arg7 harg7 hf hl x0 x1 x2 x3).1 S1024x128.size (by sl_kernel_rfl) y
theorem coverM (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runM c i arg2 harg2 arg3 harg3 arg4 harg4 arg5 harg5 arg6 harg6 arg7 harg7 hf hl x0 x1 x2 x3 xs).1, y ∈ pc.1.set :=
  View.cover_of_tiledL (runM c i arg2 harg2 arg3 harg3 arg4 harg4 arg5 harg5 arg6 harg6 arg7 harg7 hf hl x0 x1 x2 x3 xs).1 S1024x128.size (by sl_kernel_rfl) y
theorem coverL (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).2.1, y ∈ pc.1.set :=
  View.cover_of_tiledL (runL c i arg2 harg2 arg3 harg3 arg4 harg4 arg5 harg5 arg6 harg6 arg7 harg7 hf hl x0 x1 x2 x3 xs).2.1 S1024x128.size (by sl_kernel_rfl) y
theorem coverO (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).1, y ∈ pc.1.set :=
  View.cover_of_tiledL (runL c i arg2 harg2 arg3 harg3 arg4 harg4 arg5 harg5 arg6 harg6 arg7 harg7 hf hl x0 x1 x2 x3 xs).1 S1024x128.size (by sl_kernel_rfl) y

/-- The accumulator after a first tile, -/
def accF (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) : Vec F S1024x128 .f32 :=
  vAcc.read (Elt F) (vAcc.writes (Elt F) vAcc.junk (runF c i arg2 harg2 arg3 harg3 arg4 harg4 arg5 harg5 arg6 harg6 arg7 harg7 hf hl x0 x1 x2 x3).1)
/-- after a middle tile, -/
def accM (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 arg7 harg7 hf hl x0 x1 x2 x3 xs).1)
/-- after a last tile; -/
def accL (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 arg7 harg7 hf hl x0 x1 x2 x3 xs).2.1)
/-- and the output block after a last tile. -/
def outL (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 arg7 harg7 hf hl x0 x1 x2 x3 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the accumulator holds after the body at position `n`: at the first tile of a row what the first case leaves;
    at a later tile what the middle or the last case leaves over what the tile before left. -/
def accAt (c : Dev nD) : (n : ℕ) → n < cfg3.N → Vec F S1024x128 .f32
  | 0, hn =>
    let t : Fin cfg3.N := ⟨0, hn⟩
    accF c (grid3.coords t) (mA1 t) (hA1 t) (mA2 t) (hA2 t) (mB t) (hB t) (mP t) (hP t) (mO t) (hO t) mAcc (Memref.isWhole_whole _) ((isFirst_iff t).mpr (Nat.zero_mod _)) (fun h => by have h2 : (0 : ℕ) % 6 = 5 := (isLast_iff t).mp h; omega) (iblk V c 0 t) (iblk V c 1 t) (iblk V c 2 t) (iblk V c 3 t)
  | n + 1, hn =>
    let t : Fin cfg3.N := ⟨n + 1, hn⟩
    if h0 : (n + 1) % 6 = 0 then
      accF c (grid3.coords t) (mA1 t) (hA1 t) (mA2 t) (hA2 t) (mB t) (hB t) (mP t) (hP t) (mO t) (hO t) mAcc (Memref.isWhole_whole _) ((isFirst_iff t).mpr h0) (fun h => by have h2 : (n + 1) % 6 = 5 := (isLast_iff t).mp h; omega) (iblk V c 0 t) (iblk V c 1 t) (iblk V c 2 t) (iblk V c 3 t)
    else if h2 : (n + 1) % 6 = 5 then
      accL c (grid3.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t) (accAt c n (Nat.lt_of_succ_lt hn))
    else
      accM c (grid3.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t) (accAt c n (Nat.lt_of_succ_lt hn))

theorem accAt_F (c : Dev nD) (t : Fin cfg3.N) (h0 : t.val % 6 = 0) :
    accAt V c t.val t.isLt = accF c (grid3.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t) := by
  obtain ⟨n, hn⟩ := t
  cases n with
  | zero => rfl
  | succ n => exact dif_pos h0

theorem accAt_M (c : Dev nD) (t : Fin cfg3.N) (h0 : ¬ t.val % 6 = 0) (h2 : ¬ t.val % 6 = 5) :
    accAt V c t.val t.isLt = accM c (grid3.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg3.N) (h0 : ¬ t.val % 6 = 0) (h2 : t.val % 6 = 5) :
    accAt V c t.val t.isLt = accL c (grid3.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg3.N) : Vec F S1024x128 .f32 :=
  if h2 : t.val % 6 = 5 then
    outL c (grid3.coords t) (mA1 t) (hA1 t) (mA2 t) (hA2 t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t) (iblk V c 3 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec3 c [cc3_scratch0]

/-- The invariant before position `n`: before the first point the accumulator at anything; afterwards at what the point
    before left in it. -/
def PhiS (c : Dev nD) : (n : ℕ) → n ≤ cfg3.N → sProp 𝕄
  | 0, _ => iprop((∃ f : Buf (Elt F) ((c.tc : Thread nD τ).loc cc3_scratch0), ((c.tc : Thread nD τ).loc cc3_scratch0) ↦{fullShare} f) ∗ others c)
  | n + 1, hn => iprop(owns (c : Thread nD τ) mAcc fullShare (accAt V c n hn) ∗ others c)

theorem PhiS_zero (c : Dev nD) (n : ℕ) (h : n ≤ cfg3.N) (hz : n = 0) :
    PhiS V c n h = iprop((∃ f : Buf (Elt F) ((c.tc : Thread nD τ).loc cc3_scratch0), ((c.tc : Thread nD τ).loc cc3_scratch0) ↦{fullShare} f) ∗ others c) := by
  subst hz; rfl
theorem PhiS_succ (c : Dev nD) (n : ℕ) (hn : n < cfg3.N) :
    PhiS V c (n + 1) hn = iprop(owns (c : Thread nD τ) mAcc fullShare (accAt V c n hn) ∗ others c) := rfl
theorem PhiS_pos (c : Dev nD) (n : ℕ) (h : n ≤ cfg3.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg3.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = outAt V c t := by dsimp only [dat]
theorem Phi_castSucc (c : Dev nD) (t : Fin cfg3.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg3.N) : sProp 𝕄 :=
  iprop((dat V c).Φ t.castSucc ∗ (dat V c).owesAt () t.castSucc
    ∗ (∃ d, owns (c : Thread nD τ) (mA1 t) fullShare ((dat V c).before 0 t d))
    ∗ (∃ d, owns (c : Thread nD τ) (mA2 t) fullShare ((dat V c).before 1 t d))
    ∗ (∃ d, owns (c : Thread nD τ) (mB t) fullShare ((dat V c).before 2 t d))
    ∗ (∃ d, owns (c : Thread nD τ) (mP t) fullShare ((dat V c).before 3 t d))
    ∗ (∃ d, owns (c : Thread nD τ) (mO t) fullShare ((dat V c).before 4 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA1 t) fullShare ((dat V c).after 0 t) from by
      unfold Dat.leavesExact; rw [live_0 t], after_0]
  rw [show (dat V c).leavesExact 1 t = owns (c : Thread nD τ) (mA2 t) fullShare ((dat V c).after 1 t) from by
      unfold Dat.leavesExact; rw [live_1 t], after_1]
  rw [show (dat V c).leavesExact 2 t = owns (c : Thread nD τ) (mB t) fullShare ((dat V c).after 2 t) from by
      unfold Dat.leavesExact; rw [live_2 t], after_2]
  rw [show (dat V c).leavesExact 3 t = owns (c : Thread nD τ) (mP t) fullShare ((dat V c).after 3 t) from by
      unfold Dat.leavesExact; rw [live_3 t], after_3]
  rw [Phi_castSucc]
  by_cases h0 : t.val % 6 = 0
  · -- the first tile of a row
    have h2 : ¬ t.val % 6 = 5 := by omega
    rw [Dat.leavesExact_idle (dat V c) 4 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩, ⟨%d4, H4⟩⟩
    ihave HP' := hsome $$ HP
    icases HP' with ⟨HS, Hrest⟩
    iapply ((runF c (grid3.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h2 : t.val % 6 = 5
    · -- the last tile of a row
      rw [show (dat V c).leavesExact 4 t = owns (c : Thread nD τ) (mO t) fullShare ((dat V c).after 4 t) from by
          unfold Dat.leavesExact; rw [live_out t h2], after_4]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩, ⟨%d4, H4⟩⟩
      iapply ((runL c (grid3.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO c _ _ _ _ _ _ _ _ _ _ _ _ _ _ _ _ _ _ _ _)
    · -- a middle tile of a row
      rw [Dat.leavesExact_idle (dat V c) 4 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩, ⟨%d4, H4⟩⟩
      iapply ((runM c (grid3.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.Region3

end
-- ==== Proof.KernelIdeal.Region4.lean ====
/-
  Region 4 of @main: the edges' third term and their update in the first layer, `sigmoid (p1 + inc2n · h21)` over
  f32[6144, 4096] · bf16[4096, 128], in row tiles of 1024 and TWO tiles of 2048 along the contraction axis (the grid is 6 × 2, the
  contraction coordinate innermost). At the first tile of a row the body copies the partial sum's block into its accumulator and
  adds the tile's product; at the second tile, the last, it adds the tile's product and stores the logistic function of the
  accumulator into the output block. The accumulator is CARRIED from the first tile to the second, so the invariant names
  its contents after each point; the output block is stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid4.Coords) : Prop :=
  (Scalar.cmpi .ne (Scalar.extui (Scalar.cmpi .eq (BitVec.ofNat 32 (i 1).val) 0#32)) 0#32) = 1#1
/-- The contraction coordinate is the last one: the output block is stored. -/
abbrev isLast (i : grid4.Coords) : Prop := k4_cond2 i = 1#1

theorem isFirst_iff : ∀ t : Fin cfg4.N, isFirst (grid4.coords t) ↔ t.val % 2 = 0 :=
  (by decide +kernel : ∀ t : Fin grid4.N, isFirst (grid4.coords t) ↔ t.val % 2 = 0)
theorem isLast_iff : ∀ t : Fin cfg4.N, isLast (grid4.coords t) ↔ t.val % 2 = 1 :=
  (by decide +kernel : ∀ t : Fin grid4.N, isLast (grid4.coords t) ↔ t.val % 2 = 1)

/-- The output window is idle, and not written back, away from the last tile of a row; live at it. -/
theorem idle_out : ∀ t : Fin cfg4.N, ¬ t.val % 2 = 1 → cfg4.idle 3 (grid4.coords t) = true := by decide +kernel
theorem noFlush_out : ∀ t : Fin cfg4.N, ¬ t.val % 2 = 1 → (cfg4.win 3).flush t = false := by decide +kernel
theorem live_out : ∀ t : Fin cfg4.N, t.val % 2 = 1 → cfg4.idle 3 (grid4.coords t) = false := by decide +kernel
theorem live_0 : ∀ t : Fin cfg4.N, cfg4.idle 0 (grid4.coords t) = false := by decide +kernel
theorem live_1 : ∀ t : Fin cfg4.N, cfg4.idle 1 (grid4.coords t) = false := by decide +kernel
theorem live_2 : ∀ t : Fin cfg4.N, cfg4.idle 2 (grid4.coords t) = false := by decide +kernel

/-! ## The staging memrefs at a point, and the accumulator -/

abbrev mA (t : Fin cfg4.N) : Memref sig .tc .vmem S1024x2048 .f32 := win4_0.stage (cfg4.slots t 0)
abbrev hA (t : Fin cfg4.N) : (mA t).IsWhole := hstage4_0 ((cfg4.slots t 0).cast nbuf4_0)
abbrev mB (t : Fin cfg4.N) : Memref sig .tc .vmem S4096x128 .bf16 := win4_1.stage (cfg4.slots t 1)
abbrev hB (t : Fin cfg4.N) : (mB t).IsWhole := hstage4_1 ((cfg4.slots t 1).cast nbuf4_1)
abbrev mP (t : Fin cfg4.N) : Memref sig .tc .vmem S1024x128 .f32 := win4_2.stage (cfg4.slots t 2)
abbrev hP (t : Fin cfg4.N) : (mP t).IsWhole := hstage4_2 ((cfg4.slots t 2).cast nbuf4_2)
abbrev mO (t : Fin cfg4.N) : Memref sig .tc .vmem S1024x128 .f32 := win4_3.stage (cfg4.slots t 3)
abbrev hO (t : Fin cfg4.N) : (mO t).IsWhole := hstage4_3 ((cfg4.slots t 3).cast nbuf4_3)
/-- The accumulator: a scoped buffer of the kernel's own, passed beside the windows. -/
abbrev mAcc : Memref sig .tc .vmem S1024x128 .f32 := Memref.whole cc4_scratch0
/-- Views through which the output block's and the accumulator's contents are stated. -/
abbrev vO : View sig .tc .vmem S1024x128 .f32 := (Memref.whole cc4_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid4.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc4__mm_acc_kernel i arg2 harg2 arg3 harg3 arg4 harg4 arg5 harg5 arg6 harg6) K } := by
  refine ⟨?_, fun xi E K => ?run⟩
  case run =>
    simp only [cc4__mm_acc_kernel_eq_skeleton]; unfold cc4__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid4.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc4__mm_acc_kernel i arg2 harg2 arg3 harg3 arg4 harg4 arg5 harg5 arg6 harg6) K } := by
  refine ⟨?_, ?_, fun E K => ?run⟩
  case run =>
    simp only [cc4__mm_acc_kernel_eq_skeleton]; unfold cc4__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds after the body at position `n`: at the first tile of a row what the first case leaves; at
    the second (and last) tile what the last case leaves over what the first tile left. -/
def accAt (c : Dev nD) : (n : ℕ) → n < cfg4.N → Vec F S1024x128 .f32
  | 0, hn =>
    let t : Fin cfg4.N := ⟨0, hn⟩
    accF c (grid4.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg4.N := ⟨n + 1, hn⟩
    if h0 : (n + 1) % 2 = 0 then
      accF c (grid4.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid4.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg4.N) (h0 : t.val % 2 = 0) :
    accAt V c t.val t.isLt = accF c (grid4.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg4.N) (h0 : ¬ t.val % 2 = 0) (h2 : t.val % 2 = 1) :
    accAt V c t.val t.isLt = accL c (grid4.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg4.N) : Vec F S1024x128 .f32 :=
  if h2 : t.val % 2 = 1 then
    outL c (grid4.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec4 c [cc4_scratch0]

/-- The invariant before position `n`: before the first point the accumulator at anything; afterwards at what the point
    before left in it. -/
def PhiS (c : Dev nD) : (n : ℕ) → n ≤ cfg4.N → sProp 𝕄
  | 0, _ => iprop((∃ f : Buf (Elt F) ((c.tc : Thread nD τ).loc cc4_scratch0), ((c.tc : Thread nD τ).loc cc4_scratch0) ↦{fullShare} f) ∗ others c)
  | n + 1, hn => iprop(owns (c : Thread nD τ) mAcc fullShare (accAt V c n hn) ∗ others c)

theorem PhiS_zero (c : Dev nD) (n : ℕ) (h : n ≤ cfg4.N) (hz : n = 0) :
    PhiS V c n h = iprop((∃ f : Buf (Elt F) ((c.tc : Thread nD τ).loc cc4_scratch0), ((c.tc : Thread nD τ).loc cc4_scratch0) ↦{fullShare} f) ∗ others c) := by
  subst hz; rfl
theorem PhiS_succ (c : Dev nD) (n : ℕ) (hn : n < cfg4.N) :
    PhiS V c (n + 1) hn = iprop(owns (c : Thread nD τ) mAcc fullShare (accAt V c n hn) ∗ others c) := rfl
theorem PhiS_pos (c : Dev nD) (n : ℕ) (h : n ≤ cfg4.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg4.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = outAt V c t := by dsimp only [dat]
theorem Phi_castSucc (c : Dev nD) (t : Fin cfg4.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg4.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg4.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg4.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg4.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid4.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid4.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W4, bigSep_W4]
  exact sound_body V c t

end Cert.KernelIdeal.Region4

end
-- ==== Proof.KernelIdeal.Region5.lean ====
/-
  Region 5 of @main: the faces' first term of the first layer, `inc2ᵀ · h12`, the incidence matrix f32[6144, 4096] read
  TRANSPOSED — blocks of 2048 × 1024 contracted along their first axis against slices of bf16[6144, 128] — in row tiles of 1024
  of the result and THREE tiles of 2048 along the contraction axis (the grid is 4 × 3, the contraction coordinate innermost).
  At the first tile of a row the body zeroes its accumulator; at every tile it adds the block's product to it; at the last
  tile it stores the accumulator into the output block. The accumulator is CARRIED from one grid point to the next within a
  row, so the region's invariant names its contents after each point; the output block is stored, and written back, at the
  last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator is zeroed. -/
abbrev isFirst (i : grid5.Coords) : Prop :=
  (Scalar.cmpi .ne (Scalar.extui (Scalar.cmpi .eq (BitVec.ofNat 32 (i 1).val) 0#32)) 0#32) = 1#1
/-- The contraction coordinate is the last one: the output block is stored. -/
abbrev isLast (i : grid5.Coords) : Prop := k5_cond2 i = 1#1

theorem isFirst_iff : ∀ t : Fin cfg5.N, isFirst (grid5.coords t) ↔ t.val % 3 = 0 :=
  (by decide +kernel : ∀ t : Fin grid5.N, isFirst (grid5.coords t) ↔ t.val % 3 = 0)
theorem isLast_iff : ∀ t : Fin cfg5.N, isLast (grid5.coords t) ↔ t.val % 3 = 2 :=
  (by decide +kernel : ∀ t : Fin grid5.N, isLast (grid5.coords t) ↔ t.val % 3 = 2)

/-- The output window is idle, and not written back, away from the last tile of a row; live at it. -/
theorem idle_out : ∀ t : Fin cfg5.N, ¬ t.val % 3 = 2 → cfg5.idle 2 (grid5.coords t) = true := by decide +kernel
theorem noFlush_out : ∀ t : Fin cfg5.N, ¬ t.val % 3 = 2 → (cfg5.win 2).flush t = false := by decide +kernel
theorem live_out : ∀ t : Fin cfg5.N, t.val % 3 = 2 → cfg5.idle 2 (grid5.coords t) = false := by decide +kernel
theorem live_0 : ∀ t : Fin cfg5.N, cfg5.idle 0 (grid5.coords t) = false := by decide +kernel
theorem live_1 : ∀ t : Fin cfg5.N, cfg5.idle 1 (grid5.coords t) = false := by decide +kernel

/-! ## The staging memrefs at a point, and the accumulator -/

abbrev mA (t : Fin cfg5.N) : Memref sig .tc .vmem S2048x1024 .f32 := win5_0.stage (cfg5.slots t 0)
abbrev hA (t : Fin cfg5.N) : (mA t).IsWhole := hstage5_0 ((cfg5.slots t 0).cast nbuf5_0)
abbrev mB (t : Fin cfg5.N) : Memref sig .tc .vmem S6144x128 .bf16 := win5_1.stage (cfg5.slots t 1)
abbrev hB (t : Fin cfg5.N) : (mB t).IsWhole := hstage5_1 ((cfg5.slots t 1).cast nbuf5_1)
abbrev mO (t : Fin cfg5.N) : Memref sig .tc .vmem S1024x128 .f32 := win5_2.stage (cfg5.slots t 2)
abbrev hO (t : Fin cfg5.N) : (mO t).IsWhole := hstage5_2 ((cfg5.slots t 2).cast nbuf5_2)
/-- The accumulator: a scoped buffer of the kernel's own, passed beside the windows. -/
abbrev mAcc : Memref sig .tc .vmem S1024x128 .f32 := Memref.whole cc5_scratch0
/-- Views through which the output block's and the accumulator's contents are stated. -/
abbrev vO : View sig .tc .vmem S1024x128 .f32 := (Memref.whole cc5_stg2_0 : Memref sig .tc .vmem S1024x128 .f32).view
abbrev vAcc : View sig .tc .vmem S1024x128 .f32 := mAcc.view

/-! ## The body, run in each of its three cases -/

set_option maxHeartbeats 1000000 in
/-- FIRST tile of a row: from the two input blocks and the output buffer at given contents and the accumulator at anything,
    the body returns with inputs and output buffer untouched and the accumulator at the pieces found. -/
noncomputable def runF (c : Dev nD) (i : grid5.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : ¬ isLast i) (x0 : Vec F S2048x1024 .f32) (x1 : Vec F S6144x128 .bf16) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc5__mm_kernel_ta i arg2 harg2 arg3 harg3 arg4 harg4 arg5 harg5) K } := by
  refine ⟨?_, fun xi E K => ?run⟩
  case run =>
    simp only [cc5__mm_kernel_ta_eq_skeleton]; unfold cc5__mm_kernel_ta_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1
    obtain rfl := harg4.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- MIDDLE tile of a row: the accumulator comes in at `xs`, what the tile before left. -/
noncomputable def runM (c : Dev nD) (i : grid5.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : ¬ isLast i) (x0 : Vec F S2048x1024 .f32) (x1 : Vec F S6144x128 .bf16) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc5__mm_kernel_ta i arg2 harg2 arg3 harg3 arg4 harg4 arg5 harg5) K } := by
  refine ⟨?_, fun xi E K => ?run⟩
  case run =>
    simp only [cc5__mm_kernel_ta_eq_skeleton]; unfold cc5__mm_kernel_ta_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1
    obtain rfl := harg4.eq_unread hf3; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- LAST tile of a row: the accumulator comes in at `xs`; the output buffer, at anything, leaves at the pieces found. -/
noncomputable def runL (c : Dev nD) (i : grid5.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : isLast i) (x0 : Vec F S2048x1024 .f32) (x1 : Vec F S6144x128 .bf16) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc5__mm_kernel_ta i arg2 harg2 arg3 harg3 arg4 harg4 arg5 harg5) K } := by
  refine ⟨?_, ?_, fun E K => ?run⟩
  case run =>
    simp only [cc5__mm_kernel_ta_eq_skeleton]; unfold cc5__mm_kernel_ta_skel
    unfold owns
    iintro ⟨⟨%f0, %hf0, H0⟩, ⟨%f1, %hf1, H1⟩, ⟨%d3, %f3, -, H3⟩, ⟨%fs, %hfs, HS⟩, Hk⟩
    obtain rfl := harg2.eq_unread hf0; obtain rfl := harg3.eq_unread hf1
    obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; iexact H3
    iexists _; iexact HS

/-! ## The pieces cover their buffers; what each case leaves -/

theorem coverF (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) (y : S1024x128.Idx) :
    ∃ pc ∈ (runF c i arg2 harg2 arg3 harg3 arg4 harg4 arg5 harg5 hf hl x0 x1).1, y ∈ pc.1.set :=
  View.cover_of_tiledL (runF c i arg2 harg2 arg3 harg3 arg4 harg4 arg5 harg5 hf hl x0 x1).1 S1024x128.size (by sl_kernel_rfl) y
theorem coverM (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) (y : S1024x128.Idx) :
    ∃ pc ∈ (runM c i arg2 harg2 arg3 harg3 arg4 harg4 arg5 harg5 hf hl x0 x1 xs).1, y ∈ pc.1.set :=
  View.cover_of_tiledL (runM c i arg2 harg2 arg3 harg3 arg4 harg4 arg5 harg5 hf hl x0 x1 xs).1 S1024x128.size (by sl_kernel_rfl) y
theorem coverL (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).2.1, y ∈ pc.1.set :=
  View.cover_of_tiledL (runL c i arg2 harg2 arg3 harg3 arg4 harg4 arg5 harg5 hf hl x0 x1 xs).2.1 S1024x128.size (by sl_kernel_rfl) y
theorem coverO (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).1, y ∈ pc.1.set :=
  View.cover_of_tiledL (runL c i arg2 harg2 arg3 harg3 arg4 harg4 arg5 harg5 hf hl x0 x1 xs).1 S1024x128.size (by sl_kernel_rfl) y

/-- The accumulator after a first tile, -/
def accF (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) : Vec F S1024x128 .f32 :=
  vAcc.read (Elt F) (vAcc.writes (Elt F) vAcc.junk (runF c i arg2 harg2 arg3 harg3 arg4 harg4 arg5 harg5 hf hl x0 x1).1)
/-- after a middle tile, -/
def accM (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) : Vec F S1024x128 .f32 :=
  vAcc.read (Elt F) (vAcc.writes (Elt F) vAcc.junk (runM c i arg2 harg2 arg3 harg3 arg4 harg4 arg5 harg5 hf hl x0 x1 xs).1)
/-- after a last tile; -/
def accL (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vAcc.read (Elt F) (vAcc.writes (Elt F) vAcc.junk (runL c i arg2 harg2 arg3 harg3 arg4 harg4 arg5 harg5 hf hl x0 x1 xs).2.1)
/-- and the output block after a last tile. -/
def outL (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vO.read (Elt F) (vO.writes (Elt F) vO.junk (runL c i arg2 harg2 arg3 harg3 arg4 harg4 arg5 harg5 hf hl x0 x1 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds after the body at position `n`: at the first tile of a row what the first case leaves;
    at a later tile what the middle or the last case leaves over what the tile before left. -/
def accAt (c : Dev nD) : (n : ℕ) → n < cfg5.N → Vec F S1024x128 .f32
  | 0, hn =>
    let t : Fin cfg5.N := ⟨0, hn⟩
    accF c (grid5.coords t) (mA t) (hA t) (mB t) (hB t) (mO t) (hO t) mAcc (Memref.isWhole_whole _) ((isFirst_iff t).mpr (Nat.zero_mod _)) (fun h => by have h2 : (0 : ℕ) % 3 = 2 := (isLast_iff t).mp h; omega) (iblk V c 0 t) (iblk V c 1 t)
  | n + 1, hn =>
    let t : Fin cfg5.N := ⟨n + 1, hn⟩
    if h0 : (n + 1) % 3 = 0 then
      accF c (grid5.coords t) (mA t) (hA t) (mB t) (hB t) (mO t) (hO t) mAcc (Memref.isWhole_whole _) ((isFirst_iff t).mpr h0) (fun h => by have h2 : (n + 1) % 3 = 2 := (isLast_iff t).mp h; omega) (iblk V c 0 t) (iblk V c 1 t)
    else if h2 : (n + 1) % 3 = 2 then
      accL c (grid5.coords t) (mA t) (hA t) (mB t) (hB t) (mO t) (hO t) mAcc (Memref.isWhole_whole _) (fun h => h0 ((isFirst_iff t).mp h)) ((isLast_iff t).mpr h2) (iblk V c 0 t) (iblk V c 1 t) (accAt c n (Nat.lt_of_succ_lt hn))
    else
      accM c (grid5.coords t) (mA t) (hA t) (mB t) (hB t) (mO t) (hO t) mAcc (Memref.isWhole_whole _) (fun h => h0 ((isFirst_iff t).mp h)) (fun h => h2 ((isLast_iff t).mp h)) (iblk V c 0 t) (iblk V c 1 t) (accAt c n (Nat.lt_of_succ_lt hn))

theorem accAt_F (c : Dev nD) (t : Fin cfg5.N) (h0 : t.val % 3 = 0) :
    accAt V c t.val t.isLt = accF c (grid5.coords t) (mA t) (hA t) (mB t) (hB t) (mO t) (hO t) mAcc (Memref.isWhole_whole _) ((isFirst_iff t).mpr h0) (fun h => by have h2 := (isLast_iff t).mp h; omega) (iblk V c 0 t) (iblk V c 1 t) := by
  obtain ⟨n, hn⟩ := t
  cases n with
  | zero => rfl
  | succ n => exact dif_pos h0

theorem accAt_M (c : Dev nD) (t : Fin cfg5.N) (h0 : ¬ t.val % 3 = 0) (h2 : ¬ t.val % 3 = 2) :
    accAt V c t.val t.isLt = accM c (grid5.coords t) (mA t) (hA t) (mB t) (hB t) (mO t) (hO t) mAcc (Memref.isWhole_whole _) (fun h => h0 ((isFirst_iff t).mp h)) (fun h => h2 ((isLast_iff t).mp h)) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg5.N) (h0 : ¬ t.val % 3 = 0) (h2 : t.val % 3 = 2) :
    accAt V c t.val t.isLt = accL c (grid5.coords t) (mA t) (hA t) (mB t) (hB t) (mO t) (hO t) mAcc (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg5.N) : Vec F S1024x128 .f32 :=
  if h2 : t.val % 3 = 2 then
    outL c (grid5.coords t) (mA t) (hA t) (mB t) (hB t) (mO t) (hO t) mAcc (Memref.isWhole_whole _) (fun h => by have h0 := (isFirst_iff t).mp h; omega) ((isLast_iff t).mpr h2) (iblk V c 0 t) (iblk V c 1 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec5 c [cc5_scratch0]

/-- The invariant before position `n`: before the first point the accumulator at anything; afterwards at what the point
    before left in it. -/
def PhiS (c : Dev nD) : (n : ℕ) → n ≤ cfg5.N → sProp 𝕄
  | 0, _ => iprop((∃ f : Buf (Elt F) ((c.tc : Thread nD τ).loc cc5_scratch0), ((c.tc : Thread nD τ).loc cc5_scratch0) ↦{fullShare} f) ∗ others c)
  | n + 1, hn => iprop(owns (c : Thread nD τ) mAcc fullShare (accAt V c n hn) ∗ others c)

theorem PhiS_zero (c : Dev nD) (n : ℕ) (h : n ≤ cfg5.N) (hz : n = 0) :
    PhiS V c n h = iprop((∃ f : Buf (Elt F) ((c.tc : Thread nD τ).loc cc5_scratch0), ((c.tc : Thread nD τ).loc cc5_scratch0) ↦{fullShare} f) ∗ others c) := by
  subst hz; rfl
theorem PhiS_succ (c : Dev nD) (n : ℕ) (hn : n < cfg5.N) :
    PhiS V c (n + 1) hn = iprop(owns (c : Thread nD τ) mAcc fullShare (accAt V c n hn) ∗ others c) := rfl
theorem PhiS_pos (c : Dev nD) (n : ℕ) (h : n ≤ cfg5.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg5.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg5.W) : (dat V c).A w = V c (Pipeline.arrRef spec5 w) := by dsimp only [dat]
theorem after_0 (c : Dev nD) (t : Fin cfg5.N) : (dat V c).after 0 t = iblk V c 0 t := by dsimp only [dat]
theorem after_1 (c : Dev nD) (t : Fin cfg5.N) : (dat V c).after 1 t = iblk V c 1 t := by dsimp only [dat]
theorem after_2 (c : Dev nD) (t : Fin cfg5.N) : (dat V c).after 2 t = outAt V c t := by dsimp only [dat]
theorem Phi_castSucc (c : Dev nD) (t : Fin cfg5.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg5.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg5.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg5.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [Phi_castSucc]
  by_cases h0 : t.val % 3 = 0
  · -- the first tile of a row
    have h2 : ¬ t.val % 3 = 2 := by omega
    rw [Dat.leavesExact_idle (dat V c) 2 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d3, H3⟩⟩
    ihave HP' := hsome $$ HP
    icases HP' with ⟨HS, Hrest⟩
    iapply ((runF c (grid5.coords t) (mA t) (hA t) (mB t) (hB t) (mO t) (hO t) mAcc (Memref.isWhole_whole _) ((isFirst_iff t).mpr h0) (fun h => by have h2 := (isLast_iff t).mp h; omega) (iblk V c 0 t) (iblk V c 1 t)).2 _ Set.univ _)
    isplitl [H0]; · iexact H0
    isplitl [H1]; · iexact H1
    isplitl [H3]; · iexact H3
    isplitl [HS]; · iexact HS
    iintro ⟨H0, H1, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _)
      iexact Hrest
    isplitl [Ho]; · iexact Ho
    isplitl [H0]; · iexact H0
    isplitl [H1]; · iexact H1
    iexists _; iexact H3
  · have hz : t.val ≠ 0 := fun h => h0 (by rw [h])
    rw [PhiS_pos V c _ _ hz]
    by_cases h2 : t.val % 3 = 2
    · -- the last tile of a row
      rw [show (dat V c).leavesExact 2 t = owns (c : Thread nD τ) (mO t) fullShare ((dat V c).after 2 t) from by
          unfold Dat.leavesExact; rw [live_out t h2], after_2]
      rw [show outAt V c t = _ from dif_pos h2]
      rw [accAt_L V c t h0 h2]
      unfold accL outL
      iintro ⟨⟨HS, Hrest⟩, Ho, ⟨%d0, H0⟩, ⟨%d1, H1⟩, ⟨%d3, H3⟩⟩
      iapply ((runL c (grid5.coords t) (mA t) (hA t) (mB t) (hB t) (mO t) (hO t) mAcc (Memref.isWhole_whole _) (fun h => h0 ((isFirst_iff t).mp h)) ((isLast_iff t).mpr h2) (iblk V c 0 t) (iblk V c 1 t)
        (accAt V c (t.val - 1) (Nat.lt_of_le_of_lt (Nat.sub_le _ _) t.isLt))).2.2 Set.univ _)
      isplitl [H0]; · iexact H0
      isplitl [H1]; · iexact H1
      isplitl [H3]; · iexists _; iexact H3
      isplitl [HS]; · iexact HS
      iintro ⟨H0, H1, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _)
        iexact Hrest
      isplitl [Ho]; · iexact Ho
      isplitl [H0]; · iexact H0
      isplitl [H1]; · iexact H1
      unfold owns; iexists _; isplitr
      swap; · iexact H3
      ipureintro; exact View.read_writes_of_cover _ _ _ _ _ (coverO c _ _ _ _ _ _ _ _ _ _ _ _ _ _)
    · -- a middle tile of a row
      rw [Dat.leavesExact_idle (dat V c) 2 t (idle_out t h2) (noFlush_out t h2)]
      rw [accAt_M V c t h0 h2]
      unfold accM
      iintro ⟨⟨HS, Hrest⟩, Ho, ⟨%d0, H0⟩, ⟨%d1, H1⟩, ⟨%d3, H3⟩⟩
      iapply ((runM c (grid5.coords t) (mA t) (hA t) (mB t) (hB t) (mO t) (hO t) mAcc (Memref.isWhole_whole _) (fun h => h0 ((isFirst_iff t).mp h)) (fun h => h2 ((isLast_iff t).mp h)) (iblk V c 0 t) (iblk V c 1 t)
        (accAt V c (t.val - 1) (Nat.lt_of_le_of_lt (Nat.sub_le _ _) t.isLt))).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _)
        iexact Hrest
      isplitl [Ho]; · iexact Ho
      isplitl [H0]; · iexact H0
      isplitl [H1]; · iexact H1
      iexists _; iexact H3

/-- The library's body obligation, at every point. -/
theorem body_obligation (c : Dev nD) : BodyObligation (dat (F := F) V c) (defs₀ (F := F)) Variants.none () Set.univ := fun t => by
  rw [bigSep_W5, bigSep_W5]
  exact sound_body V c t

end Cert.KernelIdeal.Region5

end
-- ==== Proof.KernelIdeal.Region6.lean ====
/-
  Region 6 of @main: the faces' second term and their update in the first layer, `sigmoid (p2 + ad2 · h22)` over
  f32[4096, 4096] · bf16[4096, 128], in row tiles of 1024 and TWO tiles of 2048 along the contraction axis (the grid is 4 × 2, the
  contraction coordinate innermost). At the first tile of a row the body copies the partial sum's block into its accumulator and
  adds the tile's product; at the second tile, the last, it adds the tile's product and stores the logistic function of the
  accumulator into the output block. The accumulator is CARRIED from the first tile to the second, so the invariant names
  its contents after each point; the output block is stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid6.Coords) : Prop :=
  (Scalar.cmpi .ne (Scalar.extui (Scalar.cmpi .eq (BitVec.ofNat 32 (i 1).val) 0#32)) 0#32) = 1#1
/-- The contraction coordinate is the last one: the output block is stored. -/
abbrev isLast (i : grid6.Coords) : Prop := k6_cond2 i = 1#1

theorem isFirst_iff : ∀ t : Fin cfg6.N, isFirst (grid6.coords t) ↔ t.val % 2 = 0 :=
  (by decide +kernel : ∀ t : Fin grid6.N, isFirst (grid6.coords t) ↔ t.val % 2 = 0)
theorem isLast_iff : ∀ t : Fin cfg6.N, isLast (grid6.coords t) ↔ t.val % 2 = 1 :=
  (by decide +kernel : ∀ t : Fin grid6.N, isLast (grid6.coords t) ↔ t.val % 2 = 1)

/-- The output window is idle, and not written back, away from the last tile of a row; live at it. -/
theorem idle_out : ∀ t : Fin cfg6.N, ¬ t.val % 2 = 1 → cfg6.idle 3 (grid6.coords t) = true := by decide +kernel
theorem noFlush_out : ∀ t : Fin cfg6.N, ¬ t.val % 2 = 1 → (cfg6.win 3).flush t = false := by decide +kernel
theorem live_out : ∀ t : Fin cfg6.N, t.val % 2 = 1 → cfg6.idle 3 (grid6.coords t) = false := by decide +kernel
theorem live_0 : ∀ t : Fin cfg6.N, cfg6.idle 0 (grid6.coords t) = false := by decide +kernel
theorem live_1 : ∀ t : Fin cfg6.N, cfg6.idle 1 (grid6.coords t) = false := by decide +kernel
theorem live_2 : ∀ t : Fin cfg6.N, cfg6.idle 2 (grid6.coords t) = false := by decide +kernel

/-! ## The staging memrefs at a point, and the accumulator -/

abbrev mA (t : Fin cfg6.N) : Memref sig .tc .vmem S1024x2048 .f32 := win6_0.stage (cfg6.slots t 0)
abbrev hA (t : Fin cfg6.N) : (mA t).IsWhole := hstage6_0 ((cfg6.slots t 0).cast nbuf6_0)
abbrev mB (t : Fin cfg6.N) : Memref sig .tc .vmem S4096x128 .bf16 := win6_1.stage (cfg6.slots t 1)
abbrev hB (t : Fin cfg6.N) : (mB t).IsWhole := hstage6_1 ((cfg6.slots t 1).cast nbuf6_1)
abbrev mP (t : Fin cfg6.N) : Memref sig .tc .vmem S1024x128 .f32 := win6_2.stage (cfg6.slots t 2)
abbrev hP (t : Fin cfg6.N) : (mP t).IsWhole := hstage6_2 ((cfg6.slots t 2).cast nbuf6_2)
abbrev mO (t : Fin cfg6.N) : Memref sig .tc .vmem S1024x128 .f32 := win6_3.stage (cfg6.slots t 3)
abbrev hO (t : Fin cfg6.N) : (mO t).IsWhole := hstage6_3 ((cfg6.slots t 3).cast nbuf6_3)
/-- The accumulator: a scoped buffer of the kernel's own, passed beside the windows. -/
abbrev mAcc : Memref sig .tc .vmem S1024x128 .f32 := Memref.whole cc6_scratch0
/-- Views through which the output block's and the accumulator's contents are stated. -/
abbrev vO : View sig .tc .vmem S1024x128 .f32 := (Memref.whole cc6_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid6.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc6__mm_acc_kernel i arg2 harg2 arg3 harg3 arg4 harg4 arg5 harg5 arg6 harg6) K } := by
  refine ⟨?_, fun xi E K => ?run⟩
  case run =>
    simp only [cc6__mm_acc_kernel_eq_skeleton]; unfold cc6__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid6.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc6__mm_acc_kernel i arg2 harg2 arg3 harg3 arg4 harg4 arg5 harg5 arg6 harg6) K } := by
  refine ⟨?_, ?_, fun E K => ?run⟩
  case run =>
    simp only [cc6__mm_acc_kernel_eq_skeleton]; unfold cc6__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the accumulator holds after the body at position `n`: at the first tile of a row what the first case leaves; at
    the second (and last) tile what the last case leaves over what the first tile left. -/
def accAt (c : Dev nD) : (n : ℕ) → n < cfg6.N → Vec F S1024x128 .f32
  | 0, hn =>
    let t : Fin cfg6.N := ⟨0, hn⟩
    accF c (grid6.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg6.N := ⟨n + 1, hn⟩
    if h0 : (n + 1) % 2 = 0 then
      accF c (grid6.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid6.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg6.N) (h0 : t.val % 2 = 0) :
    accAt V c t.val t.isLt = accF c (grid6.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg6.N) (h0 : ¬ t.val % 2 = 0) (h2 : t.val % 2 = 1) :
    accAt V c t.val t.isLt = accL c (grid6.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg6.N) : Vec F S1024x128 .f32 :=
  if h2 : t.val % 2 = 1 then
    outL c (grid6.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec6 c [cc6_scratch0]

/-- The invariant before position `n`: before the first point the accumulator at anything; afterwards at what the point
    before left in it. -/
def PhiS (c : Dev nD) : (n : ℕ) → n ≤ cfg6.N → sProp 𝕄
  | 0, _ => iprop((∃ f : Buf (Elt F) ((c.tc : Thread nD τ).loc cc6_scratch0), ((c.tc : Thread nD τ).loc cc6_scratch0) ↦{fullShare} f) ∗ others c)
  | n + 1, hn => iprop(owns (c : Thread nD τ) mAcc fullShare (accAt V c n hn) ∗ others c)

theorem PhiS_zero (c : Dev nD) (n : ℕ) (h : n ≤ cfg6.N) (hz : n = 0) :
    PhiS V c n h = iprop((∃ f : Buf (Elt F) ((c.tc : Thread nD τ).loc cc6_scratch0), ((c.tc : Thread nD τ).loc cc6_scratch0) ↦{fullShare} f) ∗ others c) := by
  subst hz; rfl
theorem PhiS_succ (c : Dev nD) (n : ℕ) (hn : n < cfg6.N) :
    PhiS V c (n + 1) hn = iprop(owns (c : Thread nD τ) mAcc fullShare (accAt V c n hn) ∗ others c) := rfl
theorem PhiS_pos (c : Dev nD) (n : ℕ) (h : n ≤ cfg6.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg6.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg6.W) : (dat V c).A w = V c (Pipeline.arrRef spec6 w) := by dsimp only [dat]
theorem after_0 (c : Dev nD) (t : Fin cfg6.N) : (dat V c).after 0 t = iblk V c 0 t := by dsimp only [dat]
theorem after_1 (c : Dev nD) (t : Fin cfg6.N) : (dat V c).after 1 t = iblk V c 1 t := by dsimp only [dat]
theorem after_2 (c : Dev nD) (t : Fin cfg6.N) : (dat V c).after 2 t = iblk V c 2 t := by dsimp only [dat]
theorem after_3 (c : Dev nD) (t : Fin cfg6.N) : (dat V c).after 3 t = outAt V c t := by dsimp only [dat]
theorem Phi_castSucc (c : Dev nD) (t : Fin cfg6.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg6.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg6.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg6.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg6.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid6.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid6.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W6, bigSep_W6]
  exact sound_body V c t

end Cert.KernelIdeal.Region6

end
-- ==== Proof.KernelIdeal.Region7.lean ====
/-
  Region 7 of @main: the nodes' up-adjacency product of the SECOND layer, `au0 · h00'` over f32[2048, 2048] · bf16[2048, 128]
  (the projection now taken of the first layer's node features), in row tiles of 1024 and ONE tile of the contraction axis
  (the grid is 2 × 1). Every grid point is both first and last tile of its row: the accumulator is zeroed, added to and stored
  into the output block at every point; it is not carried between points and the invariant holds it at arbitrary contents.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid7.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid7.Coords) : Prop := k7_cond2 i = 1#1

theorem isFirst_all : ∀ t : Fin cfg7.N, isFirst (grid7.coords t) :=
  (by decide +kernel : ∀ t : Fin grid7.N, isFirst (grid7.coords t))
theorem isLast_all : ∀ t : Fin cfg7.N, isLast (grid7.coords t) :=
  (by decide +kernel : ∀ t : Fin grid7.N, isLast (grid7.coords t))

/-! ## The staging memrefs at a point, and the accumulator -/

abbrev mA (t : Fin cfg7.N) : Memref sig .tc .vmem S1024x2048 .f32 := win7_0.stage (cfg7.slots t 0)
abbrev hA (t : Fin cfg7.N) : (mA t).IsWhole := hstage7_0 ((cfg7.slots t 0).cast nbuf7_0)
abbrev mB (t : Fin cfg7.N) : Memref sig .tc .vmem S2048x128 .bf16 := win7_1.stage (cfg7.slots t 1)
abbrev hB (t : Fin cfg7.N) : (mB t).IsWhole := hstage7_1 ((cfg7.slots t 1).cast nbuf7_1)
abbrev mO (t : Fin cfg7.N) : Memref sig .tc .vmem S1024x128 .f32 := win7_2.stage (cfg7.slots t 2)
abbrev hO (t : Fin cfg7.N) : (mO t).IsWhole := hstage7_2 ((cfg7.slots t 2).cast nbuf7_2)
/-- The accumulator: a scoped buffer of the kernel's own, passed beside the windows. -/
abbrev mAcc : Memref sig .tc .vmem S1024x128 .f32 := Memref.whole cc7_scratch0
/-- A view through which the output block's contents are stated. -/
abbrev vO : View sig .tc .vmem S1024x128 .f32 := (Memref.whole cc7_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid7.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc7__mm_kernel i arg2 harg2 arg3 harg3 arg4 harg4 arg5 harg5) K } := by
  refine ⟨?_, ?_, fun E K => ?run⟩
  case run =>
    simp only [cc7__mm_kernel_eq_skeleton]; unfold cc7__mm_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid7.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid7.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S1024x2048 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc7_scratch0), ((c.tc : Thread nD τ).loc cc7_scratch0) ↦{fullShare} f)
    ∗ Pipeline.scopedRestBut (Ix := Unit) (Name := ℕ) (U := UR sig nD τ) (Lvl := ℕ) (Val := Elt F) spec7 c [cc7_scratch0])

/-- The proof data: the arrays as the region finds them; after the body at point `t` each input's buffer at its block
    and the output's at what the body stored; the invariant; nothing owed; full shares. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => out c (grid7.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg7.W) : (dat V c).A w = V c (Pipeline.arrRef spec7 w) := by dsimp only [dat]
theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t
    = out c (grid7.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg7.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg7.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg7.N, cfg7.idle 0 (grid7.coords t) = false := by decide +kernel
theorem live_1 : ∀ t : Fin cfg7.N, cfg7.idle 1 (grid7.coords t) = false := by decide +kernel
theorem live_2 : ∀ t : Fin cfg7.N, cfg7.idle 2 (grid7.coords t) = false := by decide +kernel

/-! ## The body obligation -/

def bodyPre (c : Dev nD) (t : Fin cfg7.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg7.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid7.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W7, bigSep_W7]
  exact sound_body V c t

end Cert.KernelIdeal.Region7

end
-- ==== Proof.KernelIdeal.Region8.lean ====
/-
  Region 8 of @main: the nodes' second term and their update in the SECOND layer, `sigmoid (p0' + inc1n · h10')` over
  f32[2048, 6144] · bf16[6144, 128], in row tiles of 1024 and THREE tiles of 2048 along the contraction axis (the grid is 2 × 3,
  the contraction coordinate innermost). At the first tile of a row the body copies the partial sum's block into its
  accumulator; at every tile it adds the tile's product; at the last tile it stores the logistic function of the accumulator
  into the output block. The accumulator is CARRIED from one grid point to the next within a row, so the invariant names its
  contents after each point; the output block is stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid8.Coords) : Prop :=
  (Scalar.cmpi .ne (Scalar.extui (Scalar.cmpi .eq (BitVec.ofNat 32 (i 1).val) 0#32)) 0#32) = 1#1
/-- The contraction coordinate is the last one: the output block is stored. -/
abbrev isLast (i : grid8.Coords) : Prop := k8_cond2 i = 1#1

theorem isFirst_iff : ∀ t : Fin cfg8.N, isFirst (grid8.coords t) ↔ t.val % 3 = 0 :=
  (by decide +kernel : ∀ t : Fin grid8.N, isFirst (grid8.coords t) ↔ t.val % 3 = 0)
theorem isLast_iff : ∀ t : Fin cfg8.N, isLast (grid8.coords t) ↔ t.val % 3 = 2 :=
  (by decide +kernel : ∀ t : Fin grid8.N, isLast (grid8.coords t) ↔ t.val % 3 = 2)

/-- The output window is idle, and not written back, away from the last tile of a row; live at it. -/
theorem idle_out : ∀ t : Fin cfg8.N, ¬ t.val % 3 = 2 → cfg8.idle 3 (grid8.coords t) = true := by decide +kernel
theorem noFlush_out : ∀ t : Fin cfg8.N, ¬ t.val % 3 = 2 → (cfg8.win 3).flush t = false := by decide +kernel
theorem live_out : ∀ t : Fin cfg8.N, t.val % 3 = 2 → cfg8.idle 3 (grid8.coords t) = false := by decide +kernel
theorem live_0 : ∀ t : Fin cfg8.N, cfg8.idle 0 (grid8.coords t) = false := by decide +kernel
theorem live_1 : ∀ t : Fin cfg8.N, cfg8.idle 1 (grid8.coords t) = false := by decide +kernel
theorem live_2 : ∀ t : Fin cfg8.N, cfg8.idle 2 (grid8.coords t) = false := by decide +kernel

/-! ## The staging memrefs at a point, and the accumulator -/

abbrev mA (t : Fin cfg8.N) : Memref sig .tc .vmem S1024x2048 .f32 := win8_0.stage (cfg8.slots t 0)
abbrev hA (t : Fin cfg8.N) : (mA t).IsWhole := hstage8_0 ((cfg8.slots t 0).cast nbuf8_0)
abbrev mB (t : Fin cfg8.N) : Memref sig .tc .vmem S6144x128 .bf16 := win8_1.stage (cfg8.slots t 1)
abbrev hB (t : Fin cfg8.N) : (mB t).IsWhole := hstage8_1 ((cfg8.slots t 1).cast nbuf8_1)
abbrev mP (t : Fin cfg8.N) : Memref sig .tc .vmem S1024x128 .f32 := win8_2.stage (cfg8.slots t 2)
abbrev hP (t : Fin cfg8.N) : (mP t).IsWhole := hstage8_2 ((cfg8.slots t 2).cast nbuf8_2)
abbrev mO (t : Fin cfg8.N) : Memref sig .tc .vmem S1024x128 .f32 := win8_3.stage (cfg8.slots t 3)
abbrev hO (t : Fin cfg8.N) : (mO t).IsWhole := hstage8_3 ((cfg8.slots t 3).cast nbuf8_3)
/-- The accumulator: a scoped buffer of the kernel's own, passed beside the windows. -/
abbrev mAcc : Memref sig .tc .vmem S1024x128 .f32 := Memref.whole cc8_scratch0
/-- Views through which the output block's and the accumulator's contents are stated. -/
abbrev vO : View sig .tc .vmem S1024x128 .f32 := (Memref.whole cc8_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid8.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S6144x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc8__mm_acc_kernel i arg2 harg2 arg3 harg3 arg4 harg4 arg5 harg5 arg6 harg6) K } := by
  refine ⟨?_, fun xi E K => ?run⟩
  case run =>
    simp only [cc8__mm_acc_kernel_eq_skeleton]; unfold cc8__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE tile of a row: the accumulator comes in at `xs`, what the tile before left. -/
noncomputable def runM (c : Dev nD) (i : grid8.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : ¬ isLast i) (x0 : Vec F S1024x2048 .f32) (x1 : Vec F S6144x128 .bf16) (x2 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare xs
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc8__mm_acc_kernel i arg2 harg2 arg3 harg3 arg4 harg4 arg5 harg5 arg6 harg6) K } := by
  refine ⟨?_, fun xi E K => ?run⟩
  case run =>
    simp only [cc8__mm_acc_kernel_eq_skeleton]; unfold cc8__mm_acc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid8.Coords)
    (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S6144x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc8__mm_acc_kernel i arg2 harg2 arg3 harg3 arg4 harg4 arg5 harg5 arg6 harg6) K } := by
  refine ⟨?_, ?_, fun E K => ?run⟩
  case run =>
    simp only [cc8__mm_acc_kernel_eq_skeleton]; unfold cc8__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverM (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) (y : S1024x128.Idx) :
    ∃ pc ∈ (runM c i arg2 harg2 arg3 harg3 arg4 harg4 arg5 harg5 arg6 harg6 hf hl x0 x1 x2 xs).1, y ∈ pc.1.set :=
  View.cover_of_tiledL (runM c i arg2 harg2 arg3 harg3 arg4 harg4 arg5 harg5 arg6 harg6 hf hl x0 x1 x2 xs).1 S1024x128.size (by sl_kernel_rfl) y
theorem coverL (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S6144x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a middle tile, -/
def accM (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 hf hl x0 x1 x2 xs).1)
/-- after a last tile; -/
def accL (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S6144x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- What the accumulator holds after the body at position `n`: at the first tile of a row what the first case leaves;
    at a later tile what the middle or the last case leaves over what the tile before left. -/
def accAt (c : Dev nD) : (n : ℕ) → n < cfg8.N → Vec F S1024x128 .f32
  | 0, hn =>
    let t : Fin cfg8.N := ⟨0, hn⟩
    accF c (grid8.coords t) (mA t) (hA t) (mB t) (hB t) (mP t) (hP t) (mO t) (hO t) mAcc (Memref.isWhole_whole _) ((isFirst_iff t).mpr (Nat.zero_mod _)) (fun h => by have h2 : (0 : ℕ) % 3 = 2 := (isLast_iff t).mp h; omega) (iblk V c 0 t) (iblk V c 1 t) (iblk V c 2 t)
  | n + 1, hn =>
    let t : Fin cfg8.N := ⟨n + 1, hn⟩
    if h0 : (n + 1) % 3 = 0 then
      accF c (grid8.coords t) (mA t) (hA t) (mB t) (hB t) (mP t) (hP t) (mO t) (hO t) mAcc (Memref.isWhole_whole _) ((isFirst_iff t).mpr h0) (fun h => by have h2 : (n + 1) % 3 = 2 := (isLast_iff t).mp h; omega) (iblk V c 0 t) (iblk V c 1 t) (iblk V c 2 t)
    else if h2 : (n + 1) % 3 = 2 then
      accL c (grid8.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t) (accAt c n (Nat.lt_of_succ_lt hn))
    else
      accM c (grid8.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (accAt c n (Nat.lt_of_succ_lt hn))

theorem accAt_F (c : Dev nD) (t : Fin cfg8.N) (h0 : t.val % 3 = 0) :
    accAt V c t.val t.isLt = accF c (grid8.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_M (c : Dev nD) (t : Fin cfg8.N) (h0 : ¬ t.val % 3 = 0) (h2 : ¬ t.val % 3 = 2) :
    accAt V c t.val t.isLt = accM c (grid8.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg8.N) (h0 : ¬ t.val % 3 = 0) (h2 : t.val % 3 = 2) :
    accAt V c t.val t.isLt = accL c (grid8.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the logistic function of the
    finished accumulator, as the last case stores it; elsewhere the window is idle and this is not consulted. -/
def outAt (c : Dev nD) (t : Fin cfg8.N) : Vec F S1024x128 .f32 :=
  if h2 : t.val % 3 = 2 then
    outL c (grid8.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec8 c [cc8_scratch0]

/-- The invariant before position `n`: before the first point the accumulator at anything; afterwards at what the point
    before left in it. -/
def PhiS (c : Dev nD) : (n : ℕ) → n ≤ cfg8.N → sProp 𝕄
  | 0, _ => iprop((∃ f : Buf (Elt F) ((c.tc : Thread nD τ).loc cc8_scratch0), ((c.tc : Thread nD τ).loc cc8_scratch0) ↦{fullShare} f) ∗ others c)
  | n + 1, hn => iprop(owns (c : Thread nD τ) mAcc fullShare (accAt V c n hn) ∗ others c)

theorem PhiS_zero (c : Dev nD) (n : ℕ) (h : n ≤ cfg8.N) (hz : n = 0) :
    PhiS V c n h = iprop((∃ f : Buf (Elt F) ((c.tc : Thread nD τ).loc cc8_scratch0), ((c.tc : Thread nD τ).loc cc8_scratch0) ↦{fullShare} f) ∗ others c) := by
  subst hz; rfl
theorem PhiS_succ (c : Dev nD) (n : ℕ) (hn : n < cfg8.N) :
    PhiS V c (n + 1) hn = iprop(owns (c : Thread nD τ) mAcc fullShare (accAt V c n hn) ∗ others c) := rfl
theorem PhiS_pos (c : Dev nD) (n : ℕ) (h : n ≤ cfg8.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg8.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg8 c where
  A w := V c (Pipeline.arrRef spec8 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg8.W) : (dat V c).A w = V c (Pipeline.arrRef spec8 w) := by dsimp only [dat]
theorem after_0 (c : Dev nD) (t : Fin cfg8.N) : (dat V c).after 0 t = iblk V c 0 t := by dsimp only [dat]
theorem after_1 (c : Dev nD) (t : Fin cfg8.N) : (dat V c).after 1 t = iblk V c 1 t := by dsimp only [dat]
theorem after_2 (c : Dev nD) (t : Fin cfg8.N) : (dat V c).after 2 t = iblk V c 2 t := by dsimp only [dat]
theorem after_3 (c : Dev nD) (t : Fin cfg8.N) : (dat V c).after 3 t = outAt V c t := by dsimp only [dat]
theorem Phi_castSucc (c : Dev nD) (t : Fin cfg8.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg8.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg8.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg8.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg8.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg8.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 3 = 0
  · -- the first tile of a row
    have h2 : ¬ t.val % 3 = 2 := by omega
    rw [Dat.leavesExact_idle (dat V c) 3 t (idle_out t h2) (noFlush_out t h2)]
    rw [accAt_F V c t h0]
    unfold accF
    iintro ⟨HP, Ho, ⟨%d0, H0⟩, ⟨%d1, H1⟩, ⟨%d2, H2⟩, ⟨%d3, H3⟩⟩
    ihave HP' := (PhiS_some V c t.val (Nat.le_of_lt t.isLt)) $$ HP
    icases HP' with ⟨HS, Hrest⟩
    iapply ((runF c (grid8.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h2 : t.val % 3 = 2
    · -- the last tile of a row
      rw [show (dat V c).leavesExact 3 t = owns (c : Thread nD τ) (mO t) fullShare ((dat V c).after 3 t) from by
          unfold Dat.leavesExact; rw [live_out t h2], after_3]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩⟩
      iapply ((runL c (grid8.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO c _ _ _ _ _ _ _ _ _ _ _ _ _ _ _ _ _)
    · -- a middle tile of a row
      rw [Dat.leavesExact_idle (dat V c) 3 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩⟩
      iapply ((runM c (grid8.coords t) (mA t) (hA t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W8, bigSep_W8]
  exact sound_body V c t

end Cert.KernelIdeal.Region8

end
-- ==== Proof.KernelIdeal.Region9.lean ====
/-
  Region 9 of @main: the edges' first term of the SECOND layer, `inc1ᵀ · h01'`, the incidence matrix f32[2048, 6144] read
  TRANSPOSED — blocks of 2048 × 1024 contracted along their first axis against bf16[2048, 128] — in row tiles of 1024 and ONE
  tile of the contraction axis (the grid is 6 × 1). Every grid point is both first and last tile of its row; the accumulator is
  not carried between points and the invariant holds it at arbitrary contents.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions: both hold at every point of a grid whose contraction axis has one tile -/

/-- The contraction coordinate is 0: the accumulator is zeroed. -/
abbrev isFirst (i : grid9.Coords) : Prop :=
  (Scalar.cmpi .ne (Scalar.extui (Scalar.cmpi .eq (BitVec.ofNat 32 (i 1).val) 0#32)) 0#32) = 1#1
/-- The contraction coordinate is the last one: the accumulator is stored into the output block. -/
abbrev isLast (i : grid9.Coords) : Prop := k9_cond2 i = 1#1

theorem isFirst_all : ∀ t : Fin cfg9.N, isFirst (grid9.coords t) :=
  (by decide +kernel : ∀ t : Fin grid9.N, isFirst (grid9.coords t))
theorem isLast_all : ∀ t : Fin cfg9.N, isLast (grid9.coords t) :=
  (by decide +kernel : ∀ t : Fin grid9.N, isLast (grid9.coords t))

/-! ## The staging memrefs at a point, and the accumulator -/

abbrev mA (t : Fin cfg9.N) : Memref sig .tc .vmem S2048x1024 .f32 := win9_0.stage (cfg9.slots t 0)
abbrev hA (t : Fin cfg9.N) : (mA t).IsWhole := hstage9_0 ((cfg9.slots t 0).cast nbuf9_0)
abbrev mB (t : Fin cfg9.N) : Memref sig .tc .vmem S2048x128 .bf16 := win9_1.stage (cfg9.slots t 1)
abbrev hB (t : Fin cfg9.N) : (mB t).IsWhole := hstage9_1 ((cfg9.slots t 1).cast nbuf9_1)
abbrev mO (t : Fin cfg9.N) : Memref sig .tc .vmem S1024x128 .f32 := win9_2.stage (cfg9.slots t 2)
abbrev hO (t : Fin cfg9.N) : (mO t).IsWhole := hstage9_2 ((cfg9.slots t 2).cast nbuf9_2)
/-- The accumulator: a scoped buffer of the kernel's own, passed beside the windows. -/
abbrev mAcc : Memref sig .tc .vmem S1024x128 .f32 := Memref.whole cc9_scratch0
/-- A view through which the output block's contents are stated. -/
abbrev vO : View sig .tc .vmem S1024x128 .f32 := (Memref.whole cc9_stg2_0 : Memref sig .tc .vmem S1024x128 .f32).view

/-! ## The body, run once -/

set_option maxHeartbeats 1000000 in
/-- From the two input blocks at `x0`, `x1` and the output buffer and the accumulator at anything, the body runs to its
    return with the inputs untouched; what it stored into the output buffer and into the accumulator are the pieces
    the run finds (each one whole-buffer store survives). -/
noncomputable def run (c : Dev nD) (i : grid9.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc9__mm_kernel_ta i arg2 harg2 arg3 harg3 arg4 harg4 arg5 harg5) K } := by
  refine ⟨?_, ?_, fun E K => ?run⟩
  case run =>
    simp only [cc9__mm_kernel_ta_eq_skeleton]; unfold cc9__mm_kernel_ta_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-- The pieces stored into the output buffer cover it: one piece, the whole block. -/
theorem cover_out (c : Dev nD) (i : grid9.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) (y : S1024x128.Idx) :
    ∃ pc ∈ (run c i arg2 harg2 arg3 harg3 arg4 harg4 arg5 harg5 hf hl x0 x1).1, y ∈ pc.1.set :=
  View.cover_of_tiledL (run c i arg2 harg2 arg3 harg3 arg4 harg4 arg5 harg5 hf hl x0 x1).1 S1024x128.size (by sl_kernel_rfl) y

/-- What the body leaves in the output block: its pieces read back. -/
def out (c : Dev nD) (i : grid9.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : isLast i)
    (x0 : Vec F S2048x1024 .f32) (x1 : Vec F S2048x128 .bf16) : Vec F S1024x128 .f32 :=
  vO.read (Elt F) (vO.writes (Elt F) vO.junk (run c i arg2 harg2 arg3 harg3 arg4 harg4 arg5 harg5 hf hl x0 x1).1)

/-! ## The proof data, at an entry valuation `V` -/

variable (V : (c : Dev nD) → (b : Ref sig .tc) → Buf (Elt F) ((c : Thread nD τ).loc b))

/-- Window `w`'s block at point `t`, read off its array as the region finds it. -/
def iblk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The invariant between points: the accumulator at anything, and every other scoped buffer that is no staging buffer
    of this call (the other calls' staging buffers and accumulators) unopened. -/
def Phi (c : Dev nD) : sProp 𝕄 :=
  iprop((∃ f : Buf (Elt F) ((c.tc : Thread nD τ).loc cc9_scratch0), ((c.tc : Thread nD τ).loc cc9_scratch0) ↦{fullShare} f)
    ∗ Pipeline.scopedRestBut (Ix := Unit) (Name := ℕ) (U := UR sig nD τ) (Lvl := ℕ) (Val := Elt F) spec9 c [cc9_scratch0])

/-- The proof data: the arrays as the region finds them; after the body at point `t` each input's buffer at its block
    and the output's at what the body stored; the invariant; nothing owed; full shares. -/
def dat (c : Dev nD) : Dat τ (Elt F) Unit ℕ (UR sig nD τ) ℕ cfg9 c where
  A w := V c (Pipeline.arrRef spec9 w)
  after w t := match w with
    | ⟨0, _⟩ => iblk V c 0 t
    | ⟨1, _⟩ => iblk V c 1 t
    | ⟨2, _⟩ => out c (grid9.coords t) (mA t) (hA t) (mB t) (hB t) (mO t) (hO t) mAcc (Memref.isWhole_whole _) (isFirst_all t) (isLast_all t) (iblk V c 0 t) (iblk V c 1 t)
  Φ _ := Phi c
  q _ := fullShare
  owed _ := 0

theorem A_eq (c : Dev nD) (w : Fin cfg9.W) : (dat V c).A w = V c (Pipeline.arrRef spec9 w) := by dsimp only [dat]
theorem after_0 (c : Dev nD) (t : Fin cfg9.N) : (dat V c).after 0 t = iblk V c 0 t := by dsimp only [dat]
theorem after_1 (c : Dev nD) (t : Fin cfg9.N) : (dat V c).after 1 t = iblk V c 1 t := by dsimp only [dat]
theorem after_2 (c : Dev nD) (t : Fin cfg9.N) : (dat V c).after 2 t
    = out c (grid9.coords t) (mA t) (hA t) (mB t) (hB t) (mO t) (hO t) mAcc (Memref.isWhole_whole _) (isFirst_all t) (isLast_all t) (iblk V c 0 t) (iblk V c 1 t) := by
  dsimp only [dat]

/-- Each input's current staging buffer holds its block at every point, fetched there or not: where it is not fetched
    the block index has not moved and the body left the block in place. -/
theorem before_0 (c : Dev nD) (t : Fin cfg9.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg9.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- No window is idle at any point: the output is stored, and written back, at every point. -/
theorem live_0 : ∀ t : Fin cfg9.N, cfg9.idle 0 (grid9.coords t) = false := by decide +kernel
theorem live_1 : ∀ t : Fin cfg9.N, cfg9.idle 1 (grid9.coords t) = false := by decide +kernel
theorem live_2 : ∀ t : Fin cfg9.N, cfg9.idle 2 (grid9.coords t) = false := by decide +kernel

/-! ## The body obligation -/

def bodyPre (c : Dev nD) (t : Fin cfg9.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg9.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point: the inputs' buffers hold their blocks, the invariant hands over the accumulator, the run applies,
    and the accumulator goes back into the invariant at whatever it now holds. -/
theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mO t) fullShare ((dat V c).after 2 t) from by
      unfold Dat.leavesExact; rw [live_2 t], after_2]
  unfold Phi out
  iintro ⟨⟨⟨%fs, HS⟩, Hrest⟩, Ho, ⟨%d0, H0⟩, ⟨%d1, H1⟩, ⟨%d2, H2⟩⟩
  iapply ((run c (grid9.coords t) (mA t) (hA t) (mB t) (hB t) (mO t) (hO t) mAcc (Memref.isWhole_whole _) (isFirst_all t) (isLast_all t) (iblk V c 0 t) (iblk V c 1 t)).2.2 Set.univ _)
  isplitl [H0]; · iexact H0
  isplitl [H1]; · iexact H1
  isplitl [H2]; · iexists _; iexact H2
  isplitl [HS]
  · iexists fs; rw [owns_whole]; iexact HS
  iintro ⟨H0, H1, ⟨%e2, H2⟩, ⟨%es, HS⟩⟩
  isplitl [HS Hrest]
  · isplitl [HS]
    · iexists _; simp only [Memref.view_whole, View.set_whole] at *; iexact HS
    iexact Hrest
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _ _ _)

/-- The library's body obligation, at every point. -/
theorem body_obligation (c : Dev nD) : BodyObligation (dat (F := F) V c) (defs₀ (F := F)) Variants.none () Set.univ := fun t => by
  rw [bigSep_W9, bigSep_W9]
  exact sound_body V c t

end Cert.KernelIdeal.Region9

end
-- ==== Proof.KernelIdeal.Region10.lean ====
/-
  Region 10 of @main: the edges' second term of the SECOND layer, `p1' + (ad1 + au1) · h11'` over two f32[6144, 6144]
  operands summed entry by entry and bf16[6144, 128], in row tiles of 1024 and SIX tiles of 1024 along the contraction axis (the
  grid is 6 × 6, the contraction coordinate innermost). At the first tile of a row the body copies the partial sum's block into
  its accumulator; at every tile it adds the two operand blocks, multiplies the sum by the panel's slice and adds the product
  to the accumulator; at the last tile it stores the accumulator into the output block. The accumulator is CARRIED from one
  grid point to the next within a row, so the invariant names its contents after each point; the output block is stored, and
  written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid10.Coords) : Prop :=
  (Scalar.cmpi .ne (Scalar.extui (Scalar.cmpi .eq (BitVec.ofNat 32 (i 1).val) 0#32)) 0#32) = 1#1
/-- The contraction coordinate is the last one: the output block is stored. -/
abbrev isLast (i : grid10.Coords) : Prop := k10_cond2 i = 1#1

theorem isFirst_iff : ∀ t : Fin cfg10.N, isFirst (grid10.coords t) ↔ t.val % 6 = 0 :=
  (by decide +kernel : ∀ t : Fin grid10.N, isFirst (grid10.coords t) ↔ t.val % 6 = 0)
theorem isLast_iff : ∀ t : Fin cfg10.N, isLast (grid10.coords t) ↔ t.val % 6 = 5 :=
  (by decide +kernel : ∀ t : Fin grid10.N, isLast (grid10.coords t) ↔ t.val % 6 = 5)

/-- The output window is idle, and not written back, away from the last tile of a row; live at it. -/
theorem idle_out : ∀ t : Fin cfg10.N, ¬ t.val % 6 = 5 → cfg10.idle 4 (grid10.coords t) = true := by decide +kernel
theorem noFlush_out : ∀ t : Fin cfg10.N, ¬ t.val % 6 = 5 → (cfg10.win 4).flush t = false := by decide +kernel
theorem live_out : ∀ t : Fin cfg10.N, t.val % 6 = 5 → cfg10.idle 4 (grid10.coords t) = false := by decide +kernel
theorem live_0 : ∀ t : Fin cfg10.N, cfg10.idle 0 (grid10.coords t) = false := by decide +kernel
theorem live_1 : ∀ t : Fin cfg10.N, cfg10.idle 1 (grid10.coords t) = false := by decide +kernel
theorem live_2 : ∀ t : Fin cfg10.N, cfg10.idle 2 (grid10.coords t) = false := by decide +kernel
theorem live_3 : ∀ t : Fin cfg10.N, cfg10.idle 3 (grid10.coords t) = false := by decide +kernel

/-! ## The staging memrefs at a point, and the accumulator -/

abbrev mA1 (t : Fin cfg10.N) : Memref sig .tc .vmem S1024x1024 .f32 := win10_0.stage (cfg10.slots t 0)
abbrev hA1 (t : Fin cfg10.N) : (mA1 t).IsWhole := hstage10_0 ((cfg10.slots t 0).cast nbuf10_0)
abbrev mA2 (t : Fin cfg10.N) : Memref sig .tc .vmem S1024x1024 .f32 := win10_1.stage (cfg10.slots t 1)
abbrev hA2 (t : Fin cfg10.N) : (mA2 t).IsWhole := hstage10_1 ((cfg10.slots t 1).cast nbuf10_1)
abbrev mB (t : Fin cfg10.N) : Memref sig .tc .vmem S6144x128 .bf16 := win10_2.stage (cfg10.slots t 2)
abbrev hB (t : Fin cfg10.N) : (mB t).IsWhole := hstage10_2 ((cfg10.slots t 2).cast nbuf10_2)
abbrev mP (t : Fin cfg10.N) : Memref sig .tc .vmem S1024x128 .f32 := win10_3.stage (cfg10.slots t 3)
abbrev hP (t : Fin cfg10.N) : (mP t).IsWhole := hstage10_3 ((cfg10.slots t 3).cast nbuf10_3)
abbrev mO (t : Fin cfg10.N) : Memref sig .tc .vmem S1024x128 .f32 := win10_4.stage (cfg10.slots t 4)
abbrev hO (t : Fin cfg10.N) : (mO t).IsWhole := hstage10_4 ((cfg10.slots t 4).cast nbuf10_4)
/-- The accumulator: a scoped buffer of the kernel's own, passed beside the windows. -/
abbrev mAcc : Memref sig .tc .vmem S1024x128 .f32 := Memref.whole cc10_scratch0
/-- Views through which the output block's and the accumulator's contents are stated. -/
abbrev vO : View sig .tc .vmem S1024x128 .f32 := (Memref.whole cc10_stg4_0 : Memref sig .tc .vmem S1024x128 .f32).view
abbrev vAcc : View sig .tc .vmem S1024x128 .f32 := mAcc.view

/-! ## The body, run in each of its three cases -/

set_option maxHeartbeats 1000000 in
/-- FIRST tile of a row: from the four input blocks and the output buffer at given contents and the accumulator at
    anything, the body returns with inputs and output buffer untouched and the accumulator at the pieces found. -/
noncomputable def runF (c : Dev nD) (i : grid10.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : isFirst i) (hl : ¬ isLast i) (x0 : Vec F S1024x1024 .f32) (x1 : Vec F S1024x1024 .f32) (x2 : Vec F S6144x128 .bf16) (x3 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc10__mm_acc_kernel_sum2 i arg2 harg2 arg3 harg3 arg4 harg4 arg5 harg5 arg6 harg6 arg7 harg7) K } := by
  refine ⟨?_, fun xi E K => ?run⟩
  case run =>
    simp only [cc10__mm_acc_kernel_sum2_eq_skeleton]; unfold cc10__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- MIDDLE tile of a row: the accumulator comes in at `xs`, what the tile before left. -/
noncomputable def runM (c : Dev nD) (i : grid10.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : ¬ isLast i) (x0 : Vec F S1024x1024 .f32) (x1 : Vec F S1024x1024 .f32) (x2 : Vec F S6144x128 .bf16) (x3 : Vec F S1024x128 .f32) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LAcc)) -∗ K ⟨⟩))
          ⊢ wp frame (wpE (defs₀ (F := F)) Variants.none c none) E (cc10__mm_acc_kernel_sum2 i arg2 harg2 arg3 harg3 arg4 harg4 arg5 harg5 arg6 harg6 arg7 harg7) K } := by
  refine ⟨?_, fun xi E K => ?run⟩
  case run =>
    simp only [cc10__mm_acc_kernel_sum2_eq_skeleton]; unfold cc10__mm_acc_kernel_sum2_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- LAST tile of a row: the accumulator comes in at `xs`; the output buffer, at anything, leaves at the pieces found. -/
noncomputable def runL (c : Dev nD) (i : grid10.Coords)
    (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (hf : ¬ isFirst i) (hl : isLast i) (x0 : Vec F S1024x1024 .f32) (x1 : Vec F S1024x1024 .f32) (x2 : Vec F S6144x128 .bf16) (x3 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ (∃ d, owns (c : Thread nD τ) arg6 fullShare d)
            ∗ owns (c : Thread nD τ) arg7 fullShare xs
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LAcc)) -∗ K ⟨⟩))
          ⊢ wp frame (wpE (defs₀ (F := F)) Variants.none c none) E (cc10__mm_acc_kernel_sum2 i arg2 harg2 arg3 harg3 arg4 harg4 arg5 harg5 arg6 harg6 arg7 harg7) K } := by
  refine ⟨?_, ?_, fun E K => ?run⟩
  case run =>
    simp only [cc10__mm_acc_kernel_sum2_eq_skeleton]; unfold cc10__mm_acc_kernel_sum2_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

/-! ## The pieces cover their buffers; what each case leaves -/

theorem coverF (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) (y : S1024x128.Idx) :
    ∃ pc ∈ (runF c i arg2 harg2 arg3 harg3 arg4 harg4 arg5 harg5 arg6 harg6 arg7 harg7 hf hl x0 x1 x2 x3).1, y ∈ pc.1.set :=
  View.cover_of_tiledL (runF c i arg2 harg2 arg3 harg3 arg4 harg4 arg5 harg5 arg6 harg6 arg7 harg7 hf hl x0 x1 x2 x3).1 S1024x128.size (by sl_kernel_rfl) y
theorem coverM (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runM c i arg2 harg2 arg3 harg3 arg4 harg4 arg5 harg5 arg6 harg6 arg7 harg7 hf hl x0 x1 x2 x3 xs).1, y ∈ pc.1.set :=
  View.cover_of_tiledL (runM c i arg2 harg2 arg3 harg3 arg4 harg4 arg5 harg5 arg6 harg6 arg7 harg7 hf hl x0 x1 x2 x3 xs).1 S1024x128.size (by sl_kernel_rfl) y
theorem coverL (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).2.1, y ∈ pc.1.set :=
  View.cover_of_tiledL (runL c i arg2 harg2 arg3 harg3 arg4 harg4 arg5 harg5 arg6 harg6 arg7 harg7 hf hl x0 x1 x2 x3 xs).2.1 S1024x128.size (by sl_kernel_rfl) y
theorem coverO (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) (y : S1024x128.Idx) :
    ∃ pc ∈ (runL c i arg2 harg2 arg3 harg3 arg4 harg4 arg5 harg5 arg6 harg6 arg7 harg7 hf hl x0 x1 x2 x3 xs).1, y ∈ pc.1.set :=
  View.cover_of_tiledL (runL c i arg2 harg2 arg3 harg3 arg4 harg4 arg5 harg5 arg6 harg6 arg7 harg7 hf hl x0 x1 x2 x3 xs).1 S1024x128.size (by sl_kernel_rfl) y

/-- The accumulator after a first tile, -/
def accF (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i) (x0 : Vec F S1024x1024 .f32) (x1 : Vec F S1024x1024 .f32) (x2 : Vec F S6144x128 .bf16) (x3 : Vec F S1024x128 .f32) : Vec F S1024x128 .f32 :=
  vAcc.read (Elt F) (vAcc.writes (Elt F) vAcc.junk (runF c i arg2 harg2 arg3 harg3 arg4 harg4 arg5 harg5 arg6 harg6 arg7 harg7 hf hl x0 x1 x2 x3).1)
/-- after a middle tile, -/
def accM (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runM c i arg2 harg2 arg3 harg3 arg4 harg4 arg5 harg5 arg6 harg6 arg7 harg7 hf hl x0 x1 x2 x3 xs).1)
/-- after a last tile; -/
def accL (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 arg7 harg7 hf hl x0 x1 x2 x3 xs).2.1)
/-- and the output block after a last tile. -/
def outL (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i) (x0 : Vec F S1024x1024 .f32) (x1 : Vec F S1024x1024 .f32) (x2 : Vec F S6144x128 .bf16) (x3 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 arg7 harg7 hf hl x0 x1 x2 x3 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What the accumulator holds after the body at position `n`: at the first tile of a row what the first case leaves;
    at a later tile what the middle or the last case leaves over what the tile before left. -/
def accAt (c : Dev nD) : (n : ℕ) → n < cfg10.N → Vec F S1024x128 .f32
  | 0, hn =>
    let t : Fin cfg10.N := ⟨0, hn⟩
    accF c (grid10.coords t) (mA1 t) (hA1 t) (mA2 t) (hA2 t) (mB t) (hB t) (mP t) (hP t) (mO t) (hO t) mAcc (Memref.isWhole_whole _) ((isFirst_iff t).mpr (Nat.zero_mod _)) (fun h => by have h2 : (0 : ℕ) % 6 = 5 := (isLast_iff t).mp h; omega) (iblk V c 0 t) (iblk V c 1 t) (iblk V c 2 t) (iblk V c 3 t)
  | n + 1, hn =>
    let t : Fin cfg10.N := ⟨n + 1, hn⟩
    if h0 : (n + 1) % 6 = 0 then
      accF c (grid10.coords t) (mA1 t) (hA1 t) (mA2 t) (hA2 t) (mB t) (hB t) (mP t) (hP t) (mO t) (hO t) mAcc (Memref.isWhole_whole _) ((isFirst_iff t).mpr h0) (fun h => by have h2 : (n + 1) % 6 = 5 := (isLast_iff t).mp h; omega) (iblk V c 0 t) (iblk V c 1 t) (iblk V c 2 t) (iblk V c 3 t)
    else if h2 : (n + 1) % 6 = 5 then
      accL c (grid10.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t) (accAt c n (Nat.lt_of_succ_lt hn))
    else
      accM c (grid10.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t) (accAt c n (Nat.lt_of_succ_lt hn))

theorem accAt_F (c : Dev nD) (t : Fin cfg10.N) (h0 : t.val % 6 = 0) :
    accAt V c t.val t.isLt = accF c (grid10.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t) := by
  obtain ⟨n, hn⟩ := t
  cases n with
  | zero => rfl
  | succ n => exact dif_pos h0

theorem accAt_M (c : Dev nD) (t : Fin cfg10.N) (h0 : ¬ t.val % 6 = 0) (h2 : ¬ t.val % 6 = 5) :
    accAt V c t.val t.isLt = accM c (grid10.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg10.N) (h0 : ¬ t.val % 6 = 0) (h2 : t.val % 6 = 5) :
    accAt V c t.val t.isLt = accL c (grid10.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg10.N) : Vec F S1024x128 .f32 :=
  if h2 : t.val % 6 = 5 then
    outL c (grid10.coords t) (mA1 t) (hA1 t) (mA2 t) (hA2 t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t) (iblk V c 3 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec10 c [cc10_scratch0]

/-- The invariant before position `n`: before the first point the accumulator at anything; afterwards at what the point
    before left in it. -/
def PhiS (c : Dev nD) : (n : ℕ) → n ≤ cfg10.N → sProp 𝕄
  | 0, _ => iprop((∃ f : Buf (Elt F) ((c.tc : Thread nD τ).loc cc10_scratch0), ((c.tc : Thread nD τ).loc cc10_scratch0) ↦{fullShare} f) ∗ others c)
  | n + 1, hn => iprop(owns (c : Thread nD τ) mAcc fullShare (accAt V c n hn) ∗ others c)

theorem PhiS_zero (c : Dev nD) (n : ℕ) (h : n ≤ cfg10.N) (hz : n = 0) :
    PhiS V c n h = iprop((∃ f : Buf (Elt F) ((c.tc : Thread nD τ).loc cc10_scratch0), ((c.tc : Thread nD τ).loc cc10_scratch0) ↦{fullShare} f) ∗ others c) := by
  subst hz; rfl
theorem PhiS_succ (c : Dev nD) (n : ℕ) (hn : n < cfg10.N) :
    PhiS V c (n + 1) hn = iprop(owns (c : Thread nD τ) mAcc fullShare (accAt V c n hn) ∗ others c) := rfl
theorem PhiS_pos (c : Dev nD) (n : ℕ) (h : n ≤ cfg10.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg10.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg10 c where
  A w := V c (Pipeline.arrRef spec10 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg10.W) : (dat V c).A w = V c (Pipeline.arrRef spec10 w) := by dsimp only [dat]
theorem after_0 (c : Dev nD) (t : Fin cfg10.N) : (dat V c).after 0 t = iblk V c 0 t := by dsimp only [dat]
theorem after_1 (c : Dev nD) (t : Fin cfg10.N) : (dat V c).after 1 t = iblk V c 1 t := by dsimp only [dat]
theorem after_2 (c : Dev nD) (t : Fin cfg10.N) : (dat V c).after 2 t = iblk V c 2 t := by dsimp only [dat]
theorem after_3 (c : Dev nD) (t : Fin cfg10.N) : (dat V c).after 3 t = iblk V c 3 t := by dsimp only [dat]
theorem after_4 (c : Dev nD) (t : Fin cfg10.N) : (dat V c).after 4 t = outAt V c t := by dsimp only [dat]
theorem Phi_castSucc (c : Dev nD) (t : Fin cfg10.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg10.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg10.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg10.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg10.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg10.N) : sProp 𝕄 :=
  iprop((dat V c).Φ t.castSucc ∗ (dat V c).owesAt () t.castSucc
    ∗ (∃ d, owns (c : Thread nD τ) (mA1 t) fullShare ((dat V c).before 0 t d))
    ∗ (∃ d, owns (c : Thread nD τ) (mA2 t) fullShare ((dat V c).before 1 t d))
    ∗ (∃ d, owns (c : Thread nD τ) (mB t) fullShare ((dat V c).before 2 t d))
    ∗ (∃ d, owns (c : Thread nD τ) (mP t) fullShare ((dat V c).before 3 t d))
    ∗ (∃ d, owns (c : Thread nD τ) (mO t) fullShare ((dat V c).before 4 t d)))

def bodyPost (c : Dev nD) (t : Fin cfg10.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA1 t) fullShare ((dat V c).after 0 t) from by
      unfold Dat.leavesExact; rw [live_0 t], after_0]
  rw [show (dat V c).leavesExact 1 t = owns (c : Thread nD τ) (mA2 t) fullShare ((dat V c).after 1 t) from by
      unfold Dat.leavesExact; rw [live_1 t], after_1]
  rw [show (dat V c).leavesExact 2 t = owns (c : Thread nD τ) (mB t) fullShare ((dat V c).after 2 t) from by
      unfold Dat.leavesExact; rw [live_2 t], after_2]
  rw [show (dat V c).leavesExact 3 t = owns (c : Thread nD τ) (mP t) fullShare ((dat V c).after 3 t) from by
      unfold Dat.leavesExact; rw [live_3 t], after_3]
  rw [Phi_castSucc]
  by_cases h0 : t.val % 6 = 0
  · -- the first tile of a row
    have h2 : ¬ t.val % 6 = 5 := by omega
    rw [Dat.leavesExact_idle (dat V c) 4 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩, ⟨%d4, H4⟩⟩
    ihave HP' := hsome $$ HP
    icases HP' with ⟨HS, Hrest⟩
    iapply ((runF c (grid10.coords t) (mA1 t) (hA1 t) (mA2 t) (hA2 t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h2 : t.val % 6 = 5
    · -- the last tile of a row
      rw [show (dat V c).leavesExact 4 t = owns (c : Thread nD τ) (mO t) fullShare ((dat V c).after 4 t) from by
          unfold Dat.leavesExact; rw [live_out t h2], after_4]
      rw [show outAt V c t = _ from dif_pos h2]
      rw [accAt_L V c t h0 h2]
      unfold accL outL
      iintro ⟨⟨HS, Hrest⟩, Ho, ⟨%d0, H0⟩, ⟨%d1, H1⟩, ⟨%d2, H2⟩, ⟨%d3, H3⟩, ⟨%d4, H4⟩⟩
      iapply ((runL c (grid10.coords t) (mA1 t) (hA1 t) (mA2 t) (hA2 t) (mB t) (hB t) (mP t) (hP t) (mO t) (hO t) mAcc (Memref.isWhole_whole _) (fun h => h0 ((isFirst_iff t).mp h)) ((isLast_iff t).mpr h2) (iblk V c 0 t) (iblk V c 1 t) (iblk V c 2 t) (iblk V c 3 t)
        (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO c _ _ _ _ _ _ _ _ _ _ _ _ _ _ _ _ _ _ _ _)
    · -- a middle tile of a row
      rw [Dat.leavesExact_idle (dat V c) 4 t (idle_out t h2) (noFlush_out t h2)]
      rw [accAt_M V c t h0 h2]
      unfold accM
      iintro ⟨⟨HS, Hrest⟩, Ho, ⟨%d0, H0⟩, ⟨%d1, H1⟩, ⟨%d2, H2⟩, ⟨%d3, H3⟩, ⟨%d4, H4⟩⟩
      iapply ((runM c (grid10.coords t) (mA1 t) (hA1 t) (mA2 t) (hA2 t) (mB t) (hB t) (mP t) (hP t) (mO t) (hO t) mAcc (Memref.isWhole_whole _) (fun h => h0 ((isFirst_iff t).mp h)) (fun h => h2 ((isLast_iff t).mp h)) (iblk V c 0 t) (iblk V c 1 t) (iblk V c 2 t) (iblk V c 3 t)
        (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W10, bigSep_W10]
  exact sound_body V c t

end Cert.KernelIdeal.Region10

end
-- ==== Proof.KernelIdeal.Region11.lean ====
/-
  Region 11 of @main: the edges' third term and their update in the SECOND layer, `sigmoid (p1' + inc2n · h21')` over
  f32[6144, 4096] · bf16[4096, 128], in row tiles of 1024 and TWO tiles of 2048 along the contraction axis (the grid is 6 × 2, the
  contraction coordinate innermost). First tile: the partial sum's block is copied into the accumulator and the tile's product
  added; second (last) tile: the product is added and the logistic function of the accumulator stored into the output block.
  The accumulator is CARRIED from the first tile to the second, so the invariant names its contents after each point; the
  output block is stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid11.Coords) : Prop :=
  (Scalar.cmpi .ne (Scalar.extui (Scalar.cmpi .eq (BitVec.ofNat 32 (i 1).val) 0#32)) 0#32) = 1#1
/-- The contraction coordinate is the last one: the output block is stored. -/
abbrev isLast (i : grid11.Coords) : Prop := k11_cond2 i = 1#1

theorem isFirst_iff : ∀ t : Fin cfg11.N, isFirst (grid11.coords t) ↔ t.val % 2 = 0 :=
  (by decide +kernel : ∀ t : Fin grid11.N, isFirst (grid11.coords t) ↔ t.val % 2 = 0)
theorem isLast_iff : ∀ t : Fin cfg11.N, isLast (grid11.coords t) ↔ t.val % 2 = 1 :=
  (by decide +kernel : ∀ t : Fin grid11.N, isLast (grid11.coords t) ↔ t.val % 2 = 1)

/-- The output window is idle, and not written back, away from the last tile of a row; live at it. -/
theorem idle_out : ∀ t : Fin cfg11.N, ¬ t.val % 2 = 1 → cfg11.idle 3 (grid11.coords t) = true := by decide +kernel
theorem noFlush_out : ∀ t : Fin cfg11.N, ¬ t.val % 2 = 1 → (cfg11.win 3).flush t = false := by decide +kernel
theorem live_out : ∀ t : Fin cfg11.N, t.val % 2 = 1 → cfg11.idle 3 (grid11.coords t) = false := by decide +kernel
theorem live_0 : ∀ t : Fin cfg11.N, cfg11.idle 0 (grid11.coords t) = false := by decide +kernel
theorem live_1 : ∀ t : Fin cfg11.N, cfg11.idle 1 (grid11.coords t) = false := by decide +kernel
theorem live_2 : ∀ t : Fin cfg11.N, cfg11.idle 2 (grid11.coords t) = false := by decide +kernel

/-! ## The staging memrefs at a point, and the accumulator -/

abbrev mA (t : Fin cfg11.N) : Memref sig .tc .vmem S1024x2048 .f32 := win11_0.stage (cfg11.slots t 0)
abbrev hA (t : Fin cfg11.N) : (mA t).IsWhole := hstage11_0 ((cfg11.slots t 0).cast nbuf11_0)
abbrev mB (t : Fin cfg11.N) : Memref sig .tc .vmem S4096x128 .bf16 := win11_1.stage (cfg11.slots t 1)
abbrev hB (t : Fin cfg11.N) : (mB t).IsWhole := hstage11_1 ((cfg11.slots t 1).cast nbuf11_1)
abbrev mP (t : Fin cfg11.N) : Memref sig .tc .vmem S1024x128 .f32 := win11_2.stage (cfg11.slots t 2)
abbrev hP (t : Fin cfg11.N) : (mP t).IsWhole := hstage11_2 ((cfg11.slots t 2).cast nbuf11_2)
abbrev mO (t : Fin cfg11.N) : Memref sig .tc .vmem S1024x128 .f32 := win11_3.stage (cfg11.slots t 3)
abbrev hO (t : Fin cfg11.N) : (mO t).IsWhole := hstage11_3 ((cfg11.slots t 3).cast nbuf11_3)
/-- The accumulator: a scoped buffer of the kernel's own, passed beside the windows. -/
abbrev mAcc : Memref sig .tc .vmem S1024x128 .f32 := Memref.whole cc11_scratch0
/-- Views through which the output block's and the accumulator's contents are stated. -/
abbrev vO : View sig .tc .vmem S1024x128 .f32 := (Memref.whole cc11_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid11.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc11__mm_acc_kernel i arg2 harg2 arg3 harg3 arg4 harg4 arg5 harg5 arg6 harg6) K } := by
  refine ⟨?_, fun xi E K => ?run⟩
  case run =>
    simp only [cc11__mm_acc_kernel_eq_skeleton]; unfold cc11__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid11.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc11__mm_acc_kernel i arg2 harg2 arg3 harg3 arg4 harg4 arg5 harg5 arg6 harg6) K } := by
  refine ⟨?_, ?_, fun E K => ?run⟩
  case run =>
    simp only [cc11__mm_acc_kernel_eq_skeleton]; unfold cc11__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- What the accumulator holds after the body at position `n`: at the first tile of a row what the first case leaves; at
    the second (and last) tile what the last case leaves over what the first tile left. -/
def accAt (c : Dev nD) : (n : ℕ) → n < cfg11.N → Vec F S1024x128 .f32
  | 0, hn =>
    let t : Fin cfg11.N := ⟨0, hn⟩
    accF c (grid11.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg11.N := ⟨n + 1, hn⟩
    if h0 : (n + 1) % 2 = 0 then
      accF c (grid11.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid11.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg11.N) (h0 : t.val % 2 = 0) :
    accAt V c t.val t.isLt = accF c (grid11.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg11.N) (h0 : ¬ t.val % 2 = 0) (h2 : t.val % 2 = 1) :
    accAt V c t.val t.isLt = accL c (grid11.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg11.N) : Vec F S1024x128 .f32 :=
  if h2 : t.val % 2 = 1 then
    outL c (grid11.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec11 c [cc11_scratch0]

/-- The invariant before position `n`: before the first point the accumulator at anything; afterwards at what the point
    before left in it. -/
def PhiS (c : Dev nD) : (n : ℕ) → n ≤ cfg11.N → sProp 𝕄
  | 0, _ => iprop((∃ f : Buf (Elt F) ((c.tc : Thread nD τ).loc cc11_scratch0), ((c.tc : Thread nD τ).loc cc11_scratch0) ↦{fullShare} f) ∗ others c)
  | n + 1, hn => iprop(owns (c : Thread nD τ) mAcc fullShare (accAt V c n hn) ∗ others c)

theorem PhiS_zero (c : Dev nD) (n : ℕ) (h : n ≤ cfg11.N) (hz : n = 0) :
    PhiS V c n h = iprop((∃ f : Buf (Elt F) ((c.tc : Thread nD τ).loc cc11_scratch0), ((c.tc : Thread nD τ).loc cc11_scratch0) ↦{fullShare} f) ∗ others c) := by
  subst hz; rfl
theorem PhiS_succ (c : Dev nD) (n : ℕ) (hn : n < cfg11.N) :
    PhiS V c (n + 1) hn = iprop(owns (c : Thread nD τ) mAcc fullShare (accAt V c n hn) ∗ others c) := rfl
theorem PhiS_pos (c : Dev nD) (n : ℕ) (h : n ≤ cfg11.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg11.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg11 c where
  A w := V c (Pipeline.arrRef spec11 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg11.W) : (dat V c).A w = V c (Pipeline.arrRef spec11 w) := by dsimp only [dat]
theorem after_0 (c : Dev nD) (t : Fin cfg11.N) : (dat V c).after 0 t = iblk V c 0 t := by dsimp only [dat]
theorem after_1 (c : Dev nD) (t : Fin cfg11.N) : (dat V c).after 1 t = iblk V c 1 t := by dsimp only [dat]
theorem after_2 (c : Dev nD) (t : Fin cfg11.N) : (dat V c).after 2 t = iblk V c 2 t := by dsimp only [dat]
theorem after_3 (c : Dev nD) (t : Fin cfg11.N) : (dat V c).after 3 t = outAt V c t := by dsimp only [dat]
theorem Phi_castSucc (c : Dev nD) (t : Fin cfg11.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg11.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg11.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg11.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg11.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg11.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid11.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid11.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W11, bigSep_W11]
  exact sound_body V c t

end Cert.KernelIdeal.Region11

end
-- ==== Proof.KernelIdeal.Region12.lean ====
/-
  Region 12 of @main: the faces' first term of the SECOND layer, `inc2ᵀ · h12'`, the incidence matrix f32[6144, 4096] read
  TRANSPOSED — blocks of 2048 × 1024 contracted along their first axis against slices of bf16[6144, 128] — in row tiles of 1024
  and THREE tiles of 2048 along the contraction axis (the grid is 4 × 3, the contraction coordinate innermost). At the first
  tile of a row the body zeroes its accumulator; at every tile it adds the block's product; at the last tile it stores the
  accumulator into the output block. The accumulator is CARRIED from one grid point to the next within a row, so the invariant
  names its contents after each point; the output block is stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator is zeroed. -/
abbrev isFirst (i : grid12.Coords) : Prop :=
  (Scalar.cmpi .ne (Scalar.extui (Scalar.cmpi .eq (BitVec.ofNat 32 (i 1).val) 0#32)) 0#32) = 1#1
/-- The contraction coordinate is the last one: the output block is stored. -/
abbrev isLast (i : grid12.Coords) : Prop := k12_cond2 i = 1#1

theorem isFirst_iff : ∀ t : Fin cfg12.N, isFirst (grid12.coords t) ↔ t.val % 3 = 0 :=
  (by decide +kernel : ∀ t : Fin grid12.N, isFirst (grid12.coords t) ↔ t.val % 3 = 0)
theorem isLast_iff : ∀ t : Fin cfg12.N, isLast (grid12.coords t) ↔ t.val % 3 = 2 :=
  (by decide +kernel : ∀ t : Fin grid12.N, isLast (grid12.coords t) ↔ t.val % 3 = 2)

/-- The output window is idle, and not written back, away from the last tile of a row; live at it. -/
theorem idle_out : ∀ t : Fin cfg12.N, ¬ t.val % 3 = 2 → cfg12.idle 2 (grid12.coords t) = true := by decide +kernel
theorem noFlush_out : ∀ t : Fin cfg12.N, ¬ t.val % 3 = 2 → (cfg12.win 2).flush t = false := by decide +kernel
theorem live_out : ∀ t : Fin cfg12.N, t.val % 3 = 2 → cfg12.idle 2 (grid12.coords t) = false := by decide +kernel
theorem live_0 : ∀ t : Fin cfg12.N, cfg12.idle 0 (grid12.coords t) = false := by decide +kernel
theorem live_1 : ∀ t : Fin cfg12.N, cfg12.idle 1 (grid12.coords t) = false := by decide +kernel

/-! ## The staging memrefs at a point, and the accumulator -/

abbrev mA (t : Fin cfg12.N) : Memref sig .tc .vmem S2048x1024 .f32 := win12_0.stage (cfg12.slots t 0)
abbrev hA (t : Fin cfg12.N) : (mA t).IsWhole := hstage12_0 ((cfg12.slots t 0).cast nbuf12_0)
abbrev mB (t : Fin cfg12.N) : Memref sig .tc .vmem S6144x128 .bf16 := win12_1.stage (cfg12.slots t 1)
abbrev hB (t : Fin cfg12.N) : (mB t).IsWhole := hstage12_1 ((cfg12.slots t 1).cast nbuf12_1)
abbrev mO (t : Fin cfg12.N) : Memref sig .tc .vmem S1024x128 .f32 := win12_2.stage (cfg12.slots t 2)
abbrev hO (t : Fin cfg12.N) : (mO t).IsWhole := hstage12_2 ((cfg12.slots t 2).cast nbuf12_2)
/-- The accumulator: a scoped buffer of the kernel's own, passed beside the windows. -/
abbrev mAcc : Memref sig .tc .vmem S1024x128 .f32 := Memref.whole cc12_scratch0
/-- Views through which the output block's and the accumulator's contents are stated. -/
abbrev vO : View sig .tc .vmem S1024x128 .f32 := (Memref.whole cc12_stg2_0 : Memref sig .tc .vmem S1024x128 .f32).view
abbrev vAcc : View sig .tc .vmem S1024x128 .f32 := mAcc.view

/-! ## The body, run in each of its three cases -/

set_option maxHeartbeats 1000000 in
/-- FIRST tile of a row: from the two input blocks and the output buffer at given contents and the accumulator at anything,
    the body returns with inputs and output buffer untouched and the accumulator at the pieces found. -/
noncomputable def runF (c : Dev nD) (i : grid12.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : isFirst i) (hl : ¬ isLast i) (x0 : Vec F S2048x1024 .f32) (x1 : Vec F S6144x128 .bf16) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc12__mm_kernel_ta i arg2 harg2 arg3 harg3 arg4 harg4 arg5 harg5) K } := by
  refine ⟨?_, fun xi E K => ?run⟩
  case run =>
    simp only [cc12__mm_kernel_ta_eq_skeleton]; unfold cc12__mm_kernel_ta_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1
    obtain rfl := harg4.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- MIDDLE tile of a row: the accumulator comes in at `xs`, what the tile before left. -/
noncomputable def runM (c : Dev nD) (i : grid12.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : ¬ isLast i) (x0 : Vec F S2048x1024 .f32) (x1 : Vec F S6144x128 .bf16) (xs : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi
            ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LAcc)) -∗ K ⟨⟩))
          ⊢ wp frame (wpE (defs₀ (F := F)) Variants.none c none) E (cc12__mm_kernel_ta i arg2 harg2 arg3 harg3 arg4 harg4 arg5 harg5) K } := by
  refine ⟨?_, fun xi E K => ?run⟩
  case run =>
    simp only [cc12__mm_kernel_ta_eq_skeleton]; unfold cc12__mm_kernel_ta_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1
    obtain rfl := harg4.eq_unread hf3; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- LAST tile of a row: the accumulator comes in at `xs`; the output buffer, at anything, leaves at the pieces found. -/
noncomputable def runL (c : Dev nD) (i : grid12.Coords)
    (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (hf : ¬ isFirst i) (hl : isLast i) (x0 : Vec F S2048x1024 .f32) (x1 : Vec F S6144x128 .bf16) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LAcc)) -∗ K ⟨⟩))
          ⊢ wp frame (wpE (defs₀ (F := F)) Variants.none c none) E (cc12__mm_kernel_ta i arg2 harg2 arg3 harg3 arg4 harg4 arg5 harg5) K } := by
  refine ⟨?_, ?_, fun E K => ?run⟩
  case run =>
    simp only [cc12__mm_kernel_ta_eq_skeleton]; unfold cc12__mm_kernel_ta_skel
    unfold owns
    iintro ⟨⟨%f0, %hf0, H0⟩, ⟨%f1, %hf1, H1⟩, ⟨%d3, %f3, -, H3⟩, ⟨%fs, %hfs, HS⟩, Hk⟩
    obtain rfl := harg2.eq_unread hf0; obtain rfl := harg3.eq_unread hf1
    obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; iexact H3
    iexists _; iexact HS

/-! ## The pieces cover their buffers; what each case leaves -/

theorem coverF (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) (y : S1024x128.Idx) :
    ∃ pc ∈ (runF c i arg2 harg2 arg3 harg3 arg4 harg4 arg5 harg5 hf hl x0 x1).1, y ∈ pc.1.set :=
  View.cover_of_tiledL (runF c i arg2 harg2 arg3 harg3 arg4 harg4 arg5 harg5 hf hl x0 x1).1 S1024x128.size (by sl_kernel_rfl) y
theorem coverM (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) (y : S1024x128.Idx) :
    ∃ pc ∈ (runM c i arg2 harg2 arg3 harg3 arg4 harg4 arg5 harg5 hf hl x0 x1 xs).1, y ∈ pc.1.set :=
  View.cover_of_tiledL (runM c i arg2 harg2 arg3 harg3 arg4 harg4 arg5 harg5 hf hl x0 x1 xs).1 S1024x128.size (by sl_kernel_rfl) y
theorem coverL (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).2.1, y ∈ pc.1.set :=
  View.cover_of_tiledL (runL c i arg2 harg2 arg3 harg3 arg4 harg4 arg5 harg5 hf hl x0 x1 xs).2.1 S1024x128.size (by sl_kernel_rfl) y
theorem coverO (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) (y : S1024x128.Idx) :
    ∃ pc ∈ (runL c i arg2 harg2 arg3 harg3 arg4 harg4 arg5 harg5 hf hl x0 x1 xs).1, y ∈ pc.1.set :=
  View.cover_of_tiledL (runL c i arg2 harg2 arg3 harg3 arg4 harg4 arg5 harg5 hf hl x0 x1 xs).1 S1024x128.size (by sl_kernel_rfl) y

/-- The accumulator after a first tile, -/
def accF (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i) (x0 : Vec F S2048x1024 .f32) (x1 : Vec F S6144x128 .bf16) : Vec F S1024x128 .f32 :=
  vAcc.read (Elt F) (vAcc.writes (Elt F) vAcc.junk (runF c i arg2 harg2 arg3 harg3 arg4 harg4 arg5 harg5 hf hl x0 x1).1)
/-- after a middle tile, -/
def accM (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i) (x0 : Vec F S2048x1024 .f32) (x1 : Vec F S6144x128 .bf16) (xs : Vec F S1024x128 .f32) : Vec F S1024x128 .f32 :=
  vAcc.read (Elt F) (vAcc.writes (Elt F) vAcc.junk (runM c i arg2 harg2 arg3 harg3 arg4 harg4 arg5 harg5 hf hl x0 x1 xs).1)
/-- after a last tile; -/
def accL (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vAcc.read (Elt F) (vAcc.writes (Elt F) vAcc.junk (runL c i arg2 harg2 arg3 harg3 arg4 harg4 arg5 harg5 hf hl x0 x1 xs).2.1)
/-- and the output block after a last tile. -/
def outL (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i) (x0 : Vec F S2048x1024 .f32) (x1 : Vec F S6144x128 .bf16) (xs : Vec F S1024x128 .f32) : Vec F S1024x128 .f32 :=
  vO.read (Elt F) (vO.writes (Elt F) vO.junk (runL c i arg2 harg2 arg3 harg3 arg4 harg4 arg5 harg5 hf hl x0 x1 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- What the accumulator holds after the body at position `n`: at the first tile of a row what the first case leaves;
    at a later tile what the middle or the last case leaves over what the tile before left. -/
def accAt (c : Dev nD) : (n : ℕ) → n < cfg12.N → Vec F S1024x128 .f32
  | 0, hn =>
    let t : Fin cfg12.N := ⟨0, hn⟩
    accF c (grid12.coords t) (mA t) (hA t) (mB t) (hB t) (mO t) (hO t) mAcc (Memref.isWhole_whole _) ((isFirst_iff t).mpr (Nat.zero_mod _)) (fun h => by have h2 : (0 : ℕ) % 3 = 2 := (isLast_iff t).mp h; omega) (iblk V c 0 t) (iblk V c 1 t)
  | n + 1, hn =>
    let t : Fin cfg12.N := ⟨n + 1, hn⟩
    if h0 : (n + 1) % 3 = 0 then
      accF c (grid12.coords t) (mA t) (hA t) (mB t) (hB t) (mO t) (hO t) mAcc (Memref.isWhole_whole _) ((isFirst_iff t).mpr h0) (fun h => by have h2 : (n + 1) % 3 = 2 := (isLast_iff t).mp h; omega) (iblk V c 0 t) (iblk V c 1 t)
    else if h2 : (n + 1) % 3 = 2 then
      accL c (grid12.coords t) (mA t) (hA t) (mB t) (hB t) (mO t) (hO t) mAcc (Memref.isWhole_whole _) (fun h => h0 ((isFirst_iff t).mp h)) ((isLast_iff t).mpr h2) (iblk V c 0 t) (iblk V c 1 t) (accAt c n (Nat.lt_of_succ_lt hn))
    else
      accM c (grid12.coords t) (mA t) (hA t) (mB t) (hB t) (mO t) (hO t) mAcc (Memref.isWhole_whole _) (fun h => h0 ((isFirst_iff t).mp h)) (fun h => h2 ((isLast_iff t).mp h)) (iblk V c 0 t) (iblk V c 1 t) (accAt c n (Nat.lt_of_succ_lt hn))

theorem accAt_F (c : Dev nD) (t : Fin cfg12.N) (h0 : t.val % 3 = 0) :
    accAt V c t.val t.isLt = accF c (grid12.coords t) (mA t) (hA t) (mB t) (hB t) (mO t) (hO t) mAcc (Memref.isWhole_whole _) ((isFirst_iff t).mpr h0) (fun h => by have h2 := (isLast_iff t).mp h; omega) (iblk V c 0 t) (iblk V c 1 t) := by
  obtain ⟨n, hn⟩ := t
  cases n with
  | zero => rfl
  | succ n => exact dif_pos h0

theorem accAt_M (c : Dev nD) (t : Fin cfg12.N) (h0 : ¬ t.val % 3 = 0) (h2 : ¬ t.val % 3 = 2) :
    accAt V c t.val t.isLt = accM c (grid12.coords t) (mA t) (hA t) (mB t) (hB t) (mO t) (hO t) mAcc (Memref.isWhole_whole _) (fun h => h0 ((isFirst_iff t).mp h)) (fun h => h2 ((isLast_iff t).mp h)) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem accAt_L (c : Dev nD) (t : Fin cfg12.N) (h0 : ¬ t.val % 3 = 0) (h2 : t.val % 3 = 2) :
    accAt V c t.val t.isLt = accL c (grid12.coords t) (mA t) (hA t) (mB t) (hB t) (mO t) (hO t) mAcc (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

/-- What the output block holds after the body at point `t`: at the last tile of a row the finished accumulator, as the
    last case stores it; elsewhere the window is idle and this is not consulted. -/
def outAt (c : Dev nD) (t : Fin cfg12.N) : Vec F S1024x128 .f32 :=
  if h2 : t.val % 3 = 2 then
    outL c (grid12.coords t) (mA t) (hA t) (mB t) (hB t) (mO t) (hO t) mAcc (Memref.isWhole_whole _) (fun h => by have h0 := (isFirst_iff t).mp h; omega) ((isLast_iff t).mpr h2) (iblk V c 0 t) (iblk V c 1 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec12 c [cc12_scratch0]

/-- The invariant before position `n`: before the first point the accumulator at anything; afterwards at what the point
    before left in it. -/
def PhiS (c : Dev nD) : (n : ℕ) → n ≤ cfg12.N → sProp 𝕄
  | 0, _ => iprop((∃ f : Buf (Elt F) ((c.tc : Thread nD τ).loc cc12_scratch0), ((c.tc : Thread nD τ).loc cc12_scratch0) ↦{fullShare} f) ∗ others c)
  | n + 1, hn => iprop(owns (c : Thread nD τ) mAcc fullShare (accAt V c n hn) ∗ others c)

theorem PhiS_zero (c : Dev nD) (n : ℕ) (h : n ≤ cfg12.N) (hz : n = 0) :
    PhiS V c n h = iprop((∃ f : Buf (Elt F) ((c.tc : Thread nD τ).loc cc12_scratch0), ((c.tc : Thread nD τ).loc cc12_scratch0) ↦{fullShare} f) ∗ others c) := by
  subst hz; rfl
theorem PhiS_succ (c : Dev nD) (n : ℕ) (hn : n < cfg12.N) :
    PhiS V c (n + 1) hn = iprop(owns (c : Thread nD τ) mAcc fullShare (accAt V c n hn) ∗ others c) := rfl
theorem PhiS_pos (c : Dev nD) (n : ℕ) (h : n ≤ cfg12.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg12.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg12 c where
  A w := V c (Pipeline.arrRef spec12 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg12.W) : (dat V c).A w = V c (Pipeline.arrRef spec12 w) := by dsimp only [dat]
theorem after_0 (c : Dev nD) (t : Fin cfg12.N) : (dat V c).after 0 t = iblk V c 0 t := by dsimp only [dat]
theorem after_1 (c : Dev nD) (t : Fin cfg12.N) : (dat V c).after 1 t = iblk V c 1 t := by dsimp only [dat]
theorem after_2 (c : Dev nD) (t : Fin cfg12.N) : (dat V c).after 2 t = outAt V c t := by dsimp only [dat]
theorem Phi_castSucc (c : Dev nD) (t : Fin cfg12.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg12.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg12.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg12.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mO t) fullShare ((dat V c).before 2 t d)))

def bodyPost (c : Dev nD) (t : Fin cfg12.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- At any point: the inputs' buffers hold their blocks; which tile of its row the point is decides the case; the invariant
    hands over the accumulator (at what the tile before left, or at anything for a first tile) and takes it back at this
    point's contents; the output buffer is handed back untouched except at a last tile. -/
theorem sound_body (c : Dev nD) (t : Fin cfg12.N) :
    bodyPre V c t ⊢ wp frame (wpE (defs₀ (F := F)) Variants.none c none) Set.univ (bodyAt12 t) (fun _ => bodyPost V c t) := by
  unfold bodyPre bodyPost bodyAt12
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [Phi_castSucc]
  by_cases h0 : t.val % 3 = 0
  · -- the first tile of a row
    have h2 : ¬ t.val % 3 = 2 := by omega
    rw [Dat.leavesExact_idle (dat V c) 2 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d3, H3⟩⟩
    ihave HP' := hsome $$ HP
    icases HP' with ⟨HS, Hrest⟩
    iapply ((runF c (grid12.coords t) (mA t) (hA t) (mB t) (hB t) (mO t) (hO t) mAcc (Memref.isWhole_whole _) ((isFirst_iff t).mpr h0) (fun h => by have h2 := (isLast_iff t).mp h; omega) (iblk V c 0 t) (iblk V c 1 t)).2 _ Set.univ _)
    isplitl [H0]; · iexact H0
    isplitl [H1]; · iexact H1
    isplitl [H3]; · iexact H3
    isplitl [HS]; · iexact HS
    iintro ⟨H0, H1, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _)
      iexact Hrest
    isplitl [Ho]; · iexact Ho
    isplitl [H0]; · iexact H0
    isplitl [H1]; · iexact H1
    iexists _; iexact H3
  · have hz : t.val ≠ 0 := fun h => h0 (by rw [h])
    rw [PhiS_pos V c _ _ hz]
    by_cases h2 : t.val % 3 = 2
    · -- the last tile of a row
      rw [show (dat V c).leavesExact 2 t = owns (c : Thread nD τ) (mO t) fullShare ((dat V c).after 2 t) from by
          unfold Dat.leavesExact; rw [live_out t h2], after_2]
      rw [show outAt V c t = _ from dif_pos h2]
      rw [accAt_L V c t h0 h2]
      unfold accL outL
      iintro ⟨⟨HS, Hrest⟩, Ho, ⟨%d0, H0⟩, ⟨%d1, H1⟩, ⟨%d3, H3⟩⟩
      iapply ((runL c (grid12.coords t) (mA t) (hA t) (mB t) (hB t) (mO t) (hO t) mAcc (Memref.isWhole_whole _) (fun h => h0 ((isFirst_iff t).mp h)) ((isLast_iff t).mpr h2) (iblk V c 0 t) (iblk V c 1 t)
        (accAt V c (t.val - 1) (Nat.lt_of_le_of_lt (Nat.sub_le _ _) t.isLt))).2.2 Set.univ _)
      isplitl [H0]; · iexact H0
      isplitl [H1]; · iexact H1
      isplitl [H3]; · iexists _; iexact H3
      isplitl [HS]; · iexact HS
      iintro ⟨H0, H1, ⟨%e3, H3⟩, ⟨%es, HS⟩⟩
      isplitl [HS Hrest]
      · isplitl [HS]
        · unfold owns; iexists _; isplitr
          swap; · iexact HS
          ipureintro; exact View.read_writes_of_cover _ _ _ _ _ (coverL c _ _ _ _ _ _ _ _ _ _ _ _ _ _)
        iexact Hrest
      isplitl [Ho]; · iexact Ho
      isplitl [H0]; · iexact H0
      isplitl [H1]; · iexact H1
      unfold owns; iexists _; isplitr
      swap; · iexact H3
      ipureintro; exact View.read_writes_of_cover _ _ _ _ _ (coverO c _ _ _ _ _ _ _ _ _ _ _ _ _ _)
    · -- a middle tile of a row
      rw [Dat.leavesExact_idle (dat V c) 2 t (idle_out t h2) (noFlush_out t h2)]
      rw [accAt_M V c t h0 h2]
      unfold accM
      iintro ⟨⟨HS, Hrest⟩, Ho, ⟨%d0, H0⟩, ⟨%d1, H1⟩, ⟨%d3, H3⟩⟩
      iapply ((runM c (grid12.coords t) (mA t) (hA t) (mB t) (hB t) (mO t) (hO t) mAcc (Memref.isWhole_whole _) (fun h => h0 ((isFirst_iff t).mp h)) (fun h => h2 ((isLast_iff t).mp h)) (iblk V c 0 t) (iblk V c 1 t)
        (accAt V c (t.val - 1) (Nat.lt_of_le_of_lt (Nat.sub_le _ _) t.isLt))).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest]
      · isplitl [HS]
        · unfold owns; iexists _; isplitr
          swap; · iexact HS
          ipureintro; exact View.read_writes_of_cover _ _ _ _ _ (coverM c _ _ _ _ _ _ _ _ _ _ _ _ _ _)
        iexact Hrest
      isplitl [Ho]; · iexact Ho
      isplitl [H0]; · iexact H0
      isplitl [H1]; · iexact H1
      iexists _; iexact H3

/-- The library's body obligation, at every point. -/
theorem body_obligation (c : Dev nD) : BodyObligation (dat (F := F) V c) (defs₀ (F := F)) Variants.none () Set.univ := fun t => by
  rw [bigSep_W12, bigSep_W12]
  exact sound_body V c t

end Cert.KernelIdeal.Region12

end
-- ==== Proof.KernelIdeal.Region13.lean ====
/-
  Region 13 of @main: the faces' second term and their update in the SECOND layer, `sigmoid (p2' + ad2 · h22')` over
  f32[4096, 4096] · bf16[4096, 128], in row tiles of 1024 and TWO tiles of 2048 along the contraction axis (the grid is 4 × 2, the
  contraction coordinate innermost). First tile: the partial sum's block is copied into the accumulator and the tile's product
  added; second (last) tile: the product is added and the logistic function of the accumulator stored into the output block.
  The accumulator is CARRIED from the first tile to the second, so the invariant names its contents after each point; the
  output block is stored, and written back, at the last tile of a row only.
-/
import proofs.«108146_j77455440216408_2_alg».proof.Proof.Gen.KernelIdeal.Launch
import proofs.«108146_j77455440216408_2_alg».proof.Proof.Gen.KernelIdeal.Skeleton
import proofs.«108146_j77455440216408_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Region13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The contraction coordinate is 0: the accumulator starts from the partial sum's block. -/
abbrev isFirst (i : grid13.Coords) : Prop :=
  (Scalar.cmpi .ne (Scalar.extui (Scalar.cmpi .eq (BitVec.ofNat 32 (i 1).val) 0#32)) 0#32) = 1#1
/-- The contraction coordinate is the last one: the output block is stored. -/
abbrev isLast (i : grid13.Coords) : Prop := k13_cond2 i = 1#1

theorem isFirst_iff : ∀ t : Fin cfg13.N, isFirst (grid13.coords t) ↔ t.val % 2 = 0 :=
  (by decide +kernel : ∀ t : Fin grid13.N, isFirst (grid13.coords t) ↔ t.val % 2 = 0)
theorem isLast_iff : ∀ t : Fin cfg13.N, isLast (grid13.coords t) ↔ t.val % 2 = 1 :=
  (by decide +kernel : ∀ t : Fin grid13.N, isLast (grid13.coords t) ↔ t.val % 2 = 1)

/-- The output window is idle, and not written back, away from the last tile of a row; live at it. -/
theorem idle_out : ∀ t : Fin cfg13.N, ¬ t.val % 2 = 1 → cfg13.idle 3 (grid13.coords t) = true := by decide +kernel
theorem noFlush_out : ∀ t : Fin cfg13.N, ¬ t.val % 2 = 1 → (cfg13.win 3).flush t = false := by decide +kernel
theorem live_out : ∀ t : Fin cfg13.N, t.val % 2 = 1 → cfg13.idle 3 (grid13.coords t) = false := by decide +kernel
theorem live_0 : ∀ t : Fin cfg13.N, cfg13.idle 0 (grid13.coords t) = false := by decide +kernel
theorem live_1 : ∀ t : Fin cfg13.N, cfg13.idle 1 (grid13.coords t) = false := by decide +kernel
theorem live_2 : ∀ t : Fin cfg13.N, cfg13.idle 2 (grid13.coords t) = false := by decide +kernel

/-! ## The staging memrefs at a point, and the accumulator -/

abbrev mA (t : Fin cfg13.N) : Memref sig .tc .vmem S1024x2048 .f32 := win13_0.stage (cfg13.slots t 0)
abbrev hA (t : Fin cfg13.N) : (mA t).IsWhole := hstage13_0 ((cfg13.slots t 0).cast nbuf13_0)
abbrev mB (t : Fin cfg13.N) : Memref sig .tc .vmem S4096x128 .bf16 := win13_1.stage (cfg13.slots t 1)
abbrev hB (t : Fin cfg13.N) : (mB t).IsWhole := hstage13_1 ((cfg13.slots t 1).cast nbuf13_1)
abbrev mP (t : Fin cfg13.N) : Memref sig .tc .vmem S1024x128 .f32 := win13_2.stage (cfg13.slots t 2)
abbrev hP (t : Fin cfg13.N) : (mP t).IsWhole := hstage13_2 ((cfg13.slots t 2).cast nbuf13_2)
abbrev mO (t : Fin cfg13.N) : Memref sig .tc .vmem S1024x128 .f32 := win13_3.stage (cfg13.slots t 3)
abbrev hO (t : Fin cfg13.N) : (mO t).IsWhole := hstage13_3 ((cfg13.slots t 3).cast nbuf13_3)
/-- The accumulator: a scoped buffer of the kernel's own, passed beside the windows. -/
abbrev mAcc : Memref sig .tc .vmem S1024x128 .f32 := Memref.whole cc13_scratch0
/-- Views through which the output block's and the accumulator's contents are stated. -/
abbrev vO : View sig .tc .vmem S1024x128 .f32 := (Memref.whole cc13_stg3_0 : Memref sig .tc .vmem S1024x128 .f32).view
abbrev vAcc : View sig .tc .vmem S1024x128 .f32 := mAcc.view

/-! ## The body, run in each of its three cases -/

set_option maxHeartbeats 1000000 in
/-- FIRST tile of a row: from the three input blocks and the output buffer at given contents and the accumulator at
    anything, the body returns with inputs and output buffer untouched and the accumulator at the pieces found. -/
noncomputable def runF (c : Dev nD) (i : grid13.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : isFirst i) (hl : ¬ isLast i) (x0 : Vec F S1024x2048 .f32) (x1 : Vec F S4096x128 .bf16) (x2 : Vec F S1024x128 .f32) :
    { LAcc : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xi
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi
                ∗ (∃ f, arg6.view.loc (c : Thread nD τ) ↦[arg6.view.set]{fullShare} arg6.view.writes (Elt F) f LAcc)) -∗ K ⟨⟩))
          ⊢ wp frame (wpE (defs₀ (F := F)) Variants.none c none) E (cc13__mm_acc_kernel i arg2 harg2 arg3 harg3 arg4 harg4 arg5 harg5 arg6 harg6) K } := by
  refine ⟨?_, fun xi E K => ?run⟩
  case run =>
    simp only [cc13__mm_acc_kernel_eq_skeleton]; unfold cc13__mm_acc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST tile of a row: the accumulator comes in at `xs`; the output buffer, at anything, leaves at the pieces found. -/
noncomputable def runL (c : Dev nD) (i : grid13.Coords)
    (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hf : ¬ isFirst i) (hl : isLast i) (x0 : Vec F S1024x2048 .f32) (x1 : Vec F S4096x128 .bf16) (x2 : Vec F S1024x128 .f32) (xs : Vec F S1024x128 .f32) :
    Σ' (LO : List (View.Piece (Elt F) S1024x128 .f32)), { LAcc : List (View.Piece (Elt F) S1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LAcc)) -∗ K ⟨⟩))
          ⊢ wp frame (wpE (defs₀ (F := F)) Variants.none c none) E (cc13__mm_acc_kernel i arg2 harg2 arg3 harg3 arg4 harg4 arg5 harg5 arg6 harg6) K } := by
  refine ⟨?_, ?_, fun E K => ?run⟩
  case run =>
    simp only [cc13__mm_acc_kernel_eq_skeleton]; unfold cc13__mm_acc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## The pieces cover their buffers; what each case leaves -/

theorem coverF (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) (y : S1024x128.Idx) :
    ∃ pc ∈ (runF c i arg2 harg2 arg3 harg3 arg4 harg4 arg5 harg5 arg6 harg6 hf hl x0 x1 x2).1, y ∈ pc.1.set :=
  View.cover_of_tiledL (runF c i arg2 harg2 arg3 harg3 arg4 harg4 arg5 harg5 arg6 harg6 hf hl x0 x1 x2).1 S1024x128.size (by sl_kernel_rfl) y
theorem coverL (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).2.1, y ∈ pc.1.set :=
  View.cover_of_tiledL (runL c i arg2 harg2 arg3 harg3 arg4 harg4 arg5 harg5 arg6 harg6 hf hl x0 x1 x2 xs).2.1 S1024x128.size (by sl_kernel_rfl) y
theorem coverO (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) (y : S1024x128.Idx) :
    ∃ pc ∈ (runL c i arg2 harg2 arg3 harg3 arg4 harg4 arg5 harg5 arg6 harg6 hf hl x0 x1 x2 xs).1, y ∈ pc.1.set :=
  View.cover_of_tiledL (runL c i arg2 harg2 arg3 harg3 arg4 harg4 arg5 harg5 arg6 harg6 hf hl x0 x1 x2 xs).1 S1024x128.size (by sl_kernel_rfl) y

/-- The accumulator after a first tile, -/
def accF (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i) (x0 : Vec F S1024x2048 .f32) (x1 : Vec F S4096x128 .bf16) (x2 : Vec F S1024x128 .f32) : Vec F S1024x128 .f32 :=
  vAcc.read (Elt F) (vAcc.writes (Elt F) vAcc.junk (runF c i arg2 harg2 arg3 harg3 arg4 harg4 arg5 harg5 arg6 harg6 hf hl x0 x1 x2).1)
/-- after a last tile; -/
def accL (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vAcc.read (Elt F) (vAcc.writes (Elt F) vAcc.junk (runL c i arg2 harg2 arg3 harg3 arg4 harg4 arg5 harg5 arg6 harg6 hf hl x0 x1 x2 xs).2.1)
/-- and the output block after a last tile. -/
def outL (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i) (x0 : Vec F S1024x2048 .f32) (x1 : Vec F S4096x128 .bf16) (x2 : Vec F S1024x128 .f32) (xs : Vec F S1024x128 .f32) : Vec F S1024x128 .f32 :=
  vO.read (Elt F) (vO.writes (Elt F) vO.junk (runL c i arg2 harg2 arg3 harg3 arg4 harg4 arg5 harg5 arg6 harg6 hf hl x0 x1 x2 xs).1)

/-! ## The accumulator, point by point -/

variable (V : (c : Dev nD) → (b : Ref sig .tc) → Buf (Elt F) ((c : Thread nD τ).loc b))

/-- Window `w`'s block at point `t`, read off its array as the region finds it. -/
def iblk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- What the accumulator holds after the body at position `n`: at the first tile of a row what the first case leaves; at
    the second (and last) tile what the last case leaves over what the first tile left. -/
def accAt (c : Dev nD) : (n : ℕ) → n < cfg13.N → Vec F S1024x128 .f32
  | 0, hn =>
    let t : Fin cfg13.N := ⟨0, hn⟩
    accF c (grid13.coords t) (mA t) (hA t) (mB t) (hB t) (mP t) (hP t) (mO t) (hO t) mAcc (Memref.isWhole_whole _) ((isFirst_iff t).mpr (Nat.zero_mod _)) (fun h => by have h2 : (0 : ℕ) % 2 = 1 := (isLast_iff t).mp h; omega) (iblk V c 0 t) (iblk V c 1 t) (iblk V c 2 t)
  | n + 1, hn =>
    let t : Fin cfg13.N := ⟨n + 1, hn⟩
    if h0 : (n + 1) % 2 = 0 then
      accF c (grid13.coords t) (mA t) (hA t) (mB t) (hB t) (mP t) (hP t) (mO t) (hO t) mAcc (Memref.isWhole_whole _) ((isFirst_iff t).mpr h0) (fun h => by have h2 : (n + 1) % 2 = 1 := (isLast_iff t).mp h; omega) (iblk V c 0 t) (iblk V c 1 t) (iblk V c 2 t)
    else
      accL c (grid13.coords t) (mA t) (hA t) (mB t) (hB t) (mP t) (hP t) (mO t) (hO t) mAcc (Memref.isWhole_whole _) (fun h => h0 ((isFirst_iff t).mp h)) ((isLast_iff t).mpr (by show (n + 1) % 2 = 1; omega)) (iblk V c 0 t) (iblk V c 1 t) (iblk V c 2 t) (accAt c n (Nat.lt_of_succ_lt hn))

theorem accAt_F (c : Dev nD) (t : Fin cfg13.N) (h0 : t.val % 2 = 0) :
    accAt V c t.val t.isLt = accF c (grid13.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t) := by
  obtain ⟨n, hn⟩ := t
  cases n with
  | zero => rfl
  | succ n => exact dif_pos h0

theorem accAt_L (c : Dev nD) (t : Fin cfg13.N) (h0 : ¬ t.val % 2 = 0) (h2 : t.val % 2 = 1) :
    accAt V c t.val t.isLt = accL c (grid13.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact dif_neg h0

/-- What the output block holds after the body at point `t`: at the last tile of a row the logistic function of the
    finished accumulator, as the last case stores it; elsewhere the window is idle and this is not consulted. -/
def outAt (c : Dev nD) (t : Fin cfg13.N) : Vec F S1024x128 .f32 :=
  if h2 : t.val % 2 = 1 then
    outL c (grid13.coords t) (mA t) (hA t) (mB t) (hB t) (mP t) (hP t) (mO t) (hO t) mAcc (Memref.isWhole_whole _) (fun h => by have h0 := (isFirst_iff t).mp h; omega) ((isLast_iff t).mpr h2) (iblk V c 0 t) (iblk V c 1 t) (iblk V c 2 t)
      (accAt V c (t.val - 1) (Nat.lt_of_le_of_lt (Nat.sub_le _ _) t.isLt))
  else vO.read (Elt F) vO.junk

/-! ## The invariant and the proof data -/

/-- Every scoped buffer that is no staging buffer of this call and not its accumulator, unopened. -/
abbrev others (c : Dev nD) : sProp 𝕄 :=
  Pipeline.scopedRestBut (Ix := Unit) (Name := ℕ) (U := UR sig nD τ) (Lvl := ℕ) (Val := Elt F) spec13 c [cc13_scratch0]

/-- The invariant before position `n`: before the first point the accumulator at anything; afterwards at what the point
    before left in it. -/
def PhiS (c : Dev nD) : (n : ℕ) → n ≤ cfg13.N → sProp 𝕄
  | 0, _ => iprop((∃ f : Buf (Elt F) ((c.tc : Thread nD τ).loc cc13_scratch0), ((c.tc : Thread nD τ).loc cc13_scratch0) ↦{fullShare} f) ∗ others c)
  | n + 1, hn => iprop(owns (c : Thread nD τ) mAcc fullShare (accAt V c n hn) ∗ others c)

theorem PhiS_zero (c : Dev nD) (n : ℕ) (h : n ≤ cfg13.N) (hz : n = 0) :
    PhiS V c n h = iprop((∃ f : Buf (Elt F) ((c.tc : Thread nD τ).loc cc13_scratch0), ((c.tc : Thread nD τ).loc cc13_scratch0) ↦{fullShare} f) ∗ others c) := by
  subst hz; rfl
theorem PhiS_succ (c : Dev nD) (n : ℕ) (hn : n < cfg13.N) :
    PhiS V c (n + 1) hn = iprop(owns (c : Thread nD τ) mAcc fullShare (accAt V c n hn) ∗ others c) := rfl
theorem PhiS_pos (c : Dev nD) (n : ℕ) (h : n ≤ cfg13.N) (hz : n ≠ 0) :
    PhiS V c n h = iprop(owns (c : Thread nD τ) mAcc fullShare (accAt V c (n - 1) (by omega)) ∗ others c) := by
  cases n with
  | zero => exact absurd rfl hz
  | succ n => rfl

/-- At any position the invariant yields the accumulator at SOME contents (what a first tile needs). -/
theorem PhiS_some (c : Dev nD) (n : ℕ) (h : n ≤ cfg13.N) :
    PhiS V c n h ⊢ iprop((∃ d, owns (c : Thread nD τ) mAcc fullShare d) ∗ others c) := by
  cases n with
  | zero =>
    rw [PhiS_zero V c 0 h rfl]
    iintro ⟨⟨%f, HS⟩, Hr⟩
    isplitl [HS]
    · iexists f; rw [owns_whole]; iexact HS
    iexact Hr
  | succ n =>
    rw [PhiS_succ]
    iintro ⟨HS, Hr⟩
    isplitl [HS]
    · iexists _; iexact HS
    iexact Hr

/-- The proof data: the arrays as the region finds them; after the body at point `t` each input's buffer at its block
    and the output's at `outAt`; the invariant `PhiS`; nothing owed; full shares. -/
def dat (c : Dev nD) : Dat τ (Elt F) Unit ℕ (UR sig nD τ) ℕ cfg13 c where
  A w := V c (Pipeline.arrRef spec13 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg13.W) : (dat V c).A w = V c (Pipeline.arrRef spec13 w) := by dsimp only [dat]
theorem after_0 (c : Dev nD) (t : Fin cfg13.N) : (dat V c).after 0 t = iblk V c 0 t := by dsimp only [dat]
theorem after_1 (c : Dev nD) (t : Fin cfg13.N) : (dat V c).after 1 t = iblk V c 1 t := by dsimp only [dat]
theorem after_2 (c : Dev nD) (t : Fin cfg13.N) : (dat V c).after 2 t = iblk V c 2 t := by dsimp only [dat]
theorem after_3 (c : Dev nD) (t : Fin cfg13.N) : (dat V c).after 3 t = outAt V c t := by dsimp only [dat]
theorem Phi_castSucc (c : Dev nD) (t : Fin cfg13.N) : (dat V c).Φ t.castSucc = PhiS V c t.val (Nat.le_of_lt t.isLt) := by
  dsimp only [dat]; simp only [Fin.coe_castSucc]

/-- Each input's current staging buffer holds its block at every point, fetched there or not. -/
theorem before_0 (c : Dev nD) (t : Fin cfg13.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg13.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg13.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg13.N) : sProp 𝕄 :=
  iprop((dat V c).Φ t.castSucc ∗ (dat V c).owesAt () t.castSucc
    ∗ (∃ d, owns (c : Thread nD τ) (mA t) fullShare ((dat V c).before 0 t d))
    ∗ (∃ d, owns (c : Thread nD τ) (mB t) fullShare ((dat V c).before 1 t d))
    ∗ (∃ d, owns (c : Thread nD τ) (mP t) fullShare ((dat V c).before 2 t d))
    ∗ (∃ d, owns (c : Thread nD τ) (mO t) fullShare ((dat V c).before 3 t d)))

def bodyPost (c : Dev nD) (t : Fin cfg13.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- At any point: the inputs' buffers hold their blocks; which tile of its row the point is decides the case; the invariant
    hands over the accumulator (at what the first tile left, or at anything for a first tile) and takes it back at this
    point's contents; the output buffer is handed back untouched at a first tile. -/
theorem sound_body (c : Dev nD) (t : Fin cfg13.N) :
    bodyPre V c t ⊢ wp frame (wpE (defs₀ (F := F)) Variants.none c none) Set.univ (bodyAt13 t) (fun _ => bodyPost V c t) := by
  unfold bodyPre bodyPost bodyAt13
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mA t) fullShare ((dat V c).after 0 t) from by
      unfold Dat.leavesExact; rw [live_0 t], after_0]
  rw [show (dat V c).leavesExact 1 t = owns (c : Thread nD τ) (mB t) fullShare ((dat V c).after 1 t) from by
      unfold Dat.leavesExact; rw [live_1 t], after_1]
  rw [show (dat V c).leavesExact 2 t = owns (c : Thread nD τ) (mP t) fullShare ((dat V c).after 2 t) from by
      unfold Dat.leavesExact; rw [live_2 t], after_2]
  rw [Phi_castSucc]
  by_cases h0 : t.val % 2 = 0
  · -- the first tile of a row
    have h2 : ¬ t.val % 2 = 1 := by omega
    rw [Dat.leavesExact_idle (dat V c) 3 t (idle_out t h2) (noFlush_out t h2)]
    rw [accAt_F V c t h0]
    unfold accF
    have hsome := PhiS_some V c t.val (Nat.le_of_lt t.isLt)
    iintro ⟨HP, Ho, ⟨%d0, H0⟩, ⟨%d1, H1⟩, ⟨%d2, H2⟩, ⟨%d3, H3⟩⟩
    ihave HP' := hsome $$ HP
    icases HP' with ⟨HS, Hrest⟩
    iapply ((runF c (grid13.coords t) (mA t) (hA t) (mB t) (hB t) (mP t) (hP t) (mO t) (hO t) mAcc (Memref.isWhole_whole _) ((isFirst_iff t).mpr h0) (fun h => by have h2 := (isLast_iff t).mp h; omega) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hrest]
    · isplitl [HS]
      · unfold owns; iexists _; isplitr
        swap; · iexact HS
        ipureintro; exact View.read_writes_of_cover _ _ _ _ _ (coverF c _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · -- the last tile of a row
    have hz : t.val ≠ 0 := fun h => h0 (by rw [h])
    have h2 : t.val % 2 = 1 := by omega
    rw [PhiS_pos V c _ _ hz]
    rw [show (dat V c).leavesExact 3 t = owns (c : Thread nD τ) (mO t) fullShare ((dat V c).after 3 t) from by
        unfold Dat.leavesExact; rw [live_out t h2], after_3]
    rw [show outAt V c t = _ from dif_pos h2]
    rw [accAt_L V c t h0 h2]
    unfold accL outL
    iintro ⟨⟨HS, Hrest⟩, Ho, ⟨%d0, H0⟩, ⟨%d1, H1⟩, ⟨%d2, H2⟩, ⟨%d3, H3⟩⟩
    iapply ((runL c (grid13.coords t) (mA t) (hA t) (mB t) (hB t) (mP t) (hP t) (mO t) (hO t) mAcc (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (coverL c _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverO c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W13, bigSep_W13]
  exact sound_body V c t

end Cert.KernelIdeal.Region13

end
-- ==== Proof.KernelIdeal.Between.lean ====
/-
  @main's buffer contents between its items, for the run of the fourteen regions among the host stretches.

  Core `c`'s unscoped buffers after item J are a valuation `W J`: the launch contents, then each host stretch applied
  (`StableHlo.after`), then, after a region, the one array it writes — its result — replaced by what the region's
  write-backs leave, as the region's proof data computes it from the valuation the region was entered from (`out K`).
  Every region's proof data is taken at its entry valuation; the family of all fourteen is a literal match on the region.
  The generated conditional frame is stated over valuations `V J m outs` with the regions' results as unknowns `outs`;
  `outs` below reads them off `out K`, and `V_eq J` shows the two chains are one.
-/
import proofs.«108146_j77455440216408_2_alg».proof.Proof.Gen.KernelIdeal.Regions
import proofs.«108146_j77455440216408_2_alg».proof.Proof.KernelIdeal.Region0
import proofs.«108146_j77455440216408_2_alg».proof.Proof.KernelIdeal.Region1
import proofs.«108146_j77455440216408_2_alg».proof.Proof.KernelIdeal.Region2
import proofs.«108146_j77455440216408_2_alg».proof.Proof.KernelIdeal.Region3
import proofs.«108146_j77455440216408_2_alg».proof.Proof.KernelIdeal.Region4
import proofs.«108146_j77455440216408_2_alg».proof.Proof.KernelIdeal.Region5
import proofs.«108146_j77455440216408_2_alg».proof.Proof.KernelIdeal.Region6
import proofs.«108146_j77455440216408_2_alg».proof.Proof.KernelIdeal.Region7
import proofs.«108146_j77455440216408_2_alg».proof.Proof.KernelIdeal.Region8
import proofs.«108146_j77455440216408_2_alg».proof.Proof.KernelIdeal.Region9
import proofs.«108146_j77455440216408_2_alg».proof.Proof.KernelIdeal.Region10
import proofs.«108146_j77455440216408_2_alg».proof.Proof.KernelIdeal.Region11
import proofs.«108146_j77455440216408_2_alg».proof.Proof.KernelIdeal.Region12
import proofs.«108146_j77455440216408_2_alg».proof.Proof.KernelIdeal.Region13

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-! ## The first layer -/

def W1 (c : Dev nD) : Valuation τ sig (Elt F) := StableHlo.after hostOps0 (fun b => m (c, b))
def out0 (c : Dev nD) : Buf (Elt F) ((c : Thread nD τ).loc main_v28) := (Region0.dat (rd (W1 m)) c).arrAt 2 cfg0.N
def W2 (c : Dev nD) : Valuation τ sig (Elt F) := Function.update (W1 m c) main_v28 (out0 m c)
def W3 (c : Dev nD) : Valuation τ sig (Elt F) := StableHlo.after hostOps1 (W2 m c)
def out1 (c : Dev nD) : Buf (Elt F) ((c : Thread nD τ).loc main_v29) := (Region1.dat (rd (W3 m)) c).arrAt 3 cfg1.N
def W4 (c : Dev nD) : Valuation τ sig (Elt F) := Function.update (W3 m c) main_v29 (out1 m c)
def out2 (c : Dev nD) : Buf (Elt F) ((c : Thread nD τ).loc main_v30) := (Region2.dat (rd (W4 m)) c).arrAt 2 cfg2.N
def W5 (c : Dev nD) : Valuation τ sig (Elt F) := Function.update (W4 m c) main_v30 (out2 m c)
def W6 (c : Dev nD) : Valuation τ sig (Elt F) := StableHlo.after hostOps3 (W5 m c)
def out3 (c : Dev nD) : Buf (Elt F) ((c : Thread nD τ).loc main_v31) := (Region3.dat (rd (W6 m)) c).arrAt 4 cfg3.N
def W7 (c : Dev nD) : Valuation τ sig (Elt F) := Function.update (W6 m c) main_v31 (out3 m c)
def W8 (c : Dev nD) : Valuation τ sig (Elt F) := StableHlo.after hostOps4 (W7 m c)
def out4 (c : Dev nD) : Buf (Elt F) ((c : Thread nD τ).loc main_v32) := (Region4.dat (rd (W8 m)) c).arrAt 3 cfg4.N
def W9 (c : Dev nD) : Valuation τ sig (Elt F) := Function.update (W8 m c) main_v32 (out4 m c)
def out5 (c : Dev nD) : Buf (Elt F) ((c : Thread nD τ).loc main_v33) := (Region5.dat (rd (W9 m)) c).arrAt 2 cfg5.N
def W10 (c : Dev nD) : Valuation τ sig (Elt F) := Function.update (W9 m c) main_v33 (out5 m c)
def W11 (c : Dev nD) : Valuation τ sig (Elt F) := StableHlo.after hostOps6 (W10 m c)
def out6 (c : Dev nD) : Buf (Elt F) ((c : Thread nD τ).loc main_v34) := (Region6.dat (rd (W11 m)) c).arrAt 3 cfg6.N
def W12 (c : Dev nD) : Valuation τ sig (Elt F) := Function.update (W11 m c) main_v34 (out6 m c)

/-! ## The second layer -/

def W13 (c : Dev nD) : Valuation τ sig (Elt F) := StableHlo.after hostOps7 (W12 m c)
def out7 (c : Dev nD) : Buf (Elt F) ((c : Thread nD τ).loc main_v63) := (Region7.dat (rd (W13 m)) c).arrAt 2 cfg7.N
def W14 (c : Dev nD) : Valuation τ sig (Elt F) := Function.update (W13 m c) main_v63 (out7 m c)
def W15 (c : Dev nD) : Valuation τ sig (Elt F) := StableHlo.after hostOps8 (W14 m c)
def out8 (c : Dev nD) : Buf (Elt F) ((c : Thread nD τ).loc main_v64) := (Region8.dat (rd (W15 m)) c).arrAt 3 cfg8.N
def W16 (c : Dev nD) : Valuation τ sig (Elt F) := Function.update (W15 m c) main_v64 (out8 m c)
def out9 (c : Dev nD) : Buf (Elt F) ((c : Thread nD τ).loc main_v65) := (Region9.dat (rd (W16 m)) c).arrAt 2 cfg9.N
def W17 (c : Dev nD) : Valuation τ sig (Elt F) := Function.update (W16 m c) main_v65 (out9 m c)
def W18 (c : Dev nD) : Valuation τ sig (Elt F) := StableHlo.after hostOps10 (W17 m c)
def out10 (c : Dev nD) : Buf (Elt F) ((c : Thread nD τ).loc main_v66) := (Region10.dat (rd (W18 m)) c).arrAt 4 cfg10.N
def W19 (c : Dev nD) : Valuation τ sig (Elt F) := Function.update (W18 m c) main_v66 (out10 m c)
def W20 (c : Dev nD) : Valuation τ sig (Elt F) := StableHlo.after hostOps11 (W19 m c)
def out11 (c : Dev nD) : Buf (Elt F) ((c : Thread nD τ).loc main_v67) := (Region11.dat (rd (W20 m)) c).arrAt 3 cfg11.N
def W21 (c : Dev nD) : Valuation τ sig (Elt F) := Function.update (W20 m c) main_v67 (out11 m c)
def out12 (c : Dev nD) : Buf (Elt F) ((c : Thread nD τ).loc main_v68) := (Region12.dat (rd (W21 m)) c).arrAt 2 cfg12.N
def W22 (c : Dev nD) : Valuation τ sig (Elt F) := Function.update (W21 m c) main_v68 (out12 m c)
def W23 (c : Dev nD) : Valuation τ sig (Elt F) := StableHlo.after hostOps13 (W22 m c)
def out13 (c : Dev nD) : Buf (Elt F) ((c : Thread nD τ).loc main_v69) := (Region13.dat (rd (W23 m)) c).arrAt 3 cfg13.N
def W24 (c : Dev nD) : Valuation τ sig (Elt F) := Function.update (W23 m c) main_v69 (out13 m c)

/-! ## The regions' results as the generated frame's unknowns -/

/-- What each region leaves in its result array, as the conditional frame takes it: `out K` at region K's result, the
    launch contents at any other reference (never read there). -/
def outs : Outs (F := F) := fun _ r c =>
  if h : r = main_v28 then h ▸ out0 m c
  else if h : r = main_v29 then h ▸ out1 m c
  else if h : r = main_v30 then h ▸ out2 m c
  else if h : r = main_v31 then h ▸ out3 m c
  else if h : r = main_v32 then h ▸ out4 m c
  else if h : r = main_v33 then h ▸ out5 m c
  else if h : r = main_v34 then h ▸ out6 m c
  else if h : r = main_v63 then h ▸ out7 m c
  else if h : r = main_v64 then h ▸ out8 m c
  else if h : r = main_v65 then h ▸ out9 m c
  else if h : r = main_v66 then h ▸ out10 m c
  else if h : r = main_v67 then h ▸ out11 m c
  else if h : r = main_v68 then h ▸ out12 m c
  else if h : r = main_v69 then h ▸ out13 m c
  else m ((c : Thread nD τ).loc r)

theorem outs_v28 (J : ℕ) (c : Dev nD) : outs m J main_v28 c = out0 m c := by
  unfold outs; rw [dif_pos rfl]
theorem outs_v29 (J : ℕ) (c : Dev nD) : outs m J main_v29 c = out1 m c := by
  unfold outs; rw [dif_neg (by decide), dif_pos rfl]
theorem outs_v30 (J : ℕ) (c : Dev nD) : outs m J main_v30 c = out2 m c := by
  unfold outs; rw [dif_neg (by decide), dif_neg (by decide), dif_pos rfl]
theorem outs_v31 (J : ℕ) (c : Dev nD) : outs m J main_v31 c = out3 m c := by
  unfold outs; rw [dif_neg (by decide), dif_neg (by decide), dif_neg (by decide), dif_pos rfl]
theorem outs_v32 (J : ℕ) (c : Dev nD) : outs m J main_v32 c = out4 m c := by
  unfold outs; rw [dif_neg (by decide), dif_neg (by decide), dif_neg (by decide), dif_neg (by decide), dif_pos rfl]
theorem outs_v33 (J : ℕ) (c : Dev nD) : outs m J main_v33 c = out5 m c := by
  unfold outs; rw [dif_neg (by decide), dif_neg (by decide), dif_neg (by decide), dif_neg (by decide), dif_neg (by decide), dif_pos rfl]
theorem outs_v34 (J : ℕ) (c : Dev nD) : outs m J main_v34 c = out6 m c := by
  unfold outs; rw [dif_neg (by decide), dif_neg (by decide), dif_neg (by decide), dif_neg (by decide), dif_neg (by decide), dif_neg (by decide), dif_pos rfl]
theorem outs_v63 (J : ℕ) (c : Dev nD) : outs m J main_v63 c = out7 m c := by
  unfold outs; rw [dif_neg (by decide), dif_neg (by decide), dif_neg (by decide), dif_neg (by decide), dif_neg (by decide), dif_neg (by decide), dif_neg (by decide), dif_pos rfl]
theorem outs_v64 (J : ℕ) (c : Dev nD) : outs m J main_v64 c = out8 m c := by
  unfold outs; rw [dif_neg (by decide), dif_neg (by decide), dif_neg (by decide), dif_neg (by decide), dif_neg (by decide), dif_neg (by decide), dif_neg (by decide), dif_neg (by decide), dif_pos rfl]
theorem outs_v65 (J : ℕ) (c : Dev nD) : outs m J main_v65 c = out9 m c := by
  unfold outs; rw [dif_neg (by decide), dif_neg (by decide), dif_neg (by decide), dif_neg (by decide), dif_neg (by decide), dif_neg (by decide), dif_neg (by decide), dif_neg (by decide), dif_neg (by decide), dif_pos rfl]
theorem outs_v66 (J : ℕ) (c : Dev nD) : outs m J main_v66 c = out10 m c := by
  unfold outs; rw [dif_neg (by decide), dif_neg (by decide), dif_neg (by decide), dif_neg (by decide), dif_neg (by decide), dif_neg (by decide), dif_neg (by decide), dif_neg (by decide), dif_neg (by decide), dif_neg (by decide), dif_pos rfl]
theorem outs_v67 (J : ℕ) (c : Dev nD) : outs m J main_v67 c = out11 m c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_v68 (J : ℕ) (c : Dev nD) : outs m J main_v68 c = out12 m c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_v69 (J : ℕ) (c : Dev nD) : outs m J main_v69 c = out13 m c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]

/-! ## The generated chain of valuations is this one -/

theorem V1_eq : V1 m = W1 m := by funext c; unfold W1; rfl
theorem V2_eq : V2 m (outs m) = W2 m := by
  funext c; show Function.update (V1 m c) main_v28 (outs m 2 main_v28 c) = _; rw [outs_v28]; unfold W2; first | rfl | (rw [V1_eq])
theorem V3_eq : V3 m (outs m) = W3 m := by
  funext c; show StableHlo.after hostOps1 (V2 m (outs m) c) = _; rw [V2_eq]; unfold W3; first | rfl | (rw [V1_eq])
theorem V4_eq : V4 m (outs m) = W4 m := by
  funext c; show Function.update (V3 m (outs m) c) main_v29 (outs m 4 main_v29 c) = _; rw [outs_v29, V3_eq]; unfold W4; first | rfl | (rw [V1_eq])
theorem V5_eq : V5 m (outs m) = W5 m := by
  funext c; show Function.update (V4 m (outs m) c) main_v30 (outs m 5 main_v30 c) = _; rw [outs_v30, V4_eq]; unfold W5; first | rfl | (rw [V1_eq])
theorem V6_eq : V6 m (outs m) = W6 m := by
  funext c; show StableHlo.after hostOps3 (V5 m (outs m) c) = _; rw [V5_eq]; unfold W6; first | rfl | (rw [V1_eq])
theorem V7_eq : V7 m (outs m) = W7 m := by
  funext c; show Function.update (V6 m (outs m) c) main_v31 (outs m 7 main_v31 c) = _; rw [outs_v31, V6_eq]; unfold W7; first | rfl | (rw [V1_eq])
theorem V8_eq : V8 m (outs m) = W8 m := by
  funext c; show StableHlo.after hostOps4 (V7 m (outs m) c) = _; rw [V7_eq]; unfold W8; first | rfl | (rw [V1_eq])
theorem V9_eq : V9 m (outs m) = W9 m := by
  funext c; show Function.update (V8 m (outs m) c) main_v32 (outs m 9 main_v32 c) = _; rw [outs_v32, V8_eq]; unfold W9; first | rfl | (rw [V1_eq])
theorem V10_eq : V10 m (outs m) = W10 m := by
  funext c; show Function.update (V9 m (outs m) c) main_v33 (outs m 10 main_v33 c) = _; rw [outs_v33, V9_eq]; unfold W10; first | rfl | (rw [V1_eq])
theorem V11_eq : V11 m (outs m) = W11 m := by
  funext c; show StableHlo.after hostOps6 (V10 m (outs m) c) = _; rw [V10_eq]; unfold W11; first | rfl | (rw [V1_eq])
theorem V12_eq : V12 m (outs m) = W12 m := by
  funext c; show Function.update (V11 m (outs m) c) main_v34 (outs m 12 main_v34 c) = _; rw [outs_v34, V11_eq]; unfold W12; first | rfl | (rw [V1_eq])
theorem V13_eq : V13 m (outs m) = W13 m := by
  funext c; show StableHlo.after hostOps7 (V12 m (outs m) c) = _; rw [V12_eq]; unfold W13; first | rfl | (rw [V1_eq])
theorem V14_eq : V14 m (outs m) = W14 m := by
  funext c; show Function.update (V13 m (outs m) c) main_v63 (outs m 14 main_v63 c) = _; rw [outs_v63, V13_eq]; unfold W14; first | rfl | (rw [V1_eq])
theorem V15_eq : V15 m (outs m) = W15 m := by
  funext c; show StableHlo.after hostOps8 (V14 m (outs m) c) = _; rw [V14_eq]; unfold W15; first | rfl | (rw [V1_eq])
theorem V16_eq : V16 m (outs m) = W16 m := by
  funext c; show Function.update (V15 m (outs m) c) main_v64 (outs m 16 main_v64 c) = _; rw [outs_v64, V15_eq]; unfold W16; first | rfl | (rw [V1_eq])
theorem V17_eq : V17 m (outs m) = W17 m := by
  funext c; show Function.update (V16 m (outs m) c) main_v65 (outs m 17 main_v65 c) = _; rw [outs_v65, V16_eq]; unfold W17; first | rfl | (rw [V1_eq])
theorem V18_eq : V18 m (outs m) = W18 m := by
  funext c; show StableHlo.after hostOps10 (V17 m (outs m) c) = _; rw [V17_eq]; unfold W18; first | rfl | (rw [V1_eq])
theorem V19_eq : V19 m (outs m) = W19 m := by
  funext c; show Function.update (V18 m (outs m) c) main_v66 (outs m 19 main_v66 c) = _; rw [outs_v66, V18_eq]; unfold W19; first | rfl | (rw [V1_eq])
theorem V20_eq : V20 m (outs m) = W20 m := by
  funext c; show StableHlo.after hostOps11 (V19 m (outs m) c) = _; rw [V19_eq]; unfold W20; first | rfl | (rw [V1_eq])
theorem V21_eq : V21 m (outs m) = W21 m := by
  funext c; show Function.update (V20 m (outs m) c) main_v67 (outs m 21 main_v67 c) = _; rw [outs_v67, V20_eq]; unfold W21; first | rfl | (rw [V1_eq])
theorem V22_eq : V22 m (outs m) = W22 m := by
  funext c; show Function.update (V21 m (outs m) c) main_v68 (outs m 22 main_v68 c) = _; rw [outs_v68, V21_eq]; unfold W22; first | rfl | (rw [V1_eq])
theorem V23_eq : V23 m (outs m) = W23 m := by
  funext c; show StableHlo.after hostOps13 (V22 m (outs m) c) = _; rw [V22_eq]; unfold W23; first | rfl | (rw [V1_eq])
theorem V24_eq : V24 m (outs m) = W24 m := by
  funext c; show Function.update (V23 m (outs m) c) main_v69 (outs m 24 main_v69 c) = _; rw [outs_v69, V23_eq]; unfold W24; first | rfl | (rw [V1_eq])

/-! ## The valuation after a region: at its result, and away from it -/

theorem W2_at (c : Dev nD) : W2 m c main_v28 = out0 m c := by
  unfold W2; exact Function.update_self (Proc.devRef .tc main_v28) (out0 m c) (W1 m c)
theorem W2_of_ne (c : Dev nD) (b : Ref sig .tc) (hb : b ≠ main_v28) : W2 m c b = W1 m c b := by
  unfold W2; exact Function.update_of_ne (StableHlo.devRef_ne_of_ne hb) _ _
theorem W4_at (c : Dev nD) : W4 m c main_v29 = out1 m c := by
  unfold W4; exact Function.update_self (Proc.devRef .tc main_v29) (out1 m c) (W3 m c)
theorem W4_of_ne (c : Dev nD) (b : Ref sig .tc) (hb : b ≠ main_v29) : W4 m c b = W3 m c b := by
  unfold W4; exact Function.update_of_ne (StableHlo.devRef_ne_of_ne hb) _ _
theorem W5_at (c : Dev nD) : W5 m c main_v30 = out2 m c := by
  unfold W5; exact Function.update_self (Proc.devRef .tc main_v30) (out2 m c) (W4 m c)
theorem W5_of_ne (c : Dev nD) (b : Ref sig .tc) (hb : b ≠ main_v30) : W5 m c b = W4 m c b := by
  unfold W5; exact Function.update_of_ne (StableHlo.devRef_ne_of_ne hb) _ _
theorem W7_at (c : Dev nD) : W7 m c main_v31 = out3 m c := by
  unfold W7; exact Function.update_self (Proc.devRef .tc main_v31) (out3 m c) (W6 m c)
theorem W7_of_ne (c : Dev nD) (b : Ref sig .tc) (hb : b ≠ main_v31) : W7 m c b = W6 m c b := by
  unfold W7; exact Function.update_of_ne (StableHlo.devRef_ne_of_ne hb) _ _
theorem W9_at (c : Dev nD) : W9 m c main_v32 = out4 m c := by
  unfold W9; exact Function.update_self (Proc.devRef .tc main_v32) (out4 m c) (W8 m c)
theorem W9_of_ne (c : Dev nD) (b : Ref sig .tc) (hb : b ≠ main_v32) : W9 m c b = W8 m c b := by
  unfold W9; exact Function.update_of_ne (StableHlo.devRef_ne_of_ne hb) _ _
theorem W10_at (c : Dev nD) : W10 m c main_v33 = out5 m c := by
  unfold W10; exact Function.update_self (Proc.devRef .tc main_v33) (out5 m c) (W9 m c)
theorem W10_of_ne (c : Dev nD) (b : Ref sig .tc) (hb : b ≠ main_v33) : W10 m c b = W9 m c b := by
  unfold W10; exact Function.update_of_ne (StableHlo.devRef_ne_of_ne hb) _ _
theorem W12_at (c : Dev nD) : W12 m c main_v34 = out6 m c := by
  unfold W12; exact Function.update_self (Proc.devRef .tc main_v34) (out6 m c) (W11 m c)
theorem W12_of_ne (c : Dev nD) (b : Ref sig .tc) (hb : b ≠ main_v34) : W12 m c b = W11 m c b := by
  unfold W12; exact Function.update_of_ne (StableHlo.devRef_ne_of_ne hb) _ _
theorem W14_at (c : Dev nD) : W14 m c main_v63 = out7 m c := by
  unfold W14; exact Function.update_self (Proc.devRef .tc main_v63) (out7 m c) (W13 m c)
theorem W14_of_ne (c : Dev nD) (b : Ref sig .tc) (hb : b ≠ main_v63) : W14 m c b = W13 m c b := by
  unfold W14; exact Function.update_of_ne (StableHlo.devRef_ne_of_ne hb) _ _
theorem W16_at (c : Dev nD) : W16 m c main_v64 = out8 m c := by
  unfold W16; exact Function.update_self (Proc.devRef .tc main_v64) (out8 m c) (W15 m c)
theorem W16_of_ne (c : Dev nD) (b : Ref sig .tc) (hb : b ≠ main_v64) : W16 m c b = W15 m c b := by
  unfold W16; exact Function.update_of_ne (StableHlo.devRef_ne_of_ne hb) _ _
theorem W17_at (c : Dev nD) : W17 m c main_v65 = out9 m c := by
  unfold W17; exact Function.update_self (Proc.devRef .tc main_v65) (out9 m c) (W16 m c)
theorem W17_of_ne (c : Dev nD) (b : Ref sig .tc) (hb : b ≠ main_v65) : W17 m c b = W16 m c b := by
  unfold W17; exact Function.update_of_ne (StableHlo.devRef_ne_of_ne hb) _ _
theorem W19_at (c : Dev nD) : W19 m c main_v66 = out10 m c := by
  unfold W19; exact Function.update_self (Proc.devRef .tc main_v66) (out10 m c) (W18 m c)
theorem W19_of_ne (c : Dev nD) (b : Ref sig .tc) (hb : b ≠ main_v66) : W19 m c b = W18 m c b := by
  unfold W19; exact Function.update_of_ne (StableHlo.devRef_ne_of_ne hb) _ _
theorem W21_at (c : Dev nD) : W21 m c main_v67 = out11 m c := by
  unfold W21; exact Function.update_self (Proc.devRef .tc main_v67) (out11 m c) (W20 m c)
theorem W21_of_ne (c : Dev nD) (b : Ref sig .tc) (hb : b ≠ main_v67) : W21 m c b = W20 m c b := by
  unfold W21; exact Function.update_of_ne (StableHlo.devRef_ne_of_ne hb) _ _
theorem W22_at (c : Dev nD) : W22 m c main_v68 = out12 m c := by
  unfold W22; exact Function.update_self (Proc.devRef .tc main_v68) (out12 m c) (W21 m c)
theorem W22_of_ne (c : Dev nD) (b : Ref sig .tc) (hb : b ≠ main_v68) : W22 m c b = W21 m c b := by
  unfold W22; exact Function.update_of_ne (StableHlo.devRef_ne_of_ne hb) _ _
theorem W24_at (c : Dev nD) : W24 m c main_v69 = out13 m c := by
  unfold W24; exact Function.update_self (Proc.devRef .tc main_v69) (out13 m c) (W23 m c)
theorem W24_of_ne (c : Dev nD) (b : Ref sig .tc) (hb : b ≠ main_v69) : W24 m c b = W23 m c b := by
  unfold W24; exact Function.update_of_ne (StableHlo.devRef_ne_of_ne hb) _ _

/-! ## The proof data family -/

/-- Every pipeline's proof data, each at its region's entry valuation: a literal match on the region. -/
def pdats : (p : Fin 14) → (c : Dev nD) → Dat τ (Elt F) Unit ℕ (UR sig nD τ) ℕ (cfgs p) c
  | ⟨0, _⟩ => fun c => Region0.dat (rd (W1 m)) c
  | ⟨1, _⟩ => fun c => Region1.dat (rd (W3 m)) c
  | ⟨2, _⟩ => fun c => Region2.dat (rd (W4 m)) c
  | ⟨3, _⟩ => fun c => Region3.dat (rd (W6 m)) c
  | ⟨4, _⟩ => fun c => Region4.dat (rd (W8 m)) c
  | ⟨5, _⟩ => fun c => Region5.dat (rd (W9 m)) c
  | ⟨6, _⟩ => fun c => Region6.dat (rd (W11 m)) c
  | ⟨7, _⟩ => fun c => Region7.dat (rd (W13 m)) c
  | ⟨8, _⟩ => fun c => Region8.dat (rd (W15 m)) c
  | ⟨9, _⟩ => fun c => Region9.dat (rd (W16 m)) c
  | ⟨10, _⟩ => fun c => Region10.dat (rd (W18 m)) c
  | ⟨11, _⟩ => fun c => Region11.dat (rd (W20 m)) c
  | ⟨12, _⟩ => fun c => Region12.dat (rd (W21 m)) c
  | ⟨13, _⟩ => fun c => Region13.dat (rd (W23 m)) c

/-- No core owes another anything: no level is assigned. -/
abbrev L : GSem nD τ sig → Finset Unit := fun _ => ∅
abbrev lv : GSem nD τ sig → Unit → ℕ := fun _ _ => 0

/-- What rides beside the buffers through every item: the core's generator register at some state and its dues, at
    nothing. -/
abbrev Rest (c : Dev nD) : sProp 𝕄 := iprop((∃ r, prngReg c r) ∗ ∃ W, owes (c : Thread nD τ) (0 : CellTallies nD τ sig Unit) W)

end Cert.KernelIdeal.Between

end
-- ==== Proof.KernelIdeal.Records.lean ====
/-
  The fourteen regions as segments of @main's run.

  A region's record is built ONCE, for any region `p`, from what differs between regions: the launch's layout facts, the
  body obligation of the region's proof data, how the region's invariant is made from the scoped buffers the launch hands
  over and gives them back, and what the valuation after the region holds — the region's arrays at what the write-backs
  leave, every other buffer as before (`regOf`). Around that: the region's arrays are split out of the thread state's
  unscoped buffers on entry and put back on exit; the generator register and the core's dues bypass the region; no kernel
  here has a semaphore of its own. The fourteen instances follow, each with its region's facts.
-/
import proofs.«108146_j77455440216408_2_alg».proof.Proof.KernelIdeal.Between

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-! ## A region's record, for any region -/

-- `iapply` of a library lemma stated over the pinned configuration unifies only when unification may unfold plain
-- definitions in a metavariable's type
set_option backward.isDefEq.respectTransparency.types false in
/-- Region `p` over the thread state "every unscoped buffer at a valuation, the generator register at some state, nothing
    owed": entered from `Win`, left at `Wout`. -/
def regOf (p : Fin 14) (hl : Pipeline.LaunchFacts (nD := nD) (τ := τ) cfgs p)
    (Win Wout : Dev nD → Valuation τ sig (Elt F))
    (hA : ∀ c w, (pdats m p c).A w = rd Win c (Pipeline.arrRef (Pipeline.pin (pcfgs (F := F)) adm p).spec w))
    (hq : ∀ c w, (pdats m p c).q w = fullShare)
    (howed : ∀ c t, (pdats m p c).owed t = 0)
    (hrec : ∀ c t, (pdats m p c).recorded t = Set.univ)
    (hbody : ∀ c, Pipeline.BodyObligationLoose (pdats m p c) (defs₀ (F := F)) Variants.none () Set.univ)
    (hin : ∀ c, (Pipeline.scopedRest (Ix := Unit) (Name := ℕ) (U := UR sig nD τ) (Lvl := ℕ) (Val := Elt F) (Pipeline.pin (pcfgs (F := F)) adm p).spec c : sProp 𝕄) ⊢ (pdats m p c).Φ 0)
    (hout : ∀ c, (pdats m p c).Φ (Fin.last (Pipeline.pin (pcfgs (F := F)) adm p).N)
      ⊢ (Pipeline.scopedRest (Ix := Unit) (Name := ℕ) (U := UR sig nD τ) (Lvl := ℕ) (Val := Elt F) (Pipeline.pin (pcfgs (F := F)) adm p).spec c : sProp 𝕄))
    (hF : ∀ c w, (pdats m p c).arrAt w (Pipeline.pin (pcfgs (F := F)) adm p).N = rd Wout c (Pipeline.arrRef (Pipeline.pin (pcfgs (F := F)) adm p).spec w))
    (hrest : ∀ c b, b ∉ Finset.univ.image (Pipeline.arrRef (Pipeline.pin (pcfgs (F := F)) adm p).spec) → rd Wout c b = rd Win c b) :
    Pipeline.RegionSeg (pcfgs (F := F)) adm (pdats m) () defs₀ Variants.none L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ Rest c)
  post c := iprop(StableHlo.held (c : Thread nD τ) (Pipeline.ucRefs τ sig) (Wout c) ∗ Rest c)
  X _ := BI.emp
  Y _ := BI.emp
  Z c := iprop(Pipeline.unscopedRest (Ix := Unit) (Name := ℕ) (U := UR sig nD τ) (Lvl := ℕ) (Pipeline.pin (pcfgs (F := F)) adm p).spec c (rd Win c) ∗ ∃ r, prngReg c r)
  hentry c := by
    rw [Pipeline.ownSems0_none]
    have hsplit := Pipeline.arrays_of_unscopedBufs (p := p) (pcfgs (F := F)) adm (pdats m) hl.win hl.arr_whole c
      ((pdats m p c).share_full (hq c)) (rd Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c 0]; trivial)
      rw [howed c 0]; iexact HO
    isplitr; · iempintro
    isplitl [Hrest]; · iexact Hrest
    iexact Hp
  hin c := by
    have h := hin c
    iintro ⟨-, -, Hr⟩
    iapply h; iexact Hr
  hout c := by
    rw [Pipeline.ownSems0_none]
    have h := hout c
    iintro HP
    isplitr; · iempintro
    isplitr; · iempintro
    iapply h; iexact HP
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (rd Win c) (rd Wout c) ((pdats m p c).arrAt · (Pipeline.pin (pcfgs (F := F)) adm p).N) (hF c) (hrest c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; rw [howed c (Fin.last _)]; iexact HO

/-! ## Region 0: its windows' arrays are `main_arg7`, `main_v15`, `main_v28`, the last one its result -/

set_option maxHeartbeats 1000000 in
def reg0 : Pipeline.RegionSeg (pcfgs (F := F)) adm (pdats m) () defs₀ Variants.none L lv 0 :=
  regOf m 0 launch0 (W1 m) (W2 m) (fun _ _ => rfl) (fun _ _ => rfl) (fun _ _ => rfl) (fun _ _ => rfl)
    (fun c => (Region0.body_obligation (rd (W1 m)) c).loose)
    (fun c => by
      show (Pipeline.scopedRest (Ix := Unit) (Name := ℕ) (U := UR sig nD τ) (Lvl := ℕ) (Val := Elt F) spec0 c : sProp 𝕄) ⊢ Region0.Phi c
      unfold Region0.Phi; rw [Pipeline.scopedRest_split_of_list (Ix := Unit) (Name := ℕ) (U := UR sig nD τ) (Lvl := ℕ) (Val := Elt F) spec0 c [cc0_scratch0] (by decide) (by decide)]
      exact .rfl)
    (fun c => by
      show Region0.Phi c ⊢ (Pipeline.scopedRest (Ix := Unit) (Name := ℕ) (U := UR sig nD τ) (Lvl := ℕ) (Val := Elt F) spec0 c : sProp 𝕄)
      unfold Region0.Phi; rw [Pipeline.scopedRest_split_of_list (Ix := Unit) (Name := ℕ) (U := UR sig nD τ) (Lvl := ℕ) (Val := Elt F) spec0 c [cc0_scratch0] (by decide) (by decide)]
      exact .rfl)
    (fun c w => by
      fin_cases w
      · exact ((pdats m 0 c).arrAt_in 0 rfl _).trans (W2_of_ne m c main_arg7 (by decide)).symm
      · exact ((pdats m 0 c).arrAt_in 1 rfl _).trans (W2_of_ne m c main_v15 (by decide)).symm
      · exact (W2_at m c).symm)
    (fun c b hb => W2_of_ne m c b fun h => hb (h ▸ Finset.mem_image.mpr ⟨2, Finset.mem_univ _, rfl⟩))

/-! ## Region 1: its windows' arrays are `main_arg4`, `main_v17`, `main_v28`, `main_v29`, the last one its result -/

set_option maxHeartbeats 1000000 in
def reg1 : Pipeline.RegionSeg (pcfgs (F := F)) adm (pdats m) () defs₀ Variants.none L lv 1 :=
  regOf m 1 launch1 (W3 m) (W4 m) (fun _ _ => rfl) (fun _ _ => rfl) (fun _ _ => rfl) (fun _ _ => rfl)
    (fun c => (Region1.body_obligation (rd (W3 m)) c).loose)
    (fun c => by
      show (Pipeline.scopedRest (Ix := Unit) (Name := ℕ) (U := UR sig nD τ) (Lvl := ℕ) (Val := Elt F) spec1 c : sProp 𝕄) ⊢ Region1.PhiS (rd (W3 m)) c 0 (Nat.zero_le _)
      rw [Region1.PhiS_zero _ c 0 _ rfl]; rw [Pipeline.scopedRest_split_of_list (Ix := Unit) (Name := ℕ) (U := UR sig nD τ) (Lvl := ℕ) (Val := Elt F) spec1 c [cc1_scratch0] (by decide) (by decide)]
      exact .rfl)
    (fun c => by
      show Region1.PhiS (rd (W3 m)) c (Fin.last cfg1.N).val (Nat.le_of_lt_succ (Fin.last cfg1.N).isLt) ⊢ (Pipeline.scopedRest (Ix := Unit) (Name := ℕ) (U := UR sig nD τ) (Lvl := ℕ) (Val := Elt F) spec1 c : sProp 𝕄)
      rw [Pipeline.scopedRest_split_of_list (Ix := Unit) (Name := ℕ) (U := UR sig nD τ) (Lvl := ℕ) (Val := Elt F) spec1 c [cc1_scratch0] (by decide) (by decide)]
      refine (Region1.PhiS_some (rd (W3 m)) c _ _).trans (sep_mono ?_ .rfl)
      show iprop(∃ d, owns (c : Thread nD τ) Region1.mAcc fullShare d)
        ⊢ iprop(∃ f : Buf (Elt F) ((c.tc : Thread nD τ).loc cc1_scratch0), ((c.tc : Thread nD τ).loc cc1_scratch0) ↦{fullShare} f)
      simp only [owns_whole]; exact .rfl)
    (fun c w => by
      fin_cases w
      · exact ((pdats m 1 c).arrAt_in 0 rfl _).trans (W4_of_ne m c main_arg4 (by decide)).symm
      · exact ((pdats m 1 c).arrAt_in 1 rfl _).trans (W4_of_ne m c main_v17 (by decide)).symm
      · exact ((pdats m 1 c).arrAt_in 2 rfl _).trans (W4_of_ne m c main_v28 (by decide)).symm
      · exact (W4_at m c).symm)
    (fun c b hb => W4_of_ne m c b fun h => hb (h ▸ Finset.mem_image.mpr ⟨3, Finset.mem_univ _, rfl⟩))

/-! ## Region 2: its windows' arrays are `main_arg3`, `main_v19`, `main_v30`, the last one its result -/

set_option maxHeartbeats 1000000 in
def reg2 : Pipeline.RegionSeg (pcfgs (F := F)) adm (pdats m) () defs₀ Variants.none L lv 2 :=
  regOf m 2 launch2 (W4 m) (W5 m) (fun _ _ => rfl) (fun _ _ => rfl) (fun _ _ => rfl) (fun _ _ => rfl)
    (fun c => (Region2.body_obligation (rd (W4 m)) c).loose)
    (fun c => by
      show (Pipeline.scopedRest (Ix := Unit) (Name := ℕ) (U := UR sig nD τ) (Lvl := ℕ) (Val := Elt F) spec2 c : sProp 𝕄) ⊢ Region2.Phi c
      unfold Region2.Phi; rw [Pipeline.scopedRest_split_of_list (Ix := Unit) (Name := ℕ) (U := UR sig nD τ) (Lvl := ℕ) (Val := Elt F) spec2 c [cc2_scratch0] (by decide) (by decide)]
      exact .rfl)
    (fun c => by
      show Region2.Phi c ⊢ (Pipeline.scopedRest (Ix := Unit) (Name := ℕ) (U := UR sig nD τ) (Lvl := ℕ) (Val := Elt F) spec2 c : sProp 𝕄)
      unfold Region2.Phi; rw [Pipeline.scopedRest_split_of_list (Ix := Unit) (Name := ℕ) (U := UR sig nD τ) (Lvl := ℕ) (Val := Elt F) spec2 c [cc2_scratch0] (by decide) (by decide)]
      exact .rfl)
    (fun c w => by
      fin_cases w
      · exact ((pdats m 2 c).arrAt_in 0 rfl _).trans (W5_of_ne m c main_arg3 (by decide)).symm
      · exact ((pdats m 2 c).arrAt_in 1 rfl _).trans (W5_of_ne m c main_v19 (by decide)).symm
      · exact (W5_at m c).symm)
    (fun c b hb => W5_of_ne m c b fun h => hb (h ▸ Finset.mem_image.mpr ⟨2, Finset.mem_univ _, rfl⟩))

/-! ## Region 3: its windows' arrays are `main_arg9`, `main_arg8`, `main_v21`, `main_v30`, `main_v31`, the last one its result -/

set_option maxHeartbeats 1000000 in
def reg3 : Pipeline.RegionSeg (pcfgs (F := F)) adm (pdats m) () defs₀ Variants.none L lv 3 :=
  regOf m 3 launch3 (W6 m) (W7 m) (fun _ _ => rfl) (fun _ _ => rfl) (fun _ _ => rfl) (fun _ _ => rfl)
    (fun c => (Region3.body_obligation (rd (W6 m)) c).loose)
    (fun c => by
      show (Pipeline.scopedRest (Ix := Unit) (Name := ℕ) (U := UR sig nD τ) (Lvl := ℕ) (Val := Elt F) spec3 c : sProp 𝕄) ⊢ Region3.PhiS (rd (W6 m)) c 0 (Nat.zero_le _)
      rw [Region3.PhiS_zero _ c 0 _ rfl]; rw [Pipeline.scopedRest_split_of_list (Ix := Unit) (Name := ℕ) (U := UR sig nD τ) (Lvl := ℕ) (Val := Elt F) spec3 c [cc3_scratch0] (by decide) (by decide)]
      exact .rfl)
    (fun c => by
      show Region3.PhiS (rd (W6 m)) c (Fin.last cfg3.N).val (Nat.le_of_lt_succ (Fin.last cfg3.N).isLt) ⊢ (Pipeline.scopedRest (Ix := Unit) (Name := ℕ) (U := UR sig nD τ) (Lvl := ℕ) (Val := Elt F) spec3 c : sProp 𝕄)
      rw [Pipeline.scopedRest_split_of_list (Ix := Unit) (Name := ℕ) (U := UR sig nD τ) (Lvl := ℕ) (Val := Elt F) spec3 c [cc3_scratch0] (by decide) (by decide)]
      refine (Region3.PhiS_some (rd (W6 m)) c _ _).trans (sep_mono ?_ .rfl)
      show iprop(∃ d, owns (c : Thread nD τ) Region3.mAcc fullShare d)
        ⊢ iprop(∃ f : Buf (Elt F) ((c.tc : Thread nD τ).loc cc3_scratch0), ((c.tc : Thread nD τ).loc cc3_scratch0) ↦{fullShare} f)
      simp only [owns_whole]; exact .rfl)
    (fun c w => by
      fin_cases w
      · exact ((pdats m 3 c).arrAt_in 0 rfl _).trans (W7_of_ne m c main_arg9 (by decide)).symm
      · exact ((pdats m 3 c).arrAt_in 1 rfl _).trans (W7_of_ne m c main_arg8 (by decide)).symm
      · exact ((pdats m 3 c).arrAt_in 2 rfl _).trans (W7_of_ne m c main_v21 (by decide)).symm
      · exact ((pdats m 3 c).arrAt_in 3 rfl _).trans (W7_of_ne m c main_v30 (by decide)).symm
      · exact (W7_at m c).symm)
    (fun c b hb => W7_of_ne m c b fun h => hb (h ▸ Finset.mem_image.mpr ⟨4, Finset.mem_univ _, rfl⟩))

/-! ## Region 4: its windows' arrays are `main_arg6`, `main_v23`, `main_v31`, `main_v32`, the last one its result -/

set_option maxHeartbeats 1000000 in
def reg4 : Pipeline.RegionSeg (pcfgs (F := F)) adm (pdats m) () defs₀ Variants.none L lv 4 :=
  regOf m 4 launch4 (W8 m) (W9 m) (fun _ _ => rfl) (fun _ _ => rfl) (fun _ _ => rfl) (fun _ _ => rfl)
    (fun c => (Region4.body_obligation (rd (W8 m)) c).loose)
    (fun c => by
      show (Pipeline.scopedRest (Ix := Unit) (Name := ℕ) (U := UR sig nD τ) (Lvl := ℕ) (Val := Elt F) spec4 c : sProp 𝕄) ⊢ Region4.PhiS (rd (W8 m)) c 0 (Nat.zero_le _)
      rw [Region4.PhiS_zero _ c 0 _ rfl]; rw [Pipeline.scopedRest_split_of_list (Ix := Unit) (Name := ℕ) (U := UR sig nD τ) (Lvl := ℕ) (Val := Elt F) spec4 c [cc4_scratch0] (by decide) (by decide)]
      exact .rfl)
    (fun c => by
      show Region4.PhiS (rd (W8 m)) c (Fin.last cfg4.N).val (Nat.le_of_lt_succ (Fin.last cfg4.N).isLt) ⊢ (Pipeline.scopedRest (Ix := Unit) (Name := ℕ) (U := UR sig nD τ) (Lvl := ℕ) (Val := Elt F) spec4 c : sProp 𝕄)
      rw [Pipeline.scopedRest_split_of_list (Ix := Unit) (Name := ℕ) (U := UR sig nD τ) (Lvl := ℕ) (Val := Elt F) spec4 c [cc4_scratch0] (by decide) (by decide)]
      refine (Region4.PhiS_some (rd (W8 m)) c _ _).trans (sep_mono ?_ .rfl)
      show iprop(∃ d, owns (c : Thread nD τ) Region4.mAcc fullShare d)
        ⊢ iprop(∃ f : Buf (Elt F) ((c.tc : Thread nD τ).loc cc4_scratch0), ((c.tc : Thread nD τ).loc cc4_scratch0) ↦{fullShare} f)
      simp only [owns_whole]; exact .rfl)
    (fun c w => by
      fin_cases w
      · exact ((pdats m 4 c).arrAt_in 0 rfl _).trans (W9_of_ne m c main_arg6 (by decide)).symm
      · exact ((pdats m 4 c).arrAt_in 1 rfl _).trans (W9_of_ne m c main_v23 (by decide)).symm
      · exact ((pdats m 4 c).arrAt_in 2 rfl _).trans (W9_of_ne m c main_v31 (by decide)).symm
      · exact (W9_at m c).symm)
    (fun c b hb => W9_of_ne m c b fun h => hb (h ▸ Finset.mem_image.mpr ⟨3, Finset.mem_univ _, rfl⟩))

/-! ## Region 5: its windows' arrays are `main_arg5`, `main_v25`, `main_v33`, the last one its result -/

set_option maxHeartbeats 1000000 in
def reg5 : Pipeline.RegionSeg (pcfgs (F := F)) adm (pdats m) () defs₀ Variants.none L lv 5 :=
  regOf m 5 launch5 (W9 m) (W10 m) (fun _ _ => rfl) (fun _ _ => rfl) (fun _ _ => rfl) (fun _ _ => rfl)
    (fun c => (Region5.body_obligation (rd (W9 m)) c).loose)
    (fun c => by
      show (Pipeline.scopedRest (Ix := Unit) (Name := ℕ) (U := UR sig nD τ) (Lvl := ℕ) (Val := Elt F) spec5 c : sProp 𝕄) ⊢ Region5.PhiS (rd (W9 m)) c 0 (Nat.zero_le _)
      rw [Region5.PhiS_zero _ c 0 _ rfl]; rw [Pipeline.scopedRest_split_of_list (Ix := Unit) (Name := ℕ) (U := UR sig nD τ) (Lvl := ℕ) (Val := Elt F) spec5 c [cc5_scratch0] (by decide) (by decide)]
      exact .rfl)
    (fun c => by
      show Region5.PhiS (rd (W9 m)) c (Fin.last cfg5.N).val (Nat.le_of_lt_succ (Fin.last cfg5.N).isLt) ⊢ (Pipeline.scopedRest (Ix := Unit) (Name := ℕ) (U := UR sig nD τ) (Lvl := ℕ) (Val := Elt F) spec5 c : sProp 𝕄)
      rw [Pipeline.scopedRest_split_of_list (Ix := Unit) (Name := ℕ) (U := UR sig nD τ) (Lvl := ℕ) (Val := Elt F) spec5 c [cc5_scratch0] (by decide) (by decide)]
      refine (Region5.PhiS_some (rd (W9 m)) c _ _).trans (sep_mono ?_ .rfl)
      show iprop(∃ d, owns (c : Thread nD τ) Region5.mAcc fullShare d)
        ⊢ iprop(∃ f : Buf (Elt F) ((c.tc : Thread nD τ).loc cc5_scratch0), ((c.tc : Thread nD τ).loc cc5_scratch0) ↦{fullShare} f)
      simp only [owns_whole]; exact .rfl)
    (fun c w => by
      fin_cases w
      · exact ((pdats m 5 c).arrAt_in 0 rfl _).trans (W10_of_ne m c main_arg5 (by decide)).symm
      · exact ((pdats m 5 c).arrAt_in 1 rfl _).trans (W10_of_ne m c main_v25 (by decide)).symm
      · exact (W10_at m c).symm)
    (fun c b hb => W10_of_ne m c b fun h => hb (h ▸ Finset.mem_image.mpr ⟨2, Finset.mem_univ _, rfl⟩))

/-! ## Region 6: its windows' arrays are `main_arg10`, `main_v27`, `main_v33`, `main_v34`, the last one its result -/

set_option maxHeartbeats 1000000 in
def reg6 : Pipeline.RegionSeg (pcfgs (F := F)) adm (pdats m) () defs₀ Variants.none L lv 6 :=
  regOf m 6 launch6 (W11 m) (W12 m) (fun _ _ => rfl) (fun _ _ => rfl) (fun _ _ => rfl) (fun _ _ => rfl)
    (fun c => (Region6.body_obligation (rd (W11 m)) c).loose)
    (fun c => by
      show (Pipeline.scopedRest (Ix := Unit) (Name := ℕ) (U := UR sig nD τ) (Lvl := ℕ) (Val := Elt F) spec6 c : sProp 𝕄) ⊢ Region6.PhiS (rd (W11 m)) c 0 (Nat.zero_le _)
      rw [Region6.PhiS_zero _ c 0 _ rfl]; rw [Pipeline.scopedRest_split_of_list (Ix := Unit) (Name := ℕ) (U := UR sig nD τ) (Lvl := ℕ) (Val := Elt F) spec6 c [cc6_scratch0] (by decide) (by decide)]
      exact .rfl)
    (fun c => by
      show Region6.PhiS (rd (W11 m)) c (Fin.last cfg6.N).val (Nat.le_of_lt_succ (Fin.last cfg6.N).isLt) ⊢ (Pipeline.scopedRest (Ix := Unit) (Name := ℕ) (U := UR sig nD τ) (Lvl := ℕ) (Val := Elt F) spec6 c : sProp 𝕄)
      rw [Pipeline.scopedRest_split_of_list (Ix := Unit) (Name := ℕ) (U := UR sig nD τ) (Lvl := ℕ) (Val := Elt F) spec6 c [cc6_scratch0] (by decide) (by decide)]
      refine (Region6.PhiS_some (rd (W11 m)) c _ _).trans (sep_mono ?_ .rfl)
      show iprop(∃ d, owns (c : Thread nD τ) Region6.mAcc fullShare d)
        ⊢ iprop(∃ f : Buf (Elt F) ((c.tc : Thread nD τ).loc cc6_scratch0), ((c.tc : Thread nD τ).loc cc6_scratch0) ↦{fullShare} f)
      simp only [owns_whole]; exact .rfl)
    (fun c w => by
      fin_cases w
      · exact ((pdats m 6 c).arrAt_in 0 rfl _).trans (W12_of_ne m c main_arg10 (by decide)).symm
      · exact ((pdats m 6 c).arrAt_in 1 rfl _).trans (W12_of_ne m c main_v27 (by decide)).symm
      · exact ((pdats m 6 c).arrAt_in 2 rfl _).trans (W12_of_ne m c main_v33 (by decide)).symm
      · exact (W12_at m c).symm)
    (fun c b hb => W12_of_ne m c b fun h => hb (h ▸ Finset.mem_image.mpr ⟨3, Finset.mem_univ _, rfl⟩))

/-! ## Region 7: its windows' arrays are `main_arg7`, `main_v50`, `main_v63`, the last one its result -/

set_option maxHeartbeats 1000000 in
def reg7 : Pipeline.RegionSeg (pcfgs (F := F)) adm (pdats m) () defs₀ Variants.none L lv 7 :=
  regOf m 7 launch7 (W13 m) (W14 m) (fun _ _ => rfl) (fun _ _ => rfl) (fun _ _ => rfl) (fun _ _ => rfl)
    (fun c => (Region7.body_obligation (rd (W13 m)) c).loose)
    (fun c => by
      show (Pipeline.scopedRest (Ix := Unit) (Name := ℕ) (U := UR sig nD τ) (Lvl := ℕ) (Val := Elt F) spec7 c : sProp 𝕄) ⊢ Region7.Phi c
      unfold Region7.Phi; rw [Pipeline.scopedRest_split_of_list (Ix := Unit) (Name := ℕ) (U := UR sig nD τ) (Lvl := ℕ) (Val := Elt F) spec7 c [cc7_scratch0] (by decide) (by decide)]
      exact .rfl)
    (fun c => by
      show Region7.Phi c ⊢ (Pipeline.scopedRest (Ix := Unit) (Name := ℕ) (U := UR sig nD τ) (Lvl := ℕ) (Val := Elt F) spec7 c : sProp 𝕄)
      unfold Region7.Phi; rw [Pipeline.scopedRest_split_of_list (Ix := Unit) (Name := ℕ) (U := UR sig nD τ) (Lvl := ℕ) (Val := Elt F) spec7 c [cc7_scratch0] (by decide) (by decide)]
      exact .rfl)
    (fun c w => by
      fin_cases w
      · exact ((pdats m 7 c).arrAt_in 0 rfl _).trans (W14_of_ne m c main_arg7 (by decide)).symm
      · exact ((pdats m 7 c).arrAt_in 1 rfl _).trans (W14_of_ne m c main_v50 (by decide)).symm
      · exact (W14_at m c).symm)
    (fun c b hb => W14_of_ne m c b fun h => hb (h ▸ Finset.mem_image.mpr ⟨2, Finset.mem_univ _, rfl⟩))

/-! ## Region 8: its windows' arrays are `main_arg4`, `main_v52`, `main_v63`, `main_v64`, the last one its result -/

set_option maxHeartbeats 1000000 in
def reg8 : Pipeline.RegionSeg (pcfgs (F := F)) adm (pdats m) () defs₀ Variants.none L lv 8 :=
  regOf m 8 launch8 (W15 m) (W16 m) (fun _ _ => rfl) (fun _ _ => rfl) (fun _ _ => rfl) (fun _ _ => rfl)
    (fun c => (Region8.body_obligation (rd (W15 m)) c).loose)
    (fun c => by
      show (Pipeline.scopedRest (Ix := Unit) (Name := ℕ) (U := UR sig nD τ) (Lvl := ℕ) (Val := Elt F) spec8 c : sProp 𝕄) ⊢ Region8.PhiS (rd (W15 m)) c 0 (Nat.zero_le _)
      rw [Region8.PhiS_zero _ c 0 _ rfl]; rw [Pipeline.scopedRest_split_of_list (Ix := Unit) (Name := ℕ) (U := UR sig nD τ) (Lvl := ℕ) (Val := Elt F) spec8 c [cc8_scratch0] (by decide) (by decide)]
      exact .rfl)
    (fun c => by
      show Region8.PhiS (rd (W15 m)) c (Fin.last cfg8.N).val (Nat.le_of_lt_succ (Fin.last cfg8.N).isLt) ⊢ (Pipeline.scopedRest (Ix := Unit) (Name := ℕ) (U := UR sig nD τ) (Lvl := ℕ) (Val := Elt F) spec8 c : sProp 𝕄)
      rw [Pipeline.scopedRest_split_of_list (Ix := Unit) (Name := ℕ) (U := UR sig nD τ) (Lvl := ℕ) (Val := Elt F) spec8 c [cc8_scratch0] (by decide) (by decide)]
      refine (Region8.PhiS_some (rd (W15 m)) c _ _).trans (sep_mono ?_ .rfl)
      show iprop(∃ d, owns (c : Thread nD τ) Region8.mAcc fullShare d)
        ⊢ iprop(∃ f : Buf (Elt F) ((c.tc : Thread nD τ).loc cc8_scratch0), ((c.tc : Thread nD τ).loc cc8_scratch0) ↦{fullShare} f)
      simp only [owns_whole]; exact .rfl)
    (fun c w => by
      fin_cases w
      · exact ((pdats m 8 c).arrAt_in 0 rfl _).trans (W16_of_ne m c main_arg4 (by decide)).symm
      · exact ((pdats m 8 c).arrAt_in 1 rfl _).trans (W16_of_ne m c main_v52 (by decide)).symm
      · exact ((pdats m 8 c).arrAt_in 2 rfl _).trans (W16_of_ne m c main_v63 (by decide)).symm
      · exact (W16_at m c).symm)
    (fun c b hb => W16_of_ne m c b fun h => hb (h ▸ Finset.mem_image.mpr ⟨3, Finset.mem_univ _, rfl⟩))

/-! ## Region 9: its windows' arrays are `main_arg3`, `main_v54`, `main_v65`, the last one its result -/

set_option maxHeartbeats 1000000 in
def reg9 : Pipeline.RegionSeg (pcfgs (F := F)) adm (pdats m) () defs₀ Variants.none L lv 9 :=
  regOf m 9 launch9 (W16 m) (W17 m) (fun _ _ => rfl) (fun _ _ => rfl) (fun _ _ => rfl) (fun _ _ => rfl)
    (fun c => (Region9.body_obligation (rd (W16 m)) c).loose)
    (fun c => by
      show (Pipeline.scopedRest (Ix := Unit) (Name := ℕ) (U := UR sig nD τ) (Lvl := ℕ) (Val := Elt F) spec9 c : sProp 𝕄) ⊢ Region9.Phi c
      unfold Region9.Phi; rw [Pipeline.scopedRest_split_of_list (Ix := Unit) (Name := ℕ) (U := UR sig nD τ) (Lvl := ℕ) (Val := Elt F) spec9 c [cc9_scratch0] (by decide) (by decide)]
      exact .rfl)
    (fun c => by
      show Region9.Phi c ⊢ (Pipeline.scopedRest (Ix := Unit) (Name := ℕ) (U := UR sig nD τ) (Lvl := ℕ) (Val := Elt F) spec9 c : sProp 𝕄)
      unfold Region9.Phi; rw [Pipeline.scopedRest_split_of_list (Ix := Unit) (Name := ℕ) (U := UR sig nD τ) (Lvl := ℕ) (Val := Elt F) spec9 c [cc9_scratch0] (by decide) (by decide)]
      exact .rfl)
    (fun c w => by
      fin_cases w
      · exact ((pdats m 9 c).arrAt_in 0 rfl _).trans (W17_of_ne m c main_arg3 (by decide)).symm
      · exact ((pdats m 9 c).arrAt_in 1 rfl _).trans (W17_of_ne m c main_v54 (by decide)).symm
      · exact (W17_at m c).symm)
    (fun c b hb => W17_of_ne m c b fun h => hb (h ▸ Finset.mem_image.mpr ⟨2, Finset.mem_univ _, rfl⟩))

/-! ## Region 10: its windows' arrays are `main_arg9`, `main_arg8`, `main_v56`, `main_v65`, `main_v66`, the last one its result -/

set_option maxHeartbeats 1000000 in
def reg10 : Pipeline.RegionSeg (pcfgs (F := F)) adm (pdats m) () defs₀ Variants.none L lv 10 :=
  regOf m 10 launch10 (W18 m) (W19 m) (fun _ _ => rfl) (fun _ _ => rfl) (fun _ _ => rfl) (fun _ _ => rfl)
    (fun c => (Region10.body_obligation (rd (W18 m)) c).loose)
    (fun c => by
      show (Pipeline.scopedRest (Ix := Unit) (Name := ℕ) (U := UR sig nD τ) (Lvl := ℕ) (Val := Elt F) spec10 c : sProp 𝕄) ⊢ Region10.PhiS (rd (W18 m)) c 0 (Nat.zero_le _)
      rw [Region10.PhiS_zero _ c 0 _ rfl]; rw [Pipeline.scopedRest_split_of_list (Ix := Unit) (Name := ℕ) (U := UR sig nD τ) (Lvl := ℕ) (Val := Elt F) spec10 c [cc10_scratch0] (by decide) (by decide)]
      exact .rfl)
    (fun c => by
      show Region10.PhiS (rd (W18 m)) c (Fin.last cfg10.N).val (Nat.le_of_lt_succ (Fin.last cfg10.N).isLt) ⊢ (Pipeline.scopedRest (Ix := Unit) (Name := ℕ) (U := UR sig nD τ) (Lvl := ℕ) (Val := Elt F) spec10 c : sProp 𝕄)
      rw [Pipeline.scopedRest_split_of_list (Ix := Unit) (Name := ℕ) (U := UR sig nD τ) (Lvl := ℕ) (Val := Elt F) spec10 c [cc10_scratch0] (by decide) (by decide)]
      refine (Region10.PhiS_some (rd (W18 m)) c _ _).trans (sep_mono ?_ .rfl)
      show iprop(∃ d, owns (c : Thread nD τ) Region10.mAcc fullShare d)
        ⊢ iprop(∃ f : Buf (Elt F) ((c.tc : Thread nD τ).loc cc10_scratch0), ((c.tc : Thread nD τ).loc cc10_scratch0) ↦{fullShare} f)
      simp only [owns_whole]; exact .rfl)
    (fun c w => by
      fin_cases w
      · exact ((pdats m 10 c).arrAt_in 0 rfl _).trans (W19_of_ne m c main_arg9 (by decide)).symm
      · exact ((pdats m 10 c).arrAt_in 1 rfl _).trans (W19_of_ne m c main_arg8 (by decide)).symm
      · exact ((pdats m 10 c).arrAt_in 2 rfl _).trans (W19_of_ne m c main_v56 (by decide)).symm
      · exact ((pdats m 10 c).arrAt_in 3 rfl _).trans (W19_of_ne m c main_v65 (by decide)).symm
      · exact (W19_at m c).symm)
    (fun c b hb => W19_of_ne m c b fun h => hb (h ▸ Finset.mem_image.mpr ⟨4, Finset.mem_univ _, rfl⟩))

/-! ## Region 11: its windows' arrays are `main_arg6`, `main_v58`, `main_v66`, `main_v67`, the last one its result -/

set_option maxHeartbeats 1000000 in
def reg11 : Pipeline.RegionSeg (pcfgs (F := F)) adm (pdats m) () defs₀ Variants.none L lv 11 :=
  regOf m 11 launch11 (W20 m) (W21 m) (fun _ _ => rfl) (fun _ _ => rfl) (fun _ _ => rfl) (fun _ _ => rfl)
    (fun c => (Region11.body_obligation (rd (W20 m)) c).loose)
    (fun c => by
      show (Pipeline.scopedRest (Ix := Unit) (Name := ℕ) (U := UR sig nD τ) (Lvl := ℕ) (Val := Elt F) spec11 c : sProp 𝕄) ⊢ Region11.PhiS (rd (W20 m)) c 0 (Nat.zero_le _)
      rw [Region11.PhiS_zero _ c 0 _ rfl]; rw [Pipeline.scopedRest_split_of_list (Ix := Unit) (Name := ℕ) (U := UR sig nD τ) (Lvl := ℕ) (Val := Elt F) spec11 c [cc11_scratch0] (by decide) (by decide)]
      exact .rfl)
    (fun c => by
      show Region11.PhiS (rd (W20 m)) c (Fin.last cfg11.N).val (Nat.le_of_lt_succ (Fin.last cfg11.N).isLt) ⊢ (Pipeline.scopedRest (Ix := Unit) (Name := ℕ) (U := UR sig nD τ) (Lvl := ℕ) (Val := Elt F) spec11 c : sProp 𝕄)
      rw [Pipeline.scopedRest_split_of_list (Ix := Unit) (Name := ℕ) (U := UR sig nD τ) (Lvl := ℕ) (Val := Elt F) spec11 c [cc11_scratch0] (by decide) (by decide)]
      refine (Region11.PhiS_some (rd (W20 m)) c _ _).trans (sep_mono ?_ .rfl)
      show iprop(∃ d, owns (c : Thread nD τ) Region11.mAcc fullShare d)
        ⊢ iprop(∃ f : Buf (Elt F) ((c.tc : Thread nD τ).loc cc11_scratch0), ((c.tc : Thread nD τ).loc cc11_scratch0) ↦{fullShare} f)
      simp only [owns_whole]; exact .rfl)
    (fun c w => by
      fin_cases w
      · exact ((pdats m 11 c).arrAt_in 0 rfl _).trans (W21_of_ne m c main_arg6 (by decide)).symm
      · exact ((pdats m 11 c).arrAt_in 1 rfl _).trans (W21_of_ne m c main_v58 (by decide)).symm
      · exact ((pdats m 11 c).arrAt_in 2 rfl _).trans (W21_of_ne m c main_v66 (by decide)).symm
      · exact (W21_at m c).symm)
    (fun c b hb => W21_of_ne m c b fun h => hb (h ▸ Finset.mem_image.mpr ⟨3, Finset.mem_univ _, rfl⟩))

/-! ## Region 12: its windows' arrays are `main_arg5`, `main_v60`, `main_v68`, the last one its result -/

set_option maxHeartbeats 1000000 in
def reg12 : Pipeline.RegionSeg (pcfgs (F := F)) adm (pdats m) () defs₀ Variants.none L lv 12 :=
  regOf m 12 launch12 (W21 m) (W22 m) (fun _ _ => rfl) (fun _ _ => rfl) (fun _ _ => rfl) (fun _ _ => rfl)
    (fun c => (Region12.body_obligation (rd (W21 m)) c).loose)
    (fun c => by
      show (Pipeline.scopedRest (Ix := Unit) (Name := ℕ) (U := UR sig nD τ) (Lvl := ℕ) (Val := Elt F) spec12 c : sProp 𝕄) ⊢ Region12.PhiS (rd (W21 m)) c 0 (Nat.zero_le _)
      rw [Region12.PhiS_zero _ c 0 _ rfl]; rw [Pipeline.scopedRest_split_of_list (Ix := Unit) (Name := ℕ) (U := UR sig nD τ) (Lvl := ℕ) (Val := Elt F) spec12 c [cc12_scratch0] (by decide) (by decide)]
      exact .rfl)
    (fun c => by
      show Region12.PhiS (rd (W21 m)) c (Fin.last cfg12.N).val (Nat.le_of_lt_succ (Fin.last cfg12.N).isLt) ⊢ (Pipeline.scopedRest (Ix := Unit) (Name := ℕ) (U := UR sig nD τ) (Lvl := ℕ) (Val := Elt F) spec12 c : sProp 𝕄)
      rw [Pipeline.scopedRest_split_of_list (Ix := Unit) (Name := ℕ) (U := UR sig nD τ) (Lvl := ℕ) (Val := Elt F) spec12 c [cc12_scratch0] (by decide) (by decide)]
      refine (Region12.PhiS_some (rd (W21 m)) c _ _).trans (sep_mono ?_ .rfl)
      show iprop(∃ d, owns (c : Thread nD τ) Region12.mAcc fullShare d)
        ⊢ iprop(∃ f : Buf (Elt F) ((c.tc : Thread nD τ).loc cc12_scratch0), ((c.tc : Thread nD τ).loc cc12_scratch0) ↦{fullShare} f)
      simp only [owns_whole]; exact .rfl)
    (fun c w => by
      fin_cases w
      · exact ((pdats m 12 c).arrAt_in 0 rfl _).trans (W22_of_ne m c main_arg5 (by decide)).symm
      · exact ((pdats m 12 c).arrAt_in 1 rfl _).trans (W22_of_ne m c main_v60 (by decide)).symm
      · exact (W22_at m c).symm)
    (fun c b hb => W22_of_ne m c b fun h => hb (h ▸ Finset.mem_image.mpr ⟨2, Finset.mem_univ _, rfl⟩))

/-! ## Region 13: its windows' arrays are `main_arg10`, `main_v62`, `main_v68`, `main_v69`, the last one its result -/

set_option maxHeartbeats 1000000 in
def reg13 : Pipeline.RegionSeg (pcfgs (F := F)) adm (pdats m) () defs₀ Variants.none L lv 13 :=
  regOf m 13 launch13 (W23 m) (W24 m) (fun _ _ => rfl) (fun _ _ => rfl) (fun _ _ => rfl) (fun _ _ => rfl)
    (fun c => (Region13.body_obligation (rd (W23 m)) c).loose)
    (fun c => by
      show (Pipeline.scopedRest (Ix := Unit) (Name := ℕ) (U := UR sig nD τ) (Lvl := ℕ) (Val := Elt F) spec13 c : sProp 𝕄) ⊢ Region13.PhiS (rd (W23 m)) c 0 (Nat.zero_le _)
      rw [Region13.PhiS_zero _ c 0 _ rfl]; rw [Pipeline.scopedRest_split_of_list (Ix := Unit) (Name := ℕ) (U := UR sig nD τ) (Lvl := ℕ) (Val := Elt F) spec13 c [cc13_scratch0] (by decide) (by decide)]
      exact .rfl)
    (fun c => by
      show Region13.PhiS (rd (W23 m)) c (Fin.last cfg13.N).val (Nat.le_of_lt_succ (Fin.last cfg13.N).isLt) ⊢ (Pipeline.scopedRest (Ix := Unit) (Name := ℕ) (U := UR sig nD τ) (Lvl := ℕ) (Val := Elt F) spec13 c : sProp 𝕄)
      rw [Pipeline.scopedRest_split_of_list (Ix := Unit) (Name := ℕ) (U := UR sig nD τ) (Lvl := ℕ) (Val := Elt F) spec13 c [cc13_scratch0] (by decide) (by decide)]
      refine (Region13.PhiS_some (rd (W23 m)) c _ _).trans (sep_mono ?_ .rfl)
      show iprop(∃ d, owns (c : Thread nD τ) Region13.mAcc fullShare d)
        ⊢ iprop(∃ f : Buf (Elt F) ((c.tc : Thread nD τ).loc cc13_scratch0), ((c.tc : Thread nD τ).loc cc13_scratch0) ↦{fullShare} f)
      simp only [owns_whole]; exact .rfl)
    (fun c w => by
      fin_cases w
      · exact ((pdats m 13 c).arrAt_in 0 rfl _).trans (W24_of_ne m c main_arg10 (by decide)).symm
      · exact ((pdats m 13 c).arrAt_in 1 rfl _).trans (W24_of_ne m c main_v62 (by decide)).symm
      · exact ((pdats m 13 c).arrAt_in 2 rfl _).trans (W24_of_ne m c main_v68 (by decide)).symm
      · exact (W24_at m c).symm)
    (fun c b hb => W24_of_ne m c b fun h => hb (h ▸ Finset.mem_image.mpr ⟨3, Finset.mem_univ _, rfl⟩))

end Cert.KernelIdeal.Between

end
-- ==== Proof.KernelIdeal.Chain.lean ====
/-
  Each region is entered from the thread state the item before it leaves and leaves the one the next item is entered from:
  the generated chain of valuations, with the regions' results at `outs`, is the chain the records are stated over.
-/
import proofs.«108146_j77455440216408_2_alg».proof.Proof.KernelIdeal.Records

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

theorem hpre0 (c : Dev nD) : (iprop(StableHlo.held (c : Thread nD τ) (Pipeline.ucRefs τ sig) (V1 m c) ∗ Rest c) : sProp 𝕄) ⊢ (reg0 m).pre c := by rw [V1_eq]; exact .rfl
theorem hpost0 (c : Dev nD) : (reg0 m).post c ⊢ (iprop(StableHlo.held (c : Thread nD τ) (Pipeline.ucRefs τ sig) (V2 m (outs m) c) ∗ Rest c) : sProp 𝕄) := by rw [V2_eq]; exact .rfl
theorem hpre1 (c : Dev nD) : (iprop(StableHlo.held (c : Thread nD τ) (Pipeline.ucRefs τ sig) (V3 m (outs m) c) ∗ Rest c) : sProp 𝕄) ⊢ (reg1 m).pre c := by rw [V3_eq]; exact .rfl
theorem hpost1 (c : Dev nD) : (reg1 m).post c ⊢ (iprop(StableHlo.held (c : Thread nD τ) (Pipeline.ucRefs τ sig) (V4 m (outs m) c) ∗ Rest c) : sProp 𝕄) := by rw [V4_eq]; exact .rfl
theorem hpre2 (c : Dev nD) : (iprop(StableHlo.held (c : Thread nD τ) (Pipeline.ucRefs τ sig) (V4 m (outs m) c) ∗ Rest c) : sProp 𝕄) ⊢ (reg2 m).pre c := by rw [V4_eq]; exact .rfl
theorem hpost2 (c : Dev nD) : (reg2 m).post c ⊢ (iprop(StableHlo.held (c : Thread nD τ) (Pipeline.ucRefs τ sig) (V5 m (outs m) c) ∗ Rest c) : sProp 𝕄) := by rw [V5_eq]; exact .rfl
theorem hpre3 (c : Dev nD) : (iprop(StableHlo.held (c : Thread nD τ) (Pipeline.ucRefs τ sig) (V6 m (outs m) c) ∗ Rest c) : sProp 𝕄) ⊢ (reg3 m).pre c := by rw [V6_eq]; exact .rfl
theorem hpost3 (c : Dev nD) : (reg3 m).post c ⊢ (iprop(StableHlo.held (c : Thread nD τ) (Pipeline.ucRefs τ sig) (V7 m (outs m) c) ∗ Rest c) : sProp 𝕄) := by rw [V7_eq]; exact .rfl
theorem hpre4 (c : Dev nD) : (iprop(StableHlo.held (c : Thread nD τ) (Pipeline.ucRefs τ sig) (V8 m (outs m) c) ∗ Rest c) : sProp 𝕄) ⊢ (reg4 m).pre c := by rw [V8_eq]; exact .rfl
theorem hpost4 (c : Dev nD) : (reg4 m).post c ⊢ (iprop(StableHlo.held (c : Thread nD τ) (Pipeline.ucRefs τ sig) (V9 m (outs m) c) ∗ Rest c) : sProp 𝕄) := by rw [V9_eq]; exact .rfl
theorem hpre5 (c : Dev nD) : (iprop(StableHlo.held (c : Thread nD τ) (Pipeline.ucRefs τ sig) (V9 m (outs m) c) ∗ Rest c) : sProp 𝕄) ⊢ (reg5 m).pre c := by rw [V9_eq]; exact .rfl
theorem hpost5 (c : Dev nD) : (reg5 m).post c ⊢ (iprop(StableHlo.held (c : Thread nD τ) (Pipeline.ucRefs τ sig) (V10 m (outs m) c) ∗ Rest c) : sProp 𝕄) := by rw [V10_eq]; exact .rfl
theorem hpre6 (c : Dev nD) : (iprop(StableHlo.held (c : Thread nD τ) (Pipeline.ucRefs τ sig) (V11 m (outs m) c) ∗ Rest c) : sProp 𝕄) ⊢ (reg6 m).pre c := by rw [V11_eq]; exact .rfl
theorem hpost6 (c : Dev nD) : (reg6 m).post c ⊢ (iprop(StableHlo.held (c : Thread nD τ) (Pipeline.ucRefs τ sig) (V12 m (outs m) c) ∗ Rest c) : sProp 𝕄) := by rw [V12_eq]; exact .rfl
theorem hpre7 (c : Dev nD) : (iprop(StableHlo.held (c : Thread nD τ) (Pipeline.ucRefs τ sig) (V13 m (outs m) c) ∗ Rest c) : sProp 𝕄) ⊢ (reg7 m).pre c := by rw [V13_eq]; exact .rfl
theorem hpost7 (c : Dev nD) : (reg7 m).post c ⊢ (iprop(StableHlo.held (c : Thread nD τ) (Pipeline.ucRefs τ sig) (V14 m (outs m) c) ∗ Rest c) : sProp 𝕄) := by rw [V14_eq]; exact .rfl
theorem hpre8 (c : Dev nD) : (iprop(StableHlo.held (c : Thread nD τ) (Pipeline.ucRefs τ sig) (V15 m (outs m) c) ∗ Rest c) : sProp 𝕄) ⊢ (reg8 m).pre c := by rw [V15_eq]; exact .rfl
theorem hpost8 (c : Dev nD) : (reg8 m).post c ⊢ (iprop(StableHlo.held (c : Thread nD τ) (Pipeline.ucRefs τ sig) (V16 m (outs m) c) ∗ Rest c) : sProp 𝕄) := by rw [V16_eq]; exact .rfl
theorem hpre9 (c : Dev nD) : (iprop(StableHlo.held (c : Thread nD τ) (Pipeline.ucRefs τ sig) (V16 m (outs m) c) ∗ Rest c) : sProp 𝕄) ⊢ (reg9 m).pre c := by rw [V16_eq]; exact .rfl
theorem hpost9 (c : Dev nD) : (reg9 m).post c ⊢ (iprop(StableHlo.held (c : Thread nD τ) (Pipeline.ucRefs τ sig) (V17 m (outs m) c) ∗ Rest c) : sProp 𝕄) := by rw [V17_eq]; exact .rfl
theorem hpre10 (c : Dev nD) : (iprop(StableHlo.held (c : Thread nD τ) (Pipeline.ucRefs τ sig) (V18 m (outs m) c) ∗ Rest c) : sProp 𝕄) ⊢ (reg10 m).pre c := by rw [V18_eq]; exact .rfl
theorem hpost10 (c : Dev nD) : (reg10 m).post c ⊢ (iprop(StableHlo.held (c : Thread nD τ) (Pipeline.ucRefs τ sig) (V19 m (outs m) c) ∗ Rest c) : sProp 𝕄) := by rw [V19_eq]; exact .rfl
theorem hpre11 (c : Dev nD) : (iprop(StableHlo.held (c : Thread nD τ) (Pipeline.ucRefs τ sig) (V20 m (outs m) c) ∗ Rest c) : sProp 𝕄) ⊢ (reg11 m).pre c := by rw [V20_eq]; exact .rfl
theorem hpost11 (c : Dev nD) : (reg11 m).post c ⊢ (iprop(StableHlo.held (c : Thread nD τ) (Pipeline.ucRefs τ sig) (V21 m (outs m) c) ∗ Rest c) : sProp 𝕄) := by rw [V21_eq]; exact .rfl
theorem hpre12 (c : Dev nD) : (iprop(StableHlo.held (c : Thread nD τ) (Pipeline.ucRefs τ sig) (V21 m (outs m) c) ∗ Rest c) : sProp 𝕄) ⊢ (reg12 m).pre c := by rw [V21_eq]; exact .rfl
theorem hpost12 (c : Dev nD) : (reg12 m).post c ⊢ (iprop(StableHlo.held (c : Thread nD τ) (Pipeline.ucRefs τ sig) (V22 m (outs m) c) ∗ Rest c) : sProp 𝕄) := by rw [V22_eq]; exact .rfl
theorem hpre13 (c : Dev nD) : (iprop(StableHlo.held (c : Thread nD τ) (Pipeline.ucRefs τ sig) (V23 m (outs m) c) ∗ Rest c) : sProp 𝕄) ⊢ (reg13 m).pre c := by rw [V23_eq]; exact .rfl
theorem hpost13 (c : Dev nD) : (reg13 m).post c ⊢ (iprop(StableHlo.held (c : Thread nD τ) (Pipeline.ucRefs τ sig) (V24 m (outs m) c) ∗ Rest c) : sProp 𝕄) := by rw [V24_eq]; exact .rfl

end Cert.KernelIdeal.Between

end
-- ==== Proof.KernelIdeal.Frame.lean ====
/-
  The frame of the idealized kernel's program: from any memory with zero counters every weakly fair execution of @main terminates,
  nothing faulting, and every argument array ends holding its launch contents. It is the conditional frame over the host
  stretches given the fourteen regions' records: the regions' results at what their proof data compute (`outs`), the
  thread state between items "every unscoped buffer at the item's valuation, the generator register at some state, nothing
  owed", each region entered from the valuation before it and left at the one after it.
-/
import proofs.«108146_j77455440216408_2_alg».proof.Proof.KernelIdeal.Chain

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L lv fun c => ?_
      iintro ⟨⟨-, HO, -, Hp, -⟩, -⟩
      imodintro
      isplitl [Hp]; · iexists _; iexact Hp
      iexists ∅; iexact HO)
    (hE14 := fun c => by iintro ⟨-, HO⟩; iexact HO)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)
    (R5 := reg5 m) (hpre5 := hpre5 m) (hpost5 := hpost5 m)
    (R6 := reg6 m) (hpre6 := hpre6 m) (hpost6 := hpost6 m)
    (R7 := reg7 m) (hpre7 := hpre7 m) (hpost7 := hpost7 m)
    (R8 := reg8 m) (hpre8 := hpre8 m) (hpost8 := hpost8 m)
    (R9 := reg9 m) (hpre9 := hpre9 m) (hpost9 := hpost9 m)
    (R10 := reg10 m) (hpre10 := hpre10 m) (hpost10 := hpost10 m)
    (R11 := reg11 m) (hpre11 := hpre11 m) (hpost11 := hpost11 m)
    (R12 := reg12 m) (hpre12 := hpre12 m) (hpost12 := hpost12 m)
    (R13 := reg13 m) (hpre13 := hpre13 m) (hpost13 := hpost13 m)

end Cert.KernelIdeal.Between

end
-- ==== Proof.Reference.Run.lean ====
import proofs.«108146_j77455440216408_2_alg».proof.Defs
import proofs.«108146_j77455440216408_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations

@main is a straight line of 219 host operations: 132 of its own and, written out at the six places it calls
them, the bodies of the module-local functions — the mean over the non-NaN entries along the rows (thirteen
operations: the NaN mask, its negation counted as 0/1 and summed; the entries with zero in place of NaN, summed;
the quotient), at 2048, 6144 and 4096 rows, each followed by the replacement of NaN, +∞ and -∞ in the
two-element mean by 0 and the largest and smallest finite values (sixteen operations: three masks, three
selects). A callee's operations are over the buffers of that call's record; its operand is the caller's buffer.
The list is stated in three stretches, following the three definitions @main is printed in. -/

/-- The operations 1 … 60 of 219. -/
abbrev ops0 : List (HloOp τ sig (Elt F)) :=
  [ StableHlo.unary main_arg11 main_v0 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v0 main_v1 rfl shapeCasts_S1x128x128_S128x128,
    StableHlo.unary main_arg12 main_v2 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v2 main_v3 rfl shapeCasts_S1x128x128_S128x128,
    StableHlo.unary main_arg13 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.unary main_arg14 main_v6 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v6 main_v7 rfl shapeCasts_S1x128x128_S128x128,
    StableHlo.unary main_arg15 main_v8 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v8 main_v9 rfl shapeCasts_S1x128x128_S128x128,
    StableHlo.unary main_arg16 main_v10 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v10 main_v11 rfl shapeCasts_S1x128x128_S128x128,
    StableHlo.unary main_arg17 main_v12 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v12 main_v13 rfl shapeCasts_S1x128x128_S128x128,
    StableHlo.binary main_arg0 main_v1 main_v14 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_arg7 main_v14 main_v15 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    StableHlo.binary main_arg1 main_v3 main_v16 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.binary main_arg4 main_v16 main_v17 ((fun l r => Host.dotGeneral dot_S2048x6144_S6144x128_S2048x128_1_0_0_1_n_n none l r) : (⟨S2048x6144, .f32⟩ : BufTy).Contents (Elt F) → (⟨S6144x128, .f32⟩ : BufTy).Contents (Elt F) → (⟨S2048x128, .f32⟩ : BufTy).Contents (Elt F)),
    StableHlo.binary main_v15 main_v17 main_v18 (addf : (⟨S2048x128, .f32⟩ : BufTy).Contents (Elt F) → (⟨S2048x128, .f32⟩ : BufTy).Contents (Elt F) → (⟨S2048x128, .f32⟩ : BufTy).Contents (Elt F)),
    StableHlo.unary main_v18 main_v19 (Host.negf : (⟨S2048x128, .f32⟩ : BufTy).Contents (Elt F) → (⟨S2048x128, .f32⟩ : BufTy).Contents (Elt F)),
    StableHlo.unary main_v19 main_v20 (Host.exp : (⟨S2048x128, .f32⟩ : BufTy).Contents (Elt F) → (⟨S2048x128, .f32⟩ : BufTy).Contents (Elt F)),
    StableHlo.nullary main_cst (constant S_ .f32 0x3F800000#32),
    StableHlo.unary main_cst main_v21 (broadcastInDim S2048x128 ![] bcast_S_S2048x128 : (⟨S_, .f32⟩ : BufTy).Contents (Elt F) → (⟨S2048x128, .f32⟩ : BufTy).Contents (Elt F)),
    StableHlo.binary main_v21 main_v20 main_v22 (addf : (⟨S2048x128, .f32⟩ : BufTy).Contents (Elt F) → (⟨S2048x128, .f32⟩ : BufTy).Contents (Elt F) → (⟨S2048x128, .f32⟩ : BufTy).Contents (Elt F)),
    StableHlo.nullary main_cst_0 (constant S_ .f32 0x3F800000#32),
    StableHlo.unary main_cst_0 main_v23 (broadcastInDim S2048x128 ![] bcast_S_S2048x128 : (⟨S_, .f32⟩ : BufTy).Contents (Elt F) → (⟨S2048x128, .f32⟩ : BufTy).Contents (Elt F)),
    StableHlo.binary main_v23 main_v22 main_v24 (Host.divf : (⟨S2048x128, .f32⟩ : BufTy).Contents (Elt F) → (⟨S2048x128, .f32⟩ : BufTy).Contents (Elt F) → (⟨S2048x128, .f32⟩ : BufTy).Contents (Elt F)),
    StableHlo.unary main_arg3 main_v25 ((transpose S6144x2048 [1, 0] · transposes_S2048x6144_S6144x2048_1_0) : (⟨S2048x6144, .f32⟩ : BufTy).Contents (Elt F) → (⟨S6144x2048, .f32⟩ : BufTy).Contents (Elt F)),
    StableHlo.binary main_arg0 main_v5 main_v26 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v25 main_v26 main_v27 ((fun l r => Host.dotGeneral dot_S6144x2048_S2048x128_S6144x128_1_0_0_1_n_n none l r) : (⟨S6144x2048, .f32⟩ : BufTy).Contents (Elt F) → (⟨S2048x128, .f32⟩ : BufTy).Contents (Elt F) → (⟨S6144x128, .f32⟩ : BufTy).Contents (Elt F)),
    StableHlo.binary main_arg9 main_arg8 main_v28 (addf : (⟨S6144x6144, .f32⟩ : BufTy).Contents (Elt F) → (⟨S6144x6144, .f32⟩ : BufTy).Contents (Elt F) → (⟨S6144x6144, .f32⟩ : BufTy).Contents (Elt F)),
    StableHlo.binary main_arg1 main_v7 main_v29 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.binary main_v28 main_v29 main_v30 ((fun l r => Host.dotGeneral dot_S6144x6144_S6144x128_S6144x128_1_0_0_1_n_n none l r) : (⟨S6144x6144, .f32⟩ : BufTy).Contents (Elt F) → (⟨S6144x128, .f32⟩ : BufTy).Contents (Elt F) → (⟨S6144x128, .f32⟩ : BufTy).Contents (Elt F)),
    StableHlo.binary main_arg2 main_v9 main_v31 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg6 main_v31 main_v32 ((fun l r => Host.dotGeneral dot_S6144x4096_S4096x128_S6144x128_1_0_0_1_n_n none l r) : (⟨S6144x4096, .f32⟩ : BufTy).Contents (Elt F) → (⟨S4096x128, .f32⟩ : BufTy).Contents (Elt F) → (⟨S6144x128, .f32⟩ : BufTy).Contents (Elt F)),
    StableHlo.binary main_v27 main_v30 main_v33 (addf : (⟨S6144x128, .f32⟩ : BufTy).Contents (Elt F) → (⟨S6144x128, .f32⟩ : BufTy).Contents (Elt F) → (⟨S6144x128, .f32⟩ : BufTy).Contents (Elt F)),
    StableHlo.binary main_v33 main_v32 main_v34 (addf : (⟨S6144x128, .f32⟩ : BufTy).Contents (Elt F) → (⟨S6144x128, .f32⟩ : BufTy).Contents (Elt F) → (⟨S6144x128, .f32⟩ : BufTy).Contents (Elt F)),
    StableHlo.unary main_v34 main_v35 (Host.negf : (⟨S6144x128, .f32⟩ : BufTy).Contents (Elt F) → (⟨S6144x128, .f32⟩ : BufTy).Contents (Elt F)),
    StableHlo.unary main_v35 main_v36 (Host.exp : (⟨S6144x128, .f32⟩ : BufTy).Contents (Elt F) → (⟨S6144x128, .f32⟩ : BufTy).Contents (Elt F)),
    StableHlo.nullary main_cst_1 (constant S_ .f32 0x3F800000#32),
    StableHlo.unary main_cst_1 main_v37 (broadcastInDim S6144x128 ![] bcast_S_S6144x128 : (⟨S_, .f32⟩ : BufTy).Contents (Elt F) → (⟨S6144x128, .f32⟩ : BufTy).Contents (Elt F)),
    StableHlo.binary main_v37 main_v36 main_v38 (addf : (⟨S6144x128, .f32⟩ : BufTy).Contents (Elt F) → (⟨S6144x128, .f32⟩ : BufTy).Contents (Elt F) → (⟨S6144x128, .f32⟩ : BufTy).Contents (Elt F)),
    StableHlo.nullary main_cst_2 (constant S_ .f32 0x3F800000#32),
    StableHlo.unary main_cst_2 main_v39 (broadcastInDim S6144x128 ![] bcast_S_S6144x128 : (⟨S_, .f32⟩ : BufTy).Contents (Elt F) → (⟨S6144x128, .f32⟩ : BufTy).Contents (Elt F)),
    StableHlo.binary main_v39 main_v38 main_v40 (Host.divf : (⟨S6144x128, .f32⟩ : BufTy).Contents (Elt F) → (⟨S6144x128, .f32⟩ : BufTy).Contents (Elt F) → (⟨S6144x128, .f32⟩ : BufTy).Contents (Elt F)),
    StableHlo.unary main_arg5 main_v41 ((transpose S4096x6144 [1, 0] · transposes_S6144x4096_S4096x6144_1_0) : (⟨S6144x4096, .f32⟩ : BufTy).Contents (Elt F) → (⟨S4096x6144, .f32⟩ : BufTy).Contents (Elt F)),
    StableHlo.binary main_arg1 main_v11 main_v42 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.binary main_v41 main_v42 main_v43 ((fun l r => Host.dotGeneral dot_S4096x6144_S6144x128_S4096x128_1_0_0_1_n_n none l r) : (⟨S4096x6144, .f32⟩ : BufTy).Contents (Elt F) → (⟨S6144x128, .f32⟩ : BufTy).Contents (Elt F) → (⟨S4096x128, .f32⟩ : BufTy).Contents (Elt F)),
    StableHlo.binary main_arg2 main_v13 main_v44 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg10 main_v44 main_v45 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    StableHlo.binary main_v43 main_v45 main_v46 (addf : (⟨S4096x128, .f32⟩ : BufTy).Contents (Elt F) → (⟨S4096x128, .f32⟩ : BufTy).Contents (Elt F) → (⟨S4096x128, .f32⟩ : BufTy).Contents (Elt F)),
    StableHlo.unary main_v46 main_v47 (Host.negf : (⟨S4096x128, .f32⟩ : BufTy).Contents (Elt F) → (⟨S4096x128, .f32⟩ : BufTy).Contents (Elt F)),
    StableHlo.unary main_v47 main_v48 (Host.exp : (⟨S4096x128, .f32⟩ : BufTy).Contents (Elt F) → (⟨S4096x128, .f32⟩ : BufTy).Contents (Elt F)),
    StableHlo.nullary main_cst_3 (constant S_ .f32 0x3F800000#32),
    StableHlo.unary main_cst_3 main_v49 (broadcastInDim S4096x128 ![] bcast_S_S4096x128 : (⟨S_, .f32⟩ : BufTy).Contents (Elt F) → (⟨S4096x128, .f32⟩ : BufTy).Contents (Elt F)),
    StableHlo.binary main_v49 main_v48 main_v50 (addf : (⟨S4096x128, .f32⟩ : BufTy).Contents (Elt F) → (⟨S4096x128, .f32⟩ : BufTy).Contents (Elt F) → (⟨S4096x128, .f32⟩ : BufTy).Contents (Elt F)),
    StableHlo.nullary main_cst_4 (constant S_ .f32 0x3F800000#32),
    StableHlo.unary main_cst_4 main_v51 (broadcastInDim S4096x128 ![] bcast_S_S4096x128 : (⟨S_, .f32⟩ : BufTy).Contents (Elt F) → (⟨S4096x128, .f32⟩ : BufTy).Contents (Elt F)),
    StableHlo.binary main_v51 main_v50 main_v52 (Host.divf : (⟨S4096x128, .f32⟩ : BufTy).Contents (Elt F) → (⟨S4096x128, .f32⟩ : BufTy).Contents (Elt F) → (⟨S4096x128, .f32⟩ : BufTy).Contents (Elt F)),
    StableHlo.unary main_arg11 main_v53 ((extractStridedSlice S1x128x128 ![1, 0, 0] · slices_S2x128x128_S1x128x128_1_0_0) : (⟨S2x128x128, .f32⟩ : BufTy).Contents (Elt F) → (⟨S1x128x128, .f32⟩ : BufTy).Contents (Elt F)) ]

/-- The operations 61 … 120 of 219. -/
abbrev ops1 : List (HloOp τ sig (Elt F)) :=
  [ StableHlo.reshape main_v53 main_v54 rfl shapeCasts_S1x128x128_S128x128,
    StableHlo.unary main_arg12 main_v55 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v55 main_v56 rfl shapeCasts_S1x128x128_S128x128,
    StableHlo.unary main_arg13 main_v57 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v57 main_v58 rfl shapeCasts_S1x128x128_S128x128,
    StableHlo.unary main_arg14 main_v59 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v59 main_v60 rfl shapeCasts_S1x128x128_S128x128,
    StableHlo.unary main_arg15 main_v61 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v61 main_v62 rfl shapeCasts_S1x128x128_S128x128,
    StableHlo.unary main_arg16 main_v63 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v63 main_v64 rfl shapeCasts_S1x128x128_S128x128,
    StableHlo.unary main_arg17 main_v65 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v65 main_v66 rfl shapeCasts_S1x128x128_S128x128,
    StableHlo.binary main_v24 main_v54 main_v67 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_arg7 main_v67 main_v68 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    StableHlo.binary main_v40 main_v56 main_v69 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.binary main_arg4 main_v69 main_v70 ((fun l r => Host.dotGeneral dot_S2048x6144_S6144x128_S2048x128_1_0_0_1_n_n none l r) : (⟨S2048x6144, .f32⟩ : BufTy).Contents (Elt F) → (⟨S6144x128, .f32⟩ : BufTy).Contents (Elt F) → (⟨S2048x128, .f32⟩ : BufTy).Contents (Elt F)),
    StableHlo.binary main_v68 main_v70 main_v71 (addf : (⟨S2048x128, .f32⟩ : BufTy).Contents (Elt F) → (⟨S2048x128, .f32⟩ : BufTy).Contents (Elt F) → (⟨S2048x128, .f32⟩ : BufTy).Contents (Elt F)),
    StableHlo.unary main_v71 main_v72 (Host.negf : (⟨S2048x128, .f32⟩ : BufTy).Contents (Elt F) → (⟨S2048x128, .f32⟩ : BufTy).Contents (Elt F)),
    StableHlo.unary main_v72 main_v73 (Host.exp : (⟨S2048x128, .f32⟩ : BufTy).Contents (Elt F) → (⟨S2048x128, .f32⟩ : BufTy).Contents (Elt F)),
    StableHlo.nullary main_cst_5 (constant S_ .f32 0x3F800000#32),
    StableHlo.unary main_cst_5 main_v74 (broadcastInDim S2048x128 ![] bcast_S_S2048x128 : (⟨S_, .f32⟩ : BufTy).Contents (Elt F) → (⟨S2048x128, .f32⟩ : BufTy).Contents (Elt F)),
    StableHlo.binary main_v74 main_v73 main_v75 (addf : (⟨S2048x128, .f32⟩ : BufTy).Contents (Elt F) → (⟨S2048x128, .f32⟩ : BufTy).Contents (Elt F) → (⟨S2048x128, .f32⟩ : BufTy).Contents (Elt F)),
    StableHlo.nullary main_cst_6 (constant S_ .f32 0x3F800000#32),
    StableHlo.unary main_cst_6 main_v76 (broadcastInDim S2048x128 ![] bcast_S_S2048x128 : (⟨S_, .f32⟩ : BufTy).Contents (Elt F) → (⟨S2048x128, .f32⟩ : BufTy).Contents (Elt F)),
    StableHlo.binary main_v76 main_v75 main_v77 (Host.divf : (⟨S2048x128, .f32⟩ : BufTy).Contents (Elt F) → (⟨S2048x128, .f32⟩ : BufTy).Contents (Elt F) → (⟨S2048x128, .f32⟩ : BufTy).Contents (Elt F)),
    StableHlo.unary main_arg3 main_v78 ((transpose S6144x2048 [1, 0] · transposes_S2048x6144_S6144x2048_1_0) : (⟨S2048x6144, .f32⟩ : BufTy).Contents (Elt F) → (⟨S6144x2048, .f32⟩ : BufTy).Contents (Elt F)),
    StableHlo.binary main_v24 main_v58 main_v79 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v78 main_v79 main_v80 ((fun l r => Host.dotGeneral dot_S6144x2048_S2048x128_S6144x128_1_0_0_1_n_n none l r) : (⟨S6144x2048, .f32⟩ : BufTy).Contents (Elt F) → (⟨S2048x128, .f32⟩ : BufTy).Contents (Elt F) → (⟨S6144x128, .f32⟩ : BufTy).Contents (Elt F)),
    StableHlo.binary main_arg9 main_arg8 main_v81 (addf : (⟨S6144x6144, .f32⟩ : BufTy).Contents (Elt F) → (⟨S6144x6144, .f32⟩ : BufTy).Contents (Elt F) → (⟨S6144x6144, .f32⟩ : BufTy).Contents (Elt F)),
    StableHlo.binary main_v40 main_v60 main_v82 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.binary main_v81 main_v82 main_v83 ((fun l r => Host.dotGeneral dot_S6144x6144_S6144x128_S6144x128_1_0_0_1_n_n none l r) : (⟨S6144x6144, .f32⟩ : BufTy).Contents (Elt F) → (⟨S6144x128, .f32⟩ : BufTy).Contents (Elt F) → (⟨S6144x128, .f32⟩ : BufTy).Contents (Elt F)),
    StableHlo.binary main_v52 main_v62 main_v84 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg6 main_v84 main_v85 ((fun l r => Host.dotGeneral dot_S6144x4096_S4096x128_S6144x128_1_0_0_1_n_n none l r) : (⟨S6144x4096, .f32⟩ : BufTy).Contents (Elt F) → (⟨S4096x128, .f32⟩ : BufTy).Contents (Elt F) → (⟨S6144x128, .f32⟩ : BufTy).Contents (Elt F)),
    StableHlo.binary main_v80 main_v83 main_v86 (addf : (⟨S6144x128, .f32⟩ : BufTy).Contents (Elt F) → (⟨S6144x128, .f32⟩ : BufTy).Contents (Elt F) → (⟨S6144x128, .f32⟩ : BufTy).Contents (Elt F)),
    StableHlo.binary main_v86 main_v85 main_v87 (addf : (⟨S6144x128, .f32⟩ : BufTy).Contents (Elt F) → (⟨S6144x128, .f32⟩ : BufTy).Contents (Elt F) → (⟨S6144x128, .f32⟩ : BufTy).Contents (Elt F)),
    StableHlo.unary main_v87 main_v88 (Host.negf : (⟨S6144x128, .f32⟩ : BufTy).Contents (Elt F) → (⟨S6144x128, .f32⟩ : BufTy).Contents (Elt F)),
    StableHlo.unary main_v88 main_v89 (Host.exp : (⟨S6144x128, .f32⟩ : BufTy).Contents (Elt F) → (⟨S6144x128, .f32⟩ : BufTy).Contents (Elt F)),
    StableHlo.nullary main_cst_7 (constant S_ .f32 0x3F800000#32),
    StableHlo.unary main_cst_7 main_v90 (broadcastInDim S6144x128 ![] bcast_S_S6144x128 : (⟨S_, .f32⟩ : BufTy).Contents (Elt F) → (⟨S6144x128, .f32⟩ : BufTy).Contents (Elt F)),
    StableHlo.binary main_v90 main_v89 main_v91 (addf : (⟨S6144x128, .f32⟩ : BufTy).Contents (Elt F) → (⟨S6144x128, .f32⟩ : BufTy).Contents (Elt F) → (⟨S6144x128, .f32⟩ : BufTy).Contents (Elt F)),
    StableHlo.nullary main_cst_8 (constant S_ .f32 0x3F800000#32),
    StableHlo.unary main_cst_8 main_v92 (broadcastInDim S6144x128 ![] bcast_S_S6144x128 : (⟨S_, .f32⟩ : BufTy).Contents (Elt F) → (⟨S6144x128, .f32⟩ : BufTy).Contents (Elt F)),
    StableHlo.binary main_v92 main_v91 main_v93 (Host.divf : (⟨S6144x128, .f32⟩ : BufTy).Contents (Elt F) → (⟨S6144x128, .f32⟩ : BufTy).Contents (Elt F) → (⟨S6144x128, .f32⟩ : BufTy).Contents (Elt F)),
    StableHlo.unary main_arg5 main_v94 ((transpose S4096x6144 [1, 0] · transposes_S6144x4096_S4096x6144_1_0) : (⟨S6144x4096, .f32⟩ : BufTy).Contents (Elt F) → (⟨S4096x6144, .f32⟩ : BufTy).Contents (Elt F)),
    StableHlo.binary main_v40 main_v64 main_v95 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.binary main_v94 main_v95 main_v96 ((fun l r => Host.dotGeneral dot_S4096x6144_S6144x128_S4096x128_1_0_0_1_n_n none l r) : (⟨S4096x6144, .f32⟩ : BufTy).Contents (Elt F) → (⟨S6144x128, .f32⟩ : BufTy).Contents (Elt F) → (⟨S4096x128, .f32⟩ : BufTy).Contents (Elt F)),
    StableHlo.binary main_v52 main_v66 main_v97 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg10 main_v97 main_v98 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    StableHlo.binary main_v96 main_v98 main_v99 (addf : (⟨S4096x128, .f32⟩ : BufTy).Contents (Elt F) → (⟨S4096x128, .f32⟩ : BufTy).Contents (Elt F) → (⟨S4096x128, .f32⟩ : BufTy).Contents (Elt F)),
    StableHlo.unary main_v99 main_v100 (Host.negf : (⟨S4096x128, .f32⟩ : BufTy).Contents (Elt F) → (⟨S4096x128, .f32⟩ : BufTy).Contents (Elt F)),
    StableHlo.unary main_v100 main_v101 (Host.exp : (⟨S4096x128, .f32⟩ : BufTy).Contents (Elt F) → (⟨S4096x128, .f32⟩ : BufTy).Contents (Elt F)),
    StableHlo.nullary main_cst_9 (constant S_ .f32 0x3F800000#32),
    StableHlo.unary main_cst_9 main_v102 (broadcastInDim S4096x128 ![] bcast_S_S4096x128 : (⟨S_, .f32⟩ : BufTy).Contents (Elt F) → (⟨S4096x128, .f32⟩ : BufTy).Contents (Elt F)),
    StableHlo.binary main_v102 main_v101 main_v103 (addf : (⟨S4096x128, .f32⟩ : BufTy).Contents (Elt F) → (⟨S4096x128, .f32⟩ : BufTy).Contents (Elt F) → (⟨S4096x128, .f32⟩ : BufTy).Contents (Elt F)),
    StableHlo.nullary main_cst_10 (constant S_ .f32 0x3F800000#32),
    StableHlo.unary main_cst_10 main_v104 (broadcastInDim S4096x128 ![] bcast_S_S4096x128 : (⟨S_, .f32⟩ : BufTy).Contents (Elt F) → (⟨S4096x128, .f32⟩ : BufTy).Contents (Elt F)),
    StableHlo.binary main_v104 main_v103 main_v105 (Host.divf : (⟨S4096x128, .f32⟩ : BufTy).Contents (Elt F) → (⟨S4096x128, .f32⟩ : BufTy).Contents (Elt F) → (⟨S4096x128, .f32⟩ : BufTy).Contents (Elt F)),
    StableHlo.binary main_v77 main_arg18 main_v106 ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)),
    StableHlo.unary main_arg19 main_v107 (broadcastInDim S1x2 ![1] bcast_S2_S1x2_1 : (⟨S2, .f32⟩ : BufTy).Contents (Elt F) → (⟨S1x2, .f32⟩ : BufTy).Contents (Elt F)) ]

/-- The operations 121 … 219 of 219, the six calls written out. -/
abbrev ops2 : List (HloOp τ sig (Elt F)) :=
  [ StableHlo.unary main_v107 main_v108 (broadcastInDim S2048x2 ![0, 1] bcast_S1x2_S2048x2_0_1 : (⟨S1x2, .f32⟩ : BufTy).Contents (Elt F) → (⟨S2048x2, .f32⟩ : BufTy).Contents (Elt F)),
    StableHlo.binary main_v106 main_v108 main_v109 (addf : (⟨S2048x2, .f32⟩ : BufTy).Contents (Elt F) → (⟨S2048x2, .f32⟩ : BufTy).Contents (Elt F) → (⟨S2048x2, .f32⟩ : BufTy).Contents (Elt F)),
    StableHlo.binary main_v93 main_arg20 main_v110 ((fun l r => Host.dotGeneral dot_S6144x128_S128x2_S6144x2_1_0_0_1_n_n none l r) : (⟨S6144x128, .f32⟩ : BufTy).Contents (Elt F) → (⟨S128x2, .f32⟩ : BufTy).Contents (Elt F) → (⟨S6144x2, .f32⟩ : BufTy).Contents (Elt F)),
    StableHlo.unary main_arg21 main_v111 (broadcastInDim S1x2 ![1] bcast_S2_S1x2_1 : (⟨S2, .f32⟩ : BufTy).Contents (Elt F) → (⟨S1x2, .f32⟩ : BufTy).Contents (Elt F)),
    StableHlo.unary main_v111 main_v112 (broadcastInDim S6144x2 ![0, 1] bcast_S1x2_S6144x2_0_1 : (⟨S1x2, .f32⟩ : BufTy).Contents (Elt F) → (⟨S6144x2, .f32⟩ : BufTy).Contents (Elt F)),
    StableHlo.binary main_v110 main_v112 main_v113 (addf : (⟨S6144x2, .f32⟩ : BufTy).Contents (Elt F) → (⟨S6144x2, .f32⟩ : BufTy).Contents (Elt F) → (⟨S6144x2, .f32⟩ : BufTy).Contents (Elt F)),
    StableHlo.binary main_v105 main_arg22 main_v114 ((fun l r => Host.dotGeneral dot_S4096x128_S128x2_S4096x2_1_0_0_1_n_n none l r) : (⟨S4096x128, .f32⟩ : BufTy).Contents (Elt F) → (⟨S128x2, .f32⟩ : BufTy).Contents (Elt F) → (⟨S4096x2, .f32⟩ : BufTy).Contents (Elt F)),
    StableHlo.unary main_arg23 main_v115 (broadcastInDim S1x2 ![1] bcast_S2_S1x2_1 : (⟨S2, .f32⟩ : BufTy).Contents (Elt F) → (⟨S1x2, .f32⟩ : BufTy).Contents (Elt F)),
    StableHlo.unary main_v115 main_v116 (broadcastInDim S4096x2 ![0, 1] bcast_S1x2_S4096x2_0_1 : (⟨S1x2, .f32⟩ : BufTy).Contents (Elt F) → (⟨S4096x2, .f32⟩ : BufTy).Contents (Elt F)),
    StableHlo.binary main_v114 main_v116 main_v117 (addf : (⟨S4096x2, .f32⟩ : BufTy).Contents (Elt F) → (⟨S4096x2, .f32⟩ : BufTy).Contents (Elt F) → (⟨S4096x2, .f32⟩ : BufTy).Contents (Elt F)),
    StableHlo.TRef.binary (.of main_v109 : StableHlo.TRef sig ⟨S2048x2, .f32⟩) (.of main_v109 : StableHlo.TRef sig ⟨S2048x2, .f32⟩) main_call0.v0 (cmpf .une),
    StableHlo.TRef.unary main_call0.v0 main_call0.v1 noti,
    StableHlo.TRef.unary main_call0.v1 main_call0.v2 (extui 32 · natLt_1_32),
    StableHlo.TRef.unary main_call0.v2 main_call0.v3 (sitofp .f32),
    StableHlo.TRef.nullary main_call0.cst (constant S_ .f32 0x00000000#32),
    StableHlo.TRef.binary main_call0.v3 main_call0.cst main_call0.v4 (fun x v => Host.reduceAdd x v reducesTo_S2048x2_S2_d0 h_S_),
    StableHlo.TRef.binary (.of main_v109 : StableHlo.TRef sig ⟨S2048x2, .f32⟩) (.of main_v109 : StableHlo.TRef sig ⟨S2048x2, .f32⟩) main_call0.call0.v0 (cmpf .une),
    StableHlo.TRef.nullary main_call0.call0.cst (constant S_ .f32 0x00000000#32),
    StableHlo.TRef.unary main_call0.call0.cst main_call0.call0.call0.v0 (broadcastInDim S2048x2 ![] bcast_S_S2048x2),
    StableHlo.TRef.ternary main_call0.call0.v0 main_call0.call0.call0.v0 (.of main_v109 : StableHlo.TRef sig ⟨S2048x2, .f32⟩) main_call0.call0.call0.v1 select,
    StableHlo.TRef.nullary main_call0.call0.cst_0 (constant S_ .f32 0x00000000#32),
    StableHlo.TRef.binary main_call0.call0.call0.v1 main_call0.call0.cst_0 main_call0.call0.v2 (fun x v => Host.reduceAdd x v reducesTo_S2048x2_S2_d0 h_S_),
    StableHlo.TRef.binary main_call0.call0.v2 main_call0.v4 main_call0.v6 Host.divf,
    StableHlo.TRef.binary (.of main_v118 : StableHlo.TRef sig ⟨S2, .f32⟩) (.of main_v118 : StableHlo.TRef sig ⟨S2, .f32⟩) main_call1.v0 (cmpf .une),
    StableHlo.TRef.nullary main_call1.cst (constant S_ .f32 0x00000000#32),
    StableHlo.TRef.unary main_call1.cst main_call1.call0.v0 (broadcastInDim S2 ![] bcast_S_S2),
    StableHlo.TRef.ternary main_call1.v0 main_call1.call0.v0 (.of main_v118 : StableHlo.TRef sig ⟨S2, .f32⟩) main_call1.call0.v1 select,
    StableHlo.TRef.nullary main_call1.cst_0 (constant S_ .f32 0x7F800000#32),
    StableHlo.TRef.unary main_call1.cst_0 main_call1.v2 (broadcastInDim S2 ![] bcast_S_S2),
    StableHlo.TRef.binary main_call1.call0.v1 main_call1.v2 main_call1.v3 (cmpf .oeq),
    StableHlo.TRef.nullary main_call1.cst_1 (constant S_ .f32 0x7F7FFFFF#32),
    StableHlo.TRef.unary main_call1.cst_1 main_call1.call1.v0 (broadcastInDim S2 ![] bcast_S_S2),
    StableHlo.TRef.ternary main_call1.v3 main_call1.call1.v0 main_call1.call0.v1 main_call1.call1.v1 select,
    StableHlo.TRef.nullary main_call1.cst_2 (constant S_ .f32 0xFF800000#32),
    StableHlo.TRef.unary main_call1.cst_2 main_call1.v5 (broadcastInDim S2 ![] bcast_S_S2),
    StableHlo.TRef.binary main_call1.call1.v1 main_call1.v5 main_call1.v6 (cmpf .oeq),
    StableHlo.TRef.nullary main_call1.cst_3 (constant S_ .f32 0xFF7FFFFF#32),
    StableHlo.TRef.unary main_call1.cst_3 main_call1.call2.v0 (broadcastInDim S2 ![] bcast_S_S2),
    StableHlo.TRef.ternary main_call1.v6 main_call1.call2.v0 main_call1.call1.v1 main_call1.call2.v1 select,
    StableHlo.TRef.binary (.of main_v113 : StableHlo.TRef sig ⟨S6144x2, .f32⟩) (.of main_v113 : StableHlo.TRef sig ⟨S6144x2, .f32⟩) main_call2.v0 (cmpf .une),
    StableHlo.TRef.unary main_call2.v0 main_call2.v1 noti,
    StableHlo.TRef.unary main_call2.v1 main_call2.v2 (extui 32 · natLt_1_32),
    StableHlo.TRef.unary main_call2.v2 main_call2.v3 (sitofp .f32),
    StableHlo.TRef.nullary main_call2.cst (constant S_ .f32 0x00000000#32),
    StableHlo.TRef.binary main_call2.v3 main_call2.cst main_call2.v4 (fun x v => Host.reduceAdd x v reducesTo_S6144x2_S2_d0 h_S_),
    StableHlo.TRef.binary (.of main_v113 : StableHlo.TRef sig ⟨S6144x2, .f32⟩) (.of main_v113 : StableHlo.TRef sig ⟨S6144x2, .f32⟩) main_call2.call0.v0 (cmpf .une),
    StableHlo.TRef.nullary main_call2.call0.cst (constant S_ .f32 0x00000000#32),
    StableHlo.TRef.unary main_call2.call0.cst main_call2.call0.call0.v0 (broadcastInDim S6144x2 ![] bcast_S_S6144x2),
    StableHlo.TRef.ternary main_call2.call0.v0 main_call2.call0.call0.v0 (.of main_v113 : StableHlo.TRef sig ⟨S6144x2, .f32⟩) main_call2.call0.call0.v1 select,
    StableHlo.TRef.nullary main_call2.call0.cst_0 (constant S_ .f32 0x00000000#32),
    StableHlo.TRef.binary main_call2.call0.call0.v1 main_call2.call0.cst_0 main_call2.call0.v2 (fun x v => Host.reduceAdd x v reducesTo_S6144x2_S2_d0 h_S_),
    StableHlo.TRef.binary main_call2.call0.v2 main_call2.v4 main_call2.v6 Host.divf,
    StableHlo.TRef.binary (.of main_v120 : StableHlo.TRef sig ⟨S2, .f32⟩) (.of main_v120 : StableHlo.TRef sig ⟨S2, .f32⟩) main_call3.v0 (cmpf .une),
    StableHlo.TRef.nullary main_call3.cst (constant S_ .f32 0x00000000#32),
    StableHlo.TRef.unary main_call3.cst main_call3.call0.v0 (broadcastInDim S2 ![] bcast_S_S2),
    StableHlo.TRef.ternary main_call3.v0 main_call3.call0.v0 (.of main_v120 : StableHlo.TRef sig ⟨S2, .f32⟩) main_call3.call0.v1 select,
    StableHlo.TRef.nullary main_call3.cst_0 (constant S_ .f32 0x7F800000#32),
    StableHlo.TRef.unary main_call3.cst_0 main_call3.v2 (broadcastInDim S2 ![] bcast_S_S2),
    StableHlo.TRef.binary main_call3.call0.v1 main_call3.v2 main_call3.v3 (cmpf .oeq),
    StableHlo.TRef.nullary main_call3.cst_1 (constant S_ .f32 0x7F7FFFFF#32),
    StableHlo.TRef.unary main_call3.cst_1 main_call3.call1.v0 (broadcastInDim S2 ![] bcast_S_S2),
    StableHlo.TRef.ternary main_call3.v3 main_call3.call1.v0 main_call3.call0.v1 main_call3.call1.v1 select,
    StableHlo.TRef.nullary main_call3.cst_2 (constant S_ .f32 0xFF800000#32),
    StableHlo.TRef.unary main_call3.cst_2 main_call3.v5 (broadcastInDim S2 ![] bcast_S_S2),
    StableHlo.TRef.binary main_call3.call1.v1 main_call3.v5 main_call3.v6 (cmpf .oeq),
    StableHlo.TRef.nullary main_call3.cst_3 (constant S_ .f32 0xFF7FFFFF#32),
    StableHlo.TRef.unary main_call3.cst_3 main_call3.call2.v0 (broadcastInDim S2 ![] bcast_S_S2),
    StableHlo.TRef.ternary main_call3.v6 main_call3.call2.v0 main_call3.call1.v1 main_call3.call2.v1 select,
    StableHlo.TRef.binary (.of main_v117 : StableHlo.TRef sig ⟨S4096x2, .f32⟩) (.of main_v117 : StableHlo.TRef sig ⟨S4096x2, .f32⟩) main_call4.v0 (cmpf .une),
    StableHlo.TRef.unary main_call4.v0 main_call4.v1 noti,
    StableHlo.TRef.unary main_call4.v1 main_call4.v2 (extui 32 · natLt_1_32),
    StableHlo.TRef.unary main_call4.v2 main_call4.v3 (sitofp .f32),
    StableHlo.TRef.nullary main_call4.cst (constant S_ .f32 0x00000000#32),
    StableHlo.TRef.binary main_call4.v3 main_call4.cst main_call4.v4 (fun x v => Host.reduceAdd x v reducesTo_S4096x2_S2_d0 h_S_),
    StableHlo.TRef.binary (.of main_v117 : StableHlo.TRef sig ⟨S4096x2, .f32⟩) (.of main_v117 : StableHlo.TRef sig ⟨S4096x2, .f32⟩) main_call4.call0.v0 (cmpf .une),
    StableHlo.TRef.nullary main_call4.call0.cst (constant S_ .f32 0x00000000#32),
    StableHlo.TRef.unary main_call4.call0.cst main_call4.call0.call0.v0 (broadcastInDim S4096x2 ![] bcast_S_S4096x2),
    StableHlo.TRef.ternary main_call4.call0.v0 main_call4.call0.call0.v0 (.of main_v117 : StableHlo.TRef sig ⟨S4096x2, .f32⟩) main_call4.call0.call0.v1 select,
    StableHlo.TRef.nullary main_call4.call0.cst_0 (constant S_ .f32 0x00000000#32),
    StableHlo.TRef.binary main_call4.call0.call0.v1 main_call4.call0.cst_0 main_call4.call0.v2 (fun x v => Host.reduceAdd x v reducesTo_S4096x2_S2_d0 h_S_),
    StableHlo.TRef.binary main_call4.call0.v2 main_call4.v4 main_call4.v6 Host.divf,
    StableHlo.TRef.binary (.of main_v122 : StableHlo.TRef sig ⟨S2, .f32⟩) (.of main_v122 : StableHlo.TRef sig ⟨S2, .f32⟩) main_call5.v0 (cmpf .une),
    StableHlo.TRef.nullary main_call5.cst (constant S_ .f32 0x00000000#32),
    StableHlo.TRef.unary main_call5.cst main_call5.call0.v0 (broadcastInDim S2 ![] bcast_S_S2),
    StableHlo.TRef.ternary main_call5.v0 main_call5.call0.v0 (.of main_v122 : StableHlo.TRef sig ⟨S2, .f32⟩) main_call5.call0.v1 select,
    StableHlo.TRef.nullary main_call5.cst_0 (constant S_ .f32 0x7F800000#32),
    StableHlo.TRef.unary main_call5.cst_0 main_call5.v2 (broadcastInDim S2 ![] bcast_S_S2),
    StableHlo.TRef.binary main_call5.call0.v1 main_call5.v2 main_call5.v3 (cmpf .oeq),
    StableHlo.TRef.nullary main_call5.cst_1 (constant S_ .f32 0x7F7FFFFF#32),
    StableHlo.TRef.unary main_call5.cst_1 main_call5.call1.v0 (broadcastInDim S2 ![] bcast_S_S2),
    StableHlo.TRef.ternary main_call5.v3 main_call5.call1.v0 main_call5.call0.v1 main_call5.call1.v1 select,
    StableHlo.TRef.nullary main_call5.cst_2 (constant S_ .f32 0xFF800000#32),
    StableHlo.TRef.unary main_call5.cst_2 main_call5.v5 (broadcastInDim S2 ![] bcast_S_S2),
    StableHlo.TRef.binary main_call5.call1.v1 main_call5.v5 main_call5.v6 (cmpf .oeq),
    StableHlo.TRef.nullary main_call5.cst_3 (constant S_ .f32 0xFF7FFFFF#32),
    StableHlo.TRef.unary main_call5.cst_3 main_call5.call2.v0 (broadcastInDim S2 ![] bcast_S_S2),
    StableHlo.TRef.ternary main_call5.v6 main_call5.call2.v0 main_call5.call1.v1 main_call5.call2.v1 select,
    StableHlo.binary main_v119 main_v121 main_v124 (addf : (⟨S2, .f32⟩ : BufTy).Contents (Elt F) → (⟨S2, .f32⟩ : BufTy).Contents (Elt F) → (⟨S2, .f32⟩ : BufTy).Contents (Elt F)),
    StableHlo.binary main_v124 main_v123 main_v125 (addf : (⟨S2, .f32⟩ : BufTy).Contents (Elt F) → (⟨S2, .f32⟩ : BufTy).Contents (Elt F) → (⟨S2, .f32⟩ : BufTy).Contents (Elt F)) ]

/-- the reference's host operations, in program order, calls inlined -/
abbrev ops : List (HloOp τ sig (Elt F)) := ops0 ++ (ops1 ++ ops2)

/-! ## @main is that line -/

set_option maxRecDepth 8192 in
/-- The first stretch is the first definition, statement by statement. -/
theorem main_part0_eq (c : Dev nD) : main_part0 (F := F) c = seq ops0 := rfl

set_option maxRecDepth 8192 in
/-- The second stretch is the second definition, statement by statement. -/
theorem main_part1_eq (c : Dev nD) : main_part1 (F := F) c = seq ops1 := rfl

set_option maxRecDepth 8192 in
/-- The third definition with each callee's body in place of its call, and the nested sequencing re-associated
    into one chain, is the third stretch. -/
theorem main_part2_eq (c : Dev nD) : main_part2 (F := F) c = seq ops2 := by
  simp only [main_part2, fn_nanmean.body, fn_nansum.body, fn_where.body, fn_nan_to_num.body, fn_where_0.body, fn_nanmean_1.body, fn_nansum_2.body, fn_where_3.body, fn_nanmean_4.body, fn_nansum_5.body, fn_where_6.body, seq, bind_assoc, pure_bind]

/-- @main runs its three definitions in order; a line of two stretches is the first then the second. -/
theorem main_eq (c : Dev nD) : main (F := F) c = seq ops := by
  simp only [ops, seq_append, ← main_part0_eq c, ← main_part1_eq c, ← main_part2_eq c]
  rfl

/-- The buffers' contents after the whole line are those after the third stretch, from those after the second,
    from those after the first. -/
theorem after_ops (V : Valuation τ sig (Elt F)) : after ops V = after ops2 (after ops1 (after ops0 V)) := by
  simp only [ops, StableHlo.after_append]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the stretch touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., binary_bufs_sub .., binary_bufs_sub .., binary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., binary_bufs_sub .., binary_bufs_sub ..,
    binary_bufs_sub .., binary_bufs_sub .., binary_bufs_sub .., binary_bufs_sub .., binary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., binary_bufs_sub .., binary_bufs_sub ..,
    binary_bufs_sub .., binary_bufs_sub .., binary_bufs_sub .., unary_bufs_sub .., unary_bufs_sub .., nullary_bufs_sub ..,
    unary_bufs_sub .., binary_bufs_sub .., nullary_bufs_sub .., unary_bufs_sub .., binary_bufs_sub .., unary_bufs_sub ..⟩

set_option maxRecDepth 8192 in
/-- Every operation of the stretch touches TensorCore references only. -/
theorem ops1_sub : (ops1 : List (HloOp τ sig (Elt F))).Forall fun op => op.bufs ⊆ tcRefs τ sig :=
  ⟨reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub .., binary_bufs_sub .., binary_bufs_sub .., binary_bufs_sub .., binary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., binary_bufs_sub .., binary_bufs_sub .., binary_bufs_sub ..,
    binary_bufs_sub .., binary_bufs_sub .., binary_bufs_sub .., binary_bufs_sub .., binary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., binary_bufs_sub .., binary_bufs_sub .., binary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub ..⟩

set_option maxRecDepth 8192 in
/-- Every operation of the stretch touches TensorCore references only. -/
theorem ops2_sub : (ops2 : List (HloOp τ sig (Elt F))).Forall fun op => op.bufs ⊆ tcRefs τ sig :=
  ⟨unary_bufs_sub .., binary_bufs_sub .., binary_bufs_sub .., unary_bufs_sub .., unary_bufs_sub .., binary_bufs_sub ..,
    binary_bufs_sub .., unary_bufs_sub .., unary_bufs_sub .., binary_bufs_sub .., binary_bufs_sub .., unary_bufs_sub ..,
    unary_bufs_sub .., unary_bufs_sub .., nullary_bufs_sub .., binary_bufs_sub .., binary_bufs_sub .., nullary_bufs_sub ..,
    unary_bufs_sub .., ternary_bufs_sub .., nullary_bufs_sub .., binary_bufs_sub .., binary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., binary_bufs_sub .., unary_bufs_sub .., unary_bufs_sub ..,
    unary_bufs_sub .., nullary_bufs_sub .., binary_bufs_sub .., binary_bufs_sub .., nullary_bufs_sub .., unary_bufs_sub ..,
    ternary_bufs_sub .., nullary_bufs_sub .., binary_bufs_sub .., binary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., binary_bufs_sub .., unary_bufs_sub .., unary_bufs_sub .., unary_bufs_sub ..,
    nullary_bufs_sub .., binary_bufs_sub .., binary_bufs_sub .., nullary_bufs_sub .., unary_bufs_sub .., ternary_bufs_sub ..,
    nullary_bufs_sub .., binary_bufs_sub .., binary_bufs_sub .., binary_bufs_sub .., nullary_bufs_sub .., unary_bufs_sub ..,
    ternary_bufs_sub .., nullary_bufs_sub .., unary_bufs_sub .., binary_bufs_sub .., nullary_bufs_sub .., unary_bufs_sub ..,
    ternary_bufs_sub .., nullary_bufs_sub .., unary_bufs_sub .., binary_bufs_sub .., nullary_bufs_sub .., unary_bufs_sub ..,
    ternary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

set_option maxRecDepth 8192 in
/-- Every operation of the stretch determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- Every operation of the stretch determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- Every operation of the stretch determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-! ## No operation writes an argument -/

/-- @main's twenty-four arguments. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-- An operation whose one written buffer is not an argument's writes no argument's: distinct references are
    distinct device buffers. -/
theorem keeps_args {op : HloOp τ sig (Elt F)} {y : Ref sig .tc} (hw : op.writes = {Proc.devRef (τ := τ) .tc y})
    (hy : y ∉ args) : ∀ r ∈ args, Proc.devRef (τ := τ) .tc r ∉ op.writes := fun r hr hb => by
  rw [hw, Finset.mem_singleton] at hb
  exact hy (Proc.devRef_injective _ hb ▸ hr)

set_option maxRecDepth 8192 in
/-- Each operation of the stretch writes the buffer of the value it defines, none of them an argument's. -/
theorem ops0_keeps : (ops0 : List (HloOp τ sig (Elt F))).Forall fun op => ∀ r ∈ args, Proc.devRef (τ := τ) .tc r ∉ op.writes :=
  ⟨keeps_args (y := main_v0) rfl (by decide), keeps_args (y := main_v1) rfl (by decide), keeps_args (y := main_v2) rfl (by decide),
    keeps_args (y := main_v3) rfl (by decide), keeps_args (y := main_v4) rfl (by decide), keeps_args (y := main_v5) rfl (by decide),
    keeps_args (y := main_v6) rfl (by decide), keeps_args (y := main_v7) rfl (by decide), keeps_args (y := main_v8) rfl (by decide),
    keeps_args (y := main_v9) rfl (by decide), keeps_args (y := main_v10) rfl (by decide), keeps_args (y := main_v11) rfl (by decide),
    keeps_args (y := main_v12) rfl (by decide), keeps_args (y := main_v13) rfl (by decide), keeps_args (y := main_v14) rfl (by decide),
    keeps_args (y := main_v15) rfl (by decide), keeps_args (y := main_v16) rfl (by decide), keeps_args (y := main_v17) rfl (by decide),
    keeps_args (y := main_v18) rfl (by decide), keeps_args (y := main_v19) rfl (by decide), keeps_args (y := main_v20) rfl (by decide),
    keeps_args (y := main_cst) rfl (by decide), keeps_args (y := main_v21) rfl (by decide), keeps_args (y := main_v22) rfl (by decide),
    keeps_args (y := main_cst_0) rfl (by decide), keeps_args (y := main_v23) rfl (by decide), keeps_args (y := main_v24) rfl (by decide),
    keeps_args (y := main_v25) rfl (by decide), keeps_args (y := main_v26) rfl (by decide), keeps_args (y := main_v27) rfl (by decide),
    keeps_args (y := main_v28) rfl (by decide), keeps_args (y := main_v29) rfl (by decide), keeps_args (y := main_v30) rfl (by decide),
    keeps_args (y := main_v31) rfl (by decide), keeps_args (y := main_v32) rfl (by decide), keeps_args (y := main_v33) rfl (by decide),
    keeps_args (y := main_v34) rfl (by decide), keeps_args (y := main_v35) rfl (by decide), keeps_args (y := main_v36) rfl (by decide),
    keeps_args (y := main_cst_1) rfl (by decide), keeps_args (y := main_v37) rfl (by decide), keeps_args (y := main_v38) rfl (by decide),
    keeps_args (y := main_cst_2) rfl (by decide), keeps_args (y := main_v39) rfl (by decide), keeps_args (y := main_v40) rfl (by decide),
    keeps_args (y := main_v41) rfl (by decide), keeps_args (y := main_v42) rfl (by decide), keeps_args (y := main_v43) rfl (by decide),
    keeps_args (y := main_v44) rfl (by decide), keeps_args (y := main_v45) rfl (by decide), keeps_args (y := main_v46) rfl (by decide),
    keeps_args (y := main_v47) rfl (by decide), keeps_args (y := main_v48) rfl (by decide), keeps_args (y := main_cst_3) rfl (by decide),
    keeps_args (y := main_v49) rfl (by decide), keeps_args (y := main_v50) rfl (by decide), keeps_args (y := main_cst_4) rfl (by decide),
    keeps_args (y := main_v51) rfl (by decide), keeps_args (y := main_v52) rfl (by decide), keeps_args (y := main_v53) rfl (by decide)⟩

set_option maxRecDepth 8192 in
/-- Each operation of the stretch writes the buffer of the value it defines, none of them an argument's. -/
theorem ops1_keeps : (ops1 : List (HloOp τ sig (Elt F))).Forall fun op => ∀ r ∈ args, Proc.devRef (τ := τ) .tc r ∉ op.writes :=
  ⟨keeps_args (y := main_v54) rfl (by decide), keeps_args (y := main_v55) rfl (by decide), keeps_args (y := main_v56) rfl (by decide),
    keeps_args (y := main_v57) rfl (by decide), keeps_args (y := main_v58) rfl (by decide), keeps_args (y := main_v59) rfl (by decide),
    keeps_args (y := main_v60) rfl (by decide), keeps_args (y := main_v61) rfl (by decide), keeps_args (y := main_v62) rfl (by decide),
    keeps_args (y := main_v63) rfl (by decide), keeps_args (y := main_v64) rfl (by decide), keeps_args (y := main_v65) rfl (by decide),
    keeps_args (y := main_v66) rfl (by decide), keeps_args (y := main_v67) rfl (by decide), keeps_args (y := main_v68) rfl (by decide),
    keeps_args (y := main_v69) rfl (by decide), keeps_args (y := main_v70) rfl (by decide), keeps_args (y := main_v71) rfl (by decide),
    keeps_args (y := main_v72) rfl (by decide), keeps_args (y := main_v73) rfl (by decide), keeps_args (y := main_cst_5) rfl (by decide),
    keeps_args (y := main_v74) rfl (by decide), keeps_args (y := main_v75) rfl (by decide), keeps_args (y := main_cst_6) rfl (by decide),
    keeps_args (y := main_v76) rfl (by decide), keeps_args (y := main_v77) rfl (by decide), keeps_args (y := main_v78) rfl (by decide),
    keeps_args (y := main_v79) rfl (by decide), keeps_args (y := main_v80) rfl (by decide), keeps_args (y := main_v81) rfl (by decide),
    keeps_args (y := main_v82) rfl (by decide), keeps_args (y := main_v83) rfl (by decide), keeps_args (y := main_v84) rfl (by decide),
    keeps_args (y := main_v85) rfl (by decide), keeps_args (y := main_v86) rfl (by decide), keeps_args (y := main_v87) rfl (by decide),
    keeps_args (y := main_v88) rfl (by decide), keeps_args (y := main_v89) rfl (by decide), keeps_args (y := main_cst_7) rfl (by decide),
    keeps_args (y := main_v90) rfl (by decide), keeps_args (y := main_v91) rfl (by decide), keeps_args (y := main_cst_8) rfl (by decide),
    keeps_args (y := main_v92) rfl (by decide), keeps_args (y := main_v93) rfl (by decide), keeps_args (y := main_v94) rfl (by decide),
    keeps_args (y := main_v95) rfl (by decide), keeps_args (y := main_v96) rfl (by decide), keeps_args (y := main_v97) rfl (by decide),
    keeps_args (y := main_v98) rfl (by decide), keeps_args (y := main_v99) rfl (by decide), keeps_args (y := main_v100) rfl (by decide),
    keeps_args (y := main_v101) rfl (by decide), keeps_args (y := main_cst_9) rfl (by decide), keeps_args (y := main_v102) rfl (by decide),
    keeps_args (y := main_v103) rfl (by decide), keeps_args (y := main_cst_10) rfl (by decide), keeps_args (y := main_v104) rfl (by decide),
    keeps_args (y := main_v105) rfl (by decide), keeps_args (y := main_v106) rfl (by decide), keeps_args (y := main_v107) rfl (by decide)⟩

set_option maxRecDepth 8192 in
/-- Each operation of the stretch writes the buffer of the value it defines, none of them an argument's. -/
theorem ops2_keeps : (ops2 : List (HloOp τ sig (Elt F))).Forall fun op => ∀ r ∈ args, Proc.devRef (τ := τ) .tc r ∉ op.writes :=
  ⟨keeps_args (y := main_v108) rfl (by decide), keeps_args (y := main_v109) rfl (by decide), keeps_args (y := main_v110) rfl (by decide),
    keeps_args (y := main_v111) rfl (by decide), keeps_args (y := main_v112) rfl (by decide), keeps_args (y := main_v113) rfl (by decide),
    keeps_args (y := main_v114) rfl (by decide), keeps_args (y := main_v115) rfl (by decide), keeps_args (y := main_v116) rfl (by decide),
    keeps_args (y := main_v117) rfl (by decide), keeps_args (y := main_call0.v0.ref) rfl (by decide), keeps_args (y := main_call0.v1.ref) rfl (by decide),
    keeps_args (y := main_call0.v2.ref) rfl (by decide), keeps_args (y := main_call0.v3.ref) rfl (by decide), keeps_args (y := main_call0.cst.ref) rfl (by decide),
    keeps_args (y := main_call0.v4.ref) rfl (by decide), keeps_args (y := main_call0.call0.v0.ref) rfl (by decide), keeps_args (y := main_call0.call0.cst.ref) rfl (by decide),
    keeps_args (y := main_call0.call0.call0.v0.ref) rfl (by decide), keeps_args (y := main_call0.call0.call0.v1.ref) rfl (by decide), keeps_args (y := main_call0.call0.cst_0.ref) rfl (by decide),
    keeps_args (y := main_call0.call0.v2.ref) rfl (by decide), keeps_args (y := main_call0.v6.ref) rfl (by decide), keeps_args (y := main_call1.v0.ref) rfl (by decide),
    keeps_args (y := main_call1.cst.ref) rfl (by decide), keeps_args (y := main_call1.call0.v0.ref) rfl (by decide), keeps_args (y := main_call1.call0.v1.ref) rfl (by decide),
    keeps_args (y := main_call1.cst_0.ref) rfl (by decide), keeps_args (y := main_call1.v2.ref) rfl (by decide), keeps_args (y := main_call1.v3.ref) rfl (by decide),
    keeps_args (y := main_call1.cst_1.ref) rfl (by decide), keeps_args (y := main_call1.call1.v0.ref) rfl (by decide), keeps_args (y := main_call1.call1.v1.ref) rfl (by decide),
    keeps_args (y := main_call1.cst_2.ref) rfl (by decide), keeps_args (y := main_call1.v5.ref) rfl (by decide), keeps_args (y := main_call1.v6.ref) rfl (by decide),
    keeps_args (y := main_call1.cst_3.ref) rfl (by decide), keeps_args (y := main_call1.call2.v0.ref) rfl (by decide), keeps_args (y := main_call1.call2.v1.ref) rfl (by decide),
    keeps_args (y := main_call2.v0.ref) rfl (by decide), keeps_args (y := main_call2.v1.ref) rfl (by decide), keeps_args (y := main_call2.v2.ref) rfl (by decide),
    keeps_args (y := main_call2.v3.ref) rfl (by decide), keeps_args (y := main_call2.cst.ref) rfl (by decide), keeps_args (y := main_call2.v4.ref) rfl (by decide),
    keeps_args (y := main_call2.call0.v0.ref) rfl (by decide), keeps_args (y := main_call2.call0.cst.ref) rfl (by decide), keeps_args (y := main_call2.call0.call0.v0.ref) rfl (by decide),
    keeps_args (y := main_call2.call0.call0.v1.ref) rfl (by decide), keeps_args (y := main_call2.call0.cst_0.ref) rfl (by decide), keeps_args (y := main_call2.call0.v2.ref) rfl (by decide),
    keeps_args (y := main_call2.v6.ref) rfl (by decide), keeps_args (y := main_call3.v0.ref) rfl (by decide), keeps_args (y := main_call3.cst.ref) rfl (by decide),
    keeps_args (y := main_call3.call0.v0.ref) rfl (by decide), keeps_args (y := main_call3.call0.v1.ref) rfl (by decide), keeps_args (y := main_call3.cst_0.ref) rfl (by decide),
    keeps_args (y := main_call3.v2.ref) rfl (by decide), keeps_args (y := main_call3.v3.ref) rfl (by decide), keeps_args (y := main_call3.cst_1.ref) rfl (by decide),
    keeps_args (y := main_call3.call1.v0.ref) rfl (by decide), keeps_args (y := main_call3.call1.v1.ref) rfl (by decide), keeps_args (y := main_call3.cst_2.ref) rfl (by decide),
    keeps_args (y := main_call3.v5.ref) rfl (by decide), keeps_args (y := main_call3.v6.ref) rfl (by decide), keeps_args (y := main_call3.cst_3.ref) rfl (by decide),
    keeps_args (y := main_call3.call2.v0.ref) rfl (by decide), keeps_args (y := main_call3.call2.v1.ref) rfl (by decide), keeps_args (y := main_call4.v0.ref) rfl (by decide),
    keeps_args (y := main_call4.v1.ref) rfl (by decide), keeps_args (y := main_call4.v2.ref) rfl (by decide), keeps_args (y := main_call4.v3.ref) rfl (by decide),
    keeps_args (y := main_call4.cst.ref) rfl (by decide), keeps_args (y := main_call4.v4.ref) rfl (by decide), keeps_args (y := main_call4.call0.v0.ref) rfl (by decide),
    keeps_args (y := main_call4.call0.cst.ref) rfl (by decide), keeps_args (y := main_call4.call0.call0.v0.ref) rfl (by decide), keeps_args (y := main_call4.call0.call0.v1.ref) rfl (by decide),
    keeps_args (y := main_call4.call0.cst_0.ref) rfl (by decide), keeps_args (y := main_call4.call0.v2.ref) rfl (by decide), keeps_args (y := main_call4.v6.ref) rfl (by decide),
    keeps_args (y := main_call5.v0.ref) rfl (by decide), keeps_args (y := main_call5.cst.ref) rfl (by decide), keeps_args (y := main_call5.call0.v0.ref) rfl (by decide),
    keeps_args (y := main_call5.call0.v1.ref) rfl (by decide), keeps_args (y := main_call5.cst_0.ref) rfl (by decide), keeps_args (y := main_call5.v2.ref) rfl (by decide),
    keeps_args (y := main_call5.v3.ref) rfl (by decide), keeps_args (y := main_call5.cst_1.ref) rfl (by decide), keeps_args (y := main_call5.call1.v0.ref) rfl (by decide),
    keeps_args (y := main_call5.call1.v1.ref) rfl (by decide), keeps_args (y := main_call5.cst_2.ref) rfl (by decide), keeps_args (y := main_call5.v5.ref) rfl (by decide),
    keeps_args (y := main_call5.v6.ref) rfl (by decide), keeps_args (y := main_call5.cst_3.ref) rfl (by decide), keeps_args (y := main_call5.call2.v0.ref) rfl (by decide),
    keeps_args (y := main_call5.call2.v1.ref) rfl (by decide), keeps_args (y := main_v124) rfl (by decide), keeps_args (y := main_v125) rfl (by decide)⟩

/-- No operation of the line writes an argument's buffer. -/
theorem args_kept (r : Ref sig .tc) (hr : r ∈ args) :
    ∀ op ∈ (ops : List (HloOp τ sig (Elt F))), Proc.devRef (τ := τ) .tc r ∉ op.writes := fun op h => by
  simp only [ops, List.mem_append] at h
  rcases h with h | h | h
  exacts [List.forall_iff_forall_mem.mp ops0_keeps op h r hr, List.forall_iff_forall_mem.mp ops1_keeps op h r hr,
    List.forall_iff_forall_mem.mp ops2_keeps op h r hr]

/-! ## The run -/

/-- On every device, for any float values, from any memory with zero counters: every weakly fair execution of
    @main terminates; the result's buffer ends at the fold of the operations' results over the launch contents,
    and a buffer that no operation writes ends as it began. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v125) = StableHlo.after ops (fun b => m (c, b)) (Proc.devRef .tc main_v125)
      ∧ ∀ b : Ref sig .tc, (∀ op ∈ (ops : List (HloOp τ sig (Elt F))), Proc.devRef .tc b ∉ op.writes) →
          r.2.mem ((c.tc : Thread nD τ).loc b) = m ((c.tc : Thread nD τ).loc b)) :=
  (θ_run defs _ _).mono
    (fun _ h c => ⟨h c main_v125, fun b hb => (h c b).trans (after_of_forall_not_mem ops _ hb)⟩)
    (run_seq scopedRefs_eq scopedSems_eq defs main (fun _ => ops) main_eq (fun _ => ops_sub) m ρ (fun _ => ops_fresh))

/-- At the exact instance: from any memory with zero counters, @main terminates and its twenty-four arguments
    end unchanged — each is a buffer no operation writes. The hypothesis on the inputs is not used. -/
theorem frame [hPre_finite_inputs : Cert.Pre_finite_inputs.Facts] :
    ∀ (m : (ℓ : Loc nD τ sig) → Buf (Elt Ideal) ℓ) (g : Dev nD → PrngReg), Cert.Pre_ReferenceIdeal m →
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  fun m g _ => (θ_run defs _ _).mono
    (fun _ h c =>
      ⟨(h c).2 main_arg0 (args_kept main_arg0 (by decide)), (h c).2 main_arg1 (args_kept main_arg1 (by decide)),
    (h c).2 main_arg2 (args_kept main_arg2 (by decide)), (h c).2 main_arg3 (args_kept main_arg3 (by decide)),
    (h c).2 main_arg4 (args_kept main_arg4 (by decide)), (h c).2 main_arg5 (args_kept main_arg5 (by decide)),
    (h c).2 main_arg6 (args_kept main_arg6 (by decide)), (h c).2 main_arg7 (args_kept main_arg7 (by decide)),
    (h c).2 main_arg8 (args_kept main_arg8 (by decide)), (h c).2 main_arg9 (args_kept main_arg9 (by decide)),
    (h c).2 main_arg10 (args_kept main_arg10 (by decide)), (h c).2 main_arg11 (args_kept main_arg11 (by decide)),
    (h c).2 main_arg12 (args_kept main_arg12 (by decide)), (h c).2 main_arg13 (args_kept main_arg13 (by decide)),
    (h c).2 main_arg14 (args_kept main_arg14 (by decide)), (h c).2 main_arg15 (args_kept main_arg15 (by decide)),
    (h c).2 main_arg16 (args_kept main_arg16 (by decide)), (h c).2 main_arg17 (args_kept main_arg17 (by decide)),
    (h c).2 main_arg18 (args_kept main_arg18 (by decide)), (h c).2 main_arg19 (args_kept main_arg19 (by decide)),
    (h c).2 main_arg20 (args_kept main_arg20 (by decide)), (h c).2 main_arg21 (args_kept main_arg21 (by decide)),
    (h c).2 main_arg22 (args_kept main_arg22 (by decide)), (h c).2 main_arg23 (args_kept main_arg23 (by decide))⟩)
    (run (F := Ideal) m g)

end Cert.ReferenceIdeal.RefRun

end
-- ==== Proof.KernelIdeal.RunAll.lean ====
/-
  The run of @main with every unscoped buffer named at the end: from any memory with zero counters every weakly fair
  execution terminates, nothing faulting, and every final memory holds each unscoped buffer at the last valuation — the
  launch contents pushed through the host stretches and the fourteen regions' results. The frame claim reads the
  argument arrays off it; the value claim reads the result `main_v89`.
-/
import proofs.«108146_j77455440216408_2_alg».proof.Proof.KernelIdeal.Chain

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides beside the buffers is made at the launch: the generator register at its launch state, nothing owed. -/
theorem rest_of_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts L lv)
      ⊢ (|={Set.univ}=> bigSep Finset.univ (fun c : Dev nD => Rest c) : sProp 𝕄) := by
  refine Pipeline.initEach L lv fun c => ?_
  iintro ⟨⟨-, HO, -, Hp, -⟩, -⟩
  imodintro
  isplitl [Hp]; · iexists _; iexact Hp
  iexists ∅; iexact HO

set_option maxHeartbeats 8000000 in
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = V32 m (outs m) c b) := by
  have hE0 := rest_of_launch (F := F) ρ
  refine Pipeline.θ_run_regions_kit_dev (pcfgs (F := F)) adm (pdats m) () cellOf_inj emb₁ defs₀ Variants.none L lv m ρ main
    (segs m (outs m) Variants.none L lv (fun _ c => Rest c) () (pdats m) (reg0 m) (reg1 m) (reg2 m) (reg3 m) (reg4 m) (reg5 m) (reg6 m) (reg7 m) (reg8 m) (reg9 m) (reg10 m) (reg11 m) (reg12 m) (reg13 m))
    (fun c Q => by
      rewrite [main_chain c, Seg.run_eq_chain,
        show (segs m (outs m) Variants.none L lv (fun _ c => Rest c) () (pdats m) (reg0 m) (reg1 m) (reg2 m) (reg3 m) (reg4 m) (reg5 m) (reg6 m) (reg7 m) (reg8 m) (reg9 m) (reg10 m) (reg11 m) (reg12 m) (reg13 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()),
          StableHlo.seq hostOps13,
          Prog.lift (.customCall (Pipeline.entry 13) ()),
          StableHlo.seq hostOps14,
          StableHlo.seq hostOps14_1,
          StableHlo.seq hostOps14_2,
          StableHlo.seq hostOps14_3,
          StableHlo.seq hostOps14_4,
          StableHlo.seq hostOps14_5,
          StableHlo.seq hostOps14_6,
          StableHlo.seq hostOps14_7 ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V32 m (outs m) c))
    (hch := fun c => ⟨.rfl, hpre0 m c, hpost0 m c, hpre1 m c, (hpost1 m c).trans (hpre2 m c), hpost2 m c, hpre3 m c, hpost3 m c, hpre4 m c, (hpost4 m c).trans (hpre5 m c), hpost5 m c, hpre6 m c, hpost6 m c, hpre7 m c, hpost7 m c, hpre8 m c, (hpost8 m c).trans (hpre9 m c), hpost9 m c, hpre10 m c, hpost10 m c, hpre11 m c, (hpost11 m c).trans (hpre12 m c), hpost12 m c, hpre13 m c, hpost13 m c, .rfl, .rfl, .rfl, .rfl, .rfl, .rfl, .rfl, sep_mono .rfl (by iintro ⟨-, HO⟩; iexact HO)⟩)
    (hinit := ?_) (QY := fun c s => ∀ b ∈ Pipeline.ucRefs τ sig, s.mem ((c : Thread nD τ).1, b) = V32 m (outs m) c b)
    (hfin := fun c s' => ?_) (hQ := fun _ h => h)
  · -- the launch: the unscoped buffers are held at the launch valuation; the rest is made on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rest c)]
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V32 m (outs m) c) s') $$ [Hh HSI]
    · isplitl [Hh] <;> iassumption
    icases Hr with ⟨%h, HSI⟩
    imodintro
    isplitr
    · ipureintro; exact h
    · iexact HSI

end Cert.KernelIdeal.Between

end
-- ==== Proof.KernelIdeal.Steps.lean ====
/-
  What the valuations between @main's items hold at the buffers the regions and the final host operations read.

  An item leaves every buffer it does not write as it found it: a host stretch writes the results of its own operations, a
  region its one result array. So a buffer read at an item's entry holds what the LAST item that wrote it left: an argument
  its launch contents; a projection what its layer's first stretch computed; an earlier region's result what that region's
  write-backs left.
-/
import proofs.«108146_j77455440216408_2_alg».proof.Proof.KernelIdeal.Between

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A host stretch leaves what it does not write -/

theorem W1_step (c : Dev nD) (r : Ref sig .tc) (h : r ∉ hostOps0_W) : W1 m c r = V0 m c r := by
  have h' := V1_of m c r h; rwa [V1_eq] at h'
theorem W3_step (c : Dev nD) (r : Ref sig .tc) (h : r ∉ hostOps1_W) : W3 m c r = W2 m c r := by
  have h' := V3_of m (outs m) c r h; rwa [V3_eq, V2_eq] at h'
theorem W6_step (c : Dev nD) (r : Ref sig .tc) (h : r ∉ hostOps3_W) : W6 m c r = W5 m c r := by
  have h' := V6_of m (outs m) c r h; rwa [V6_eq, V5_eq] at h'
theorem W8_step (c : Dev nD) (r : Ref sig .tc) (h : r ∉ hostOps4_W) : W8 m c r = W7 m c r := by
  have h' := V8_of m (outs m) c r h; rwa [V8_eq, V7_eq] at h'
theorem W11_step (c : Dev nD) (r : Ref sig .tc) (h : r ∉ hostOps6_W) : W11 m c r = W10 m c r := by
  have h' := V11_of m (outs m) c r h; rwa [V11_eq, V10_eq] at h'
theorem W13_step (c : Dev nD) (r : Ref sig .tc) (h : r ∉ hostOps7_W) : W13 m c r = W12 m c r := by
  have h' := V13_of m (outs m) c r h; rwa [V13_eq, V12_eq] at h'
theorem W15_step (c : Dev nD) (r : Ref sig .tc) (h : r ∉ hostOps8_W) : W15 m c r = W14 m c r := by
  have h' := V15_of m (outs m) c r h; rwa [V15_eq, V14_eq] at h'
theorem W18_step (c : Dev nD) (r : Ref sig .tc) (h : r ∉ hostOps10_W) : W18 m c r = W17 m c r := by
  have h' := V18_of m (outs m) c r h; rwa [V18_eq, V17_eq] at h'
theorem W20_step (c : Dev nD) (r : Ref sig .tc) (h : r ∉ hostOps11_W) : W20 m c r = W19 m c r := by
  have h' := V20_of m (outs m) c r h; rwa [V20_eq, V19_eq] at h'
theorem W23_step (c : Dev nD) (r : Ref sig .tc) (h : r ∉ hostOps13_W) : W23 m c r = W22 m c r := by
  have h' := V23_of m (outs m) c r h; rwa [V23_eq, V22_eq] at h'

/-! ## The argument arrays hold their launch contents at every item: nothing writes them -/

abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

theorem W1_args (c : Dev nD) : ∀ a ∈ argsL, W1 m c a = V0 m c a := fun a ha => W1_step m c a ((by decide : ∀ a ∈ argsL, a ∉ hostOps0_W) a ha)
theorem W2_args (c : Dev nD) : ∀ a ∈ argsL, W2 m c a = V0 m c a := fun a ha => (W2_of_ne m c a ((by decide : ∀ a ∈ argsL, a ≠ main_v28) a ha)).trans (W1_args m c a ha)
theorem W3_args (c : Dev nD) : ∀ a ∈ argsL, W3 m c a = V0 m c a := fun a ha => (W3_step m c a ((by decide : ∀ a ∈ argsL, a ∉ hostOps1_W) a ha)).trans (W2_args m c a ha)
theorem W4_args (c : Dev nD) : ∀ a ∈ argsL, W4 m c a = V0 m c a := fun a ha => (W4_of_ne m c a ((by decide : ∀ a ∈ argsL, a ≠ main_v29) a ha)).trans (W3_args m c a ha)
theorem W5_args (c : Dev nD) : ∀ a ∈ argsL, W5 m c a = V0 m c a := fun a ha => (W5_of_ne m c a ((by decide : ∀ a ∈ argsL, a ≠ main_v30) a ha)).trans (W4_args m c a ha)
theorem W6_args (c : Dev nD) : ∀ a ∈ argsL, W6 m c a = V0 m c a := fun a ha => (W6_step m c a ((by decide : ∀ a ∈ argsL, a ∉ hostOps3_W) a ha)).trans (W5_args m c a ha)
theorem W7_args (c : Dev nD) : ∀ a ∈ argsL, W7 m c a = V0 m c a := fun a ha => (W7_of_ne m c a ((by decide : ∀ a ∈ argsL, a ≠ main_v31) a ha)).trans (W6_args m c a ha)
theorem W8_args (c : Dev nD) : ∀ a ∈ argsL, W8 m c a = V0 m c a := fun a ha => (W8_step m c a ((by decide : ∀ a ∈ argsL, a ∉ hostOps4_W) a ha)).trans (W7_args m c a ha)
theorem W9_args (c : Dev nD) : ∀ a ∈ argsL, W9 m c a = V0 m c a := fun a ha => (W9_of_ne m c a ((by decide : ∀ a ∈ argsL, a ≠ main_v32) a ha)).trans (W8_args m c a ha)
theorem W10_args (c : Dev nD) : ∀ a ∈ argsL, W10 m c a = V0 m c a := fun a ha => (W10_of_ne m c a ((by decide : ∀ a ∈ argsL, a ≠ main_v33) a ha)).trans (W9_args m c a ha)
theorem W11_args (c : Dev nD) : ∀ a ∈ argsL, W11 m c a = V0 m c a := fun a ha => (W11_step m c a ((by decide : ∀ a ∈ argsL, a ∉ hostOps6_W) a ha)).trans (W10_args m c a ha)
theorem W12_args (c : Dev nD) : ∀ a ∈ argsL, W12 m c a = V0 m c a := fun a ha => (W12_of_ne m c a ((by decide : ∀ a ∈ argsL, a ≠ main_v34) a ha)).trans (W11_args m c a ha)
theorem W13_args (c : Dev nD) : ∀ a ∈ argsL, W13 m c a = V0 m c a := fun a ha => (W13_step m c a ((by decide : ∀ a ∈ argsL, a ∉ hostOps7_W) a ha)).trans (W12_args m c a ha)
theorem W14_args (c : Dev nD) : ∀ a ∈ argsL, W14 m c a = V0 m c a := fun a ha => (W14_of_ne m c a ((by decide : ∀ a ∈ argsL, a ≠ main_v63) a ha)).trans (W13_args m c a ha)
theorem W15_args (c : Dev nD) : ∀ a ∈ argsL, W15 m c a = V0 m c a := fun a ha => (W15_step m c a ((by decide : ∀ a ∈ argsL, a ∉ hostOps8_W) a ha)).trans (W14_args m c a ha)
theorem W16_args (c : Dev nD) : ∀ a ∈ argsL, W16 m c a = V0 m c a := fun a ha => (W16_of_ne m c a ((by decide : ∀ a ∈ argsL, a ≠ main_v64) a ha)).trans (W15_args m c a ha)
theorem W17_args (c : Dev nD) : ∀ a ∈ argsL, W17 m c a = V0 m c a := fun a ha => (W17_of_ne m c a ((by decide : ∀ a ∈ argsL, a ≠ main_v65) a ha)).trans (W16_args m c a ha)
theorem W18_args (c : Dev nD) : ∀ a ∈ argsL, W18 m c a = V0 m c a := fun a ha => (W18_step m c a ((by decide : ∀ a ∈ argsL, a ∉ hostOps10_W) a ha)).trans (W17_args m c a ha)
theorem W19_args (c : Dev nD) : ∀ a ∈ argsL, W19 m c a = V0 m c a := fun a ha => (W19_of_ne m c a ((by decide : ∀ a ∈ argsL, a ≠ main_v66) a ha)).trans (W18_args m c a ha)
theorem W20_args (c : Dev nD) : ∀ a ∈ argsL, W20 m c a = V0 m c a := fun a ha => (W20_step m c a ((by decide : ∀ a ∈ argsL, a ∉ hostOps11_W) a ha)).trans (W19_args m c a ha)
theorem W21_args (c : Dev nD) : ∀ a ∈ argsL, W21 m c a = V0 m c a := fun a ha => (W21_of_ne m c a ((by decide : ∀ a ∈ argsL, a ≠ main_v67) a ha)).trans (W20_args m c a ha)
theorem W22_args (c : Dev nD) : ∀ a ∈ argsL, W22 m c a = V0 m c a := fun a ha => (W22_of_ne m c a ((by decide : ∀ a ∈ argsL, a ≠ main_v68) a ha)).trans (W21_args m c a ha)
theorem W23_args (c : Dev nD) : ∀ a ∈ argsL, W23 m c a = V0 m c a := fun a ha => (W23_step m c a ((by decide : ∀ a ∈ argsL, a ∉ hostOps13_W) a ha)).trans (W22_args m c a ha)
theorem W24_args (c : Dev nD) : ∀ a ∈ argsL, W24 m c a = V0 m c a := fun a ha => (W24_of_ne m c a ((by decide : ∀ a ∈ argsL, a ≠ main_v69) a ha)).trans (W23_args m c a ha)

/-! ## The reads -/

theorem W3_v17 (c : Dev nD) : W3 m c main_v17 = W1 m c main_v17 :=
  ((W3_step m c main_v17 (by decide)).trans (W2_of_ne m c main_v17 (by decide)))
theorem W3_v28 (c : Dev nD) : W3 m c main_v28 = out0 m c :=
  ((W3_step m c main_v28 (by decide)).trans (W2_at m c))
theorem W4_v19 (c : Dev nD) : W4 m c main_v19 = W1 m c main_v19 :=
  (((W4_of_ne m c main_v19 (by decide)).trans (W3_step m c main_v19 (by decide))).trans (W2_of_ne m c main_v19 (by decide)))
theorem W6_v21 (c : Dev nD) : W6 m c main_v21 = W1 m c main_v21 :=
  (((((W6_step m c main_v21 (by decide)).trans (W5_of_ne m c main_v21 (by decide))).trans (W4_of_ne m c main_v21 (by decide))).trans (W3_step m c main_v21 (by decide))).trans (W2_of_ne m c main_v21 (by decide)))
theorem W6_v30 (c : Dev nD) : W6 m c main_v30 = out2 m c :=
  ((W6_step m c main_v30 (by decide)).trans (W5_at m c))
theorem W8_v23 (c : Dev nD) : W8 m c main_v23 = W1 m c main_v23 :=
  (((((((W8_step m c main_v23 (by decide)).trans (W7_of_ne m c main_v23 (by decide))).trans (W6_step m c main_v23 (by decide))).trans (W5_of_ne m c main_v23 (by decide))).trans (W4_of_ne m c main_v23 (by decide))).trans (W3_step m c main_v23 (by decide))).trans (W2_of_ne m c main_v23 (by decide)))
theorem W8_v31 (c : Dev nD) : W8 m c main_v31 = out3 m c :=
  ((W8_step m c main_v31 (by decide)).trans (W7_at m c))
theorem W9_v25 (c : Dev nD) : W9 m c main_v25 = W1 m c main_v25 :=
  ((((((((W9_of_ne m c main_v25 (by decide)).trans (W8_step m c main_v25 (by decide))).trans (W7_of_ne m c main_v25 (by decide))).trans (W6_step m c main_v25 (by decide))).trans (W5_of_ne m c main_v25 (by decide))).trans (W4_of_ne m c main_v25 (by decide))).trans (W3_step m c main_v25 (by decide))).trans (W2_of_ne m c main_v25 (by decide)))
theorem W11_v27 (c : Dev nD) : W11 m c main_v27 = W1 m c main_v27 :=
  ((((((((((W11_step m c main_v27 (by decide)).trans (W10_of_ne m c main_v27 (by decide))).trans (W9_of_ne m c main_v27 (by decide))).trans (W8_step m c main_v27 (by decide))).trans (W7_of_ne m c main_v27 (by decide))).trans (W6_step m c main_v27 (by decide))).trans (W5_of_ne m c main_v27 (by decide))).trans (W4_of_ne m c main_v27 (by decide))).trans (W3_step m c main_v27 (by decide))).trans (W2_of_ne m c main_v27 (by decide)))
theorem W11_v33 (c : Dev nD) : W11 m c main_v33 = out5 m c :=
  ((W11_step m c main_v33 (by decide)).trans (W10_at m c))
theorem W12_v29 (c : Dev nD) : W12 m c main_v29 = out1 m c :=
  (((((((((W12_of_ne m c main_v29 (by decide)).trans (W11_step m c main_v29 (by decide))).trans (W10_of_ne m c main_v29 (by decide))).trans (W9_of_ne m c main_v29 (by decide))).trans (W8_step m c main_v29 (by decide))).trans (W7_of_ne m c main_v29 (by decide))).trans (W6_step m c main_v29 (by decide))).trans (W5_of_ne m c main_v29 (by decide))).trans (W4_at m c))
theorem W12_v32 (c : Dev nD) : W12 m c main_v32 = out4 m c :=
  ((((W12_of_ne m c main_v32 (by decide)).trans (W11_step m c main_v32 (by decide))).trans (W10_of_ne m c main_v32 (by decide))).trans (W9_at m c))
theorem W12_v34 (c : Dev nD) : W12 m c main_v34 = out6 m c :=
  (W12_at m c)
theorem W15_v52 (c : Dev nD) : W15 m c main_v52 = W13 m c main_v52 :=
  ((W15_step m c main_v52 (by decide)).trans (W14_of_ne m c main_v52 (by decide)))
theorem W15_v63 (c : Dev nD) : W15 m c main_v63 = out7 m c :=
  ((W15_step m c main_v63 (by decide)).trans (W14_at m c))
theorem W16_v54 (c : Dev nD) : W16 m c main_v54 = W13 m c main_v54 :=
  (((W16_of_ne m c main_v54 (by decide)).trans (W15_step m c main_v54 (by decide))).trans (W14_of_ne m c main_v54 (by decide)))
theorem W18_v56 (c : Dev nD) : W18 m c main_v56 = W13 m c main_v56 :=
  (((((W18_step m c main_v56 (by decide)).trans (W17_of_ne m c main_v56 (by decide))).trans (W16_of_ne m c main_v56 (by decide))).trans (W15_step m c main_v56 (by decide))).trans (W14_of_ne m c main_v56 (by decide)))
theorem W18_v65 (c : Dev nD) : W18 m c main_v65 = out9 m c :=
  ((W18_step m c main_v65 (by decide)).trans (W17_at m c))
theorem W20_v58 (c : Dev nD) : W20 m c main_v58 = W13 m c main_v58 :=
  (((((((W20_step m c main_v58 (by decide)).trans (W19_of_ne m c main_v58 (by decide))).trans (W18_step m c main_v58 (by decide))).trans (W17_of_ne m c main_v58 (by decide))).trans (W16_of_ne m c main_v58 (by decide))).trans (W15_step m c main_v58 (by decide))).trans (W14_of_ne m c main_v58 (by decide)))
theorem W20_v66 (c : Dev nD) : W20 m c main_v66 = out10 m c :=
  ((W20_step m c main_v66 (by decide)).trans (W19_at m c))
theorem W21_v60 (c : Dev nD) : W21 m c main_v60 = W13 m c main_v60 :=
  ((((((((W21_of_ne m c main_v60 (by decide)).trans (W20_step m c main_v60 (by decide))).trans (W19_of_ne m c main_v60 (by decide))).trans (W18_step m c main_v60 (by decide))).trans (W17_of_ne m c main_v60 (by decide))).trans (W16_of_ne m c main_v60 (by decide))).trans (W15_step m c main_v60 (by decide))).trans (W14_of_ne m c main_v60 (by decide)))
theorem W23_v62 (c : Dev nD) : W23 m c main_v62 = W13 m c main_v62 :=
  ((((((((((W23_step m c main_v62 (by decide)).trans (W22_of_ne m c main_v62 (by decide))).trans (W21_of_ne m c main_v62 (by decide))).trans (W20_step m c main_v62 (by decide))).trans (W19_of_ne m c main_v62 (by decide))).trans (W18_step m c main_v62 (by decide))).trans (W17_of_ne m c main_v62 (by decide))).trans (W16_of_ne m c main_v62 (by decide))).trans (W15_step m c main_v62 (by decide))).trans (W14_of_ne m c main_v62 (by decide)))
theorem W23_v68 (c : Dev nD) : W23 m c main_v68 = out12 m c :=
  ((W23_step m c main_v68 (by decide)).trans (W22_at m c))
theorem W24_v64 (c : Dev nD) : W24 m c main_v64 = out8 m c :=
  (((((((((W24_of_ne m c main_v64 (by decide)).trans (W23_step m c main_v64 (by decide))).trans (W22_of_ne m c main_v64 (by decide))).trans (W21_of_ne m c main_v64 (by decide))).trans (W20_step m c main_v64 (by decide))).trans (W19_of_ne m c main_v64 (by decide))).trans (W18_step m c main_v64 (by decide))).trans (W17_of_ne m c main_v64 (by decide))).trans (W16_at m c))
theorem W24_v67 (c : Dev nD) : W24 m c main_v67 = out11 m c :=
  ((((W24_of_ne m c main_v67 (by decide)).trans (W23_step m c main_v67 (by decide))).trans (W22_of_ne m c main_v67 (by decide))).trans (W21_at m c))
theorem W24_v69 (c : Dev nD) : W24 m c main_v69 = out13 m c :=
  (W24_at m c)

end Cert.KernelIdeal.Between

end
-- ==== Proof.KernelIdeal.Tail.lean ====
/-
  The part both programs share after the second layer: from the three final feature arrays `x0 : f32[2048,128]`,
  `x1 : f32[6144,128]`, `x2 : f32[4096,128]` and the three classification heads `(w, b)`, the scores `y = x · w + b`, the mean of
  each score column over the rows that are not NaN (the column's sum with NaNs replaced by zero, divided by the count of
  entries that are not NaN), each mean with NaN replaced by zero and the infinities by the largest finite values, and the
  sum of the three. Over the extended reals there is no NaN and the guards never fire, but nothing here needs that: the two
  programs apply the SAME operations to their final feature arrays, so this function is carried closed.
-/
import proofs.«108146_j77455440216408_2_alg».proof.Proof.Gen.KernelIdeal.Launch
import Idealize.ShloMosaic.Lib.StableHlo.Run
import Idealize.ShloMosaic.PureOps.Ideal
import Idealize.ShloMosaic.PureOps.Ideal.Laws
import Idealize.ShloMosaic.Lib.Pipeline.Frame

set_option maxRecDepth 16384

noncomputable section

namespace Cert.KernelIdeal.Tail

open Cert.KernelIdeal Cert.KernelIdeal.Gen
open Idealize.ShloMosaic Idealize.ShloMosaic.TcCoe Idealize.SL.Sem

/-- A mean with its NaN replaced by zero, `+∞` by the largest finite value and `-∞` by the smallest. -/
def nanToNum (v : FVec Ideal S2 .f32) : FVec Ideal S2 .f32 :=
  let v1 : FVec Ideal S2 .f32 := select (cmpf .une v v) (broadcastInDim S2 ![] bcast_S_S2 (constant (F := Ideal) S_ .f32 0x00000000#32)) v
  let v4 : FVec Ideal S2 .f32 := select (cmpf .oeq v1 (broadcastInDim S2 ![] bcast_S_S2 (constant (F := Ideal) S_ .f32 0x7F800000#32)))
    (broadcastInDim S2 ![] bcast_S_S2 (constant (F := Ideal) S_ .f32 0x7F7FFFFF#32)) v1
  select (cmpf .oeq v4 (broadcastInDim S2 ![] bcast_S_S2 (constant (F := Ideal) S_ .f32 0xFF800000#32)))
    (broadcastInDim S2 ![] bcast_S_S2 (constant (F := Ideal) S_ .f32 0xFF7FFFFF#32)) v4

/-- The nodes' column means over the entries that are not NaN. -/
def nanmean0 (y : FVec Ideal S2048x2 .f32) : FVec Ideal S2 .f32 :=
  let cnt : FVec Ideal S2 .f32 := Host.reduceAdd (sitofp .f32 (extui 32 (noti (cmpf .une y y)) natLt_1_32)) (constant (F := Ideal) S_ .f32 0x00000000#32) reducesTo_S2048x2_S2_d0 h_S_
  let y' : FVec Ideal S2048x2 .f32 := select (cmpf .une y y) (broadcastInDim S2048x2 ![] bcast_S_S2048x2 (constant (F := Ideal) S_ .f32 0x00000000#32)) y
  Host.divf (Host.reduceAdd y' (constant (F := Ideal) S_ .f32 0x00000000#32) reducesTo_S2048x2_S2_d0 h_S_) cnt
/-- The edges'. -/
def nanmean1 (y : FVec Ideal S6144x2 .f32) : FVec Ideal S2 .f32 :=
  let cnt : FVec Ideal S2 .f32 := Host.reduceAdd (sitofp .f32 (extui 32 (noti (cmpf .une y y)) natLt_1_32)) (constant (F := Ideal) S_ .f32 0x00000000#32) reducesTo_S6144x2_S2_d0 h_S_
  let y' : FVec Ideal S6144x2 .f32 := select (cmpf .une y y) (broadcastInDim S6144x2 ![] bcast_S_S6144x2 (constant (F := Ideal) S_ .f32 0x00000000#32)) y
  Host.divf (Host.reduceAdd y' (constant (F := Ideal) S_ .f32 0x00000000#32) reducesTo_S6144x2_S2_d0 h_S_) cnt
/-- The faces'. -/
def nanmean2 (y : FVec Ideal S4096x2 .f32) : FVec Ideal S2 .f32 :=
  let cnt : FVec Ideal S2 .f32 := Host.reduceAdd (sitofp .f32 (extui 32 (noti (cmpf .une y y)) natLt_1_32)) (constant (F := Ideal) S_ .f32 0x00000000#32) reducesTo_S4096x2_S2_d0 h_S_
  let y' : FVec Ideal S4096x2 .f32 := select (cmpf .une y y) (broadcastInDim S4096x2 ![] bcast_S_S4096x2 (constant (F := Ideal) S_ .f32 0x00000000#32)) y
  Host.divf (Host.reduceAdd y' (constant (F := Ideal) S_ .f32 0x00000000#32) reducesTo_S4096x2_S2_d0 h_S_) cnt

/-- The three heads, means and their sum. -/
def tail (x0 : FVec Ideal S2048x128 .f32) (x1 : FVec Ideal S6144x128 .f32) (x2 : FVec Ideal S4096x128 .f32)
    (w0 : FVec Ideal S128x2 .f32) (b0 : FVec Ideal S2 .f32) (w1 : FVec Ideal S128x2 .f32) (b1 : FVec Ideal S2 .f32)
    (w2 : FVec Ideal S128x2 .f32) (b2 : FVec Ideal S2 .f32) : FVec Ideal S2 .f32 :=
  let y0 : FVec Ideal S2048x2 .f32 := addf (Host.dotGeneral dot_S2048x128_S128x2_S2048x2_1_0_0_1_n_n none x0 w0)
    (broadcastInDim S2048x2 ![0, 1] bcast_S1x2_S2048x2_0_1 (broadcastInDim S1x2 ![1] bcast_S2_S1x2_1 b0))
  let y1 : FVec Ideal S6144x2 .f32 := addf (Host.dotGeneral dot_S6144x128_S128x2_S6144x2_1_0_0_1_n_n none x1 w1)
    (broadcastInDim S6144x2 ![0, 1] bcast_S1x2_S6144x2_0_1 (broadcastInDim S1x2 ![1] bcast_S2_S1x2_1 b1))
  let y2 : FVec Ideal S4096x2 .f32 := addf (Host.dotGeneral dot_S4096x128_S128x2_S4096x2_1_0_0_1_n_n none x2 w2)
    (broadcastInDim S4096x2 ![0, 1] bcast_S1x2_S4096x2_0_1 (broadcastInDim S1x2 ![1] bcast_S2_S1x2_1 b2))
  addf (addf (nanToNum (nanmean0 y0)) (nanToNum (nanmean1 y1))) (nanToNum (nanmean2 y2))

set_option maxHeartbeats 8000000 in
/-- The kernel program's eight stretches of host operations after its last region compute `tail` of what the buffers of
    the three final feature arrays and the six head parameters hold. -/
theorem kernel_tail (V : Valuation τ sig (Elt Ideal)) :
    StableHlo.after hostOps14_7 (StableHlo.after hostOps14_6 (StableHlo.after hostOps14_5 (StableHlo.after hostOps14_4
      (StableHlo.after hostOps14_3 (StableHlo.after hostOps14_2 (StableHlo.after hostOps14_1 (StableHlo.after hostOps14 V))))))) (Proc.devRef .tc main_v89)
      = tail (V main_v64) (V main_v67) (V main_v69) (V main_arg18) (V main_arg19) (V main_arg20) (V main_arg21) (V main_arg22) (V main_arg23) := by
  dsimp only [hostOps14, hostOps14_1, hostOps14_2, hostOps14_3, hostOps14_4, hostOps14_5, hostOps14_6, hostOps14_7]
  after_results_simp
  rfl

end Cert.KernelIdeal.Tail

end
-- ==== Proof.Model.lean ====
/-
  What both programs compute, as one function of the twenty-four argument arrays over the extended reals.

  One layer updates the three ranks of a simplicial complex from projected features `h = x · W`:
    nodes  (r, q) ↦ logistic ( Σₖ au0 (r,k) · h00 (k,q)  +  Σₖ inc1n (r,k) · h10 (k,q) )
    edges  (r, q) ↦ logistic ( ( Σₖ inc1 (k,r) · h01 (k,q)  +  Σₖ (ad1 (r,k) + au1 (r,k)) · h11 (k,q) )  +  Σₖ inc2n (r,k) · h21 (k,q) )
    faces  (r, q) ↦ logistic ( Σₖ inc2 (k,r) · h12 (k,q)  +  Σₖ ad2 (r,k) · h22 (k,q) )
  (the two incidence matrices enter transposed). The weights of layer `l` are slice `l` of each stacked weight array. Two
  layers, then the shared heads-and-means function of the three final feature arrays (`Tail.tail`). The sums are over the
  whole contraction axis: how a program groups them — into tiles accumulated one after the other — does not change a sum in
  a commutative monoid.
-/
import proofs.«108146_j77455440216408_2_alg».proof.Proof.KernelIdeal.Tail
import Idealize.ShloMosaic.Lib.ValueIdx

noncomputable section

namespace Cert.Model

open Cert.KernelIdeal Cert.KernelIdeal.Gen
open Idealize.ShloMosaic Idealize.ShloMosaic.ValueIdx

/-- An `m × n` array of extended reals. -/
abbrev Arr (m n : ℕ) : Type := (⟨2, ![m, n]⟩ : Shape).Idx → EReal

def nodes (au0 : Arr 2048 2048) (inc1n : Arr 2048 6144) (h00 : Arr 2048 128) (h10 : Arr 6144 128) : Arr 2048 128 :=
  fun i => Ideal.logistic ((∑ k : Fin 2048, au0 (ix2 (i 0) k) * h00 (ix2 k (i 1))) + ∑ k : Fin 6144, inc1n (ix2 (i 0) k) * h10 (ix2 k (i 1)))

def edges (inc1 : Arr 2048 6144) (ad1 au1 : Arr 6144 6144) (inc2n : Arr 6144 4096) (h01 : Arr 2048 128) (h11 : Arr 6144 128) (h21 : Arr 4096 128) : Arr 6144 128 :=
  fun i => Ideal.logistic (((∑ k : Fin 2048, inc1 (ix2 k (i 0)) * h01 (ix2 k (i 1)))
      + ∑ k : Fin 6144, (ad1 (ix2 (i 0) k) + au1 (ix2 (i 0) k)) * h11 (ix2 k (i 1)))
    + ∑ k : Fin 4096, inc2n (ix2 (i 0) k) * h21 (ix2 k (i 1)))

def faces (inc2 : Arr 6144 4096) (ad2 : Arr 4096 4096) (h12 : Arr 6144 128) (h22 : Arr 4096 128) : Arr 4096 128 :=
  fun i => Ideal.logistic ((∑ k : Fin 6144, inc2 (ix2 k (i 0)) * h12 (ix2 k (i 1))) + ∑ k : Fin 4096, ad2 (ix2 (i 0) k) * h22 (ix2 k (i 1)))

/-- Slice `0` (the first layer's) and slice `1` (the second layer's) of a stacked weight array, as 128 × 128 arrays. -/
def wAt0 (W : FVec Ideal S2x128x128 .f32) : FVec Ideal S128x128 .f32 := fun i =>
  shapeCast S128x128 (extractStridedSlice S1x128x128 ![0, 0, 0] W slices_S2x128x128_S1x128x128_0_0_0) shapeCasts_S1x128x128_S128x128 i
def wAt1 (W : FVec Ideal S2x128x128 .f32) : FVec Ideal S128x128 .f32 := fun i =>
  shapeCast S128x128 (extractStridedSlice S1x128x128 ![1, 0, 0] W slices_S2x128x128_S1x128x128_1_0_0) shapeCasts_S1x128x128_S128x128 i

/-- The projections `x · W` of the nodes', the edges' and the faces' features. -/
def projN (x : FVec Ideal S2048x128 .f32) (w : FVec Ideal S128x128 .f32) : FVec Ideal S2048x128 .f32 :=
  Host.dotGeneral dot_S2048x128_S128x128_S2048x128_1_0_0_1_n_n none x w
def projE (x : FVec Ideal S6144x128 .f32) (w : FVec Ideal S128x128 .f32) : FVec Ideal S6144x128 .f32 :=
  Host.dotGeneral dot_S6144x128_S128x128_S6144x128_1_0_0_1_n_n none x w
def projF (x : FVec Ideal S4096x128 .f32) (w : FVec Ideal S128x128 .f32) : FVec Ideal S4096x128 .f32 :=
  Host.dotGeneral dot_S4096x128_S128x128_S4096x128_1_0_0_1_n_n none x w

/-- The whole computation, of the argument arrays in @main's order: `a0 a1 a2` the three feature arrays; `a3 … a10` the
    neighbourhood matrices inc1, inc1n, inc2, inc2n, au0, au1, ad1, ad2; `a11 … a17` the stacked weights W00, W10, W01, W11,
    W21, W12, W22; `a18 … a23` the three heads. -/
def model (a0 : FVec Ideal S2048x128 .f32) (a1 : FVec Ideal S6144x128 .f32) (a2 : FVec Ideal S4096x128 .f32)
    (a3 a4 : FVec Ideal S2048x6144 .f32) (a5 a6 : FVec Ideal S6144x4096 .f32) (a7 : FVec Ideal S2048x2048 .f32)
    (a8 a9 : FVec Ideal S6144x6144 .f32) (a10 : FVec Ideal S4096x4096 .f32)
    (a11 a12 a13 a14 a15 a16 a17 : FVec Ideal S2x128x128 .f32)
    (a18 : FVec Ideal S128x2 .f32) (a19 : FVec Ideal S2 .f32) (a20 : FVec Ideal S128x2 .f32) (a21 : FVec Ideal S2 .f32)
    (a22 : FVec Ideal S128x2 .f32) (a23 : FVec Ideal S2 .f32) : FVec Ideal S2 .f32 :=
  let x0' : FVec Ideal S2048x128 .f32 := nodes a7 a4 (projN a0 (wAt0 a11)) (projE a1 (wAt0 a12))
  let x1' : FVec Ideal S6144x128 .f32 := edges a3 a9 a8 a6 (projN a0 (wAt0 a13)) (projE a1 (wAt0 a14)) (projF a2 (wAt0 a15))
  let x2' : FVec Ideal S4096x128 .f32 := faces a5 a10 (projE a1 (wAt0 a16)) (projF a2 (wAt0 a17))
  let x0'' : FVec Ideal S2048x128 .f32 := nodes a7 a4 (projN x0' (wAt1 a11)) (projE x1' (wAt1 a12))
  let x1'' : FVec Ideal S6144x128 .f32 := edges a3 a9 a8 a6 (projN x0' (wAt1 a13)) (projE x1' (wAt1 a14)) (projF x2' (wAt1 a15))
  let x2'' : FVec Ideal S4096x128 .f32 := faces a5 a10 (projE x1' (wAt1 a16)) (projF x2' (wAt1 a17))
  Tail.tail x0'' x1'' x2'' a18 a19 a20 a21 a22 a23

end Cert.Model

end
-- ==== Proof.KernelIdeal.Projections.lean ====
/-
  The projected features as each layer's first stretch of host operations computes them: `x · W` with the layer's slice of the
  stacked weights, narrowed to bf16 (the identity over the extended reals) — read off the stretch's operations one by one.
-/
import proofs.«108146_j77455440216408_2_alg».proof.Proof.KernelIdeal.Steps
import proofs.«108146_j77455440216408_2_alg».proof.Proof.Model
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The first layer: from the launch contents -/

set_option maxHeartbeats 4000000 in
theorem W1_v15 (c : Dev nD) : W1 m c main_v15 = truncf .bf16 (Model.projN (V0 m c main_arg0) (Model.wAt0 (V0 m c main_arg11))) bitsLt_bf16_f32 := by
  unfold W1; dsimp only [hostOps0]; after_results_simp; rfl
set_option maxHeartbeats 4000000 in
theorem W1_v17 (c : Dev nD) : W1 m c main_v17 = truncf .bf16 (Model.projE (V0 m c main_arg1) (Model.wAt0 (V0 m c main_arg12))) bitsLt_bf16_f32 := by
  unfold W1; dsimp only [hostOps0]; after_results_simp; rfl
set_option maxHeartbeats 4000000 in
theorem W1_v19 (c : Dev nD) : W1 m c main_v19 = truncf .bf16 (Model.projN (V0 m c main_arg0) (Model.wAt0 (V0 m c main_arg13))) bitsLt_bf16_f32 := by
  unfold W1; dsimp only [hostOps0]; after_results_simp; rfl
set_option maxHeartbeats 4000000 in
theorem W1_v21 (c : Dev nD) : W1 m c main_v21 = truncf .bf16 (Model.projE (V0 m c main_arg1) (Model.wAt0 (V0 m c main_arg14))) bitsLt_bf16_f32 := by
  unfold W1; dsimp only [hostOps0]; after_results_simp; rfl
set_option maxHeartbeats 4000000 in
theorem W1_v23 (c : Dev nD) : W1 m c main_v23 = truncf .bf16 (Model.projF (V0 m c main_arg2) (Model.wAt0 (V0 m c main_arg15))) bitsLt_bf16_f32 := by
  unfold W1; dsimp only [hostOps0]; after_results_simp; rfl
set_option maxHeartbeats 4000000 in
theorem W1_v25 (c : Dev nD) : W1 m c main_v25 = truncf .bf16 (Model.projE (V0 m c main_arg1) (Model.wAt0 (V0 m c main_arg16))) bitsLt_bf16_f32 := by
  unfold W1; dsimp only [hostOps0]; after_results_simp; rfl
set_option maxHeartbeats 4000000 in
theorem W1_v27 (c : Dev nD) : W1 m c main_v27 = truncf .bf16 (Model.projF (V0 m c main_arg2) (Model.wAt0 (V0 m c main_arg17))) bitsLt_bf16_f32 := by
  unfold W1; dsimp only [hostOps0]; after_results_simp; rfl

/-! ## The second layer: from the first layer's results -/

set_option maxHeartbeats 4000000 in
theorem W13_v50 (c : Dev nD) : W13 m c main_v50 = truncf .bf16 (Model.projN (W12 m c main_v29) (Model.wAt1 (W12 m c main_arg11))) bitsLt_bf16_f32 := by
  unfold W13; dsimp only [hostOps7]; after_results_simp; rfl
set_option maxHeartbeats 4000000 in
theorem W13_v52 (c : Dev nD) : W13 m c main_v52 = truncf .bf16 (Model.projE (W12 m c main_v32) (Model.wAt1 (W12 m c main_arg12))) bitsLt_bf16_f32 := by
  unfold W13; dsimp only [hostOps7]; after_results_simp; rfl
set_option maxHeartbeats 4000000 in
theorem W13_v54 (c : Dev nD) : W13 m c main_v54 = truncf .bf16 (Model.projN (W12 m c main_v29) (Model.wAt1 (W12 m c main_arg13))) bitsLt_bf16_f32 := by
  unfold W13; dsimp only [hostOps7]; after_results_simp; rfl
set_option maxHeartbeats 4000000 in
theorem W13_v56 (c : Dev nD) : W13 m c main_v56 = truncf .bf16 (Model.projE (W12 m c main_v32) (Model.wAt1 (W12 m c main_arg14))) bitsLt_bf16_f32 := by
  unfold W13; dsimp only [hostOps7]; after_results_simp; rfl
set_option maxHeartbeats 4000000 in
theorem W13_v58 (c : Dev nD) : W13 m c main_v58 = truncf .bf16 (Model.projF (W12 m c main_v34) (Model.wAt1 (W12 m c main_arg15))) bitsLt_bf16_f32 := by
  unfold W13; dsimp only [hostOps7]; after_results_simp; rfl
set_option maxHeartbeats 4000000 in
theorem W13_v60 (c : Dev nD) : W13 m c main_v60 = truncf .bf16 (Model.projE (W12 m c main_v32) (Model.wAt1 (W12 m c main_arg16))) bitsLt_bf16_f32 := by
  unfold W13; dsimp only [hostOps7]; after_results_simp; rfl
set_option maxHeartbeats 4000000 in
theorem W13_v62 (c : Dev nD) : W13 m c main_v62 = truncf .bf16 (Model.projF (W12 m c main_v34) (Model.wAt1 (W12 m c main_arg17))) bitsLt_bf16_f32 := by
  unfold W13; dsimp only [hostOps7]; after_results_simp; rfl

end Cert.KernelIdeal.Between

end
-- ==== Proof.KernelIdeal.Value0.lean ====
/-
  The value of region 0's result array, over the extended reals. The region multiplies a 2048 × 2048 array by a
  2048 × 128 array in two row tiles of 1024 rows, the whole contraction axis in one tile: at each grid point the
  body zeroes its accumulator, adds the product of the point's 1024 × 2048 block of the first array with the
  whole second array, and stores the accumulator into the point's 1024 × 128 block of the result. Over the
  extended reals a change of float format is the identity and the product is exact, so that block holds, at
  (p, q), the sum over k of the first block's (p, k) times the second array's (k, q); row p of row tile i is row
  1024 i + p of the arrays; the two blocks tile the result; hence entry (r, q) of the result is the sum over k of
  the first array's (r, k) times the second's (k, q).
-/
import proofs.«108146_j77455440216408_2_alg».proof.Proof.KernelIdeal.Region0
import Idealize.ShloMosaic.Lib.Pipeline.Value
import Idealize.ShloMosaic.Lib.ValueIdx
import Idealize.ShloMosaic.PureOps.Ideal
import Idealize.ShloMosaic.PureOps.Ideal.Laws
import Idealize.ShloMosaic.Lib.Tactic

set_option maxRecDepth 16384

noncomputable section

namespace Cert.KernelIdeal.Value0

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-- The contraction axis has one tile, so the row offset at which the body loads the second operand's block,
    2048 times the contraction coordinate, is zero. -/
theorem off_zero (i : grid0.Coords) :
    (![BitVec.toNat (Scalar.indexCast (Scalar.muli (BitVec.ofNat 32 (i 1).val) 2048#32)), 0] : Fin 2 → Nat) = fun _ => 0 := by
  have h1 : (i 1).val = 0 := Nat.lt_one_iff.mp (i 1).isLt
  rw [h1]
  funext a; fin_cases a <;> rfl

/-- What the body leaves in the output block, from input blocks `x0`, `x1`: the accumulator, zeroed and then
    increased by the product of the two blocks — the one store that covers the output block carries the
    accumulator read back, itself the later of two whole-block stores. -/
theorem out_eq (c : Dev nD) (i : grid0.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : Region0.isFirst i) (hl : Region0.isLast i)
    (x0 : Vec F S1024x2048 .f32) (x1 : Vec F S2048x128 .bf16) :
    Region0.out c i arg2 harg2 arg3 harg3 arg4 harg4 arg5 harg5 hf hl x0 x1 = k0_pay2 x0 x1 (k0_pay1 (F := F)) := by
  unfold Region0.out
  rw [View.read_writes_eq_canon _ _ _ (Region0.cover_out c i arg2 harg2 arg3 harg3 arg4 harg4 arg5 harg5 hf hl x0 x1)]
  unfold Region0.run
  dsimp only
  sl_unfold_words
  rw [View.canon_unit_zero hz]
  simp only [View.readAt_eq_ld, harg2.read_unread, harg3.read_unread, View.ld_unit_zero (S := S1024x2048) hz]
  rw [View.readCov_cons_toLoadRect, View.readCov_cons_toLoadRect]
  exact congrArg (fun v => k0_pay2 x0 v (k0_pay1 (F := F))) (View.ld_unit_zero (S := S2048x128) (off_zero i) _ x1)

/-! ## The payload at an index, over the extended reals -/

local notation "D0" => dot_S1024x2048_S2048x128_S1024x128_1_0_0_1_n_n

/-- The product's left operand at result index (p, q) and contraction position k is read at (p, k): the row is
    the result's, the column the contraction position. -/
theorem lhs_at (p : Fin 1024) (q : Fin 128) (k : Fin 2048) :
    DotDims.lhsIdx D0 (ix2 p q) ((contrEquiv1 D0 2048 rfl rfl).symm k) = ix2 p k := by
  funext a
  apply Fin.ext
  match a with
  | ⟨0, _⟩ => rfl
  | ⟨1, _⟩ => exact (DotDims.lhsIdx_val_of_single D0 rfl (ix2 p q) _).trans (contrEquiv1_symm_val D0 2048 rfl rfl k)

/-- The right operand is read at (k, q): the row is the contraction position, the column the result's. -/
theorem rhs_at (p : Fin 1024) (q : Fin 128) (k : Fin 2048) :
    DotDims.rhsIdx D0 (ix2 p q) ((contrEquiv1 D0 2048 rfl rfl).symm k) = ix2 k q := by
  funext a
  apply Fin.ext
  match a with
  | ⟨0, _⟩ => exact (DotDims.rhsIdx_val_of_single D0 rfl (ix2 p q) _).trans (contrEquiv1_symm_val D0 2048 rfl rfl k)
  | ⟨1, _⟩ => rfl

/-- Over the extended reals the change of format is the identity and the product is exact, so the zeroed
    accumulator increased by the blocks' product holds, at (p, q), the sum over k of `x0 (p, k) * x1 (k, q)`. -/
theorem pay_apply (x0 : Vec Ideal S1024x2048 .f32) (x1 : Vec Ideal S2048x128 .bf16) (p : Fin 1024) (q : Fin 128) :
    k0_pay2 (F := Ideal) x0 x1 (k0_pay1 (F := Ideal)) (ix2 p q) = ∑ k : Fin 2048, x0 (ix2 p k) * x1 (ix2 k q) := by
  unfold k0_pay2 k0_pay1
  simp only [shapeCast_self]
  rw [addf_apply, broadcast_apply]
  simp only [Ideal.matmul_constant_zero_apply]
  rw [show (FloatOps.ofBits (F := Ideal) .f32 0x00000000#32 : EReal) = 0 from Ideal.ofBits_zero_f32, zero_add,
    ← Equiv.sum_comp (contrEquiv1 D0 2048 rfl rfl).symm]
  refine Finset.sum_congr rfl fun k _ => ?_
  rw [truncf_apply, lhs_at, rhs_at]

/-! ## From blocks to the array -/

variable (V : (c : Dev nD) → (b : Ref sig .tc) → Buf (Elt Ideal) ((c : Thread nD τ).loc b))

/-- The product of a 2048 × 2048 array and a 2048 × 128 array, entry by entry. -/
def prod (A : S2048x2048.Idx → EReal) (B : S2048x128.Idx → EReal) : S2048x128.Idx → EReal :=
  fun j => ∑ k : Fin 2048, A (ix2 (j 0) k) * B (ix2 k (j 1))

/-- The index maps over the grid: the first operand's row tile is the output's and its column tile the first;
    the second operand is one block; the output's row tile is below 2 and its column tile the first. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 1
    ∧ win0_2.index t (1 : Fin 2) = 0 :=
  (by decide +kernel : ∀ t : Fin grid0.N, _)

/-- Every row tile of the output is some point's. -/
theorem idx_onto : ∀ q0 : Fin 2, ∃ t : Fin cfg0.N, win0_2.index t = ![q0.val, 0] :=
  (by decide +kernel : ∀ q0 : Fin 2, ∃ t : Fin grid0.N, win0_2.index t = ![q0.val, 0])

/-- The first operand's block at point `t`: entry (p, k) is the array's entry in row
    1024 · (the point's row tile) + p, column k. -/
theorem iblk0_apply (c : Dev nD) (t : Fin cfg0.N) (x : S1024x2048.Idx) (i : S2048x2048.Idx)
    (h0 : (i 0).val = win0_2.index t (0 : Fin 2) * 1024 + (x 0).val) (h1 : (i 1).val = (x 1).val) :
    (Region0.iblk V c 0 t : Vec Ideal S1024x2048 .f32) x = (V c main_arg7 : S2048x2048.Idx → EReal) i := by
  obtain ⟨e0, e1, -, -, -, -⟩ := idx_facts t
  unfold Region0.iblk
  rw [View.read_apply]
  show V c main_arg7 _ = V c main_arg7 _
  congr 1
  funext a
  apply Fin.ext
  match a with
  | ⟨0, _⟩ => show win0_0.index t (0 : Fin 2) * 1024 + 1 * (x 0).val = (i 0).val; rw [e0, h0]; omega
  | ⟨1, _⟩ => show win0_0.index t (1 : Fin 2) * 2048 + 1 * (x 1).val = (i 1).val; rw [e1, h1]; omega

/-- The second operand's one block is its array. -/
theorem iblk1_apply (c : Dev nD) (t : Fin cfg0.N) (x : S2048x128.Idx) (i : S2048x128.Idx)
    (h0 : (i 0).val = (x 0).val) (h1 : (i 1).val = (x 1).val) :
    (Region0.iblk V c 1 t : Vec Ideal S2048x128 .bf16) x = (V c main_v15 : S2048x128.Idx → EReal) i := by
  obtain ⟨-, -, e2, e3, -, -⟩ := idx_facts t
  unfold Region0.iblk
  rw [View.read_apply]
  show V c main_v15 _ = V c main_v15 _
  congr 1
  funext a
  apply Fin.ext
  match a with
  | ⟨0, _⟩ => show win0_1.index t (0 : Fin 2) * 2048 + 1 * (x 0).val = (i 0).val; rw [e2, h0]; omega
  | ⟨1, _⟩ => show win0_1.index t (1 : Fin 2) * 128 + 1 * (x 1).val = (i 1).val; rw [e3, h1]; omega

/-- What point `t` writes back is block `t` of the product of the two arrays as the region finds them. -/
theorem flushed_eq (c : Dev nD) (t : Fin cfg0.N) :
    (Region0.dat V c).flushed 2 t
      = ((cfg0.win 2).blk t).view.read (Elt Ideal) (prod (V c main_arg7) (V c main_v15)) := by
  show (cfg0.win 2).cut (grid0.coords t) ((Region0.dat V c).after 2 t) = _
  rw [Region0.after_2, out_eq]
  obtain ⟨-, -, -, -, -, e5⟩ := idx_facts t
  funext j
  obtain ⟨p, q, rfl⟩ : ∃ (p : Fin 1024) (q : Fin 128), j = ix2 p q := ⟨j 0, j 1, eq_ix2 j⟩
  rw [View.read_apply]
  refine (pay_apply (Region0.iblk V c 0 t) (Region0.iblk V c 1 t) p q).trans ?_
  unfold prod
  refine Finset.sum_congr rfl fun k _ => ?_
  have r0 : ((((cfg0.win 2).blk t).view.emb (ix2 p q)) 0).val = win0_2.index t (0 : Fin 2) * 1024 + p.val := by
    show win0_2.index t (0 : Fin 2) * 1024 + 1 * p.val = _; omega
  have r1 : ((((cfg0.win 2).blk t).view.emb (ix2 p q)) 1).val = q.val := by
    show win0_2.index t (1 : Fin 2) * 128 + 1 * q.val = _; rw [e5]; omega
  rw [iblk0_apply V c t (ix2 p k) (ix2 ((((cfg0.win 2).blk t).view.emb (ix2 p q)) 0) k) r0 rfl,
    iblk1_apply V c t (ix2 k q) (ix2 k ((((cfg0.win 2).blk t).view.emb (ix2 p q)) 1)) rfl r1]

/-- An index of the result array is in point `t`'s block iff each coordinate is in the block's range. -/
theorem mem_blk (t : Fin cfg0.N) (i : S2048x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v28).slice (win0_2.rect t)).set ↔ _
  rw [View.set_slice_whole, Rect.mem_set_unit]
  exact Iff.rfl

/-- Row r of the result lies in the block of the point whose row tile is r / 1024; every point writes back. -/
theorem cover (i : S2048x128.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The result array after the region is the product of the two arrays as the region finds them. -/
theorem final (c : Dev nD) : (Region0.dat V c).arrAt 2 cfg0.N = prod (V c main_arg7) (V c main_v15) :=
  (Region0.dat V c).arrAt_eq_of_cover 2 (prod (V c main_arg7) (V c main_v15)) (fun t _ => flushed_eq V c t) cover

/-- The region's arrays at their literal index types: the two operands as the region finds them, and the result
    after the region. -/
abbrev lhsArr (c : Dev nD) : S2048x2048.Idx → EReal := V c main_arg7
abbrev rhsArr (c : Dev nD) : S2048x128.Idx → EReal := V c main_v15
abbrev resArr (c : Dev nD) : S2048x128.Idx → EReal := (Region0.dat (F := Ideal) V c).arrAt 2 cfg0.N

/-- Entry (r, q) of the result: the sum over k of the first array's (r, k) times the second's (k, q). -/
theorem result_apply (c : Dev nD) (r : Fin 2048) (q : Fin 128) :
    resArr V c (ix2 r q) = ∑ k : Fin 2048, lhsArr V c (ix2 r k) * rhsArr V c (ix2 k q) :=
  congrFun (final V c) (ix2 r q)

end Cert.KernelIdeal.Value0

end
-- ==== Proof.KernelIdeal.Value1.lean ====
/-
  Region 1's result array, entry by entry, over the extended reals:

      result (r, q) = logistic (P (r, q) + ∑ k < 6144, A (r, k) · B (k, q))

  for the left operand A : f32[2048, 6144], the right operand B : bf16[6144, 128] and the partial sum P : f32[2048, 128].
  The grid is 2 × 3: row tiles of 1024 rows, and along the contraction axis three tiles of 2048 positions. Within a row
  tile the accumulator starts from P's block, takes the products of one tile after the other, and after the third tile
  the logistic function of it is stored and written back. The steps: what each case of the body leaves is its arithmetic
  applied to the blocks it read; that arithmetic at an entry (narrowing a float format and reshaping to the same shape
  are identities, the matrix product of a tile is the sum of 2048 products); the blocks as parts of the arrays; the
  running sum along a row tile by induction over the grid, regrouped by associativity of + alone (the extended reals
  do not cancel); and the result array from the blocks written back, which tile it.
-/
import proofs.«108146_j77455440216408_2_alg».proof.Proof.KernelIdeal.Region1
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value1

open Cert.KernelIdeal Cert.KernelIdeal.Gen Cert.KernelIdeal.Region1
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid1.Coords) (x1 : Vec F S6144x128 .bf16) : Vec F S2048x128 .bf16 :=
  View.ld x1 (Rect.unit (s := S6144x128) (k1_off1 i) S2048x128.size (k1_off1_inb i))

/-- A middle tile leaves, in the accumulator holding `xs`, `xs` plus the tile's product. -/
theorem accM_eq (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i)
    (x0 : Vec F S1024x2048 .f32) (x1 : Vec F S6144x128 .bf16) (x2 : Vec F S1024x128 .f32) (xs : Vec F S1024x128 .f32) :
    accM c i arg2 harg2 arg3 harg3 arg4 harg4 arg5 harg5 arg6 harg6 hf hl x0 x1 x2 xs = k1_pay2 x0 (panel i x1) xs := by
  unfold accM
  rw [View.read_writes_eq_canon _ _ _ (coverM c i arg2 harg2 arg3 harg3 arg4 harg4 arg5 harg5 arg6 harg6 hf hl x0 x1 x2 xs)]
  unfold runM
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- A last tile leaves the same in the accumulator, -/
theorem accL_eq (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S6144x128 .bf16) (x2 : Vec F S1024x128 .f32) (xs : Vec F S1024x128 .f32) :
    accL c i arg2 harg2 arg3 harg3 arg4 harg4 arg5 harg5 arg6 harg6 hf hl x0 x1 x2 xs = k1_pay2 x0 (panel i x1) xs := by
  unfold accL
  rw [View.read_writes_eq_canon _ _ _ (coverL c i arg2 harg2 arg3 harg3 arg4 harg4 arg5 harg5 arg6 harg6 hf hl x0 x1 x2 xs)]
  unfold runL
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- and in the output block the logistic function of it. -/
theorem outL_eq (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S6144x128 .bf16) (x2 : Vec F S1024x128 .f32) (xs : Vec F S1024x128 .f32) :
    outL c i arg2 harg2 arg3 harg3 arg4 harg4 arg5 harg5 arg6 harg6 hf hl x0 x1 x2 xs = k1_pay3 (k1_pay2 x0 (panel i x1) xs) := by
  unfold outL
  rw [View.read_writes_eq_canon _ _ _ (coverO c i arg2 harg2 arg3 harg3 arg4 harg4 arg5 harg5 arg6 harg6 hf hl x0 x1 x2 xs)]
  unfold runL
  dsimp only
  sl_unfold_words
  rw [View.canon_unit_zero hz, View.readCov_unit_zero (S := S1024x128) _ hz]
  simp only [View.readAt_eq_ld, harg2.read_unread, harg3.read_unread, harg6.read_unread,
    View.ld_unit_zero (S := S1024x2048) hz, View.ld_unit_zero (S := S1024x128) hz]
  rfl

/-- A first tile copies the partial sum's block into the accumulator, then adds the tile's product. -/
theorem accF_eq (c : Dev nD) (i : grid1.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i)
    (x0 : Vec F S1024x2048 .f32) (x1 : Vec F S6144x128 .bf16) (x2 : Vec F S1024x128 .f32) :
    accF c i arg2 harg2 arg3 harg3 arg4 harg4 arg5 harg5 arg6 harg6 hf hl x0 x1 x2 = k1_pay2 x0 (panel i x1) (k1_pay1 x2) := by
  unfold accF
  rw [View.read_writes_eq_canon _ _ _ (coverF c i arg2 harg2 arg3 harg3 arg4 harg4 arg5 harg5 arg6 harg6 hf hl x0 x1 x2)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x2048) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k1_pay1 v = v := by
  unfold k1_pay1
  simp only [shapeCast_self]

/-- The left operand's index of output `(p, q)` at contraction position `k` is `(p, k)`; -/
theorem lhsIdx_eq (p : Fin 1024) (q : Fin 128) (k : Fin 2048) :
    dot_S1024x2048_S2048x128_S1024x128_1_0_0_1_n_n.lhsIdx (ix2 p q)
      ((contrEquiv1 dot_S1024x2048_S2048x128_S1024x128_1_0_0_1_n_n 2048 rfl rfl).symm k) = ix2 p k := by
  have c2 := contrEquiv1_symm_val dot_S1024x2048_S2048x128_S1024x128_1_0_0_1_n_n 2048 rfl rfl k
  funext ax; apply Fin.ext
  match ax with
  | ⟨0, _⟩ => simp [DotDims.lhsIdx, dot_S1024x2048_S2048x128_S1024x128_1_0_0_1_n_n]; rfl
  | ⟨1, _⟩ => simp [DotDims.lhsIdx, dot_S1024x2048_S2048x128_S1024x128_1_0_0_1_n_n]; exact c2

/-- the right operand's is `(k, q)`. -/
theorem rhsIdx_eq (p : Fin 1024) (q : Fin 128) (k : Fin 2048) :
    dot_S1024x2048_S2048x128_S1024x128_1_0_0_1_n_n.rhsIdx (ix2 p q)
      ((contrEquiv1 dot_S1024x2048_S2048x128_S1024x128_1_0_0_1_n_n 2048 rfl rfl).symm k) = ix2 k q := by
  have c2 := contrEquiv1_symm_val dot_S1024x2048_S2048x128_S1024x128_1_0_0_1_n_n 2048 rfl rfl k
  funext ax; apply Fin.ext
  match ax with
  | ⟨0, _⟩ => simp [DotDims.rhsIdx, dot_S1024x2048_S2048x128_S1024x128_1_0_0_1_n_n]; exact c2
  | ⟨1, _⟩ => simp [DotDims.rhsIdx, dot_S1024x2048_S2048x128_S1024x128_1_0_0_1_n_n]; rfl

/-- One tile's update at `(p, q)`: the accumulator there plus the sum over the tile's 2048 contraction positions of
    the products (the narrowing of the left operand and the reshapes are identities on extended reals). -/
theorem pay2_apply (a : Vec Ideal S1024x2048 .f32) (b : Vec Ideal S2048x128 .bf16) (acc : Vec Ideal S1024x128 .f32)
    (p : Fin 1024) (q : Fin 128) :
    k1_pay2 (F := Ideal) a b acc (ix2 p q) = acc (ix2 p q) + ∑ k : Fin 2048, a (ix2 p k) * b (ix2 k q) := by
  unfold k1_pay2
  rw [shapeCast_self, shapeCast_self, addf_apply]
  simp only [matmul]
  rw [Ideal.matmul_constant_zero_apply,
    ← Equiv.sum_comp (contrEquiv1 dot_S1024x2048_S2048x128_S1024x128_1_0_0_1_n_n 2048 rfl rfl).symm]
  refine congrArg (acc (ix2 p q) + ·) (Finset.sum_congr rfl fun k _ => ?_)
  rw [lhsIdx_eq, rhsIdx_eq]
  rfl

/-- The stored output at `(p, q)`: the logistic function of the accumulator there. -/
theorem pay3_apply (acc : Vec Ideal S1024x128 .f32) (p : Fin 1024) (q : Fin 128) :
    k1_pay3 (F := Ideal) acc (ix2 p q) = Ideal.logistic (acc (ix2 p q)) := by
  unfold k1_pay3
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 2 × 3 grid is tile `t % 3` of row tile `t / 3`: the block indices of the four windows there. -/
theorem idx_facts : ∀ t : Fin cfg1.N,
    win1_0.index t 0 = t.val / 3 ∧ win1_0.index t 1 = t.val % 3
    ∧ win1_1.index t 0 = 0 ∧ win1_1.index t 1 = 0
    ∧ win1_2.index t 0 = t.val / 3 ∧ win1_2.index t 1 = 0
    ∧ win1_3.index t 0 = t.val / 3 ∧ win1_3.index t 1 = 0
    ∧ (grid1.coords t 1).val = t.val % 3 :=
  (by decide +kernel : ∀ t : Fin grid1.N,
    win1_0.index t 0 = t.val / 3 ∧ win1_0.index t 1 = t.val % 3
    ∧ win1_1.index t 0 = 0 ∧ win1_1.index t 1 = 0
    ∧ win1_2.index t 0 = t.val / 3 ∧ win1_2.index t 1 = 0
    ∧ win1_3.index t 0 = t.val / 3 ∧ win1_3.index t 1 = 0
    ∧ (grid1.coords t 1).val = t.val % 3)

/-- The left operand's block at point `t`: rows `1024 (t / 3) …`, columns `2048 (t % 3) …` of the array. -/
theorem blkA_apply (c : Dev nD) (t : Fin cfg1.N) (x : S1024x2048.Idx) (y : S2048x6144.Idx)
    (h0 : (y 0).val = t.val / 3 * 1024 + (x 0).val) (h1 : (y 1).val = t.val % 3 * 2048 + (x 1).val) :
    (iblk V c 0 t : Vec F S1024x2048 .f32) x = (V c main_arg4 : S2048x6144.Idx → Elt F .f32) y := by
  obtain ⟨i0, i1, -⟩ := idx_facts t
  unfold iblk
  rw [View.read_apply]
  show V c main_arg4 _ = V c main_arg4 _
  congr 1
  funext a
  apply Fin.ext
  match a with
  | ⟨0, _⟩ => show win1_0.index t 0 * 1024 + 1 * (x 0).val = (y 0).val; rw [i0, h0]; omega
  | ⟨1, _⟩ => show win1_0.index t 1 * 2048 + 1 * (x 1).val = (y 1).val; rw [i1, h1]; omega

/-- The right operand's block is the whole array at every point. -/
theorem blkB_apply (c : Dev nD) (t : Fin cfg1.N) (x : S6144x128.Idx) :
    (iblk V c 1 t : Vec F S6144x128 .bf16) x = (V c main_v17 : S6144x128.Idx → Elt F .bf16) x := by
  obtain ⟨-, -, i0, i1, -⟩ := idx_facts t
  unfold iblk
  rw [View.read_apply]
  show V c main_v17 _ = V c main_v17 _
  congr 1
  funext a
  apply Fin.ext
  match a with
  | ⟨0, _⟩ => show win1_1.index t 0 * 6144 + 1 * (x 0).val = (x 0).val; rw [i0]; omega
  | ⟨1, _⟩ => show win1_1.index t 1 * 128 + 1 * (x 1).val = (x 1).val; rw [i1]; omega

/-- The partial sum's block at point `t`: rows `1024 (t / 3) …` of the array. -/
theorem blkP_apply (c : Dev nD) (t : Fin cfg1.N) (x : S1024x128.Idx) (y : S2048x128.Idx)
    (h0 : (y 0).val = t.val / 3 * 1024 + (x 0).val) (h1 : (y 1).val = (x 1).val) :
    (iblk V c 2 t : Vec F S1024x128 .f32) x = (V c main_v28 : S2048x128.Idx → Elt F .f32) y := by
  obtain ⟨-, -, -, -, i0, i1, -⟩ := idx_facts t
  unfold iblk
  rw [View.read_apply]
  show V c main_v28 _ = V c main_v28 _
  congr 1
  funext a
  apply Fin.ext
  match a with
  | ⟨0, _⟩ => show win1_2.index t 0 * 1024 + 1 * (x 0).val = (y 0).val; rw [i0, h0]; omega
  | ⟨1, _⟩ => show win1_2.index t 1 * 128 + 1 * (x 1).val = (y 1).val; rw [i1, h1]; omega

/-- The rows a tile loads of the right operand: row `k` of the tile is row `2048 i₁ + k` of the panel. -/
theorem panel_apply (i : grid1.Coords) (x1 : Vec F S6144x128 .bf16) (x : S2048x128.Idx) (y : S6144x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k1_off1 i 0 + 1 * (x 0).val = (y 0).val; rw [k1_off1_eq i, h0]; show 2048 * (i 1).val + 1 * (x 0).val = _; omega
  | ⟨1, _⟩ => show k1_off1 i 1 + 1 * (x 1).val = (y 1).val; rw [k1_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The three input blocks at point `t`, as vectors of their literal shapes. -/
abbrev blkA (c : Dev nD) (t : Fin cfg1.N) : Vec Ideal S1024x2048 .f32 := iblk V c 0 t
abbrev blkB (c : Dev nD) (t : Fin cfg1.N) : Vec Ideal S6144x128 .bf16 := iblk V c 1 t
abbrev blkP (c : Dev nD) (t : Fin cfg1.N) : Vec Ideal S1024x128 .f32 := iblk V c 2 t

/-- The update of any tile at `(p, q)`, over the point's blocks: what the accumulator held plus the tile's 2048 products. -/
theorem tile_apply (c : Dev nD) (t : Fin cfg1.N) (xs : Vec Ideal S1024x128 .f32) (p : Fin 1024) (q : Fin 128) :
    k1_pay2 (F := Ideal) (blkA V c t) (panel (grid1.coords t) (blkB V c t)) xs (ix2 p q)
      = xs (ix2 p q) + ∑ k : Fin 2048, blkA V c t (ix2 p k)
          * panel (grid1.coords t) (blkB V c t) (ix2 k q) :=
  pay2_apply (blkA V c t) (panel (grid1.coords t) (blkB V c t)) xs p q

/-- After the first tile of a row the accumulator at `(p, q)` is the partial sum's block there plus the tile's products. -/
theorem accAt_first (c : Dev nD) (t : Fin cfg1.N) (h0 : t.val % 3 = 0) (p : Fin 1024) (q : Fin 128) :
    accAt V c t.val t.isLt (ix2 p q)
      = blkP V c t (ix2 p q) + ∑ k : Fin 2048, blkA V c t (ix2 p k)
          * panel (grid1.coords t) (blkB V c t) (ix2 k q) := by
  refine (congrFun (accAt_F V c t h0) (ix2 p q)).trans ?_
  refine (congrFun (accF_eq (F := Ideal) c (grid1.coords t) (mA t) (hA t) (mB t) (hB t) (mP t) (hP t) (mO t) (hO t) mAcc
    (Memref.isWhole_whole _) _ _ (iblk V c 0 t) (iblk V c 1 t) (iblk V c 2 t)) (ix2 p q)).trans ?_
  refine (tile_apply V c t (k1_pay1 (iblk V c 2 t)) p q).trans ?_
  exact congrArg (· + _) (congrFun (pay1_eq (F := Ideal) (iblk V c 2 t)) (ix2 p q))

/-- After a later tile it is what the tile before left there plus the tile's products. -/
theorem accAt_later (c : Dev nD) (t : Fin cfg1.N) (h0 : ¬ t.val % 3 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 p k)
          * panel (grid1.coords t) (blkB V c t) (ix2 k q) := by
  by_cases h2 : t.val % 3 = 2
  · refine (congrFun (accAt_L V c t h0 h2) (ix2 p q)).trans ?_
    refine (congrFun (accL_eq (F := Ideal) c (grid1.coords t) (mA t) (hA t) (mB t) (hB t) (mP t) (hP t) (mO t) (hO t) mAcc
      (Memref.isWhole_whole _) _ _ (iblk V c 0 t) (iblk V c 1 t) (iblk V c 2 t)
      (accAt V c (t.val - 1) (Nat.lt_of_le_of_lt (Nat.sub_le _ _) t.isLt))) (ix2 p q)).trans ?_
    exact tile_apply V c t _ p q
  · refine (congrFun (accAt_M V c t h0 h2) (ix2 p q)).trans ?_
    refine (congrFun (accM_eq (F := Ideal) c (grid1.coords t) (mA t) (hA t) (mB t) (hB t) (mP t) (hP t) (mO t) (hO t) mAcc
      (Memref.isWhole_whole _) _ _ (iblk V c 0 t) (iblk V c 1 t) (iblk V c 2 t)
      (accAt V c (t.val - 1) (Nat.lt_of_le_of_lt (Nat.sub_le _ _) t.isLt))) (ix2 p q)).trans ?_
    exact tile_apply V c t _ p q

/-- The output block after the last tile of a row is the logistic function of the finished accumulator. -/
theorem outAt_apply (c : Dev nD) (t : Fin cfg1.N) (h2 : t.val % 3 = 2) (p : Fin 1024) (q : Fin 128) :
    outAt V c t (ix2 p q) = Ideal.logistic (accAt V c t.val t.isLt (ix2 p q)) := by
  have h0 : ¬ t.val % 3 = 0 := by omega
  have eL := accL_eq (F := Ideal) c (grid1.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  have eO := outL_eq (F := Ideal) c (grid1.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  unfold outAt
  rw [dif_pos h2]
  refine (congrFun eO (ix2 p q)).trans ?_
  refine (pay3_apply _ p q).trans ?_
  rw [accAt_L V c t h0 h2]
  exact congrArg Ideal.logistic (congrFun eL.symm (ix2 p q))

end value

/-! ## The running sum along a row of tiles, and the result array -/

section total

open Idealize.ShloMosaic.ValueIdx Finset

variable (V : (c : Dev nD) → (b : Ref sig .tc) → Buf (Elt Ideal) ((c : Thread nD τ).loc b))

/-- The three arrays the region reads, as it finds them: the left operand f32[2048, 6144], the right operand
    bf16[6144, 128] and the partial sum f32[2048, 128], as functions into the extended reals. -/
abbrev arrA (c : Dev nD) : S2048x6144.Idx → EReal := V c main_arg4
abbrev arrB (c : Dev nD) : S6144x128.Idx → EReal := V c main_v17
abbrev arrP (c : Dev nD) : S2048x128.Idx → EReal := V c main_v28

/-- For row `r` and column `q` of the result, the product at contraction position `k` (zero past the end of the
    axis, so that partial sums may range over initial segments of ℕ). -/
def term (c : Dev nD) (r : Fin 2048) (q : Fin 128) (k : ℕ) : EReal :=
  if h : k < 6144 then arrA V c (ix2 r ⟨k, h⟩) * arrB V c (ix2 ⟨k, h⟩ q)
  else 0

theorem rowOf_lt (n : ℕ) (hn : n < cfg1.N) (p : Fin 1024) : n / 3 * 1024 + p.val < 2048 := by
  have hN : cfg1.N = 6 := N_1
  have := p.isLt
  omega

/-- Row `p` of the block of row tile `n / 3` is row `1024 (n / 3) + p` of the array. -/
abbrev rowOf (n : ℕ) (hn : n < cfg1.N) (p : Fin 1024) : Fin 2048 := ⟨n / 3 * 1024 + p.val, rowOf_lt n hn p⟩

/-- The products of tile `t % 3` of a row are the terms at positions `2048 (t % 3) … 2048 (t % 3) + 2047`. -/
theorem tile_sum (c : Dev nD) (t : Fin cfg1.N) (p : Fin 1024) (q : Fin 128) :
    ∑ k : Fin 2048, blkA V c t (ix2 p k) * panel (grid1.coords t) (blkB V c t) (ix2 k q)
      = ∑ k ∈ range 2048, term V c (rowOf t.val t.isLt p) q (t.val % 3 * 2048 + k) := by
  rw [← Fin.sum_univ_eq_sum_range (fun k => term V c (rowOf t.val t.isLt p) q (t.val % 3 * 2048 + k)) 2048]
  refine Finset.sum_congr rfl fun k _ => ?_
  have hk : t.val % 3 * 2048 + k.val < 6144 := by have := k.isLt; omega
  obtain ⟨-, -, -, -, -, -, -, -, hc⟩ := idx_facts t
  have eA : blkA V c t (ix2 p k) = arrA V c (ix2 (rowOf t.val t.isLt p) ⟨_, hk⟩) :=
    blkA_apply V c t (ix2 p k) (ix2 (rowOf t.val t.isLt p) ⟨_, hk⟩) rfl rfl
  have eB : panel (grid1.coords t) (blkB V c t) (ix2 k q) = arrB V c (ix2 ⟨_, hk⟩ q) := by
    refine (panel_apply (grid1.coords t) (blkB V c t) (ix2 k q) (ix2 ⟨_, hk⟩ q) ?_ rfl).trans ?_
    · show t.val % 3 * 2048 + k.val = 2048 * (grid1.coords t 1).val + k.val
      rw [hc]; omega
    · exact blkB_apply V c t (ix2 ⟨_, hk⟩ q)
  unfold term
  rw [dif_pos hk, eA, eB]

/-- THE INVARIANT: after tile `n % 3` of its row the accumulator at `(p, q)` holds the partial sum's entry plus the
    terms of the tiles `0 … n % 3`, by induction along the grid (sums regrouped by associativity only). -/
theorem accAt_apply (c : Dev nD) (n : ℕ) : ∀ (hn : n < cfg1.N) (p : Fin 1024) (q : Fin 128),
    accAt V c n hn (ix2 p q) = arrP V c (ix2 (rowOf n hn p) q)
      + ∑ k ∈ range ((n % 3 + 1) * 2048), term V c (rowOf n hn p) q k := by
  induction n using Nat.strong_induction_on with
  | _ n ih =>
    intro hn p q
    by_cases h0 : n % 3 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 2048, term V c (rowOf n hn p) q (n % 3 * 2048 + k) = _
      rw [h0]
      simp only [Nat.zero_mul, Nat.zero_add, Nat.one_mul]
    · have hpos : n - 1 < n := by omega
      have hn' : n - 1 < cfg1.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 3 * 1024 + p.val = n / 3 * 1024 + p.val; omega)
      rw [hr] at e
      show accAt V c (n - 1) _ (ix2 p q) + ∑ k ∈ range 2048, term V c (rowOf n hn p) q (n % 3 * 2048 + k) = _
      rw [e, add_assoc]
      congr 1
      have hs : (n % 3 + 1) * 2048 = ((n - 1) % 3 + 1) * 2048 + 2048 := by omega
      have hm : n % 3 * 2048 = ((n - 1) % 3 + 1) * 2048 := by omega
      rw [hs, Finset.sum_range_add, hm]

/-- All three tiles' terms are the whole contraction. -/
theorem range_sum_eq (c : Dev nD) (r : Fin 2048) (q : Fin 128) :
    ∑ k ∈ range 6144, term V c r q k
      = ∑ k : Fin 6144, arrA V c (ix2 r k) * arrB V c (ix2 k q) := by
  rw [← Fin.sum_univ_eq_sum_range (fun k => term V c r q k) 6144]
  refine Finset.sum_congr rfl fun k _ => ?_
  unfold term
  rw [dif_pos k.isLt]

/-- THE RESULT, entry by entry: the logistic function of the partial sum's entry plus the whole contraction. -/
def G (c : Dev nD) : S2048x128.Idx → EReal := fun i =>
  Ideal.logistic (arrP V c i
    + ∑ k : Fin 6144, arrA V c (ix2 (i 0) k) * arrB V c (ix2 k (i 1)))

/-- The output block after the last tile of row tile `t / 3` is rows `1024 (t / 3) …` of the result. -/
theorem outAt_eq_G (c : Dev nD) (t : Fin cfg1.N) (h2 : t.val % 3 = 2) (j : S1024x128.Idx) (y : S2048x128.Idx)
    (h0 : (y 0).val = t.val / 3 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show Ideal.logistic (_ + ∑ k ∈ range 6144, term V c (rowOf t.val t.isLt p) q k) = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg1.N) (hf : (cfg1.win 3).flush t = true) :
    (dat V c).flushed 3 t = ((cfg1.win 3).blk t).view.read (Elt Ideal) (G V c) := by
  have h2 : t.val % 3 = 2 := (flush1_3 t).mp hf
  obtain ⟨-, -, -, -, -, -, e0, e1, -⟩ := idx_facts t
  show (cfg1.win 3).cut (grid1.coords t) ((dat V c).after 3 t) = _
  rw [after_3]
  funext j
  rw [View.read_apply]
  refine outAt_eq_G V c t h2 ((cfg1.win 3).xinj (grid1.coords t) j) (((cfg1.win 3).blk t).view.emb j) ?_ ?_
  · show win1_3.index t 0 * 1024 + 1 * (j 0).val = t.val / 3 * 1024 + (j 0).val
    rw [e0]; omega
  · show win1_3.index t 1 * 128 + 1 * (j 1).val = (j 1).val
    rw [e1]; omega

/-- An index of the result array is in point `t`'s block iff each coordinate is in the block's range on its axis. -/
theorem mem_blk (t : Fin cfg1.N) (i : S2048x128.Idx) :
    i ∈ ((cfg1.win 3).blk t).view.set ↔ ∀ a : Fin 2, win1_3.index t a * S1024x128.size a ≤ (i a).val
      ∧ (i a).val < win1_3.index t a * S1024x128.size a + S1024x128.size a := by
  show i ∈ ((View.whole main_v29).slice (win1_3.rect t)).set ↔ _
  rw [View.set_slice_whole, Rect.mem_set_unit]
  exact Iff.rfl

/-- Row `r` of the result is written back by the last tile of row tile `r / 1024`. -/
theorem cover (i : S2048x128.Idx) :
    ∃ t : Fin cfg1.N, (cfg1.win 3).flush t = true ∧ i ∈ ((cfg1.win 3).blk t).view.set := by
  have hN : cfg1.N = 6 := N_1
  have hi0 : (i 0).val < 2048 := (i 0).isLt
  have hi1 : (i 1).val < 128 := (i 1).isLt
  obtain ⟨t, ht⟩ : ∃ t : Fin cfg1.N, t.val = 3 * ((i 0).val / 1024) + 2 := ⟨⟨3 * ((i 0).val / 1024) + 2, by omega⟩, rfl⟩
  obtain ⟨-, -, -, -, -, -, e0, e1, -⟩ := idx_facts t
  refine ⟨t, (flush1_3 t).mpr (by omega), ?_⟩
  rw [mem_blk]
  intro a
  match a with
  | ⟨0, _⟩ =>
    show win1_3.index t 0 * 1024 ≤ (i 0).val ∧ (i 0).val < win1_3.index t 0 * 1024 + 1024
    rw [e0]; omega
  | ⟨1, _⟩ =>
    show win1_3.index t 1 * 128 ≤ (i 1).val ∧ (i 1).val < win1_3.index t 1 * 128 + 128
    rw [e1]; omega

/-- So the result array ends holding `G`. -/
theorem result_eq (c : Dev nD) : (dat V c).arrAt 3 cfg1.N = G V c :=
  (dat V c).arrAt_eq_of_cover 3 (G V c) (flushed_eq V c) cover

/-- THE RESULT ARRAY AT AN INDEX: `logistic (P r q + ∑ k, A r k · B k q)` over the whole contraction axis of 6144. -/
theorem result_apply (c : Dev nD) (r : Fin 2048) (q : Fin 128) :
    ((Region1.dat (F := Ideal) V c).arrAt 3 cfg1.N) (ix2 r q)
      = Ideal.logistic (arrP V c (ix2 r q) + ∑ k : Fin 6144, arrA V c (ix2 r k) * arrB V c (ix2 k q)) := by
  rw [result_eq V c]
  rfl

end array

end Cert.KernelIdeal.Value1

end
-- ==== Proof.KernelIdeal.Value2.lean ====
/-
  The value of region 2's result array, over the extended reals. The region multiplies the TRANSPOSE of a
  2048 × 6144 array by a 2048 × 128 array in six row tiles of 1024 rows of the result, the whole contraction axis
  in one tile: at each grid point the body zeroes its accumulator, adds the product — contracting the FIRST axis of
  the point's 2048 × 1024 block of the first array, a block of 1024 of its columns — with the whole second array,
  and stores the accumulator into the point's 1024 × 128 block of the result. Over the extended reals a change of
  float format is the identity and the product is exact, so that block holds, at (p, q), the sum over k of the
  first block's (k, p) times the second array's (k, q); column p of column tile i of the first array is its column
  1024 i + p; the six blocks tile the result; hence entry (r, q) of the result is the sum over k of the first
  array's (k, r) times the second's (k, q).
-/
import proofs.«108146_j77455440216408_2_alg».proof.Proof.KernelIdeal.Region2
import Idealize.ShloMosaic.Lib.Pipeline.Value
import Idealize.ShloMosaic.Lib.ValueIdx
import Idealize.ShloMosaic.PureOps.Ideal
import Idealize.ShloMosaic.PureOps.Ideal.Laws
import Idealize.ShloMosaic.Lib.Tactic

set_option maxRecDepth 16384

noncomputable section

namespace Cert.KernelIdeal.Value2

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-- The contraction axis has one tile, so the row offset at which the body loads the second operand's block,
    2048 times the contraction coordinate, is zero. -/
theorem off_zero (i : grid2.Coords) :
    (![BitVec.toNat (Scalar.indexCast (Scalar.muli (BitVec.ofNat 32 (i 1).val) 2048#32)), 0] : Fin 2 → Nat) = fun _ => 0 := by
  have h1 : (i 1).val = 0 := Nat.lt_one_iff.mp (i 1).isLt
  rw [h1]
  funext a; fin_cases a <;> rfl

/-- What the body leaves in the output block, from input blocks `x0`, `x1`: the accumulator, zeroed and then
    increased by the product of the two blocks — the one store that covers the output block carries the
    accumulator read back, itself the later of two whole-block stores. -/
theorem out_eq (c : Dev nD) (i : grid2.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : Region2.isFirst i) (hl : Region2.isLast i)
    (x0 : Vec F S2048x1024 .f32) (x1 : Vec F S2048x128 .bf16) :
    Region2.out c i arg2 harg2 arg3 harg3 arg4 harg4 arg5 harg5 hf hl x0 x1 = k2_pay2 x0 x1 (k2_pay1 (F := F)) := by
  unfold Region2.out
  rw [View.read_writes_eq_canon _ _ _ (Region2.cover_out c i arg2 harg2 arg3 harg3 arg4 harg4 arg5 harg5 hf hl x0 x1)]
  unfold Region2.run
  dsimp only
  sl_unfold_words
  rw [View.canon_unit_zero hz]
  simp only [View.readAt_eq_ld, harg2.read_unread, harg3.read_unread, View.ld_unit_zero (S := S2048x1024) hz]
  rw [View.readCov_cons_toLoadRect, View.readCov_cons_toLoadRect]
  exact congrArg (fun v => k2_pay2 x0 v (k2_pay1 (F := F))) (View.ld_unit_zero (S := S2048x128) (off_zero i) _ x1)

/-! ## The payload at an index, over the extended reals -/

local notation "D2" => dot_S2048x1024_S2048x128_S1024x128_0_0_1_1_n_n

/-- The product contracts the left operand's FIRST axis: at result index (p, q) and contraction position k the
    left operand is read at (k, p) — its row is the contraction position, its column the result's row. -/
theorem lhs_at (p : Fin 1024) (q : Fin 128) (k : Fin 2048) :
    DotDims.lhsIdx D2 (ix2 p q) ((contrEquiv1 D2 2048 rfl rfl).symm k) = ix2 k p := by
  funext a
  apply Fin.ext
  match a with
  | ⟨0, _⟩ => exact (DotDims.lhsIdx_val_of_single D2 rfl (ix2 p q) _).trans (contrEquiv1_symm_val D2 2048 rfl rfl k)
  | ⟨1, _⟩ => rfl

/-- The right operand is read at (k, q). -/
theorem rhs_at (p : Fin 1024) (q : Fin 128) (k : Fin 2048) :
    DotDims.rhsIdx D2 (ix2 p q) ((contrEquiv1 D2 2048 rfl rfl).symm k) = ix2 k q := by
  funext a
  apply Fin.ext
  match a with
  | ⟨0, _⟩ => exact (DotDims.rhsIdx_val_of_single D2 rfl (ix2 p q) _).trans (contrEquiv1_symm_val D2 2048 rfl rfl k)
  | ⟨1, _⟩ => rfl

/-- Over the extended reals the change of format is the identity and the product is exact, so the zeroed
    accumulator increased by the product of the transposed first block with the second holds, at (p, q), the sum
    over k of `x0 (k, p) * x1 (k, q)`. -/
theorem pay_apply (x0 : Vec Ideal S2048x1024 .f32) (x1 : Vec Ideal S2048x128 .bf16) (p : Fin 1024) (q : Fin 128) :
    k2_pay2 (F := Ideal) x0 x1 (k2_pay1 (F := Ideal)) (ix2 p q) = ∑ k : Fin 2048, x0 (ix2 k p) * x1 (ix2 k q) := by
  unfold k2_pay2 k2_pay1
  simp only [shapeCast_self]
  rw [addf_apply, broadcast_apply]
  simp only [Ideal.matmul_constant_zero_apply]
  rw [show (FloatOps.ofBits (F := Ideal) .f32 0x00000000#32 : EReal) = 0 from Ideal.ofBits_zero_f32, zero_add,
    ← Equiv.sum_comp (contrEquiv1 D2 2048 rfl rfl).symm]
  refine Finset.sum_congr rfl fun k _ => ?_
  rw [truncf_apply, lhs_at, rhs_at]

/-! ## From blocks to the array -/

variable (V : (c : Dev nD) → (b : Ref sig .tc) → Buf (Elt Ideal) ((c : Thread nD τ).loc b))

/-- The product of the transpose of a 2048 × 6144 array with a 2048 × 128 array, entry by entry. -/
def prod (A : S2048x6144.Idx → EReal) (B : S2048x128.Idx → EReal) : S6144x128.Idx → EReal :=
  fun j => ∑ k : Fin 2048, A (ix2 k (j 0)) * B (ix2 k (j 1))

/-- The index maps over the grid: the first operand's row tile is the first and its COLUMN tile the output's row
    tile; the second operand is one block; the output's row tile is below 6 and its column tile the first. -/
theorem idx_facts : ∀ t : Fin cfg2.N, win2_0.index t (0 : Fin 2) = 0
    ∧ win2_0.index t (1 : Fin 2) = win2_2.index t (0 : Fin 2)
    ∧ win2_1.index t (0 : Fin 2) = 0
    ∧ win2_1.index t (1 : Fin 2) = 0
    ∧ win2_2.index t (0 : Fin 2) ≤ 5
    ∧ win2_2.index t (1 : Fin 2) = 0 :=
  (by decide +kernel : ∀ t : Fin grid2.N, _)

/-- Every row tile of the output is some point's. -/
theorem idx_onto : ∀ q0 : Fin 6, ∃ t : Fin cfg2.N, win2_2.index t = ![q0.val, 0] :=
  (by decide +kernel : ∀ q0 : Fin 6, ∃ t : Fin grid2.N, win2_2.index t = ![q0.val, 0])

/-- The first operand's block at point `t`: entry (k, p) is the array's entry in row k, column
    1024 · (the point's row tile of the output) + p. -/
theorem iblk0_apply (c : Dev nD) (t : Fin cfg2.N) (x : S2048x1024.Idx) (i : S2048x6144.Idx)
    (h0 : (i 0).val = (x 0).val) (h1 : (i 1).val = win2_2.index t (0 : Fin 2) * 1024 + (x 1).val) :
    (Region2.iblk V c 0 t : Vec Ideal S2048x1024 .f32) x = (V c main_arg3 : S2048x6144.Idx → EReal) i := by
  obtain ⟨e0, e1, -, -, -, -⟩ := idx_facts t
  unfold Region2.iblk
  rw [View.read_apply]
  show V c main_arg3 _ = V c main_arg3 _
  congr 1
  funext a
  apply Fin.ext
  match a with
  | ⟨0, _⟩ => show win2_0.index t (0 : Fin 2) * 2048 + 1 * (x 0).val = (i 0).val; rw [e0, h0]; omega
  | ⟨1, _⟩ => show win2_0.index t (1 : Fin 2) * 1024 + 1 * (x 1).val = (i 1).val; rw [e1, h1]; omega

/-- The second operand's one block is its array. -/
theorem iblk1_apply (c : Dev nD) (t : Fin cfg2.N) (x : S2048x128.Idx) (i : S2048x128.Idx)
    (h0 : (i 0).val = (x 0).val) (h1 : (i 1).val = (x 1).val) :
    (Region2.iblk V c 1 t : Vec Ideal S2048x128 .bf16) x = (V c main_v19 : S2048x128.Idx → EReal) i := by
  obtain ⟨-, -, e2, e3, -, -⟩ := idx_facts t
  unfold Region2.iblk
  rw [View.read_apply]
  show V c main_v19 _ = V c main_v19 _
  congr 1
  funext a
  apply Fin.ext
  match a with
  | ⟨0, _⟩ => show win2_1.index t (0 : Fin 2) * 2048 + 1 * (x 0).val = (i 0).val; rw [e2, h0]; omega
  | ⟨1, _⟩ => show win2_1.index t (1 : Fin 2) * 128 + 1 * (x 1).val = (i 1).val; rw [e3, h1]; omega

/-- What point `t` writes back is block `t` of that product of the two arrays as the region finds them. -/
theorem flushed_eq (c : Dev nD) (t : Fin cfg2.N) :
    (Region2.dat V c).flushed 2 t
      = ((cfg2.win 2).blk t).view.read (Elt Ideal) (prod (V c main_arg3) (V c main_v19)) := by
  show (cfg2.win 2).cut (grid2.coords t) ((Region2.dat V c).after 2 t) = _
  rw [Region2.after_2, out_eq]
  obtain ⟨-, -, -, -, -, e5⟩ := idx_facts t
  funext j
  obtain ⟨p, q, rfl⟩ : ∃ (p : Fin 1024) (q : Fin 128), j = ix2 p q := ⟨j 0, j 1, eq_ix2 j⟩
  rw [View.read_apply]
  refine (pay_apply (Region2.iblk V c 0 t) (Region2.iblk V c 1 t) p q).trans ?_
  unfold prod
  refine Finset.sum_congr rfl fun k _ => ?_
  have r0 : ((((cfg2.win 2).blk t).view.emb (ix2 p q)) 0).val = win2_2.index t (0 : Fin 2) * 1024 + p.val := by
    show win2_2.index t (0 : Fin 2) * 1024 + 1 * p.val = _; omega
  have r1 : ((((cfg2.win 2).blk t).view.emb (ix2 p q)) 1).val = q.val := by
    show win2_2.index t (1 : Fin 2) * 128 + 1 * q.val = _; rw [e5]; omega
  rw [iblk0_apply V c t (ix2 k p) (ix2 k ((((cfg2.win 2).blk t).view.emb (ix2 p q)) 0)) rfl r0,
    iblk1_apply V c t (ix2 k q) (ix2 k ((((cfg2.win 2).blk t).view.emb (ix2 p q)) 1)) rfl r1]

/-- An index of the result array is in point `t`'s block iff each coordinate is in the block's range. -/
theorem mem_blk (t : Fin cfg2.N) (i : S6144x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v30).slice (win2_2.rect t)).set ↔ _
  rw [View.set_slice_whole, Rect.mem_set_unit]
  exact Iff.rfl

/-- Row r of the result lies in the block of the point whose row tile is r / 1024; every point writes back. -/
theorem cover (i : S6144x128.Idx) :
    ∃ t : Fin cfg2.N, (cfg2.win 2).flush t = true ∧ i ∈ ((cfg2.win 2).blk t).view.set := by
  have hi0 : (i 0).val < 6144 := (i 0).isLt
  have hi1 : (i 1).val < 128 := (i 1).isLt
  obtain ⟨t, ht⟩ := idx_onto ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-- The result array after the region is that product of the two arrays as the region finds them. -/
theorem final (c : Dev nD) : (Region2.dat V c).arrAt 2 cfg2.N = prod (V c main_arg3) (V c main_v19) :=
  (Region2.dat V c).arrAt_eq_of_cover 2 (prod (V c main_arg3) (V c main_v19)) (fun t _ => flushed_eq V c t) cover

/-- The region's arrays at their literal index types: the two operands as the region finds them, and the result
    after the region. -/
abbrev lhsArr (c : Dev nD) : S2048x6144.Idx → EReal := V c main_arg3
abbrev rhsArr (c : Dev nD) : S2048x128.Idx → EReal := V c main_v19
abbrev resArr (c : Dev nD) : S6144x128.Idx → EReal := (Region2.dat (F := Ideal) V c).arrAt 2 cfg2.N

/-- Entry (r, q) of the result: the sum over k of the first array's (k, r) — read transposed — times the
    second's (k, q). -/
theorem result_apply (c : Dev nD) (r : Fin 6144) (q : Fin 128) :
    resArr V c (ix2 r q) = ∑ k : Fin 2048, lhsArr V c (ix2 k r) * rhsArr V c (ix2 k q) :=
  congrFun (final V c) (ix2 r q)

end Cert.KernelIdeal.Value2

end
-- ==== Proof.KernelIdeal.Value3.lean ====
/-
  Region 3's result array, entry by entry, over the extended reals:

      result (r, q) = P (r, q) + ∑ k < 6144, (A₁ (r, k) + A₂ (r, k)) · B (k, q)

  for the two left operands A₁, A₂ : f32[6144, 6144], the right operand B : bf16[6144, 128] and the partial sum
  P : f32[6144, 128]. The grid is 6 × 6: row tiles of 1024 rows, and along the contraction axis six tiles of 1024
  positions. Within a row tile the accumulator starts from P's block, takes the products of one tile after the other
  (each tile adds its two left blocks entry by entry before multiplying), and after the sixth tile it is stored and
  written back. The steps: what each case of the body leaves is its arithmetic applied to the blocks it read; that
  arithmetic at an entry (narrowing a float format and reshaping to the same shape are identities, the matrix product
  of a tile is the sum of 1024 products); the blocks as parts of the arrays; the running sum along a row tile by
  induction over the grid, regrouped by associativity of + alone (the extended reals do not cancel); and the result
  array from the blocks written back, which tile it.
-/
import proofs.«108146_j77455440216408_2_alg».proof.Proof.KernelIdeal.Region3
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value3

open Cert.KernelIdeal Cert.KernelIdeal.Gen Cert.KernelIdeal.Region3
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 1024 rows from row `1024 * i₁`. -/
abbrev panel (i : grid3.Coords) (x2 : Vec F S6144x128 .bf16) : Vec F S1024x128 .bf16 :=
  View.ld x2 (Rect.unit (s := S6144x128) (k3_off1 i) S1024x128.size (k3_off1_inb i))

/-- A middle tile leaves, in the accumulator holding `xs`, `xs` plus the tile's product. -/
theorem accM_eq (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i)
    (x0 : Vec F S1024x1024 .f32) (x1 : Vec F S1024x1024 .f32) (x2 : Vec F S6144x128 .bf16) (x3 : Vec F S1024x128 .f32) (xs : Vec F S1024x128 .f32) :
    accM c i arg2 harg2 arg3 harg3 arg4 harg4 arg5 harg5 arg6 harg6 arg7 harg7 hf hl x0 x1 x2 x3 xs = k3_pay2 x0 x1 (panel i x2) xs := by
  unfold accM
  rw [View.read_writes_eq_canon _ _ _ (coverM c i arg2 harg2 arg3 harg3 arg4 harg4 arg5 harg5 arg6 harg6 arg7 harg7 hf hl x0 x1 x2 x3 xs)]
  unfold runM
  dsimp only
  sl_unfold_words
  rw [View.canon_unit_zero hz]
  simp only [View.readAt_eq_ld, harg2.read_unread, harg3.read_unread, harg4.read_unread, harg7.read_unread,
    View.ld_unit_zero (S := S1024x1024) hz, View.ld_unit_zero (S := S1024x128) hz]
  rfl

/-- A last tile leaves the same in the accumulator, -/
theorem accL_eq (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i)
    (x0 : Vec F S1024x1024 .f32) (x1 : Vec F S1024x1024 .f32) (x2 : Vec F S6144x128 .bf16) (x3 : Vec F S1024x128 .f32) (xs : Vec F S1024x128 .f32) :
    accL c i arg2 harg2 arg3 harg3 arg4 harg4 arg5 harg5 arg6 harg6 arg7 harg7 hf hl x0 x1 x2 x3 xs = k3_pay2 x0 x1 (panel i x2) xs := by
  unfold accL
  rw [View.read_writes_eq_canon _ _ _ (coverL c i arg2 harg2 arg3 harg3 arg4 harg4 arg5 harg5 arg6 harg6 arg7 harg7 hf hl x0 x1 x2 x3 xs)]
  unfold runL
  dsimp only
  sl_unfold_words
  rw [View.canon_unit_zero hz]
  simp only [View.readAt_eq_ld, harg2.read_unread, harg3.read_unread, harg4.read_unread, harg7.read_unread,
    View.ld_unit_zero (S := S1024x1024) hz, View.ld_unit_zero (S := S1024x128) hz]
  rfl

/-- and in the output block a copy of it. -/
theorem outL_eq (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i)
    (x0 : Vec F S1024x1024 .f32) (x1 : Vec F S1024x1024 .f32) (x2 : Vec F S6144x128 .bf16) (x3 : Vec F S1024x128 .f32) (xs : Vec F S1024x128 .f32) :
    outL c i arg2 harg2 arg3 harg3 arg4 harg4 arg5 harg5 arg6 harg6 arg7 harg7 hf hl x0 x1 x2 x3 xs = k3_pay2 x0 x1 (panel i x2) xs := by
  unfold outL
  rw [View.read_writes_eq_canon _ _ _ (coverO c i arg2 harg2 arg3 harg3 arg4 harg4 arg5 harg5 arg6 harg6 arg7 harg7 hf hl x0 x1 x2 x3 xs)]
  unfold runL
  dsimp only
  sl_unfold_words
  rw [View.canon_unit_zero hz, View.readCov_unit_zero (S := S1024x128) _ hz]
  simp only [View.readAt_eq_ld, harg2.read_unread, harg3.read_unread, harg4.read_unread, harg7.read_unread,
    View.ld_unit_zero (S := S1024x1024) hz, View.ld_unit_zero (S := S1024x128) hz]
  rfl

/-- A first tile copies the partial sum's block into the accumulator, then adds the tile's product. -/
theorem accF_eq (c : Dev nD) (i : grid3.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i)
    (x0 : Vec F S1024x1024 .f32) (x1 : Vec F S1024x1024 .f32) (x2 : Vec F S6144x128 .bf16) (x3 : Vec F S1024x128 .f32) :
    accF c i arg2 harg2 arg3 harg3 arg4 harg4 arg5 harg5 arg6 harg6 arg7 harg7 hf hl x0 x1 x2 x3 = k3_pay2 x0 x1 (panel i x2) (k3_pay1 x3) := by
  unfold accF
  rw [View.read_writes_eq_canon _ _ _ (coverF c i arg2 harg2 arg3 harg3 arg4 harg4 arg5 harg5 arg6 harg6 arg7 harg7 hf hl x0 x1 x2 x3)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread,
    View.ld_unit_zero (S := S1024x1024) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k3_pay1 v = v := by
  unfold k3_pay1
  simp only [shapeCast_self]

/-- The left operand's index of output `(p, q)` at contraction position `k` is `(p, k)`; -/
theorem lhsIdx_eq (p : Fin 1024) (q : Fin 128) (k : Fin 1024) :
    dot_S1024x1024_S1024x128_S1024x128_1_0_0_1_n_n.lhsIdx (ix2 p q)
      ((contrEquiv1 dot_S1024x1024_S1024x128_S1024x128_1_0_0_1_n_n 1024 rfl rfl).symm k) = ix2 p k := by
  have c2 := contrEquiv1_symm_val dot_S1024x1024_S1024x128_S1024x128_1_0_0_1_n_n 1024 rfl rfl k
  funext ax; apply Fin.ext
  match ax with
  | ⟨0, _⟩ => simp [DotDims.lhsIdx, dot_S1024x1024_S1024x128_S1024x128_1_0_0_1_n_n]; rfl
  | ⟨1, _⟩ => simp [DotDims.lhsIdx, dot_S1024x1024_S1024x128_S1024x128_1_0_0_1_n_n]; exact c2

/-- the right operand's is `(k, q)`. -/
theorem rhsIdx_eq (p : Fin 1024) (q : Fin 128) (k : Fin 1024) :
    dot_S1024x1024_S1024x128_S1024x128_1_0_0_1_n_n.rhsIdx (ix2 p q)
      ((contrEquiv1 dot_S1024x1024_S1024x128_S1024x128_1_0_0_1_n_n 1024 rfl rfl).symm k) = ix2 k q := by
  have c2 := contrEquiv1_symm_val dot_S1024x1024_S1024x128_S1024x128_1_0_0_1_n_n 1024 rfl rfl k
  funext ax; apply Fin.ext
  match ax with
  | ⟨0, _⟩ => simp [DotDims.rhsIdx, dot_S1024x1024_S1024x128_S1024x128_1_0_0_1_n_n]; exact c2
  | ⟨1, _⟩ => simp [DotDims.rhsIdx, dot_S1024x1024_S1024x128_S1024x128_1_0_0_1_n_n]; rfl

/-- One tile's update at `(p, q)`: the accumulator there plus the sum over the tile's 1024 contraction positions of
    the products of the two left operands' sum with the right operand (the narrowing of the left operand and the
    reshapes are identities on extended reals). -/
theorem pay2_apply (a1 a2 : Vec Ideal S1024x1024 .f32) (b : Vec Ideal S1024x128 .bf16) (acc : Vec Ideal S1024x128 .f32)
    (p : Fin 1024) (q : Fin 128) :
    k3_pay2 (F := Ideal) a1 a2 b acc (ix2 p q)
      = acc (ix2 p q) + ∑ k : Fin 1024, (a1 (ix2 p k) + a2 (ix2 p k)) * b (ix2 k q) := by
  unfold k3_pay2
  rw [shapeCast_self, shapeCast_self, addf_apply]
  simp only [matmul]
  rw [Ideal.matmul_constant_zero_apply,
    ← Equiv.sum_comp (contrEquiv1 dot_S1024x1024_S1024x128_S1024x128_1_0_0_1_n_n 1024 rfl rfl).symm]
  refine congrArg (acc (ix2 p q) + ·) (Finset.sum_congr rfl fun k _ => ?_)
  rw [lhsIdx_eq, rhsIdx_eq]
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 6 × 6 grid is tile `t % 6` of row tile `t / 6`: the block indices of the five windows there. -/
theorem idx_facts : ∀ t : Fin cfg3.N,
    win3_0.index t 0 = t.val / 6 ∧ win3_0.index t 1 = t.val % 6
    ∧ win3_1.index t 0 = t.val / 6 ∧ win3_1.index t 1 = t.val % 6
    ∧ win3_2.index t 0 = 0 ∧ win3_2.index t 1 = 0
    ∧ win3_3.index t 0 = t.val / 6 ∧ win3_3.index t 1 = 0
    ∧ win3_4.index t 0 = t.val / 6 ∧ win3_4.index t 1 = 0
    ∧ (grid3.coords t 1).val = t.val % 6 :=
  (by decide +kernel : ∀ t : Fin grid3.N,
    win3_0.index t 0 = t.val / 6 ∧ win3_0.index t 1 = t.val % 6
    ∧ win3_1.index t 0 = t.val / 6 ∧ win3_1.index t 1 = t.val % 6
    ∧ win3_2.index t 0 = 0 ∧ win3_2.index t 1 = 0
    ∧ win3_3.index t 0 = t.val / 6 ∧ win3_3.index t 1 = 0
    ∧ win3_4.index t 0 = t.val / 6 ∧ win3_4.index t 1 = 0
    ∧ (grid3.coords t 1).val = t.val % 6)

/-- The first left operand's block at point `t`: rows `1024 (t / 6) …`, columns `1024 (t % 6) …` of its array. -/
theorem blkA1_apply (c : Dev nD) (t : Fin cfg3.N) (x : S1024x1024.Idx) (y : S6144x6144.Idx)
    (h0 : (y 0).val = t.val / 6 * 1024 + (x 0).val) (h1 : (y 1).val = t.val % 6 * 1024 + (x 1).val) :
    (iblk V c 0 t : Vec F S1024x1024 .f32) x = (V c main_arg9 : S6144x6144.Idx → Elt F .f32) y := by
  obtain ⟨i0, i1, -⟩ := idx_facts t
  unfold iblk
  rw [View.read_apply]
  show V c main_arg9 _ = V c main_arg9 _
  congr 1
  funext a
  apply Fin.ext
  match a with
  | ⟨0, _⟩ => show win3_0.index t 0 * 1024 + 1 * (x 0).val = (y 0).val; rw [i0, h0]; omega
  | ⟨1, _⟩ => show win3_0.index t 1 * 1024 + 1 * (x 1).val = (y 1).val; rw [i1, h1]; omega

/-- The second left operand's block at point `t`: the same rows and columns of its array. -/
theorem blkA2_apply (c : Dev nD) (t : Fin cfg3.N) (x : S1024x1024.Idx) (y : S6144x6144.Idx)
    (h0 : (y 0).val = t.val / 6 * 1024 + (x 0).val) (h1 : (y 1).val = t.val % 6 * 1024 + (x 1).val) :
    (iblk V c 1 t : Vec F S1024x1024 .f32) x = (V c main_arg8 : S6144x6144.Idx → Elt F .f32) y := by
  obtain ⟨-, -, i0, i1, -⟩ := idx_facts t
  unfold iblk
  rw [View.read_apply]
  show V c main_arg8 _ = V c main_arg8 _
  congr 1
  funext a
  apply Fin.ext
  match a with
  | ⟨0, _⟩ => show win3_1.index t 0 * 1024 + 1 * (x 0).val = (y 0).val; rw [i0, h0]; omega
  | ⟨1, _⟩ => show win3_1.index t 1 * 1024 + 1 * (x 1).val = (y 1).val; rw [i1, h1]; omega

/-- The right operand's block is the whole array at every point. -/
theorem blkB_apply (c : Dev nD) (t : Fin cfg3.N) (x : S6144x128.Idx) :
    (iblk V c 2 t : Vec F S6144x128 .bf16) x = (V c main_v21 : S6144x128.Idx → Elt F .bf16) x := by
  obtain ⟨-, -, -, -, i0, i1, -⟩ := idx_facts t
  unfold iblk
  rw [View.read_apply]
  show V c main_v21 _ = V c main_v21 _
  congr 1
  funext a
  apply Fin.ext
  match a with
  | ⟨0, _⟩ => show win3_2.index t 0 * 6144 + 1 * (x 0).val = (x 0).val; rw [i0]; omega
  | ⟨1, _⟩ => show win3_2.index t 1 * 128 + 1 * (x 1).val = (x 1).val; rw [i1]; omega

/-- The partial sum's block at point `t`: rows `1024 (t / 6) …` of the array. -/
theorem blkP_apply (c : Dev nD) (t : Fin cfg3.N) (x : S1024x128.Idx) (y : S6144x128.Idx)
    (h0 : (y 0).val = t.val / 6 * 1024 + (x 0).val) (h1 : (y 1).val = (x 1).val) :
    (iblk V c 3 t : Vec F S1024x128 .f32) x = (V c main_v30 : S6144x128.Idx → Elt F .f32) y := by
  obtain ⟨-, -, -, -, -, -, i0, i1, -⟩ := idx_facts t
  unfold iblk
  rw [View.read_apply]
  show V c main_v30 _ = V c main_v30 _
  congr 1
  funext a
  apply Fin.ext
  match a with
  | ⟨0, _⟩ => show win3_3.index t 0 * 1024 + 1 * (x 0).val = (y 0).val; rw [i0, h0]; omega
  | ⟨1, _⟩ => show win3_3.index t 1 * 128 + 1 * (x 1).val = (y 1).val; rw [i1, h1]; omega

/-- The rows a tile loads of the right operand: row `k` of the tile is row `1024 i₁ + k` of the panel. -/
theorem panel_apply (i : grid3.Coords) (x2 : Vec F S6144x128 .bf16) (x : S1024x128.Idx) (y : S6144x128.Idx)
    (h0 : (y 0).val = 1024 * (i 1).val + (x 0).val) (h1 : (y 1).val = (x 1).val) :
    panel i x2 x = x2 y := by
  show x2 _ = x2 y
  congr 1
  funext a
  apply Fin.ext
  match a with
  | ⟨0, _⟩ => show k3_off1 i 0 + 1 * (x 0).val = (y 0).val; rw [k3_off1_eq i, h0]; show 1024 * (i 1).val + 1 * (x 0).val = _; omega
  | ⟨1, _⟩ => show k3_off1 i 1 + 1 * (x 1).val = (y 1).val; rw [k3_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The four input blocks at point `t`, as vectors of their literal shapes. -/
abbrev blkA1 (c : Dev nD) (t : Fin cfg3.N) : Vec Ideal S1024x1024 .f32 := iblk V c 0 t
abbrev blkA2 (c : Dev nD) (t : Fin cfg3.N) : Vec Ideal S1024x1024 .f32 := iblk V c 1 t
abbrev blkB (c : Dev nD) (t : Fin cfg3.N) : Vec Ideal S6144x128 .bf16 := iblk V c 2 t
abbrev blkP (c : Dev nD) (t : Fin cfg3.N) : Vec Ideal S1024x128 .f32 := iblk V c 3 t

/-- The update of any tile at `(p, q)`, over the point's blocks: what the accumulator held plus the tile's 1024 products. -/
theorem tile_apply (c : Dev nD) (t : Fin cfg3.N) (xs : Vec Ideal S1024x128 .f32) (p : Fin 1024) (q : Fin 128) :
    k3_pay2 (F := Ideal) (blkA1 V c t) (blkA2 V c t) (panel (grid3.coords t) (blkB V c t)) xs (ix2 p q)
      = xs (ix2 p q) + ∑ k : Fin 1024, (blkA1 V c t (ix2 p k) + blkA2 V c t (ix2 p k))
          * panel (grid3.coords t) (blkB V c t) (ix2 k q) :=
  pay2_apply (blkA1 V c t) (blkA2 V c t) (panel (grid3.coords t) (blkB V c t)) xs p q

/-- After the first tile of a row the accumulator at `(p, q)` is the partial sum's block there plus the tile's products. -/
theorem accAt_first (c : Dev nD) (t : Fin cfg3.N) (h0 : t.val % 6 = 0) (p : Fin 1024) (q : Fin 128) :
    accAt V c t.val t.isLt (ix2 p q)
      = blkP V c t (ix2 p q) + ∑ k : Fin 1024, (blkA1 V c t (ix2 p k) + blkA2 V c t (ix2 p k))
          * panel (grid3.coords t) (blkB V c t) (ix2 k q) := by
  refine (congrFun (accAt_F V c t h0) (ix2 p q)).trans ?_
  refine (congrFun (accF_eq (F := Ideal) c (grid3.coords t) (mA1 t) (hA1 t) (mA2 t) (hA2 t) (mB t) (hB t) (mP t) (hP t) (mO t) (hO t) mAcc
      (Memref.isWhole_whole _) _ _ (iblk V c 0 t) (iblk V c 1 t) (iblk V c 2 t) (iblk V c 3 t)) (ix2 p q)).trans ?_
  refine (tile_apply V c t (k3_pay1 (iblk V c 3 t)) p q).trans ?_
  exact congrArg (· + _) (congrFun (pay1_eq (F := Ideal) (iblk V c 3 t)) (ix2 p q))

/-- After a later tile it is what the tile before left there plus the tile's products. -/
theorem accAt_later (c : Dev nD) (t : Fin cfg3.N) (h0 : ¬ t.val % 6 = 0) (p : Fin 1024) (q : Fin 128) :
    accAt V c t.val t.isLt (ix2 p q)
      = accAt V c (t.val - 1) (Nat.lt_of_le_of_lt (Nat.sub_le _ _) t.isLt) (ix2 p q)
        + ∑ k : Fin 1024, (blkA1 V c t (ix2 p k) + blkA2 V c t (ix2 p k))
          * panel (grid3.coords t) (blkB V c t) (ix2 k q) := by
  by_cases h2 : t.val % 6 = 5
  · refine (congrFun (accAt_L V c t h0 h2) (ix2 p q)).trans ?_
    refine (congrFun (accL_eq (F := Ideal) c (grid3.coords t) (mA1 t) (hA1 t) (mA2 t) (hA2 t) (mB t) (hB t) (mP t) (hP t) (mO t) (hO t) mAcc
      (Memref.isWhole_whole _) _ _ (iblk V c 0 t) (iblk V c 1 t) (iblk V c 2 t) (iblk V c 3 t)
      (accAt V c (t.val - 1) (Nat.lt_of_le_of_lt (Nat.sub_le _ _) t.isLt))) (ix2 p q)).trans ?_
    exact tile_apply V c t _ p q
  · refine (congrFun (accAt_M V c t h0 h2) (ix2 p q)).trans ?_
    refine (congrFun (accM_eq (F := Ideal) c (grid3.coords t) (mA1 t) (hA1 t) (mA2 t) (hA2 t) (mB t) (hB t) (mP t) (hP t) (mO t) (hO t) mAcc
      (Memref.isWhole_whole _) _ _ (iblk V c 0 t) (iblk V c 1 t) (iblk V c 2 t) (iblk V c 3 t)
      (accAt V c (t.val - 1) (Nat.lt_of_le_of_lt (Nat.sub_le _ _) t.isLt))) (ix2 p q)).trans ?_
    exact tile_apply V c t _ p q

/-- The output block after the last tile of a row is the finished accumulator. -/
theorem outAt_apply (c : Dev nD) (t : Fin cfg3.N) (h2 : t.val % 6 = 5) (p : Fin 1024) (q : Fin 128) :
    outAt V c t (ix2 p q) = accAt V c t.val t.isLt (ix2 p q) := by
  have h0 : ¬ t.val % 6 = 0 := by omega
  have eL := accL_eq (F := Ideal) c (grid3.coords t) (mA1 t) (hA1 t) (mA2 t) (hA2 t) (mB t) (hB t) (mP t) (hP t) (mO t) (hO t) mAcc
      (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt))
  have eO := outL_eq (F := Ideal) c (grid3.coords t) (mA1 t) (hA1 t) (mA2 t) (hA2 t) (mB t) (hB t) (mP t) (hP t) (mO t) (hO t) mAcc
      (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt))
  unfold outAt
  rw [dif_pos h2]
  refine (congrFun eO (ix2 p q)).trans ?_
  rw [accAt_L V c t h0 h2]
  exact congrFun eL.symm (ix2 p q)

end value

/-! ## The running sum along a row of tiles, and the result array -/

section total

open Idealize.ShloMosaic.ValueIdx Finset

variable (V : (c : Dev nD) → (b : Ref sig .tc) → Buf (Elt Ideal) ((c : Thread nD τ).loc b))

/-- The four arrays the region reads, as it finds them: the two left operands f32[6144, 6144], the right operand
    bf16[6144, 128] and the partial sum f32[6144, 128], as functions into the extended reals. -/
abbrev arrA1 (c : Dev nD) : S6144x6144.Idx → EReal := V c main_arg9
abbrev arrA2 (c : Dev nD) : S6144x6144.Idx → EReal := V c main_arg8
abbrev arrB (c : Dev nD) : S6144x128.Idx → EReal := V c main_v21
abbrev arrP (c : Dev nD) : S6144x128.Idx → EReal := V c main_v30

/-- For row `r` and column `q` of the result, the product at contraction position `k` (zero past the end of the
    axis, so that partial sums may range over initial segments of ℕ). -/
def term (c : Dev nD) (r : Fin 6144) (q : Fin 128) (k : ℕ) : EReal :=
  if h : k < 6144 then (arrA1 V c (ix2 r ⟨k, h⟩) + arrA2 V c (ix2 r ⟨k, h⟩)) * arrB V c (ix2 ⟨k, h⟩ q)
  else 0

theorem rowOf_lt (n : ℕ) (hn : n < cfg3.N) (p : Fin 1024) : n / 6 * 1024 + p.val < 6144 := by
  have hN : cfg3.N = 36 := N_3
  have := p.isLt
  omega

/-- Row `p` of the block of row tile `n / 6` is row `1024 (n / 6) + p` of the array. -/
abbrev rowOf (n : ℕ) (hn : n < cfg3.N) (p : Fin 1024) : Fin 6144 := ⟨n / 6 * 1024 + p.val, rowOf_lt n hn p⟩

/-- The products of tile `t % 6` of a row are the terms at positions `1024 (t % 6) … 1024 (t % 6) + 1023`. -/
theorem tile_sum (c : Dev nD) (t : Fin cfg3.N) (p : Fin 1024) (q : Fin 128) :
    ∑ k : Fin 1024, (blkA1 V c t (ix2 p k) + blkA2 V c t (ix2 p k))
          * panel (grid3.coords t) (blkB V c t) (ix2 k q)
      = ∑ k ∈ range 1024, term V c (rowOf t.val t.isLt p) q (t.val % 6 * 1024 + k) := by
  rw [← Fin.sum_univ_eq_sum_range (fun k => term V c (rowOf t.val t.isLt p) q (t.val % 6 * 1024 + k)) 1024]
  refine Finset.sum_congr rfl fun k _ => ?_
  have hk : t.val % 6 * 1024 + k.val < 6144 := by have := k.isLt; omega
  obtain ⟨-, -, -, -, -, -, -, -, -, -, hc⟩ := idx_facts t
  have eA1 : blkA1 V c t (ix2 p k) = arrA1 V c (ix2 (rowOf t.val t.isLt p) ⟨_, hk⟩) :=
    blkA1_apply V c t (ix2 p k) (ix2 (rowOf t.val t.isLt p) ⟨_, hk⟩) rfl rfl
  have eA2 : blkA2 V c t (ix2 p k) = arrA2 V c (ix2 (rowOf t.val t.isLt p) ⟨_, hk⟩) :=
    blkA2_apply V c t (ix2 p k) (ix2 (rowOf t.val t.isLt p) ⟨_, hk⟩) rfl rfl
  have eB : panel (grid3.coords t) (blkB V c t) (ix2 k q) = arrB V c (ix2 ⟨_, hk⟩ q) := by
    refine (panel_apply (grid3.coords t) (blkB V c t) (ix2 k q) (ix2 ⟨_, hk⟩ q) ?_ rfl).trans ?_
    · show t.val % 6 * 1024 + k.val = 1024 * (grid3.coords t 1).val + k.val
      rw [hc]; omega
    · exact blkB_apply V c t (ix2 ⟨_, hk⟩ q)
  unfold term
  rw [dif_pos hk, eA1, eA2, eB]

/-- THE INVARIANT: after tile `n % 6` of its row the accumulator at `(p, q)` holds the partial sum's entry plus the
    terms of the tiles `0 … n % 6`, by induction along the grid (sums regrouped by associativity only). -/
theorem accAt_apply (c : Dev nD) (n : ℕ) : ∀ (hn : n < cfg3.N) (p : Fin 1024) (q : Fin 128),
    accAt V c n hn (ix2 p q) = arrP V c (ix2 (rowOf n hn p) q)
      + ∑ k ∈ range ((n % 6 + 1) * 1024), term V c (rowOf n hn p) q k := by
  induction n using Nat.strong_induction_on with
  | _ n ih =>
    intro hn p q
    by_cases h0 : n % 6 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 1024, term V c (rowOf n hn p) q (n % 6 * 1024 + k) = _
      rw [h0]
      simp only [Nat.zero_mul, Nat.zero_add, Nat.one_mul]
    · have hpos : n - 1 < n := by omega
      have hn' : n - 1 < cfg3.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 6 * 1024 + p.val = n / 6 * 1024 + p.val; omega)
      rw [hr] at e
      show accAt V c (n - 1) _ (ix2 p q) + ∑ k ∈ range 1024, term V c (rowOf n hn p) q (n % 6 * 1024 + k) = _
      rw [e, add_assoc]
      congr 1
      have hs : (n % 6 + 1) * 1024 = ((n - 1) % 6 + 1) * 1024 + 1024 := by omega
      have hm : n % 6 * 1024 = ((n - 1) % 6 + 1) * 1024 := by omega
      rw [hs, Finset.sum_range_add, hm]

/-- All six tiles' terms are the whole contraction. -/
theorem range_sum_eq (c : Dev nD) (r : Fin 6144) (q : Fin 128) :
    ∑ k ∈ range 6144, term V c r q k
      = ∑ k : Fin 6144, (arrA1 V c (ix2 r k) + arrA2 V c (ix2 r k)) * arrB V c (ix2 k q) := by
  rw [← Fin.sum_univ_eq_sum_range (fun k => term V c r q k) 6144]
  refine Finset.sum_congr rfl fun k _ => ?_
  unfold term
  rw [dif_pos k.isLt]

/-- THE RESULT, entry by entry: the partial sum's entry plus the whole contraction of the two left operands' sum
    with the right operand. -/
def G (c : Dev nD) : S6144x128.Idx → EReal := fun i =>
  arrP V c i + ∑ k : Fin 6144, (arrA1 V c (ix2 (i 0) k) + arrA2 V c (ix2 (i 0) k)) * arrB V c (ix2 k (i 1))

/-- The output block after the last tile of row tile `t / 6` is rows `1024 (t / 6) …` of the result. -/
theorem outAt_eq_G (c : Dev nD) (t : Fin cfg3.N) (h2 : t.val % 6 = 5) (j : S1024x128.Idx) (y : S6144x128.Idx)
    (h0 : (y 0).val = t.val / 6 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show _ + ∑ k ∈ range 6144, term V c (rowOf t.val t.isLt p) q k = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg3.N) (hf : (cfg3.win 4).flush t = true) :
    (dat V c).flushed 4 t = ((cfg3.win 4).blk t).view.read (Elt Ideal) (G V c) := by
  have h2 : t.val % 6 = 5 := (flush3_4 t).mp hf
  obtain ⟨-, -, -, -, -, -, -, -, e0, e1, -⟩ := idx_facts t
  show (cfg3.win 4).cut (grid3.coords t) ((dat V c).after 4 t) = _
  rw [after_4]
  funext j
  rw [View.read_apply]
  refine outAt_eq_G V c t h2 ((cfg3.win 4).xinj (grid3.coords t) j) (((cfg3.win 4).blk t).view.emb j) ?_ ?_
  · show win3_4.index t 0 * 1024 + 1 * (j 0).val = t.val / 6 * 1024 + (j 0).val
    rw [e0]; omega
  · show win3_4.index t 1 * 128 + 1 * (j 1).val = (j 1).val
    rw [e1]; omega

/-- An index of the result array is in point `t`'s block iff each coordinate is in the block's range on its axis. -/
theorem mem_blk (t : Fin cfg3.N) (i : S6144x128.Idx) :
    i ∈ ((cfg3.win 4).blk t).view.set ↔ ∀ a : Fin 2, win3_4.index t a * S1024x128.size a ≤ (i a).val
      ∧ (i a).val < win3_4.index t a * S1024x128.size a + S1024x128.size a := by
  show i ∈ ((View.whole main_v31).slice (win3_4.rect t)).set ↔ _
  rw [View.set_slice_whole, Rect.mem_set_unit]
  exact Iff.rfl

/-- Row `r` of the result is written back by the last tile of row tile `r / 1024`. -/
theorem cover (i : S6144x128.Idx) :
    ∃ t : Fin cfg3.N, (cfg3.win 4).flush t = true ∧ i ∈ ((cfg3.win 4).blk t).view.set := by
  have hN : cfg3.N = 36 := N_3
  have hi0 : (i 0).val < 6144 := (i 0).isLt
  have hi1 : (i 1).val < 128 := (i 1).isLt
  obtain ⟨t, ht⟩ : ∃ t : Fin cfg3.N, t.val = 6 * ((i 0).val / 1024) + 5 := ⟨⟨6 * ((i 0).val / 1024) + 5, by omega⟩, rfl⟩
  obtain ⟨-, -, -, -, -, -, -, -, e0, e1, -⟩ := idx_facts t
  refine ⟨t, (flush3_4 t).mpr (by omega), ?_⟩
  rw [mem_blk]
  intro a
  match a with
  | ⟨0, _⟩ =>
    show win3_4.index t 0 * 1024 ≤ (i 0).val ∧ (i 0).val < win3_4.index t 0 * 1024 + 1024
    rw [e0]; omega
  | ⟨1, _⟩ =>
    show win3_4.index t 1 * 128 ≤ (i 1).val ∧ (i 1).val < win3_4.index t 1 * 128 + 128
    rw [e1]; omega

/-- So the result array ends holding `G`. -/
theorem result_eq (c : Dev nD) : (dat V c).arrAt 4 cfg3.N = G V c :=
  (dat V c).arrAt_eq_of_cover 4 (G V c) (flushed_eq V c) cover

/-- THE RESULT ARRAY AT AN INDEX: `P r q + ∑ k, (A₁ r k + A₂ r k) · B k q` over the whole contraction axis of 6144. -/
theorem result_apply (c : Dev nD) (r : Fin 6144) (q : Fin 128) :
    ((Region3.dat (F := Ideal) V c).arrAt 4 cfg3.N) (ix2 r q)
      = arrP V c (ix2 r q) + ∑ k : Fin 6144, (arrA1 V c (ix2 r k) + arrA2 V c (ix2 r k)) * arrB V c (ix2 k q) := by
  rw [result_eq V c]
  rfl

end array

end Cert.KernelIdeal.Value3

end
-- ==== Proof.KernelIdeal.Value4.lean ====
/-
  Region 4's result array, entry by entry, over the extended reals:

      result (r, q) = logistic (P (r, q) + ∑ k < 4096, A (r, k) · B (k, q))

  for the left operand A : f32[6144, 4096], the right operand B : bf16[4096, 128] and the partial sum P : f32[6144, 128].
  The grid is 6 × 2: row tiles of 1024 rows, and along the contraction axis two tiles of 2048 positions. Within a row
  tile the accumulator starts from P's block and takes the products of the first tile; the second tile, the last, adds
  its products, and the logistic function of the accumulator is stored and written back. The steps: what each case of
  the body leaves is its arithmetic applied to the blocks it read; that arithmetic at an entry (narrowing a float format
  and reshaping to the same shape are identities, the matrix product of a tile is the sum of 2048 products); the blocks
  as parts of the arrays; the running sum along a row tile by induction over the grid, regrouped by associativity of +
  alone (the extended reals do not cancel); and the result array from the blocks written back, which tile it.
-/
import proofs.«108146_j77455440216408_2_alg».proof.Proof.KernelIdeal.Region4
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value4

open Cert.KernelIdeal Cert.KernelIdeal.Gen Cert.KernelIdeal.Region4
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid4.Coords) (x1 : Vec F S4096x128 .bf16) : Vec F S2048x128 .bf16 :=
  View.ld x1 (Rect.unit (s := S4096x128) (k4_off1 i) S2048x128.size (k4_off1_inb i))

/-- The last tile leaves, in the accumulator holding `xs`, `xs` plus the tile's product, -/
theorem accL_eq (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    accL c i arg2 harg2 arg3 harg3 arg4 harg4 arg5 harg5 arg6 harg6 hf hl x0 x1 x2 xs = k4_pay2 x0 (panel i x1) xs := by
  unfold accL
  rw [View.read_writes_eq_canon _ _ _ (coverL c i arg2 harg2 arg3 harg3 arg4 harg4 arg5 harg5 arg6 harg6 hf hl x0 x1 x2 xs)]
  unfold runL
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- and in the output block the logistic function of it. -/
theorem outL_eq (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    outL c i arg2 harg2 arg3 harg3 arg4 harg4 arg5 harg5 arg6 harg6 hf hl x0 x1 x2 xs = k4_pay3 (k4_pay2 x0 (panel i x1) xs) := by
  unfold outL
  rw [View.read_writes_eq_canon _ _ _ (coverO c i arg2 harg2 arg3 harg3 arg4 harg4 arg5 harg5 arg6 harg6 hf hl x0 x1 x2 xs)]
  unfold runL
  dsimp only
  sl_unfold_words
  rw [View.canon_unit_zero hz, View.readCov_unit_zero (S := S1024x128) _ hz]
  simp only [View.readAt_eq_ld, harg2.read_unread, harg3.read_unread, harg6.read_unread,
    View.ld_unit_zero (S := S1024x2048) hz, View.ld_unit_zero (S := S1024x128) hz]
  rfl

/-- The first tile copies the partial sum's block into the accumulator, then adds the tile's product. -/
theorem accF_eq (c : Dev nD) (i : grid4.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i)
    (x0 : Vec F S1024x2048 .f32) (x1 : Vec F S4096x128 .bf16) (x2 : Vec F S1024x128 .f32) :
    accF c i arg2 harg2 arg3 harg3 arg4 harg4 arg5 harg5 arg6 harg6 hf hl x0 x1 x2 = k4_pay2 x0 (panel i x1) (k4_pay1 x2) := by
  unfold accF
  rw [View.read_writes_eq_canon _ _ _ (coverF c i arg2 harg2 arg3 harg3 arg4 harg4 arg5 harg5 arg6 harg6 hf hl x0 x1 x2)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x2048) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k4_pay1 v = v := by
  unfold k4_pay1
  simp only [shapeCast_self]

/-- The left operand's index of output `(p, q)` at contraction position `k` is `(p, k)`; -/
theorem lhsIdx_eq (p : Fin 1024) (q : Fin 128) (k : Fin 2048) :
    dot_S1024x2048_S2048x128_S1024x128_1_0_0_1_n_n.lhsIdx (ix2 p q)
      ((contrEquiv1 dot_S1024x2048_S2048x128_S1024x128_1_0_0_1_n_n 2048 rfl rfl).symm k) = ix2 p k := by
  have c2 := contrEquiv1_symm_val dot_S1024x2048_S2048x128_S1024x128_1_0_0_1_n_n 2048 rfl rfl k
  funext ax; apply Fin.ext
  match ax with
  | ⟨0, _⟩ => simp [DotDims.lhsIdx, dot_S1024x2048_S2048x128_S1024x128_1_0_0_1_n_n]; rfl
  | ⟨1, _⟩ => simp [DotDims.lhsIdx, dot_S1024x2048_S2048x128_S1024x128_1_0_0_1_n_n]; exact c2

/-- the right operand's is `(k, q)`. -/
theorem rhsIdx_eq (p : Fin 1024) (q : Fin 128) (k : Fin 2048) :
    dot_S1024x2048_S2048x128_S1024x128_1_0_0_1_n_n.rhsIdx (ix2 p q)
      ((contrEquiv1 dot_S1024x2048_S2048x128_S1024x128_1_0_0_1_n_n 2048 rfl rfl).symm k) = ix2 k q := by
  have c2 := contrEquiv1_symm_val dot_S1024x2048_S2048x128_S1024x128_1_0_0_1_n_n 2048 rfl rfl k
  funext ax; apply Fin.ext
  match ax with
  | ⟨0, _⟩ => simp [DotDims.rhsIdx, dot_S1024x2048_S2048x128_S1024x128_1_0_0_1_n_n]; exact c2
  | ⟨1, _⟩ => simp [DotDims.rhsIdx, dot_S1024x2048_S2048x128_S1024x128_1_0_0_1_n_n]; rfl

/-- One tile's update at `(p, q)`: the accumulator there plus the sum over the tile's 2048 contraction positions of
    the products (the narrowing of the left operand and the reshapes are identities on extended reals). -/
theorem pay2_apply (a : Vec Ideal S1024x2048 .f32) (b : Vec Ideal S2048x128 .bf16) (acc : Vec Ideal S1024x128 .f32)
    (p : Fin 1024) (q : Fin 128) :
    k4_pay2 (F := Ideal) a b acc (ix2 p q) = acc (ix2 p q) + ∑ k : Fin 2048, a (ix2 p k) * b (ix2 k q) := by
  unfold k4_pay2
  rw [shapeCast_self, shapeCast_self, addf_apply]
  simp only [matmul]
  rw [Ideal.matmul_constant_zero_apply,
    ← Equiv.sum_comp (contrEquiv1 dot_S1024x2048_S2048x128_S1024x128_1_0_0_1_n_n 2048 rfl rfl).symm]
  refine congrArg (acc (ix2 p q) + ·) (Finset.sum_congr rfl fun k _ => ?_)
  rw [lhsIdx_eq, rhsIdx_eq]
  rfl

/-- The stored output at `(p, q)`: the logistic function of the accumulator there. -/
theorem pay3_apply (acc : Vec Ideal S1024x128 .f32) (p : Fin 1024) (q : Fin 128) :
    k4_pay3 (F := Ideal) acc (ix2 p q) = Ideal.logistic (acc (ix2 p q)) := by
  unfold k4_pay3
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 6 × 2 grid is tile `t % 2` of row tile `t / 2`: the block indices of the four windows there. -/
theorem idx_facts : ∀ t : Fin cfg4.N,
    win4_0.index t 0 = t.val / 2 ∧ win4_0.index t 1 = t.val % 2
    ∧ win4_1.index t 0 = 0 ∧ win4_1.index t 1 = 0
    ∧ win4_2.index t 0 = t.val / 2 ∧ win4_2.index t 1 = 0
    ∧ win4_3.index t 0 = t.val / 2 ∧ win4_3.index t 1 = 0
    ∧ (grid4.coords t 1).val = t.val % 2 :=
  (by decide +kernel : ∀ t : Fin grid4.N,
    win4_0.index t 0 = t.val / 2 ∧ win4_0.index t 1 = t.val % 2
    ∧ win4_1.index t 0 = 0 ∧ win4_1.index t 1 = 0
    ∧ win4_2.index t 0 = t.val / 2 ∧ win4_2.index t 1 = 0
    ∧ win4_3.index t 0 = t.val / 2 ∧ win4_3.index t 1 = 0
    ∧ (grid4.coords t 1).val = t.val % 2)

/-- The left operand's block at point `t`: rows `1024 (t / 2) …`, columns `2048 (t % 2) …` of the array. -/
theorem blkA_apply (c : Dev nD) (t : Fin cfg4.N) (x : S1024x2048.Idx) (y : S6144x4096.Idx)
    (h0 : (y 0).val = t.val / 2 * 1024 + (x 0).val) (h1 : (y 1).val = t.val % 2 * 2048 + (x 1).val) :
    (iblk V c 0 t : Vec F S1024x2048 .f32) x = (V c main_arg6 : S6144x4096.Idx → Elt F .f32) y := by
  obtain ⟨i0, i1, -⟩ := idx_facts t
  unfold iblk
  rw [View.read_apply]
  show V c main_arg6 _ = V c main_arg6 _
  congr 1
  funext a
  apply Fin.ext
  match a with
  | ⟨0, _⟩ => show win4_0.index t 0 * 1024 + 1 * (x 0).val = (y 0).val; rw [i0, h0]; omega
  | ⟨1, _⟩ => show win4_0.index t 1 * 2048 + 1 * (x 1).val = (y 1).val; rw [i1, h1]; omega

/-- The right operand's block is the whole array at every point. -/
theorem blkB_apply (c : Dev nD) (t : Fin cfg4.N) (x : S4096x128.Idx) :
    (iblk V c 1 t : Vec F S4096x128 .bf16) x = (V c main_v23 : S4096x128.Idx → Elt F .bf16) x := by
  obtain ⟨-, -, i0, i1, -⟩ := idx_facts t
  unfold iblk
  rw [View.read_apply]
  show V c main_v23 _ = V c main_v23 _
  congr 1
  funext a
  apply Fin.ext
  match a with
  | ⟨0, _⟩ => show win4_1.index t 0 * 4096 + 1 * (x 0).val = (x 0).val; rw [i0]; omega
  | ⟨1, _⟩ => show win4_1.index t 1 * 128 + 1 * (x 1).val = (x 1).val; rw [i1]; omega

/-- The partial sum's block at point `t`: rows `1024 (t / 2) …` of the array. -/
theorem blkP_apply (c : Dev nD) (t : Fin cfg4.N) (x : S1024x128.Idx) (y : S6144x128.Idx)
    (h0 : (y 0).val = t.val / 2 * 1024 + (x 0).val) (h1 : (y 1).val = (x 1).val) :
    (iblk V c 2 t : Vec F S1024x128 .f32) x = (V c main_v31 : S6144x128.Idx → Elt F .f32) y := by
  obtain ⟨-, -, -, -, i0, i1, -⟩ := idx_facts t
  unfold iblk
  rw [View.read_apply]
  show V c main_v31 _ = V c main_v31 _
  congr 1
  funext a
  apply Fin.ext
  match a with
  | ⟨0, _⟩ => show win4_2.index t 0 * 1024 + 1 * (x 0).val = (y 0).val; rw [i0, h0]; omega
  | ⟨1, _⟩ => show win4_2.index t 1 * 128 + 1 * (x 1).val = (y 1).val; rw [i1, h1]; omega

/-- The rows a tile loads of the right operand: row `k` of the tile is row `2048 i₁ + k` of the panel. -/
theorem panel_apply (i : grid4.Coords) (x1 : Vec F S4096x128 .bf16) (x : S2048x128.Idx) (y : S4096x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k4_off1 i 0 + 1 * (x 0).val = (y 0).val; rw [k4_off1_eq i, h0]; show 2048 * (i 1).val + 1 * (x 0).val = _; omega
  | ⟨1, _⟩ => show k4_off1 i 1 + 1 * (x 1).val = (y 1).val; rw [k4_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The three input blocks at point `t`, as vectors of their literal shapes. -/
abbrev blkA (c : Dev nD) (t : Fin cfg4.N) : Vec Ideal S1024x2048 .f32 := iblk V c 0 t
abbrev blkB (c : Dev nD) (t : Fin cfg4.N) : Vec Ideal S4096x128 .bf16 := iblk V c 1 t
abbrev blkP (c : Dev nD) (t : Fin cfg4.N) : Vec Ideal S1024x128 .f32 := iblk V c 2 t

/-- The update of either tile at `(p, q)`, over the point's blocks: what the accumulator held plus the tile's 2048 products. -/
theorem tile_apply (c : Dev nD) (t : Fin cfg4.N) (xs : Vec Ideal S1024x128 .f32) (p : Fin 1024) (q : Fin 128) :
    k4_pay2 (F := Ideal) (blkA V c t) (panel (grid4.coords t) (blkB V c t)) xs (ix2 p q)
      = xs (ix2 p q) + ∑ k : Fin 2048, blkA V c t (ix2 p k)
          * panel (grid4.coords t) (blkB V c t) (ix2 k q) :=
  pay2_apply (blkA V c t) (panel (grid4.coords t) (blkB V c t)) xs p q

/-- After the first tile of a row the accumulator at `(p, q)` is the partial sum's block there plus the tile's products. -/
theorem accAt_first (c : Dev nD) (t : Fin cfg4.N) (h0 : t.val % 2 = 0) (p : Fin 1024) (q : Fin 128) :
    accAt V c t.val t.isLt (ix2 p q)
      = blkP V c t (ix2 p q) + ∑ k : Fin 2048, blkA V c t (ix2 p k)
          * panel (grid4.coords t) (blkB V c t) (ix2 k q) := by
  refine (congrFun (accAt_F V c t h0) (ix2 p q)).trans ?_
  refine (congrFun (accF_eq (F := Ideal) c (grid4.coords t) (mA t) (hA t) (mB t) (hB t) (mP t) (hP t) (mO t) (hO t) mAcc
    (Memref.isWhole_whole _) _ _ (iblk V c 0 t) (iblk V c 1 t) (iblk V c 2 t)) (ix2 p q)).trans ?_
  refine (tile_apply V c t (k4_pay1 (iblk V c 2 t)) p q).trans ?_
  exact congrArg (· + _) (congrFun (pay1_eq (F := Ideal) (iblk V c 2 t)) (ix2 p q))

/-- After the second tile it is what the first tile left there plus the tile's products. -/
theorem accAt_later (c : Dev nD) (t : Fin cfg4.N) (h0 : ¬ t.val % 2 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 p k)
          * panel (grid4.coords t) (blkB V c t) (ix2 k q) := by
  have h2 : t.val % 2 = 1 := by omega
  refine (congrFun (accAt_L V c t h0 h2) (ix2 p q)).trans ?_
  refine (congrFun (accL_eq (F := Ideal) c (grid4.coords t) (mA t) (hA t) (mB t) (hB t) (mP t) (hP t) (mO t) (hO t) mAcc
    (Memref.isWhole_whole _) _ _ (iblk V c 0 t) (iblk V c 1 t) (iblk V c 2 t)
    (accAt V c (t.val - 1) (Nat.lt_of_le_of_lt (Nat.sub_le _ _) t.isLt))) (ix2 p q)).trans ?_
  exact tile_apply V c t _ p q

/-- The output block after the last tile of a row is the logistic function of the finished accumulator. -/
theorem outAt_apply (c : Dev nD) (t : Fin cfg4.N) (h2 : t.val % 2 = 1) (p : Fin 1024) (q : Fin 128) :
    outAt V c t (ix2 p q) = Ideal.logistic (accAt V c t.val t.isLt (ix2 p q)) := by
  have h0 : ¬ t.val % 2 = 0 := by omega
  have eL := accL_eq (F := Ideal) c (grid4.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  have eO := outL_eq (F := Ideal) c (grid4.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  unfold outAt
  rw [dif_pos h2]
  refine (congrFun eO (ix2 p q)).trans ?_
  refine (pay3_apply _ p q).trans ?_
  rw [accAt_L V c t h0 h2]
  exact congrArg Ideal.logistic (congrFun eL.symm (ix2 p q))

end value

/-! ## The running sum along a row of tiles, and the result array -/

section total

open Idealize.ShloMosaic.ValueIdx Finset

variable (V : (c : Dev nD) → (b : Ref sig .tc) → Buf (Elt Ideal) ((c : Thread nD τ).loc b))

/-- The three arrays the region reads, as it finds them: the left operand f32[6144, 4096], the right operand
    bf16[4096, 128] and the partial sum f32[6144, 128], as functions into the extended reals. -/
abbrev arrA (c : Dev nD) : S6144x4096.Idx → EReal := V c main_arg6
abbrev arrB (c : Dev nD) : S4096x128.Idx → EReal := V c main_v23
abbrev arrP (c : Dev nD) : S6144x128.Idx → EReal := V c main_v31

/-- For row `r` and column `q` of the result, the product at contraction position `k` (zero past the end of the
    axis, so that partial sums may range over initial segments of ℕ). -/
def term (c : Dev nD) (r : Fin 6144) (q : Fin 128) (k : ℕ) : EReal :=
  if h : k < 4096 then arrA V c (ix2 r ⟨k, h⟩) * arrB V c (ix2 ⟨k, h⟩ q)
  else 0

theorem rowOf_lt (n : ℕ) (hn : n < cfg4.N) (p : Fin 1024) : n / 2 * 1024 + p.val < 6144 := by
  have hN : cfg4.N = 12 := N_4
  have := p.isLt
  omega

/-- Row `p` of the block of row tile `n / 2` is row `1024 (n / 2) + p` of the array. -/
abbrev rowOf (n : ℕ) (hn : n < cfg4.N) (p : Fin 1024) : Fin 6144 := ⟨n / 2 * 1024 + p.val, rowOf_lt n hn p⟩

/-- The products of tile `t % 2` of a row are the terms at positions `2048 (t % 2) … 2048 (t % 2) + 2047`. -/
theorem tile_sum (c : Dev nD) (t : Fin cfg4.N) (p : Fin 1024) (q : Fin 128) :
    ∑ k : Fin 2048, blkA V c t (ix2 p k) * panel (grid4.coords t) (blkB V c t) (ix2 k q)
      = ∑ k ∈ range 2048, term V c (rowOf t.val t.isLt p) q (t.val % 2 * 2048 + k) := by
  rw [← Fin.sum_univ_eq_sum_range (fun k => term V c (rowOf t.val t.isLt p) q (t.val % 2 * 2048 + k)) 2048]
  refine Finset.sum_congr rfl fun k _ => ?_
  have hk : t.val % 2 * 2048 + k.val < 4096 := by have := k.isLt; omega
  obtain ⟨-, -, -, -, -, -, -, -, hc⟩ := idx_facts t
  have eA : blkA V c t (ix2 p k) = arrA V c (ix2 (rowOf t.val t.isLt p) ⟨_, hk⟩) :=
    blkA_apply V c t (ix2 p k) (ix2 (rowOf t.val t.isLt p) ⟨_, hk⟩) rfl rfl
  have eB : panel (grid4.coords t) (blkB V c t) (ix2 k q) = arrB V c (ix2 ⟨_, hk⟩ q) := by
    refine (panel_apply (grid4.coords t) (blkB V c t) (ix2 k q) (ix2 ⟨_, hk⟩ q) ?_ rfl).trans ?_
    · show t.val % 2 * 2048 + k.val = 2048 * (grid4.coords t 1).val + k.val
      rw [hc]; omega
    · exact blkB_apply V c t (ix2 ⟨_, hk⟩ q)
  unfold term
  rw [dif_pos hk, eA, eB]

/-- THE INVARIANT: after tile `n % 2` of its row the accumulator at `(p, q)` holds the partial sum's entry plus the
    terms of the tiles `0 … n % 2`, by induction along the grid (sums regrouped by associativity only). -/
theorem accAt_apply (c : Dev nD) (n : ℕ) : ∀ (hn : n < cfg4.N) (p : Fin 1024) (q : Fin 128),
    accAt V c n hn (ix2 p q) = arrP V c (ix2 (rowOf n hn p) q)
      + ∑ k ∈ range ((n % 2 + 1) * 2048), term V c (rowOf n hn p) q k := by
  induction n using Nat.strong_induction_on with
  | _ n ih =>
    intro hn p q
    by_cases h0 : n % 2 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 2048, term V c (rowOf n hn p) q (n % 2 * 2048 + k) = _
      rw [h0]
      simp only [Nat.zero_mul, Nat.zero_add, Nat.one_mul]
    · have hpos : n - 1 < n := by omega
      have hn' : n - 1 < cfg4.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 2 * 1024 + p.val = n / 2 * 1024 + p.val; omega)
      rw [hr] at e
      show accAt V c (n - 1) _ (ix2 p q) + ∑ k ∈ range 2048, term V c (rowOf n hn p) q (n % 2 * 2048 + k) = _
      rw [e, add_assoc]
      congr 1
      have hs : (n % 2 + 1) * 2048 = ((n - 1) % 2 + 1) * 2048 + 2048 := by omega
      have hm : n % 2 * 2048 = ((n - 1) % 2 + 1) * 2048 := by omega
      rw [hs, Finset.sum_range_add, hm]

/-- Both tiles' terms are the whole contraction. -/
theorem range_sum_eq (c : Dev nD) (r : Fin 6144) (q : Fin 128) :
    ∑ k ∈ range 4096, term V c r q k
      = ∑ k : Fin 4096, arrA V c (ix2 r k) * arrB V c (ix2 k q) := by
  rw [← Fin.sum_univ_eq_sum_range (fun k => term V c r q k) 4096]
  refine Finset.sum_congr rfl fun k _ => ?_
  unfold term
  rw [dif_pos k.isLt]

/-- THE RESULT, entry by entry: the logistic function of the partial sum's entry plus the whole contraction. -/
def G (c : Dev nD) : S6144x128.Idx → EReal := fun i =>
  Ideal.logistic (arrP V c i
    + ∑ k : Fin 4096, arrA V c (ix2 (i 0) k) * arrB V c (ix2 k (i 1)))

/-- The output block after the last tile of row tile `t / 2` is rows `1024 (t / 2) …` of the result. -/
theorem outAt_eq_G (c : Dev nD) (t : Fin cfg4.N) (h2 : t.val % 2 = 1) (j : S1024x128.Idx) (y : S6144x128.Idx)
    (h0 : (y 0).val = t.val / 2 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show Ideal.logistic (_ + ∑ k ∈ range 4096, term V c (rowOf t.val t.isLt p) q k) = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg4.N) (hf : (cfg4.win 3).flush t = true) :
    (dat V c).flushed 3 t = ((cfg4.win 3).blk t).view.read (Elt Ideal) (G V c) := by
  have h2 : t.val % 2 = 1 := (flush4_3 t).mp hf
  obtain ⟨-, -, -, -, -, -, e0, e1, -⟩ := idx_facts t
  show (cfg4.win 3).cut (grid4.coords t) ((dat V c).after 3 t) = _
  rw [after_3]
  funext j
  rw [View.read_apply]
  refine outAt_eq_G V c t h2 ((cfg4.win 3).xinj (grid4.coords t) j) (((cfg4.win 3).blk t).view.emb j) ?_ ?_
  · show win4_3.index t 0 * 1024 + 1 * (j 0).val = t.val / 2 * 1024 + (j 0).val
    rw [e0]; omega
  · show win4_3.index t 1 * 128 + 1 * (j 1).val = (j 1).val
    rw [e1]; omega

/-- An index of the result array is in point `t`'s block iff each coordinate is in the block's range on its axis. -/
theorem mem_blk (t : Fin cfg4.N) (i : S6144x128.Idx) :
    i ∈ ((cfg4.win 3).blk t).view.set ↔ ∀ a : Fin 2, win4_3.index t a * S1024x128.size a ≤ (i a).val
      ∧ (i a).val < win4_3.index t a * S1024x128.size a + S1024x128.size a := by
  show i ∈ ((View.whole main_v32).slice (win4_3.rect t)).set ↔ _
  rw [View.set_slice_whole, Rect.mem_set_unit]
  exact Iff.rfl

/-- Row `r` of the result is written back by the last tile of row tile `r / 1024`. -/
theorem cover (i : S6144x128.Idx) :
    ∃ t : Fin cfg4.N, (cfg4.win 3).flush t = true ∧ i ∈ ((cfg4.win 3).blk t).view.set := by
  have hN : cfg4.N = 12 := N_4
  have hi0 : (i 0).val < 6144 := (i 0).isLt
  have hi1 : (i 1).val < 128 := (i 1).isLt
  obtain ⟨t, ht⟩ : ∃ t : Fin cfg4.N, t.val = 2 * ((i 0).val / 1024) + 1 := ⟨⟨2 * ((i 0).val / 1024) + 1, by omega⟩, rfl⟩
  obtain ⟨-, -, -, -, -, -, e0, e1, -⟩ := idx_facts t
  refine ⟨t, (flush4_3 t).mpr (by omega), ?_⟩
  rw [mem_blk]
  intro a
  match a with
  | ⟨0, _⟩ =>
    show win4_3.index t 0 * 1024 ≤ (i 0).val ∧ (i 0).val < win4_3.index t 0 * 1024 + 1024
    rw [e0]; omega
  | ⟨1, _⟩ =>
    show win4_3.index t 1 * 128 ≤ (i 1).val ∧ (i 1).val < win4_3.index t 1 * 128 + 128
    rw [e1]; omega

/-- So the result array ends holding `G`. -/
theorem result_eq (c : Dev nD) : (dat V c).arrAt 3 cfg4.N = G V c :=
  (dat V c).arrAt_eq_of_cover 3 (G V c) (flushed_eq V c) cover

/-- THE RESULT ARRAY AT AN INDEX: `logistic (P r q + ∑ k, A r k · B k q)` over the whole contraction axis of 4096. -/
theorem result_apply (c : Dev nD) (r : Fin 6144) (q : Fin 128) :
    ((Region4.dat (F := Ideal) V c).arrAt 3 cfg4.N) (ix2 r q)
      = Ideal.logistic (arrP V c (ix2 r q) + ∑ k : Fin 4096, arrA V c (ix2 r k) * arrB V c (ix2 k q)) := by
  rw [result_eq V c]
  rfl

end array

end Cert.KernelIdeal.Value4

end
-- ==== Proof.KernelIdeal.Value5.lean ====
/-
  Region 5's result array, entry by entry, over the extended reals:

      result (r, q) = ∑ k < 6144, A (k, r) · B (k, q)

  for the left operand A : f32[6144, 4096], read TRANSPOSED, and the right operand B : bf16[6144, 128]. The grid is
  4 × 3: row tiles of 1024 rows of the result, and along the contraction axis three tiles of 2048 positions. A block
  of A has 2048 rows (contraction positions) and 1024 columns (rows of the result) and is contracted along its first
  axis. Within a row tile the accumulator starts from zero, takes the products of one tile after the other, and after
  the third tile it is stored and written back. The steps: what each case of the body leaves is its arithmetic applied
  to the blocks it read; that arithmetic at an entry (narrowing a float format and reshaping to the same shape are
  identities, the matrix product of a tile is the sum of 2048 products); the blocks as parts of the arrays; the running
  sum along a row tile by induction over the grid, regrouped by associativity of + alone (the extended reals do not
  cancel); and the result array from the blocks written back, which tile it.
-/
import proofs.«108146_j77455440216408_2_alg».proof.Proof.KernelIdeal.Region5
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value5

open Cert.KernelIdeal Cert.KernelIdeal.Gen Cert.KernelIdeal.Region5
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid5.Coords) (x1 : Vec F S6144x128 .bf16) : Vec F S2048x128 .bf16 :=
  View.ld x1 (Rect.unit (s := S6144x128) (k5_off1 i) S2048x128.size (k5_off1_inb i))

/-- A middle tile leaves, in the accumulator holding `xs`, `xs` plus the tile's product. -/
theorem accM_eq (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i)
    (x0 : Vec F S2048x1024 .f32) (x1 : Vec F S6144x128 .bf16) (xs : Vec F S1024x128 .f32) :
    accM c i arg2 harg2 arg3 harg3 arg4 harg4 arg5 harg5 hf hl x0 x1 xs = k5_pay2 x0 (panel i x1) xs := by
  unfold accM
  rw [View.read_writes_eq_canon _ _ _ (coverM c i arg2 harg2 arg3 harg3 arg4 harg4 arg5 harg5 hf hl x0 x1 xs)]
  unfold runM
  dsimp only
  sl_unfold_words
  rw [View.canon_unit_zero hz]
  simp only [View.readAt_eq_ld, harg2.read_unread, harg3.read_unread, harg5.read_unread,
    View.ld_unit_zero (S := S2048x1024) hz, View.ld_unit_zero (S := S1024x128) hz]
  rfl

/-- A last tile leaves the same in the accumulator, -/
theorem accL_eq (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i)
    (x0 : Vec F S2048x1024 .f32) (x1 : Vec F S6144x128 .bf16) (xs : Vec F S1024x128 .f32) :
    accL c i arg2 harg2 arg3 harg3 arg4 harg4 arg5 harg5 hf hl x0 x1 xs = k5_pay2 x0 (panel i x1) xs := by
  unfold accL
  rw [View.read_writes_eq_canon _ _ _ (coverL c i arg2 harg2 arg3 harg3 arg4 harg4 arg5 harg5 hf hl x0 x1 xs)]
  unfold runL
  dsimp only
  sl_unfold_words
  rw [View.canon_unit_zero hz]
  simp only [View.readAt_eq_ld, harg2.read_unread, harg3.read_unread, harg5.read_unread,
    View.ld_unit_zero (S := S2048x1024) hz, View.ld_unit_zero (S := S1024x128) hz]
  rfl

/-- and in the output block a copy of it. -/
theorem outL_eq (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i)
    (x0 : Vec F S2048x1024 .f32) (x1 : Vec F S6144x128 .bf16) (xs : Vec F S1024x128 .f32) :
    outL c i arg2 harg2 arg3 harg3 arg4 harg4 arg5 harg5 hf hl x0 x1 xs = k5_pay2 x0 (panel i x1) xs := by
  unfold outL
  rw [View.read_writes_eq_canon _ _ _ (coverO c i arg2 harg2 arg3 harg3 arg4 harg4 arg5 harg5 hf hl x0 x1 xs)]
  unfold runL
  dsimp only
  sl_unfold_words
  rw [View.canon_unit_zero hz, View.readCov_unit_zero (S := S1024x128) _ hz]
  simp only [View.readAt_eq_ld, harg2.read_unread, harg3.read_unread, harg5.read_unread,
    View.ld_unit_zero (S := S2048x1024) hz, View.ld_unit_zero (S := S1024x128) hz]
  rfl

/-- A first tile zeroes the accumulator, then adds the tile's product. -/
theorem accF_eq (c : Dev nD) (i : grid5.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i)
    (x0 : Vec F S2048x1024 .f32) (x1 : Vec F S6144x128 .bf16) :
    accF c i arg2 harg2 arg3 harg3 arg4 harg4 arg5 harg5 hf hl x0 x1 = k5_pay2 x0 (panel i x1) k5_pay1 := by
  unfold accF
  rw [View.read_writes_eq_canon _ _ _ (coverF c i arg2 harg2 arg3 harg3 arg4 harg4 arg5 harg5 hf hl x0 x1)]
  unfold runF
  dsimp only
  sl_unfold_words
  rw [View.canon_cons_unit_zero (S := S1024x128) hz, View.readCov_unit_zero (S := S1024x128) _ hz]
  simp only [View.readAt_eq_ld, harg2.read_unread, harg3.read_unread,
    View.ld_unit_zero (S := S2048x1024) hz, View.ld_unit_zero (S := S1024x128) hz]
  rfl

end pieces

/-! ## The payloads at an index, over the extended reals -/

section payloads

open Idealize.ShloMosaic.ValueIdx

/-- The zeroed accumulator is zero at every entry. -/
theorem pay1_apply (p : Fin 1024) (q : Fin 128) : k5_pay1 (F := Ideal) (ix2 p q) = 0 := by
  unfold k5_pay1
  simp only [shapeCast_self]
  exact Ideal.ofBits_zero_f32

/-- The left operand is contracted along its FIRST axis: its index of output `(p, q)` at contraction position `k` is
    `(k, p)`; -/
theorem lhsIdx_eq (p : Fin 1024) (q : Fin 128) (k : Fin 2048) :
    dot_S2048x1024_S2048x128_S1024x128_0_0_1_1_n_n.lhsIdx (ix2 p q)
      ((contrEquiv1 dot_S2048x1024_S2048x128_S1024x128_0_0_1_1_n_n 2048 rfl rfl).symm k) = ix2 k p := by
  have c2 := contrEquiv1_symm_val dot_S2048x1024_S2048x128_S1024x128_0_0_1_1_n_n 2048 rfl rfl k
  funext ax; apply Fin.ext
  match ax with
  | ⟨0, _⟩ => simp [DotDims.lhsIdx, dot_S2048x1024_S2048x128_S1024x128_0_0_1_1_n_n]; exact c2
  | ⟨1, _⟩ => simp [DotDims.lhsIdx, dot_S2048x1024_S2048x128_S1024x128_0_0_1_1_n_n]; rfl

/-- the right operand's is `(k, q)`. -/
theorem rhsIdx_eq (p : Fin 1024) (q : Fin 128) (k : Fin 2048) :
    dot_S2048x1024_S2048x128_S1024x128_0_0_1_1_n_n.rhsIdx (ix2 p q)
      ((contrEquiv1 dot_S2048x1024_S2048x128_S1024x128_0_0_1_1_n_n 2048 rfl rfl).symm k) = ix2 k q := by
  have c2 := contrEquiv1_symm_val dot_S2048x1024_S2048x128_S1024x128_0_0_1_1_n_n 2048 rfl rfl k
  funext ax; apply Fin.ext
  match ax with
  | ⟨0, _⟩ => simp [DotDims.rhsIdx, dot_S2048x1024_S2048x128_S1024x128_0_0_1_1_n_n]; exact c2
  | ⟨1, _⟩ => simp [DotDims.rhsIdx, dot_S2048x1024_S2048x128_S1024x128_0_0_1_1_n_n]; rfl

/-- One tile's update at `(p, q)`: the accumulator there plus the sum over the tile's 2048 contraction positions of
    the products, the left block read transposed (the narrowing of the left operand and the reshapes are identities on
    extended reals). -/
theorem pay2_apply (a : Vec Ideal S2048x1024 .f32) (b : Vec Ideal S2048x128 .bf16) (acc : Vec Ideal S1024x128 .f32)
    (p : Fin 1024) (q : Fin 128) :
    k5_pay2 (F := Ideal) a b acc (ix2 p q) = acc (ix2 p q) + ∑ k : Fin 2048, a (ix2 k p) * b (ix2 k q) := by
  unfold k5_pay2
  rw [shapeCast_self, shapeCast_self, addf_apply]
  simp only [matmul]
  rw [Ideal.matmul_constant_zero_apply,
    ← Equiv.sum_comp (contrEquiv1 dot_S2048x1024_S2048x128_S1024x128_0_0_1_1_n_n 2048 rfl rfl).symm]
  refine congrArg (acc (ix2 p q) + ·) (Finset.sum_congr rfl fun k _ => ?_)
  rw [lhsIdx_eq, rhsIdx_eq]
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 4 × 3 grid is tile `t % 3` of row tile `t / 3`: the block indices of the three windows there
    (the left operand's block index is (tile, row tile): it is read transposed). -/
theorem idx_facts : ∀ t : Fin cfg5.N,
    win5_0.index t 0 = t.val % 3 ∧ win5_0.index t 1 = t.val / 3
    ∧ win5_1.index t 0 = 0 ∧ win5_1.index t 1 = 0
    ∧ win5_2.index t 0 = t.val / 3 ∧ win5_2.index t 1 = 0
    ∧ (grid5.coords t 1).val = t.val % 3 :=
  (by decide +kernel : ∀ t : Fin grid5.N,
    win5_0.index t 0 = t.val % 3 ∧ win5_0.index t 1 = t.val / 3
    ∧ win5_1.index t 0 = 0 ∧ win5_1.index t 1 = 0
    ∧ win5_2.index t 0 = t.val / 3 ∧ win5_2.index t 1 = 0
    ∧ (grid5.coords t 1).val = t.val % 3)

/-- The left operand's block at point `t`: rows `2048 (t % 3) …`, columns `1024 (t / 3) …` of the array. -/
theorem blkA_apply (c : Dev nD) (t : Fin cfg5.N) (x : S2048x1024.Idx) (y : S6144x4096.Idx)
    (h0 : (y 0).val = t.val % 3 * 2048 + (x 0).val) (h1 : (y 1).val = t.val / 3 * 1024 + (x 1).val) :
    (iblk V c 0 t : Vec F S2048x1024 .f32) x = (V c main_arg5 : S6144x4096.Idx → Elt F .f32) y := by
  obtain ⟨i0, i1, -⟩ := idx_facts t
  unfold iblk
  rw [View.read_apply]
  show V c main_arg5 _ = V c main_arg5 _
  congr 1
  funext a
  apply Fin.ext
  match a with
  | ⟨0, _⟩ => show win5_0.index t 0 * 2048 + 1 * (x 0).val = (y 0).val; rw [i0, h0]; omega
  | ⟨1, _⟩ => show win5_0.index t 1 * 1024 + 1 * (x 1).val = (y 1).val; rw [i1, h1]; omega

/-- The right operand's block is the whole array at every point. -/
theorem blkB_apply (c : Dev nD) (t : Fin cfg5.N) (x : S6144x128.Idx) :
    (iblk V c 1 t : Vec F S6144x128 .bf16) x = (V c main_v25 : S6144x128.Idx → Elt F .bf16) x := by
  obtain ⟨-, -, i0, i1, -⟩ := idx_facts t
  unfold iblk
  rw [View.read_apply]
  show V c main_v25 _ = V c main_v25 _
  congr 1
  funext a
  apply Fin.ext
  match a with
  | ⟨0, _⟩ => show win5_1.index t 0 * 6144 + 1 * (x 0).val = (x 0).val; rw [i0]; omega
  | ⟨1, _⟩ => show win5_1.index t 1 * 128 + 1 * (x 1).val = (x 1).val; rw [i1]; omega

/-- The rows a tile loads of the right operand: row `k` of the tile is row `2048 i₁ + k` of the panel. -/
theorem panel_apply (i : grid5.Coords) (x1 : Vec F S6144x128 .bf16) (x : S2048x128.Idx) (y : S6144x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k5_off1 i 0 + 1 * (x 0).val = (y 0).val; rw [k5_off1_eq i, h0]; show 2048 * (i 1).val + 1 * (x 0).val = _; omega
  | ⟨1, _⟩ => show k5_off1 i 1 + 1 * (x 1).val = (y 1).val; rw [k5_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The two input blocks at point `t`, as vectors of their literal shapes. -/
abbrev blkA (c : Dev nD) (t : Fin cfg5.N) : Vec Ideal S2048x1024 .f32 := iblk V c 0 t
abbrev blkB (c : Dev nD) (t : Fin cfg5.N) : Vec Ideal S6144x128 .bf16 := iblk V c 1 t

/-- The update of any tile at `(p, q)`, over the point's blocks: what the accumulator held plus the tile's 2048 products. -/
theorem tile_apply (c : Dev nD) (t : Fin cfg5.N) (xs : Vec Ideal S1024x128 .f32) (p : Fin 1024) (q : Fin 128) :
    k5_pay2 (F := Ideal) (blkA V c t) (panel (grid5.coords t) (blkB V c t)) xs (ix2 p q)
      = xs (ix2 p q) + ∑ k : Fin 2048, blkA V c t (ix2 k p) * panel (grid5.coords t) (blkB V c t) (ix2 k q) :=
  pay2_apply (blkA V c t) (panel (grid5.coords t) (blkB V c t)) xs p q

/-- After the first tile of a row the accumulator at `(p, q)` is the tile's products (added to zero). -/
theorem accAt_first (c : Dev nD) (t : Fin cfg5.N) (h0 : t.val % 3 = 0) (p : Fin 1024) (q : Fin 128) :
    accAt V c t.val t.isLt (ix2 p q) = ∑ k : Fin 2048, blkA V c t (ix2 k p) * panel (grid5.coords t) (blkB V c t) (ix2 k q) := by
  refine (congrFun (accAt_F V c t h0) (ix2 p q)).trans ?_
  refine (congrFun (accF_eq (F := Ideal) c (grid5.coords t) (mA t) (hA t) (mB t) (hB t) (mO t) (hO t) mAcc
      (Memref.isWhole_whole _) _ _ (iblk V c 0 t) (iblk V c 1 t)) (ix2 p q)).trans ?_
  refine (tile_apply V c t (k5_pay1 (F := Ideal)) p q).trans ?_
  rw [pay1_apply, zero_add]

/-- After a later tile it is what the tile before left there plus the tile's products. -/
theorem accAt_later (c : Dev nD) (t : Fin cfg5.N) (h0 : ¬ t.val % 3 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 k p) * panel (grid5.coords t) (blkB V c t) (ix2 k q) := by
  by_cases h2 : t.val % 3 = 2
  · refine (congrFun (accAt_L V c t h0 h2) (ix2 p q)).trans ?_
    refine (congrFun (accL_eq (F := Ideal) c (grid5.coords t) (mA t) (hA t) (mB t) (hB t) (mO t) (hO t) mAcc
      (Memref.isWhole_whole _) _ _ (iblk V c 0 t) (iblk V c 1 t)
      (accAt V c (t.val - 1) (Nat.lt_of_le_of_lt (Nat.sub_le _ _) t.isLt))) (ix2 p q)).trans ?_
    exact tile_apply V c t _ p q
  · refine (congrFun (accAt_M V c t h0 h2) (ix2 p q)).trans ?_
    refine (congrFun (accM_eq (F := Ideal) c (grid5.coords t) (mA t) (hA t) (mB t) (hB t) (mO t) (hO t) mAcc
      (Memref.isWhole_whole _) _ _ (iblk V c 0 t) (iblk V c 1 t)
      (accAt V c (t.val - 1) (Nat.lt_of_le_of_lt (Nat.sub_le _ _) t.isLt))) (ix2 p q)).trans ?_
    exact tile_apply V c t _ p q

/-- The output block after the last tile of a row is the finished accumulator. -/
theorem outAt_apply (c : Dev nD) (t : Fin cfg5.N) (h2 : t.val % 3 = 2) (p : Fin 1024) (q : Fin 128) :
    outAt V c t (ix2 p q) = accAt V c t.val t.isLt (ix2 p q) := by
  have h0 : ¬ t.val % 3 = 0 := by omega
  have eL := accL_eq (F := Ideal) c (grid5.coords t) (mA t) (hA t) (mB t) (hB t) (mO t) (hO t) mAcc
      (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt))
  have eO := outL_eq (F := Ideal) c (grid5.coords t) (mA t) (hA t) (mB t) (hB t) (mO t) (hO t) mAcc
      (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt))
  unfold outAt
  rw [dif_pos h2]
  refine (congrFun eO (ix2 p q)).trans ?_
  rw [accAt_L V c t h0 h2]
  exact congrFun eL.symm (ix2 p q)

end value

/-! ## The running sum along a row of tiles, and the result array -/

section total

open Idealize.ShloMosaic.ValueIdx Finset

variable (V : (c : Dev nD) → (b : Ref sig .tc) → Buf (Elt Ideal) ((c : Thread nD τ).loc b))

/-- The two arrays the region reads, as it finds them: the left operand f32[6144, 4096], read transposed, and the
    right operand bf16[6144, 128], as functions into the extended reals. -/
abbrev arrA (c : Dev nD) : S6144x4096.Idx → EReal := V c main_arg5
abbrev arrB (c : Dev nD) : S6144x128.Idx → EReal := V c main_v25

/-- For row `r` and column `q` of the result, the product at contraction position `k` (zero past the end of the
    axis, so that partial sums may range over initial segments of ℕ): the left operand is read at `(k, r)`. -/
def term (c : Dev nD) (r : Fin 4096) (q : Fin 128) (k : ℕ) : EReal :=
  if h : k < 6144 then arrA V c (ix2 ⟨k, h⟩ r) * arrB V c (ix2 ⟨k, h⟩ q)
  else 0

theorem rowOf_lt (n : ℕ) (hn : n < cfg5.N) (p : Fin 1024) : n / 3 * 1024 + p.val < 4096 := by
  have hN : cfg5.N = 12 := N_5
  have := p.isLt
  omega

/-- Row `p` of the block of row tile `n / 3` is row `1024 (n / 3) + p` of the result. -/
abbrev rowOf (n : ℕ) (hn : n < cfg5.N) (p : Fin 1024) : Fin 4096 := ⟨n / 3 * 1024 + p.val, rowOf_lt n hn p⟩

/-- The products of tile `t % 3` of a row are the terms at positions `2048 (t % 3) … 2048 (t % 3) + 2047`. -/
theorem tile_sum (c : Dev nD) (t : Fin cfg5.N) (p : Fin 1024) (q : Fin 128) :
    ∑ k : Fin 2048, blkA V c t (ix2 k p) * panel (grid5.coords t) (blkB V c t) (ix2 k q)
      = ∑ k ∈ range 2048, term V c (rowOf t.val t.isLt p) q (t.val % 3 * 2048 + k) := by
  rw [← Fin.sum_univ_eq_sum_range (fun k => term V c (rowOf t.val t.isLt p) q (t.val % 3 * 2048 + k)) 2048]
  refine Finset.sum_congr rfl fun k _ => ?_
  have hk : t.val % 3 * 2048 + k.val < 6144 := by have := k.isLt; omega
  obtain ⟨-, -, -, -, -, -, hc⟩ := idx_facts t
  have eA : blkA V c t (ix2 k p) = arrA V c (ix2 ⟨_, hk⟩ (rowOf t.val t.isLt p)) :=
    blkA_apply V c t (ix2 k p) (ix2 ⟨_, hk⟩ (rowOf t.val t.isLt p)) rfl rfl
  have eB : panel (grid5.coords t) (blkB V c t) (ix2 k q) = arrB V c (ix2 ⟨_, hk⟩ q) := by
    refine (panel_apply (grid5.coords t) (blkB V c t) (ix2 k q) (ix2 ⟨_, hk⟩ q) ?_ rfl).trans ?_
    · show t.val % 3 * 2048 + k.val = 2048 * (grid5.coords t 1).val + k.val
      rw [hc]; omega
    · exact blkB_apply V c t (ix2 ⟨_, hk⟩ q)
  unfold term
  rw [dif_pos hk, eA, eB]

/-- THE INVARIANT: after tile `n % 3` of its row the accumulator at `(p, q)` holds the terms of the tiles
    `0 … n % 3`, by induction along the grid (sums regrouped by associativity only). -/
theorem accAt_apply (c : Dev nD) (n : ℕ) : ∀ (hn : n < cfg5.N) (p : Fin 1024) (q : Fin 128),
    accAt V c n hn (ix2 p q) = ∑ k ∈ range ((n % 3 + 1) * 2048), term V c (rowOf n hn p) q k := by
  induction n using Nat.strong_induction_on with
  | _ n ih =>
    intro hn p q
    by_cases h0 : n % 3 = 0
    · refine (accAt_first V c ⟨n, hn⟩ h0 p q).trans ?_
      rw [tile_sum V c ⟨n, hn⟩ p q]
      show ∑ k ∈ range 2048, term V c (rowOf n hn p) q (n % 3 * 2048 + k) = _
      rw [h0]
      simp only [Nat.zero_mul, Nat.zero_add, Nat.one_mul]
    · have hpos : n - 1 < n := by omega
      have hn' : n - 1 < cfg5.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 3 * 1024 + p.val = n / 3 * 1024 + p.val; omega)
      rw [hr] at e
      show accAt V c (n - 1) _ (ix2 p q) + ∑ k ∈ range 2048, term V c (rowOf n hn p) q (n % 3 * 2048 + k) = _
      rw [e]
      have hs : (n % 3 + 1) * 2048 = ((n - 1) % 3 + 1) * 2048 + 2048 := by omega
      have hm : n % 3 * 2048 = ((n - 1) % 3 + 1) * 2048 := by omega
      rw [hs, Finset.sum_range_add, hm]

/-- All three tiles' terms are the whole contraction. -/
theorem range_sum_eq (c : Dev nD) (r : Fin 4096) (q : Fin 128) :
    ∑ k ∈ range 6144, term V c r q k = ∑ k : Fin 6144, arrA V c (ix2 k r) * arrB V c (ix2 k q) := by
  rw [← Fin.sum_univ_eq_sum_range (fun k => term V c r q k) 6144]
  refine Finset.sum_congr rfl fun k _ => ?_
  unfold term
  rw [dif_pos k.isLt]

/-- THE RESULT, entry by entry: the whole contraction of the transposed left operand with the right operand. -/
def G (c : Dev nD) : S4096x128.Idx → EReal := fun i =>
  ∑ k : Fin 6144, arrA V c (ix2 k (i 0)) * arrB V c (ix2 k (i 1))

/-- The output block after the last tile of row tile `t / 3` is rows `1024 (t / 3) …` of the result. -/
theorem outAt_eq_G (c : Dev nD) (t : Fin cfg5.N) (h2 : t.val % 3 = 2) (j : S1024x128.Idx) (y : S4096x128.Idx)
    (h0 : (y 0).val = t.val / 3 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show ∑ k ∈ range 6144, term V c (rowOf t.val t.isLt p) q k = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg5.N) (hf : (cfg5.win 2).flush t = true) :
    (dat V c).flushed 2 t = ((cfg5.win 2).blk t).view.read (Elt Ideal) (G V c) := by
  have h2 : t.val % 3 = 2 := (flush5_2 t).mp hf
  obtain ⟨-, -, -, -, e0, e1, -⟩ := idx_facts t
  show (cfg5.win 2).cut (grid5.coords t) ((dat V c).after 2 t) = _
  rw [after_2]
  funext j
  rw [View.read_apply]
  refine outAt_eq_G V c t h2 ((cfg5.win 2).xinj (grid5.coords t) j) (((cfg5.win 2).blk t).view.emb j) ?_ ?_
  · show win5_2.index t 0 * 1024 + 1 * (j 0).val = t.val / 3 * 1024 + (j 0).val
    rw [e0]; omega
  · show win5_2.index t 1 * 128 + 1 * (j 1).val = (j 1).val
    rw [e1]; omega

/-- An index of the result array is in point `t`'s block iff each coordinate is in the block's range on its axis. -/
theorem mem_blk (t : Fin cfg5.N) (i : S4096x128.Idx) :
    i ∈ ((cfg5.win 2).blk t).view.set ↔ ∀ a : Fin 2, win5_2.index t a * S1024x128.size a ≤ (i a).val
      ∧ (i a).val < win5_2.index t a * S1024x128.size a + S1024x128.size a := by
  show i ∈ ((View.whole main_v33).slice (win5_2.rect t)).set ↔ _
  rw [View.set_slice_whole, Rect.mem_set_unit]
  exact Iff.rfl

/-- Row `r` of the result is written back by the last tile of row tile `r / 1024`. -/
theorem cover (i : S4096x128.Idx) :
    ∃ t : Fin cfg5.N, (cfg5.win 2).flush t = true ∧ i ∈ ((cfg5.win 2).blk t).view.set := by
  have hN : cfg5.N = 12 := N_5
  have hi0 : (i 0).val < 4096 := (i 0).isLt
  have hi1 : (i 1).val < 128 := (i 1).isLt
  obtain ⟨t, ht⟩ : ∃ t : Fin cfg5.N, t.val = 3 * ((i 0).val / 1024) + 2 := ⟨⟨3 * ((i 0).val / 1024) + 2, by omega⟩, rfl⟩
  obtain ⟨-, -, -, -, e0, e1, -⟩ := idx_facts t
  refine ⟨t, (flush5_2 t).mpr (by omega), ?_⟩
  rw [mem_blk]
  intro a
  match a with
  | ⟨0, _⟩ =>
    show win5_2.index t 0 * 1024 ≤ (i 0).val ∧ (i 0).val < win5_2.index t 0 * 1024 + 1024
    rw [e0]; omega
  | ⟨1, _⟩ =>
    show win5_2.index t 1 * 128 ≤ (i 1).val ∧ (i 1).val < win5_2.index t 1 * 128 + 128
    rw [e1]; omega

/-- So the result array ends holding `G`. -/
theorem result_eq (c : Dev nD) : (dat V c).arrAt 2 cfg5.N = G V c :=
  (dat V c).arrAt_eq_of_cover 2 (G V c) (flushed_eq V c) cover

/-- THE RESULT ARRAY AT AN INDEX: `∑ k, A k r · B k q` over the whole contraction axis of 6144. -/
theorem result_apply (c : Dev nD) (r : Fin 4096) (q : Fin 128) :
    ((Region5.dat (F := Ideal) V c).arrAt 2 cfg5.N) (ix2 r q) = ∑ k : Fin 6144, arrA V c (ix2 k r) * arrB V c (ix2 k q) := by
  rw [result_eq V c]
  rfl

end array

end Cert.KernelIdeal.Value5

end
-- ==== Proof.KernelIdeal.Value6.lean ====
/-
  Region 6's result array, entry by entry, over the extended reals:

      result (r, q) = logistic (P (r, q) + ∑ k < 4096, A (r, k) · B (k, q))

  for the left operand A : f32[4096, 4096], the right operand B : bf16[4096, 128] and the partial sum P : f32[4096, 128].
  The grid is 4 × 2: row tiles of 1024 rows, and along the contraction axis two tiles of 2048 positions. Within a row
  tile the accumulator starts from P's block and takes the products of the first tile; the second tile, the last, adds
  its products, and the logistic function of the accumulator is stored and written back. The steps: what each case of
  the body leaves is its arithmetic applied to the blocks it read; that arithmetic at an entry (narrowing a float format
  and reshaping to the same shape are identities, the matrix product of a tile is the sum of 2048 products); the blocks
  as parts of the arrays; the running sum along a row tile by induction over the grid, regrouped by associativity of +
  alone (the extended reals do not cancel); and the result array from the blocks written back, which tile it.
-/
import proofs.«108146_j77455440216408_2_alg».proof.Proof.KernelIdeal.Region6
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value6

open Cert.KernelIdeal Cert.KernelIdeal.Gen Cert.KernelIdeal.Region6
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid6.Coords) (x1 : Vec F S4096x128 .bf16) : Vec F S2048x128 .bf16 :=
  View.ld x1 (Rect.unit (s := S4096x128) (k6_off1 i) S2048x128.size (k6_off1_inb i))

/-- The last tile leaves, in the accumulator holding `xs`, `xs` plus the tile's product, -/
theorem accL_eq (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    accL c i arg2 harg2 arg3 harg3 arg4 harg4 arg5 harg5 arg6 harg6 hf hl x0 x1 x2 xs = k6_pay2 x0 (panel i x1) xs := by
  unfold accL
  rw [View.read_writes_eq_canon _ _ _ (coverL c i arg2 harg2 arg3 harg3 arg4 harg4 arg5 harg5 arg6 harg6 hf hl x0 x1 x2 xs)]
  unfold runL
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- and in the output block the logistic function of it. -/
theorem outL_eq (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    outL c i arg2 harg2 arg3 harg3 arg4 harg4 arg5 harg5 arg6 harg6 hf hl x0 x1 x2 xs = k6_pay3 (k6_pay2 x0 (panel i x1) xs) := by
  unfold outL
  rw [View.read_writes_eq_canon _ _ _ (coverO c i arg2 harg2 arg3 harg3 arg4 harg4 arg5 harg5 arg6 harg6 hf hl x0 x1 x2 xs)]
  unfold runL
  dsimp only
  sl_unfold_words
  rw [View.canon_unit_zero hz, View.readCov_unit_zero (S := S1024x128) _ hz]
  simp only [View.readAt_eq_ld, harg2.read_unread, harg3.read_unread, harg6.read_unread,
    View.ld_unit_zero (S := S1024x2048) hz, View.ld_unit_zero (S := S1024x128) hz]
  rfl

/-- The first tile copies the partial sum's block into the accumulator, then adds the tile's product. -/
theorem accF_eq (c : Dev nD) (i : grid6.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i)
    (x0 : Vec F S1024x2048 .f32) (x1 : Vec F S4096x128 .bf16) (x2 : Vec F S1024x128 .f32) :
    accF c i arg2 harg2 arg3 harg3 arg4 harg4 arg5 harg5 arg6 harg6 hf hl x0 x1 x2 = k6_pay2 x0 (panel i x1) (k6_pay1 x2) := by
  unfold accF
  rw [View.read_writes_eq_canon _ _ _ (coverF c i arg2 harg2 arg3 harg3 arg4 harg4 arg5 harg5 arg6 harg6 hf hl x0 x1 x2)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x2048) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k6_pay1 v = v := by
  unfold k6_pay1
  simp only [shapeCast_self]

/-- The left operand's index of output `(p, q)` at contraction position `k` is `(p, k)`; -/
theorem lhsIdx_eq (p : Fin 1024) (q : Fin 128) (k : Fin 2048) :
    dot_S1024x2048_S2048x128_S1024x128_1_0_0_1_n_n.lhsIdx (ix2 p q)
      ((contrEquiv1 dot_S1024x2048_S2048x128_S1024x128_1_0_0_1_n_n 2048 rfl rfl).symm k) = ix2 p k := by
  have c2 := contrEquiv1_symm_val dot_S1024x2048_S2048x128_S1024x128_1_0_0_1_n_n 2048 rfl rfl k
  funext ax; apply Fin.ext
  match ax with
  | ⟨0, _⟩ => simp [DotDims.lhsIdx, dot_S1024x2048_S2048x128_S1024x128_1_0_0_1_n_n]; rfl
  | ⟨1, _⟩ => simp [DotDims.lhsIdx, dot_S1024x2048_S2048x128_S1024x128_1_0_0_1_n_n]; exact c2

/-- the right operand's is `(k, q)`. -/
theorem rhsIdx_eq (p : Fin 1024) (q : Fin 128) (k : Fin 2048) :
    dot_S1024x2048_S2048x128_S1024x128_1_0_0_1_n_n.rhsIdx (ix2 p q)
      ((contrEquiv1 dot_S1024x2048_S2048x128_S1024x128_1_0_0_1_n_n 2048 rfl rfl).symm k) = ix2 k q := by
  have c2 := contrEquiv1_symm_val dot_S1024x2048_S2048x128_S1024x128_1_0_0_1_n_n 2048 rfl rfl k
  funext ax; apply Fin.ext
  match ax with
  | ⟨0, _⟩ => simp [DotDims.rhsIdx, dot_S1024x2048_S2048x128_S1024x128_1_0_0_1_n_n]; exact c2
  | ⟨1, _⟩ => simp [DotDims.rhsIdx, dot_S1024x2048_S2048x128_S1024x128_1_0_0_1_n_n]; rfl

/-- One tile's update at `(p, q)`: the accumulator there plus the sum over the tile's 2048 contraction positions of
    the products (the narrowing of the left operand and the reshapes are identities on extended reals). -/
theorem pay2_apply (a : Vec Ideal S1024x2048 .f32) (b : Vec Ideal S2048x128 .bf16) (acc : Vec Ideal S1024x128 .f32)
    (p : Fin 1024) (q : Fin 128) :
    k6_pay2 (F := Ideal) a b acc (ix2 p q) = acc (ix2 p q) + ∑ k : Fin 2048, a (ix2 p k) * b (ix2 k q) := by
  unfold k6_pay2
  rw [shapeCast_self, shapeCast_self, addf_apply]
  simp only [matmul]
  rw [Ideal.matmul_constant_zero_apply,
    ← Equiv.sum_comp (contrEquiv1 dot_S1024x2048_S2048x128_S1024x128_1_0_0_1_n_n 2048 rfl rfl).symm]
  refine congrArg (acc (ix2 p q) + ·) (Finset.sum_congr rfl fun k _ => ?_)
  rw [lhsIdx_eq, rhsIdx_eq]
  rfl

/-- The stored output at `(p, q)`: the logistic function of the accumulator there. -/
theorem pay3_apply (acc : Vec Ideal S1024x128 .f32) (p : Fin 1024) (q : Fin 128) :
    k6_pay3 (F := Ideal) acc (ix2 p q) = Ideal.logistic (acc (ix2 p q)) := by
  unfold k6_pay3
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 4 × 2 grid is tile `t % 2` of row tile `t / 2`: the block indices of the four windows there. -/
theorem idx_facts : ∀ t : Fin cfg6.N,
    win6_0.index t 0 = t.val / 2 ∧ win6_0.index t 1 = t.val % 2
    ∧ win6_1.index t 0 = 0 ∧ win6_1.index t 1 = 0
    ∧ win6_2.index t 0 = t.val / 2 ∧ win6_2.index t 1 = 0
    ∧ win6_3.index t 0 = t.val / 2 ∧ win6_3.index t 1 = 0
    ∧ (grid6.coords t 1).val = t.val % 2 :=
  (by decide +kernel : ∀ t : Fin grid6.N,
    win6_0.index t 0 = t.val / 2 ∧ win6_0.index t 1 = t.val % 2
    ∧ win6_1.index t 0 = 0 ∧ win6_1.index t 1 = 0
    ∧ win6_2.index t 0 = t.val / 2 ∧ win6_2.index t 1 = 0
    ∧ win6_3.index t 0 = t.val / 2 ∧ win6_3.index t 1 = 0
    ∧ (grid6.coords t 1).val = t.val % 2)

/-- The left operand's block at point `t`: rows `1024 (t / 2) …`, columns `2048 (t % 2) …` of the array. -/
theorem blkA_apply (c : Dev nD) (t : Fin cfg6.N) (x : S1024x2048.Idx) (y : S4096x4096.Idx)
    (h0 : (y 0).val = t.val / 2 * 1024 + (x 0).val) (h1 : (y 1).val = t.val % 2 * 2048 + (x 1).val) :
    (iblk V c 0 t : Vec F S1024x2048 .f32) x = (V c main_arg10 : S4096x4096.Idx → Elt F .f32) y := by
  obtain ⟨i0, i1, -⟩ := idx_facts t
  unfold iblk
  rw [View.read_apply]
  show V c main_arg10 _ = V c main_arg10 _
  congr 1
  funext a
  apply Fin.ext
  match a with
  | ⟨0, _⟩ => show win6_0.index t 0 * 1024 + 1 * (x 0).val = (y 0).val; rw [i0, h0]; omega
  | ⟨1, _⟩ => show win6_0.index t 1 * 2048 + 1 * (x 1).val = (y 1).val; rw [i1, h1]; omega

/-- The right operand's block is the whole array at every point. -/
theorem blkB_apply (c : Dev nD) (t : Fin cfg6.N) (x : S4096x128.Idx) :
    (iblk V c 1 t : Vec F S4096x128 .bf16) x = (V c main_v27 : S4096x128.Idx → Elt F .bf16) x := by
  obtain ⟨-, -, i0, i1, -⟩ := idx_facts t
  unfold iblk
  rw [View.read_apply]
  show V c main_v27 _ = V c main_v27 _
  congr 1
  funext a
  apply Fin.ext
  match a with
  | ⟨0, _⟩ => show win6_1.index t 0 * 4096 + 1 * (x 0).val = (x 0).val; rw [i0]; omega
  | ⟨1, _⟩ => show win6_1.index t 1 * 128 + 1 * (x 1).val = (x 1).val; rw [i1]; omega

/-- The partial sum's block at point `t`: rows `1024 (t / 2) …` of the array. -/
theorem blkP_apply (c : Dev nD) (t : Fin cfg6.N) (x : S1024x128.Idx) (y : S4096x128.Idx)
    (h0 : (y 0).val = t.val / 2 * 1024 + (x 0).val) (h1 : (y 1).val = (x 1).val) :
    (iblk V c 2 t : Vec F S1024x128 .f32) x = (V c main_v33 : S4096x128.Idx → Elt F .f32) y := by
  obtain ⟨-, -, -, -, i0, i1, -⟩ := idx_facts t
  unfold iblk
  rw [View.read_apply]
  show V c main_v33 _ = V c main_v33 _
  congr 1
  funext a
  apply Fin.ext
  match a with
  | ⟨0, _⟩ => show win6_2.index t 0 * 1024 + 1 * (x 0).val = (y 0).val; rw [i0, h0]; omega
  | ⟨1, _⟩ => show win6_2.index t 1 * 128 + 1 * (x 1).val = (y 1).val; rw [i1, h1]; omega

/-- The rows a tile loads of the right operand: row `k` of the tile is row `2048 i₁ + k` of the panel. -/
theorem panel_apply (i : grid6.Coords) (x1 : Vec F S4096x128 .bf16) (x : S2048x128.Idx) (y : S4096x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k6_off1 i 0 + 1 * (x 0).val = (y 0).val; rw [k6_off1_eq i, h0]; show 2048 * (i 1).val + 1 * (x 0).val = _; omega
  | ⟨1, _⟩ => show k6_off1 i 1 + 1 * (x 1).val = (y 1).val; rw [k6_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The three input blocks at point `t`, as vectors of their literal shapes. -/
abbrev blkA (c : Dev nD) (t : Fin cfg6.N) : Vec Ideal S1024x2048 .f32 := iblk V c 0 t
abbrev blkB (c : Dev nD) (t : Fin cfg6.N) : Vec Ideal S4096x128 .bf16 := iblk V c 1 t
abbrev blkP (c : Dev nD) (t : Fin cfg6.N) : Vec Ideal S1024x128 .f32 := iblk V c 2 t

/-- The update of either tile at `(p, q)`, over the point's blocks: what the accumulator held plus the tile's 2048 products. -/
theorem tile_apply (c : Dev nD) (t : Fin cfg6.N) (xs : Vec Ideal S1024x128 .f32) (p : Fin 1024) (q : Fin 128) :
    k6_pay2 (F := Ideal) (blkA V c t) (panel (grid6.coords t) (blkB V c t)) xs (ix2 p q)
      = xs (ix2 p q) + ∑ k : Fin 2048, blkA V c t (ix2 p k)
          * panel (grid6.coords t) (blkB V c t) (ix2 k q) :=
  pay2_apply (blkA V c t) (panel (grid6.coords t) (blkB V c t)) xs p q

/-- After the first tile of a row the accumulator at `(p, q)` is the partial sum's block there plus the tile's products. -/
theorem accAt_first (c : Dev nD) (t : Fin cfg6.N) (h0 : t.val % 2 = 0) (p : Fin 1024) (q : Fin 128) :
    accAt V c t.val t.isLt (ix2 p q)
      = blkP V c t (ix2 p q) + ∑ k : Fin 2048, blkA V c t (ix2 p k)
          * panel (grid6.coords t) (blkB V c t) (ix2 k q) := by
  refine (congrFun (accAt_F V c t h0) (ix2 p q)).trans ?_
  refine (congrFun (accF_eq (F := Ideal) c (grid6.coords t) (mA t) (hA t) (mB t) (hB t) (mP t) (hP t) (mO t) (hO t) mAcc
    (Memref.isWhole_whole _) _ _ (iblk V c 0 t) (iblk V c 1 t) (iblk V c 2 t)) (ix2 p q)).trans ?_
  refine (tile_apply V c t (k6_pay1 (iblk V c 2 t)) p q).trans ?_
  exact congrArg (· + _) (congrFun (pay1_eq (F := Ideal) (iblk V c 2 t)) (ix2 p q))

/-- After the second tile it is what the first tile left there plus the tile's products. -/
theorem accAt_later (c : Dev nD) (t : Fin cfg6.N) (h0 : ¬ t.val % 2 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 p k)
          * panel (grid6.coords t) (blkB V c t) (ix2 k q) := by
  have h2 : t.val % 2 = 1 := by omega
  refine (congrFun (accAt_L V c t h0 h2) (ix2 p q)).trans ?_
  refine (congrFun (accL_eq (F := Ideal) c (grid6.coords t) (mA t) (hA t) (mB t) (hB t) (mP t) (hP t) (mO t) (hO t) mAcc
    (Memref.isWhole_whole _) _ _ (iblk V c 0 t) (iblk V c 1 t) (iblk V c 2 t)
    (accAt V c (t.val - 1) (Nat.lt_of_le_of_lt (Nat.sub_le _ _) t.isLt))) (ix2 p q)).trans ?_
  exact tile_apply V c t _ p q

/-- The output block after the last tile of a row is the logistic function of the finished accumulator. -/
theorem outAt_apply (c : Dev nD) (t : Fin cfg6.N) (h2 : t.val % 2 = 1) (p : Fin 1024) (q : Fin 128) :
    outAt V c t (ix2 p q) = Ideal.logistic (accAt V c t.val t.isLt (ix2 p q)) := by
  have h0 : ¬ t.val % 2 = 0 := by omega
  have eL := accL_eq (F := Ideal) c (grid6.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  have eO := outL_eq (F := Ideal) c (grid6.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  unfold outAt
  rw [dif_pos h2]
  refine (congrFun eO (ix2 p q)).trans ?_
  refine (pay3_apply _ p q).trans ?_
  rw [accAt_L V c t h0 h2]
  exact congrArg Ideal.logistic (congrFun eL.symm (ix2 p q))

end value

/-! ## The running sum along a row of tiles, and the result array -/

section total

open Idealize.ShloMosaic.ValueIdx Finset

variable (V : (c : Dev nD) → (b : Ref sig .tc) → Buf (Elt Ideal) ((c : Thread nD τ).loc b))

/-- The three arrays the region reads, as it finds them: the left operand f32[4096, 4096], the right operand
    bf16[4096, 128] and the partial sum f32[4096, 128], as functions into the extended reals. -/
abbrev arrA (c : Dev nD) : S4096x4096.Idx → EReal := V c main_arg10
abbrev arrB (c : Dev nD) : S4096x128.Idx → EReal := V c main_v27
abbrev arrP (c : Dev nD) : S4096x128.Idx → EReal := V c main_v33

/-- For row `r` and column `q` of the result, the product at contraction position `k` (zero past the end of the
    axis, so that partial sums may range over initial segments of ℕ). -/
def term (c : Dev nD) (r : Fin 4096) (q : Fin 128) (k : ℕ) : EReal :=
  if h : k < 4096 then arrA V c (ix2 r ⟨k, h⟩) * arrB V c (ix2 ⟨k, h⟩ q)
  else 0

theorem rowOf_lt (n : ℕ) (hn : n < cfg6.N) (p : Fin 1024) : n / 2 * 1024 + p.val < 4096 := by
  have hN : cfg6.N = 8 := N_6
  have := p.isLt
  omega

/-- Row `p` of the block of row tile `n / 2` is row `1024 (n / 2) + p` of the array. -/
abbrev rowOf (n : ℕ) (hn : n < cfg6.N) (p : Fin 1024) : Fin 4096 := ⟨n / 2 * 1024 + p.val, rowOf_lt n hn p⟩

/-- The products of tile `t % 2` of a row are the terms at positions `2048 (t % 2) … 2048 (t % 2) + 2047`. -/
theorem tile_sum (c : Dev nD) (t : Fin cfg6.N) (p : Fin 1024) (q : Fin 128) :
    ∑ k : Fin 2048, blkA V c t (ix2 p k) * panel (grid6.coords t) (blkB V c t) (ix2 k q)
      = ∑ k ∈ range 2048, term V c (rowOf t.val t.isLt p) q (t.val % 2 * 2048 + k) := by
  rw [← Fin.sum_univ_eq_sum_range (fun k => term V c (rowOf t.val t.isLt p) q (t.val % 2 * 2048 + k)) 2048]
  refine Finset.sum_congr rfl fun k _ => ?_
  have hk : t.val % 2 * 2048 + k.val < 4096 := by have := k.isLt; omega
  obtain ⟨-, -, -, -, -, -, -, -, hc⟩ := idx_facts t
  have eA : blkA V c t (ix2 p k) = arrA V c (ix2 (rowOf t.val t.isLt p) ⟨_, hk⟩) :=
    blkA_apply V c t (ix2 p k) (ix2 (rowOf t.val t.isLt p) ⟨_, hk⟩) rfl rfl
  have eB : panel (grid6.coords t) (blkB V c t) (ix2 k q) = arrB V c (ix2 ⟨_, hk⟩ q) := by
    refine (panel_apply (grid6.coords t) (blkB V c t) (ix2 k q) (ix2 ⟨_, hk⟩ q) ?_ rfl).trans ?_
    · show t.val % 2 * 2048 + k.val = 2048 * (grid6.coords t 1).val + k.val
      rw [hc]; omega
    · exact blkB_apply V c t (ix2 ⟨_, hk⟩ q)
  unfold term
  rw [dif_pos hk, eA, eB]

/-- THE INVARIANT: after tile `n % 2` of its row the accumulator at `(p, q)` holds the partial sum's entry plus the
    terms of the tiles `0 … n % 2`, by induction along the grid (sums regrouped by associativity only). -/
theorem accAt_apply (c : Dev nD) (n : ℕ) : ∀ (hn : n < cfg6.N) (p : Fin 1024) (q : Fin 128),
    accAt V c n hn (ix2 p q) = arrP V c (ix2 (rowOf n hn p) q)
      + ∑ k ∈ range ((n % 2 + 1) * 2048), term V c (rowOf n hn p) q k := by
  induction n using Nat.strong_induction_on with
  | _ n ih =>
    intro hn p q
    by_cases h0 : n % 2 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 2048, term V c (rowOf n hn p) q (n % 2 * 2048 + k) = _
      rw [h0]
      simp only [Nat.zero_mul, Nat.zero_add, Nat.one_mul]
    · have hpos : n - 1 < n := by omega
      have hn' : n - 1 < cfg6.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 2 * 1024 + p.val = n / 2 * 1024 + p.val; omega)
      rw [hr] at e
      show accAt V c (n - 1) _ (ix2 p q) + ∑ k ∈ range 2048, term V c (rowOf n hn p) q (n % 2 * 2048 + k) = _
      rw [e, add_assoc]
      congr 1
      have hs : (n % 2 + 1) * 2048 = ((n - 1) % 2 + 1) * 2048 + 2048 := by omega
      have hm : n % 2 * 2048 = ((n - 1) % 2 + 1) * 2048 := by omega
      rw [hs, Finset.sum_range_add, hm]

/-- Both tiles' terms are the whole contraction. -/
theorem range_sum_eq (c : Dev nD) (r : Fin 4096) (q : Fin 128) :
    ∑ k ∈ range 4096, term V c r q k
      = ∑ k : Fin 4096, arrA V c (ix2 r k) * arrB V c (ix2 k q) := by
  rw [← Fin.sum_univ_eq_sum_range (fun k => term V c r q k) 4096]
  refine Finset.sum_congr rfl fun k _ => ?_
  unfold term
  rw [dif_pos k.isLt]

/-- THE RESULT, entry by entry: the logistic function of the partial sum's entry plus the whole contraction. -/
def G (c : Dev nD) : S4096x128.Idx → EReal := fun i =>
  Ideal.logistic (arrP V c i
    + ∑ k : Fin 4096, arrA V c (ix2 (i 0) k) * arrB V c (ix2 k (i 1)))

/-- The output block after the last tile of row tile `t / 2` is rows `1024 (t / 2) …` of the result. -/
theorem outAt_eq_G (c : Dev nD) (t : Fin cfg6.N) (h2 : t.val % 2 = 1) (j : S1024x128.Idx) (y : S4096x128.Idx)
    (h0 : (y 0).val = t.val / 2 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show Ideal.logistic (_ + ∑ k ∈ range 4096, term V c (rowOf t.val t.isLt p) q k) = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg6.N) (hf : (cfg6.win 3).flush t = true) :
    (dat V c).flushed 3 t = ((cfg6.win 3).blk t).view.read (Elt Ideal) (G V c) := by
  have h2 : t.val % 2 = 1 := (flush6_3 t).mp hf
  obtain ⟨-, -, -, -, -, -, e0, e1, -⟩ := idx_facts t
  show (cfg6.win 3).cut (grid6.coords t) ((dat V c).after 3 t) = _
  rw [after_3]
  funext j
  rw [View.read_apply]
  refine outAt_eq_G V c t h2 ((cfg6.win 3).xinj (grid6.coords t) j) (((cfg6.win 3).blk t).view.emb j) ?_ ?_
  · show win6_3.index t 0 * 1024 + 1 * (j 0).val = t.val / 2 * 1024 + (j 0).val
    rw [e0]; omega
  · show win6_3.index t 1 * 128 + 1 * (j 1).val = (j 1).val
    rw [e1]; omega

/-- An index of the result array is in point `t`'s block iff each coordinate is in the block's range on its axis. -/
theorem mem_blk (t : Fin cfg6.N) (i : S4096x128.Idx) :
    i ∈ ((cfg6.win 3).blk t).view.set ↔ ∀ a : Fin 2, win6_3.index t a * S1024x128.size a ≤ (i a).val
      ∧ (i a).val < win6_3.index t a * S1024x128.size a + S1024x128.size a := by
  show i ∈ ((View.whole main_v34).slice (win6_3.rect t)).set ↔ _
  rw [View.set_slice_whole, Rect.mem_set_unit]
  exact Iff.rfl

/-- Row `r` of the result is written back by the last tile of row tile `r / 1024`. -/
theorem cover (i : S4096x128.Idx) :
    ∃ t : Fin cfg6.N, (cfg6.win 3).flush t = true ∧ i ∈ ((cfg6.win 3).blk t).view.set := by
  have hN : cfg6.N = 8 := N_6
  have hi0 : (i 0).val < 4096 := (i 0).isLt
  have hi1 : (i 1).val < 128 := (i 1).isLt
  obtain ⟨t, ht⟩ : ∃ t : Fin cfg6.N, t.val = 2 * ((i 0).val / 1024) + 1 := ⟨⟨2 * ((i 0).val / 1024) + 1, by omega⟩, rfl⟩
  obtain ⟨-, -, -, -, -, -, e0, e1, -⟩ := idx_facts t
  refine ⟨t, (flush6_3 t).mpr (by omega), ?_⟩
  rw [mem_blk]
  intro a
  match a with
  | ⟨0, _⟩ =>
    show win6_3.index t 0 * 1024 ≤ (i 0).val ∧ (i 0).val < win6_3.index t 0 * 1024 + 1024
    rw [e0]; omega
  | ⟨1, _⟩ =>
    show win6_3.index t 1 * 128 ≤ (i 1).val ∧ (i 1).val < win6_3.index t 1 * 128 + 128
    rw [e1]; omega

/-- So the result array ends holding `G`. -/
theorem result_eq (c : Dev nD) : (dat V c).arrAt 3 cfg6.N = G V c :=
  (dat V c).arrAt_eq_of_cover 3 (G V c) (flushed_eq V c) cover

/-- THE RESULT ARRAY AT AN INDEX: `logistic (P r q + ∑ k, A r k · B k q)` over the whole contraction axis of 4096. -/
theorem result_apply (c : Dev nD) (r : Fin 4096) (q : Fin 128) :
    ((Region6.dat (F := Ideal) V c).arrAt 3 cfg6.N) (ix2 r q)
      = Ideal.logistic (arrP V c (ix2 r q) + ∑ k : Fin 4096, arrA V c (ix2 r k) * arrB V c (ix2 k q)) := by
  rw [result_eq V c]
  rfl

end array

end Cert.KernelIdeal.Value6

end
-- ==== Proof.KernelIdeal.Value7.lean ====
/-
  The value of region 7's result array (the second layer's counterpart of region 0: the same kernel and grid), over the extended reals. The region multiplies a 2048 × 2048 array by a
  2048 × 128 array in two row tiles of 1024 rows, the whole contraction axis in one tile: at each grid point the
  body zeroes its accumulator, adds the product of the point's 1024 × 2048 block of the first array with the
  whole second array, and stores the accumulator into the point's 1024 × 128 block of the result. Over the
  extended reals a change of float format is the identity and the product is exact, so that block holds, at
  (p, q), the sum over k of the first block's (p, k) times the second array's (k, q); row p of row tile i is row
  1024 i + p of the arrays; the two blocks tile the result; hence entry (r, q) of the result is the sum over k of
  the first array's (r, k) times the second's (k, q).
-/
import proofs.«108146_j77455440216408_2_alg».proof.Proof.KernelIdeal.Region7
import Idealize.ShloMosaic.Lib.Pipeline.Value
import Idealize.ShloMosaic.Lib.ValueIdx
import Idealize.ShloMosaic.PureOps.Ideal
import Idealize.ShloMosaic.PureOps.Ideal.Laws
import Idealize.ShloMosaic.Lib.Tactic

set_option maxRecDepth 16384

noncomputable section

namespace Cert.KernelIdeal.Value7

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-- The contraction axis has one tile, so the row offset at which the body loads the second operand's block,
    2048 times the contraction coordinate, is zero. -/
theorem off_zero (i : grid7.Coords) :
    (![BitVec.toNat (Scalar.indexCast (Scalar.muli (BitVec.ofNat 32 (i 1).val) 2048#32)), 0] : Fin 2 → Nat) = fun _ => 0 := by
  have h1 : (i 1).val = 0 := Nat.lt_one_iff.mp (i 1).isLt
  rw [h1]
  funext a; fin_cases a <;> rfl

/-- What the body leaves in the output block, from input blocks `x0`, `x1`: the accumulator, zeroed and then
    increased by the product of the two blocks — the one store that covers the output block carries the
    accumulator read back, itself the later of two whole-block stores. -/
theorem out_eq (c : Dev nD) (i : grid7.Coords)
    (arg2 : Memref sig .tc .vmem S1024x2048 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : Region7.isFirst i) (hl : Region7.isLast i)
    (x0 : Vec F S1024x2048 .f32) (x1 : Vec F S2048x128 .bf16) :
    Region7.out c i arg2 harg2 arg3 harg3 arg4 harg4 arg5 harg5 hf hl x0 x1 = k7_pay2 x0 x1 (k7_pay1 (F := F)) := by
  unfold Region7.out
  rw [View.read_writes_eq_canon _ _ _ (Region7.cover_out c i arg2 harg2 arg3 harg3 arg4 harg4 arg5 harg5 hf hl x0 x1)]
  unfold Region7.run
  dsimp only
  sl_unfold_words
  rw [View.canon_unit_zero hz]
  simp only [View.readAt_eq_ld, harg2.read_unread, harg3.read_unread, View.ld_unit_zero (S := S1024x2048) hz]
  rw [View.readCov_cons_toLoadRect, View.readCov_cons_toLoadRect]
  exact congrArg (fun v => k7_pay2 x0 v (k7_pay1 (F := F))) (View.ld_unit_zero (S := S2048x128) (off_zero i) _ x1)

/-! ## The payload at an index, over the extended reals -/

local notation "D0" => dot_S1024x2048_S2048x128_S1024x128_1_0_0_1_n_n

/-- The product's left operand at result index (p, q) and contraction position k is read at (p, k): the row is
    the result's, the column the contraction position. -/
theorem lhs_at (p : Fin 1024) (q : Fin 128) (k : Fin 2048) :
    DotDims.lhsIdx D0 (ix2 p q) ((contrEquiv1 D0 2048 rfl rfl).symm k) = ix2 p k := by
  funext a
  apply Fin.ext
  match a with
  | ⟨0, _⟩ => rfl
  | ⟨1, _⟩ => exact (DotDims.lhsIdx_val_of_single D0 rfl (ix2 p q) _).trans (contrEquiv1_symm_val D0 2048 rfl rfl k)

/-- The right operand is read at (k, q): the row is the contraction position, the column the result's. -/
theorem rhs_at (p : Fin 1024) (q : Fin 128) (k : Fin 2048) :
    DotDims.rhsIdx D0 (ix2 p q) ((contrEquiv1 D0 2048 rfl rfl).symm k) = ix2 k q := by
  funext a
  apply Fin.ext
  match a with
  | ⟨0, _⟩ => exact (DotDims.rhsIdx_val_of_single D0 rfl (ix2 p q) _).trans (contrEquiv1_symm_val D0 2048 rfl rfl k)
  | ⟨1, _⟩ => rfl

/-- Over the extended reals the change of format is the identity and the product is exact, so the zeroed
    accumulator increased by the blocks' product holds, at (p, q), the sum over k of `x0 (p, k) * x1 (k, q)`. -/
theorem pay_apply (x0 : Vec Ideal S1024x2048 .f32) (x1 : Vec Ideal S2048x128 .bf16) (p : Fin 1024) (q : Fin 128) :
    k7_pay2 (F := Ideal) x0 x1 (k7_pay1 (F := Ideal)) (ix2 p q) = ∑ k : Fin 2048, x0 (ix2 p k) * x1 (ix2 k q) := by
  unfold k7_pay2 k7_pay1
  simp only [shapeCast_self]
  rw [addf_apply, broadcast_apply]
  simp only [Ideal.matmul_constant_zero_apply]
  rw [show (FloatOps.ofBits (F := Ideal) .f32 0x00000000#32 : EReal) = 0 from Ideal.ofBits_zero_f32, zero_add,
    ← Equiv.sum_comp (contrEquiv1 D0 2048 rfl rfl).symm]
  refine Finset.sum_congr rfl fun k _ => ?_
  rw [truncf_apply, lhs_at, rhs_at]

/-! ## From blocks to the array -/

variable (V : (c : Dev nD) → (b : Ref sig .tc) → Buf (Elt Ideal) ((c : Thread nD τ).loc b))

/-- The product of a 2048 × 2048 array and a 2048 × 128 array, entry by entry. -/
def prod (A : S2048x2048.Idx → EReal) (B : S2048x128.Idx → EReal) : S2048x128.Idx → EReal :=
  fun j => ∑ k : Fin 2048, A (ix2 (j 0) k) * B (ix2 k (j 1))

/-- The index maps over the grid: the first operand's row tile is the output's and its column tile the first;
    the second operand is one block; the output's row tile is below 2 and its column tile the first. -/
theorem idx_facts : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (0 : Fin 2) ≤ 1
    ∧ win7_2.index t (1 : Fin 2) = 0 :=
  (by decide +kernel : ∀ t : Fin grid7.N, _)

/-- Every row tile of the output is some point's. -/
theorem idx_onto : ∀ q0 : Fin 2, ∃ t : Fin cfg7.N, win7_2.index t = ![q0.val, 0] :=
  (by decide +kernel : ∀ q0 : Fin 2, ∃ t : Fin grid7.N, win7_2.index t = ![q0.val, 0])

/-- The first operand's block at point `t`: entry (p, k) is the array's entry in row
    1024 · (the point's row tile) + p, column k. -/
theorem iblk0_apply (c : Dev nD) (t : Fin cfg7.N) (x : S1024x2048.Idx) (i : S2048x2048.Idx)
    (h0 : (i 0).val = win7_2.index t (0 : Fin 2) * 1024 + (x 0).val) (h1 : (i 1).val = (x 1).val) :
    (Region7.iblk V c 0 t : Vec Ideal S1024x2048 .f32) x = (V c main_arg7 : S2048x2048.Idx → EReal) i := by
  obtain ⟨e0, e1, -, -, -, -⟩ := idx_facts t
  unfold Region7.iblk
  rw [View.read_apply]
  show V c main_arg7 _ = V c main_arg7 _
  congr 1
  funext a
  apply Fin.ext
  match a with
  | ⟨0, _⟩ => show win7_0.index t (0 : Fin 2) * 1024 + 1 * (x 0).val = (i 0).val; rw [e0, h0]; omega
  | ⟨1, _⟩ => show win7_0.index t (1 : Fin 2) * 2048 + 1 * (x 1).val = (i 1).val; rw [e1, h1]; omega

/-- The second operand's one block is its array. -/
theorem iblk1_apply (c : Dev nD) (t : Fin cfg7.N) (x : S2048x128.Idx) (i : S2048x128.Idx)
    (h0 : (i 0).val = (x 0).val) (h1 : (i 1).val = (x 1).val) :
    (Region7.iblk V c 1 t : Vec Ideal S2048x128 .bf16) x = (V c main_v50 : S2048x128.Idx → EReal) i := by
  obtain ⟨-, -, e2, e3, -, -⟩ := idx_facts t
  unfold Region7.iblk
  rw [View.read_apply]
  show V c main_v50 _ = V c main_v50 _
  congr 1
  funext a
  apply Fin.ext
  match a with
  | ⟨0, _⟩ => show win7_1.index t (0 : Fin 2) * 2048 + 1 * (x 0).val = (i 0).val; rw [e2, h0]; omega
  | ⟨1, _⟩ => show win7_1.index t (1 : Fin 2) * 128 + 1 * (x 1).val = (i 1).val; rw [e3, h1]; omega

/-- What point `t` writes back is block `t` of the product of the two arrays as the region finds them. -/
theorem flushed_eq (c : Dev nD) (t : Fin cfg7.N) :
    (Region7.dat V c).flushed 2 t
      = ((cfg7.win 2).blk t).view.read (Elt Ideal) (prod (V c main_arg7) (V c main_v50)) := by
  show (cfg7.win 2).cut (grid7.coords t) ((Region7.dat V c).after 2 t) = _
  rw [Region7.after_2, out_eq]
  obtain ⟨-, -, -, -, -, e5⟩ := idx_facts t
  funext j
  obtain ⟨p, q, rfl⟩ : ∃ (p : Fin 1024) (q : Fin 128), j = ix2 p q := ⟨j 0, j 1, eq_ix2 j⟩
  rw [View.read_apply]
  refine (pay_apply (Region7.iblk V c 0 t) (Region7.iblk V c 1 t) p q).trans ?_
  unfold prod
  refine Finset.sum_congr rfl fun k _ => ?_
  have r0 : ((((cfg7.win 2).blk t).view.emb (ix2 p q)) 0).val = win7_2.index t (0 : Fin 2) * 1024 + p.val := by
    show win7_2.index t (0 : Fin 2) * 1024 + 1 * p.val = _; omega
  have r1 : ((((cfg7.win 2).blk t).view.emb (ix2 p q)) 1).val = q.val := by
    show win7_2.index t (1 : Fin 2) * 128 + 1 * q.val = _; rw [e5]; omega
  rw [iblk0_apply V c t (ix2 p k) (ix2 ((((cfg7.win 2).blk t).view.emb (ix2 p q)) 0) k) r0 rfl,
    iblk1_apply V c t (ix2 k q) (ix2 k ((((cfg7.win 2).blk t).view.emb (ix2 p q)) 1)) rfl r1]

/-- An index of the result array is in point `t`'s block iff each coordinate is in the block's range. -/
theorem mem_blk (t : Fin cfg7.N) (i : S2048x128.Idx) :
    i ∈ ((cfg7.win 2).blk t).view.set ↔ ∀ a : Fin 2, win7_2.index t a * S1024x128.size a ≤ (i a).val ∧ (i a).val < win7_2.index t a * S1024x128.size a + S1024x128.size a := by
  show i ∈ ((View.whole main_v63).slice (win7_2.rect t)).set ↔ _
  rw [View.set_slice_whole, Rect.mem_set_unit]
  exact Iff.rfl

/-- Row r of the result lies in the block of the point whose row tile is r / 1024; every point writes back. -/
theorem cover (i : S2048x128.Idx) :
    ∃ t : Fin cfg7.N, (cfg7.win 2).flush t = true ∧ i ∈ ((cfg7.win 2).blk t).view.set := by
  have hi0 : (i 0).val < 2048 := (i 0).isLt
  have hi1 : (i 1).val < 128 := (i 1).isLt
  obtain ⟨t, ht⟩ := idx_onto ⟨(i 0).val / 1024, by omega⟩
  have q0 : win7_2.index t (0 : Fin 2) = (i 0).val / 1024 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 1024 ≤ (i 0).val ∧ (i 0).val < win7_2.index t (0 : Fin 2) * 1024 + 1024; omega
  | ⟨1, _⟩ => show win7_2.index t (1 : Fin 2) * 128 ≤ (i 1).val ∧ (i 1).val < win7_2.index t (1 : Fin 2) * 128 + 128; omega

/-- The result array after the region is the product of the two arrays as the region finds them. -/
theorem final (c : Dev nD) : (Region7.dat V c).arrAt 2 cfg7.N = prod (V c main_arg7) (V c main_v50) :=
  (Region7.dat V c).arrAt_eq_of_cover 2 (prod (V c main_arg7) (V c main_v50)) (fun t _ => flushed_eq V c t) cover

/-- The region's arrays at their literal index types: the two operands as the region finds them, and the result
    after the region. -/
abbrev lhsArr (c : Dev nD) : S2048x2048.Idx → EReal := V c main_arg7
abbrev rhsArr (c : Dev nD) : S2048x128.Idx → EReal := V c main_v50
abbrev resArr (c : Dev nD) : S2048x128.Idx → EReal := (Region7.dat (F := Ideal) V c).arrAt 2 cfg7.N

/-- Entry (r, q) of the result: the sum over k of the first array's (r, k) times the second's (k, q). -/
theorem result_apply (c : Dev nD) (r : Fin 2048) (q : Fin 128) :
    resArr V c (ix2 r q) = ∑ k : Fin 2048, lhsArr V c (ix2 r k) * rhsArr V c (ix2 k q) :=
  congrFun (final V c) (ix2 r q)

end Cert.KernelIdeal.Value7

end
-- ==== Proof.KernelIdeal.Value8.lean ====
/-
  Region 8's result array (the second layer's counterpart of region 1: the same kernel and grid), entry by entry, over the extended reals:

      result (r, q) = logistic (P (r, q) + ∑ k < 6144, A (r, k) · B (k, q))

  for the left operand A : f32[2048, 6144], the right operand B : bf16[6144, 128] and the partial sum P : f32[2048, 128].
  The grid is 2 × 3: row tiles of 1024 rows, and along the contraction axis three tiles of 2048 positions. Within a row
  tile the accumulator starts from P's block, takes the products of one tile after the other, and after the third tile
  the logistic function of it is stored and written back. The steps: what each case of the body leaves is its arithmetic
  applied to the blocks it read; that arithmetic at an entry (narrowing a float format and reshaping to the same shape
  are identities, the matrix product of a tile is the sum of 2048 products); the blocks as parts of the arrays; the
  running sum along a row tile by induction over the grid, regrouped by associativity of + alone (the extended reals
  do not cancel); and the result array from the blocks written back, which tile it.
-/
import proofs.«108146_j77455440216408_2_alg».proof.Proof.KernelIdeal.Region8
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value8

open Cert.KernelIdeal Cert.KernelIdeal.Gen Cert.KernelIdeal.Region8
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid8.Coords) (x1 : Vec F S6144x128 .bf16) : Vec F S2048x128 .bf16 :=
  View.ld x1 (Rect.unit (s := S6144x128) (k8_off1 i) S2048x128.size (k8_off1_inb i))

/-- A middle tile leaves, in the accumulator holding `xs`, `xs` plus the tile's product. -/
theorem accM_eq (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : ¬ isLast i)
    (x0 : Vec F S1024x2048 .f32) (x1 : Vec F S6144x128 .bf16) (x2 : Vec F S1024x128 .f32) (xs : Vec F S1024x128 .f32) :
    accM c i arg2 harg2 arg3 harg3 arg4 harg4 arg5 harg5 arg6 harg6 hf hl x0 x1 x2 xs = k8_pay2 x0 (panel i x1) xs := by
  unfold accM
  rw [View.read_writes_eq_canon _ _ _ (coverM c i arg2 harg2 arg3 harg3 arg4 harg4 arg5 harg5 arg6 harg6 hf hl x0 x1 x2 xs)]
  unfold runM
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- A last tile leaves the same in the accumulator, -/
theorem accL_eq (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S6144x128 .bf16) (x2 : Vec F S1024x128 .f32) (xs : Vec F S1024x128 .f32) :
    accL c i arg2 harg2 arg3 harg3 arg4 harg4 arg5 harg5 arg6 harg6 hf hl x0 x1 x2 xs = k8_pay2 x0 (panel i x1) xs := by
  unfold accL
  rw [View.read_writes_eq_canon _ _ _ (coverL c i arg2 harg2 arg3 harg3 arg4 harg4 arg5 harg5 arg6 harg6 hf hl x0 x1 x2 xs)]
  unfold runL
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- and in the output block the logistic function of it. -/
theorem outL_eq (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S6144x128 .bf16) (x2 : Vec F S1024x128 .f32) (xs : Vec F S1024x128 .f32) :
    outL c i arg2 harg2 arg3 harg3 arg4 harg4 arg5 harg5 arg6 harg6 hf hl x0 x1 x2 xs = k8_pay3 (k8_pay2 x0 (panel i x1) xs) := by
  unfold outL
  rw [View.read_writes_eq_canon _ _ _ (coverO c i arg2 harg2 arg3 harg3 arg4 harg4 arg5 harg5 arg6 harg6 hf hl x0 x1 x2 xs)]
  unfold runL
  dsimp only
  sl_unfold_words
  rw [View.canon_unit_zero hz, View.readCov_unit_zero (S := S1024x128) _ hz]
  simp only [View.readAt_eq_ld, harg2.read_unread, harg3.read_unread, harg6.read_unread,
    View.ld_unit_zero (S := S1024x2048) hz, View.ld_unit_zero (S := S1024x128) hz]
  rfl

/-- A first tile copies the partial sum's block into the accumulator, then adds the tile's product. -/
theorem accF_eq (c : Dev nD) (i : grid8.Coords) (arg2 : Memref sig .tc .vmem S1024x2048 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i)
    (x0 : Vec F S1024x2048 .f32) (x1 : Vec F S6144x128 .bf16) (x2 : Vec F S1024x128 .f32) :
    accF c i arg2 harg2 arg3 harg3 arg4 harg4 arg5 harg5 arg6 harg6 hf hl x0 x1 x2 = k8_pay2 x0 (panel i x1) (k8_pay1 x2) := by
  unfold accF
  rw [View.read_writes_eq_canon _ _ _ (coverF c i arg2 harg2 arg3 harg3 arg4 harg4 arg5 harg5 arg6 harg6 hf hl x0 x1 x2)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x2048) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k8_pay1 v = v := by
  unfold k8_pay1
  simp only [shapeCast_self]

/-- The left operand's index of output `(p, q)` at contraction position `k` is `(p, k)`; -/
theorem lhsIdx_eq (p : Fin 1024) (q : Fin 128) (k : Fin 2048) :
    dot_S1024x2048_S2048x128_S1024x128_1_0_0_1_n_n.lhsIdx (ix2 p q)
      ((contrEquiv1 dot_S1024x2048_S2048x128_S1024x128_1_0_0_1_n_n 2048 rfl rfl).symm k) = ix2 p k := by
  have c2 := contrEquiv1_symm_val dot_S1024x2048_S2048x128_S1024x128_1_0_0_1_n_n 2048 rfl rfl k
  funext ax; apply Fin.ext
  match ax with
  | ⟨0, _⟩ => simp [DotDims.lhsIdx, dot_S1024x2048_S2048x128_S1024x128_1_0_0_1_n_n]; rfl
  | ⟨1, _⟩ => simp [DotDims.lhsIdx, dot_S1024x2048_S2048x128_S1024x128_1_0_0_1_n_n]; exact c2

/-- the right operand's is `(k, q)`. -/
theorem rhsIdx_eq (p : Fin 1024) (q : Fin 128) (k : Fin 2048) :
    dot_S1024x2048_S2048x128_S1024x128_1_0_0_1_n_n.rhsIdx (ix2 p q)
      ((contrEquiv1 dot_S1024x2048_S2048x128_S1024x128_1_0_0_1_n_n 2048 rfl rfl).symm k) = ix2 k q := by
  have c2 := contrEquiv1_symm_val dot_S1024x2048_S2048x128_S1024x128_1_0_0_1_n_n 2048 rfl rfl k
  funext ax; apply Fin.ext
  match ax with
  | ⟨0, _⟩ => simp [DotDims.rhsIdx, dot_S1024x2048_S2048x128_S1024x128_1_0_0_1_n_n]; exact c2
  | ⟨1, _⟩ => simp [DotDims.rhsIdx, dot_S1024x2048_S2048x128_S1024x128_1_0_0_1_n_n]; rfl

/-- One tile's update at `(p, q)`: the accumulator there plus the sum over the tile's 2048 contraction positions of
    the products (the narrowing of the left operand and the reshapes are identities on extended reals). -/
theorem pay2_apply (a : Vec Ideal S1024x2048 .f32) (b : Vec Ideal S2048x128 .bf16) (acc : Vec Ideal S1024x128 .f32)
    (p : Fin 1024) (q : Fin 128) :
    k8_pay2 (F := Ideal) a b acc (ix2 p q) = acc (ix2 p q) + ∑ k : Fin 2048, a (ix2 p k) * b (ix2 k q) := by
  unfold k8_pay2
  rw [shapeCast_self, shapeCast_self, addf_apply]
  simp only [matmul]
  rw [Ideal.matmul_constant_zero_apply,
    ← Equiv.sum_comp (contrEquiv1 dot_S1024x2048_S2048x128_S1024x128_1_0_0_1_n_n 2048 rfl rfl).symm]
  refine congrArg (acc (ix2 p q) + ·) (Finset.sum_congr rfl fun k _ => ?_)
  rw [lhsIdx_eq, rhsIdx_eq]
  rfl

/-- The stored output at `(p, q)`: the logistic function of the accumulator there. -/
theorem pay3_apply (acc : Vec Ideal S1024x128 .f32) (p : Fin 1024) (q : Fin 128) :
    k8_pay3 (F := Ideal) acc (ix2 p q) = Ideal.logistic (acc (ix2 p q)) := by
  unfold k8_pay3
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 2 × 3 grid is tile `t % 3` of row tile `t / 3`: the block indices of the four windows there. -/
theorem idx_facts : ∀ t : Fin cfg8.N,
    win8_0.index t 0 = t.val / 3 ∧ win8_0.index t 1 = t.val % 3
    ∧ win8_1.index t 0 = 0 ∧ win8_1.index t 1 = 0
    ∧ win8_2.index t 0 = t.val / 3 ∧ win8_2.index t 1 = 0
    ∧ win8_3.index t 0 = t.val / 3 ∧ win8_3.index t 1 = 0
    ∧ (grid8.coords t 1).val = t.val % 3 :=
  (by decide +kernel : ∀ t : Fin grid8.N,
    win8_0.index t 0 = t.val / 3 ∧ win8_0.index t 1 = t.val % 3
    ∧ win8_1.index t 0 = 0 ∧ win8_1.index t 1 = 0
    ∧ win8_2.index t 0 = t.val / 3 ∧ win8_2.index t 1 = 0
    ∧ win8_3.index t 0 = t.val / 3 ∧ win8_3.index t 1 = 0
    ∧ (grid8.coords t 1).val = t.val % 3)

/-- The left operand's block at point `t`: rows `1024 (t / 3) …`, columns `2048 (t % 3) …` of the array. -/
theorem blkA_apply (c : Dev nD) (t : Fin cfg8.N) (x : S1024x2048.Idx) (y : S2048x6144.Idx)
    (h0 : (y 0).val = t.val / 3 * 1024 + (x 0).val) (h1 : (y 1).val = t.val % 3 * 2048 + (x 1).val) :
    (iblk V c 0 t : Vec F S1024x2048 .f32) x = (V c main_arg4 : S2048x6144.Idx → Elt F .f32) y := by
  obtain ⟨i0, i1, -⟩ := idx_facts t
  unfold iblk
  rw [View.read_apply]
  show V c main_arg4 _ = V c main_arg4 _
  congr 1
  funext a
  apply Fin.ext
  match a with
  | ⟨0, _⟩ => show win8_0.index t 0 * 1024 + 1 * (x 0).val = (y 0).val; rw [i0, h0]; omega
  | ⟨1, _⟩ => show win8_0.index t 1 * 2048 + 1 * (x 1).val = (y 1).val; rw [i1, h1]; omega

/-- The right operand's block is the whole array at every point. -/
theorem blkB_apply (c : Dev nD) (t : Fin cfg8.N) (x : S6144x128.Idx) :
    (iblk V c 1 t : Vec F S6144x128 .bf16) x = (V c main_v52 : S6144x128.Idx → Elt F .bf16) x := by
  obtain ⟨-, -, i0, i1, -⟩ := idx_facts t
  unfold iblk
  rw [View.read_apply]
  show V c main_v52 _ = V c main_v52 _
  congr 1
  funext a
  apply Fin.ext
  match a with
  | ⟨0, _⟩ => show win8_1.index t 0 * 6144 + 1 * (x 0).val = (x 0).val; rw [i0]; omega
  | ⟨1, _⟩ => show win8_1.index t 1 * 128 + 1 * (x 1).val = (x 1).val; rw [i1]; omega

/-- The partial sum's block at point `t`: rows `1024 (t / 3) …` of the array. -/
theorem blkP_apply (c : Dev nD) (t : Fin cfg8.N) (x : S1024x128.Idx) (y : S2048x128.Idx)
    (h0 : (y 0).val = t.val / 3 * 1024 + (x 0).val) (h1 : (y 1).val = (x 1).val) :
    (iblk V c 2 t : Vec F S1024x128 .f32) x = (V c main_v63 : S2048x128.Idx → Elt F .f32) y := by
  obtain ⟨-, -, -, -, i0, i1, -⟩ := idx_facts t
  unfold iblk
  rw [View.read_apply]
  show V c main_v63 _ = V c main_v63 _
  congr 1
  funext a
  apply Fin.ext
  match a with
  | ⟨0, _⟩ => show win8_2.index t 0 * 1024 + 1 * (x 0).val = (y 0).val; rw [i0, h0]; omega
  | ⟨1, _⟩ => show win8_2.index t 1 * 128 + 1 * (x 1).val = (y 1).val; rw [i1, h1]; omega

/-- The rows a tile loads of the right operand: row `k` of the tile is row `2048 i₁ + k` of the panel. -/
theorem panel_apply (i : grid8.Coords) (x1 : Vec F S6144x128 .bf16) (x : S2048x128.Idx) (y : S6144x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k8_off1 i 0 + 1 * (x 0).val = (y 0).val; rw [k8_off1_eq i, h0]; show 2048 * (i 1).val + 1 * (x 0).val = _; omega
  | ⟨1, _⟩ => show k8_off1 i 1 + 1 * (x 1).val = (y 1).val; rw [k8_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The three input blocks at point `t`, as vectors of their literal shapes. -/
abbrev blkA (c : Dev nD) (t : Fin cfg8.N) : Vec Ideal S1024x2048 .f32 := iblk V c 0 t
abbrev blkB (c : Dev nD) (t : Fin cfg8.N) : Vec Ideal S6144x128 .bf16 := iblk V c 1 t
abbrev blkP (c : Dev nD) (t : Fin cfg8.N) : Vec Ideal S1024x128 .f32 := iblk V c 2 t

/-- The update of any tile at `(p, q)`, over the point's blocks: what the accumulator held plus the tile's 2048 products. -/
theorem tile_apply (c : Dev nD) (t : Fin cfg8.N) (xs : Vec Ideal S1024x128 .f32) (p : Fin 1024) (q : Fin 128) :
    k8_pay2 (F := Ideal) (blkA V c t) (panel (grid8.coords t) (blkB V c t)) xs (ix2 p q)
      = xs (ix2 p q) + ∑ k : Fin 2048, blkA V c t (ix2 p k)
          * panel (grid8.coords t) (blkB V c t) (ix2 k q) :=
  pay2_apply (blkA V c t) (panel (grid8.coords t) (blkB V c t)) xs p q

/-- After the first tile of a row the accumulator at `(p, q)` is the partial sum's block there plus the tile's products. -/
theorem accAt_first (c : Dev nD) (t : Fin cfg8.N) (h0 : t.val % 3 = 0) (p : Fin 1024) (q : Fin 128) :
    accAt V c t.val t.isLt (ix2 p q)
      = blkP V c t (ix2 p q) + ∑ k : Fin 2048, blkA V c t (ix2 p k)
          * panel (grid8.coords t) (blkB V c t) (ix2 k q) := by
  refine (congrFun (accAt_F V c t h0) (ix2 p q)).trans ?_
  refine (congrFun (accF_eq (F := Ideal) c (grid8.coords t) (mA t) (hA t) (mB t) (hB t) (mP t) (hP t) (mO t) (hO t) mAcc
    (Memref.isWhole_whole _) _ _ (iblk V c 0 t) (iblk V c 1 t) (iblk V c 2 t)) (ix2 p q)).trans ?_
  refine (tile_apply V c t (k8_pay1 (iblk V c 2 t)) p q).trans ?_
  exact congrArg (· + _) (congrFun (pay1_eq (F := Ideal) (iblk V c 2 t)) (ix2 p q))

/-- After a later tile it is what the tile before left there plus the tile's products. -/
theorem accAt_later (c : Dev nD) (t : Fin cfg8.N) (h0 : ¬ t.val % 3 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 p k)
          * panel (grid8.coords t) (blkB V c t) (ix2 k q) := by
  by_cases h2 : t.val % 3 = 2
  · refine (congrFun (accAt_L V c t h0 h2) (ix2 p q)).trans ?_
    refine (congrFun (accL_eq (F := Ideal) c (grid8.coords t) (mA t) (hA t) (mB t) (hB t) (mP t) (hP t) (mO t) (hO t) mAcc
      (Memref.isWhole_whole _) _ _ (iblk V c 0 t) (iblk V c 1 t) (iblk V c 2 t)
      (accAt V c (t.val - 1) (Nat.lt_of_le_of_lt (Nat.sub_le _ _) t.isLt))) (ix2 p q)).trans ?_
    exact tile_apply V c t _ p q
  · refine (congrFun (accAt_M V c t h0 h2) (ix2 p q)).trans ?_
    refine (congrFun (accM_eq (F := Ideal) c (grid8.coords t) (mA t) (hA t) (mB t) (hB t) (mP t) (hP t) (mO t) (hO t) mAcc
      (Memref.isWhole_whole _) _ _ (iblk V c 0 t) (iblk V c 1 t) (iblk V c 2 t)
      (accAt V c (t.val - 1) (Nat.lt_of_le_of_lt (Nat.sub_le _ _) t.isLt))) (ix2 p q)).trans ?_
    exact tile_apply V c t _ p q

/-- The output block after the last tile of a row is the logistic function of the finished accumulator. -/
theorem outAt_apply (c : Dev nD) (t : Fin cfg8.N) (h2 : t.val % 3 = 2) (p : Fin 1024) (q : Fin 128) :
    outAt V c t (ix2 p q) = Ideal.logistic (accAt V c t.val t.isLt (ix2 p q)) := by
  have h0 : ¬ t.val % 3 = 0 := by omega
  have eL := accL_eq (F := Ideal) c (grid8.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  have eO := outL_eq (F := Ideal) c (grid8.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  unfold outAt
  rw [dif_pos h2]
  refine (congrFun eO (ix2 p q)).trans ?_
  refine (pay3_apply _ p q).trans ?_
  rw [accAt_L V c t h0 h2]
  exact congrArg Ideal.logistic (congrFun eL.symm (ix2 p q))

end value

/-! ## The running sum along a row of tiles, and the result array -/

section total

open Idealize.ShloMosaic.ValueIdx Finset

variable (V : (c : Dev nD) → (b : Ref sig .tc) → Buf (Elt Ideal) ((c : Thread nD τ).loc b))

/-- The three arrays the region reads, as it finds them: the left operand f32[2048, 6144], the right operand
    bf16[6144, 128] and the partial sum f32[2048, 128], as functions into the extended reals. -/
abbrev arrA (c : Dev nD) : S2048x6144.Idx → EReal := V c main_arg4
abbrev arrB (c : Dev nD) : S6144x128.Idx → EReal := V c main_v52
abbrev arrP (c : Dev nD) : S2048x128.Idx → EReal := V c main_v63

/-- For row `r` and column `q` of the result, the product at contraction position `k` (zero past the end of the
    axis, so that partial sums may range over initial segments of ℕ). -/
def term (c : Dev nD) (r : Fin 2048) (q : Fin 128) (k : ℕ) : EReal :=
  if h : k < 6144 then arrA V c (ix2 r ⟨k, h⟩) * arrB V c (ix2 ⟨k, h⟩ q)
  else 0

theorem rowOf_lt (n : ℕ) (hn : n < cfg8.N) (p : Fin 1024) : n / 3 * 1024 + p.val < 2048 := by
  have hN : cfg8.N = 6 := N_8
  have := p.isLt
  omega

/-- Row `p` of the block of row tile `n / 3` is row `1024 (n / 3) + p` of the array. -/
abbrev rowOf (n : ℕ) (hn : n < cfg8.N) (p : Fin 1024) : Fin 2048 := ⟨n / 3 * 1024 + p.val, rowOf_lt n hn p⟩

/-- The products of tile `t % 3` of a row are the terms at positions `2048 (t % 3) … 2048 (t % 3) + 2047`. -/
theorem tile_sum (c : Dev nD) (t : Fin cfg8.N) (p : Fin 1024) (q : Fin 128) :
    ∑ k : Fin 2048, blkA V c t (ix2 p k) * panel (grid8.coords t) (blkB V c t) (ix2 k q)
      = ∑ k ∈ range 2048, term V c (rowOf t.val t.isLt p) q (t.val % 3 * 2048 + k) := by
  rw [← Fin.sum_univ_eq_sum_range (fun k => term V c (rowOf t.val t.isLt p) q (t.val % 3 * 2048 + k)) 2048]
  refine Finset.sum_congr rfl fun k _ => ?_
  have hk : t.val % 3 * 2048 + k.val < 6144 := by have := k.isLt; omega
  obtain ⟨-, -, -, -, -, -, -, -, hc⟩ := idx_facts t
  have eA : blkA V c t (ix2 p k) = arrA V c (ix2 (rowOf t.val t.isLt p) ⟨_, hk⟩) :=
    blkA_apply V c t (ix2 p k) (ix2 (rowOf t.val t.isLt p) ⟨_, hk⟩) rfl rfl
  have eB : panel (grid8.coords t) (blkB V c t) (ix2 k q) = arrB V c (ix2 ⟨_, hk⟩ q) := by
    refine (panel_apply (grid8.coords t) (blkB V c t) (ix2 k q) (ix2 ⟨_, hk⟩ q) ?_ rfl).trans ?_
    · show t.val % 3 * 2048 + k.val = 2048 * (grid8.coords t 1).val + k.val
      rw [hc]; omega
    · exact blkB_apply V c t (ix2 ⟨_, hk⟩ q)
  unfold term
  rw [dif_pos hk, eA, eB]

/-- THE INVARIANT: after tile `n % 3` of its row the accumulator at `(p, q)` holds the partial sum's entry plus the
    terms of the tiles `0 … n % 3`, by induction along the grid (sums regrouped by associativity only). -/
theorem accAt_apply (c : Dev nD) (n : ℕ) : ∀ (hn : n < cfg8.N) (p : Fin 1024) (q : Fin 128),
    accAt V c n hn (ix2 p q) = arrP V c (ix2 (rowOf n hn p) q)
      + ∑ k ∈ range ((n % 3 + 1) * 2048), term V c (rowOf n hn p) q k := by
  induction n using Nat.strong_induction_on with
  | _ n ih =>
    intro hn p q
    by_cases h0 : n % 3 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 2048, term V c (rowOf n hn p) q (n % 3 * 2048 + k) = _
      rw [h0]
      simp only [Nat.zero_mul, Nat.zero_add, Nat.one_mul]
    · have hpos : n - 1 < n := by omega
      have hn' : n - 1 < cfg8.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 3 * 1024 + p.val = n / 3 * 1024 + p.val; omega)
      rw [hr] at e
      show accAt V c (n - 1) _ (ix2 p q) + ∑ k ∈ range 2048, term V c (rowOf n hn p) q (n % 3 * 2048 + k) = _
      rw [e, add_assoc]
      congr 1
      have hs : (n % 3 + 1) * 2048 = ((n - 1) % 3 + 1) * 2048 + 2048 := by omega
      have hm : n % 3 * 2048 = ((n - 1) % 3 + 1) * 2048 := by omega
      rw [hs, Finset.sum_range_add, hm]

/-- All three tiles' terms are the whole contraction. -/
theorem range_sum_eq (c : Dev nD) (r : Fin 2048) (q : Fin 128) :
    ∑ k ∈ range 6144, term V c r q k
      = ∑ k : Fin 6144, arrA V c (ix2 r k) * arrB V c (ix2 k q) := by
  rw [← Fin.sum_univ_eq_sum_range (fun k => term V c r q k) 6144]
  refine Finset.sum_congr rfl fun k _ => ?_
  unfold term
  rw [dif_pos k.isLt]

/-- THE RESULT, entry by entry: the logistic function of the partial sum's entry plus the whole contraction. -/
def G (c : Dev nD) : S2048x128.Idx → EReal := fun i =>
  Ideal.logistic (arrP V c i
    + ∑ k : Fin 6144, arrA V c (ix2 (i 0) k) * arrB V c (ix2 k (i 1)))

/-- The output block after the last tile of row tile `t / 3` is rows `1024 (t / 3) …` of the result. -/
theorem outAt_eq_G (c : Dev nD) (t : Fin cfg8.N) (h2 : t.val % 3 = 2) (j : S1024x128.Idx) (y : S2048x128.Idx)
    (h0 : (y 0).val = t.val / 3 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show Ideal.logistic (_ + ∑ k ∈ range 6144, term V c (rowOf t.val t.isLt p) q k) = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg8.N) (hf : (cfg8.win 3).flush t = true) :
    (dat V c).flushed 3 t = ((cfg8.win 3).blk t).view.read (Elt Ideal) (G V c) := by
  have h2 : t.val % 3 = 2 := (flush8_3 t).mp hf
  obtain ⟨-, -, -, -, -, -, e0, e1, -⟩ := idx_facts t
  show (cfg8.win 3).cut (grid8.coords t) ((dat V c).after 3 t) = _
  rw [after_3]
  funext j
  rw [View.read_apply]
  refine outAt_eq_G V c t h2 ((cfg8.win 3).xinj (grid8.coords t) j) (((cfg8.win 3).blk t).view.emb j) ?_ ?_
  · show win8_3.index t 0 * 1024 + 1 * (j 0).val = t.val / 3 * 1024 + (j 0).val
    rw [e0]; omega
  · show win8_3.index t 1 * 128 + 1 * (j 1).val = (j 1).val
    rw [e1]; omega

/-- An index of the result array is in point `t`'s block iff each coordinate is in the block's range on its axis. -/
theorem mem_blk (t : Fin cfg8.N) (i : S2048x128.Idx) :
    i ∈ ((cfg8.win 3).blk t).view.set ↔ ∀ a : Fin 2, win8_3.index t a * S1024x128.size a ≤ (i a).val
      ∧ (i a).val < win8_3.index t a * S1024x128.size a + S1024x128.size a := by
  show i ∈ ((View.whole main_v64).slice (win8_3.rect t)).set ↔ _
  rw [View.set_slice_whole, Rect.mem_set_unit]
  exact Iff.rfl

/-- Row `r` of the result is written back by the last tile of row tile `r / 1024`. -/
theorem cover (i : S2048x128.Idx) :
    ∃ t : Fin cfg8.N, (cfg8.win 3).flush t = true ∧ i ∈ ((cfg8.win 3).blk t).view.set := by
  have hN : cfg8.N = 6 := N_8
  have hi0 : (i 0).val < 2048 := (i 0).isLt
  have hi1 : (i 1).val < 128 := (i 1).isLt
  obtain ⟨t, ht⟩ : ∃ t : Fin cfg8.N, t.val = 3 * ((i 0).val / 1024) + 2 := ⟨⟨3 * ((i 0).val / 1024) + 2, by omega⟩, rfl⟩
  obtain ⟨-, -, -, -, -, -, e0, e1, -⟩ := idx_facts t
  refine ⟨t, (flush8_3 t).mpr (by omega), ?_⟩
  rw [mem_blk]
  intro a
  match a with
  | ⟨0, _⟩ =>
    show win8_3.index t 0 * 1024 ≤ (i 0).val ∧ (i 0).val < win8_3.index t 0 * 1024 + 1024
    rw [e0]; omega
  | ⟨1, _⟩ =>
    show win8_3.index t 1 * 128 ≤ (i 1).val ∧ (i 1).val < win8_3.index t 1 * 128 + 128
    rw [e1]; omega

/-- So the result array ends holding `G`. -/
theorem result_eq (c : Dev nD) : (dat V c).arrAt 3 cfg8.N = G V c :=
  (dat V c).arrAt_eq_of_cover 3 (G V c) (flushed_eq V c) cover

/-- THE RESULT ARRAY AT AN INDEX: `logistic (P r q + ∑ k, A r k · B k q)` over the whole contraction axis of 6144. -/
theorem result_apply (c : Dev nD) (r : Fin 2048) (q : Fin 128) :
    ((Region8.dat (F := Ideal) V c).arrAt 3 cfg8.N) (ix2 r q)
      = Ideal.logistic (arrP V c (ix2 r q) + ∑ k : Fin 6144, arrA V c (ix2 r k) * arrB V c (ix2 k q)) := by
  rw [result_eq V c]
  rfl

end array

end Cert.KernelIdeal.Value8

end
-- ==== Proof.KernelIdeal.Value9.lean ====
/-
  The value of region 9's result array (the second layer's counterpart of region 2: the same kernel and grid), over the extended reals. The region multiplies the TRANSPOSE of a
  2048 × 6144 array by a 2048 × 128 array in six row tiles of 1024 rows of the result, the whole contraction axis
  in one tile: at each grid point the body zeroes its accumulator, adds the product — contracting the FIRST axis of
  the point's 2048 × 1024 block of the first array, a block of 1024 of its columns — with the whole second array,
  and stores the accumulator into the point's 1024 × 128 block of the result. Over the extended reals a change of
  float format is the identity and the product is exact, so that block holds, at (p, q), the sum over k of the
  first block's (k, p) times the second array's (k, q); column p of column tile i of the first array is its column
  1024 i + p; the six blocks tile the result; hence entry (r, q) of the result is the sum over k of the first
  array's (k, r) times the second's (k, q).
-/
import proofs.«108146_j77455440216408_2_alg».proof.Proof.KernelIdeal.Region9
import Idealize.ShloMosaic.Lib.Pipeline.Value
import Idealize.ShloMosaic.Lib.ValueIdx
import Idealize.ShloMosaic.PureOps.Ideal
import Idealize.ShloMosaic.PureOps.Ideal.Laws
import Idealize.ShloMosaic.Lib.Tactic

set_option maxRecDepth 16384

noncomputable section

namespace Cert.KernelIdeal.Value9

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-- The contraction axis has one tile, so the row offset at which the body loads the second operand's block,
    2048 times the contraction coordinate, is zero. -/
theorem off_zero (i : grid9.Coords) :
    (![BitVec.toNat (Scalar.indexCast (Scalar.muli (BitVec.ofNat 32 (i 1).val) 2048#32)), 0] : Fin 2 → Nat) = fun _ => 0 := by
  have h1 : (i 1).val = 0 := Nat.lt_one_iff.mp (i 1).isLt
  rw [h1]
  funext a; fin_cases a <;> rfl

/-- What the body leaves in the output block, from input blocks `x0`, `x1`: the accumulator, zeroed and then
    increased by the product of the two blocks — the one store that covers the output block carries the
    accumulator read back, itself the later of two whole-block stores. -/
theorem out_eq (c : Dev nD) (i : grid9.Coords)
    (arg2 : Memref sig .tc .vmem S2048x1024 .f32) (harg2 : arg2.IsWhole)
    (arg3 : Memref sig .tc .vmem S2048x128 .bf16) (harg3 : arg3.IsWhole)
    (arg4 : Memref sig .tc .vmem S1024x128 .f32) (harg4 : arg4.IsWhole)
    (arg5 : Memref sig .tc .vmem S1024x128 .f32) (harg5 : arg5.IsWhole)
    (hf : Region9.isFirst i) (hl : Region9.isLast i)
    (x0 : Vec F S2048x1024 .f32) (x1 : Vec F S2048x128 .bf16) :
    Region9.out c i arg2 harg2 arg3 harg3 arg4 harg4 arg5 harg5 hf hl x0 x1 = k9_pay2 x0 x1 (k9_pay1 (F := F)) := by
  unfold Region9.out
  rw [View.read_writes_eq_canon _ _ _ (Region9.cover_out c i arg2 harg2 arg3 harg3 arg4 harg4 arg5 harg5 hf hl x0 x1)]
  unfold Region9.run
  dsimp only
  sl_unfold_words
  rw [View.canon_unit_zero hz]
  simp only [View.readAt_eq_ld, harg2.read_unread, harg3.read_unread, View.ld_unit_zero (S := S2048x1024) hz]
  rw [View.readCov_cons_toLoadRect, View.readCov_cons_toLoadRect]
  exact congrArg (fun v => k9_pay2 x0 v (k9_pay1 (F := F))) (View.ld_unit_zero (S := S2048x128) (off_zero i) _ x1)

/-! ## The payload at an index, over the extended reals -/

local notation "D2" => dot_S2048x1024_S2048x128_S1024x128_0_0_1_1_n_n

/-- The product contracts the left operand's FIRST axis: at result index (p, q) and contraction position k the
    left operand is read at (k, p) — its row is the contraction position, its column the result's row. -/
theorem lhs_at (p : Fin 1024) (q : Fin 128) (k : Fin 2048) :
    DotDims.lhsIdx D2 (ix2 p q) ((contrEquiv1 D2 2048 rfl rfl).symm k) = ix2 k p := by
  funext a
  apply Fin.ext
  match a with
  | ⟨0, _⟩ => exact (DotDims.lhsIdx_val_of_single D2 rfl (ix2 p q) _).trans (contrEquiv1_symm_val D2 2048 rfl rfl k)
  | ⟨1, _⟩ => rfl

/-- The right operand is read at (k, q). -/
theorem rhs_at (p : Fin 1024) (q : Fin 128) (k : Fin 2048) :
    DotDims.rhsIdx D2 (ix2 p q) ((contrEquiv1 D2 2048 rfl rfl).symm k) = ix2 k q := by
  funext a
  apply Fin.ext
  match a with
  | ⟨0, _⟩ => exact (DotDims.rhsIdx_val_of_single D2 rfl (ix2 p q) _).trans (contrEquiv1_symm_val D2 2048 rfl rfl k)
  | ⟨1, _⟩ => rfl

/-- Over the extended reals the change of format is the identity and the product is exact, so the zeroed
    accumulator increased by the product of the transposed first block with the second holds, at (p, q), the sum
    over k of `x0 (k, p) * x1 (k, q)`. -/
theorem pay_apply (x0 : Vec Ideal S2048x1024 .f32) (x1 : Vec Ideal S2048x128 .bf16) (p : Fin 1024) (q : Fin 128) :
    k9_pay2 (F := Ideal) x0 x1 (k9_pay1 (F := Ideal)) (ix2 p q) = ∑ k : Fin 2048, x0 (ix2 k p) * x1 (ix2 k q) := by
  unfold k9_pay2 k9_pay1
  simp only [shapeCast_self]
  rw [addf_apply, broadcast_apply]
  simp only [Ideal.matmul_constant_zero_apply]
  rw [show (FloatOps.ofBits (F := Ideal) .f32 0x00000000#32 : EReal) = 0 from Ideal.ofBits_zero_f32, zero_add,
    ← Equiv.sum_comp (contrEquiv1 D2 2048 rfl rfl).symm]
  refine Finset.sum_congr rfl fun k _ => ?_
  rw [truncf_apply, lhs_at, rhs_at]

/-! ## From blocks to the array -/

variable (V : (c : Dev nD) → (b : Ref sig .tc) → Buf (Elt Ideal) ((c : Thread nD τ).loc b))

/-- The product of the transpose of a 2048 × 6144 array with a 2048 × 128 array, entry by entry. -/
def prod (A : S2048x6144.Idx → EReal) (B : S2048x128.Idx → EReal) : S6144x128.Idx → EReal :=
  fun j => ∑ k : Fin 2048, A (ix2 k (j 0)) * B (ix2 k (j 1))

/-- The index maps over the grid: the first operand's row tile is the first and its COLUMN tile the output's row
    tile; the second operand is one block; the output's row tile is below 6 and its column tile the first. -/
theorem idx_facts : ∀ t : Fin cfg9.N, win9_0.index t (0 : Fin 2) = 0
    ∧ win9_0.index t (1 : Fin 2) = win9_2.index t (0 : Fin 2)
    ∧ win9_1.index t (0 : Fin 2) = 0
    ∧ win9_1.index t (1 : Fin 2) = 0
    ∧ win9_2.index t (0 : Fin 2) ≤ 5
    ∧ win9_2.index t (1 : Fin 2) = 0 :=
  (by decide +kernel : ∀ t : Fin grid9.N, _)

/-- Every row tile of the output is some point's. -/
theorem idx_onto : ∀ q0 : Fin 6, ∃ t : Fin cfg9.N, win9_2.index t = ![q0.val, 0] :=
  (by decide +kernel : ∀ q0 : Fin 6, ∃ t : Fin grid9.N, win9_2.index t = ![q0.val, 0])

/-- The first operand's block at point `t`: entry (k, p) is the array's entry in row k, column
    1024 · (the point's row tile of the output) + p. -/
theorem iblk0_apply (c : Dev nD) (t : Fin cfg9.N) (x : S2048x1024.Idx) (i : S2048x6144.Idx)
    (h0 : (i 0).val = (x 0).val) (h1 : (i 1).val = win9_2.index t (0 : Fin 2) * 1024 + (x 1).val) :
    (Region9.iblk V c 0 t : Vec Ideal S2048x1024 .f32) x = (V c main_arg3 : S2048x6144.Idx → EReal) i := by
  obtain ⟨e0, e1, -, -, -, -⟩ := idx_facts t
  unfold Region9.iblk
  rw [View.read_apply]
  show V c main_arg3 _ = V c main_arg3 _
  congr 1
  funext a
  apply Fin.ext
  match a with
  | ⟨0, _⟩ => show win9_0.index t (0 : Fin 2) * 2048 + 1 * (x 0).val = (i 0).val; rw [e0, h0]; omega
  | ⟨1, _⟩ => show win9_0.index t (1 : Fin 2) * 1024 + 1 * (x 1).val = (i 1).val; rw [e1, h1]; omega

/-- The second operand's one block is its array. -/
theorem iblk1_apply (c : Dev nD) (t : Fin cfg9.N) (x : S2048x128.Idx) (i : S2048x128.Idx)
    (h0 : (i 0).val = (x 0).val) (h1 : (i 1).val = (x 1).val) :
    (Region9.iblk V c 1 t : Vec Ideal S2048x128 .bf16) x = (V c main_v54 : S2048x128.Idx → EReal) i := by
  obtain ⟨-, -, e2, e3, -, -⟩ := idx_facts t
  unfold Region9.iblk
  rw [View.read_apply]
  show V c main_v54 _ = V c main_v54 _
  congr 1
  funext a
  apply Fin.ext
  match a with
  | ⟨0, _⟩ => show win9_1.index t (0 : Fin 2) * 2048 + 1 * (x 0).val = (i 0).val; rw [e2, h0]; omega
  | ⟨1, _⟩ => show win9_1.index t (1 : Fin 2) * 128 + 1 * (x 1).val = (i 1).val; rw [e3, h1]; omega

/-- What point `t` writes back is block `t` of that product of the two arrays as the region finds them. -/
theorem flushed_eq (c : Dev nD) (t : Fin cfg9.N) :
    (Region9.dat V c).flushed 2 t
      = ((cfg9.win 2).blk t).view.read (Elt Ideal) (prod (V c main_arg3) (V c main_v54)) := by
  show (cfg9.win 2).cut (grid9.coords t) ((Region9.dat V c).after 2 t) = _
  rw [Region9.after_2, out_eq]
  obtain ⟨-, -, -, -, -, e5⟩ := idx_facts t
  funext j
  obtain ⟨p, q, rfl⟩ : ∃ (p : Fin 1024) (q : Fin 128), j = ix2 p q := ⟨j 0, j 1, eq_ix2 j⟩
  rw [View.read_apply]
  refine (pay_apply (Region9.iblk V c 0 t) (Region9.iblk V c 1 t) p q).trans ?_
  unfold prod
  refine Finset.sum_congr rfl fun k _ => ?_
  have r0 : ((((cfg9.win 2).blk t).view.emb (ix2 p q)) 0).val = win9_2.index t (0 : Fin 2) * 1024 + p.val := by
    show win9_2.index t (0 : Fin 2) * 1024 + 1 * p.val = _; omega
  have r1 : ((((cfg9.win 2).blk t).view.emb (ix2 p q)) 1).val = q.val := by
    show win9_2.index t (1 : Fin 2) * 128 + 1 * q.val = _; rw [e5]; omega
  rw [iblk0_apply V c t (ix2 k p) (ix2 k ((((cfg9.win 2).blk t).view.emb (ix2 p q)) 0)) rfl r0,
    iblk1_apply V c t (ix2 k q) (ix2 k ((((cfg9.win 2).blk t).view.emb (ix2 p q)) 1)) rfl r1]

/-- An index of the result array is in point `t`'s block iff each coordinate is in the block's range. -/
theorem mem_blk (t : Fin cfg9.N) (i : S6144x128.Idx) :
    i ∈ ((cfg9.win 2).blk t).view.set ↔ ∀ a : Fin 2, win9_2.index t a * S1024x128.size a ≤ (i a).val ∧ (i a).val < win9_2.index t a * S1024x128.size a + S1024x128.size a := by
  show i ∈ ((View.whole main_v65).slice (win9_2.rect t)).set ↔ _
  rw [View.set_slice_whole, Rect.mem_set_unit]
  exact Iff.rfl

/-- Row r of the result lies in the block of the point whose row tile is r / 1024; every point writes back. -/
theorem cover (i : S6144x128.Idx) :
    ∃ t : Fin cfg9.N, (cfg9.win 2).flush t = true ∧ i ∈ ((cfg9.win 2).blk t).view.set := by
  have hi0 : (i 0).val < 6144 := (i 0).isLt
  have hi1 : (i 1).val < 128 := (i 1).isLt
  obtain ⟨t, ht⟩ := idx_onto ⟨(i 0).val / 1024, by omega⟩
  have q0 : win9_2.index t (0 : Fin 2) = (i 0).val / 1024 := congrFun ht 0
  have q1 : win9_2.index t (1 : Fin 2) = 0 := congrFun ht 1
  refine ⟨t, flush9_2 t, ?_⟩
  rw [mem_blk]
  intro a
  match a with
  | ⟨0, _⟩ => show win9_2.index t (0 : Fin 2) * 1024 ≤ (i 0).val ∧ (i 0).val < win9_2.index t (0 : Fin 2) * 1024 + 1024; omega
  | ⟨1, _⟩ => show win9_2.index t (1 : Fin 2) * 128 ≤ (i 1).val ∧ (i 1).val < win9_2.index t (1 : Fin 2) * 128 + 128; omega

/-- The result array after the region is that product of the two arrays as the region finds them. -/
theorem final (c : Dev nD) : (Region9.dat V c).arrAt 2 cfg9.N = prod (V c main_arg3) (V c main_v54) :=
  (Region9.dat V c).arrAt_eq_of_cover 2 (prod (V c main_arg3) (V c main_v54)) (fun t _ => flushed_eq V c t) cover

/-- The region's arrays at their literal index types: the two operands as the region finds them, and the result
    after the region. -/
abbrev lhsArr (c : Dev nD) : S2048x6144.Idx → EReal := V c main_arg3
abbrev rhsArr (c : Dev nD) : S2048x128.Idx → EReal := V c main_v54
abbrev resArr (c : Dev nD) : S6144x128.Idx → EReal := (Region9.dat (F := Ideal) V c).arrAt 2 cfg9.N

/-- Entry (r, q) of the result: the sum over k of the first array's (k, r) — read transposed — times the
    second's (k, q). -/
theorem result_apply (c : Dev nD) (r : Fin 6144) (q : Fin 128) :
    resArr V c (ix2 r q) = ∑ k : Fin 2048, lhsArr V c (ix2 k r) * rhsArr V c (ix2 k q) :=
  congrFun (final V c) (ix2 r q)

end Cert.KernelIdeal.Value9

end
-- ==== Proof.KernelIdeal.Value10.lean ====
/-
  Region 10's result array (the second layer's counterpart of region 3: the same kernel and grid), entry by entry, over the extended reals:

      result (r, q) = P (r, q) + ∑ k < 6144, (A₁ (r, k) + A₂ (r, k)) · B (k, q)

  for the two left operands A₁, A₂ : f32[6144, 6144], the right operand B : bf16[6144, 128] and the partial sum
  P : f32[6144, 128]. The grid is 6 × 6: row tiles of 1024 rows, and along the contraction axis six tiles of 1024
  positions. Within a row tile the accumulator starts from P's block, takes the products of one tile after the other
  (each tile adds its two left blocks entry by entry before multiplying), and after the sixth tile it is stored and
  written back. The steps: what each case of the body leaves is its arithmetic applied to the blocks it read; that
  arithmetic at an entry (narrowing a float format and reshaping to the same shape are identities, the matrix product
  of a tile is the sum of 1024 products); the blocks as parts of the arrays; the running sum along a row tile by
  induction over the grid, regrouped by associativity of + alone (the extended reals do not cancel); and the result
  array from the blocks written back, which tile it.
-/
import proofs.«108146_j77455440216408_2_alg».proof.Proof.KernelIdeal.Region10
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value10

open Cert.KernelIdeal Cert.KernelIdeal.Gen Cert.KernelIdeal.Region10
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 1024 rows from row `1024 * i₁`. -/
abbrev panel (i : grid10.Coords) (x2 : Vec F S6144x128 .bf16) : Vec F S1024x128 .bf16 :=
  View.ld x2 (Rect.unit (s := S6144x128) (k10_off1 i) S1024x128.size (k10_off1_inb i))

/-- A middle tile leaves, in the accumulator holding `xs`, `xs` plus the tile's product. -/
theorem accM_eq (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : ¬ isLast i)
    (x0 : Vec F S1024x1024 .f32) (x1 : Vec F S1024x1024 .f32) (x2 : Vec F S6144x128 .bf16) (x3 : Vec F S1024x128 .f32) (xs : Vec F S1024x128 .f32) :
    accM c i arg2 harg2 arg3 harg3 arg4 harg4 arg5 harg5 arg6 harg6 arg7 harg7 hf hl x0 x1 x2 x3 xs = k10_pay2 x0 x1 (panel i x2) xs := by
  unfold accM
  rw [View.read_writes_eq_canon _ _ _ (coverM c i arg2 harg2 arg3 harg3 arg4 harg4 arg5 harg5 arg6 harg6 arg7 harg7 hf hl x0 x1 x2 x3 xs)]
  unfold runM
  dsimp only
  sl_unfold_words
  rw [View.canon_unit_zero hz]
  simp only [View.readAt_eq_ld, harg2.read_unread, harg3.read_unread, harg4.read_unread, harg7.read_unread,
    View.ld_unit_zero (S := S1024x1024) hz, View.ld_unit_zero (S := S1024x128) hz]
  rfl

/-- A last tile leaves the same in the accumulator, -/
theorem accL_eq (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i)
    (x0 : Vec F S1024x1024 .f32) (x1 : Vec F S1024x1024 .f32) (x2 : Vec F S6144x128 .bf16) (x3 : Vec F S1024x128 .f32) (xs : Vec F S1024x128 .f32) :
    accL c i arg2 harg2 arg3 harg3 arg4 harg4 arg5 harg5 arg6 harg6 arg7 harg7 hf hl x0 x1 x2 x3 xs = k10_pay2 x0 x1 (panel i x2) xs := by
  unfold accL
  rw [View.read_writes_eq_canon _ _ _ (coverL c i arg2 harg2 arg3 harg3 arg4 harg4 arg5 harg5 arg6 harg6 arg7 harg7 hf hl x0 x1 x2 x3 xs)]
  unfold runL
  dsimp only
  sl_unfold_words
  rw [View.canon_unit_zero hz]
  simp only [View.readAt_eq_ld, harg2.read_unread, harg3.read_unread, harg4.read_unread, harg7.read_unread,
    View.ld_unit_zero (S := S1024x1024) hz, View.ld_unit_zero (S := S1024x128) hz]
  rfl

/-- and in the output block a copy of it. -/
theorem outL_eq (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : ¬ isFirst i) (hl : isLast i)
    (x0 : Vec F S1024x1024 .f32) (x1 : Vec F S1024x1024 .f32) (x2 : Vec F S6144x128 .bf16) (x3 : Vec F S1024x128 .f32) (xs : Vec F S1024x128 .f32) :
    outL c i arg2 harg2 arg3 harg3 arg4 harg4 arg5 harg5 arg6 harg6 arg7 harg7 hf hl x0 x1 x2 x3 xs = k10_pay2 x0 x1 (panel i x2) xs := by
  unfold outL
  rw [View.read_writes_eq_canon _ _ _ (coverO c i arg2 harg2 arg3 harg3 arg4 harg4 arg5 harg5 arg6 harg6 arg7 harg7 hf hl x0 x1 x2 x3 xs)]
  unfold runL
  dsimp only
  sl_unfold_words
  rw [View.canon_unit_zero hz, View.readCov_unit_zero (S := S1024x128) _ hz]
  simp only [View.readAt_eq_ld, harg2.read_unread, harg3.read_unread, harg4.read_unread, harg7.read_unread,
    View.ld_unit_zero (S := S1024x1024) hz, View.ld_unit_zero (S := S1024x128) hz]
  rfl

/-- A first tile copies the partial sum's block into the accumulator, then adds the tile's product. -/
theorem accF_eq (c : Dev nD) (i : grid10.Coords) (arg2 : Memref sig .tc .vmem S1024x1024 .f32) (harg2 : arg2.IsWhole)
    (arg3 : Memref sig .tc .vmem S1024x1024 .f32) (harg3 : arg3.IsWhole)
    (arg4 : Memref sig .tc .vmem S6144x128 .bf16) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole) (hf : isFirst i) (hl : ¬ isLast i)
    (x0 : Vec F S1024x1024 .f32) (x1 : Vec F S1024x1024 .f32) (x2 : Vec F S6144x128 .bf16) (x3 : Vec F S1024x128 .f32) :
    accF c i arg2 harg2 arg3 harg3 arg4 harg4 arg5 harg5 arg6 harg6 arg7 harg7 hf hl x0 x1 x2 x3 = k10_pay2 x0 x1 (panel i x2) (k10_pay1 x3) := by
  unfold accF
  rw [View.read_writes_eq_canon _ _ _ (coverF c i arg2 harg2 arg3 harg3 arg4 harg4 arg5 harg5 arg6 harg6 arg7 harg7 hf hl x0 x1 x2 x3)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread,
    View.ld_unit_zero (S := S1024x1024) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k10_pay1 v = v := by
  unfold k10_pay1
  simp only [shapeCast_self]

/-- The left operand's index of output `(p, q)` at contraction position `k` is `(p, k)`; -/
theorem lhsIdx_eq (p : Fin 1024) (q : Fin 128) (k : Fin 1024) :
    dot_S1024x1024_S1024x128_S1024x128_1_0_0_1_n_n.lhsIdx (ix2 p q)
      ((contrEquiv1 dot_S1024x1024_S1024x128_S1024x128_1_0_0_1_n_n 1024 rfl rfl).symm k) = ix2 p k := by
  have c2 := contrEquiv1_symm_val dot_S1024x1024_S1024x128_S1024x128_1_0_0_1_n_n 1024 rfl rfl k
  funext ax; apply Fin.ext
  match ax with
  | ⟨0, _⟩ => simp [DotDims.lhsIdx, dot_S1024x1024_S1024x128_S1024x128_1_0_0_1_n_n]; rfl
  | ⟨1, _⟩ => simp [DotDims.lhsIdx, dot_S1024x1024_S1024x128_S1024x128_1_0_0_1_n_n]; exact c2

/-- the right operand's is `(k, q)`. -/
theorem rhsIdx_eq (p : Fin 1024) (q : Fin 128) (k : Fin 1024) :
    dot_S1024x1024_S1024x128_S1024x128_1_0_0_1_n_n.rhsIdx (ix2 p q)
      ((contrEquiv1 dot_S1024x1024_S1024x128_S1024x128_1_0_0_1_n_n 1024 rfl rfl).symm k) = ix2 k q := by
  have c2 := contrEquiv1_symm_val dot_S1024x1024_S1024x128_S1024x128_1_0_0_1_n_n 1024 rfl rfl k
  funext ax; apply Fin.ext
  match ax with
  | ⟨0, _⟩ => simp [DotDims.rhsIdx, dot_S1024x1024_S1024x128_S1024x128_1_0_0_1_n_n]; exact c2
  | ⟨1, _⟩ => simp [DotDims.rhsIdx, dot_S1024x1024_S1024x128_S1024x128_1_0_0_1_n_n]; rfl

/-- One tile's update at `(p, q)`: the accumulator there plus the sum over the tile's 1024 contraction positions of
    the products of the two left operands' sum with the right operand (the narrowing of the left operand and the
    reshapes are identities on extended reals). -/
theorem pay2_apply (a1 a2 : Vec Ideal S1024x1024 .f32) (b : Vec Ideal S1024x128 .bf16) (acc : Vec Ideal S1024x128 .f32)
    (p : Fin 1024) (q : Fin 128) :
    k10_pay2 (F := Ideal) a1 a2 b acc (ix2 p q)
      = acc (ix2 p q) + ∑ k : Fin 1024, (a1 (ix2 p k) + a2 (ix2 p k)) * b (ix2 k q) := by
  unfold k10_pay2
  rw [shapeCast_self, shapeCast_self, addf_apply]
  simp only [matmul]
  rw [Ideal.matmul_constant_zero_apply,
    ← Equiv.sum_comp (contrEquiv1 dot_S1024x1024_S1024x128_S1024x128_1_0_0_1_n_n 1024 rfl rfl).symm]
  refine congrArg (acc (ix2 p q) + ·) (Finset.sum_congr rfl fun k _ => ?_)
  rw [lhsIdx_eq, rhsIdx_eq]
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 6 × 6 grid is tile `t % 6` of row tile `t / 6`: the block indices of the five windows there. -/
theorem idx_facts : ∀ t : Fin cfg10.N,
    win10_0.index t 0 = t.val / 6 ∧ win10_0.index t 1 = t.val % 6
    ∧ win10_1.index t 0 = t.val / 6 ∧ win10_1.index t 1 = t.val % 6
    ∧ win10_2.index t 0 = 0 ∧ win10_2.index t 1 = 0
    ∧ win10_3.index t 0 = t.val / 6 ∧ win10_3.index t 1 = 0
    ∧ win10_4.index t 0 = t.val / 6 ∧ win10_4.index t 1 = 0
    ∧ (grid10.coords t 1).val = t.val % 6 :=
  (by decide +kernel : ∀ t : Fin grid10.N,
    win10_0.index t 0 = t.val / 6 ∧ win10_0.index t 1 = t.val % 6
    ∧ win10_1.index t 0 = t.val / 6 ∧ win10_1.index t 1 = t.val % 6
    ∧ win10_2.index t 0 = 0 ∧ win10_2.index t 1 = 0
    ∧ win10_3.index t 0 = t.val / 6 ∧ win10_3.index t 1 = 0
    ∧ win10_4.index t 0 = t.val / 6 ∧ win10_4.index t 1 = 0
    ∧ (grid10.coords t 1).val = t.val % 6)

/-- The first left operand's block at point `t`: rows `1024 (t / 6) …`, columns `1024 (t % 6) …` of its array. -/
theorem blkA1_apply (c : Dev nD) (t : Fin cfg10.N) (x : S1024x1024.Idx) (y : S6144x6144.Idx)
    (h0 : (y 0).val = t.val / 6 * 1024 + (x 0).val) (h1 : (y 1).val = t.val % 6 * 1024 + (x 1).val) :
    (iblk V c 0 t : Vec F S1024x1024 .f32) x = (V c main_arg9 : S6144x6144.Idx → Elt F .f32) y := by
  obtain ⟨i0, i1, -⟩ := idx_facts t
  unfold iblk
  rw [View.read_apply]
  show V c main_arg9 _ = V c main_arg9 _
  congr 1
  funext a
  apply Fin.ext
  match a with
  | ⟨0, _⟩ => show win10_0.index t 0 * 1024 + 1 * (x 0).val = (y 0).val; rw [i0, h0]; omega
  | ⟨1, _⟩ => show win10_0.index t 1 * 1024 + 1 * (x 1).val = (y 1).val; rw [i1, h1]; omega

/-- The second left operand's block at point `t`: the same rows and columns of its array. -/
theorem blkA2_apply (c : Dev nD) (t : Fin cfg10.N) (x : S1024x1024.Idx) (y : S6144x6144.Idx)
    (h0 : (y 0).val = t.val / 6 * 1024 + (x 0).val) (h1 : (y 1).val = t.val % 6 * 1024 + (x 1).val) :
    (iblk V c 1 t : Vec F S1024x1024 .f32) x = (V c main_arg8 : S6144x6144.Idx → Elt F .f32) y := by
  obtain ⟨-, -, i0, i1, -⟩ := idx_facts t
  unfold iblk
  rw [View.read_apply]
  show V c main_arg8 _ = V c main_arg8 _
  congr 1
  funext a
  apply Fin.ext
  match a with
  | ⟨0, _⟩ => show win10_1.index t 0 * 1024 + 1 * (x 0).val = (y 0).val; rw [i0, h0]; omega
  | ⟨1, _⟩ => show win10_1.index t 1 * 1024 + 1 * (x 1).val = (y 1).val; rw [i1, h1]; omega

/-- The right operand's block is the whole array at every point. -/
theorem blkB_apply (c : Dev nD) (t : Fin cfg10.N) (x : S6144x128.Idx) :
    (iblk V c 2 t : Vec F S6144x128 .bf16) x = (V c main_v56 : S6144x128.Idx → Elt F .bf16) x := by
  obtain ⟨-, -, -, -, i0, i1, -⟩ := idx_facts t
  unfold iblk
  rw [View.read_apply]
  show V c main_v56 _ = V c main_v56 _
  congr 1
  funext a
  apply Fin.ext
  match a with
  | ⟨0, _⟩ => show win10_2.index t 0 * 6144 + 1 * (x 0).val = (x 0).val; rw [i0]; omega
  | ⟨1, _⟩ => show win10_2.index t 1 * 128 + 1 * (x 1).val = (x 1).val; rw [i1]; omega

/-- The partial sum's block at point `t`: rows `1024 (t / 6) …` of the array. -/
theorem blkP_apply (c : Dev nD) (t : Fin cfg10.N) (x : S1024x128.Idx) (y : S6144x128.Idx)
    (h0 : (y 0).val = t.val / 6 * 1024 + (x 0).val) (h1 : (y 1).val = (x 1).val) :
    (iblk V c 3 t : Vec F S1024x128 .f32) x = (V c main_v65 : S6144x128.Idx → Elt F .f32) y := by
  obtain ⟨-, -, -, -, -, -, i0, i1, -⟩ := idx_facts t
  unfold iblk
  rw [View.read_apply]
  show V c main_v65 _ = V c main_v65 _
  congr 1
  funext a
  apply Fin.ext
  match a with
  | ⟨0, _⟩ => show win10_3.index t 0 * 1024 + 1 * (x 0).val = (y 0).val; rw [i0, h0]; omega
  | ⟨1, _⟩ => show win10_3.index t 1 * 128 + 1 * (x 1).val = (y 1).val; rw [i1, h1]; omega

/-- The rows a tile loads of the right operand: row `k` of the tile is row `1024 i₁ + k` of the panel. -/
theorem panel_apply (i : grid10.Coords) (x2 : Vec F S6144x128 .bf16) (x : S1024x128.Idx) (y : S6144x128.Idx)
    (h0 : (y 0).val = 1024 * (i 1).val + (x 0).val) (h1 : (y 1).val = (x 1).val) :
    panel i x2 x = x2 y := by
  show x2 _ = x2 y
  congr 1
  funext a
  apply Fin.ext
  match a with
  | ⟨0, _⟩ => show k10_off1 i 0 + 1 * (x 0).val = (y 0).val; rw [k10_off1_eq i, h0]; show 1024 * (i 1).val + 1 * (x 0).val = _; omega
  | ⟨1, _⟩ => show k10_off1 i 1 + 1 * (x 1).val = (y 1).val; rw [k10_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The four input blocks at point `t`, as vectors of their literal shapes. -/
abbrev blkA1 (c : Dev nD) (t : Fin cfg10.N) : Vec Ideal S1024x1024 .f32 := iblk V c 0 t
abbrev blkA2 (c : Dev nD) (t : Fin cfg10.N) : Vec Ideal S1024x1024 .f32 := iblk V c 1 t
abbrev blkB (c : Dev nD) (t : Fin cfg10.N) : Vec Ideal S6144x128 .bf16 := iblk V c 2 t
abbrev blkP (c : Dev nD) (t : Fin cfg10.N) : Vec Ideal S1024x128 .f32 := iblk V c 3 t

/-- The update of any tile at `(p, q)`, over the point's blocks: what the accumulator held plus the tile's 1024 products. -/
theorem tile_apply (c : Dev nD) (t : Fin cfg10.N) (xs : Vec Ideal S1024x128 .f32) (p : Fin 1024) (q : Fin 128) :
    k10_pay2 (F := Ideal) (blkA1 V c t) (blkA2 V c t) (panel (grid10.coords t) (blkB V c t)) xs (ix2 p q)
      = xs (ix2 p q) + ∑ k : Fin 1024, (blkA1 V c t (ix2 p k) + blkA2 V c t (ix2 p k))
          * panel (grid10.coords t) (blkB V c t) (ix2 k q) :=
  pay2_apply (blkA1 V c t) (blkA2 V c t) (panel (grid10.coords t) (blkB V c t)) xs p q

/-- After the first tile of a row the accumulator at `(p, q)` is the partial sum's block there plus the tile's products. -/
theorem accAt_first (c : Dev nD) (t : Fin cfg10.N) (h0 : t.val % 6 = 0) (p : Fin 1024) (q : Fin 128) :
    accAt V c t.val t.isLt (ix2 p q)
      = blkP V c t (ix2 p q) + ∑ k : Fin 1024, (blkA1 V c t (ix2 p k) + blkA2 V c t (ix2 p k))
          * panel (grid10.coords t) (blkB V c t) (ix2 k q) := by
  refine (congrFun (accAt_F V c t h0) (ix2 p q)).trans ?_
  refine (congrFun (accF_eq (F := Ideal) c (grid10.coords t) (mA1 t) (hA1 t) (mA2 t) (hA2 t) (mB t) (hB t) (mP t) (hP t) (mO t) (hO t) mAcc
      (Memref.isWhole_whole _) _ _ (iblk V c 0 t) (iblk V c 1 t) (iblk V c 2 t) (iblk V c 3 t)) (ix2 p q)).trans ?_
  refine (tile_apply V c t (k10_pay1 (iblk V c 3 t)) p q).trans ?_
  exact congrArg (· + _) (congrFun (pay1_eq (F := Ideal) (iblk V c 3 t)) (ix2 p q))

/-- After a later tile it is what the tile before left there plus the tile's products. -/
theorem accAt_later (c : Dev nD) (t : Fin cfg10.N) (h0 : ¬ t.val % 6 = 0) (p : Fin 1024) (q : Fin 128) :
    accAt V c t.val t.isLt (ix2 p q)
      = accAt V c (t.val - 1) (Nat.lt_of_le_of_lt (Nat.sub_le _ _) t.isLt) (ix2 p q)
        + ∑ k : Fin 1024, (blkA1 V c t (ix2 p k) + blkA2 V c t (ix2 p k))
          * panel (grid10.coords t) (blkB V c t) (ix2 k q) := by
  by_cases h2 : t.val % 6 = 5
  · refine (congrFun (accAt_L V c t h0 h2) (ix2 p q)).trans ?_
    refine (congrFun (accL_eq (F := Ideal) c (grid10.coords t) (mA1 t) (hA1 t) (mA2 t) (hA2 t) (mB t) (hB t) (mP t) (hP t) (mO t) (hO t) mAcc
      (Memref.isWhole_whole _) _ _ (iblk V c 0 t) (iblk V c 1 t) (iblk V c 2 t) (iblk V c 3 t)
      (accAt V c (t.val - 1) (Nat.lt_of_le_of_lt (Nat.sub_le _ _) t.isLt))) (ix2 p q)).trans ?_
    exact tile_apply V c t _ p q
  · refine (congrFun (accAt_M V c t h0 h2) (ix2 p q)).trans ?_
    refine (congrFun (accM_eq (F := Ideal) c (grid10.coords t) (mA1 t) (hA1 t) (mA2 t) (hA2 t) (mB t) (hB t) (mP t) (hP t) (mO t) (hO t) mAcc
      (Memref.isWhole_whole _) _ _ (iblk V c 0 t) (iblk V c 1 t) (iblk V c 2 t) (iblk V c 3 t)
      (accAt V c (t.val - 1) (Nat.lt_of_le_of_lt (Nat.sub_le _ _) t.isLt))) (ix2 p q)).trans ?_
    exact tile_apply V c t _ p q

/-- The output block after the last tile of a row is the finished accumulator. -/
theorem outAt_apply (c : Dev nD) (t : Fin cfg10.N) (h2 : t.val % 6 = 5) (p : Fin 1024) (q : Fin 128) :
    outAt V c t (ix2 p q) = accAt V c t.val t.isLt (ix2 p q) := by
  have h0 : ¬ t.val % 6 = 0 := by omega
  have eL := accL_eq (F := Ideal) c (grid10.coords t) (mA1 t) (hA1 t) (mA2 t) (hA2 t) (mB t) (hB t) (mP t) (hP t) (mO t) (hO t) mAcc
      (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt))
  have eO := outL_eq (F := Ideal) c (grid10.coords t) (mA1 t) (hA1 t) (mA2 t) (hA2 t) (mB t) (hB t) (mP t) (hP t) (mO t) (hO t) mAcc
      (Memref.isWhole_whole _) (fun h => h0 ((isFirst_iff t).mp h)) ((isLast_iff t).mpr h2) (iblk V c 0 t) (iblk V c 1 t) (iblk V c 2 t) (iblk V c 3 t)
      (accAt V c (t.val - 1) (Nat.lt_of_le_of_lt (Nat.sub_le _ _) t.isLt))
  unfold outAt
  rw [dif_pos h2]
  refine (congrFun eO (ix2 p q)).trans ?_
  rw [accAt_L V c t h0 h2]
  exact congrFun eL.symm (ix2 p q)

end value

/-! ## The running sum along a row of tiles, and the result array -/

section total

open Idealize.ShloMosaic.ValueIdx Finset

variable (V : (c : Dev nD) → (b : Ref sig .tc) → Buf (Elt Ideal) ((c : Thread nD τ).loc b))

/-- The four arrays the region reads, as it finds them: the two left operands f32[6144, 6144], the right operand
    bf16[6144, 128] and the partial sum f32[6144, 128], as functions into the extended reals. -/
abbrev arrA1 (c : Dev nD) : S6144x6144.Idx → EReal := V c main_arg9
abbrev arrA2 (c : Dev nD) : S6144x6144.Idx → EReal := V c main_arg8
abbrev arrB (c : Dev nD) : S6144x128.Idx → EReal := V c main_v56
abbrev arrP (c : Dev nD) : S6144x128.Idx → EReal := V c main_v65

/-- For row `r` and column `q` of the result, the product at contraction position `k` (zero past the end of the
    axis, so that partial sums may range over initial segments of ℕ). -/
def term (c : Dev nD) (r : Fin 6144) (q : Fin 128) (k : ℕ) : EReal :=
  if h : k < 6144 then (arrA1 V c (ix2 r ⟨k, h⟩) + arrA2 V c (ix2 r ⟨k, h⟩)) * arrB V c (ix2 ⟨k, h⟩ q)
  else 0

theorem rowOf_lt (n : ℕ) (hn : n < cfg10.N) (p : Fin 1024) : n / 6 * 1024 + p.val < 6144 := by
  have hN : cfg10.N = 36 := N_10
  have := p.isLt
  omega

/-- Row `p` of the block of row tile `n / 6` is row `1024 (n / 6) + p` of the array. -/
abbrev rowOf (n : ℕ) (hn : n < cfg10.N) (p : Fin 1024) : Fin 6144 := ⟨n / 6 * 1024 + p.val, rowOf_lt n hn p⟩

/-- The products of tile `t % 6` of a row are the terms at positions `1024 (t % 6) … 1024 (t % 6) + 1023`. -/
theorem tile_sum (c : Dev nD) (t : Fin cfg10.N) (p : Fin 1024) (q : Fin 128) :
    ∑ k : Fin 1024, (blkA1 V c t (ix2 p k) + blkA2 V c t (ix2 p k))
          * panel (grid10.coords t) (blkB V c t) (ix2 k q)
      = ∑ k ∈ range 1024, term V c (rowOf t.val t.isLt p) q (t.val % 6 * 1024 + k) := by
  rw [← Fin.sum_univ_eq_sum_range (fun k => term V c (rowOf t.val t.isLt p) q (t.val % 6 * 1024 + k)) 1024]
  refine Finset.sum_congr rfl fun k _ => ?_
  have hk : t.val % 6 * 1024 + k.val < 6144 := by have := k.isLt; omega
  obtain ⟨-, -, -, -, -, -, -, -, -, -, hc⟩ := idx_facts t
  have eA1 : blkA1 V c t (ix2 p k) = arrA1 V c (ix2 (rowOf t.val t.isLt p) ⟨_, hk⟩) :=
    blkA1_apply V c t (ix2 p k) (ix2 (rowOf t.val t.isLt p) ⟨_, hk⟩) rfl rfl
  have eA2 : blkA2 V c t (ix2 p k) = arrA2 V c (ix2 (rowOf t.val t.isLt p) ⟨_, hk⟩) :=
    blkA2_apply V c t (ix2 p k) (ix2 (rowOf t.val t.isLt p) ⟨_, hk⟩) rfl rfl
  have eB : panel (grid10.coords t) (blkB V c t) (ix2 k q) = arrB V c (ix2 ⟨_, hk⟩ q) := by
    refine (panel_apply (grid10.coords t) (blkB V c t) (ix2 k q) (ix2 ⟨_, hk⟩ q) ?_ rfl).trans ?_
    · show t.val % 6 * 1024 + k.val = 1024 * (grid10.coords t 1).val + k.val
      rw [hc]; omega
    · exact blkB_apply V c t (ix2 ⟨_, hk⟩ q)
  unfold term
  rw [dif_pos hk, eA1, eA2, eB]

/-- THE INVARIANT: after tile `n % 6` of its row the accumulator at `(p, q)` holds the partial sum's entry plus the
    terms of the tiles `0 … n % 6`, by induction along the grid (sums regrouped by associativity only). -/
theorem accAt_apply (c : Dev nD) (n : ℕ) : ∀ (hn : n < cfg10.N) (p : Fin 1024) (q : Fin 128),
    accAt V c n hn (ix2 p q) = arrP V c (ix2 (rowOf n hn p) q)
      + ∑ k ∈ range ((n % 6 + 1) * 1024), term V c (rowOf n hn p) q k := by
  induction n using Nat.strong_induction_on with
  | _ n ih =>
    intro hn p q
    by_cases h0 : n % 6 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 1024, term V c (rowOf n hn p) q (n % 6 * 1024 + k) = _
      rw [h0]
      simp only [Nat.zero_mul, Nat.zero_add, Nat.one_mul]
    · have hpos : n - 1 < n := by omega
      have hn' : n - 1 < cfg10.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 6 * 1024 + p.val = n / 6 * 1024 + p.val; omega)
      rw [hr] at e
      show accAt V c (n - 1) _ (ix2 p q) + ∑ k ∈ range 1024, term V c (rowOf n hn p) q (n % 6 * 1024 + k) = _
      rw [e, add_assoc]
      congr 1
      have hs : (n % 6 + 1) * 1024 = ((n - 1) % 6 + 1) * 1024 + 1024 := by omega
      have hm : n % 6 * 1024 = ((n - 1) % 6 + 1) * 1024 := by omega
      rw [hs, Finset.sum_range_add, hm]

/-- All six tiles' terms are the whole contraction. -/
theorem range_sum_eq (c : Dev nD) (r : Fin 6144) (q : Fin 128) :
    ∑ k ∈ range 6144, term V c r q k
      = ∑ k : Fin 6144, (arrA1 V c (ix2 r k) + arrA2 V c (ix2 r k)) * arrB V c (ix2 k q) := by
  rw [← Fin.sum_univ_eq_sum_range (fun k => term V c r q k) 6144]
  refine Finset.sum_congr rfl fun k _ => ?_
  unfold term
  rw [dif_pos k.isLt]

/-- THE RESULT, entry by entry: the partial sum's entry plus the whole contraction of the two left operands' sum
    with the right operand. -/
def G (c : Dev nD) : S6144x128.Idx → EReal := fun i =>
  arrP V c i + ∑ k : Fin 6144, (arrA1 V c (ix2 (i 0) k) + arrA2 V c (ix2 (i 0) k)) * arrB V c (ix2 k (i 1))

/-- The output block after the last tile of row tile `t / 6` is rows `1024 (t / 6) …` of the result. -/
theorem outAt_eq_G (c : Dev nD) (t : Fin cfg10.N) (h2 : t.val % 6 = 5) (j : S1024x128.Idx) (y : S6144x128.Idx)
    (h0 : (y 0).val = t.val / 6 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show _ + ∑ k ∈ range 6144, term V c (rowOf t.val t.isLt p) q k = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg10.N) (hf : (cfg10.win 4).flush t = true) :
    (dat V c).flushed 4 t = ((cfg10.win 4).blk t).view.read (Elt Ideal) (G V c) := by
  have h2 : t.val % 6 = 5 := (flush10_4 t).mp hf
  obtain ⟨-, -, -, -, -, -, -, -, e0, e1, -⟩ := idx_facts t
  show (cfg10.win 4).cut (grid10.coords t) ((dat V c).after 4 t) = _
  rw [after_4]
  funext j
  rw [View.read_apply]
  refine outAt_eq_G V c t h2 ((cfg10.win 4).xinj (grid10.coords t) j) (((cfg10.win 4).blk t).view.emb j) ?_ ?_
  · show win10_4.index t 0 * 1024 + 1 * (j 0).val = t.val / 6 * 1024 + (j 0).val
    rw [e0]; omega
  · show win10_4.index t 1 * 128 + 1 * (j 1).val = (j 1).val
    rw [e1]; omega

/-- An index of the result array is in point `t`'s block iff each coordinate is in the block's range on its axis. -/
theorem mem_blk (t : Fin cfg10.N) (i : S6144x128.Idx) :
    i ∈ ((cfg10.win 4).blk t).view.set ↔ ∀ a : Fin 2, win10_4.index t a * S1024x128.size a ≤ (i a).val
      ∧ (i a).val < win10_4.index t a * S1024x128.size a + S1024x128.size a := by
  show i ∈ ((View.whole main_v66).slice (win10_4.rect t)).set ↔ _
  rw [View.set_slice_whole, Rect.mem_set_unit]
  exact Iff.rfl

/-- Row `r` of the result is written back by the last tile of row tile `r / 1024`. -/
theorem cover (i : S6144x128.Idx) :
    ∃ t : Fin cfg10.N, (cfg10.win 4).flush t = true ∧ i ∈ ((cfg10.win 4).blk t).view.set := by
  have hN : cfg10.N = 36 := N_10
  have hi0 : (i 0).val < 6144 := (i 0).isLt
  have hi1 : (i 1).val < 128 := (i 1).isLt
  obtain ⟨t, ht⟩ : ∃ t : Fin cfg10.N, t.val = 6 * ((i 0).val / 1024) + 5 := ⟨⟨6 * ((i 0).val / 1024) + 5, by omega⟩, rfl⟩
  obtain ⟨-, -, -, -, -, -, -, -, e0, e1, -⟩ := idx_facts t
  refine ⟨t, (flush10_4 t).mpr (by omega), ?_⟩
  rw [mem_blk]
  intro a
  match a with
  | ⟨0, _⟩ =>
    show win10_4.index t 0 * 1024 ≤ (i 0).val ∧ (i 0).val < win10_4.index t 0 * 1024 + 1024
    rw [e0]; omega
  | ⟨1, _⟩ =>
    show win10_4.index t 1 * 128 ≤ (i 1).val ∧ (i 1).val < win10_4.index t 1 * 128 + 128
    rw [e1]; omega

/-- So the result array ends holding `G`. -/
theorem result_eq (c : Dev nD) : (dat V c).arrAt 4 cfg10.N = G V c :=
  (dat V c).arrAt_eq_of_cover 4 (G V c) (flushed_eq V c) cover

/-- THE RESULT ARRAY AT AN INDEX: `P r q + ∑ k, (A₁ r k + A₂ r k) · B k q` over the whole contraction axis of 6144. -/
theorem result_apply (c : Dev nD) (r : Fin 6144) (q : Fin 128) :
    ((Region10.dat (F := Ideal) V c).arrAt 4 cfg10.N) (ix2 r q)
      = arrP V c (ix2 r q) + ∑ k : Fin 6144, (arrA1 V c (ix2 r k) + arrA2 V c (ix2 r k)) * arrB V c (ix2 k q) := by
  rw [result_eq V c]
  rfl

end array

end Cert.KernelIdeal.Value10

end
-- ==== Proof.KernelIdeal.Value11.lean ====
/-
  Region 11's result array (the second layer's counterpart of region 4: the same kernel and grid), entry by entry, over the extended reals:

      result (r, q) = logistic (P (r, q) + ∑ k < 4096, A (r, k) · B (k, q))

  for the left operand A : f32[6144, 4096], the right operand B : bf16[4096, 128] and the partial sum P : f32[6144, 128].
  The grid is 6 × 2: row tiles of 1024 rows, and along the contraction axis two tiles of 2048 positions. Within a row
  tile the accumulator starts from P's block and takes the products of the first tile; the second tile, the last, adds
  its products, and the logistic function of the accumulator is stored and written back. The steps: what each case of
  the body leaves is its arithmetic applied to the blocks it read; that arithmetic at an entry (narrowing a float format
  and reshaping to the same shape are identities, the matrix product of a tile is the sum of 2048 products); the blocks
  as parts of the arrays; the running sum along a row tile by induction over the grid, regrouped by associativity of +
  alone (the extended reals do not cancel); and the result array from the blocks written back, which tile it.
-/
import proofs.«108146_j77455440216408_2_alg».proof.Proof.KernelIdeal.Region11
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value11

open Cert.KernelIdeal Cert.KernelIdeal.Gen Cert.KernelIdeal.Region11
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid11.Coords) (x1 : Vec F S4096x128 .bf16) : Vec F S2048x128 .bf16 :=
  View.ld x1 (Rect.unit (s := S4096x128) (k11_off1 i) S2048x128.size (k11_off1_inb i))

/-- The last tile leaves, in the accumulator holding `xs`, `xs` plus the tile's product, -/
theorem accL_eq (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    accL c i arg2 harg2 arg3 harg3 arg4 harg4 arg5 harg5 arg6 harg6 hf hl x0 x1 x2 xs = k11_pay2 x0 (panel i x1) xs := by
  unfold accL
  rw [View.read_writes_eq_canon _ _ _ (coverL c i arg2 harg2 arg3 harg3 arg4 harg4 arg5 harg5 arg6 harg6 hf hl x0 x1 x2 xs)]
  unfold runL
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- and in the output block the logistic function of it. -/
theorem outL_eq (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    outL c i arg2 harg2 arg3 harg3 arg4 harg4 arg5 harg5 arg6 harg6 hf hl x0 x1 x2 xs = k11_pay3 (k11_pay2 x0 (panel i x1) xs) := by
  unfold outL
  rw [View.read_writes_eq_canon _ _ _ (coverO c i arg2 harg2 arg3 harg3 arg4 harg4 arg5 harg5 arg6 harg6 hf hl x0 x1 x2 xs)]
  unfold runL
  dsimp only
  sl_unfold_words
  rw [View.canon_unit_zero hz, View.readCov_unit_zero (S := S1024x128) _ hz]
  simp only [View.readAt_eq_ld, harg2.read_unread, harg3.read_unread, harg6.read_unread,
    View.ld_unit_zero (S := S1024x2048) hz, View.ld_unit_zero (S := S1024x128) hz]
  rfl

/-- The first tile copies the partial sum's block into the accumulator, then adds the tile's product. -/
theorem accF_eq (c : Dev nD) (i : grid11.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i)
    (x0 : Vec F S1024x2048 .f32) (x1 : Vec F S4096x128 .bf16) (x2 : Vec F S1024x128 .f32) :
    accF c i arg2 harg2 arg3 harg3 arg4 harg4 arg5 harg5 arg6 harg6 hf hl x0 x1 x2 = k11_pay2 x0 (panel i x1) (k11_pay1 x2) := by
  unfold accF
  rw [View.read_writes_eq_canon _ _ _ (coverF c i arg2 harg2 arg3 harg3 arg4 harg4 arg5 harg5 arg6 harg6 hf hl x0 x1 x2)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x2048) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k11_pay1 v = v := by
  unfold k11_pay1
  simp only [shapeCast_self]

/-- The left operand's index of output `(p, q)` at contraction position `k` is `(p, k)`; -/
theorem lhsIdx_eq (p : Fin 1024) (q : Fin 128) (k : Fin 2048) :
    dot_S1024x2048_S2048x128_S1024x128_1_0_0_1_n_n.lhsIdx (ix2 p q)
      ((contrEquiv1 dot_S1024x2048_S2048x128_S1024x128_1_0_0_1_n_n 2048 rfl rfl).symm k) = ix2 p k := by
  have c2 := contrEquiv1_symm_val dot_S1024x2048_S2048x128_S1024x128_1_0_0_1_n_n 2048 rfl rfl k
  funext ax; apply Fin.ext
  match ax with
  | ⟨0, _⟩ => simp [DotDims.lhsIdx, dot_S1024x2048_S2048x128_S1024x128_1_0_0_1_n_n]; rfl
  | ⟨1, _⟩ => simp [DotDims.lhsIdx, dot_S1024x2048_S2048x128_S1024x128_1_0_0_1_n_n]; exact c2

/-- the right operand's is `(k, q)`. -/
theorem rhsIdx_eq (p : Fin 1024) (q : Fin 128) (k : Fin 2048) :
    dot_S1024x2048_S2048x128_S1024x128_1_0_0_1_n_n.rhsIdx (ix2 p q)
      ((contrEquiv1 dot_S1024x2048_S2048x128_S1024x128_1_0_0_1_n_n 2048 rfl rfl).symm k) = ix2 k q := by
  have c2 := contrEquiv1_symm_val dot_S1024x2048_S2048x128_S1024x128_1_0_0_1_n_n 2048 rfl rfl k
  funext ax; apply Fin.ext
  match ax with
  | ⟨0, _⟩ => simp [DotDims.rhsIdx, dot_S1024x2048_S2048x128_S1024x128_1_0_0_1_n_n]; exact c2
  | ⟨1, _⟩ => simp [DotDims.rhsIdx, dot_S1024x2048_S2048x128_S1024x128_1_0_0_1_n_n]; rfl

/-- One tile's update at `(p, q)`: the accumulator there plus the sum over the tile's 2048 contraction positions of
    the products (the narrowing of the left operand and the reshapes are identities on extended reals). -/
theorem pay2_apply (a : Vec Ideal S1024x2048 .f32) (b : Vec Ideal S2048x128 .bf16) (acc : Vec Ideal S1024x128 .f32)
    (p : Fin 1024) (q : Fin 128) :
    k11_pay2 (F := Ideal) a b acc (ix2 p q) = acc (ix2 p q) + ∑ k : Fin 2048, a (ix2 p k) * b (ix2 k q) := by
  unfold k11_pay2
  rw [shapeCast_self, shapeCast_self, addf_apply]
  simp only [matmul]
  rw [Ideal.matmul_constant_zero_apply,
    ← Equiv.sum_comp (contrEquiv1 dot_S1024x2048_S2048x128_S1024x128_1_0_0_1_n_n 2048 rfl rfl).symm]
  refine congrArg (acc (ix2 p q) + ·) (Finset.sum_congr rfl fun k _ => ?_)
  rw [lhsIdx_eq, rhsIdx_eq]
  rfl

/-- The stored output at `(p, q)`: the logistic function of the accumulator there. -/
theorem pay3_apply (acc : Vec Ideal S1024x128 .f32) (p : Fin 1024) (q : Fin 128) :
    k11_pay3 (F := Ideal) acc (ix2 p q) = Ideal.logistic (acc (ix2 p q)) := by
  unfold k11_pay3
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 6 × 2 grid is tile `t % 2` of row tile `t / 2`: the block indices of the four windows there. -/
theorem idx_facts : ∀ t : Fin cfg11.N,
    win11_0.index t 0 = t.val / 2 ∧ win11_0.index t 1 = t.val % 2
    ∧ win11_1.index t 0 = 0 ∧ win11_1.index t 1 = 0
    ∧ win11_2.index t 0 = t.val / 2 ∧ win11_2.index t 1 = 0
    ∧ win11_3.index t 0 = t.val / 2 ∧ win11_3.index t 1 = 0
    ∧ (grid11.coords t 1).val = t.val % 2 :=
  (by decide +kernel : ∀ t : Fin grid11.N,
    win11_0.index t 0 = t.val / 2 ∧ win11_0.index t 1 = t.val % 2
    ∧ win11_1.index t 0 = 0 ∧ win11_1.index t 1 = 0
    ∧ win11_2.index t 0 = t.val / 2 ∧ win11_2.index t 1 = 0
    ∧ win11_3.index t 0 = t.val / 2 ∧ win11_3.index t 1 = 0
    ∧ (grid11.coords t 1).val = t.val % 2)

/-- The left operand's block at point `t`: rows `1024 (t / 2) …`, columns `2048 (t % 2) …` of the array. -/
theorem blkA_apply (c : Dev nD) (t : Fin cfg11.N) (x : S1024x2048.Idx) (y : S6144x4096.Idx)
    (h0 : (y 0).val = t.val / 2 * 1024 + (x 0).val) (h1 : (y 1).val = t.val % 2 * 2048 + (x 1).val) :
    (iblk V c 0 t : Vec F S1024x2048 .f32) x = (V c main_arg6 : S6144x4096.Idx → Elt F .f32) y := by
  obtain ⟨i0, i1, -⟩ := idx_facts t
  unfold iblk
  rw [View.read_apply]
  show V c main_arg6 _ = V c main_arg6 _
  congr 1
  funext a
  apply Fin.ext
  match a with
  | ⟨0, _⟩ => show win11_0.index t 0 * 1024 + 1 * (x 0).val = (y 0).val; rw [i0, h0]; omega
  | ⟨1, _⟩ => show win11_0.index t 1 * 2048 + 1 * (x 1).val = (y 1).val; rw [i1, h1]; omega

/-- The right operand's block is the whole array at every point. -/
theorem blkB_apply (c : Dev nD) (t : Fin cfg11.N) (x : S4096x128.Idx) :
    (iblk V c 1 t : Vec F S4096x128 .bf16) x = (V c main_v58 : S4096x128.Idx → Elt F .bf16) x := by
  obtain ⟨-, -, i0, i1, -⟩ := idx_facts t
  unfold iblk
  rw [View.read_apply]
  show V c main_v58 _ = V c main_v58 _
  congr 1
  funext a
  apply Fin.ext
  match a with
  | ⟨0, _⟩ => show win11_1.index t 0 * 4096 + 1 * (x 0).val = (x 0).val; rw [i0]; omega
  | ⟨1, _⟩ => show win11_1.index t 1 * 128 + 1 * (x 1).val = (x 1).val; rw [i1]; omega

/-- The partial sum's block at point `t`: rows `1024 (t / 2) …` of the array. -/
theorem blkP_apply (c : Dev nD) (t : Fin cfg11.N) (x : S1024x128.Idx) (y : S6144x128.Idx)
    (h0 : (y 0).val = t.val / 2 * 1024 + (x 0).val) (h1 : (y 1).val = (x 1).val) :
    (iblk V c 2 t : Vec F S1024x128 .f32) x = (V c main_v66 : S6144x128.Idx → Elt F .f32) y := by
  obtain ⟨-, -, -, -, i0, i1, -⟩ := idx_facts t
  unfold iblk
  rw [View.read_apply]
  show V c main_v66 _ = V c main_v66 _
  congr 1
  funext a
  apply Fin.ext
  match a with
  | ⟨0, _⟩ => show win11_2.index t 0 * 1024 + 1 * (x 0).val = (y 0).val; rw [i0, h0]; omega
  | ⟨1, _⟩ => show win11_2.index t 1 * 128 + 1 * (x 1).val = (y 1).val; rw [i1, h1]; omega

/-- The rows a tile loads of the right operand: row `k` of the tile is row `2048 i₁ + k` of the panel. -/
theorem panel_apply (i : grid11.Coords) (x1 : Vec F S4096x128 .bf16) (x : S2048x128.Idx) (y : S4096x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k11_off1 i 0 + 1 * (x 0).val = (y 0).val; rw [k11_off1_eq i, h0]; show 2048 * (i 1).val + 1 * (x 0).val = _; omega
  | ⟨1, _⟩ => show k11_off1 i 1 + 1 * (x 1).val = (y 1).val; rw [k11_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The three input blocks at point `t`, as vectors of their literal shapes. -/
abbrev blkA (c : Dev nD) (t : Fin cfg11.N) : Vec Ideal S1024x2048 .f32 := iblk V c 0 t
abbrev blkB (c : Dev nD) (t : Fin cfg11.N) : Vec Ideal S4096x128 .bf16 := iblk V c 1 t
abbrev blkP (c : Dev nD) (t : Fin cfg11.N) : Vec Ideal S1024x128 .f32 := iblk V c 2 t

/-- The update of either tile at `(p, q)`, over the point's blocks: what the accumulator held plus the tile's 2048 products. -/
theorem tile_apply (c : Dev nD) (t : Fin cfg11.N) (xs : Vec Ideal S1024x128 .f32) (p : Fin 1024) (q : Fin 128) :
    k11_pay2 (F := Ideal) (blkA V c t) (panel (grid11.coords t) (blkB V c t)) xs (ix2 p q)
      = xs (ix2 p q) + ∑ k : Fin 2048, blkA V c t (ix2 p k)
          * panel (grid11.coords t) (blkB V c t) (ix2 k q) :=
  pay2_apply (blkA V c t) (panel (grid11.coords t) (blkB V c t)) xs p q

/-- After the first tile of a row the accumulator at `(p, q)` is the partial sum's block there plus the tile's products. -/
theorem accAt_first (c : Dev nD) (t : Fin cfg11.N) (h0 : t.val % 2 = 0) (p : Fin 1024) (q : Fin 128) :
    accAt V c t.val t.isLt (ix2 p q)
      = blkP V c t (ix2 p q) + ∑ k : Fin 2048, blkA V c t (ix2 p k)
          * panel (grid11.coords t) (blkB V c t) (ix2 k q) := by
  refine (congrFun (accAt_F V c t h0) (ix2 p q)).trans ?_
  refine (congrFun (accF_eq (F := Ideal) c (grid11.coords t) (mA t) (hA t) (mB t) (hB t) (mP t) (hP t) (mO t) (hO t) mAcc
    (Memref.isWhole_whole _) _ _ (iblk V c 0 t) (iblk V c 1 t) (iblk V c 2 t)) (ix2 p q)).trans ?_
  refine (tile_apply V c t (k11_pay1 (iblk V c 2 t)) p q).trans ?_
  exact congrArg (· + _) (congrFun (pay1_eq (F := Ideal) (iblk V c 2 t)) (ix2 p q))

/-- After the second tile it is what the first tile left there plus the tile's products. -/
theorem accAt_later (c : Dev nD) (t : Fin cfg11.N) (h0 : ¬ t.val % 2 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 p k)
          * panel (grid11.coords t) (blkB V c t) (ix2 k q) := by
  have h2 : t.val % 2 = 1 := by omega
  refine (congrFun (accAt_L V c t h0 h2) (ix2 p q)).trans ?_
  refine (congrFun (accL_eq (F := Ideal) c (grid11.coords t) (mA t) (hA t) (mB t) (hB t) (mP t) (hP t) (mO t) (hO t) mAcc
    (Memref.isWhole_whole _) _ _ (iblk V c 0 t) (iblk V c 1 t) (iblk V c 2 t)
    (accAt V c (t.val - 1) (Nat.lt_of_le_of_lt (Nat.sub_le _ _) t.isLt))) (ix2 p q)).trans ?_
  exact tile_apply V c t _ p q

/-- The output block after the last tile of a row is the logistic function of the finished accumulator. -/
theorem outAt_apply (c : Dev nD) (t : Fin cfg11.N) (h2 : t.val % 2 = 1) (p : Fin 1024) (q : Fin 128) :
    outAt V c t (ix2 p q) = Ideal.logistic (accAt V c t.val t.isLt (ix2 p q)) := by
  have h0 : ¬ t.val % 2 = 0 := by omega
  have eL := accL_eq (F := Ideal) c (grid11.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  have eO := outL_eq (F := Ideal) c (grid11.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  unfold outAt
  rw [dif_pos h2]
  refine (congrFun eO (ix2 p q)).trans ?_
  refine (pay3_apply _ p q).trans ?_
  rw [accAt_L V c t h0 h2]
  exact congrArg Ideal.logistic (congrFun eL.symm (ix2 p q))

end value

/-! ## The running sum along a row of tiles, and the result array -/

section total

open Idealize.ShloMosaic.ValueIdx Finset

variable (V : (c : Dev nD) → (b : Ref sig .tc) → Buf (Elt Ideal) ((c : Thread nD τ).loc b))

/-- The three arrays the region reads, as it finds them: the left operand f32[6144, 4096], the right operand
    bf16[4096, 128] and the partial sum f32[6144, 128], as functions into the extended reals. -/
abbrev arrA (c : Dev nD) : S6144x4096.Idx → EReal := V c main_arg6
abbrev arrB (c : Dev nD) : S4096x128.Idx → EReal := V c main_v58
abbrev arrP (c : Dev nD) : S6144x128.Idx → EReal := V c main_v66

/-- For row `r` and column `q` of the result, the product at contraction position `k` (zero past the end of the
    axis, so that partial sums may range over initial segments of ℕ). -/
def term (c : Dev nD) (r : Fin 6144) (q : Fin 128) (k : ℕ) : EReal :=
  if h : k < 4096 then arrA V c (ix2 r ⟨k, h⟩) * arrB V c (ix2 ⟨k, h⟩ q)
  else 0

theorem rowOf_lt (n : ℕ) (hn : n < cfg11.N) (p : Fin 1024) : n / 2 * 1024 + p.val < 6144 := by
  have hN : cfg11.N = 12 := N_11
  have := p.isLt
  omega

/-- Row `p` of the block of row tile `n / 2` is row `1024 (n / 2) + p` of the array. -/
abbrev rowOf (n : ℕ) (hn : n < cfg11.N) (p : Fin 1024) : Fin 6144 := ⟨n / 2 * 1024 + p.val, rowOf_lt n hn p⟩

/-- The products of tile `t % 2` of a row are the terms at positions `2048 (t % 2) … 2048 (t % 2) + 2047`. -/
theorem tile_sum (c : Dev nD) (t : Fin cfg11.N) (p : Fin 1024) (q : Fin 128) :
    ∑ k : Fin 2048, blkA V c t (ix2 p k) * panel (grid11.coords t) (blkB V c t) (ix2 k q)
      = ∑ k ∈ range 2048, term V c (rowOf t.val t.isLt p) q (t.val % 2 * 2048 + k) := by
  rw [← Fin.sum_univ_eq_sum_range (fun k => term V c (rowOf t.val t.isLt p) q (t.val % 2 * 2048 + k)) 2048]
  refine Finset.sum_congr rfl fun k _ => ?_
  have hk : t.val % 2 * 2048 + k.val < 4096 := by have := k.isLt; omega
  obtain ⟨-, -, -, -, -, -, -, -, hc⟩ := idx_facts t
  have eA : blkA V c t (ix2 p k) = arrA V c (ix2 (rowOf t.val t.isLt p) ⟨_, hk⟩) :=
    blkA_apply V c t (ix2 p k) (ix2 (rowOf t.val t.isLt p) ⟨_, hk⟩) rfl rfl
  have eB : panel (grid11.coords t) (blkB V c t) (ix2 k q) = arrB V c (ix2 ⟨_, hk⟩ q) := by
    refine (panel_apply (grid11.coords t) (blkB V c t) (ix2 k q) (ix2 ⟨_, hk⟩ q) ?_ rfl).trans ?_
    · show t.val % 2 * 2048 + k.val = 2048 * (grid11.coords t 1).val + k.val
      rw [hc]; omega
    · exact blkB_apply V c t (ix2 ⟨_, hk⟩ q)
  unfold term
  rw [dif_pos hk, eA, eB]

/-- THE INVARIANT: after tile `n % 2` of its row the accumulator at `(p, q)` holds the partial sum's entry plus the
    terms of the tiles `0 … n % 2`, by induction along the grid (sums regrouped by associativity only). -/
theorem accAt_apply (c : Dev nD) (n : ℕ) : ∀ (hn : n < cfg11.N) (p : Fin 1024) (q : Fin 128),
    accAt V c n hn (ix2 p q) = arrP V c (ix2 (rowOf n hn p) q)
      + ∑ k ∈ range ((n % 2 + 1) * 2048), term V c (rowOf n hn p) q k := by
  induction n using Nat.strong_induction_on with
  | _ n ih =>
    intro hn p q
    by_cases h0 : n % 2 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 2048, term V c (rowOf n hn p) q (n % 2 * 2048 + k) = _
      rw [h0]
      simp only [Nat.zero_mul, Nat.zero_add, Nat.one_mul]
    · have hpos : n - 1 < n := by omega
      have hn' : n - 1 < cfg11.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 2 * 1024 + p.val = n / 2 * 1024 + p.val; omega)
      rw [hr] at e
      show accAt V c (n - 1) _ (ix2 p q) + ∑ k ∈ range 2048, term V c (rowOf n hn p) q (n % 2 * 2048 + k) = _
      rw [e, add_assoc]
      congr 1
      have hs : (n % 2 + 1) * 2048 = ((n - 1) % 2 + 1) * 2048 + 2048 := by omega
      have hm : n % 2 * 2048 = ((n - 1) % 2 + 1) * 2048 := by omega
      rw [hs, Finset.sum_range_add, hm]

/-- Both tiles' terms are the whole contraction. -/
theorem range_sum_eq (c : Dev nD) (r : Fin 6144) (q : Fin 128) :
    ∑ k ∈ range 4096, term V c r q k
      = ∑ k : Fin 4096, arrA V c (ix2 r k) * arrB V c (ix2 k q) := by
  rw [← Fin.sum_univ_eq_sum_range (fun k => term V c r q k) 4096]
  refine Finset.sum_congr rfl fun k _ => ?_
  unfold term
  rw [dif_pos k.isLt]

/-- THE RESULT, entry by entry: the logistic function of the partial sum's entry plus the whole contraction. -/
def G (c : Dev nD) : S6144x128.Idx → EReal := fun i =>
  Ideal.logistic (arrP V c i
    + ∑ k : Fin 4096, arrA V c (ix2 (i 0) k) * arrB V c (ix2 k (i 1)))

/-- The output block after the last tile of row tile `t / 2` is rows `1024 (t / 2) …` of the result. -/
theorem outAt_eq_G (c : Dev nD) (t : Fin cfg11.N) (h2 : t.val % 2 = 1) (j : S1024x128.Idx) (y : S6144x128.Idx)
    (h0 : (y 0).val = t.val / 2 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show Ideal.logistic (_ + ∑ k ∈ range 4096, term V c (rowOf t.val t.isLt p) q k) = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg11.N) (hf : (cfg11.win 3).flush t = true) :
    (dat V c).flushed 3 t = ((cfg11.win 3).blk t).view.read (Elt Ideal) (G V c) := by
  have h2 : t.val % 2 = 1 := (flush11_3 t).mp hf
  obtain ⟨-, -, -, -, -, -, e0, e1, -⟩ := idx_facts t
  show (cfg11.win 3).cut (grid11.coords t) ((dat V c).after 3 t) = _
  rw [after_3]
  funext j
  rw [View.read_apply]
  refine outAt_eq_G V c t h2 ((cfg11.win 3).xinj (grid11.coords t) j) (((cfg11.win 3).blk t).view.emb j) ?_ ?_
  · show win11_3.index t 0 * 1024 + 1 * (j 0).val = t.val / 2 * 1024 + (j 0).val
    rw [e0]; omega
  · show win11_3.index t 1 * 128 + 1 * (j 1).val = (j 1).val
    rw [e1]; omega

/-- An index of the result array is in point `t`'s block iff each coordinate is in the block's range on its axis. -/
theorem mem_blk (t : Fin cfg11.N) (i : S6144x128.Idx) :
    i ∈ ((cfg11.win 3).blk t).view.set ↔ ∀ a : Fin 2, win11_3.index t a * S1024x128.size a ≤ (i a).val
      ∧ (i a).val < win11_3.index t a * S1024x128.size a + S1024x128.size a := by
  show i ∈ ((View.whole main_v67).slice (win11_3.rect t)).set ↔ _
  rw [View.set_slice_whole, Rect.mem_set_unit]
  exact Iff.rfl

/-- Row `r` of the result is written back by the last tile of row tile `r / 1024`. -/
theorem cover (i : S6144x128.Idx) :
    ∃ t : Fin cfg11.N, (cfg11.win 3).flush t = true ∧ i ∈ ((cfg11.win 3).blk t).view.set := by
  have hN : cfg11.N = 12 := N_11
  have hi0 : (i 0).val < 6144 := (i 0).isLt
  have hi1 : (i 1).val < 128 := (i 1).isLt
  obtain ⟨t, ht⟩ : ∃ t : Fin cfg11.N, t.val = 2 * ((i 0).val / 1024) + 1 := ⟨⟨2 * ((i 0).val / 1024) + 1, by omega⟩, rfl⟩
  obtain ⟨-, -, -, -, -, -, e0, e1, -⟩ := idx_facts t
  refine ⟨t, (flush11_3 t).mpr (by omega), ?_⟩
  rw [mem_blk]
  intro a
  match a with
  | ⟨0, _⟩ =>
    show win11_3.index t 0 * 1024 ≤ (i 0).val ∧ (i 0).val < win11_3.index t 0 * 1024 + 1024
    rw [e0]; omega
  | ⟨1, _⟩ =>
    show win11_3.index t 1 * 128 ≤ (i 1).val ∧ (i 1).val < win11_3.index t 1 * 128 + 128
    rw [e1]; omega

/-- So the result array ends holding `G`. -/
theorem result_eq (c : Dev nD) : (dat V c).arrAt 3 cfg11.N = G V c :=
  (dat V c).arrAt_eq_of_cover 3 (G V c) (flushed_eq V c) cover

/-- THE RESULT ARRAY AT AN INDEX: `logistic (P r q + ∑ k, A r k · B k q)` over the whole contraction axis of 4096. -/
theorem result_apply (c : Dev nD) (r : Fin 6144) (q : Fin 128) :
    ((Region11.dat (F := Ideal) V c).arrAt 3 cfg11.N) (ix2 r q)
      = Ideal.logistic (arrP V c (ix2 r q) + ∑ k : Fin 4096, arrA V c (ix2 r k) * arrB V c (ix2 k q)) := by
  rw [result_eq V c]
  rfl

end array

end Cert.KernelIdeal.Value11

end
-- ==== Proof.KernelIdeal.Value12.lean ====
/-
  Region 12's result array (the second layer's counterpart of region 5: the same kernel and grid), entry by entry, over the extended reals:

      result (r, q) = ∑ k < 6144, A (k, r) · B (k, q)

  for the left operand A : f32[6144, 4096], read TRANSPOSED, and the right operand B : bf16[6144, 128]. The grid is
  4 × 3: row tiles of 1024 rows of the result, and along the contraction axis three tiles of 2048 positions. A block
  of A has 2048 rows (contraction positions) and 1024 columns (rows of the result) and is contracted along its first
  axis. Within a row tile the accumulator starts from zero, takes the products of one tile after the other, and after
  the third tile it is stored and written back. The steps: what each case of the body leaves is its arithmetic applied
  to the blocks it read; that arithmetic at an entry (narrowing a float format and reshaping to the same shape are
  identities, the matrix product of a tile is the sum of 2048 products); the blocks as parts of the arrays; the running
  sum along a row tile by induction over the grid, regrouped by associativity of + alone (the extended reals do not
  cancel); and the result array from the blocks written back, which tile it.
-/
import proofs.«108146_j77455440216408_2_alg».proof.Proof.KernelIdeal.Region12
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value12

open Cert.KernelIdeal Cert.KernelIdeal.Gen Cert.KernelIdeal.Region12
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid12.Coords) (x1 : Vec F S6144x128 .bf16) : Vec F S2048x128 .bf16 :=
  View.ld x1 (Rect.unit (s := S6144x128) (k12_off1 i) S2048x128.size (k12_off1_inb i))

/-- A middle tile leaves, in the accumulator holding `xs`, `xs` plus the tile's product. -/
theorem accM_eq (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : ¬ isLast i)
    (x0 : Vec F S2048x1024 .f32) (x1 : Vec F S6144x128 .bf16) (xs : Vec F S1024x128 .f32) :
    accM c i arg2 harg2 arg3 harg3 arg4 harg4 arg5 harg5 hf hl x0 x1 xs = k12_pay2 x0 (panel i x1) xs := by
  unfold accM
  rw [View.read_writes_eq_canon _ _ _ (coverM c i arg2 harg2 arg3 harg3 arg4 harg4 arg5 harg5 hf hl x0 x1 xs)]
  unfold runM
  dsimp only
  sl_unfold_words
  rw [View.canon_unit_zero hz]
  simp only [View.readAt_eq_ld, harg2.read_unread, harg3.read_unread, harg5.read_unread,
    View.ld_unit_zero (S := S2048x1024) hz, View.ld_unit_zero (S := S1024x128) hz]
  rfl

/-- A last tile leaves the same in the accumulator, -/
theorem accL_eq (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i)
    (x0 : Vec F S2048x1024 .f32) (x1 : Vec F S6144x128 .bf16) (xs : Vec F S1024x128 .f32) :
    accL c i arg2 harg2 arg3 harg3 arg4 harg4 arg5 harg5 hf hl x0 x1 xs = k12_pay2 x0 (panel i x1) xs := by
  unfold accL
  rw [View.read_writes_eq_canon _ _ _ (coverL c i arg2 harg2 arg3 harg3 arg4 harg4 arg5 harg5 hf hl x0 x1 xs)]
  unfold runL
  dsimp only
  sl_unfold_words
  rw [View.canon_unit_zero hz]
  simp only [View.readAt_eq_ld, harg2.read_unread, harg3.read_unread, harg5.read_unread,
    View.ld_unit_zero (S := S2048x1024) hz, View.ld_unit_zero (S := S1024x128) hz]
  rfl

/-- and in the output block a copy of it. -/
theorem outL_eq (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : ¬ isFirst i) (hl : isLast i)
    (x0 : Vec F S2048x1024 .f32) (x1 : Vec F S6144x128 .bf16) (xs : Vec F S1024x128 .f32) :
    outL c i arg2 harg2 arg3 harg3 arg4 harg4 arg5 harg5 hf hl x0 x1 xs = k12_pay2 x0 (panel i x1) xs := by
  unfold outL
  rw [View.read_writes_eq_canon _ _ _ (coverO c i arg2 harg2 arg3 harg3 arg4 harg4 arg5 harg5 hf hl x0 x1 xs)]
  unfold runL
  dsimp only
  sl_unfold_words
  rw [View.canon_unit_zero hz, View.readCov_unit_zero (S := S1024x128) _ hz]
  simp only [View.readAt_eq_ld, harg2.read_unread, harg3.read_unread, harg5.read_unread,
    View.ld_unit_zero (S := S2048x1024) hz, View.ld_unit_zero (S := S1024x128) hz]
  rfl

/-- A first tile zeroes the accumulator, then adds the tile's product. -/
theorem accF_eq (c : Dev nD) (i : grid12.Coords) (arg2 : Memref sig .tc .vmem S2048x1024 .f32) (harg2 : arg2.IsWhole)
    (arg3 : Memref sig .tc .vmem S6144x128 .bf16) (harg3 : arg3.IsWhole)
    (arg4 : Memref sig .tc .vmem S1024x128 .f32) (harg4 : arg4.IsWhole)
    (arg5 : Memref sig .tc .vmem S1024x128 .f32) (harg5 : arg5.IsWhole) (hf : isFirst i) (hl : ¬ isLast i)
    (x0 : Vec F S2048x1024 .f32) (x1 : Vec F S6144x128 .bf16) :
    accF c i arg2 harg2 arg3 harg3 arg4 harg4 arg5 harg5 hf hl x0 x1 = k12_pay2 x0 (panel i x1) k12_pay1 := by
  unfold accF
  rw [View.read_writes_eq_canon _ _ _ (coverF c i arg2 harg2 arg3 harg3 arg4 harg4 arg5 harg5 hf hl x0 x1)]
  unfold runF
  dsimp only
  sl_unfold_words
  rw [View.canon_cons_unit_zero (S := S1024x128) hz, View.readCov_unit_zero (S := S1024x128) _ hz]
  simp only [View.readAt_eq_ld, harg2.read_unread, harg3.read_unread,
    View.ld_unit_zero (S := S2048x1024) hz, View.ld_unit_zero (S := S1024x128) hz]
  rfl

end pieces

/-! ## The payloads at an index, over the extended reals -/

section payloads

open Idealize.ShloMosaic.ValueIdx

/-- The zeroed accumulator is zero at every entry. -/
theorem pay1_apply (p : Fin 1024) (q : Fin 128) : k12_pay1 (F := Ideal) (ix2 p q) = 0 := by
  unfold k12_pay1
  simp only [shapeCast_self]
  exact Ideal.ofBits_zero_f32

/-- The left operand is contracted along its FIRST axis: its index of output `(p, q)` at contraction position `k` is
    `(k, p)`; -/
theorem lhsIdx_eq (p : Fin 1024) (q : Fin 128) (k : Fin 2048) :
    dot_S2048x1024_S2048x128_S1024x128_0_0_1_1_n_n.lhsIdx (ix2 p q)
      ((contrEquiv1 dot_S2048x1024_S2048x128_S1024x128_0_0_1_1_n_n 2048 rfl rfl).symm k) = ix2 k p := by
  have c2 := contrEquiv1_symm_val dot_S2048x1024_S2048x128_S1024x128_0_0_1_1_n_n 2048 rfl rfl k
  funext ax; apply Fin.ext
  match ax with
  | ⟨0, _⟩ => simp [DotDims.lhsIdx, dot_S2048x1024_S2048x128_S1024x128_0_0_1_1_n_n]; exact c2
  | ⟨1, _⟩ => simp [DotDims.lhsIdx, dot_S2048x1024_S2048x128_S1024x128_0_0_1_1_n_n]; rfl

/-- the right operand's is `(k, q)`. -/
theorem rhsIdx_eq (p : Fin 1024) (q : Fin 128) (k : Fin 2048) :
    dot_S2048x1024_S2048x128_S1024x128_0_0_1_1_n_n.rhsIdx (ix2 p q)
      ((contrEquiv1 dot_S2048x1024_S2048x128_S1024x128_0_0_1_1_n_n 2048 rfl rfl).symm k) = ix2 k q := by
  have c2 := contrEquiv1_symm_val dot_S2048x1024_S2048x128_S1024x128_0_0_1_1_n_n 2048 rfl rfl k
  funext ax; apply Fin.ext
  match ax with
  | ⟨0, _⟩ => simp [DotDims.rhsIdx, dot_S2048x1024_S2048x128_S1024x128_0_0_1_1_n_n]; exact c2
  | ⟨1, _⟩ => simp [DotDims.rhsIdx, dot_S2048x1024_S2048x128_S1024x128_0_0_1_1_n_n]; rfl

/-- One tile's update at `(p, q)`: the accumulator there plus the sum over the tile's 2048 contraction positions of
    the products, the left block read transposed (the narrowing of the left operand and the reshapes are identities on
    extended reals). -/
theorem pay2_apply (a : Vec Ideal S2048x1024 .f32) (b : Vec Ideal S2048x128 .bf16) (acc : Vec Ideal S1024x128 .f32)
    (p : Fin 1024) (q : Fin 128) :
    k12_pay2 (F := Ideal) a b acc (ix2 p q) = acc (ix2 p q) + ∑ k : Fin 2048, a (ix2 k p) * b (ix2 k q) := by
  unfold k12_pay2
  rw [shapeCast_self, shapeCast_self, addf_apply]
  simp only [matmul]
  rw [Ideal.matmul_constant_zero_apply,
    ← Equiv.sum_comp (contrEquiv1 dot_S2048x1024_S2048x128_S1024x128_0_0_1_1_n_n 2048 rfl rfl).symm]
  refine congrArg (acc (ix2 p q) + ·) (Finset.sum_congr rfl fun k _ => ?_)
  rw [lhsIdx_eq, rhsIdx_eq]
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 4 × 3 grid is tile `t % 3` of row tile `t / 3`: the block indices of the three windows there
    (the left operand's block index is (tile, row tile): it is read transposed). -/
theorem idx_facts : ∀ t : Fin cfg12.N,
    win12_0.index t 0 = t.val % 3 ∧ win12_0.index t 1 = t.val / 3
    ∧ win12_1.index t 0 = 0 ∧ win12_1.index t 1 = 0
    ∧ win12_2.index t 0 = t.val / 3 ∧ win12_2.index t 1 = 0
    ∧ (grid12.coords t 1).val = t.val % 3 :=
  (by decide +kernel : ∀ t : Fin grid12.N,
    win12_0.index t 0 = t.val % 3 ∧ win12_0.index t 1 = t.val / 3
    ∧ win12_1.index t 0 = 0 ∧ win12_1.index t 1 = 0
    ∧ win12_2.index t 0 = t.val / 3 ∧ win12_2.index t 1 = 0
    ∧ (grid12.coords t 1).val = t.val % 3)

/-- The left operand's block at point `t`: rows `2048 (t % 3) …`, columns `1024 (t / 3) …` of the array. -/
theorem blkA_apply (c : Dev nD) (t : Fin cfg12.N) (x : S2048x1024.Idx) (y : S6144x4096.Idx)
    (h0 : (y 0).val = t.val % 3 * 2048 + (x 0).val) (h1 : (y 1).val = t.val / 3 * 1024 + (x 1).val) :
    (iblk V c 0 t : Vec F S2048x1024 .f32) x = (V c main_arg5 : S6144x4096.Idx → Elt F .f32) y := by
  obtain ⟨i0, i1, -⟩ := idx_facts t
  unfold iblk
  rw [View.read_apply]
  show V c main_arg5 _ = V c main_arg5 _
  congr 1
  funext a
  apply Fin.ext
  match a with
  | ⟨0, _⟩ => show win12_0.index t 0 * 2048 + 1 * (x 0).val = (y 0).val; rw [i0, h0]; omega
  | ⟨1, _⟩ => show win12_0.index t 1 * 1024 + 1 * (x 1).val = (y 1).val; rw [i1, h1]; omega

/-- The right operand's block is the whole array at every point. -/
theorem blkB_apply (c : Dev nD) (t : Fin cfg12.N) (x : S6144x128.Idx) :
    (iblk V c 1 t : Vec F S6144x128 .bf16) x = (V c main_v60 : S6144x128.Idx → Elt F .bf16) x := by
  obtain ⟨-, -, i0, i1, -⟩ := idx_facts t
  unfold iblk
  rw [View.read_apply]
  show V c main_v60 _ = V c main_v60 _
  congr 1
  funext a
  apply Fin.ext
  match a with
  | ⟨0, _⟩ => show win12_1.index t 0 * 6144 + 1 * (x 0).val = (x 0).val; rw [i0]; omega
  | ⟨1, _⟩ => show win12_1.index t 1 * 128 + 1 * (x 1).val = (x 1).val; rw [i1]; omega

/-- The rows a tile loads of the right operand: row `k` of the tile is row `2048 i₁ + k` of the panel. -/
theorem panel_apply (i : grid12.Coords) (x1 : Vec F S6144x128 .bf16) (x : S2048x128.Idx) (y : S6144x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k12_off1 i 0 + 1 * (x 0).val = (y 0).val; rw [k12_off1_eq i, h0]; show 2048 * (i 1).val + 1 * (x 0).val = _; omega
  | ⟨1, _⟩ => show k12_off1 i 1 + 1 * (x 1).val = (y 1).val; rw [k12_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The two input blocks at point `t`, as vectors of their literal shapes. -/
abbrev blkA (c : Dev nD) (t : Fin cfg12.N) : Vec Ideal S2048x1024 .f32 := iblk V c 0 t
abbrev blkB (c : Dev nD) (t : Fin cfg12.N) : Vec Ideal S6144x128 .bf16 := iblk V c 1 t

/-- The update of any tile at `(p, q)`, over the point's blocks: what the accumulator held plus the tile's 2048 products. -/
theorem tile_apply (c : Dev nD) (t : Fin cfg12.N) (xs : Vec Ideal S1024x128 .f32) (p : Fin 1024) (q : Fin 128) :
    k12_pay2 (F := Ideal) (blkA V c t) (panel (grid12.coords t) (blkB V c t)) xs (ix2 p q)
      = xs (ix2 p q) + ∑ k : Fin 2048, blkA V c t (ix2 k p) * panel (grid12.coords t) (blkB V c t) (ix2 k q) :=
  pay2_apply (blkA V c t) (panel (grid12.coords t) (blkB V c t)) xs p q

/-- After the first tile of a row the accumulator at `(p, q)` is the tile's products (added to zero). -/
theorem accAt_first (c : Dev nD) (t : Fin cfg12.N) (h0 : t.val % 3 = 0) (p : Fin 1024) (q : Fin 128) :
    accAt V c t.val t.isLt (ix2 p q) = ∑ k : Fin 2048, blkA V c t (ix2 k p) * panel (grid12.coords t) (blkB V c t) (ix2 k q) := by
  refine (congrFun (accAt_F V c t h0) (ix2 p q)).trans ?_
  refine (congrFun (accF_eq (F := Ideal) c (grid12.coords t) (mA t) (hA t) (mB t) (hB t) (mO t) (hO t) mAcc
      (Memref.isWhole_whole _) _ _ (iblk V c 0 t) (iblk V c 1 t)) (ix2 p q)).trans ?_
  refine (tile_apply V c t (k12_pay1 (F := Ideal)) p q).trans ?_
  rw [pay1_apply, zero_add]

/-- After a later tile it is what the tile before left there plus the tile's products. -/
theorem accAt_later (c : Dev nD) (t : Fin cfg12.N) (h0 : ¬ t.val % 3 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 k p) * panel (grid12.coords t) (blkB V c t) (ix2 k q) := by
  by_cases h2 : t.val % 3 = 2
  · refine (congrFun (accAt_L V c t h0 h2) (ix2 p q)).trans ?_
    refine (congrFun (accL_eq (F := Ideal) c (grid12.coords t) (mA t) (hA t) (mB t) (hB t) (mO t) (hO t) mAcc
      (Memref.isWhole_whole _) _ _ (iblk V c 0 t) (iblk V c 1 t)
      (accAt V c (t.val - 1) (Nat.lt_of_le_of_lt (Nat.sub_le _ _) t.isLt))) (ix2 p q)).trans ?_
    exact tile_apply V c t _ p q
  · refine (congrFun (accAt_M V c t h0 h2) (ix2 p q)).trans ?_
    refine (congrFun (accM_eq (F := Ideal) c (grid12.coords t) (mA t) (hA t) (mB t) (hB t) (mO t) (hO t) mAcc
      (Memref.isWhole_whole _) _ _ (iblk V c 0 t) (iblk V c 1 t)
      (accAt V c (t.val - 1) (Nat.lt_of_le_of_lt (Nat.sub_le _ _) t.isLt))) (ix2 p q)).trans ?_
    exact tile_apply V c t _ p q

/-- The output block after the last tile of a row is the finished accumulator. -/
theorem outAt_apply (c : Dev nD) (t : Fin cfg12.N) (h2 : t.val % 3 = 2) (p : Fin 1024) (q : Fin 128) :
    outAt V c t (ix2 p q) = accAt V c t.val t.isLt (ix2 p q) := by
  have h0 : ¬ t.val % 3 = 0 := by omega
  have eL := accL_eq (F := Ideal) c (grid12.coords t) (mA t) (hA t) (mB t) (hB t) (mO t) (hO t) mAcc
      (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt))
  have eO := outL_eq (F := Ideal) c (grid12.coords t) (mA t) (hA t) (mB t) (hB t) (mO t) (hO t) mAcc
      (Memref.isWhole_whole _) (fun h => h0 ((isFirst_iff t).mp h)) ((isLast_iff t).mpr h2) (iblk V c 0 t) (iblk V c 1 t)
      (accAt V c (t.val - 1) (Nat.lt_of_le_of_lt (Nat.sub_le _ _) t.isLt))
  unfold outAt
  rw [dif_pos h2]
  refine (congrFun eO (ix2 p q)).trans ?_
  rw [accAt_L V c t h0 h2]
  exact congrFun eL.symm (ix2 p q)

end value

/-! ## The running sum along a row of tiles, and the result array -/

section total

open Idealize.ShloMosaic.ValueIdx Finset

variable (V : (c : Dev nD) → (b : Ref sig .tc) → Buf (Elt Ideal) ((c : Thread nD τ).loc b))

/-- The two arrays the region reads, as it finds them: the left operand f32[6144, 4096], read transposed, and the
    right operand bf16[6144, 128], as functions into the extended reals. -/
abbrev arrA (c : Dev nD) : S6144x4096.Idx → EReal := V c main_arg5
abbrev arrB (c : Dev nD) : S6144x128.Idx → EReal := V c main_v60

/-- For row `r` and column `q` of the result, the product at contraction position `k` (zero past the end of the
    axis, so that partial sums may range over initial segments of ℕ): the left operand is read at `(k, r)`. -/
def term (c : Dev nD) (r : Fin 4096) (q : Fin 128) (k : ℕ) : EReal :=
  if h : k < 6144 then arrA V c (ix2 ⟨k, h⟩ r) * arrB V c (ix2 ⟨k, h⟩ q)
  else 0

theorem rowOf_lt (n : ℕ) (hn : n < cfg12.N) (p : Fin 1024) : n / 3 * 1024 + p.val < 4096 := by
  have hN : cfg12.N = 12 := N_12
  have := p.isLt
  omega

/-- Row `p` of the block of row tile `n / 3` is row `1024 (n / 3) + p` of the result. -/
abbrev rowOf (n : ℕ) (hn : n < cfg12.N) (p : Fin 1024) : Fin 4096 := ⟨n / 3 * 1024 + p.val, rowOf_lt n hn p⟩

/-- The products of tile `t % 3` of a row are the terms at positions `2048 (t % 3) … 2048 (t % 3) + 2047`. -/
theorem tile_sum (c : Dev nD) (t : Fin cfg12.N) (p : Fin 1024) (q : Fin 128) :
    ∑ k : Fin 2048, blkA V c t (ix2 k p) * panel (grid12.coords t) (blkB V c t) (ix2 k q)
      = ∑ k ∈ range 2048, term V c (rowOf t.val t.isLt p) q (t.val % 3 * 2048 + k) := by
  rw [← Fin.sum_univ_eq_sum_range (fun k => term V c (rowOf t.val t.isLt p) q (t.val % 3 * 2048 + k)) 2048]
  refine Finset.sum_congr rfl fun k _ => ?_
  have hk : t.val % 3 * 2048 + k.val < 6144 := by have := k.isLt; omega
  obtain ⟨-, -, -, -, -, -, hc⟩ := idx_facts t
  have eA : blkA V c t (ix2 k p) = arrA V c (ix2 ⟨_, hk⟩ (rowOf t.val t.isLt p)) :=
    blkA_apply V c t (ix2 k p) (ix2 ⟨_, hk⟩ (rowOf t.val t.isLt p)) rfl rfl
  have eB : panel (grid12.coords t) (blkB V c t) (ix2 k q) = arrB V c (ix2 ⟨_, hk⟩ q) := by
    refine (panel_apply (grid12.coords t) (blkB V c t) (ix2 k q) (ix2 ⟨_, hk⟩ q) ?_ rfl).trans ?_
    · show t.val % 3 * 2048 + k.val = 2048 * (grid12.coords t 1).val + k.val
      rw [hc]; omega
    · exact blkB_apply V c t (ix2 ⟨_, hk⟩ q)
  unfold term
  rw [dif_pos hk, eA, eB]

/-- THE INVARIANT: after tile `n % 3` of its row the accumulator at `(p, q)` holds the terms of the tiles
    `0 … n % 3`, by induction along the grid (sums regrouped by associativity only). -/
theorem accAt_apply (c : Dev nD) (n : ℕ) : ∀ (hn : n < cfg12.N) (p : Fin 1024) (q : Fin 128),
    accAt V c n hn (ix2 p q) = ∑ k ∈ range ((n % 3 + 1) * 2048), term V c (rowOf n hn p) q k := by
  induction n using Nat.strong_induction_on with
  | _ n ih =>
    intro hn p q
    by_cases h0 : n % 3 = 0
    · refine (accAt_first V c ⟨n, hn⟩ h0 p q).trans ?_
      rw [tile_sum V c ⟨n, hn⟩ p q]
      show ∑ k ∈ range 2048, term V c (rowOf n hn p) q (n % 3 * 2048 + k) = _
      rw [h0]
      simp only [Nat.zero_mul, Nat.zero_add, Nat.one_mul]
    · have hpos : n - 1 < n := by omega
      have hn' : n - 1 < cfg12.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 3 * 1024 + p.val = n / 3 * 1024 + p.val; omega)
      rw [hr] at e
      show accAt V c (n - 1) _ (ix2 p q) + ∑ k ∈ range 2048, term V c (rowOf n hn p) q (n % 3 * 2048 + k) = _
      rw [e]
      have hs : (n % 3 + 1) * 2048 = ((n - 1) % 3 + 1) * 2048 + 2048 := by omega
      have hm : n % 3 * 2048 = ((n - 1) % 3 + 1) * 2048 := by omega
      rw [hs, Finset.sum_range_add, hm]

/-- All three tiles' terms are the whole contraction. -/
theorem range_sum_eq (c : Dev nD) (r : Fin 4096) (q : Fin 128) :
    ∑ k ∈ range 6144, term V c r q k = ∑ k : Fin 6144, arrA V c (ix2 k r) * arrB V c (ix2 k q) := by
  rw [← Fin.sum_univ_eq_sum_range (fun k => term V c r q k) 6144]
  refine Finset.sum_congr rfl fun k _ => ?_
  unfold term
  rw [dif_pos k.isLt]

/-- THE RESULT, entry by entry: the whole contraction of the transposed left operand with the right operand. -/
def G (c : Dev nD) : S4096x128.Idx → EReal := fun i =>
  ∑ k : Fin 6144, arrA V c (ix2 k (i 0)) * arrB V c (ix2 k (i 1))

/-- The output block after the last tile of row tile `t / 3` is rows `1024 (t / 3) …` of the result. -/
theorem outAt_eq_G (c : Dev nD) (t : Fin cfg12.N) (h2 : t.val % 3 = 2) (j : S1024x128.Idx) (y : S4096x128.Idx)
    (h0 : (y 0).val = t.val / 3 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show ∑ k ∈ range 6144, term V c (rowOf t.val t.isLt p) q k = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg12.N) (hf : (cfg12.win 2).flush t = true) :
    (dat V c).flushed 2 t = ((cfg12.win 2).blk t).view.read (Elt Ideal) (G V c) := by
  have h2 : t.val % 3 = 2 := (flush12_2 t).mp hf
  obtain ⟨-, -, -, -, e0, e1, -⟩ := idx_facts t
  show (cfg12.win 2).cut (grid12.coords t) ((dat V c).after 2 t) = _
  rw [after_2]
  funext j
  rw [View.read_apply]
  refine outAt_eq_G V c t h2 ((cfg12.win 2).xinj (grid12.coords t) j) (((cfg12.win 2).blk t).view.emb j) ?_ ?_
  · show win12_2.index t 0 * 1024 + 1 * (j 0).val = t.val / 3 * 1024 + (j 0).val
    rw [e0]; omega
  · show win12_2.index t 1 * 128 + 1 * (j 1).val = (j 1).val
    rw [e1]; omega

/-- An index of the result array is in point `t`'s block iff each coordinate is in the block's range on its axis. -/
theorem mem_blk (t : Fin cfg12.N) (i : S4096x128.Idx) :
    i ∈ ((cfg12.win 2).blk t).view.set ↔ ∀ a : Fin 2, win12_2.index t a * S1024x128.size a ≤ (i a).val
      ∧ (i a).val < win12_2.index t a * S1024x128.size a + S1024x128.size a := by
  show i ∈ ((View.whole main_v68).slice (win12_2.rect t)).set ↔ _
  rw [View.set_slice_whole, Rect.mem_set_unit]
  exact Iff.rfl

/-- Row `r` of the result is written back by the last tile of row tile `r / 1024`. -/
theorem cover (i : S4096x128.Idx) :
    ∃ t : Fin cfg12.N, (cfg12.win 2).flush t = true ∧ i ∈ ((cfg12.win 2).blk t).view.set := by
  have hN : cfg12.N = 12 := N_12
  have hi0 : (i 0).val < 4096 := (i 0).isLt
  have hi1 : (i 1).val < 128 := (i 1).isLt
  obtain ⟨t, ht⟩ : ∃ t : Fin cfg12.N, t.val = 3 * ((i 0).val / 1024) + 2 := ⟨⟨3 * ((i 0).val / 1024) + 2, by omega⟩, rfl⟩
  obtain ⟨-, -, -, -, e0, e1, -⟩ := idx_facts t
  refine ⟨t, (flush12_2 t).mpr (by omega), ?_⟩
  rw [mem_blk]
  intro a
  match a with
  | ⟨0, _⟩ =>
    show win12_2.index t 0 * 1024 ≤ (i 0).val ∧ (i 0).val < win12_2.index t 0 * 1024 + 1024
    rw [e0]; omega
  | ⟨1, _⟩ =>
    show win12_2.index t 1 * 128 ≤ (i 1).val ∧ (i 1).val < win12_2.index t 1 * 128 + 128
    rw [e1]; omega

/-- So the result array ends holding `G`. -/
theorem result_eq (c : Dev nD) : (dat V c).arrAt 2 cfg12.N = G V c :=
  (dat V c).arrAt_eq_of_cover 2 (G V c) (flushed_eq V c) cover

/-- THE RESULT ARRAY AT AN INDEX: `∑ k, A k r · B k q` over the whole contraction axis of 6144. -/
theorem result_apply (c : Dev nD) (r : Fin 4096) (q : Fin 128) :
    ((Region12.dat (F := Ideal) V c).arrAt 2 cfg12.N) (ix2 r q) = ∑ k : Fin 6144, arrA V c (ix2 k r) * arrB V c (ix2 k q) := by
  rw [result_eq V c]
  rfl

end array

end Cert.KernelIdeal.Value12

end
-- ==== Proof.KernelIdeal.Value13.lean ====
/-
  Region 13's result array (the second layer's counterpart of region 6: the same kernel and grid), entry by entry, over the extended reals:

      result (r, q) = logistic (P (r, q) + ∑ k < 4096, A (r, k) · B (k, q))

  for the left operand A : f32[4096, 4096], the right operand B : bf16[4096, 128] and the partial sum P : f32[4096, 128].
  The grid is 4 × 2: row tiles of 1024 rows, and along the contraction axis two tiles of 2048 positions. Within a row
  tile the accumulator starts from P's block and takes the products of the first tile; the second tile, the last, adds
  its products, and the logistic function of the accumulator is stored and written back. The steps: what each case of
  the body leaves is its arithmetic applied to the blocks it read; that arithmetic at an entry (narrowing a float format
  and reshaping to the same shape are identities, the matrix product of a tile is the sum of 2048 products); the blocks
  as parts of the arrays; the running sum along a row tile by induction over the grid, regrouped by associativity of +
  alone (the extended reals do not cancel); and the result array from the blocks written back, which tile it.
-/
import proofs.«108146_j77455440216408_2_alg».proof.Proof.KernelIdeal.Region13
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Value13

open Cert.KernelIdeal Cert.KernelIdeal.Gen Cert.KernelIdeal.Region13
open Idealize.ShloMosaic Idealize.ShloMosaic.TcCoe Idealize.ShloMosaic.Tactic
open Idealize.SL.Sem
open Idealize.ShloMosaic.Pipeline (Dat)

section pieces
variable {F : FTy → Type} [FloatOps F]

/-- The zero offsets of a whole-buffer access, however spelt. -/
theorem hz : (![0, 0] : Fin 2 → Nat) = fun _ => 0 := funext fun a => by fin_cases a <;> rfl

/-- The rows of the resident right operand that the tile at grid point `i` loads: 2048 rows from row `2048 * i₁`. -/
abbrev panel (i : grid13.Coords) (x1 : Vec F S4096x128 .bf16) : Vec F S2048x128 .bf16 :=
  View.ld x1 (Rect.unit (s := S4096x128) (k13_off1 i) S2048x128.size (k13_off1_inb i))

/-- The last tile leaves, in the accumulator holding `xs`, `xs` plus the tile's product, -/
theorem accL_eq (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    accL c i arg2 harg2 arg3 harg3 arg4 harg4 arg5 harg5 arg6 harg6 hf hl x0 x1 x2 xs = k13_pay2 x0 (panel i x1) xs := by
  unfold accL
  rw [View.read_writes_eq_canon _ _ _ (coverL c i arg2 harg2 arg3 harg3 arg4 harg4 arg5 harg5 arg6 harg6 hf hl x0 x1 x2 xs)]
  unfold runL
  dsimp only
  sl_unfold_words
  rw [View.canon_unit_zero hz]
  simp only [View.readAt_eq_ld, harg2.read_unread, harg3.read_unread, harg6.read_unread,
    View.ld_unit_zero (S := S1024x2048) hz, View.ld_unit_zero (S := S1024x128) hz]
  rfl

/-- and in the output block the logistic function of it. -/
theorem outL_eq (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : ¬ isFirst i) (hl : isLast i)
    (x0 : Vec F S1024x2048 .f32) (x1 : Vec F S4096x128 .bf16) (x2 : Vec F S1024x128 .f32) (xs : Vec F S1024x128 .f32) :
    outL c i arg2 harg2 arg3 harg3 arg4 harg4 arg5 harg5 arg6 harg6 hf hl x0 x1 x2 xs = k13_pay3 (k13_pay2 x0 (panel i x1) xs) := by
  unfold outL
  rw [View.read_writes_eq_canon _ _ _ (coverO c i arg2 harg2 arg3 harg3 arg4 harg4 arg5 harg5 arg6 harg6 hf hl x0 x1 x2 xs)]
  unfold runL
  dsimp only
  sl_unfold_words
  rw [View.canon_unit_zero hz, View.readCov_unit_zero (S := S1024x128) _ hz]
  simp only [View.readAt_eq_ld, harg2.read_unread, harg3.read_unread, harg6.read_unread,
    View.ld_unit_zero (S := S1024x2048) hz, View.ld_unit_zero (S := S1024x128) hz]
  rfl

/-- The first tile copies the partial sum's block into the accumulator, then adds the tile's product. -/
theorem accF_eq (c : Dev nD) (i : grid13.Coords) (arg2 : Memref sig .tc .vmem S1024x2048 .f32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole) (hf : isFirst i) (hl : ¬ isLast i)
    (x0 : Vec F S1024x2048 .f32) (x1 : Vec F S4096x128 .bf16) (x2 : Vec F S1024x128 .f32) :
    accF c i arg2 harg2 arg3 harg3 arg4 harg4 arg5 harg5 arg6 harg6 hf hl x0 x1 x2 = k13_pay2 x0 (panel i x1) (k13_pay1 x2) := by
  unfold accF
  rw [View.read_writes_eq_canon _ _ _ (coverF c i arg2 harg2 arg3 harg3 arg4 harg4 arg5 harg5 arg6 harg6 hf hl x0 x1 x2)]
  unfold runF
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x2048) hz, View.ld_unit_zero (S := S1024x128) hz]
  rfl

end pieces

/-! ## The payloads at an index, over the extended reals -/

section payloads

open Idealize.ShloMosaic.ValueIdx

/-- The copy of the partial sum's block is the block (two identity reshapes), for any float values. -/
theorem pay1_eq {F : FTy → Type} [FloatOps F] (v : Vec F S1024x128 .f32) : k13_pay1 v = v := by
  unfold k13_pay1
  simp only [shapeCast_self]

/-- The left operand's index of output `(p, q)` at contraction position `k` is `(p, k)`; -/
theorem lhsIdx_eq (p : Fin 1024) (q : Fin 128) (k : Fin 2048) :
    dot_S1024x2048_S2048x128_S1024x128_1_0_0_1_n_n.lhsIdx (ix2 p q)
      ((contrEquiv1 dot_S1024x2048_S2048x128_S1024x128_1_0_0_1_n_n 2048 rfl rfl).symm k) = ix2 p k := by
  have c2 := contrEquiv1_symm_val dot_S1024x2048_S2048x128_S1024x128_1_0_0_1_n_n 2048 rfl rfl k
  funext ax; apply Fin.ext
  match ax with
  | ⟨0, _⟩ => simp [DotDims.lhsIdx, dot_S1024x2048_S2048x128_S1024x128_1_0_0_1_n_n]; rfl
  | ⟨1, _⟩ => simp [DotDims.lhsIdx, dot_S1024x2048_S2048x128_S1024x128_1_0_0_1_n_n]; exact c2

/-- the right operand's is `(k, q)`. -/
theorem rhsIdx_eq (p : Fin 1024) (q : Fin 128) (k : Fin 2048) :
    dot_S1024x2048_S2048x128_S1024x128_1_0_0_1_n_n.rhsIdx (ix2 p q)
      ((contrEquiv1 dot_S1024x2048_S2048x128_S1024x128_1_0_0_1_n_n 2048 rfl rfl).symm k) = ix2 k q := by
  have c2 := contrEquiv1_symm_val dot_S1024x2048_S2048x128_S1024x128_1_0_0_1_n_n 2048 rfl rfl k
  funext ax; apply Fin.ext
  match ax with
  | ⟨0, _⟩ => simp [DotDims.rhsIdx, dot_S1024x2048_S2048x128_S1024x128_1_0_0_1_n_n]; exact c2
  | ⟨1, _⟩ => simp [DotDims.rhsIdx, dot_S1024x2048_S2048x128_S1024x128_1_0_0_1_n_n]; rfl

/-- One tile's update at `(p, q)`: the accumulator there plus the sum over the tile's 2048 contraction positions of
    the products (the narrowing of the left operand and the reshapes are identities on extended reals). -/
theorem pay2_apply (a : Vec Ideal S1024x2048 .f32) (b : Vec Ideal S2048x128 .bf16) (acc : Vec Ideal S1024x128 .f32)
    (p : Fin 1024) (q : Fin 128) :
    k13_pay2 (F := Ideal) a b acc (ix2 p q) = acc (ix2 p q) + ∑ k : Fin 2048, a (ix2 p k) * b (ix2 k q) := by
  unfold k13_pay2
  rw [shapeCast_self, shapeCast_self, addf_apply]
  simp only [matmul]
  rw [Ideal.matmul_constant_zero_apply,
    ← Equiv.sum_comp (contrEquiv1 dot_S1024x2048_S2048x128_S1024x128_1_0_0_1_n_n 2048 rfl rfl).symm]
  refine congrArg (acc (ix2 p q) + ·) (Finset.sum_congr rfl fun k _ => ?_)
  rw [lhsIdx_eq, rhsIdx_eq]
  rfl

/-- The stored output at `(p, q)`: the logistic function of the accumulator there. -/
theorem pay3_apply (acc : Vec Ideal S1024x128 .f32) (p : Fin 1024) (q : Fin 128) :
    k13_pay3 (F := Ideal) acc (ix2 p q) = Ideal.logistic (acc (ix2 p q)) := by
  unfold k13_pay3
  rfl

end payloads

/-! ## The windows' blocks as parts of their arrays -/

section blocks
variable {F : FTy → Type} [FloatOps F]
variable (V : (c : Dev nD) → (b : Ref sig .tc) → Buf (Elt F) ((c : Thread nD τ).loc b))

/-- Point `t` of the 4 × 2 grid is tile `t % 2` of row tile `t / 2`: the block indices of the four windows there. -/
theorem idx_facts : ∀ t : Fin cfg13.N,
    win13_0.index t 0 = t.val / 2 ∧ win13_0.index t 1 = t.val % 2
    ∧ win13_1.index t 0 = 0 ∧ win13_1.index t 1 = 0
    ∧ win13_2.index t 0 = t.val / 2 ∧ win13_2.index t 1 = 0
    ∧ win13_3.index t 0 = t.val / 2 ∧ win13_3.index t 1 = 0
    ∧ (grid13.coords t 1).val = t.val % 2 :=
  (by decide +kernel : ∀ t : Fin grid13.N,
    win13_0.index t 0 = t.val / 2 ∧ win13_0.index t 1 = t.val % 2
    ∧ win13_1.index t 0 = 0 ∧ win13_1.index t 1 = 0
    ∧ win13_2.index t 0 = t.val / 2 ∧ win13_2.index t 1 = 0
    ∧ win13_3.index t 0 = t.val / 2 ∧ win13_3.index t 1 = 0
    ∧ (grid13.coords t 1).val = t.val % 2)

/-- The left operand's block at point `t`: rows `1024 (t / 2) …`, columns `2048 (t % 2) …` of the array. -/
theorem blkA_apply (c : Dev nD) (t : Fin cfg13.N) (x : S1024x2048.Idx) (y : S4096x4096.Idx)
    (h0 : (y 0).val = t.val / 2 * 1024 + (x 0).val) (h1 : (y 1).val = t.val % 2 * 2048 + (x 1).val) :
    (iblk V c 0 t : Vec F S1024x2048 .f32) x = (V c main_arg10 : S4096x4096.Idx → Elt F .f32) y := by
  obtain ⟨i0, i1, -⟩ := idx_facts t
  unfold iblk
  rw [View.read_apply]
  show V c main_arg10 _ = V c main_arg10 _
  congr 1
  funext a
  apply Fin.ext
  match a with
  | ⟨0, _⟩ => show win13_0.index t 0 * 1024 + 1 * (x 0).val = (y 0).val; rw [i0, h0]; omega
  | ⟨1, _⟩ => show win13_0.index t 1 * 2048 + 1 * (x 1).val = (y 1).val; rw [i1, h1]; omega

/-- The right operand's block is the whole array at every point. -/
theorem blkB_apply (c : Dev nD) (t : Fin cfg13.N) (x : S4096x128.Idx) :
    (iblk V c 1 t : Vec F S4096x128 .bf16) x = (V c main_v62 : S4096x128.Idx → Elt F .bf16) x := by
  obtain ⟨-, -, i0, i1, -⟩ := idx_facts t
  unfold iblk
  rw [View.read_apply]
  show V c main_v62 _ = V c main_v62 _
  congr 1
  funext a
  apply Fin.ext
  match a with
  | ⟨0, _⟩ => show win13_1.index t 0 * 4096 + 1 * (x 0).val = (x 0).val; rw [i0]; omega
  | ⟨1, _⟩ => show win13_1.index t 1 * 128 + 1 * (x 1).val = (x 1).val; rw [i1]; omega

/-- The partial sum's block at point `t`: rows `1024 (t / 2) …` of the array. -/
theorem blkP_apply (c : Dev nD) (t : Fin cfg13.N) (x : S1024x128.Idx) (y : S4096x128.Idx)
    (h0 : (y 0).val = t.val / 2 * 1024 + (x 0).val) (h1 : (y 1).val = (x 1).val) :
    (iblk V c 2 t : Vec F S1024x128 .f32) x = (V c main_v68 : S4096x128.Idx → Elt F .f32) y := by
  obtain ⟨-, -, -, -, i0, i1, -⟩ := idx_facts t
  unfold iblk
  rw [View.read_apply]
  show V c main_v68 _ = V c main_v68 _
  congr 1
  funext a
  apply Fin.ext
  match a with
  | ⟨0, _⟩ => show win13_2.index t 0 * 1024 + 1 * (x 0).val = (y 0).val; rw [i0, h0]; omega
  | ⟨1, _⟩ => show win13_2.index t 1 * 128 + 1 * (x 1).val = (y 1).val; rw [i1, h1]; omega

/-- The rows a tile loads of the right operand: row `k` of the tile is row `2048 i₁ + k` of the panel. -/
theorem panel_apply (i : grid13.Coords) (x1 : Vec F S4096x128 .bf16) (x : S2048x128.Idx) (y : S4096x128.Idx)
    (h0 : (y 0).val = 2048 * (i 1).val + (x 0).val) (h1 : (y 1).val = (x 1).val) :
    panel i x1 x = x1 y := by
  show x1 _ = x1 y
  congr 1
  funext a
  apply Fin.ext
  match a with
  | ⟨0, _⟩ => show k13_off1 i 0 + 1 * (x 0).val = (y 0).val; rw [k13_off1_eq i, h0]; show 2048 * (i 1).val + 1 * (x 0).val = _; omega
  | ⟨1, _⟩ => show k13_off1 i 1 + 1 * (x 1).val = (y 1).val; rw [k13_off1_eq i, h1]; show 0 + 1 * (x 1).val = _; omega

end blocks

/-! ## The accumulator and the output block, entry by entry -/

section value

open Idealize.ShloMosaic.ValueIdx Finset

variable (V : (c : Dev nD) → (b : Ref sig .tc) → Buf (Elt Ideal) ((c : Thread nD τ).loc b))

/-- The three input blocks at point `t`, as vectors of their literal shapes. -/
abbrev blkA (c : Dev nD) (t : Fin cfg13.N) : Vec Ideal S1024x2048 .f32 := iblk V c 0 t
abbrev blkB (c : Dev nD) (t : Fin cfg13.N) : Vec Ideal S4096x128 .bf16 := iblk V c 1 t
abbrev blkP (c : Dev nD) (t : Fin cfg13.N) : Vec Ideal S1024x128 .f32 := iblk V c 2 t

/-- The update of either tile at `(p, q)`, over the point's blocks: what the accumulator held plus the tile's 2048 products. -/
theorem tile_apply (c : Dev nD) (t : Fin cfg13.N) (xs : Vec Ideal S1024x128 .f32) (p : Fin 1024) (q : Fin 128) :
    k13_pay2 (F := Ideal) (blkA V c t) (panel (grid13.coords t) (blkB V c t)) xs (ix2 p q)
      = xs (ix2 p q) + ∑ k : Fin 2048, blkA V c t (ix2 p k)
          * panel (grid13.coords t) (blkB V c t) (ix2 k q) :=
  pay2_apply (blkA V c t) (panel (grid13.coords t) (blkB V c t)) xs p q

/-- After the first tile of a row the accumulator at `(p, q)` is the partial sum's block there plus the tile's products. -/
theorem accAt_first (c : Dev nD) (t : Fin cfg13.N) (h0 : t.val % 2 = 0) (p : Fin 1024) (q : Fin 128) :
    accAt V c t.val t.isLt (ix2 p q)
      = blkP V c t (ix2 p q) + ∑ k : Fin 2048, blkA V c t (ix2 p k)
          * panel (grid13.coords t) (blkB V c t) (ix2 k q) := by
  refine (congrFun (accAt_F V c t h0) (ix2 p q)).trans ?_
  refine (congrFun (accF_eq (F := Ideal) c (grid13.coords t) (mA t) (hA t) (mB t) (hB t) (mP t) (hP t) (mO t) (hO t) mAcc
    (Memref.isWhole_whole _) _ _ (iblk V c 0 t) (iblk V c 1 t) (iblk V c 2 t)) (ix2 p q)).trans ?_
  refine (tile_apply V c t (k13_pay1 (iblk V c 2 t)) p q).trans ?_
  exact congrArg (· + _) (congrFun (pay1_eq (F := Ideal) (iblk V c 2 t)) (ix2 p q))

/-- After the second tile it is what the first tile left there plus the tile's products. -/
theorem accAt_later (c : Dev nD) (t : Fin cfg13.N) (h0 : ¬ t.val % 2 = 0) (p : Fin 1024) (q : Fin 128) :
    accAt V c t.val t.isLt (ix2 p q)
      = accAt V c (t.val - 1) (Nat.lt_of_le_of_lt (Nat.sub_le _ _) t.isLt) (ix2 p q)
        + ∑ k : Fin 2048, blkA V c t (ix2 p k)
          * panel (grid13.coords t) (blkB V c t) (ix2 k q) := by
  have h2 : t.val % 2 = 1 := by omega
  refine (congrFun (accAt_L V c t h0 h2) (ix2 p q)).trans ?_
  refine (congrFun (accL_eq (F := Ideal) c (grid13.coords t) (mA t) (hA t) (mB t) (hB t) (mP t) (hP t) (mO t) (hO t) mAcc
    (Memref.isWhole_whole _) _ _ (iblk V c 0 t) (iblk V c 1 t) (iblk V c 2 t)
    (accAt V c (t.val - 1) (Nat.lt_of_le_of_lt (Nat.sub_le _ _) t.isLt))) (ix2 p q)).trans ?_
  exact tile_apply V c t _ p q

/-- The output block after the last tile of a row is the logistic function of the finished accumulator. -/
theorem outAt_apply (c : Dev nD) (t : Fin cfg13.N) (h2 : t.val % 2 = 1) (p : Fin 1024) (q : Fin 128) :
    outAt V c t (ix2 p q) = Ideal.logistic (accAt V c t.val t.isLt (ix2 p q)) := by
  have h0 : ¬ t.val % 2 = 0 := by omega
  have eL := accL_eq (F := Ideal) c (grid13.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  have eO := outL_eq (F := Ideal) c (grid13.coords t) (mA t) (hA t) (mB t) (hB t) (mP t) (hP t) (mO t) (hO t) mAcc
      (Memref.isWhole_whole _) (fun h => h0 ((isFirst_iff t).mp h)) ((isLast_iff t).mpr h2) (iblk V c 0 t) (iblk V c 1 t) (iblk V c 2 t)
      (accAt V c (t.val - 1) (Nat.lt_of_le_of_lt (Nat.sub_le _ _) t.isLt))
  unfold outAt
  rw [dif_pos h2]
  refine (congrFun eO (ix2 p q)).trans ?_
  refine (pay3_apply _ p q).trans ?_
  rw [accAt_L V c t h0 h2]
  exact congrArg Ideal.logistic (congrFun eL.symm (ix2 p q))

end value

/-! ## The running sum along a row of tiles, and the result array -/

section total

open Idealize.ShloMosaic.ValueIdx Finset

variable (V : (c : Dev nD) → (b : Ref sig .tc) → Buf (Elt Ideal) ((c : Thread nD τ).loc b))

/-- The three arrays the region reads, as it finds them: the left operand f32[4096, 4096], the right operand
    bf16[4096, 128] and the partial sum f32[4096, 128], as functions into the extended reals. -/
abbrev arrA (c : Dev nD) : S4096x4096.Idx → EReal := V c main_arg10
abbrev arrB (c : Dev nD) : S4096x128.Idx → EReal := V c main_v62
abbrev arrP (c : Dev nD) : S4096x128.Idx → EReal := V c main_v68

/-- For row `r` and column `q` of the result, the product at contraction position `k` (zero past the end of the
    axis, so that partial sums may range over initial segments of ℕ). -/
def term (c : Dev nD) (r : Fin 4096) (q : Fin 128) (k : ℕ) : EReal :=
  if h : k < 4096 then arrA V c (ix2 r ⟨k, h⟩) * arrB V c (ix2 ⟨k, h⟩ q)
  else 0

theorem rowOf_lt (n : ℕ) (hn : n < cfg13.N) (p : Fin 1024) : n / 2 * 1024 + p.val < 4096 := by
  have hN : cfg13.N = 8 := N_13
  have := p.isLt
  omega

/-- Row `p` of the block of row tile `n / 2` is row `1024 (n / 2) + p` of the array. -/
abbrev rowOf (n : ℕ) (hn : n < cfg13.N) (p : Fin 1024) : Fin 4096 := ⟨n / 2 * 1024 + p.val, rowOf_lt n hn p⟩

/-- The products of tile `t % 2` of a row are the terms at positions `2048 (t % 2) … 2048 (t % 2) + 2047`. -/
theorem tile_sum (c : Dev nD) (t : Fin cfg13.N) (p : Fin 1024) (q : Fin 128) :
    ∑ k : Fin 2048, blkA V c t (ix2 p k) * panel (grid13.coords t) (blkB V c t) (ix2 k q)
      = ∑ k ∈ range 2048, term V c (rowOf t.val t.isLt p) q (t.val % 2 * 2048 + k) := by
  rw [← Fin.sum_univ_eq_sum_range (fun k => term V c (rowOf t.val t.isLt p) q (t.val % 2 * 2048 + k)) 2048]
  refine Finset.sum_congr rfl fun k _ => ?_
  have hk : t.val % 2 * 2048 + k.val < 4096 := by have := k.isLt; omega
  obtain ⟨-, -, -, -, -, -, -, -, hc⟩ := idx_facts t
  have eA : blkA V c t (ix2 p k) = arrA V c (ix2 (rowOf t.val t.isLt p) ⟨_, hk⟩) :=
    blkA_apply V c t (ix2 p k) (ix2 (rowOf t.val t.isLt p) ⟨_, hk⟩) rfl rfl
  have eB : panel (grid13.coords t) (blkB V c t) (ix2 k q) = arrB V c (ix2 ⟨_, hk⟩ q) := by
    refine (panel_apply (grid13.coords t) (blkB V c t) (ix2 k q) (ix2 ⟨_, hk⟩ q) ?_ rfl).trans ?_
    · show t.val % 2 * 2048 + k.val = 2048 * (grid13.coords t 1).val + k.val
      rw [hc]; omega
    · exact blkB_apply V c t (ix2 ⟨_, hk⟩ q)
  unfold term
  rw [dif_pos hk, eA, eB]

/-- THE INVARIANT: after tile `n % 2` of its row the accumulator at `(p, q)` holds the partial sum's entry plus the
    terms of the tiles `0 … n % 2`, by induction along the grid (sums regrouped by associativity only). -/
theorem accAt_apply (c : Dev nD) (n : ℕ) : ∀ (hn : n < cfg13.N) (p : Fin 1024) (q : Fin 128),
    accAt V c n hn (ix2 p q) = arrP V c (ix2 (rowOf n hn p) q)
      + ∑ k ∈ range ((n % 2 + 1) * 2048), term V c (rowOf n hn p) q k := by
  induction n using Nat.strong_induction_on with
  | _ n ih =>
    intro hn p q
    by_cases h0 : n % 2 = 0
    · refine (accAt_first V c ⟨n, hn⟩ h0 p q).trans ?_
      rw [tile_sum V c ⟨n, hn⟩ p q]
      have eP : blkP V c ⟨n, hn⟩ (ix2 p q) = arrP V c (ix2 (rowOf n hn p) q) :=
        blkP_apply V c ⟨n, hn⟩ (ix2 p q) (ix2 (rowOf n hn p) q) rfl rfl
      rw [eP]
      show _ + ∑ k ∈ range 2048, term V c (rowOf n hn p) q (n % 2 * 2048 + k) = _
      rw [h0]
      simp only [Nat.zero_mul, Nat.zero_add, Nat.one_mul]
    · have hpos : n - 1 < n := by omega
      have hn' : n - 1 < cfg13.N := by omega
      refine (accAt_later V c ⟨n, hn⟩ h0 p q).trans ?_
      rw [tile_sum V c ⟨n, hn⟩ p q]
      have e := ih (n - 1) hpos hn' p q
      have hr : rowOf (n - 1) hn' p = rowOf n hn p :=
        Fin.ext (by show (n - 1) / 2 * 1024 + p.val = n / 2 * 1024 + p.val; omega)
      rw [hr] at e
      show accAt V c (n - 1) _ (ix2 p q) + ∑ k ∈ range 2048, term V c (rowOf n hn p) q (n % 2 * 2048 + k) = _
      rw [e, add_assoc]
      congr 1
      have hs : (n % 2 + 1) * 2048 = ((n - 1) % 2 + 1) * 2048 + 2048 := by omega
      have hm : n % 2 * 2048 = ((n - 1) % 2 + 1) * 2048 := by omega
      rw [hs, Finset.sum_range_add, hm]

/-- Both tiles' terms are the whole contraction. -/
theorem range_sum_eq (c : Dev nD) (r : Fin 4096) (q : Fin 128) :
    ∑ k ∈ range 4096, term V c r q k
      = ∑ k : Fin 4096, arrA V c (ix2 r k) * arrB V c (ix2 k q) := by
  rw [← Fin.sum_univ_eq_sum_range (fun k => term V c r q k) 4096]
  refine Finset.sum_congr rfl fun k _ => ?_
  unfold term
  rw [dif_pos k.isLt]

/-- THE RESULT, entry by entry: the logistic function of the partial sum's entry plus the whole contraction. -/
def G (c : Dev nD) : S4096x128.Idx → EReal := fun i =>
  Ideal.logistic (arrP V c i
    + ∑ k : Fin 4096, arrA V c (ix2 (i 0) k) * arrB V c (ix2 k (i 1)))

/-- The output block after the last tile of row tile `t / 2` is rows `1024 (t / 2) …` of the result. -/
theorem outAt_eq_G (c : Dev nD) (t : Fin cfg13.N) (h2 : t.val % 2 = 1) (j : S1024x128.Idx) (y : S4096x128.Idx)
    (h0 : (y 0).val = t.val / 2 * 1024 + (j 0).val) (h1 : (y 1).val = (j 1).val) :
    outAt V c t j = G V c y := by
  obtain ⟨p, q, rfl⟩ : ∃ (p : Fin 1024) (q : Fin 128), j = ix2 p q := ⟨j 0, j 1, eq_ix2 j⟩
  obtain rfl : y = ix2 (rowOf t.val t.isLt p) q := by
    funext a
    match a with
    | ⟨0, _⟩ => exact Fin.ext h0
    | ⟨1, _⟩ => exact Fin.ext h1
  rw [outAt_apply V c t h2 p q, accAt_apply V c t.val t.isLt p q, h2]
  show Ideal.logistic (_ + ∑ k ∈ range 4096, term V c (rowOf t.val t.isLt p) q k) = _
  rw [range_sum_eq]
  rfl

end total

/-! ## From the blocks to the result array -/

section array

open Idealize.ShloMosaic.ValueIdx

variable (V : (c : Dev nD) → (b : Ref sig .tc) → Buf (Elt Ideal) ((c : Thread nD τ).loc b))

/-- What the last tile of a row writes back is the block of `G` at the row tile. -/
theorem flushed_eq (c : Dev nD) (t : Fin cfg13.N) (hf : (cfg13.win 3).flush t = true) :
    (dat V c).flushed 3 t = ((cfg13.win 3).blk t).view.read (Elt Ideal) (G V c) := by
  have h2 : t.val % 2 = 1 := (flush13_3 t).mp hf
  obtain ⟨-, -, -, -, -, -, e0, e1, -⟩ := idx_facts t
  show (cfg13.win 3).cut (grid13.coords t) ((dat V c).after 3 t) = _
  rw [after_3]
  funext j
  rw [View.read_apply]
  refine outAt_eq_G V c t h2 ((cfg13.win 3).xinj (grid13.coords t) j) (((cfg13.win 3).blk t).view.emb j) ?_ ?_
  · show win13_3.index t 0 * 1024 + 1 * (j 0).val = t.val / 2 * 1024 + (j 0).val
    rw [e0]; omega
  · show win13_3.index t 1 * 128 + 1 * (j 1).val = (j 1).val
    rw [e1]; omega

/-- An index of the result array is in point `t`'s block iff each coordinate is in the block's range on its axis. -/
theorem mem_blk (t : Fin cfg13.N) (i : S4096x128.Idx) :
    i ∈ ((cfg13.win 3).blk t).view.set ↔ ∀ a : Fin 2, win13_3.index t a * S1024x128.size a ≤ (i a).val
      ∧ (i a).val < win13_3.index t a * S1024x128.size a + S1024x128.size a := by
  show i ∈ ((View.whole main_v69).slice (win13_3.rect t)).set ↔ _
  rw [View.set_slice_whole, Rect.mem_set_unit]
  exact Iff.rfl

/-- Row `r` of the result is written back by the last tile of row tile `r / 1024`. -/
theorem cover (i : S4096x128.Idx) :
    ∃ t : Fin cfg13.N, (cfg13.win 3).flush t = true ∧ i ∈ ((cfg13.win 3).blk t).view.set := by
  have hN : cfg13.N = 8 := N_13
  have hi0 : (i 0).val < 4096 := (i 0).isLt
  have hi1 : (i 1).val < 128 := (i 1).isLt
  obtain ⟨t, ht⟩ : ∃ t : Fin cfg13.N, t.val = 2 * ((i 0).val / 1024) + 1 := ⟨⟨2 * ((i 0).val / 1024) + 1, by omega⟩, rfl⟩
  obtain ⟨-, -, -, -, -, -, e0, e1, -⟩ := idx_facts t
  refine ⟨t, (flush13_3 t).mpr (by omega), ?_⟩
  rw [mem_blk]
  intro a
  match a with
  | ⟨0, _⟩ =>
    show win13_3.index t 0 * 1024 ≤ (i 0).val ∧ (i 0).val < win13_3.index t 0 * 1024 + 1024
    rw [e0]; omega
  | ⟨1, _⟩ =>
    show win13_3.index t 1 * 128 ≤ (i 1).val ∧ (i 1).val < win13_3.index t 1 * 128 + 128
    rw [e1]; omega

/-- So the result array ends holding `G`. -/
theorem result_eq (c : Dev nD) : (dat V c).arrAt 3 cfg13.N = G V c :=
  (dat V c).arrAt_eq_of_cover 3 (G V c) (flushed_eq V c) cover

/-- THE RESULT ARRAY AT AN INDEX: `logistic (P r q + ∑ k, A r k · B k q)` over the whole contraction axis of 4096. -/
theorem result_apply (c : Dev nD) (r : Fin 4096) (q : Fin 128) :
    ((Region13.dat (F := Ideal) V c).arrAt 3 cfg13.N) (ix2 r q)
      = Ideal.logistic (arrP V c (ix2 r q) + ∑ k : Fin 4096, arrA V c (ix2 r k) * arrB V c (ix2 k q)) := by
  rw [result_eq V c]
  rfl

end array

end Cert.KernelIdeal.Value13

end
-- ==== Proof.KernelIdeal.KernelValue.lean ====
/-
  The idealized kernel program's result is `Model.model` of the argument arrays.

  Region by region: a region's result array is what its value lemma says of the arrays it was entered with; those arrays are
  an argument's launch contents, a projection of its layer, or an earlier region's result (the reads); putting the two
  together gives each result in the model's terms — the nodes' first product, then their update; the edges' transposed
  product, its sum with the doubled adjacency product, then their update; the faces' transposed product, then their update —
  once per layer, the second layer from the first layer's results. The final host operations are the shared tail.
-/
import proofs.«108146_j77455440216408_2_alg».proof.Proof.KernelIdeal.Projections
import proofs.«108146_j77455440216408_2_alg».proof.Proof.KernelIdeal.Value0
import proofs.«108146_j77455440216408_2_alg».proof.Proof.KernelIdeal.Value1
import proofs.«108146_j77455440216408_2_alg».proof.Proof.KernelIdeal.Value2
import proofs.«108146_j77455440216408_2_alg».proof.Proof.KernelIdeal.Value3
import proofs.«108146_j77455440216408_2_alg».proof.Proof.KernelIdeal.Value4
import proofs.«108146_j77455440216408_2_alg».proof.Proof.KernelIdeal.Value5
import proofs.«108146_j77455440216408_2_alg».proof.Proof.KernelIdeal.Value6
import proofs.«108146_j77455440216408_2_alg».proof.Proof.KernelIdeal.Value7
import proofs.«108146_j77455440216408_2_alg».proof.Proof.KernelIdeal.Value8
import proofs.«108146_j77455440216408_2_alg».proof.Proof.KernelIdeal.Value9
import proofs.«108146_j77455440216408_2_alg».proof.Proof.KernelIdeal.Value10
import proofs.«108146_j77455440216408_2_alg».proof.Proof.KernelIdeal.Value11
import proofs.«108146_j77455440216408_2_alg».proof.Proof.KernelIdeal.Value12
import proofs.«108146_j77455440216408_2_alg».proof.Proof.KernelIdeal.Value13

set_option maxRecDepth 16384

noncomputable section

namespace Cert.KernelIdeal.Between

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Model

/-- The edges' first two terms: a partial sum plus the product of the SUM of two square matrices with a panel. -/
def plusDouble (P : Arr 6144 128) (A1 A2 : Arr 6144 6144) (B : Arr 6144 128) : Arr 6144 128 :=
  fun i => P i + ∑ k : Fin 6144, (A1 (ValueIdx.ix2 (i 0) k) + A2 (ValueIdx.ix2 (i 0) k)) * B (ValueIdx.ix2 k (i 1))
/-- The faces' first term: the product of the transpose of a 6144 × 4096 matrix with a panel. -/
def tprod (A : Arr 6144 4096) (B : Arr 6144 128) : Arr 4096 128 :=
  fun i => ∑ k : Fin 6144, A (ValueIdx.ix2 k (i 0)) * B (ValueIdx.ix2 k (i 1))

variable (m : (ℓ : Loc nD τ sig) → Buf (Elt Ideal) ℓ) (c : Dev nD)

/-! ## The first layer -/

/-- The projections of the first layer, in the model's names. -/
abbrev h00 : FVec Ideal S2048x128 .f32 := projN (V0 m c main_arg0) (wAt0 (V0 m c main_arg11))
abbrev h10 : FVec Ideal S6144x128 .f32 := projE (V0 m c main_arg1) (wAt0 (V0 m c main_arg12))
abbrev h01 : FVec Ideal S2048x128 .f32 := projN (V0 m c main_arg0) (wAt0 (V0 m c main_arg13))
abbrev h11 : FVec Ideal S6144x128 .f32 := projE (V0 m c main_arg1) (wAt0 (V0 m c main_arg14))
abbrev h21 : FVec Ideal S4096x128 .f32 := projF (V0 m c main_arg2) (wAt0 (V0 m c main_arg15))
abbrev h12 : FVec Ideal S6144x128 .f32 := projE (V0 m c main_arg1) (wAt0 (V0 m c main_arg16))
abbrev h22 : FVec Ideal S4096x128 .f32 := projF (V0 m c main_arg2) (wAt0 (V0 m c main_arg17))

set_option maxHeartbeats 2000000 in
theorem out0_eq : out0 m c = Value0.prod (V0 m c main_arg7) (h00 m c) := by
  unfold out0; rw [Value0.final]
  dsimp only [rd]
  rw [W1_args m c main_arg7 (by decide), W1_v15 m c]; rfl

set_option maxHeartbeats 2000000 in
theorem out1_eq : out1 m c = nodes (V0 m c main_arg7) (V0 m c main_arg4) (h00 m c) (h10 m c) := by
  unfold out1; rw [Value1.result_eq]
  unfold Value1.G
  dsimp only [Value1.arrP, Value1.arrA, Value1.arrB, rd]
  rw [W3_v28 m c, W3_args m c main_arg4 (by decide), W3_v17 m c, W1_v17 m c, out0_eq m c]
  rfl

set_option maxHeartbeats 2000000 in
theorem out2_eq : out2 m c = Value2.prod (V0 m c main_arg3) (h01 m c) := by
  unfold out2; rw [Value2.final]
  dsimp only [rd]
  rw [W4_args m c main_arg3 (by decide), W4_v19 m c, W1_v19 m c]; rfl

set_option maxHeartbeats 2000000 in
theorem out3_eq : out3 m c = plusDouble (Value2.prod (V0 m c main_arg3) (h01 m c)) (V0 m c main_arg9) (V0 m c main_arg8) (h11 m c) := by
  unfold out3; rw [Value3.result_eq]
  unfold Value3.G
  dsimp only [Value3.arrP, Value3.arrA1, Value3.arrA2, Value3.arrB, rd]
  rw [W6_v30 m c, W6_args m c main_arg9 (by decide), W6_args m c main_arg8 (by decide), W6_v21 m c, W1_v21 m c, out2_eq m c]
  rfl

set_option maxHeartbeats 2000000 in
theorem out4_eq : out4 m c = edges (V0 m c main_arg3) (V0 m c main_arg9) (V0 m c main_arg8) (V0 m c main_arg6) (h01 m c) (h11 m c) (h21 m c) := by
  unfold out4; rw [Value4.result_eq]
  unfold Value4.G
  dsimp only [Value4.arrP, Value4.arrA, Value4.arrB, rd]
  rw [W8_v31 m c, W8_args m c main_arg6 (by decide), W8_v23 m c, W1_v23 m c, out3_eq m c]
  rfl

set_option maxHeartbeats 2000000 in
theorem out5_eq : out5 m c = tprod (V0 m c main_arg5) (h12 m c) := by
  unfold out5; rw [Value5.result_eq]
  unfold Value5.G
  dsimp only [Value5.arrA, Value5.arrB, rd]
  rw [W9_args m c main_arg5 (by decide), W9_v25 m c, W1_v25 m c]
  rfl

set_option maxHeartbeats 2000000 in
theorem out6_eq : out6 m c = faces (V0 m c main_arg5) (V0 m c main_arg10) (h12 m c) (h22 m c) := by
  unfold out6; rw [Value6.result_eq]
  unfold Value6.G
  dsimp only [Value6.arrP, Value6.arrA, Value6.arrB, rd]
  rw [W11_v33 m c, W11_args m c main_arg10 (by decide), W11_v27 m c, W1_v27 m c, out5_eq m c]
  rfl

/-! ## The second layer, from the first layer's results -/

abbrev g00 : FVec Ideal S2048x128 .f32 := projN (out1 m c) (wAt1 (V0 m c main_arg11))
abbrev g10 : FVec Ideal S6144x128 .f32 := projE (out4 m c) (wAt1 (V0 m c main_arg12))
abbrev g01 : FVec Ideal S2048x128 .f32 := projN (out1 m c) (wAt1 (V0 m c main_arg13))
abbrev g11 : FVec Ideal S6144x128 .f32 := projE (out4 m c) (wAt1 (V0 m c main_arg14))
abbrev g21 : FVec Ideal S4096x128 .f32 := projF (out6 m c) (wAt1 (V0 m c main_arg15))
abbrev g12 : FVec Ideal S6144x128 .f32 := projE (out4 m c) (wAt1 (V0 m c main_arg16))
abbrev g22 : FVec Ideal S4096x128 .f32 := projF (out6 m c) (wAt1 (V0 m c main_arg17))

theorem W13_v50' : W13 m c main_v50 = truncf .bf16 (g00 m c) bitsLt_bf16_f32 := by
  rw [W13_v50, W12_v29, W12_args m c main_arg11 (by decide)]
theorem W13_v52' : W13 m c main_v52 = truncf .bf16 (g10 m c) bitsLt_bf16_f32 := by
  rw [W13_v52, W12_v32, W12_args m c main_arg12 (by decide)]
theorem W13_v54' : W13 m c main_v54 = truncf .bf16 (g01 m c) bitsLt_bf16_f32 := by
  rw [W13_v54, W12_v29, W12_args m c main_arg13 (by decide)]
theorem W13_v56' : W13 m c main_v56 = truncf .bf16 (g11 m c) bitsLt_bf16_f32 := by
  rw [W13_v56, W12_v32, W12_args m c main_arg14 (by decide)]
theorem W13_v58' : W13 m c main_v58 = truncf .bf16 (g21 m c) bitsLt_bf16_f32 := by
  rw [W13_v58, W12_v34, W12_args m c main_arg15 (by decide)]
theorem W13_v60' : W13 m c main_v60 = truncf .bf16 (g12 m c) bitsLt_bf16_f32 := by
  rw [W13_v60, W12_v32, W12_args m c main_arg16 (by decide)]
theorem W13_v62' : W13 m c main_v62 = truncf .bf16 (g22 m c) bitsLt_bf16_f32 := by
  rw [W13_v62, W12_v34, W12_args m c main_arg17 (by decide)]

set_option maxHeartbeats 2000000 in
theorem out7_eq : out7 m c = Value7.prod (V0 m c main_arg7) (g00 m c) := by
  unfold out7; rw [Value7.final]
  dsimp only [rd]
  rw [W13_args m c main_arg7 (by decide), W13_v50' m c]; rfl

set_option maxHeartbeats 2000000 in
theorem out8_eq : out8 m c = nodes (V0 m c main_arg7) (V0 m c main_arg4) (g00 m c) (g10 m c) := by
  unfold out8; rw [Value8.result_eq]
  unfold Value8.G
  dsimp only [Value8.arrP, Value8.arrA, Value8.arrB, rd]
  rw [W15_v63 m c, W15_args m c main_arg4 (by decide), W15_v52 m c, W13_v52' m c, out7_eq m c]
  rfl

set_option maxHeartbeats 2000000 in
theorem out9_eq : out9 m c = Value9.prod (V0 m c main_arg3) (g01 m c) := by
  unfold out9; rw [Value9.final]
  dsimp only [rd]
  rw [W16_args m c main_arg3 (by decide), W16_v54 m c, W13_v54' m c]; rfl

set_option maxHeartbeats 2000000 in
theorem out10_eq : out10 m c = plusDouble (Value9.prod (V0 m c main_arg3) (g01 m c)) (V0 m c main_arg9) (V0 m c main_arg8) (g11 m c) := by
  unfold out10; rw [Value10.result_eq]
  unfold Value10.G
  dsimp only [Value10.arrP, Value10.arrA1, Value10.arrA2, Value10.arrB, rd]
  rw [W18_v65 m c, W18_args m c main_arg9 (by decide), W18_args m c main_arg8 (by decide), W18_v56 m c, W13_v56' m c, out9_eq m c]
  rfl

set_option maxHeartbeats 2000000 in
theorem out11_eq : out11 m c = edges (V0 m c main_arg3) (V0 m c main_arg9) (V0 m c main_arg8) (V0 m c main_arg6) (g01 m c) (g11 m c) (g21 m c) := by
  unfold out11; rw [Value11.result_eq]
  unfold Value11.G
  dsimp only [Value11.arrP, Value11.arrA, Value11.arrB, rd]
  rw [W20_v66 m c, W20_args m c main_arg6 (by decide), W20_v58 m c, W13_v58' m c, out10_eq m c]
  rfl

set_option maxHeartbeats 2000000 in
theorem out12_eq : out12 m c = tprod (V0 m c main_arg5) (g12 m c) := by
  unfold out12; rw [Value12.result_eq]
  unfold Value12.G
  dsimp only [Value12.arrA, Value12.arrB, rd]
  rw [W21_args m c main_arg5 (by decide), W21_v60 m c, W13_v60' m c]
  rfl

set_option maxHeartbeats 2000000 in
theorem out13_eq : out13 m c = faces (V0 m c main_arg5) (V0 m c main_arg10) (g12 m c) (g22 m c) := by
  unfold out13; rw [Value13.result_eq]
  unfold Value13.G
  dsimp only [Value13.arrP, Value13.arrA, Value13.arrB, rd]
  rw [W23_v68 m c, W23_args m c main_arg10 (by decide), W23_v62 m c, W13_v62' m c, out12_eq m c]
  rfl

/-! ## The result -/

set_option maxHeartbeats 4000000 in
/-- What the last valuation holds at the result: the model of the launch contents of the arguments. -/
theorem kernel_value : V32 m (outs m) c main_v89
    = model (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) (V0 m c main_arg19) (V0 m c main_arg20) (V0 m c main_arg21) (V0 m c main_arg22) (V0 m c main_arg23) := by
  show StableHlo.after hostOps14_7 (StableHlo.after hostOps14_6 (StableHlo.after hostOps14_5 (StableHlo.after hostOps14_4
      (StableHlo.after hostOps14_3 (StableHlo.after hostOps14_2 (StableHlo.after hostOps14_1 (StableHlo.after hostOps14 (V24 m (outs m) c)))))))) (Proc.devRef .tc main_v89) = _
  rw [V24_eq, Tail.kernel_tail]
  rw [W24_v64 m c, W24_v67 m c, W24_v69 m c, W24_args m c main_arg18 (by decide), W24_args m c main_arg19 (by decide), W24_args m c main_arg20 (by decide),
    W24_args m c main_arg21 (by decide), W24_args m c main_arg22 (by decide), W24_args m c main_arg23 (by decide)]
  rw [out8_eq m c, out11_eq m c, out13_eq m c]
  unfold model
  dsimp only [g00, g10, g01, g11, g21, g12, g22]
  rw [out1_eq m c, out4_eq m c, out6_eq m c]

end Cert.KernelIdeal.Between

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.Reference.LayerAt.lean ====
/-
  One layer of the reference, read entry by entry over the extended reals. The reference spells each of the three
  updates as products of matrices added together and passed through `1 / (1 + exp (-s))`, the two incidence matrices
  transposed first. At an entry `(r, q)` a product of an `m × k` by a `k × n` matrix is the sum over the contracted
  coordinate of the products of the entries, a transposed matrix at `(a, b)` is the matrix at `(b, a)`, a sum of arrays
  is the sum of the entries, and the spelled quotient is the logistic function of the entry: so each update is the
  function of the model, index by index.
-/
import proofs.«108146_j77455440216408_2_alg».proof.ReferenceIdeal
import proofs.«108146_j77455440216408_2_alg».proof.Proof.Gen.ReferenceIdeal
import proofs.«108146_j77455440216408_2_alg».proof.Proof.Model
import proofs.«108146_j77455440216408_2_alg».proof.Proof.LibPlainProduct

noncomputable section

namespace Cert.ReferenceIdeal.LayerAt

open Cert.ReferenceIdeal Cert.ReferenceIdeal.Gen
open Idealize.ShloMosaic Idealize.ShloMosaic.ValueIdx

/-- A transposed matrix at `(a, b)` is the matrix at `(b, a)`. -/
theorem transpose_at {m n : ℕ} (x : (⟨2, ![m, n]⟩ : Shape).Idx → EReal)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply _ _ _ _ _ fun c => by match c with | ⟨0, _⟩ => rfl | ⟨1, _⟩ => rfl

/-- The nodes' update: `logistic (au0 · h00 + inc1n · h10)`. -/
theorem nodes_eq (au0 : FVec Ideal S2048x2048 .f32) (inc1n : FVec Ideal S2048x6144 .f32) (h00 : FVec Ideal S2048x128 .f32)
    (h10 : FVec Ideal S6144x128 .f32) :
    Host.divf (broadcastInDim S2048x128 ![] bcast_S_S2048x128 (constant (F := Ideal) S_ .f32 0x3F800000#32))
      (addf (broadcastInDim S2048x128 ![] bcast_S_S2048x128 (constant (F := Ideal) S_ .f32 0x3F800000#32))
        (Host.exp (Host.negf (addf (Host.dotGeneral dot_S2048x2048_S2048x128_S2048x128_1_0_0_1_n_n none au0 h00)
          (Host.dotGeneral dot_S2048x6144_S6144x128_S2048x128_1_0_0_1_n_n none inc1n h10)))))
      = Cert.Model.nodes au0 inc1n h00 h10 := by
  funext i
  obtain ⟨r, q, rfl⟩ : ∃ (r : Fin 2048) (q : Fin 128), i = ix2 r q := ⟨i 0, i 1, eq_ix2 i⟩
  rw [PlainProduct.logistic_spelled_at, addf_apply,
    PlainProduct.dotGeneral_at dot_S2048x2048_S2048x128_S2048x128_1_0_0_1_n_n rfl,
    PlainProduct.dotGeneral_at dot_S2048x6144_S6144x128_S2048x128_1_0_0_1_n_n rfl]
  rfl

/-- The edges' update: `logistic ((inc1ᵀ · h01 + (ad1 + au1) · h11) + inc2n · h21)`. -/
theorem edges_eq (inc1 : FVec Ideal S2048x6144 .f32) (ad1 au1 : FVec Ideal S6144x6144 .f32) (inc2n : FVec Ideal S6144x4096 .f32)
    (h01 : FVec Ideal S2048x128 .f32) (h11 : FVec Ideal S6144x128 .f32) (h21 : FVec Ideal S4096x128 .f32) :
    Host.divf (broadcastInDim S6144x128 ![] bcast_S_S6144x128 (constant (F := Ideal) S_ .f32 0x3F800000#32))
      (addf (broadcastInDim S6144x128 ![] bcast_S_S6144x128 (constant (F := Ideal) S_ .f32 0x3F800000#32))
        (Host.exp (Host.negf (addf (addf (Host.dotGeneral dot_S6144x2048_S2048x128_S6144x128_1_0_0_1_n_n none
            (transpose S6144x2048 [1, 0] inc1 transposes_S2048x6144_S6144x2048_1_0) h01)
          (Host.dotGeneral dot_S6144x6144_S6144x128_S6144x128_1_0_0_1_n_n none (addf ad1 au1) h11))
          (Host.dotGeneral dot_S6144x4096_S4096x128_S6144x128_1_0_0_1_n_n none inc2n h21)))))
      = Cert.Model.edges inc1 ad1 au1 inc2n h01 h11 h21 := by
  funext i
  obtain ⟨r, q, rfl⟩ : ∃ (r : Fin 6144) (q : Fin 128), i = ix2 r q := ⟨i 0, i 1, eq_ix2 i⟩
  rw [PlainProduct.logistic_spelled_at, addf_apply, addf_apply,
    PlainProduct.dotGeneral_at dot_S6144x2048_S2048x128_S6144x128_1_0_0_1_n_n rfl,
    PlainProduct.dotGeneral_at dot_S6144x6144_S6144x128_S6144x128_1_0_0_1_n_n rfl,
    PlainProduct.dotGeneral_at dot_S6144x4096_S4096x128_S6144x128_1_0_0_1_n_n rfl]
  have eT : ∀ c : Fin 2048, transpose S6144x2048 [1, 0] inc1 transposes_S2048x6144_S6144x2048_1_0 (ix2 r c) = inc1 (ix2 c r) :=
    fun c => transpose_at inc1 transposes_S2048x6144_S6144x2048_1_0 r c
  simp only [eT]
  rfl

/-- The faces' update: `logistic (inc2ᵀ · h12 + ad2 · h22)`. -/
theorem faces_eq (inc2 : FVec Ideal S6144x4096 .f32) (ad2 : FVec Ideal S4096x4096 .f32) (h12 : FVec Ideal S6144x128 .f32)
    (h22 : FVec Ideal S4096x128 .f32) :
    Host.divf (broadcastInDim S4096x128 ![] bcast_S_S4096x128 (constant (F := Ideal) S_ .f32 0x3F800000#32))
      (addf (broadcastInDim S4096x128 ![] bcast_S_S4096x128 (constant (F := Ideal) S_ .f32 0x3F800000#32))
        (Host.exp (Host.negf (addf (Host.dotGeneral dot_S4096x6144_S6144x128_S4096x128_1_0_0_1_n_n none
            (transpose S4096x6144 [1, 0] inc2 transposes_S6144x4096_S4096x6144_1_0) h12)
          (Host.dotGeneral dot_S4096x4096_S4096x128_S4096x128_1_0_0_1_n_n none ad2 h22)))))
      = Cert.Model.faces inc2 ad2 h12 h22 := by
  funext i
  obtain ⟨r, q, rfl⟩ : ∃ (r : Fin 4096) (q : Fin 128), i = ix2 r q := ⟨i 0, i 1, eq_ix2 i⟩
  rw [PlainProduct.logistic_spelled_at, addf_apply,
    PlainProduct.dotGeneral_at dot_S4096x6144_S6144x128_S4096x128_1_0_0_1_n_n rfl,
    PlainProduct.dotGeneral_at dot_S4096x4096_S4096x128_S4096x128_1_0_0_1_n_n rfl]
  have eT : ∀ c : Fin 6144, transpose S4096x6144 [1, 0] inc2 transposes_S6144x4096_S4096x6144_1_0 (ix2 r c) = inc2 (ix2 c r) :=
    fun c => transpose_at inc2 transposes_S6144x4096_S4096x6144_1_0 r c
  simp only [eT]
  rfl

end Cert.ReferenceIdeal.LayerAt

end
-- ==== Proof.Reference.Value.lean ====
/-
  The value of the reference's result, over the extended reals: what the line of 219 host operations leaves in the
  result's buffer is the model of the twenty-four arguments. The first stretch of operations is the first layer — the
  seven weight slices, the projections, the three updates, each spelled as products added and `1 / (1 + exp (-s))` —,
  the second the second layer over the first layer's three results, the third the heads, the means over the entries that
  are not NaN with their guards, and the sum. Each stretch is read over ARBITRARY contents of the buffers, its result a
  term of what the buffers it reads held before it; at an index a product is the sum over the contracted coordinate, a
  transposed matrix the matrix at the swapped index, and the spelled quotient the logistic function, which makes each
  update the model's; the stretches compose because no operation writes an argument's buffer.
-/
import proofs.«108146_j77455440216408_2_alg».proof.Proof.Reference.Run
import proofs.«108146_j77455440216408_2_alg».proof.Proof.Reference.LayerAt
import proofs.«108146_j77455440216408_2_alg».proof.Proof.Model
import proofs.«108146_j77455440216408_2_alg».proof.Proof.LibPlainProduct
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo
open Idealize.ShloMosaic.ValueIdx

variable (V W : Valuation τ sig (Elt Ideal))

/-! ## The arguments through each stretch -/

/-- No operation of the first stretch writes an argument's buffer: it holds after the stretch what it held before. -/
theorem kept0 (r : Ref sig .tc) (hr : r ∈ RefRun.args) :
    after RefRun.ops0 W (Proc.devRef .tc r) = W (Proc.devRef .tc r) :=
  after_of_forall_not_mem _ W fun op hop => List.forall_iff_forall_mem.mp RefRun.ops0_keeps op hop r hr
/-- Nor of the second. -/
theorem kept1 (r : Ref sig .tc) (hr : r ∈ RefRun.args) :
    after RefRun.ops1 W (Proc.devRef .tc r) = W (Proc.devRef .tc r) :=
  after_of_forall_not_mem _ W fun op hop => List.forall_iff_forall_mem.mp RefRun.ops1_keeps op hop r hr

/-! ## What the stretches compute, over any contents -/

set_option maxHeartbeats 4000000 in
/-- The first stretch ends by cutting slice 1 out of the first stacked weight array. -/
theorem w0_v53 : after RefRun.ops0 W (Proc.devRef .tc main_v53)
    = extractStridedSlice S1x128x128 ![1, 0, 0] (W (Proc.devRef .tc main_arg11)) slices_S2x128x128_S1x128x128_1_0_0 := by
  dsimp only [RefRun.ops0]
  after_results_simp

set_option maxHeartbeats 4000000 in
/-- The second stretch ends with the nodes' head's bias as a row. -/
theorem w1_v107 : after RefRun.ops1 W (Proc.devRef .tc main_v107)
    = broadcastInDim S1x2 ![1] bcast_S2_S1x2_1 (W (Proc.devRef .tc main_arg19)) := by
  dsimp only [RefRun.ops1]
  after_results_simp

/-! ## The two layers, read off the first two stretches over any contents -/

set_option maxHeartbeats 4000000 in
/-- The first layer's node features: the nodes' update of the arguments, with slice 0 of the weights. -/
theorem w0_v24 : after RefRun.ops0 W (Proc.devRef .tc main_v24) = Cert.Model.nodes (W (Proc.devRef .tc main_arg7)) (W (Proc.devRef .tc main_arg4)) (Cert.Model.projN (W (Proc.devRef .tc main_arg0)) (Cert.Model.wAt0 (W (Proc.devRef .tc main_arg11)))) (Cert.Model.projE (W (Proc.devRef .tc main_arg1)) (Cert.Model.wAt0 (W (Proc.devRef .tc main_arg12)))) := by
  dsimp only [RefRun.ops0]
  after_results_simp
  exact LayerAt.nodes_eq _ _ _ _

set_option maxHeartbeats 4000000 in
/-- The first layer's edge features. -/
theorem w0_v40 : after RefRun.ops0 W (Proc.devRef .tc main_v40) = Cert.Model.edges (W (Proc.devRef .tc main_arg3)) (W (Proc.devRef .tc main_arg9)) (W (Proc.devRef .tc main_arg8)) (W (Proc.devRef .tc main_arg6)) (Cert.Model.projN (W (Proc.devRef .tc main_arg0)) (Cert.Model.wAt0 (W (Proc.devRef .tc main_arg13)))) (Cert.Model.projE (W (Proc.devRef .tc main_arg1)) (Cert.Model.wAt0 (W (Proc.devRef .tc main_arg14)))) (Cert.Model.projF (W (Proc.devRef .tc main_arg2)) (Cert.Model.wAt0 (W (Proc.devRef .tc main_arg15)))) := by
  dsimp only [RefRun.ops0]
  after_results_simp
  exact LayerAt.edges_eq _ _ _ _ _ _ _

set_option maxHeartbeats 4000000 in
/-- The first layer's face features. -/
theorem w0_v52 : after RefRun.ops0 W (Proc.devRef .tc main_v52) = Cert.Model.faces (W (Proc.devRef .tc main_arg5)) (W (Proc.devRef .tc main_arg10)) (Cert.Model.projE (W (Proc.devRef .tc main_arg1)) (Cert.Model.wAt0 (W (Proc.devRef .tc main_arg16)))) (Cert.Model.projF (W (Proc.devRef .tc main_arg2)) (Cert.Model.wAt0 (W (Proc.devRef .tc main_arg17)))) := by
  dsimp only [RefRun.ops0]
  after_results_simp
  exact LayerAt.faces_eq _ _ _ _

set_option maxHeartbeats 4000000 in
/-- The second layer's node features: the same update of the first layer's three results, with slice 1 of the weights (the first weight array's slice was cut by the stretch before). -/
theorem w1_v77 : after RefRun.ops1 W (Proc.devRef .tc main_v77) = Cert.Model.nodes (W (Proc.devRef .tc main_arg7)) (W (Proc.devRef .tc main_arg4)) (Cert.Model.projN (W (Proc.devRef .tc main_v24)) (fun i => shapeCast S128x128 (W (Proc.devRef .tc main_v53)) shapeCasts_S1x128x128_S128x128 i)) (Cert.Model.projE (W (Proc.devRef .tc main_v40)) (Cert.Model.wAt1 (W (Proc.devRef .tc main_arg12)))) := by
  dsimp only [RefRun.ops1]
  after_results_simp
  exact LayerAt.nodes_eq _ _ _ _

set_option maxHeartbeats 4000000 in
/-- The second layer's edge features. -/
theorem w1_v93 : after RefRun.ops1 W (Proc.devRef .tc main_v93) = Cert.Model.edges (W (Proc.devRef .tc main_arg3)) (W (Proc.devRef .tc main_arg9)) (W (Proc.devRef .tc main_arg8)) (W (Proc.devRef .tc main_arg6)) (Cert.Model.projN (W (Proc.devRef .tc main_v24)) (Cert.Model.wAt1 (W (Proc.devRef .tc main_arg13)))) (Cert.Model.projE (W (Proc.devRef .tc main_v40)) (Cert.Model.wAt1 (W (Proc.devRef .tc main_arg14)))) (Cert.Model.projF (W (Proc.devRef .tc main_v52)) (Cert.Model.wAt1 (W (Proc.devRef .tc main_arg15)))) := by
  dsimp only [RefRun.ops1]
  after_results_simp
  exact LayerAt.edges_eq _ _ _ _ _ _ _

set_option maxHeartbeats 4000000 in
/-- The second layer's face features. -/
theorem w1_v105 : after RefRun.ops1 W (Proc.devRef .tc main_v105) = Cert.Model.faces (W (Proc.devRef .tc main_arg5)) (W (Proc.devRef .tc main_arg10)) (Cert.Model.projE (W (Proc.devRef .tc main_v40)) (Cert.Model.wAt1 (W (Proc.devRef .tc main_arg16)))) (Cert.Model.projF (W (Proc.devRef .tc main_v52)) (Cert.Model.wAt1 (W (Proc.devRef .tc main_arg17)))) := by
  dsimp only [RefRun.ops1]
  after_results_simp
  exact LayerAt.faces_eq _ _ _ _

set_option maxHeartbeats 4000000 in
/-- The second stretch's last product: the nodes' scores before the bias, the second layer's node features times the
    head's weights. -/
theorem w1_v106 : after RefRun.ops1 W (Proc.devRef .tc main_v106)
    = Host.dotGeneral (F := Ideal) (φ₁ := .f32) (φ₂ := .f32) dot_S2048x128_S128x2_S2048x2_1_0_0_1_n_n none
        (Cert.Model.nodes (W (Proc.devRef .tc main_arg7)) (W (Proc.devRef .tc main_arg4)) (Cert.Model.projN (W (Proc.devRef .tc main_v24)) (fun i => shapeCast S128x128 (W (Proc.devRef .tc main_v53)) shapeCasts_S1x128x128_S128x128 i)) (Cert.Model.projE (W (Proc.devRef .tc main_v40)) (Cert.Model.wAt1 (W (Proc.devRef .tc main_arg12)))))
        (W (Proc.devRef .tc main_arg18)) := by
  dsimp only [RefRun.ops1]
  after_results_simp
  exact congrArg (fun x => Host.dotGeneral (F := Ideal) (φ₁ := .f32) (φ₂ := .f32) dot_S2048x128_S128x2_S2048x2_1_0_0_1_n_n none x (W (Proc.devRef .tc main_arg18))) (LayerAt.nodes_eq _ _ _ _)

/-! ## The heads, the means and their sum, read off the third stretch -/

/-- The shared tail, from the nodes' scores before the bias and the nodes' bias as a row (the two values the second
    stretch ends with) and the edges' and faces' features and heads. -/
def tailFrom (d0 : FVec Ideal S2048x2 .f32) (b0r : FVec Ideal S1x2 .f32) (x1 : FVec Ideal S6144x128 .f32) (x2 : FVec Ideal S4096x128 .f32)
    (w1 : FVec Ideal S128x2 .f32) (b1 : FVec Ideal S2 .f32) (w2 : FVec Ideal S128x2 .f32) (b2 : FVec Ideal S2 .f32) : FVec Ideal S2 .f32 :=
  addf (addf (Cert.KernelIdeal.Tail.nanToNum (Cert.KernelIdeal.Tail.nanmean0 (addf d0 (broadcastInDim S2048x2 ![0, 1] bcast_S1x2_S2048x2_0_1 b0r))))
      (Cert.KernelIdeal.Tail.nanToNum (Cert.KernelIdeal.Tail.nanmean1 (addf (Host.dotGeneral (F := Ideal) (φ₁ := .f32) (φ₂ := .f32) dot_S6144x128_S128x2_S6144x2_1_0_0_1_n_n none x1 w1)
        (broadcastInDim S6144x2 ![0, 1] bcast_S1x2_S6144x2_0_1 (broadcastInDim S1x2 ![1] bcast_S2_S1x2_1 b1))))))
    (Cert.KernelIdeal.Tail.nanToNum (Cert.KernelIdeal.Tail.nanmean2 (addf (Host.dotGeneral (F := Ideal) (φ₁ := .f32) (φ₂ := .f32) dot_S4096x128_S128x2_S4096x2_1_0_0_1_n_n none x2 w2)
      (broadcastInDim S4096x2 ![0, 1] bcast_S1x2_S4096x2_0_1 (broadcastInDim S1x2 ![1] bcast_S2_S1x2_1 b2)))))

/-- With the nodes' product and bias row in place it is the shared tail. -/
theorem tailFrom_eq (x0 : FVec Ideal S2048x128 .f32) (x1 : FVec Ideal S6144x128 .f32) (x2 : FVec Ideal S4096x128 .f32)
    (w0 : FVec Ideal S128x2 .f32) (b0 : FVec Ideal S2 .f32) (w1 : FVec Ideal S128x2 .f32) (b1 : FVec Ideal S2 .f32)
    (w2 : FVec Ideal S128x2 .f32) (b2 : FVec Ideal S2 .f32) :
    tailFrom (Host.dotGeneral (F := Ideal) (φ₁ := .f32) (φ₂ := .f32) dot_S2048x128_S128x2_S2048x2_1_0_0_1_n_n none x0 w0) (broadcastInDim S1x2 ![1] bcast_S2_S1x2_1 b0)
        x1 x2 w1 b1 w2 b2
      = Cert.KernelIdeal.Tail.tail x0 x1 x2 w0 b0 w1 b1 w2 b2 := rfl

set_option maxHeartbeats 8000000 in
/-- The third stretch — the three bias additions, the three means over the entries that are not NaN with their guards,
    and the two additions — computes that function of what the buffers hold before it. -/
theorem tail_eq : after RefRun.ops2 W (Proc.devRef .tc main_v125)
    = tailFrom (W (Proc.devRef .tc main_v106)) (W (Proc.devRef .tc main_v107)) (W (Proc.devRef .tc main_v93)) (W (Proc.devRef .tc main_v105)) (W (Proc.devRef .tc main_arg20)) (W (Proc.devRef .tc main_arg21)) (W (Proc.devRef .tc main_arg22)) (W (Proc.devRef .tc main_arg23)) := by
  dsimp only [RefRun.ops2]
  after_results_simp
  rfl

/-! ## The whole line -/

set_option maxHeartbeats 4000000 in
/-- The result of the whole line of operations is the model of the twenty-four arguments: the third stretch is the
    tail of what the second leaves, the second the second layer of what the first leaves, the first the first layer of
    the arguments, and no stretch writes an argument. -/
theorem value (V : Valuation τ sig (Elt Ideal)) :
    StableHlo.after RefRun.ops V (Proc.devRef .tc main_v125)
      = Cert.Model.model (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23) := by
  rw [RefRun.after_ops, tail_eq, w1_v106, w1_v107, w1_v93, w1_v105,
    kept1 (after RefRun.ops0 V) main_arg20 (by decide), kept1 (after RefRun.ops0 V) main_arg21 (by decide), kept1 (after RefRun.ops0 V) main_arg22 (by decide), kept1 (after RefRun.ops0 V) main_arg23 (by decide),
    kept0 V main_arg20 (by decide),
    kept0 V main_arg21 (by decide),
    kept0 V main_arg22 (by decide),
    kept0 V main_arg23 (by decide),
    kept0 V main_arg18 (by decide),
    kept0 V main_arg19 (by decide),
    kept0 V main_arg3 (by decide),
    kept0 V main_arg4 (by decide),
    kept0 V main_arg5 (by decide),
    kept0 V main_arg6 (by decide),
    kept0 V main_arg7 (by decide),
    kept0 V main_arg8 (by decide),
    kept0 V main_arg9 (by decide),
    kept0 V main_arg10 (by decide),
    kept0 V main_arg12 (by decide),
    kept0 V main_arg13 (by decide),
    kept0 V main_arg14 (by decide),
    kept0 V main_arg15 (by decide),
    kept0 V main_arg16 (by decide),
    kept0 V main_arg17 (by decide),
    w0_v24, w0_v40, w0_v52, w0_v53]
  exact tailFrom_eq _ _ _ _ _ _ _ _ _

end Cert.ReferenceIdeal.RefValue

end
-- ==== Proof.Bridge.lean ====
/-
  The value claim: the idealized kernel program and the idealized reference, run from memories that agree on the arguments,
  both terminate with the same result as extended reals, element by element, and their arguments unchanged. Each program's
  result is `Model.model` of ITS argument arrays — the kernel's by its run with every unscoped buffer named at the end and the
  regions' results read at an index; the reference's by its run and its operations read one by one — and the arguments agree.
-/
import proofs.«108146_j77455440216408_2_alg».proof.Proof.Gen.Pre_finite_inputs
import proofs.«108146_j77455440216408_2_alg».proof.Proof.KernelIdeal.RunAll
import proofs.«108146_j77455440216408_2_alg».proof.Proof.KernelIdeal.KernelValue
import proofs.«108146_j77455440216408_2_alg».proof.Proof.Reference.Value

set_option maxRecDepth 16384

noncomputable section

namespace Cert.Proof.Bridge

open Idealize.ShloMosaic Idealize.ShloMosaic.TcCoe Idealize.SL.Sem
open Cert.KernelIdeal.Gen Cert.ReferenceIdeal.Gen Cert.Pre_finite_inputs.Gen

/-- An unscoped TensorCore reference of the kernel program is among those its last thread state holds. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

set_option maxHeartbeats 4000000 in
theorem algebraic : Cert.algebraic_KernelIdeal_ReferenceIdeal := by
  intro m ρ m' ρ' _ hagree
  refine ⟨fun c => Cert.Model.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · -- the kernel program's run: every unscoped buffer at the last valuation; the result and the arguments read off it
    refine (θ_run (Cert.KernelIdeal.defs (F := Ideal)) _ _).mono (fun r h c => ?_) (Cert.KernelIdeal.Between.run_all (F := Ideal) m ρ)
    have hc := h c
    exact ⟨(hc _ (mem_uc Cert.KernelIdeal.main_v89 (by decide))).trans (Cert.KernelIdeal.Between.kernel_value m c),
      (hc _ (mem_uc Cert.KernelIdeal.main_arg0 (by decide))).trans (Cert.KernelIdeal.Gen.V32_main_arg0 m (Cert.KernelIdeal.Between.outs m) c),
      (hc _ (mem_uc Cert.KernelIdeal.main_arg1 (by decide))).trans (Cert.KernelIdeal.Gen.V32_main_arg1 m (Cert.KernelIdeal.Between.outs m) c),
      (hc _ (mem_uc Cert.KernelIdeal.main_arg2 (by decide))).trans (Cert.KernelIdeal.Gen.V32_main_arg2 m (Cert.KernelIdeal.Between.outs m) c),
      (hc _ (mem_uc Cert.KernelIdeal.main_arg3 (by decide))).trans (Cert.KernelIdeal.Gen.V32_main_arg3 m (Cert.KernelIdeal.Between.outs m) c),
      (hc _ (mem_uc Cert.KernelIdeal.main_arg4 (by decide))).trans (Cert.KernelIdeal.Gen.V32_main_arg4 m (Cert.KernelIdeal.Between.outs m) c),
      (hc _ (mem_uc Cert.KernelIdeal.main_arg5 (by decide))).trans (Cert.KernelIdeal.Gen.V32_main_arg5 m (Cert.KernelIdeal.Between.outs m) c),
      (hc _ (mem_uc Cert.KernelIdeal.main_arg6 (by decide))).trans (Cert.KernelIdeal.Gen.V32_main_arg6 m (Cert.KernelIdeal.Between.outs m) c),
      (hc _ (mem_uc Cert.KernelIdeal.main_arg7 (by decide))).trans (Cert.KernelIdeal.Gen.V32_main_arg7 m (Cert.KernelIdeal.Between.outs m) c),
      (hc _ (mem_uc Cert.KernelIdeal.main_arg8 (by decide))).trans (Cert.KernelIdeal.Gen.V32_main_arg8 m (Cert.KernelIdeal.Between.outs m) c),
      (hc _ (mem_uc Cert.KernelIdeal.main_arg9 (by decide))).trans (Cert.KernelIdeal.Gen.V32_main_arg9 m (Cert.KernelIdeal.Between.outs m) c),
      (hc _ (mem_uc Cert.KernelIdeal.main_arg10 (by decide))).trans (Cert.KernelIdeal.Gen.V32_main_arg10 m (Cert.KernelIdeal.Between.outs m) c),
      (hc _ (mem_uc Cert.KernelIdeal.main_arg11 (by decide))).trans (Cert.KernelIdeal.Gen.V32_main_arg11 m (Cert.KernelIdeal.Between.outs m) c),
      (hc _ (mem_uc Cert.KernelIdeal.main_arg12 (by decide))).trans (Cert.KernelIdeal.Gen.V32_main_arg12 m (Cert.KernelIdeal.Between.outs m) c),
      (hc _ (mem_uc Cert.KernelIdeal.main_arg13 (by decide))).trans (Cert.KernelIdeal.Gen.V32_main_arg13 m (Cert.KernelIdeal.Between.outs m) c),
      (hc _ (mem_uc Cert.KernelIdeal.main_arg14 (by decide))).trans (Cert.KernelIdeal.Gen.V32_main_arg14 m (Cert.KernelIdeal.Between.outs m) c),
      (hc _ (mem_uc Cert.KernelIdeal.main_arg15 (by decide))).trans (Cert.KernelIdeal.Gen.V32_main_arg15 m (Cert.KernelIdeal.Between.outs m) c),
      (hc _ (mem_uc Cert.KernelIdeal.main_arg16 (by decide))).trans (Cert.KernelIdeal.Gen.V32_main_arg16 m (Cert.KernelIdeal.Between.outs m) c),
      (hc _ (mem_uc Cert.KernelIdeal.main_arg17 (by decide))).trans (Cert.KernelIdeal.Gen.V32_main_arg17 m (Cert.KernelIdeal.Between.outs m) c),
      (hc _ (mem_uc Cert.KernelIdeal.main_arg18 (by decide))).trans (Cert.KernelIdeal.Gen.V32_main_arg18 m (Cert.KernelIdeal.Between.outs m) c),
      (hc _ (mem_uc Cert.KernelIdeal.main_arg19 (by decide))).trans (Cert.KernelIdeal.Gen.V32_main_arg19 m (Cert.KernelIdeal.Between.outs m) c),
      (hc _ (mem_uc Cert.KernelIdeal.main_arg20 (by decide))).trans (Cert.KernelIdeal.Gen.V32_main_arg20 m (Cert.KernelIdeal.Between.outs m) c),
      (hc _ (mem_uc Cert.KernelIdeal.main_arg21 (by decide))).trans (Cert.KernelIdeal.Gen.V32_main_arg21 m (Cert.KernelIdeal.Between.outs m) c),
      (hc _ (mem_uc Cert.KernelIdeal.main_arg22 (by decide))).trans (Cert.KernelIdeal.Gen.V32_main_arg22 m (Cert.KernelIdeal.Between.outs m) c),
      (hc _ (mem_uc Cert.KernelIdeal.main_arg23 (by decide))).trans (Cert.KernelIdeal.Gen.V32_main_arg23 m (Cert.KernelIdeal.Between.outs m) c)⟩
  · -- the reference's run: its result is the model of ITS arguments, which agree with the kernel program's
    refine (θ_run (Cert.ReferenceIdeal.defs (F := Ideal)) _ _).mono (fun r h c => ?_) (Cert.ReferenceIdeal.RefRun.run (F := Ideal) m' ρ')
    obtain ⟨hv, hargs⟩ := h c
    refine ⟨hv.trans ((Cert.ReferenceIdeal.RefValue.value (fun b => m' (c, b))).trans ?_),
      hargs Cert.ReferenceIdeal.main_arg0 (Cert.ReferenceIdeal.RefRun.args_kept Cert.ReferenceIdeal.main_arg0 (by decide)),
      hargs Cert.ReferenceIdeal.main_arg1 (Cert.ReferenceIdeal.RefRun.args_kept Cert.ReferenceIdeal.main_arg1 (by decide)),
      hargs Cert.ReferenceIdeal.main_arg2 (Cert.ReferenceIdeal.RefRun.args_kept Cert.ReferenceIdeal.main_arg2 (by decide)),
      hargs Cert.ReferenceIdeal.main_arg3 (Cert.ReferenceIdeal.RefRun.args_kept Cert.ReferenceIdeal.main_arg3 (by decide)),
      hargs Cert.ReferenceIdeal.main_arg4 (Cert.ReferenceIdeal.RefRun.args_kept Cert.ReferenceIdeal.main_arg4 (by decide)),
      hargs Cert.ReferenceIdeal.main_arg5 (Cert.ReferenceIdeal.RefRun.args_kept Cert.ReferenceIdeal.main_arg5 (by decide)),
      hargs Cert.ReferenceIdeal.main_arg6 (Cert.ReferenceIdeal.RefRun.args_kept Cert.ReferenceIdeal.main_arg6 (by decide)),
      hargs Cert.ReferenceIdeal.main_arg7 (Cert.ReferenceIdeal.RefRun.args_kept Cert.ReferenceIdeal.main_arg7 (by decide)),
      hargs Cert.ReferenceIdeal.main_arg8 (Cert.ReferenceIdeal.RefRun.args_kept Cert.ReferenceIdeal.main_arg8 (by decide)),
      hargs Cert.ReferenceIdeal.main_arg9 (Cert.ReferenceIdeal.RefRun.args_kept Cert.ReferenceIdeal.main_arg9 (by decide)),
      hargs Cert.ReferenceIdeal.main_arg10 (Cert.ReferenceIdeal.RefRun.args_kept Cert.ReferenceIdeal.main_arg10 (by decide)),
      hargs Cert.ReferenceIdeal.main_arg11 (Cert.ReferenceIdeal.RefRun.args_kept Cert.ReferenceIdeal.main_arg11 (by decide)),
      hargs Cert.ReferenceIdeal.main_arg12 (Cert.ReferenceIdeal.RefRun.args_kept Cert.ReferenceIdeal.main_arg12 (by decide)),
      hargs Cert.ReferenceIdeal.main_arg13 (Cert.ReferenceIdeal.RefRun.args_kept Cert.ReferenceIdeal.main_arg13 (by decide)),
      hargs Cert.ReferenceIdeal.main_arg14 (Cert.ReferenceIdeal.RefRun.args_kept Cert.ReferenceIdeal.main_arg14 (by decide)),
      hargs Cert.ReferenceIdeal.main_arg15 (Cert.ReferenceIdeal.RefRun.args_kept Cert.ReferenceIdeal.main_arg15 (by decide)),
      hargs Cert.ReferenceIdeal.main_arg16 (Cert.ReferenceIdeal.RefRun.args_kept Cert.ReferenceIdeal.main_arg16 (by decide)),
      hargs Cert.ReferenceIdeal.main_arg17 (Cert.ReferenceIdeal.RefRun.args_kept Cert.ReferenceIdeal.main_arg17 (by decide)),
      hargs Cert.ReferenceIdeal.main_arg18 (Cert.ReferenceIdeal.RefRun.args_kept Cert.ReferenceIdeal.main_arg18 (by decide)),
      hargs Cert.ReferenceIdeal.main_arg19 (Cert.ReferenceIdeal.RefRun.args_kept Cert.ReferenceIdeal.main_arg19 (by decide)),
      hargs Cert.ReferenceIdeal.main_arg20 (Cert.ReferenceIdeal.RefRun.args_kept Cert.ReferenceIdeal.main_arg20 (by decide)),
      hargs Cert.ReferenceIdeal.main_arg21 (Cert.ReferenceIdeal.RefRun.args_kept Cert.ReferenceIdeal.main_arg21 (by decide)),
      hargs Cert.ReferenceIdeal.main_arg22 (Cert.ReferenceIdeal.RefRun.args_kept Cert.ReferenceIdeal.main_arg22 (by decide)),
      hargs Cert.ReferenceIdeal.main_arg23 (Cert.ReferenceIdeal.RefRun.args_kept Cert.ReferenceIdeal.main_arg23 (by decide))⟩
    show Cert.Model.model (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]

end Cert.Proof.Bridge

end
-- ==== Proof.lean ====
/-
  The certificate: the kernel program and its idealization each run to the end from any memory satisfying the precondition,
  fault nowhere and leave their arguments as they found them (fourteen blocked-matrix-product regions among host operations,
  each region's accumulator carried between the tiles of a row of its contraction axis); the reference does the same (a host
  program); the idealization rewrote no operation, so it is the program's own text read over the extended reals; and over
  the extended reals the idealized kernel program and the idealized reference compute the same two numbers from the same
  arguments: two layers of simplicial message passing — projections, neighbourhood products summed per rank, the logistic
  function — then three classification heads, column means and their sum. A product accumulated tile by tile is the whole
  product because addition of extended reals is associative and commutative; nothing needs the inputs to be finite.
-/
import proofs.«108146_j77455440216408_2_alg».proof.Defs
import proofs.«108146_j77455440216408_2_alg».proof.Proof.Gen.Kernel
import proofs.«108146_j77455440216408_2_alg».proof.Proof.Gen.KernelIdeal
import proofs.«108146_j77455440216408_2_alg».proof.Proof.Gen.ReferenceIdeal
import proofs.«108146_j77455440216408_2_alg».proof.Proof.Gen.Pre_finite_inputs
import proofs.«108146_j77455440216408_2_alg».proof.Proof.Kernel.Frame
import proofs.«108146_j77455440216408_2_alg».proof.Proof.KernelIdeal.Frame
import proofs.«108146_j77455440216408_2_alg».proof.Proof.Reference.Run
import proofs.«108146_j77455440216408_2_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Between.frame m ρ,
  fun m ρ _ => Cert.KernelIdeal.Between.frame m ρ,
  Cert.ReferenceIdeal.RefRun.frame,
  trivial,
  Cert.Proof.Bridge.algebraic⟩

end Cert.Proof

end
